-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v283)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v283) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v350) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x800000 : Shape := ⟨2, ![2, 800000]⟩
abbrev S4x3x128 : Shape := ⟨3, ![4, 3, 128]⟩
abbrev S128 : Shape := ⟨1, ![128]⟩
abbrev S4x128x128 : Shape := ⟨3, ![4, 128, 128]⟩
abbrev S128x3 : Shape := ⟨2, ![128, 3]⟩
abbrev S3 : Shape := ⟨1, ![3]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S4x3x128 : S_.BroadcastsInDim S4x3x128 (![] : Fin 0 → Fin S4x3x128.rank)
  reducesTo_S4x3x128_S_d0_1_2 : S4x3x128.ReducesTo [0, 1, 2] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg15 : FVec F S128 .f32) (main_arg16 : FVec F S128x3 .f32) (main_arg17 : FVec F S3 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x3 .f32 := Host.absf main_arg16
  let main_cst_28 : FVec F S_ .f32 := constant S_ .f32 0x7F800000#32
  let main_v75 : FVec F S128x3 .f32 := broadcastInDim S128x3 ![] bcast_S_S128x3 main_cst_28
  let main_v76 : IVec S128x3 1 := cmpf .olt main_v74 main_v75
  let main_c_29 : IVec S_ 1 := constantI S_ 1 1#1
  let main_v77 : IVec S_ 1 := (fun x v => Host.reduce IntOp.andi x v reducesTo_S128x3_S_d0_1 h_S_) main_v76 main_c_29
  let main_v78 : IVec S_ 1 := andi main_v73 main_v77
  let main_v79 : FVec F S3 .f32 := Host.absf main_arg17
  let main_cst_30 : FVec F S_ .f32 := constant S_ .f32 0x7F800000#32
  let main_v80 : FVec F S3 .f32 := broadcastInDim S3 ![] bcast_S_S3 main_cst_30
  let main_v81 : IVec S3 1 := cmpf .olt main_v79 main_v80
  let main_c_31 : IVec S_ 1 := constantI S_ 1 1#1
  let main_v82 : IVec S_ 1 := (fun x v => Host.reduce IntOp.andi x v reducesTo_S3_S_d0 h_S_) main_v81 main_c_31
  let main_v83 : IVec S_ 1 := andi main_v78 main_v82
  main_v83

def fn_part3 {F : FTy → Type} [FloatOps F] (main_arg12 : FVec F S128 .f32) (main_arg13 : FVec F S128 .f32) (main_arg14 : FVec F S4x128x128 .f32) (main_arg15 : FVec F S128 .f32) (main_arg16 : FVec F S128x3 .f32) (main_arg17 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S4x128x128 .f32 := Host.absf main_arg14
  let main_cst_24 : FVec F S_ .f32 := constant S_ .f32 0x7F800000#32
  let main_v65 : FVec F S4x128x128 .f32 := broadcastInDim S4x128x128 ![] bcast_S_S4x128x128 main_cst_24
  let main_v66 : IVec S4x128x128 1 := cmpf .olt main_v64 main_v65
  let main_c_25 : IVec S_ 1 := constantI S_ 1 1#1
  let main_v67 : IVec S_ 1 := (fun x v => Host.reduce IntOp.andi x v reducesTo_S4x128x128_S_d0_1_2 h_S_) main_v66 main_c_25
  fn_part4 (F := F) main_arg15 main_arg16 main_arg17 main_v63 main_v67

def fn_part2 {F : FTy → Type} [FloatOps F] (main_arg8 : FVec F S128 .f32) (main_arg9 : FVec F S128 .f32) (main_arg10 : FVec F S4x128x128 .f32) (main_arg11 : FVec F S128 .f32) (main_arg12 : FVec F S128 .f32) (main_arg13 : FVec F S128 .f32) (main_arg14 : FVec F S4x128x128 .f32) (main_arg15 : FVec F S128 .f32) (main_arg16 : FVec F S128x3 .f32) (main_arg17 : FVec F S3 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S4x128x128 .f32 := Host.absf main_arg10
  let main_cst_16 : FVec F S_ .f32 := constant S_ .f32 0x7F800000#32
  let main_v45 : FVec F S4x128x128 .f32 := broadcastInDim S4x128x128 ![] bcast_S_S4x128x128 main_cst_16
  let main_v46 : IVec S4x128x128 1 := cmpf .olt main_v44 main_v45
  let main_c_17 : IVec S_ 1 := constantI S_ 1 1#1
  let main_v47 : IVec S_ 1 := (fun x v => Host.reduce IntOp.andi x v reducesTo_S4x128x128_S_d0_1_2 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S4x128x128 .f32) (main_arg7 : FVec F S128 .f32) (main_arg8 : FVec F S128 .f32) (main_arg9 : FVec F S128 .f32) (main_arg10 : FVec F S4x128x128 .f32) (main_arg11 : FVec F S128 .f32) (main_arg12 : FVec F S128 .f32) (main_arg13 : FVec F S128 .f32) (main_arg14 : FVec F S4x128x128 .f32) (main_arg15 : FVec F S128 .f32) (main_arg16 : FVec F S128x3 .f32) (main_arg17 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S4x128x128 .f32 := Host.absf main_arg6
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x3 .f32) (main_arg1 : IVec S2x800000 32) (main_arg2 : FVec F S4x3x128 .f32) (main_arg3 : FVec F S128 .f32) (main_arg4 : FVec F S128 .f32) (main_arg5 : FVec F S128 .f32) (main_arg6 : FVec F S4x128x128 .f32) (main_arg7 : FVec F S128 .f32) (main_arg8 : FVec F S128 .f32) (main_arg9 : FVec F S128 .f32) (main_arg10 : FVec F S4x128x128 .f32) (main_arg11 : FVec F S128 .f32) (main_arg12 : FVec F S128 .f32) (main_arg13 : FVec F S128 .f32) (main_arg14 : FVec F S4x128x128 .f32) (main_arg15 : FVec F S128 .f32) (main_arg16 : FVec F S128x3 .f32) (main_arg17 : FVec F S3 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S4x3x128 .f32 := Host.absf main_arg2
  let main_cst_0 : FVec F S_ .f32 := constant S_ .f32 0x7F800000#32
  let main_v5 : FVec F S4x3x128 .f32 := broadcastInDim S4x3x128 ![] bcast_S_S4x3x128 main_cst_0
  let main_v6 : IVec S4x3x128 1 := cmpf .olt main_v4 main_v5
  let main_c_1 : IVec S_ 1 := constantI S_ 1 1#1
  let main_v7 : IVec S_ 1 := (fun x v => Host.reduce IntOp.andi x v reducesTo_S4x3x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x3 : Shape := ⟨2, ![50000, 3]⟩
abbrev S2x800000 : Shape := ⟨2, ![2, 800000]⟩
abbrev S4x3x128 : Shape := ⟨3, ![4, 3, 128]⟩
abbrev S128 : Shape := ⟨1, ![128]⟩
abbrev S4x128x128 : Shape := ⟨3, ![4, 128, 128]⟩
abbrev S128x3 : Shape := ⟨2, ![128, 3]⟩
abbrev S3 : Shape := ⟨1, ![3]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x3 : Shape := ⟨2, ![800000, 3]⟩
abbrev S50000x1x3 : Shape := ⟨3, ![50000, 1, 3]⟩
abbrev S50000x4x3 : Shape := ⟨3, ![50000, 4, 3]⟩
abbrev S50000x12 : Shape := ⟨2, ![50000, 12]⟩
abbrev S12x128 : Shape := ⟨2, ![12, 128]⟩
abbrev S1x128 : Shape := ⟨2, ![1, 128]⟩
abbrev S50000x128 : Shape := ⟨2, ![50000, 128]⟩
abbrev S2000x12 : Shape := ⟨2, ![2000, 12]⟩
abbrev S2000x128 : Shape := ⟨2, ![2000, 128]⟩
abbrev S800000x128 : Shape := ⟨2, ![800000, 128]⟩
abbrev S50000x1x128 : Shape := ⟨3, ![50000, 1, 128]⟩
abbrev S50000x4x128 : Shape := ⟨3, ![50000, 4, 128]⟩
abbrev S50000x512 : Shape := ⟨2, ![50000, 512]⟩
abbrev S512x128 : Shape := ⟨2, ![512, 128]⟩
abbrev S2000x512 : Shape := ⟨2, ![2000, 512]⟩
abbrev S1x3 : Shape := ⟨2, ![1, 3]⟩
abbrev S2000x3 : Shape := ⟨2, ![2000, 3]⟩
abbrev S2000 : Shape := ⟨1, ![2000]⟩
abbrev S2000x1 : Shape := ⟨2, ![2000, 1]⟩

abbrev nBuf : Space → Nat
  | .hbm => 429
  | .vmem => 54
  | .smem => 0
  | _ => 0

abbrev hbmTy0_0 (i : Nat) : BufTy := match i % 128 with
  | 0 => ⟨S50000x3, .f32⟩
  | 1 => ⟨S2x800000, .i32⟩
  | 2 => ⟨S4x3x128, .f32⟩
  | 3 => ⟨S128, .f32⟩
  | 4 => ⟨S128, .f32⟩
  | 5 => ⟨S128, .f32⟩
  | 6 => ⟨S4x128x128, .f32⟩
  | 7 => ⟨S128, .f32⟩
  | 8 => ⟨S128, .f32⟩
  | 9 => ⟨S128, .f32⟩
  | 10 => ⟨S4x128x128, .f32⟩
  | 11 => ⟨S128, .f32⟩
  | 12 => ⟨S128, .f32⟩
  | 13 => ⟨S128, .f32⟩
  | 14 => ⟨S4x128x128, .f32⟩
  | 15 => ⟨S128, .f32⟩
  | 16 => ⟨S128x3, .f32⟩
  | 17 => ⟨S3, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S800000, .f32⟩
  | 59 => ⟨S800000x1, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x3, .f32⟩
  | 69 => ⟨S800000x3, .f32⟩
  | 70 => ⟨S800000x3, .f32⟩
  | 71 => ⟨S_, .f32⟩
  | 72 => ⟨S50000x3, .f32⟩
  | 73 => ⟨S800000x1, .i32⟩
  | 74 => ⟨S50000x3, .f32⟩
  | 75 => ⟨S800000x1, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x3, .f32⟩
  | 85 => ⟨S800000x3, .f32⟩
  | 86 => ⟨S800000x3, .f32⟩
  | 87 => ⟨S_, .f32⟩
  | 88 => ⟨S50000x3, .f32⟩
  | 89 => ⟨S800000x1, .i32⟩
  | 90 => ⟨S50000x3, .f32⟩
  | 91 => ⟨S_, .f32⟩
  | 92 => ⟨S50000x3, .f32⟩
  | 93 => ⟨S50000x3, .f32⟩
  | 94 => ⟨S50000x3, .f32⟩
  | 95 => ⟨S800000x1, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x3, .f32⟩
  | 105 => ⟨S800000x3, .f32⟩
  | 106 => ⟨S800000x3, .f32⟩
  | 107 => ⟨S_, .f32⟩
  | 108 => ⟨S50000x3, .f32⟩
  | 109 => ⟨S800000x1, .i32⟩
  | 110 => ⟨S50000x3, .f32⟩
  | 111 => ⟨S_, .f32⟩
  | 112 => ⟨S50000x3, .f32⟩
  | 113 => ⟨S50000x3, .f32⟩
  | 114 => ⟨S50000x3, .f32⟩
  | 115 => ⟨S50000x1x3, .f32⟩
  | 116 => ⟨S50000x1x3, .f32⟩
  | 117 => ⟨S50000x1x3, .f32⟩
  | 118 => ⟨S50000x1x3, .f32⟩
  | 119 => ⟨S50000x4x3, .f32⟩
  | 120 => ⟨S50000x12, .f32⟩
  | 121 => ⟨S50000x12, .bf16⟩
  | 122 => ⟨S12x128, .f32⟩
  | 123 => ⟨S12x128, .bf16⟩
  | 124 => ⟨S1x128, .f32⟩
  | 125 => ⟨S50000x128, .f32⟩
  | 126 => ⟨S_, .f32⟩
  | 127 => ⟨S128, .f32⟩
  | _ => ⟨S50000x3, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S_, .i32⟩
  | 5 => ⟨S_, .f32⟩
  | 6 => ⟨S128, .f32⟩
  | 7 => ⟨S1x128, .f32⟩
  | 8 => ⟨S_, .f32⟩
  | 9 => ⟨S1x128, .f32⟩
  | 10 => ⟨S1x128, .f32⟩
  | 11 => ⟨S50000x128, .f32⟩
  | 12 => ⟨S50000x128, .f32⟩
  | 13 => ⟨S50000x128, .f32⟩
  | 14 => ⟨S_, .f32⟩
  | 15 => ⟨S_, .f32⟩
  | 16 => ⟨S_, .f32⟩
  | 17 => ⟨S_, .f32⟩
  | 18 => ⟨S128, .f32⟩
  | 19 => ⟨S128, .f32⟩
  | 20 => ⟨S128, .f32⟩
  | 21 => ⟨S_, .f32⟩
  | 22 => ⟨S_, .i1⟩
  | 23 => ⟨S_, .f32⟩
  | 24 => ⟨S_, .f32⟩
  | 25 => ⟨S128, .f32⟩
  | 26 => ⟨S128, .f32⟩
  | 27 => ⟨S1x128, .f32⟩
  | 28 => ⟨S1x128, .f32⟩
  | 29 => ⟨S1x128, .f32⟩
  | 30 => ⟨S50000x128, .f32⟩
  | 31 => ⟨S800000x1, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S800000x128, .f32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S800000x1, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S_, .f32⟩
  | 64 => ⟨S50000x128, .f32⟩
  | 65 => ⟨S50000x128, .f32⟩
  | 66 => ⟨S50000x128, .f32⟩
  | 67 => ⟨S800000x1, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S800000x128, .f32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S_, .f32⟩
  | 84 => ⟨S50000x128, .f32⟩
  | 85 => ⟨S50000x128, .f32⟩
  | 86 => ⟨S50000x128, .f32⟩
  | 87 => ⟨S50000x1x128, .f32⟩
  | 88 => ⟨S50000x1x128, .f32⟩
  | 89 => ⟨S50000x1x128, .f32⟩
  | 90 => ⟨S50000x1x128, .f32⟩
  | 91 => ⟨S50000x4x128, .f32⟩
  | 92 => ⟨S50000x512, .f32⟩
  | 93 => ⟨S50000x512, .bf16⟩
  | 94 => ⟨S512x128, .f32⟩
  | 95 => ⟨S512x128, .bf16⟩
  | 96 => ⟨S1x128, .f32⟩
  | 97 => ⟨S50000x128, .f32⟩
  | 98 => ⟨S_, .f32⟩
  | 99 => ⟨S128, .f32⟩
  | 100 => ⟨S_, .f32⟩
  | 101 => ⟨S128, .f32⟩
  | 102 => ⟨S128, .f32⟩
  | 103 => ⟨S1x128, .f32⟩
  | 104 => ⟨S_, .i32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S50000x128, .f32⟩
  | 112 => ⟨S50000x128, .f32⟩
  | 113 => ⟨S50000x128, .f32⟩
  | 114 => ⟨S_, .f32⟩
  | 115 => ⟨S_, .f32⟩
  | 116 => ⟨S_, .f32⟩
  | 117 => ⟨S_, .f32⟩
  | 118 => ⟨S128, .f32⟩
  | 119 => ⟨S128, .f32⟩
  | 120 => ⟨S128, .f32⟩
  | 121 => ⟨S_, .f32⟩
  | 122 => ⟨S_, .i1⟩
  | 123 => ⟨S_, .f32⟩
  | 124 => ⟨S_, .f32⟩
  | 125 => ⟨S128, .f32⟩
  | 126 => ⟨S128, .f32⟩
  | 127 => ⟨S1x128, .f32⟩
  | _ => ⟨S50000x3, .f32⟩

abbrev hbmTy0_2 (i : Nat) : BufTy := match i % 128 with
  | 0 => ⟨S1x128, .f32⟩
  | 1 => ⟨S1x128, .f32⟩
  | 2 => ⟨S50000x128, .f32⟩
  | 3 => ⟨S800000x1, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x128, .f32⟩
  | 13 => ⟨S800000x128, .f32⟩
  | 14 => ⟨S800000x128, .f32⟩
  | 15 => ⟨S_, .f32⟩
  | 16 => ⟨S50000x128, .f32⟩
  | 17 => ⟨S800000x1, .i32⟩
  | 18 => ⟨S50000x128, .f32⟩
  | 19 => ⟨S800000x1, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S800000x128, .f32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S_, .f32⟩
  | 36 => ⟨S50000x128, .f32⟩
  | 37 => ⟨S50000x128, .f32⟩
  | 38 => ⟨S50000x128, .f32⟩
  | 39 => ⟨S800000x1, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S800000x128, .f32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S_, .f32⟩
  | 56 => ⟨S50000x128, .f32⟩
  | 57 => ⟨S50000x128, .f32⟩
  | 58 => ⟨S50000x128, .f32⟩
  | 59 => ⟨S50000x1x128, .f32⟩
  | 60 => ⟨S50000x1x128, .f32⟩
  | 61 => ⟨S50000x1x128, .f32⟩
  | 62 => ⟨S50000x1x128, .f32⟩
  | 63 => ⟨S50000x4x128, .f32⟩
  | 64 => ⟨S50000x512, .f32⟩
  | 65 => ⟨S50000x512, .bf16⟩
  | 66 => ⟨S512x128, .f32⟩
  | 67 => ⟨S512x128, .bf16⟩
  | 68 => ⟨S1x128, .f32⟩
  | 69 => ⟨S50000x128, .f32⟩
  | 70 => ⟨S_, .f32⟩
  | 71 => ⟨S128, .f32⟩
  | 72 => ⟨S_, .f32⟩
  | 73 => ⟨S128, .f32⟩
  | 74 => ⟨S128, .f32⟩
  | 75 => ⟨S1x128, .f32⟩
  | 76 => ⟨S_, .i32⟩
  | 77 => ⟨S_, .f32⟩
  | 78 => ⟨S128, .f32⟩
  | 79 => ⟨S1x128, .f32⟩
  | 80 => ⟨S_, .f32⟩
  | 81 => ⟨S1x128, .f32⟩
  | 82 => ⟨S1x128, .f32⟩
  | 83 => ⟨S50000x128, .f32⟩
  | 84 => ⟨S50000x128, .f32⟩
  | 85 => ⟨S50000x128, .f32⟩
  | 86 => ⟨S_, .f32⟩
  | 87 => ⟨S_, .f32⟩
  | 88 => ⟨S_, .f32⟩
  | 89 => ⟨S_, .f32⟩
  | 90 => ⟨S128, .f32⟩
  | 91 => ⟨S128, .f32⟩
  | 92 => ⟨S128, .f32⟩
  | 93 => ⟨S_, .f32⟩
  | 94 => ⟨S_, .i1⟩
  | 95 => ⟨S_, .f32⟩
  | 96 => ⟨S_, .f32⟩
  | 97 => ⟨S128, .f32⟩
  | 98 => ⟨S128, .f32⟩
  | 99 => ⟨S1x128, .f32⟩
  | 100 => ⟨S1x128, .f32⟩
  | 101 => ⟨S1x128, .f32⟩
  | 102 => ⟨S50000x128, .f32⟩
  | 103 => ⟨S800000x1, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S800000x1, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x3, .f32⟩

abbrev hbmTy0_3 (i : Nat) : BufTy := match i % 128 with
  | 0 => ⟨S800000x128, .f32⟩
  | 1 => ⟨S800000x128, .f32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S_, .f32⟩
  | 8 => ⟨S50000x128, .f32⟩
  | 9 => ⟨S50000x128, .f32⟩
  | 10 => ⟨S50000x128, .f32⟩
  | 11 => ⟨S800000x1, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S800000x128, .f32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S_, .f32⟩
  | 28 => ⟨S50000x128, .f32⟩
  | 29 => ⟨S50000x128, .f32⟩
  | 30 => ⟨S50000x128, .f32⟩
  | 31 => ⟨S50000x1x128, .f32⟩
  | 32 => ⟨S50000x1x128, .f32⟩
  | 33 => ⟨S50000x1x128, .f32⟩
  | 34 => ⟨S50000x1x128, .f32⟩
  | 35 => ⟨S50000x4x128, .f32⟩
  | 36 => ⟨S50000x512, .f32⟩
  | 37 => ⟨S50000x512, .bf16⟩
  | 38 => ⟨S512x128, .f32⟩
  | 39 => ⟨S512x128, .bf16⟩
  | 40 => ⟨S1x128, .f32⟩
  | 41 => ⟨S50000x128, .f32⟩
  | 42 => ⟨S128x3, .bf16⟩
  | 43 => ⟨S1x3, .f32⟩
  | 44 => ⟨S50000x3, .f32⟩
  | _ => ⟨S50000x3, .f32⟩

abbrev hbmTy (i : Nat) : BufTy := match i / 128 with
  | 0 => hbmTy0_0 i
  | 1 => hbmTy0_1 i
  | 2 => hbmTy0_2 i
  | 3 => hbmTy0_3 i
  | _ => ⟨S50000x3, .f32⟩

abbrev bufTy : (tb : Table) → Fin (tcTables nBuf tb) → BufTy
  | .hbm, ⟨i, _⟩ => hbmTy i
  | .local _ .vmem, ⟨0, _⟩ => ⟨S2000x12, .bf16⟩
  | .local _ .vmem, ⟨1, _⟩ => ⟨S2000x12, .bf16⟩
  | .local _ .vmem, ⟨2, _⟩ => ⟨S12x128, .bf16⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x512, .bf16⟩
  | .local _ .vmem, ⟨15, _⟩ => ⟨S2000x512, .bf16⟩
  | .local _ .vmem, ⟨16, _⟩ => ⟨S512x128, .bf16⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x512, .bf16⟩
  | .local _ .vmem, ⟨29, _⟩ => ⟨S2000x512, .bf16⟩
  | .local _ .vmem, ⟨30, _⟩ => ⟨S512x128, .bf16⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x512, .bf16⟩
  | .local _ .vmem, ⟨43, _⟩ => ⟨S2000x512, .bf16⟩
  | .local _ .vmem, ⟨44, _⟩ => ⟨S512x128, .bf16⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S128x3, .bf16⟩
  | .local _ .vmem, ⟨51, _⟩ => ⟨S1x3, .f32⟩
  | .local _ .vmem, ⟨52, _⟩ => ⟨S2000x3, .f32⟩
  | .local _ .vmem, ⟨53, _⟩ => ⟨S2000x3, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v13 : Ref sig .tc := ⟨.hbm, 38, rfl⟩
abbrev main_c : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_5 : Ref sig .tc := ⟨.hbm, 49, rfl⟩
abbrev main_v22 : Ref sig .tc := ⟨.hbm, 50, rfl⟩
abbrev main_v23 : Ref sig .tc := ⟨.hbm, 51, rfl⟩
abbrev main_c_6 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_7 : Ref sig .tc := ⟨.hbm, 60, rfl⟩
abbrev main_v31 : Ref sig .tc := ⟨.hbm, 61, rfl⟩
abbrev main_v32 : Ref sig .tc := ⟨.hbm, 62, rfl⟩
abbrev main_c_8 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_9 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_10 : Ref sig .tc := ⟨.hbm, 76, rfl⟩
abbrev main_v44 : Ref sig .tc := ⟨.hbm, 77, rfl⟩
abbrev main_v45 : Ref sig .tc := ⟨.hbm, 78, rfl⟩
abbrev main_c_11 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_12 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_13 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_c_14 : Ref sig .tc := ⟨.hbm, 96, rfl⟩
abbrev main_v60 : Ref sig .tc := ⟨.hbm, 97, rfl⟩
abbrev main_v61 : Ref sig .tc := ⟨.hbm, 98, rfl⟩
abbrev main_c_15 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_16 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_17 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_18 : Ref sig .tc := ⟨.hbm, 126, rfl⟩
abbrev main_v86 : Ref sig .tc := ⟨.hbm, 127, rfl⟩
abbrev main_cst_19 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_c_20 : Ref sig .tc := ⟨.hbm, 132, rfl⟩
abbrev main_call1_cst : Ref sig .tc := ⟨.hbm, 133, rfl⟩
abbrev main_call1_v0 : Ref sig .tc := ⟨.hbm, 134, rfl⟩
abbrev main_call1_v1 : Ref sig .tc := ⟨.hbm, 135, rfl⟩
abbrev main_call1_cst_0 : Ref sig .tc := ⟨.hbm, 136, rfl⟩
abbrev main_call1_v2 : Ref sig .tc := ⟨.hbm, 137, rfl⟩
abbrev main_call1_v3 : Ref sig .tc := ⟨.hbm, 138, rfl⟩
abbrev main_call1_v4 : Ref sig .tc := ⟨.hbm, 139, rfl⟩
abbrev main_call1_v5 : Ref sig .tc := ⟨.hbm, 140, rfl⟩
abbrev main_call1_v6 : Ref sig .tc := ⟨.hbm, 141, rfl⟩
abbrev main_call1_v7 : Ref sig .tc := ⟨.hbm, 142, rfl⟩
abbrev main_call1_cst_1 : Ref sig .tc := ⟨.hbm, 143, rfl⟩
abbrev main_call1_v8 : Ref sig .tc := ⟨.hbm, 144, rfl⟩
abbrev main_call1_cst_2 : Ref sig .tc := ⟨.hbm, 145, rfl⟩
abbrev main_call1_v9 : Ref sig .tc := ⟨.hbm, 146, rfl⟩
abbrev main_call1_v10 : Ref sig .tc := ⟨.hbm, 147, rfl⟩
abbrev main_call1_v11 : Ref sig .tc := ⟨.hbm, 148, rfl⟩
abbrev main_call1_cst_3 : Ref sig .tc := ⟨.hbm, 149, rfl⟩
abbrev main_call1_v12 : Ref sig .tc := ⟨.hbm, 150, rfl⟩
abbrev main_call1_cst_4 : Ref sig .tc := ⟨.hbm, 151, rfl⟩
abbrev main_call1_call0_v0 : Ref sig .tc := ⟨.hbm, 152, rfl⟩
abbrev main_call1_call0_v1 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_c_21 : Ref sig .tc := ⟨.hbm, 160, rfl⟩
abbrev main_v96 : Ref sig .tc := ⟨.hbm, 161, rfl⟩
abbrev main_v97 : Ref sig .tc := ⟨.hbm, 162, rfl⟩
abbrev main_c_22 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_cst_23 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_c_24 : Ref sig .tc := ⟨.hbm, 176, rfl⟩
abbrev main_v109 : Ref sig .tc := ⟨.hbm, 177, rfl⟩
abbrev main_v110 : Ref sig .tc := ⟨.hbm, 178, rfl⟩
abbrev main_c_25 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_cst_26 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_cst_27 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_c_28 : Ref sig .tc := ⟨.hbm, 196, rfl⟩
abbrev main_v125 : Ref sig .tc := ⟨.hbm, 197, rfl⟩
abbrev main_v126 : Ref sig .tc := ⟨.hbm, 198, rfl⟩
abbrev main_c_29 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_cst_30 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_cst_31 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_cst_32 : Ref sig .tc := ⟨.hbm, 226, rfl⟩
abbrev main_v151 : Ref sig .tc := ⟨.hbm, 227, rfl⟩
abbrev main_cst_33 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_c_34 : Ref sig .tc := ⟨.hbm, 232, rfl⟩
abbrev main_call2_cst : Ref sig .tc := ⟨.hbm, 233, rfl⟩
abbrev main_call2_v0 : Ref sig .tc := ⟨.hbm, 234, rfl⟩
abbrev main_call2_v1 : Ref sig .tc := ⟨.hbm, 235, rfl⟩
abbrev main_call2_cst_0 : Ref sig .tc := ⟨.hbm, 236, rfl⟩
abbrev main_call2_v2 : Ref sig .tc := ⟨.hbm, 237, rfl⟩
abbrev main_call2_v3 : Ref sig .tc := ⟨.hbm, 238, rfl⟩
abbrev main_call2_v4 : Ref sig .tc := ⟨.hbm, 239, rfl⟩
abbrev main_call2_v5 : Ref sig .tc := ⟨.hbm, 240, rfl⟩
abbrev main_call2_v6 : Ref sig .tc := ⟨.hbm, 241, rfl⟩
abbrev main_call2_v7 : Ref sig .tc := ⟨.hbm, 242, rfl⟩
abbrev main_call2_cst_1 : Ref sig .tc := ⟨.hbm, 243, rfl⟩
abbrev main_call2_v8 : Ref sig .tc := ⟨.hbm, 244, rfl⟩
abbrev main_call2_cst_2 : Ref sig .tc := ⟨.hbm, 245, rfl⟩
abbrev main_call2_v9 : Ref sig .tc := ⟨.hbm, 246, rfl⟩
abbrev main_call2_v10 : Ref sig .tc := ⟨.hbm, 247, rfl⟩
abbrev main_call2_v11 : Ref sig .tc := ⟨.hbm, 248, rfl⟩
abbrev main_call2_cst_3 : Ref sig .tc := ⟨.hbm, 249, rfl⟩
abbrev main_call2_v12 : Ref sig .tc := ⟨.hbm, 250, rfl⟩
abbrev main_call2_cst_4 : Ref sig .tc := ⟨.hbm, 251, rfl⟩
abbrev main_call2_call0_v0 : Ref sig .tc := ⟨.hbm, 252, rfl⟩
abbrev main_call2_call0_v1 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_c_35 : Ref sig .tc := ⟨.hbm, 260, rfl⟩
abbrev main_v161 : Ref sig .tc := ⟨.hbm, 261, rfl⟩
abbrev main_v162 : Ref sig .tc := ⟨.hbm, 262, rfl⟩
abbrev main_c_36 : Ref sig .tc := ⟨.hbm, 263, rfl⟩
abbrev main_v163 : Ref sig .tc := ⟨.hbm, 264, rfl⟩
abbrev main_v164 : Ref sig .tc := ⟨.hbm, 265, rfl⟩
abbrev main_v165 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_cst_37 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_v173 : Ref sig .tc := ⟨.hbm, 275, rfl⟩
abbrev main_c_38 : Ref sig .tc := ⟨.hbm, 276, rfl⟩
abbrev main_v174 : Ref sig .tc := ⟨.hbm, 277, rfl⟩
abbrev main_v175 : Ref sig .tc := ⟨.hbm, 278, rfl⟩
abbrev main_c_39 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_cst_40 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_cst_41 : Ref sig .tc := ⟨.hbm, 291, rfl⟩
abbrev main_v186 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩
abbrev main_c_42 : Ref sig .tc := ⟨.hbm, 296, rfl⟩
abbrev main_v190 : Ref sig .tc := ⟨.hbm, 297, rfl⟩
abbrev main_v191 : Ref sig .tc := ⟨.hbm, 298, rfl⟩
abbrev main_c_43 : Ref sig .tc := ⟨.hbm, 299, rfl⟩
abbrev main_v192 : Ref sig .tc := ⟨.hbm, 300, rfl⟩
abbrev main_v193 : Ref sig .tc := ⟨.hbm, 301, rfl⟩
abbrev main_v194 : Ref sig .tc := ⟨.hbm, 302, rfl⟩
abbrev main_v195 : Ref sig .tc := ⟨.hbm, 303, rfl⟩
abbrev main_v196 : Ref sig .tc := ⟨.hbm, 304, rfl⟩
abbrev main_v197 : Ref sig .tc := ⟨.hbm, 305, rfl⟩
abbrev main_v198 : Ref sig .tc := ⟨.hbm, 306, rfl⟩
abbrev main_cst_44 : Ref sig .tc := ⟨.hbm, 307, rfl⟩
abbrev main_v199 : Ref sig .tc := ⟨.hbm, 308, rfl⟩
abbrev main_v200 : Ref sig .tc := ⟨.hbm, 309, rfl⟩
abbrev main_v201 : Ref sig .tc := ⟨.hbm, 310, rfl⟩
abbrev main_cst_45 : Ref sig .tc := ⟨.hbm, 311, rfl⟩
abbrev main_v202 : Ref sig .tc := ⟨.hbm, 312, rfl⟩
abbrev main_v203 : Ref sig .tc := ⟨.hbm, 313, rfl⟩
abbrev main_v204 : Ref sig .tc := ⟨.hbm, 314, rfl⟩
abbrev main_v205 : Ref sig .tc := ⟨.hbm, 315, rfl⟩
abbrev main_v206 : Ref sig .tc := ⟨.hbm, 316, rfl⟩
abbrev main_v207 : Ref sig .tc := ⟨.hbm, 317, rfl⟩
abbrev main_v208 : Ref sig .tc := ⟨.hbm, 318, rfl⟩
abbrev main_v209 : Ref sig .tc := ⟨.hbm, 319, rfl⟩
abbrev main_v210 : Ref sig .tc := ⟨.hbm, 320, rfl⟩
abbrev main_v211 : Ref sig .tc := ⟨.hbm, 321, rfl⟩
abbrev main_v212 : Ref sig .tc := ⟨.hbm, 322, rfl⟩
abbrev main_v213 : Ref sig .tc := ⟨.hbm, 323, rfl⟩
abbrev main_v214 : Ref sig .tc := ⟨.hbm, 324, rfl⟩
abbrev main_v215 : Ref sig .tc := ⟨.hbm, 325, rfl⟩
abbrev main_cst_46 : Ref sig .tc := ⟨.hbm, 326, rfl⟩
abbrev main_v216 : Ref sig .tc := ⟨.hbm, 327, rfl⟩
abbrev main_cst_47 : Ref sig .tc := ⟨.hbm, 328, rfl⟩
abbrev main_v217 : Ref sig .tc := ⟨.hbm, 329, rfl⟩
abbrev main_v218 : Ref sig .tc := ⟨.hbm, 330, rfl⟩
abbrev main_v219 : Ref sig .tc := ⟨.hbm, 331, rfl⟩
abbrev main_c_48 : Ref sig .tc := ⟨.hbm, 332, rfl⟩
abbrev main_call3_cst : Ref sig .tc := ⟨.hbm, 333, rfl⟩
abbrev main_call3_v0 : Ref sig .tc := ⟨.hbm, 334, rfl⟩
abbrev main_call3_v1 : Ref sig .tc := ⟨.hbm, 335, rfl⟩
abbrev main_call3_cst_0 : Ref sig .tc := ⟨.hbm, 336, rfl⟩
abbrev main_call3_v2 : Ref sig .tc := ⟨.hbm, 337, rfl⟩
abbrev main_call3_v3 : Ref sig .tc := ⟨.hbm, 338, rfl⟩
abbrev main_call3_v4 : Ref sig .tc := ⟨.hbm, 339, rfl⟩
abbrev main_call3_v5 : Ref sig .tc := ⟨.hbm, 340, rfl⟩
abbrev main_call3_v6 : Ref sig .tc := ⟨.hbm, 341, rfl⟩
abbrev main_call3_v7 : Ref sig .tc := ⟨.hbm, 342, rfl⟩
abbrev main_call3_cst_1 : Ref sig .tc := ⟨.hbm, 343, rfl⟩
abbrev main_call3_v8 : Ref sig .tc := ⟨.hbm, 344, rfl⟩
abbrev main_call3_cst_2 : Ref sig .tc := ⟨.hbm, 345, rfl⟩
abbrev main_call3_v9 : Ref sig .tc := ⟨.hbm, 346, rfl⟩
abbrev main_call3_v10 : Ref sig .tc := ⟨.hbm, 347, rfl⟩
abbrev main_call3_v11 : Ref sig .tc := ⟨.hbm, 348, rfl⟩
abbrev main_call3_cst_3 : Ref sig .tc := ⟨.hbm, 349, rfl⟩
abbrev main_call3_v12 : Ref sig .tc := ⟨.hbm, 350, rfl⟩
abbrev main_call3_cst_4 : Ref sig .tc := ⟨.hbm, 351, rfl⟩
abbrev main_call3_call0_v0 : Ref sig .tc := ⟨.hbm, 352, rfl⟩
abbrev main_call3_call0_v1 : Ref sig .tc := ⟨.hbm, 353, rfl⟩
abbrev main_v220 : Ref sig .tc := ⟨.hbm, 354, rfl⟩
abbrev main_v221 : Ref sig .tc := ⟨.hbm, 355, rfl⟩
abbrev main_v222 : Ref sig .tc := ⟨.hbm, 356, rfl⟩
abbrev main_v223 : Ref sig .tc := ⟨.hbm, 357, rfl⟩
abbrev main_v224 : Ref sig .tc := ⟨.hbm, 358, rfl⟩
abbrev main_v225 : Ref sig .tc := ⟨.hbm, 359, rfl⟩
abbrev main_c_49 : Ref sig .tc := ⟨.hbm, 360, rfl⟩
abbrev main_v226 : Ref sig .tc := ⟨.hbm, 361, rfl⟩
abbrev main_v227 : Ref sig .tc := ⟨.hbm, 362, rfl⟩
abbrev main_c_50 : Ref sig .tc := ⟨.hbm, 363, rfl⟩
abbrev main_v228 : Ref sig .tc := ⟨.hbm, 364, rfl⟩
abbrev main_v229 : Ref sig .tc := ⟨.hbm, 365, rfl⟩
abbrev main_v230 : Ref sig .tc := ⟨.hbm, 366, rfl⟩
abbrev main_v231 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_cst_51 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_v238 : Ref sig .tc := ⟨.hbm, 375, rfl⟩
abbrev main_c_52 : Ref sig .tc := ⟨.hbm, 376, rfl⟩
abbrev main_v239 : Ref sig .tc := ⟨.hbm, 377, rfl⟩
abbrev main_v240 : Ref sig .tc := ⟨.hbm, 378, rfl⟩
abbrev main_c_53 : Ref sig .tc := ⟨.hbm, 379, rfl⟩
abbrev main_v241 : Ref sig .tc := ⟨.hbm, 380, rfl⟩
abbrev main_v242 : Ref sig .tc := ⟨.hbm, 381, rfl⟩
abbrev main_v243 : Ref sig .tc := ⟨.hbm, 382, rfl⟩
abbrev main_v244 : Ref sig .tc := ⟨.hbm, 383, rfl⟩
abbrev main_v245 : Ref sig .tc := ⟨.hbm, 384, rfl⟩
abbrev main_v246 : Ref sig .tc := ⟨.hbm, 385, rfl⟩
abbrev main_v247 : Ref sig .tc := ⟨.hbm, 386, rfl⟩
abbrev main_cst_54 : Ref sig .tc := ⟨.hbm, 387, rfl⟩
abbrev main_v248 : Ref sig .tc := ⟨.hbm, 388, rfl⟩
abbrev main_v249 : Ref sig .tc := ⟨.hbm, 389, rfl⟩
abbrev main_v250 : Ref sig .tc := ⟨.hbm, 390, rfl⟩
abbrev main_cst_55 : Ref sig .tc := ⟨.hbm, 391, rfl⟩
abbrev main_v251 : Ref sig .tc := ⟨.hbm, 392, rfl⟩
abbrev main_v252 : Ref sig .tc := ⟨.hbm, 393, rfl⟩
abbrev main_v253 : Ref sig .tc := ⟨.hbm, 394, rfl⟩
abbrev main_v254 : Ref sig .tc := ⟨.hbm, 395, rfl⟩
abbrev main_c_56 : Ref sig .tc := ⟨.hbm, 396, rfl⟩
abbrev main_v255 : Ref sig .tc := ⟨.hbm, 397, rfl⟩
abbrev main_v256 : Ref sig .tc := ⟨.hbm, 398, rfl⟩
abbrev main_c_57 : Ref sig .tc := ⟨.hbm, 399, rfl⟩
abbrev main_v257 : Ref sig .tc := ⟨.hbm, 400, rfl⟩
abbrev main_v258 : Ref sig .tc := ⟨.hbm, 401, rfl⟩
abbrev main_v259 : Ref sig .tc := ⟨.hbm, 402, rfl⟩
abbrev main_v260 : Ref sig .tc := ⟨.hbm, 403, rfl⟩
abbrev main_v261 : Ref sig .tc := ⟨.hbm, 404, rfl⟩
abbrev main_v262 : Ref sig .tc := ⟨.hbm, 405, rfl⟩
abbrev main_v263 : Ref sig .tc := ⟨.hbm, 406, rfl⟩
abbrev main_cst_58 : Ref sig .tc := ⟨.hbm, 407, rfl⟩
abbrev main_v264 : Ref sig .tc := ⟨.hbm, 408, rfl⟩
abbrev main_v265 : Ref sig .tc := ⟨.hbm, 409, rfl⟩
abbrev main_v266 : Ref sig .tc := ⟨.hbm, 410, rfl⟩
abbrev main_cst_59 : Ref sig .tc := ⟨.hbm, 411, rfl⟩
abbrev main_v267 : Ref sig .tc := ⟨.hbm, 412, rfl⟩
abbrev main_v268 : Ref sig .tc := ⟨.hbm, 413, rfl⟩
abbrev main_v269 : Ref sig .tc := ⟨.hbm, 414, rfl⟩
abbrev main_v270 : Ref sig .tc := ⟨.hbm, 415, rfl⟩
abbrev main_v271 : Ref sig .tc := ⟨.hbm, 416, rfl⟩
abbrev main_v272 : Ref sig .tc := ⟨.hbm, 417, rfl⟩
abbrev main_v273 : Ref sig .tc := ⟨.hbm, 418, rfl⟩
abbrev main_v274 : Ref sig .tc := ⟨.hbm, 419, rfl⟩
abbrev main_v275 : Ref sig .tc := ⟨.hbm, 420, rfl⟩
abbrev main_v276 : Ref sig .tc := ⟨.hbm, 421, rfl⟩
abbrev main_v277 : Ref sig .tc := ⟨.hbm, 422, rfl⟩
abbrev main_v278 : Ref sig .tc := ⟨.hbm, 423, rfl⟩
abbrev main_v279 : Ref sig .tc := ⟨.hbm, 424, rfl⟩
abbrev main_v280 : Ref sig .tc := ⟨.hbm, 425, rfl⟩
abbrev main_v281 : Ref sig .tc := ⟨.hbm, 426, rfl⟩
abbrev main_v282 : Ref sig .tc := ⟨.hbm, 427, rfl⟩
abbrev main_v283 : Ref sig .tc := ⟨.hbm, 428, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg5_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem3_1 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x12 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x3 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x3 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x3 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  bcast_S50000x3_S50000x1x3_0_2 : S50000x3.BroadcastsInDim S50000x1x3 (![0, 2] : Fin 2 → Fin S50000x1x3.rank)
  concatenates_S50000x1x3_S50000x1x3_S50000x1x3_S50000x1x3_S50000x4x3_d1 : Shape.Concatenates [S50000x1x3, S50000x1x3, S50000x1x3, S50000x1x3] S50000x4x3 1
  shapeCasts_S50000x4x3_S50000x12 : S50000x4x3.ShapeCasts S50000x12
  bitsLt_bf16_f32 : FTy.bits .bf16 < FTy.bits .f32
  shapeCasts_S4x3x128_S12x128 : S4x3x128.ShapeCasts S12x128
  shapeCasts_S128_S1x128 : S128.ShapeCasts S1x128
  inb_S2000x12_S2000x12_0_0 : ∀ a, (![0, 0] : Fin 2 → Nat) a + S2000x12.size a ≤ S2000x12.size a
  h_S2000x12 : 0 < S2000x12.numel
  shapeCasts_S2000x12_S2000x12 : S2000x12.ShapeCasts S2000x12
  inb_S12x128_S12x128_0_0 : ∀ a, (![0, 0] : Fin 2 → Nat) a + S12x128.size a ≤ S12x128.size a
  h_S12x128 : 0 < S12x128.numel
  shapeCasts_S12x128_S12x128 : S12x128.ShapeCasts S12x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  shapeCasts_S2000x128_S2000x128 : S2000x128.ShapeCasts S2000x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x128_S50000x1x128_0_2 : S50000x128.BroadcastsInDim S50000x1x128 (![0, 2] : Fin 2 → Fin S50000x1x128.rank)
  concatenates_S50000x1x128_S50000x1x128_S50000x1x128_S50000x1x128_S50000x4x128_d1 : Shape.Concatenates [S50000x1x128, S50000x1x128, S50000x1x128, S50000x1x128] S50000x4x128 1
  shapeCasts_S50000x4x128_S50000x512 : S50000x4x128.ShapeCasts S50000x512
  shapeCasts_S4x128x128_S512x128 : S4x128x128.ShapeCasts S512x128
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S3_S1x3 : S3.ShapeCasts S1x3
  reduces_S2000x128_S2000 : S2000x128.Reduces [1] S2000
  shapeCasts_S2000_S2000x1 : S2000.ShapeCasts S2000x1
  broadcasts_S2000x1_S2000x128 : S2000x1.Broadcasts S2000x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x3_S800000x1_S800000x3_1_0_n_n_0_1_13_wf : GatherDims.WF S50000x3 S800000x1 S800000x3 [1] [0] [] [0] [] 1 ![1, 3]
  scatter_S50000x3_S800000x1_S800000x3_1_0_0_1_wf : ScatterDims.WF S50000x3 S800000x1 S800000x3 [1] [0] [0] 1
  dot_S2000x12_S12x128_S2000x128_1_0_0_1_n_n_wf : DotDims.WF S2000x12 S12x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x512_S512x128_S2000x128_1_0_0_1_n_n_wf : DotDims.WF S2000x512 S512x128 S2000x128 [1] [0] [0] [1] [] []
  dot_S2000x128_S128x3_S2000x3_1_0_0_1_n_n_wf : DotDims.WF S2000x128 S128x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x12.size a ≤ S50000x12.size a
  hwx0_0 : ∀ i : grid0.Coords, EltTy.bits .bf16 = 32 ∨ (Rect.block (s := S50000x12) S2000x12.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x128.size a ≤ S12x128.size a
  hwx0_1 : ∀ i : grid0.Coords, EltTy.bits .bf16 = 32 ∨ (Rect.block (s := S12x128) S12x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .bf16 = 32 ∨ (Rect.block (s := S50000x512) S2000x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S512x128.size a
  hwx2_1 : ∀ i : grid2.Coords, EltTy.bits .bf16 = 32 ∨ (Rect.block (s := S512x128) S512x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x512.size a ≤ S50000x512.size a
  hwx4_0 : ∀ i : grid4.Coords, EltTy.bits .bf16 = 32 ∨ (Rect.block (s := S50000x512) S2000x512.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x128.size a ≤ S512x128.size a
  hwx4_1 : ∀ i : grid4.Coords, EltTy.bits .bf16 = 32 ∨ (Rect.block (s := S512x128) S512x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x512.size a ≤ S50000x512.size a
  hwx6_0 : ∀ i : grid6.Coords, EltTy.bits .bf16 = 32 ∨ (Rect.block (s := S50000x512) S2000x512.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x128.size a ≤ S512x128.size a
  hwx6_1 : ∀ i : grid6.Coords, EltTy.bits .bf16 = 32 ∨ (Rect.block (s := S512x128) S512x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .f32 = 32 ∨ (Rect.block (s := S50000x128) S2000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x3.size a ≤ S128x3.size a
  hwx7_1 : ∀ i : grid7.Coords, EltTy.bits .bf16 = 32 ∨ (Rect.block (s := S128x3) S128x3.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x3.size a ≤ S1x3.size a
  hwx7_2 : ∀ i : grid7.Coords, EltTy.bits .f32 = 32 ∨ (Rect.block (s := S1x3) S1x3.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x3.size a ≤ S50000x3.size a
  hwx7_3 : ∀ i : grid7.Coords, EltTy.bits .f32 = 32 ∨ (Rect.block (s := S50000x3) S2000x3.size (cc7_transform_3 i) (hinb7_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S2000x12_S12x128_S2000x128_1_0_0_1_n_n : DotDims S2000x12 S12x128 S2000x128 where
  lhsContracting := [1]
  rhsContracting := [0]
  lhsNonContracting := [0]
  rhsNonContracting := [1]
  lhsBatch := []
  rhsBatch := []
  wf := dot_S2000x12_S12x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x3_S2000x3_1_0_0_1_n_n : DotDims S2000x128 S128x3 S2000x3 where
  lhsContracting := [1]
  rhsContracting := [0]
  lhsNonContracting := [0]
  rhsNonContracting := [1]
  lhsBatch := []
  rhsBatch := []
  wf := dot_S2000x128_S128x3_S2000x3_1_0_0_1_n_n_wf

abbrev win0_0 : Pipeline.Window sig grid0 :=
  Pipeline.Window.ofSpec (Memref.whole main_v81) S2000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v83) S12x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v84) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v85) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v85) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v89) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v91) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v92) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v93) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v94) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v146) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v148) S512x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v149) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v150) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v150) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v154) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v156) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v157) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v158) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v159) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v211) S2000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v213) S512x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v214) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v215) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v215) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v219) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v221) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v222) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v223) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v224) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v276) S2000x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v278) S512x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v279) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v280) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v280) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v281) S128x3.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v282) S1x3.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v283) S2000x3.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x3 : Shape := ⟨2, ![50000, 3]⟩
abbrev S2x800000 : Shape := ⟨2, ![2, 800000]⟩
abbrev S4x3x128 : Shape := ⟨3, ![4, 3, 128]⟩
abbrev S128 : Shape := ⟨1, ![128]⟩
abbrev S4x128x128 : Shape := ⟨3, ![4, 128, 128]⟩
abbrev S128x3 : Shape := ⟨2, ![128, 3]⟩
abbrev S3 : Shape := ⟨1, ![3]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x3x128 : Shape := ⟨3, ![1, 3, 128]⟩
abbrev S3x128 : Shape := ⟨2, ![3, 128]⟩
abbrev S50000x128 : Shape := ⟨2, ![50000, 128]⟩
abbrev S800000x3 : Shape := ⟨2, ![800000, 3]⟩
abbrev S1x128 : Shape := ⟨2, ![1, 128]⟩
abbrev S1x128x128 : Shape := ⟨3, ![1, 128, 128]⟩
abbrev S128x128 : Shape := ⟨2, ![128, 128]⟩
abbrev S800000x128 : Shape := ⟨2, ![800000, 128]⟩
abbrev S50000x1 : Shape := ⟨2, ![50000, 1]⟩
abbrev S1x3 : Shape := ⟨2, ![1, 3]⟩

abbrev nBuf : Space → Nat
  | .hbm => 518
  | .vmem => 0
  | .smem => 0
  | _ => 0

abbrev hbmTy0_0 (i : Nat) : BufTy := match i % 128 with
  | 0 => ⟨S50000x3, .f32⟩
  | 1 => ⟨S2x800000, .i32⟩
  | 2 => ⟨S4x3x128, .f32⟩
  | 3 => ⟨S128, .f32⟩
  | 4 => ⟨S128, .f32⟩
  | 5 => ⟨S128, .f32⟩
  | 6 => ⟨S4x128x128, .f32⟩
  | 7 => ⟨S128, .f32⟩
  | 8 => ⟨S128, .f32⟩
  | 9 => ⟨S128, .f32⟩
  | 10 => ⟨S4x128x128, .f32⟩
  | 11 => ⟨S128, .f32⟩
  | 12 => ⟨S128, .f32⟩
  | 13 => ⟨S128, .f32⟩
  | 14 => ⟨S4x128x128, .f32⟩
  | 15 => ⟨S128, .f32⟩
  | 16 => ⟨S128x3, .f32⟩
  | 17 => ⟨S3, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S800000, .f32⟩
  | 59 => ⟨S1x3x128, .f32⟩
  | 60 => ⟨S3x128, .f32⟩
  | 61 => ⟨S50000x128, .f32⟩
  | 62 => ⟨S800000x1, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x3, .f32⟩
  | 72 => ⟨S800000x3, .f32⟩
  | 73 => ⟨S800000x3, .f32⟩
  | 74 => ⟨S_, .f32⟩
  | 75 => ⟨S50000x3, .f32⟩
  | 76 => ⟨S800000x1, .i32⟩
  | 77 => ⟨S50000x3, .f32⟩
  | 78 => ⟨S1x3x128, .f32⟩
  | 79 => ⟨S3x128, .f32⟩
  | 80 => ⟨S50000x128, .f32⟩
  | 81 => ⟨S50000x128, .f32⟩
  | 82 => ⟨S800000x1, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x3, .f32⟩
  | 92 => ⟨S800000x3, .f32⟩
  | 93 => ⟨S800000x3, .f32⟩
  | 94 => ⟨S_, .f32⟩
  | 95 => ⟨S50000x3, .f32⟩
  | 96 => ⟨S800000x1, .i32⟩
  | 97 => ⟨S50000x3, .f32⟩
  | 98 => ⟨S_, .f32⟩
  | 99 => ⟨S50000x3, .f32⟩
  | 100 => ⟨S50000x3, .f32⟩
  | 101 => ⟨S50000x3, .f32⟩
  | 102 => ⟨S1x3x128, .f32⟩
  | 103 => ⟨S3x128, .f32⟩
  | 104 => ⟨S50000x128, .f32⟩
  | 105 => ⟨S50000x128, .f32⟩
  | 106 => ⟨S800000x1, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x3, .f32⟩
  | 116 => ⟨S800000x3, .f32⟩
  | 117 => ⟨S800000x3, .f32⟩
  | 118 => ⟨S_, .f32⟩
  | 119 => ⟨S50000x3, .f32⟩
  | 120 => ⟨S800000x1, .i32⟩
  | 121 => ⟨S50000x3, .f32⟩
  | 122 => ⟨S_, .f32⟩
  | 123 => ⟨S50000x3, .f32⟩
  | 124 => ⟨S50000x3, .f32⟩
  | 125 => ⟨S50000x3, .f32⟩
  | 126 => ⟨S1x3x128, .f32⟩
  | 127 => ⟨S3x128, .f32⟩
  | _ => ⟨S50000x3, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .i1⟩
  | 8 => ⟨S_, .f32⟩
  | 9 => ⟨S50000x128, .f32⟩
  | 10 => ⟨S50000x128, .f32⟩
  | 11 => ⟨S50000x128, .f32⟩
  | 12 => ⟨S_, .f32⟩
  | 13 => ⟨S128, .f32⟩
  | 14 => ⟨S_, .f32⟩
  | 15 => ⟨S128, .f32⟩
  | 16 => ⟨S128, .f32⟩
  | 17 => ⟨S_, .i32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S50000x128, .f32⟩
  | 25 => ⟨S50000x128, .f32⟩
  | 26 => ⟨S50000x128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S128, .f32⟩
  | 34 => ⟨S_, .f32⟩
  | 35 => ⟨S_, .i1⟩
  | 36 => ⟨S_, .f32⟩
  | 37 => ⟨S_, .f32⟩
  | 38 => ⟨S128, .f32⟩
  | 39 => ⟨S128, .f32⟩
  | 40 => ⟨S1x128, .f32⟩
  | 41 => ⟨S50000x128, .f32⟩
  | 42 => ⟨S50000x128, .f32⟩
  | 43 => ⟨S_, .f32⟩
  | 44 => ⟨S128, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S1x128x128, .f32⟩
  | 57 => ⟨S128x128, .f32⟩
  | 58 => ⟨S50000x128, .f32⟩
  | 59 => ⟨S800000x1, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x128, .f32⟩
  | 69 => ⟨S800000x128, .f32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S1x128x128, .f32⟩
  | 76 => ⟨S128x128, .f32⟩
  | 77 => ⟨S50000x128, .f32⟩
  | 78 => ⟨S50000x128, .f32⟩
  | 79 => ⟨S800000x1, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .f32⟩
  | 89 => ⟨S800000x128, .f32⟩
  | 90 => ⟨S800000x128, .f32⟩
  | 91 => ⟨S_, .f32⟩
  | 92 => ⟨S50000x128, .f32⟩
  | 93 => ⟨S800000x1, .i32⟩
  | 94 => ⟨S50000x128, .f32⟩
  | 95 => ⟨S_, .f32⟩
  | 96 => ⟨S50000x128, .f32⟩
  | 97 => ⟨S50000x128, .f32⟩
  | 98 => ⟨S50000x128, .f32⟩
  | 99 => ⟨S1x128x128, .f32⟩
  | 100 => ⟨S128x128, .f32⟩
  | 101 => ⟨S50000x128, .f32⟩
  | 102 => ⟨S50000x128, .f32⟩
  | 103 => ⟨S800000x1, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S1x128x128, .f32⟩
  | 124 => ⟨S128x128, .f32⟩
  | 125 => ⟨S50000x128, .f32⟩
  | 126 => ⟨S50000x128, .f32⟩
  | 127 => ⟨S1x128, .f32⟩
  | _ => ⟨S50000x3, .f32⟩

abbrev hbmTy0_2 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .i1⟩
  | 5 => ⟨S_, .f32⟩
  | 6 => ⟨S50000x128, .f32⟩
  | 7 => ⟨S50000x128, .f32⟩
  | 8 => ⟨S50000x128, .f32⟩
  | 9 => ⟨S_, .f32⟩
  | 10 => ⟨S128, .f32⟩
  | 11 => ⟨S_, .f32⟩
  | 12 => ⟨S128, .f32⟩
  | 13 => ⟨S128, .f32⟩
  | 14 => ⟨S_, .i32⟩
  | 15 => ⟨S_, .f32⟩
  | 16 => ⟨S128, .f32⟩
  | 17 => ⟨S1x128, .f32⟩
  | 18 => ⟨S_, .f32⟩
  | 19 => ⟨S1x128, .f32⟩
  | 20 => ⟨S1x128, .f32⟩
  | 21 => ⟨S50000x128, .f32⟩
  | 22 => ⟨S50000x128, .f32⟩
  | 23 => ⟨S50000x128, .f32⟩
  | 24 => ⟨S_, .f32⟩
  | 25 => ⟨S_, .f32⟩
  | 26 => ⟨S_, .f32⟩
  | 27 => ⟨S_, .f32⟩
  | 28 => ⟨S128, .f32⟩
  | 29 => ⟨S128, .f32⟩
  | 30 => ⟨S128, .f32⟩
  | 31 => ⟨S_, .f32⟩
  | 32 => ⟨S_, .i1⟩
  | 33 => ⟨S_, .f32⟩
  | 34 => ⟨S_, .f32⟩
  | 35 => ⟨S128, .f32⟩
  | 36 => ⟨S128, .f32⟩
  | 37 => ⟨S1x128, .f32⟩
  | 38 => ⟨S50000x128, .f32⟩
  | 39 => ⟨S50000x128, .f32⟩
  | 40 => ⟨S_, .f32⟩
  | 41 => ⟨S128, .f32⟩
  | 42 => ⟨S128, .f32⟩
  | 43 => ⟨S128, .f32⟩
  | 44 => ⟨S1x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S1x128x128, .f32⟩
  | 54 => ⟨S128x128, .f32⟩
  | 55 => ⟨S50000x128, .f32⟩
  | 56 => ⟨S800000x1, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S800000x128, .f32⟩
  | 67 => ⟨S800000x128, .f32⟩
  | 68 => ⟨S_, .f32⟩
  | 69 => ⟨S50000x128, .f32⟩
  | 70 => ⟨S800000x1, .i32⟩
  | 71 => ⟨S50000x128, .f32⟩
  | 72 => ⟨S1x128x128, .f32⟩
  | 73 => ⟨S128x128, .f32⟩
  | 74 => ⟨S50000x128, .f32⟩
  | 75 => ⟨S50000x128, .f32⟩
  | 76 => ⟨S800000x1, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S800000x128, .f32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S1x128x128, .f32⟩
  | 97 => ⟨S128x128, .f32⟩
  | 98 => ⟨S50000x128, .f32⟩
  | 99 => ⟨S50000x128, .f32⟩
  | 100 => ⟨S800000x1, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x128, .f32⟩
  | 110 => ⟨S800000x128, .f32⟩
  | 111 => ⟨S800000x128, .f32⟩
  | 112 => ⟨S_, .f32⟩
  | 113 => ⟨S50000x128, .f32⟩
  | 114 => ⟨S800000x1, .i32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S1x128x128, .f32⟩
  | 121 => ⟨S128x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x3, .f32⟩

abbrev hbmTy0_3 (i : Nat) : BufTy := match i % 128 with
  | 0 => ⟨S50000x128, .f32⟩
  | 1 => ⟨S50000x128, .f32⟩
  | 2 => ⟨S_, .f32⟩
  | 3 => ⟨S128, .f32⟩
  | 4 => ⟨S_, .f32⟩
  | 5 => ⟨S128, .f32⟩
  | 6 => ⟨S128, .f32⟩
  | 7 => ⟨S_, .i32⟩
  | 8 => ⟨S_, .f32⟩
  | 9 => ⟨S128, .f32⟩
  | 10 => ⟨S1x128, .f32⟩
  | 11 => ⟨S_, .f32⟩
  | 12 => ⟨S1x128, .f32⟩
  | 13 => ⟨S1x128, .f32⟩
  | 14 => ⟨S50000x128, .f32⟩
  | 15 => ⟨S50000x128, .f32⟩
  | 16 => ⟨S50000x128, .f32⟩
  | 17 => ⟨S_, .f32⟩
  | 18 => ⟨S_, .f32⟩
  | 19 => ⟨S_, .f32⟩
  | 20 => ⟨S_, .f32⟩
  | 21 => ⟨S128, .f32⟩
  | 22 => ⟨S128, .f32⟩
  | 23 => ⟨S128, .f32⟩
  | 24 => ⟨S_, .f32⟩
  | 25 => ⟨S_, .i1⟩
  | 26 => ⟨S_, .f32⟩
  | 27 => ⟨S_, .f32⟩
  | 28 => ⟨S128, .f32⟩
  | 29 => ⟨S128, .f32⟩
  | 30 => ⟨S1x128, .f32⟩
  | 31 => ⟨S50000x128, .f32⟩
  | 32 => ⟨S50000x128, .f32⟩
  | 33 => ⟨S_, .f32⟩
  | 34 => ⟨S128, .f32⟩
  | 35 => ⟨S128, .f32⟩
  | 36 => ⟨S128, .f32⟩
  | 37 => ⟨S1x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S1x128x128, .f32⟩
  | 47 => ⟨S128x128, .f32⟩
  | 48 => ⟨S50000x128, .f32⟩
  | 49 => ⟨S800000x1, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S1x128x128, .f32⟩
  | 66 => ⟨S128x128, .f32⟩
  | 67 => ⟨S50000x128, .f32⟩
  | 68 => ⟨S50000x128, .f32⟩
  | 69 => ⟨S800000x1, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S800000x128, .f32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S_, .f32⟩
  | 86 => ⟨S50000x128, .f32⟩
  | 87 => ⟨S50000x128, .f32⟩
  | 88 => ⟨S50000x128, .f32⟩
  | 89 => ⟨S1x128x128, .f32⟩
  | 90 => ⟨S128x128, .f32⟩
  | 91 => ⟨S50000x128, .f32⟩
  | 92 => ⟨S50000x128, .f32⟩
  | 93 => ⟨S800000x1, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S800000x128, .f32⟩
  | 104 => ⟨S800000x128, .f32⟩
  | 105 => ⟨S_, .f32⟩
  | 106 => ⟨S50000x128, .f32⟩
  | 107 => ⟨S800000x1, .i32⟩
  | 108 => ⟨S50000x128, .f32⟩
  | 109 => ⟨S_, .f32⟩
  | 110 => ⟨S50000x128, .f32⟩
  | 111 => ⟨S50000x128, .f32⟩
  | 112 => ⟨S50000x128, .f32⟩
  | 113 => ⟨S1x128x128, .f32⟩
  | 114 => ⟨S128x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S50000x128, .f32⟩
  | 121 => ⟨S_, .f32⟩
  | 122 => ⟨S50000, .f32⟩
  | 123 => ⟨S50000x1, .f32⟩
  | 124 => ⟨S50000x1, .f32⟩
  | 125 => ⟨S_, .f32⟩
  | 126 => ⟨S50000x1, .f32⟩
  | 127 => ⟨S50000x1, .f32⟩
  | _ => ⟨S50000x3, .f32⟩

abbrev hbmTy0_4 (i : Nat) : BufTy := match i % 128 with
  | 0 => ⟨S50000x128, .f32⟩
  | 1 => ⟨S50000x128, .f32⟩
  | 2 => ⟨S50000x3, .f32⟩
  | 3 => ⟨S1x3, .f32⟩
  | 4 => ⟨S50000x3, .f32⟩
  | 5 => ⟨S50000x3, .f32⟩
  | _ => ⟨S50000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v13 : Ref sig .tc := ⟨.hbm, 38, rfl⟩
abbrev main_c : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_5 : Ref sig .tc := ⟨.hbm, 49, rfl⟩
abbrev main_v22 : Ref sig .tc := ⟨.hbm, 50, rfl⟩
abbrev main_v23 : Ref sig .tc := ⟨.hbm, 51, rfl⟩
abbrev main_c_6 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_7 : Ref sig .tc := ⟨.hbm, 63, rfl⟩
abbrev main_v34 : Ref sig .tc := ⟨.hbm, 64, rfl⟩
abbrev main_v35 : Ref sig .tc := ⟨.hbm, 65, rfl⟩
abbrev main_c_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_c_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_14 : Ref sig .tc := ⟨.hbm, 107, rfl⟩
abbrev main_v71 : Ref sig .tc := ⟨.hbm, 108, rfl⟩
abbrev main_v72 : Ref sig .tc := ⟨.hbm, 109, rfl⟩
abbrev main_c_15 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_16 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_17 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_call1_cst : Ref sig .tc := ⟨.hbm, 133, rfl⟩
abbrev main_call1_v0 : Ref sig .tc := ⟨.hbm, 134, rfl⟩
abbrev main_call1_v1 : Ref sig .tc := ⟨.hbm, 135, rfl⟩
abbrev main_call1_cst_0 : Ref sig .tc := ⟨.hbm, 136, rfl⟩
abbrev main_call1_v2 : Ref sig .tc := ⟨.hbm, 137, rfl⟩
abbrev main_call1_v3 : Ref sig .tc := ⟨.hbm, 138, rfl⟩
abbrev main_v93 : Ref sig .tc := ⟨.hbm, 139, rfl⟩
abbrev main_cst_18 : Ref sig .tc := ⟨.hbm, 140, rfl⟩
abbrev main_v94 : Ref sig .tc := ⟨.hbm, 141, rfl⟩
abbrev main_cst_19 : Ref sig .tc := ⟨.hbm, 142, rfl⟩
abbrev main_v95 : Ref sig .tc := ⟨.hbm, 143, rfl⟩
abbrev main_v96 : Ref sig .tc := ⟨.hbm, 144, rfl⟩
abbrev main_c_20 : Ref sig .tc := ⟨.hbm, 145, rfl⟩
abbrev main_call2_cst : Ref sig .tc := ⟨.hbm, 146, rfl⟩
abbrev main_call2_v0 : Ref sig .tc := ⟨.hbm, 147, rfl⟩
abbrev main_call2_v1 : Ref sig .tc := ⟨.hbm, 148, rfl⟩
abbrev main_call2_cst_0 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_v5 : Ref sig .tc := ⟨.hbm, 153, rfl⟩
abbrev main_call2_v6 : Ref sig .tc := ⟨.hbm, 154, rfl⟩
abbrev main_call2_v7 : Ref sig .tc := ⟨.hbm, 155, rfl⟩
abbrev main_call2_cst_1 : Ref sig .tc := ⟨.hbm, 156, rfl⟩
abbrev main_call2_v8 : Ref sig .tc := ⟨.hbm, 157, rfl⟩
abbrev main_call2_cst_2 : Ref sig .tc := ⟨.hbm, 158, rfl⟩
abbrev main_call2_v9 : Ref sig .tc := ⟨.hbm, 159, rfl⟩
abbrev main_call2_v10 : Ref sig .tc := ⟨.hbm, 160, rfl⟩
abbrev main_call2_v11 : Ref sig .tc := ⟨.hbm, 161, rfl⟩
abbrev main_call2_cst_3 : Ref sig .tc := ⟨.hbm, 162, rfl⟩
abbrev main_call2_v12 : Ref sig .tc := ⟨.hbm, 163, rfl⟩
abbrev main_call2_cst_4 : Ref sig .tc := ⟨.hbm, 164, rfl⟩
abbrev main_call2_call0_v0 : Ref sig .tc := ⟨.hbm, 165, rfl⟩
abbrev main_call2_call0_v1 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_21 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_c_22 : Ref sig .tc := ⟨.hbm, 188, rfl⟩
abbrev main_v117 : Ref sig .tc := ⟨.hbm, 189, rfl⟩
abbrev main_v118 : Ref sig .tc := ⟨.hbm, 190, rfl⟩
abbrev main_c_23 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_cst_24 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_c_25 : Ref sig .tc := ⟨.hbm, 208, rfl⟩
abbrev main_v134 : Ref sig .tc := ⟨.hbm, 209, rfl⟩
abbrev main_v135 : Ref sig .tc := ⟨.hbm, 210, rfl⟩
abbrev main_c_26 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_cst_27 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_cst_28 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_c_29 : Ref sig .tc := ⟨.hbm, 232, rfl⟩
abbrev main_v154 : Ref sig .tc := ⟨.hbm, 233, rfl⟩
abbrev main_v155 : Ref sig .tc := ⟨.hbm, 234, rfl⟩
abbrev main_c_30 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_cst_31 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_cst_32 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_call3_cst : Ref sig .tc := ⟨.hbm, 258, rfl⟩
abbrev main_call3_v0 : Ref sig .tc := ⟨.hbm, 259, rfl⟩
abbrev main_call3_v1 : Ref sig .tc := ⟨.hbm, 260, rfl⟩
abbrev main_call3_cst_0 : Ref sig .tc := ⟨.hbm, 261, rfl⟩
abbrev main_call3_v2 : Ref sig .tc := ⟨.hbm, 262, rfl⟩
abbrev main_call3_v3 : Ref sig .tc := ⟨.hbm, 263, rfl⟩
abbrev main_v176 : Ref sig .tc := ⟨.hbm, 264, rfl⟩
abbrev main_cst_33 : Ref sig .tc := ⟨.hbm, 265, rfl⟩
abbrev main_v177 : Ref sig .tc := ⟨.hbm, 266, rfl⟩
abbrev main_cst_34 : Ref sig .tc := ⟨.hbm, 267, rfl⟩
abbrev main_v178 : Ref sig .tc := ⟨.hbm, 268, rfl⟩
abbrev main_v179 : Ref sig .tc := ⟨.hbm, 269, rfl⟩
abbrev main_c_35 : Ref sig .tc := ⟨.hbm, 270, rfl⟩
abbrev main_call4_cst : Ref sig .tc := ⟨.hbm, 271, rfl⟩
abbrev main_call4_v0 : Ref sig .tc := ⟨.hbm, 272, rfl⟩
abbrev main_call4_v1 : Ref sig .tc := ⟨.hbm, 273, rfl⟩
abbrev main_call4_cst_0 : Ref sig .tc := ⟨.hbm, 274, rfl⟩
abbrev main_call4_v2 : Ref sig .tc := ⟨.hbm, 275, rfl⟩
abbrev main_call4_v3 : Ref sig .tc := ⟨.hbm, 276, rfl⟩
abbrev main_call4_v4 : Ref sig .tc := ⟨.hbm, 277, rfl⟩
abbrev main_call4_v5 : Ref sig .tc := ⟨.hbm, 278, rfl⟩
abbrev main_call4_v6 : Ref sig .tc := ⟨.hbm, 279, rfl⟩
abbrev main_call4_v7 : Ref sig .tc := ⟨.hbm, 280, rfl⟩
abbrev main_call4_cst_1 : Ref sig .tc := ⟨.hbm, 281, rfl⟩
abbrev main_call4_v8 : Ref sig .tc := ⟨.hbm, 282, rfl⟩
abbrev main_call4_cst_2 : Ref sig .tc := ⟨.hbm, 283, rfl⟩
abbrev main_call4_v9 : Ref sig .tc := ⟨.hbm, 284, rfl⟩
abbrev main_call4_v10 : Ref sig .tc := ⟨.hbm, 285, rfl⟩
abbrev main_call4_v11 : Ref sig .tc := ⟨.hbm, 286, rfl⟩
abbrev main_call4_cst_3 : Ref sig .tc := ⟨.hbm, 287, rfl⟩
abbrev main_call4_v12 : Ref sig .tc := ⟨.hbm, 288, rfl⟩
abbrev main_call4_cst_4 : Ref sig .tc := ⟨.hbm, 289, rfl⟩
abbrev main_call4_call0_v0 : Ref sig .tc := ⟨.hbm, 290, rfl⟩
abbrev main_call4_call0_v1 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_v183 : Ref sig .tc := ⟨.hbm, 295, rfl⟩
abbrev main_cst_36 : Ref sig .tc := ⟨.hbm, 296, rfl⟩
abbrev main_v184 : Ref sig .tc := ⟨.hbm, 297, rfl⟩
abbrev main_v185 : Ref sig .tc := ⟨.hbm, 298, rfl⟩
abbrev main_v186 : Ref sig .tc := ⟨.hbm, 299, rfl⟩
abbrev main_v187 : Ref sig .tc := ⟨.hbm, 300, rfl⟩
abbrev main_v188 : Ref sig .tc := ⟨.hbm, 301, rfl⟩
abbrev main_v189 : Ref sig .tc := ⟨.hbm, 302, rfl⟩
abbrev main_v190 : Ref sig .tc := ⟨.hbm, 303, rfl⟩
abbrev main_v191 : Ref sig .tc := ⟨.hbm, 304, rfl⟩
abbrev main_v192 : Ref sig .tc := ⟨.hbm, 305, rfl⟩
abbrev main_v193 : Ref sig .tc := ⟨.hbm, 306, rfl⟩
abbrev main_v194 : Ref sig .tc := ⟨.hbm, 307, rfl⟩
abbrev main_v195 : Ref sig .tc := ⟨.hbm, 308, rfl⟩
abbrev main_v196 : Ref sig .tc := ⟨.hbm, 309, rfl⟩
abbrev main_v197 : Ref sig .tc := ⟨.hbm, 310, rfl⟩
abbrev main_v198 : Ref sig .tc := ⟨.hbm, 311, rfl⟩
abbrev main_v199 : Ref sig .tc := ⟨.hbm, 312, rfl⟩
abbrev main_c_37 : Ref sig .tc := ⟨.hbm, 313, rfl⟩
abbrev main_v200 : Ref sig .tc := ⟨.hbm, 314, rfl⟩
abbrev main_v201 : Ref sig .tc := ⟨.hbm, 315, rfl⟩
abbrev main_c_38 : Ref sig .tc := ⟨.hbm, 316, rfl⟩
abbrev main_v202 : Ref sig .tc := ⟨.hbm, 317, rfl⟩
abbrev main_v203 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_cst_39 : Ref sig .tc := ⟨.hbm, 324, rfl⟩
abbrev main_v209 : Ref sig .tc := ⟨.hbm, 325, rfl⟩
abbrev main_v210 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩
abbrev main_c_40 : Ref sig .tc := ⟨.hbm, 333, rfl⟩
abbrev main_v217 : Ref sig .tc := ⟨.hbm, 334, rfl⟩
abbrev main_v218 : Ref sig .tc := ⟨.hbm, 335, rfl⟩
abbrev main_c_41 : Ref sig .tc := ⟨.hbm, 336, rfl⟩
abbrev main_v219 : Ref sig .tc := ⟨.hbm, 337, rfl⟩
abbrev main_v220 : Ref sig .tc := ⟨.hbm, 338, rfl⟩
abbrev main_v221 : Ref sig .tc := ⟨.hbm, 339, rfl⟩
abbrev main_v222 : Ref sig .tc := ⟨.hbm, 340, rfl⟩
abbrev main_v223 : Ref sig .tc := ⟨.hbm, 341, rfl⟩
abbrev main_v224 : Ref sig .tc := ⟨.hbm, 342, rfl⟩
abbrev main_v225 : Ref sig .tc := ⟨.hbm, 343, rfl⟩
abbrev main_cst_42 : Ref sig .tc := ⟨.hbm, 344, rfl⟩
abbrev main_v226 : Ref sig .tc := ⟨.hbm, 345, rfl⟩
abbrev main_v227 : Ref sig .tc := ⟨.hbm, 346, rfl⟩
abbrev main_v228 : Ref sig .tc := ⟨.hbm, 347, rfl⟩
abbrev main_cst_43 : Ref sig .tc := ⟨.hbm, 348, rfl⟩
abbrev main_v229 : Ref sig .tc := ⟨.hbm, 349, rfl⟩
abbrev main_v230 : Ref sig .tc := ⟨.hbm, 350, rfl⟩
abbrev main_v231 : Ref sig .tc := ⟨.hbm, 351, rfl⟩
abbrev main_v232 : Ref sig .tc := ⟨.hbm, 352, rfl⟩
abbrev main_v233 : Ref sig .tc := ⟨.hbm, 353, rfl⟩
abbrev main_v234 : Ref sig .tc := ⟨.hbm, 354, rfl⟩
abbrev main_v235 : Ref sig .tc := ⟨.hbm, 355, rfl⟩
abbrev main_v236 : Ref sig .tc := ⟨.hbm, 356, rfl⟩
abbrev main_c_44 : Ref sig .tc := ⟨.hbm, 357, rfl⟩
abbrev main_v237 : Ref sig .tc := ⟨.hbm, 358, rfl⟩
abbrev main_v238 : Ref sig .tc := ⟨.hbm, 359, rfl⟩
abbrev main_c_45 : Ref sig .tc := ⟨.hbm, 360, rfl⟩
abbrev main_v239 : Ref sig .tc := ⟨.hbm, 361, rfl⟩
abbrev main_v240 : Ref sig .tc := ⟨.hbm, 362, rfl⟩
abbrev main_v241 : Ref sig .tc := ⟨.hbm, 363, rfl⟩
abbrev main_v242 : Ref sig .tc := ⟨.hbm, 364, rfl⟩
abbrev main_v243 : Ref sig .tc := ⟨.hbm, 365, rfl⟩
abbrev main_v244 : Ref sig .tc := ⟨.hbm, 366, rfl⟩
abbrev main_v245 : Ref sig .tc := ⟨.hbm, 367, rfl⟩
abbrev main_cst_46 : Ref sig .tc := ⟨.hbm, 368, rfl⟩
abbrev main_v246 : Ref sig .tc := ⟨.hbm, 369, rfl⟩
abbrev main_v247 : Ref sig .tc := ⟨.hbm, 370, rfl⟩
abbrev main_v248 : Ref sig .tc := ⟨.hbm, 371, rfl⟩
abbrev main_cst_47 : Ref sig .tc := ⟨.hbm, 372, rfl⟩
abbrev main_v249 : Ref sig .tc := ⟨.hbm, 373, rfl⟩
abbrev main_v250 : Ref sig .tc := ⟨.hbm, 374, rfl⟩
abbrev main_v251 : Ref sig .tc := ⟨.hbm, 375, rfl⟩
abbrev main_v252 : Ref sig .tc := ⟨.hbm, 376, rfl⟩
abbrev main_v253 : Ref sig .tc := ⟨.hbm, 377, rfl⟩
abbrev main_v254 : Ref sig .tc := ⟨.hbm, 378, rfl⟩
abbrev main_v255 : Ref sig .tc := ⟨.hbm, 379, rfl⟩
abbrev main_v256 : Ref sig .tc := ⟨.hbm, 380, rfl⟩
abbrev main_v257 : Ref sig .tc := ⟨.hbm, 381, rfl⟩
abbrev main_v258 : Ref sig .tc := ⟨.hbm, 382, rfl⟩
abbrev main_call5_cst : Ref sig .tc := ⟨.hbm, 383, rfl⟩
abbrev main_call5_v0 : Ref sig .tc := ⟨.hbm, 384, rfl⟩
abbrev main_v259 : Ref sig .tc := ⟨.hbm, 385, rfl⟩
abbrev main_cst_48 : Ref sig .tc := ⟨.hbm, 386, rfl⟩
abbrev main_v260 : Ref sig .tc := ⟨.hbm, 387, rfl⟩
abbrev main_cst_49 : Ref sig .tc := ⟨.hbm, 388, rfl⟩
abbrev main_v261 : Ref sig .tc := ⟨.hbm, 389, rfl⟩
abbrev main_v262 : Ref sig .tc := ⟨.hbm, 390, rfl⟩
abbrev main_c_50 : Ref sig .tc := ⟨.hbm, 391, rfl⟩
abbrev main_call6_cst : Ref sig .tc := ⟨.hbm, 392, rfl⟩
abbrev main_call6_v0 : Ref sig .tc := ⟨.hbm, 393, rfl⟩
abbrev main_call6_v1 : Ref sig .tc := ⟨.hbm, 394, rfl⟩
abbrev main_call6_cst_0 : Ref sig .tc := ⟨.hbm, 395, rfl⟩
abbrev main_call6_v2 : Ref sig .tc := ⟨.hbm, 396, rfl⟩
abbrev main_call6_v3 : Ref sig .tc := ⟨.hbm, 397, rfl⟩
abbrev main_call6_v4 : Ref sig .tc := ⟨.hbm, 398, rfl⟩
abbrev main_call6_v5 : Ref sig .tc := ⟨.hbm, 399, rfl⟩
abbrev main_call6_v6 : Ref sig .tc := ⟨.hbm, 400, rfl⟩
abbrev main_call6_v7 : Ref sig .tc := ⟨.hbm, 401, rfl⟩
abbrev main_call6_cst_1 : Ref sig .tc := ⟨.hbm, 402, rfl⟩
abbrev main_call6_v8 : Ref sig .tc := ⟨.hbm, 403, rfl⟩
abbrev main_call6_cst_2 : Ref sig .tc := ⟨.hbm, 404, rfl⟩
abbrev main_call6_v9 : Ref sig .tc := ⟨.hbm, 405, rfl⟩
abbrev main_call6_v10 : Ref sig .tc := ⟨.hbm, 406, rfl⟩
abbrev main_call6_v11 : Ref sig .tc := ⟨.hbm, 407, rfl⟩
abbrev main_call6_cst_3 : Ref sig .tc := ⟨.hbm, 408, rfl⟩
abbrev main_call6_v12 : Ref sig .tc := ⟨.hbm, 409, rfl⟩
abbrev main_call6_cst_4 : Ref sig .tc := ⟨.hbm, 410, rfl⟩
abbrev main_call6_call0_v0 : Ref sig .tc := ⟨.hbm, 411, rfl⟩
abbrev main_call6_call0_v1 : Ref sig .tc := ⟨.hbm, 412, rfl⟩
abbrev main_v263 : Ref sig .tc := ⟨.hbm, 413, rfl⟩
abbrev main_v264 : Ref sig .tc := ⟨.hbm, 414, rfl⟩
abbrev main_v265 : Ref sig .tc := ⟨.hbm, 415, rfl⟩
abbrev main_v266 : Ref sig .tc := ⟨.hbm, 416, rfl⟩
abbrev main_cst_51 : Ref sig .tc := ⟨.hbm, 417, rfl⟩
abbrev main_v267 : Ref sig .tc := ⟨.hbm, 418, rfl⟩
abbrev main_v268 : Ref sig .tc := ⟨.hbm, 419, rfl⟩
abbrev main_v269 : Ref sig .tc := ⟨.hbm, 420, rfl⟩
abbrev main_v270 : Ref sig .tc := ⟨.hbm, 421, rfl⟩
abbrev main_v271 : Ref sig .tc := ⟨.hbm, 422, rfl⟩
abbrev main_v272 : Ref sig .tc := ⟨.hbm, 423, rfl⟩
abbrev main_v273 : Ref sig .tc := ⟨.hbm, 424, rfl⟩
abbrev main_v274 : Ref sig .tc := ⟨.hbm, 425, rfl⟩
abbrev main_v275 : Ref sig .tc := ⟨.hbm, 426, rfl⟩
abbrev main_v276 : Ref sig .tc := ⟨.hbm, 427, rfl⟩
abbrev main_v277 : Ref sig .tc := ⟨.hbm, 428, rfl⟩
abbrev main_v278 : Ref sig .tc := ⟨.hbm, 429, rfl⟩
abbrev main_v279 : Ref sig .tc := ⟨.hbm, 430, rfl⟩
abbrev main_v280 : Ref sig .tc := ⟨.hbm, 431, rfl⟩
abbrev main_v281 : Ref sig .tc := ⟨.hbm, 432, rfl⟩
abbrev main_v282 : Ref sig .tc := ⟨.hbm, 433, rfl⟩
abbrev main_c_52 : Ref sig .tc := ⟨.hbm, 434, rfl⟩
abbrev main_v283 : Ref sig .tc := ⟨.hbm, 435, rfl⟩
abbrev main_v284 : Ref sig .tc := ⟨.hbm, 436, rfl⟩
abbrev main_c_53 : Ref sig .tc := ⟨.hbm, 437, rfl⟩
abbrev main_v285 : Ref sig .tc := ⟨.hbm, 438, rfl⟩
abbrev main_v286 : Ref sig .tc := ⟨.hbm, 439, rfl⟩
abbrev main_v287 : Ref sig .tc := ⟨.hbm, 440, rfl⟩
abbrev main_v288 : Ref sig .tc := ⟨.hbm, 441, rfl⟩
abbrev main_v289 : Ref sig .tc := ⟨.hbm, 442, rfl⟩
abbrev main_v290 : Ref sig .tc := ⟨.hbm, 443, rfl⟩
abbrev main_v291 : Ref sig .tc := ⟨.hbm, 444, rfl⟩
abbrev main_cst_54 : Ref sig .tc := ⟨.hbm, 445, rfl⟩
abbrev main_v292 : Ref sig .tc := ⟨.hbm, 446, rfl⟩
abbrev main_v293 : Ref sig .tc := ⟨.hbm, 447, rfl⟩
abbrev main_v294 : Ref sig .tc := ⟨.hbm, 448, rfl⟩
abbrev main_v295 : Ref sig .tc := ⟨.hbm, 449, rfl⟩
abbrev main_v296 : Ref sig .tc := ⟨.hbm, 450, rfl⟩
abbrev main_v297 : Ref sig .tc := ⟨.hbm, 451, rfl⟩
abbrev main_v298 : Ref sig .tc := ⟨.hbm, 452, rfl⟩
abbrev main_v299 : Ref sig .tc := ⟨.hbm, 453, rfl⟩
abbrev main_c_55 : Ref sig .tc := ⟨.hbm, 454, rfl⟩
abbrev main_v300 : Ref sig .tc := ⟨.hbm, 455, rfl⟩
abbrev main_v301 : Ref sig .tc := ⟨.hbm, 456, rfl⟩
abbrev main_c_56 : Ref sig .tc := ⟨.hbm, 457, rfl⟩
abbrev main_v302 : Ref sig .tc := ⟨.hbm, 458, rfl⟩
abbrev main_v303 : Ref sig .tc := ⟨.hbm, 459, rfl⟩
abbrev main_v304 : Ref sig .tc := ⟨.hbm, 460, rfl⟩
abbrev main_v305 : Ref sig .tc := ⟨.hbm, 461, rfl⟩
abbrev main_v306 : Ref sig .tc := ⟨.hbm, 462, rfl⟩
abbrev main_v307 : Ref sig .tc := ⟨.hbm, 463, rfl⟩
abbrev main_v308 : Ref sig .tc := ⟨.hbm, 464, rfl⟩
abbrev main_cst_57 : Ref sig .tc := ⟨.hbm, 465, rfl⟩
abbrev main_v309 : Ref sig .tc := ⟨.hbm, 466, rfl⟩
abbrev main_v310 : Ref sig .tc := ⟨.hbm, 467, rfl⟩
abbrev main_v311 : Ref sig .tc := ⟨.hbm, 468, rfl⟩
abbrev main_cst_58 : Ref sig .tc := ⟨.hbm, 469, rfl⟩
abbrev main_v312 : Ref sig .tc := ⟨.hbm, 470, rfl⟩
abbrev main_v313 : Ref sig .tc := ⟨.hbm, 471, rfl⟩
abbrev main_v314 : Ref sig .tc := ⟨.hbm, 472, rfl⟩
abbrev main_v315 : Ref sig .tc := ⟨.hbm, 473, rfl⟩
abbrev main_v316 : Ref sig .tc := ⟨.hbm, 474, rfl⟩
abbrev main_v317 : Ref sig .tc := ⟨.hbm, 475, rfl⟩
abbrev main_v318 : Ref sig .tc := ⟨.hbm, 476, rfl⟩
abbrev main_v319 : Ref sig .tc := ⟨.hbm, 477, rfl⟩
abbrev main_c_59 : Ref sig .tc := ⟨.hbm, 478, rfl⟩
abbrev main_v320 : Ref sig .tc := ⟨.hbm, 479, rfl⟩
abbrev main_v321 : Ref sig .tc := ⟨.hbm, 480, rfl⟩
abbrev main_c_60 : Ref sig .tc := ⟨.hbm, 481, rfl⟩
abbrev main_v322 : Ref sig .tc := ⟨.hbm, 482, rfl⟩
abbrev main_v323 : Ref sig .tc := ⟨.hbm, 483, rfl⟩
abbrev main_v324 : Ref sig .tc := ⟨.hbm, 484, rfl⟩
abbrev main_v325 : Ref sig .tc := ⟨.hbm, 485, rfl⟩
abbrev main_v326 : Ref sig .tc := ⟨.hbm, 486, rfl⟩
abbrev main_v327 : Ref sig .tc := ⟨.hbm, 487, rfl⟩
abbrev main_v328 : Ref sig .tc := ⟨.hbm, 488, rfl⟩
abbrev main_cst_61 : Ref sig .tc := ⟨.hbm, 489, rfl⟩
abbrev main_v329 : Ref sig .tc := ⟨.hbm, 490, rfl⟩
abbrev main_v330 : Ref sig .tc := ⟨.hbm, 491, rfl⟩
abbrev main_v331 : Ref sig .tc := ⟨.hbm, 492, rfl⟩
abbrev main_cst_62 : Ref sig .tc := ⟨.hbm, 493, rfl⟩
abbrev main_v332 : Ref sig .tc := ⟨.hbm, 494, rfl⟩
abbrev main_v333 : Ref sig .tc := ⟨.hbm, 495, rfl⟩
abbrev main_v334 : Ref sig .tc := ⟨.hbm, 496, rfl⟩
abbrev main_v335 : Ref sig .tc := ⟨.hbm, 497, rfl⟩
abbrev main_v336 : Ref sig .tc := ⟨.hbm, 498, rfl⟩
abbrev main_v337 : Ref sig .tc := ⟨.hbm, 499, rfl⟩
abbrev main_v338 : Ref sig .tc := ⟨.hbm, 500, rfl⟩
abbrev main_v339 : Ref sig .tc := ⟨.hbm, 501, rfl⟩
abbrev main_v340 : Ref sig .tc := ⟨.hbm, 502, rfl⟩
abbrev main_v341 : Ref sig .tc := ⟨.hbm, 503, rfl⟩
abbrev main_call7_v0 : Ref sig .tc := ⟨.hbm, 504, rfl⟩
abbrev main_call7_cst : Ref sig .tc := ⟨.hbm, 505, rfl⟩
abbrev main_call7_v1 : Ref sig .tc := ⟨.hbm, 506, rfl⟩
abbrev main_call7_v2 : Ref sig .tc := ⟨.hbm, 507, rfl⟩
abbrev main_v342 : Ref sig .tc := ⟨.hbm, 508, rfl⟩
abbrev main_cst_63 : Ref sig .tc := ⟨.hbm, 509, rfl⟩
abbrev main_v343 : Ref sig .tc := ⟨.hbm, 510, rfl⟩
abbrev main_v344 : Ref sig .tc := ⟨.hbm, 511, rfl⟩
abbrev main_v345 : Ref sig .tc := ⟨.hbm, 512, rfl⟩
abbrev main_v346 : Ref sig .tc := ⟨.hbm, 513, rfl⟩
abbrev main_v347 : Ref sig .tc := ⟨.hbm, 514, rfl⟩
abbrev main_v348 : Ref sig .tc := ⟨.hbm, 515, rfl⟩
abbrev main_v349 : Ref sig .tc := ⟨.hbm, 516, rfl⟩
abbrev main_v350 : Ref sig .tc := ⟨.hbm, 517, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S4x3x128_S1x3x128_0_0_0 : S4x3x128.Slices ![0, 0, 0] S1x3x128
  shapeCasts_S1x3x128_S3x128 : S1x3x128.ShapeCasts S3x128
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  slices_S4x3x128_S1x3x128_1_0_0 : S4x3x128.Slices ![1, 0, 0] S1x3x128
  slices_S4x3x128_S1x3x128_2_0_0 : S4x3x128.Slices ![2, 0, 0] S1x3x128
  slices_S4x3x128_S1x3x128_3_0_0 : S4x3x128.Slices ![3, 0, 0] S1x3x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128x128_S1x128x128_0_0_0 : S4x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x3_S3x128_S50000x128_1_0_0_1_n_n_wf : DotDims.WF S50000x3 S3x128 S50000x128 [1] [0] [0] [1] [] []
  gather_S50000x3_S800000x1_S800000x3_1_0_n_n_0_1_13_wf : GatherDims.WF S50000x3 S800000x1 S800000x3 [1] [0] [] [0] [] 1 ![1, 3]
  scatter_S50000x3_S800000x1_S800000x3_1_0_0_1_wf : ScatterDims.WF S50000x3 S800000x1 S800000x3 [1] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x3_S50000x3_1_0_0_1_n_n_wf : DotDims.WF S50000x128 S128x3 S50000x3 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x3_S3x128_S50000x128_1_0_0_1_n_n : DotDims S50000x3 S3x128 S50000x128 where
  lhsContracting := [1]
  rhsContracting := [0]
  lhsNonContracting := [0]
  rhsNonContracting := [1]
  lhsBatch := []
  rhsBatch := []
  wf := dot_S50000x3_S3x128_S50000x128_1_0_0_1_n_n_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf

class Facts : Prop extends Facts₀ where

variable [Facts]
-- ==== Proof.KR0.lean ====
/-
  Region 0 of the kernel program: the first layer's dense product. At each of the 25 grid points the body reads a
  2000×12 tile of the stacked Chebyshev features, the whole 12×128 weight and the 1×128 bias, and stores
  leaky_relu(tile · weight + bias) over the whole 2000×128 output tile. Here: what the output tile holds after
  the body as a function of the three input tiles, the body's triple, and the pipeline's proof data at any entry
  contents `V` of the TensorCore's buffers.
-/
import proofs.«133509_j41223096107483_1_alg».proof.Proof.Gen.Kernel.Launch
import proofs.«133509_j41223096107483_1_alg».proof.Proof.Gen.Kernel.Skeleton
import proofs.«133509_j41223096107483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its tile at every point, whether it was fetched there or not (an
    unfetched window's index has not moved; the windows are uncut and never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rX0 : Rect S2000x12 := Rect.unit (s := S2000x12) ![0, 0] S2000x12.size inb_S2000x12_S2000x12_0_0
abbrev rW0 : Rect S12x128 := Rect.unit (s := S12x128) ![0, 0] S12x128.size inb_S12x128_S12x128_0_0
abbrev rB0 : Rect S1x128 := Rect.unit (s := S1x128) ![0, 0] S1x128.size inb_S1x128_S1x128_0_0
abbrev rO0 : Rect S2000x128 := Rect.unit (s := S2000x128) ![0, 0] S2000x128.size inb_S2000x128_S2000x128_0_0

/-- The output tile after the body: its one store, of the activation of tile · weight + bias. -/
def out0 (x : Vec F S2000x12 .bf16) (w : Vec F S12x128 .bf16) (b : Vec F S1x128 .f32) : Vec F S2000x128 .f32 :=
  View.canon [⟨rO0, k0_pay1 (View.ld x rX0) (View.ld w rW0) (View.ld b rB0)⟩]

/-- The store is of the whole tile. -/
theorem cover0 (p : Vec F S2000x128 .f32) (y : S2000x128.Idx) :
    ∃ pc ∈ ([⟨rO0, p⟩] : List (View.Piece (Elt F) S2000x128 .f32)), y ∈ pc.1.set :=
  View.cover_of_tiled [⟨rO0, p⟩] S2000x128.size (by rfl) y

set_option maxHeartbeats 1000000 in
/-- The body on whole staging memrefs: the inputs keep their contents, the output ends at `out0` of them. -/
theorem sound_kernel0 (c : Dev nD) (E : Set ℕ) (i : grid0.Coords)
    (arg1 : Memref sig .tc .vmem S2000x12 .bf16) (harg1 : arg1.IsWhole) (arg2 : Memref sig .tc .vmem S12x128 .bf16) (harg2 : arg2.IsWhole)
    (arg3 : Memref sig .tc .vmem S1x128 .f32) (harg3 : arg3.IsWhole) (arg4 : Memref sig .tc .vmem S2000x128 .f32) (harg4 : arg4.IsWhole)
    (x : Vec F S2000x12 .bf16) (w : Vec F S12x128 .bf16) (b : Vec F S1x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out0 x w b)) -∗ K ⟨⟩))
      ⊢ wp frame (wpE (defs₀ (F := F)) Variants.none c none) E (cc0__matmul_act_kernel i arg1 harg1 arg2 harg2 arg3 harg3 arg4 harg4) K := by
  simp only [cc0__matmul_act_kernel_eq_skeleton]; unfold cc0__matmul_act_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

/-- The proof data of pipeline 0 on core `c`: the arrays as the region finds them; after the body each input's
    buffer at its tile and the output's at `out0` of the input tiles; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KR1.lean ====
/-
  Region 1 of the kernel program: the first batch normalisation. At each of the 25 grid points the body reads a
  2000×128 tile of the activations and the four 1×128 rows (column mean, column variance, scale, shift) and stores
  (tile − mean) · rsqrt(variance + ε) · scale + shift over the whole 2000×128 output tile. Here: the output tile
  after the body as a function of the five input tiles, the body's triple, and the pipeline's proof data at any
  entry contents `V` of the TensorCore's buffers.
-/
import proofs.«133509_j41223096107483_1_alg».proof.Proof.Gen.Kernel.Launch
import proofs.«133509_j41223096107483_1_alg».proof.Proof.Gen.Kernel.Skeleton
import proofs.«133509_j41223096107483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its tile at every point, whether it was fetched there or not (an
    unfetched window's index has not moved; the windows are uncut and never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rT1 : Rect S2000x128 := Rect.unit (s := S2000x128) ![0, 0] S2000x128.size inb_S2000x128_S2000x128_0_0
abbrev rR1 : Rect S1x128 := Rect.unit (s := S1x128) ![0, 0] S1x128.size inb_S1x128_S1x128_0_0

/-- The output tile after the body: its one store, of the normalised tile. -/
def out1 (y : Vec F S2000x128 .f32) (mu va ga be : Vec F S1x128 .f32) : Vec F S2000x128 .f32 :=
  View.canon [⟨rT1, k1_pay1 (View.ld y rT1) (View.ld mu rR1) (View.ld va rR1) (View.ld ga rR1) (View.ld be rR1)⟩]

/-- The store is of the whole tile. -/
theorem cover1 (p : Vec F S2000x128 .f32) (y : S2000x128.Idx) :
    ∃ pc ∈ ([⟨rT1, p⟩] : List (View.Piece (Elt F) S2000x128 .f32)), y ∈ pc.1.set :=
  View.cover_of_tiled [⟨rT1, p⟩] S2000x128.size (by rfl) y

set_option maxHeartbeats 1000000 in
/-- The body on whole staging memrefs: the inputs keep their contents, the output ends at `out1` of them. -/
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (y : Vec F S2000x128 .f32) (mu va ga be : Vec F S1x128 .f32) (K : PUnit → sProp 𝕄) :
    iprop(owns (c : Thread nD τ) arg1 fullShare y ∗ owns (c : Thread nD τ) arg2 fullShare mu ∗ owns (c : Thread nD τ) arg3 fullShare va
        ∗ owns (c : Thread nD τ) arg4 fullShare ga ∗ owns (c : Thread nD τ) arg5 fullShare be
        ∗ (∃ d, owns (c : Thread nD τ) arg6 fullShare d)
        ∗ (iprop(owns (c : Thread nD τ) arg1 fullShare y ∗ owns (c : Thread nD τ) arg2 fullShare mu ∗ owns (c : Thread nD τ) arg3 fullShare va
            ∗ owns (c : Thread nD τ) arg4 fullShare ga ∗ owns (c : Thread nD τ) arg5 fullShare be
            ∗ owns (c : Thread nD τ) arg6 fullShare (out1 y mu va ga be)) -∗ K ⟨⟩))
      ⊢ wp frame (wpE (defs₀ (F := F)) Variants.none c none) E
          (cc1__bn_normalize_kernel i arg1 harg1 arg2 harg2 arg3 harg3 arg4 harg4 arg5 harg5 arg6 harg6) K := by
  simp only [cc1__bn_normalize_kernel_eq_skeleton]; unfold cc1__bn_normalize_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-- The proof data of pipeline 1 on core `c`: the arrays as the region finds them; after the body each input's
    buffer at its tile and the output's at `out1` of the input tiles; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KR2.lean ====
/- Region 2 of the kernel program: the second layer's dense product. At each of the 25 grid points the body reads a 2000x512 tile of the stacked Chebyshev features, the whole 512x128 weight and the 1x128 bias, and stores leaky_relu(tile * weight + bias) over the whole 2000x128 output tile. Here: what the output tile holds after the body as a function of the input tiles, the body's triple, and the pipeline's proof data at any entry contents V of the TensorCore's buffers.
-/
import proofs.«133509_j41223096107483_1_alg».proof.Proof.Gen.Kernel.Launch
import proofs.«133509_j41223096107483_1_alg».proof.Proof.Gen.Kernel.Skeleton
import proofs.«133509_j41223096107483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its tile at every point, whether it was fetched there or not (an
    unfetched window's index has not moved; the windows are uncut and never idle). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev rX2 : Rect S2000x512 := Rect.unit (s := S2000x512) ![0, 0] S2000x512.size inb_S2000x512_S2000x512_0_0
abbrev rW2 : Rect S512x128 := Rect.unit (s := S512x128) ![0, 0] S512x128.size inb_S512x128_S512x128_0_0
abbrev rB2 : Rect S1x128 := Rect.unit (s := S1x128) ![0, 0] S1x128.size inb_S1x128_S1x128_0_0
abbrev rO2 : Rect S2000x128 := Rect.unit (s := S2000x128) ![0, 0] S2000x128.size inb_S2000x128_S2000x128_0_0

/-- The output tile after the body: its one store, of the activation of tile · weight + bias. -/
def out2 (x : Vec F S2000x512 .bf16) (w : Vec F S512x128 .bf16) (b : Vec F S1x128 .f32) : Vec F S2000x128 .f32 :=
  View.canon [⟨rO2, k2_pay1 (View.ld x rX2) (View.ld w rW2) (View.ld b rB2)⟩]

/-- The store is of the whole tile. -/
theorem cover2 (p : Vec F S2000x128 .f32) (y : S2000x128.Idx) :
    ∃ pc ∈ ([⟨rO2, p⟩] : List (View.Piece (Elt F) S2000x128 .f32)), y ∈ pc.1.set :=
  View.cover_of_tiled [⟨rO2, p⟩] S2000x128.size (by rfl) y

set_option maxHeartbeats 1000000 in
/-- The body on whole staging memrefs: the inputs keep their contents, the output ends at `out2` of them. -/
theorem sound_kernel2 (c : Dev nD) (E : Set ℕ) (i : grid2.Coords)
    (arg1 : Memref sig .tc .vmem S2000x512 .bf16) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S2000x128 .f32) (harg4 : arg4.IsWhole)
    (x : Vec F S2000x512 .bf16) (w : Vec F S512x128 .bf16) (b : Vec F S1x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out2 x w b)) -∗ K ⟨⟩))
      ⊢ wp frame (wpE (defs₀ (F := F)) Variants.none c none) E (cc2__matmul_act_kernel i arg1 harg1 arg2 harg2 arg3 harg3 arg4 harg4) K := by
  simp only [cc2__matmul_act_kernel_eq_skeleton]; unfold cc2__matmul_act_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-- The proof data of pipeline 2 on core `c`: the arrays as the region finds them; after the body each input's
    buffer at its tile and the output's at `out2` of the input tiles; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.KR3.lean ====
/- Region 3 of the kernel program: the second batch normalisation. At each of the 25 grid points the body reads a 2000x128 tile of the activations and the four 1x128 rows (column mean, column variance, scale, shift) and stores (tile - mean) * rsqrt(variance + eps) * scale + shift over the whole 2000x128 output tile. Here: what the output tile holds after the body as a function of the input tiles, the body's triple, and the pipeline's proof data at any entry contents V of the TensorCore's buffers.
-/
import proofs.«133509_j41223096107483_1_alg».proof.Proof.Gen.Kernel.Launch
import proofs.«133509_j41223096107483_1_alg».proof.Proof.Gen.Kernel.Skeleton
import proofs.«133509_j41223096107483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its tile at every point, whether it was fetched there or not (an
    unfetched window's index has not moved; the windows are uncut and never idle). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev rT3 : Rect S2000x128 := Rect.unit (s := S2000x128) ![0, 0] S2000x128.size inb_S2000x128_S2000x128_0_0
abbrev rR3 : Rect S1x128 := Rect.unit (s := S1x128) ![0, 0] S1x128.size inb_S1x128_S1x128_0_0

/-- The output tile after the body: its one store, of the normalised tile. -/
def out3 (y : Vec F S2000x128 .f32) (mu va ga be : Vec F S1x128 .f32) : Vec F S2000x128 .f32 :=
  View.canon [⟨rT3, k3_pay1 (View.ld y rT3) (View.ld mu rR3) (View.ld va rR3) (View.ld ga rR3) (View.ld be rR3)⟩]

/-- The store is of the whole tile. -/
theorem cover3 (p : Vec F S2000x128 .f32) (y : S2000x128.Idx) :
    ∃ pc ∈ ([⟨rT3, p⟩] : List (View.Piece (Elt F) S2000x128 .f32)), y ∈ pc.1.set :=
  View.cover_of_tiled [⟨rT3, p⟩] S2000x128.size (by rfl) y

set_option maxHeartbeats 1000000 in
/-- The body on whole staging memrefs: the inputs keep their contents, the output ends at `out3` of them. -/
theorem sound_kernel3 (c : Dev nD) (E : Set ℕ) (i : grid3.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (y : Vec F S2000x128 .f32) (mu va ga be : Vec F S1x128 .f32) (K : PUnit → sProp 𝕄) :
    iprop(owns (c : Thread nD τ) arg1 fullShare y ∗ owns (c : Thread nD τ) arg2 fullShare mu ∗ owns (c : Thread nD τ) arg3 fullShare va
        ∗ owns (c : Thread nD τ) arg4 fullShare ga ∗ owns (c : Thread nD τ) arg5 fullShare be
        ∗ (∃ d, owns (c : Thread nD τ) arg6 fullShare d)
        ∗ (iprop(owns (c : Thread nD τ) arg1 fullShare y ∗ owns (c : Thread nD τ) arg2 fullShare mu ∗ owns (c : Thread nD τ) arg3 fullShare va
            ∗ owns (c : Thread nD τ) arg4 fullShare ga ∗ owns (c : Thread nD τ) arg5 fullShare be
            ∗ owns (c : Thread nD τ) arg6 fullShare (out3 y mu va ga be)) -∗ K ⟨⟩))
      ⊢ wp frame (wpE (defs₀ (F := F)) Variants.none c none) E
          (cc3__bn_normalize_kernel i arg1 harg1 arg2 harg2 arg3 harg3 arg4 harg4 arg5 harg5 arg6 harg6) K := by
  simp only [cc3__bn_normalize_kernel_eq_skeleton]; unfold cc3__bn_normalize_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3 _)

/-- The proof data of pipeline 3 on core `c`: the arrays as the region finds them; after the body each input's
    buffer at its tile and the output's at `out3` of the input tiles; the scoped rest and the generator register
    untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.KR4.lean ====
/- Region 4 of the kernel program: the third layer's dense product. At each of the 25 grid points the body reads a 2000x512 tile of the stacked Chebyshev features, the whole 512x128 weight and the 1x128 bias, and stores max(tile * weight + bias, 0) over the whole 2000x128 output tile. Here: what the output tile holds after the body as a function of the input tiles, the body's triple, and the pipeline's proof data at any entry contents V of the TensorCore's buffers.
-/
import proofs.«133509_j41223096107483_1_alg».proof.Proof.Gen.Kernel.Launch
import proofs.«133509_j41223096107483_1_alg».proof.Proof.Gen.Kernel.Skeleton
import proofs.«133509_j41223096107483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its tile at every point, whether it was fetched there or not (an
    unfetched window's index has not moved; the windows are uncut and never idle). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev rX4 : Rect S2000x512 := Rect.unit (s := S2000x512) ![0, 0] S2000x512.size inb_S2000x512_S2000x512_0_0
abbrev rW4 : Rect S512x128 := Rect.unit (s := S512x128) ![0, 0] S512x128.size inb_S512x128_S512x128_0_0
abbrev rB4 : Rect S1x128 := Rect.unit (s := S1x128) ![0, 0] S1x128.size inb_S1x128_S1x128_0_0
abbrev rO4 : Rect S2000x128 := Rect.unit (s := S2000x128) ![0, 0] S2000x128.size inb_S2000x128_S2000x128_0_0

/-- The output tile after the body: its one store, of the activation of tile · weight + bias. -/
def out4 (x : Vec F S2000x512 .bf16) (w : Vec F S512x128 .bf16) (b : Vec F S1x128 .f32) : Vec F S2000x128 .f32 :=
  View.canon [⟨rO4, k4_pay1 (View.ld x rX4) (View.ld w rW4) (View.ld b rB4)⟩]

/-- The store is of the whole tile. -/
theorem cover4 (p : Vec F S2000x128 .f32) (y : S2000x128.Idx) :
    ∃ pc ∈ ([⟨rO4, p⟩] : List (View.Piece (Elt F) S2000x128 .f32)), y ∈ pc.1.set :=
  View.cover_of_tiled [⟨rO4, p⟩] S2000x128.size (by rfl) y

set_option maxHeartbeats 1000000 in
/-- The body on whole staging memrefs: the inputs keep their contents, the output ends at `out4` of them. -/
theorem sound_kernel4 (c : Dev nD) (E : Set ℕ) (i : grid4.Coords)
    (arg1 : Memref sig .tc .vmem S2000x512 .bf16) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S2000x128 .f32) (harg4 : arg4.IsWhole)
    (x : Vec F S2000x512 .bf16) (w : Vec F S512x128 .bf16) (b : Vec F S1x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out4 x w b)) -∗ K ⟨⟩))
      ⊢ wp frame (wpE (defs₀ (F := F)) Variants.none c none) E (cc4__matmul_act_kernel i arg1 harg1 arg2 harg2 arg3 harg3 arg4 harg4) K := by
  simp only [cc4__matmul_act_kernel_eq_skeleton]; unfold cc4__matmul_act_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-- The proof data of pipeline 4 on core `c`: the arrays as the region finds them; after the body each input's
    buffer at its tile and the output's at `out4` of the input tiles; the scoped rest and the generator register
    untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Frm

end
-- ==== Proof.KR5.lean ====
/- Region 5 of the kernel program: the third batch normalisation. At each of the 25 grid points the body reads a 2000x128 tile of the activations and the four 1x128 rows (column mean, column variance, scale, shift) and stores (tile - mean) * rsqrt(variance + eps) * scale + shift over the whole 2000x128 output tile. Here: what the output tile holds after the body as a function of the input tiles, the body's triple, and the pipeline's proof data at any entry contents V of the TensorCore's buffers.
-/
import proofs.«133509_j41223096107483_1_alg».proof.Proof.Gen.Kernel.Launch
import proofs.«133509_j41223096107483_1_alg».proof.Proof.Gen.Kernel.Skeleton
import proofs.«133509_j41223096107483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its tile at every point, whether it was fetched there or not (an
    unfetched window's index has not moved; the windows are uncut and never idle). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev rT5 : Rect S2000x128 := Rect.unit (s := S2000x128) ![0, 0] S2000x128.size inb_S2000x128_S2000x128_0_0
abbrev rR5 : Rect S1x128 := Rect.unit (s := S1x128) ![0, 0] S1x128.size inb_S1x128_S1x128_0_0

/-- The output tile after the body: its one store, of the normalised tile. -/
def out5 (y : Vec F S2000x128 .f32) (mu va ga be : Vec F S1x128 .f32) : Vec F S2000x128 .f32 :=
  View.canon [⟨rT5, k5_pay1 (View.ld y rT5) (View.ld mu rR5) (View.ld va rR5) (View.ld ga rR5) (View.ld be rR5)⟩]

/-- The store is of the whole tile. -/
theorem cover5 (p : Vec F S2000x128 .f32) (y : S2000x128.Idx) :
    ∃ pc ∈ ([⟨rT5, p⟩] : List (View.Piece (Elt F) S2000x128 .f32)), y ∈ pc.1.set :=
  View.cover_of_tiled [⟨rT5, p⟩] S2000x128.size (by rfl) y

set_option maxHeartbeats 1000000 in
/-- The body on whole staging memrefs: the inputs keep their contents, the output ends at `out5` of them. -/
theorem sound_kernel5 (c : Dev nD) (E : Set ℕ) (i : grid5.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (y : Vec F S2000x128 .f32) (mu va ga be : Vec F S1x128 .f32) (K : PUnit → sProp 𝕄) :
    iprop(owns (c : Thread nD τ) arg1 fullShare y ∗ owns (c : Thread nD τ) arg2 fullShare mu ∗ owns (c : Thread nD τ) arg3 fullShare va
        ∗ owns (c : Thread nD τ) arg4 fullShare ga ∗ owns (c : Thread nD τ) arg5 fullShare be
        ∗ (∃ d, owns (c : Thread nD τ) arg6 fullShare d)
        ∗ (iprop(owns (c : Thread nD τ) arg1 fullShare y ∗ owns (c : Thread nD τ) arg2 fullShare mu ∗ owns (c : Thread nD τ) arg3 fullShare va
            ∗ owns (c : Thread nD τ) arg4 fullShare ga ∗ owns (c : Thread nD τ) arg5 fullShare be
            ∗ owns (c : Thread nD τ) arg6 fullShare (out5 y mu va ga be)) -∗ K ⟨⟩))
      ⊢ wp frame (wpE (defs₀ (F := F)) Variants.none c none) E
          (cc5__bn_normalize_kernel i arg1 harg1 arg2 harg2 arg3 harg3 arg4 harg4 arg5 harg5 arg6 harg6) K := by
  simp only [cc5__bn_normalize_kernel_eq_skeleton]; unfold cc5__bn_normalize_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5 _)

/-- The proof data of pipeline 5 on core `c`: the arrays as the region finds them; after the body each input's
    buffer at its tile and the output's at `out5` of the input tiles; the scoped rest and the generator register
    untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Frm

end
-- ==== Proof.KR6.lean ====
/- Region 6 of the kernel program: the fourth layer's dense product. At each of the 25 grid points the body reads a 2000x512 tile of the stacked Chebyshev features, the whole 512x128 weight and the 1x128 bias, and stores tile * weight + bias over the whole 2000x128 output tile. Here: what the output tile holds after the body as a function of the input tiles, the body's triple, and the pipeline's proof data at any entry contents V of the TensorCore's buffers.
-/
import proofs.«133509_j41223096107483_1_alg».proof.Proof.Gen.Kernel.Launch
import proofs.«133509_j41223096107483_1_alg».proof.Proof.Gen.Kernel.Skeleton
import proofs.«133509_j41223096107483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current buffer holds its tile at every point, whether it was fetched there or not (an
    unfetched window's index has not moved; the windows are uncut and never idle). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev rX6 : Rect S2000x512 := Rect.unit (s := S2000x512) ![0, 0] S2000x512.size inb_S2000x512_S2000x512_0_0
abbrev rW6 : Rect S512x128 := Rect.unit (s := S512x128) ![0, 0] S512x128.size inb_S512x128_S512x128_0_0
abbrev rB6 : Rect S1x128 := Rect.unit (s := S1x128) ![0, 0] S1x128.size inb_S1x128_S1x128_0_0
abbrev rO6 : Rect S2000x128 := Rect.unit (s := S2000x128) ![0, 0] S2000x128.size inb_S2000x128_S2000x128_0_0

/-- The output tile after the body: its one store, of the activation of tile · weight + bias. -/
def out6 (x : Vec F S2000x512 .bf16) (w : Vec F S512x128 .bf16) (b : Vec F S1x128 .f32) : Vec F S2000x128 .f32 :=
  View.canon [⟨rO6, k6_pay1 (View.ld x rX6) (View.ld w rW6) (View.ld b rB6)⟩]

/-- The store is of the whole tile. -/
theorem cover6 (p : Vec F S2000x128 .f32) (y : S2000x128.Idx) :
    ∃ pc ∈ ([⟨rO6, p⟩] : List (View.Piece (Elt F) S2000x128 .f32)), y ∈ pc.1.set :=
  View.cover_of_tiled [⟨rO6, p⟩] S2000x128.size (by rfl) y

set_option maxHeartbeats 1000000 in
/-- The body on whole staging memrefs: the inputs keep their contents, the output ends at `out6` of them. -/
theorem sound_kernel6 (c : Dev nD) (E : Set ℕ) (i : grid6.Coords)
    (arg1 : Memref sig .tc .vmem S2000x512 .bf16) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S2000x128 .f32) (harg4 : arg4.IsWhole)
    (x : Vec F S2000x512 .bf16) (w : Vec F S512x128 .bf16) (b : Vec F S1x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out6 x w b)) -∗ K ⟨⟩))
      ⊢ wp frame (wpE (defs₀ (F := F)) Variants.none c none) E (cc6__matmul_act_kernel i arg1 harg1 arg2 harg2 arg3 harg3 arg4 harg4) K := by
  simp only [cc6__matmul_act_kernel_eq_skeleton]; unfold cc6__matmul_act_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6 _)

/-- The proof data of pipeline 6 on core `c`: the arrays as the region finds them; after the body each input's
    buffer at its tile and the output's at `out6` of the input tiles; the scoped rest and the generator register
    untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Frm

end
-- ==== Proof.KR7.lean ====
/- Region 7 of the kernel program: the row normalisation and the linear head. At each of the 25 grid points the body reads a 2000x128 tile of the last layer's activations, the whole 128x3 weight and the 1x3 bias, divides each row by the larger of its Euclidean norm and 1e-12, and stores normalised tile * weight + bias over the whole 2000x3 output tile. Here: what the output tile holds after the body as a function of the input tiles, the body's triple, and the pipeline's proof data at any entry contents V of the TensorCore's buffers.
-/
import proofs.«133509_j41223096107483_1_alg».proof.Proof.Gen.Kernel.Launch
import proofs.«133509_j41223096107483_1_alg».proof.Proof.Gen.Kernel.Skeleton
import proofs.«133509_j41223096107483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current buffer holds its tile at every point, whether it was fetched there or not (an
    unfetched window's index has not moved; the windows are uncut and never idle). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

abbrev rX7 : Rect S2000x128 := Rect.unit (s := S2000x128) ![0, 0] S2000x128.size inb_S2000x128_S2000x128_0_0
abbrev rW7 : Rect S128x3 := Rect.unit (s := S128x3) ![0, 0] S128x3.size inb_S128x3_S128x3_0_0
abbrev rB7 : Rect S1x3 := Rect.unit (s := S1x3) ![0, 0] S1x3.size inb_S1x3_S1x3_0_0
abbrev rO7 : Rect S2000x3 := Rect.unit (s := S2000x3) ![0, 0] S2000x3.size inb_S2000x3_S2000x3_0_0

/-- The output tile after the body: its one store, of the activation of tile · weight + bias. -/
def out7 (x : Vec F S2000x128 .f32) (w : Vec F S128x3 .bf16) (b : Vec F S1x3 .f32) : Vec F S2000x3 .f32 :=
  View.canon [⟨rO7, k7_pay1 (View.ld x rX7) (View.ld w rW7) (View.ld b rB7)⟩]

/-- The store is of the whole tile. -/
theorem cover7 (p : Vec F S2000x3 .f32) (y : S2000x3.Idx) :
    ∃ pc ∈ ([⟨rO7, p⟩] : List (View.Piece (Elt F) S2000x3 .f32)), y ∈ pc.1.set :=
  View.cover_of_tiled [⟨rO7, p⟩] S2000x3.size (by rfl) y

set_option maxHeartbeats 1000000 in
/-- The body on whole staging memrefs: the inputs keep their contents, the output ends at `out7` of them. -/
theorem sound_kernel7 (c : Dev nD) (E : Set ℕ) (i : grid7.Coords)
    (arg1 : Memref sig .tc .vmem S2000x128 .f32) (harg1 : arg1.IsWhole) (arg2 : Memref sig .tc .vmem S128x3 .bf16) (harg2 : arg2.IsWhole)
    (arg3 : Memref sig .tc .vmem S1x3 .f32) (harg3 : arg3.IsWhole) (arg4 : Memref sig .tc .vmem S2000x3 .f32) (harg4 : arg4.IsWhole)
    (x : Vec F S2000x128 .f32) (w : Vec F S128x3 .bf16) (b : Vec F S1x3 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out7 x w b)) -∗ K ⟨⟩))
      ⊢ wp frame (wpE (defs₀ (F := F)) Variants.none c none) E (cc7__rep_head_kernel i arg1 harg1 arg2 harg2 arg3 harg3 arg4 harg4) K := by
  simp only [cc7__rep_head_kernel_eq_skeleton]; unfold cc7__rep_head_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7 _)

/-- The proof data of pipeline 7 on core `c`: the arrays as the region finds them; after the body each input's
    buffer at its tile and the output's at `out7` of the input tiles; the scoped rest and the generator register
    untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Frm

end
-- ==== Proof.KBound.lean ====
/- The TensorCore's buffer contents at each of the 25 boundaries between the 24 items of the kernel program's @main:
   W0 is the launch memory; across a host stretch the contents are folded through its operations; across a region the
   region's arrays hold what its write-backs leave and every other buffer is as the region found it. Every item writes
   buffers of its own only (single assignment), so an argument array reaches the last boundary as it was launched. -/
import proofs.«133509_j41223096107483_1_alg».proof.Proof.KR0
import proofs.«133509_j41223096107483_1_alg».proof.Proof.KR1
import proofs.«133509_j41223096107483_1_alg».proof.Proof.KR2
import proofs.«133509_j41223096107483_1_alg».proof.Proof.KR3
import proofs.«133509_j41223096107483_1_alg».proof.Proof.KR4
import proofs.«133509_j41223096107483_1_alg».proof.Proof.KR5
import proofs.«133509_j41223096107483_1_alg».proof.Proof.KR6
import proofs.«133509_j41223096107483_1_alg».proof.Proof.KR7

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each host stretch writes -/

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_cst, main_v4, main_cst_0, main_v5, main_v6, main_v7, main_cst_1, main_v8, main_v9, main_cst_2, main_v10, main_v11, main_v12, main_cst_3]
set_option maxHeartbeats 4000000 in
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps0_1_fresh : (hostOps0_1 : List (HloOp τ sig (Elt F))).Forall fun op => op.fresh = ∅ := by
  simp only [List.Forall]; repeat' constructor
abbrev hostOps0_1_W : List (Ref sig .tc) := [main_call0_v0, main_call0_v1, main_v13]
set_option maxHeartbeats 4000000 in
theorem hostOps0_1_writes : (hostOps0_1 : List (HloOp τ sig (Elt F))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps0_2_fresh : (hostOps0_2 : List (HloOp τ sig (Elt F))).Forall fun op => op.fresh = ∅ := by
  simp only [List.Forall]; repeat' constructor
abbrev hostOps0_2_W : List (Ref sig .tc) := [main_c, main_v14, main_v15, main_c_4, main_v16, main_v17, main_v18, main_v19, main_v20, main_v21, main_c_5, main_v22, main_v23, main_c_6, main_v24, main_v25, main_v26, main_v27, main_v28, main_v29, main_v30, main_c_7, main_v31, main_v32, main_c_8, main_v33, main_v34, main_v35, main_v36, main_v37, main_v38, main_v39, main_cst_9, main_v40, main_v41, main_v42, main_v43, main_c_10, main_v44, main_v45, main_c_11, main_v46, main_v47, main_v48, main_v49, main_v50, main_v51, main_v52, main_cst_12, main_v53, main_v54, main_v55, main_cst_13, main_v56, main_v57, main_v58, main_v59, main_c_14, main_v60, main_v61, main_c_15, main_v62, main_v63, main_v64, main_v65, main_v66, main_v67, main_v68, main_cst_16, main_v69, main_v70, main_v71, main_cst_17, main_v72, main_v73, main_v74, main_v75, main_v76, main_v77, main_v78, main_v79, main_v80, main_v81, main_v82, main_v83, main_v84]
set_option maxHeartbeats 4000000 in
theorem hostOps0_2_writes : (hostOps0_2 : List (HloOp τ sig (Elt F))).Forall fun op => op.writes ⊆ (hostOps0_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps1_fresh : (hostOps1 : List (HloOp τ sig (Elt F))).Forall fun op => op.fresh = ∅ := by
  simp only [List.Forall]; repeat' constructor
abbrev hostOps1_W : List (Ref sig .tc) := [main_cst_18, main_v86, main_cst_19, main_v87, main_v88, main_v89, main_c_20]
set_option maxHeartbeats 4000000 in
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps1_1_fresh : (hostOps1_1 : List (HloOp τ sig (Elt F))).Forall fun op => op.fresh = ∅ := by
  simp only [List.Forall]; repeat' constructor
abbrev hostOps1_1_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v90]
set_option maxHeartbeats 4000000 in
theorem hostOps1_1_writes : (hostOps1_1 : List (HloOp τ sig (Elt F))).Forall fun op => op.writes ⊆ (hostOps1_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps1_2_fresh : (hostOps1_2 : List (HloOp τ sig (Elt F))).Forall fun op => op.fresh = ∅ := by
  simp only [List.Forall]; repeat' constructor
abbrev hostOps1_2_W : List (Ref sig .tc) := [main_v91, main_v92, main_v93]
set_option maxHeartbeats 4000000 in
theorem hostOps1_2_writes : (hostOps1_2 : List (HloOp τ sig (Elt F))).Forall fun op => op.writes ⊆ (hostOps1_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps2_fresh : (hostOps2 : List (HloOp τ sig (Elt F))).Forall fun op => op.fresh = ∅ := by
  simp only [List.Forall]; repeat' constructor
abbrev hostOps2_W : List (Ref sig .tc) := [main_v95, main_c_21, main_v96, main_v97, main_c_22, main_v98, main_v99, main_v100, main_v101, main_v102, main_v103, main_v104, main_cst_23, main_v105, main_v106, main_v107, main_v108, main_c_24, main_v109, main_v110, main_c_25, main_v111, main_v112, main_v113, main_v114, main_v115, main_v116, main_v117, main_cst_26, main_v118, main_v119, main_v120, main_cst_27, main_v121, main_v122, main_v123, main_v124, main_c_28, main_v125, main_v126, main_c_29, main_v127, main_v128, main_v129, main_v130, main_v131, main_v132, main_v133, main_cst_30, main_v134, main_v135, main_v136, main_cst_31, main_v137, main_v138, main_v139, main_v140, main_v141, main_v142, main_v143, main_v144, main_v145, main_v146, main_v147, main_v148, main_v149]
set_option maxHeartbeats 4000000 in
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps3_fresh : (hostOps3 : List (HloOp τ sig (Elt F))).Forall fun op => op.fresh = ∅ := by
  simp only [List.Forall]; repeat' constructor
abbrev hostOps3_W : List (Ref sig .tc) := [main_cst_32, main_v151, main_cst_33, main_v152, main_v153, main_v154, main_c_34]
set_option maxHeartbeats 4000000 in
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps3_1_fresh : (hostOps3_1 : List (HloOp τ sig (Elt F))).Forall fun op => op.fresh = ∅ := by
  simp only [List.Forall]; repeat' constructor
abbrev hostOps3_1_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v155]
set_option maxHeartbeats 4000000 in
theorem hostOps3_1_writes : (hostOps3_1 : List (HloOp τ sig (Elt F))).Forall fun op => op.writes ⊆ (hostOps3_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps3_2_fresh : (hostOps3_2 : List (HloOp τ sig (Elt F))).Forall fun op => op.fresh = ∅ := by
  simp only [List.Forall]; repeat' constructor
abbrev hostOps3_2_W : List (Ref sig .tc) := [main_v156, main_v157, main_v158]
set_option maxHeartbeats 4000000 in
theorem hostOps3_2_writes : (hostOps3_2 : List (HloOp τ sig (Elt F))).Forall fun op => op.writes ⊆ (hostOps3_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps4_fresh : (hostOps4 : List (HloOp τ sig (Elt F))).Forall fun op => op.fresh = ∅ := by
  simp only [List.Forall]; repeat' constructor
abbrev hostOps4_W : List (Ref sig .tc) := [main_v160, main_c_35, main_v161, main_v162, main_c_36, main_v163, main_v164, main_v165, main_v166, main_v167, main_v168, main_v169, main_cst_37, main_v170, main_v171, main_v172, main_v173, main_c_38, main_v174, main_v175, main_c_39, main_v176, main_v177, main_v178, main_v179, main_v180, main_v181, main_v182, main_cst_40, main_v183, main_v184, main_v185, main_cst_41, main_v186, main_v187, main_v188, main_v189, main_c_42, main_v190, main_v191, main_c_43, main_v192, main_v193, main_v194, main_v195, main_v196, main_v197, main_v198, main_cst_44, main_v199, main_v200, main_v201, main_cst_45, main_v202, main_v203, main_v204, main_v205, main_v206, main_v207, main_v208, main_v209, main_v210, main_v211, main_v212, main_v213, main_v214]
set_option maxHeartbeats 4000000 in
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps5_fresh : (hostOps5 : List (HloOp τ sig (Elt F))).Forall fun op => op.fresh = ∅ := by
  simp only [List.Forall]; repeat' constructor
abbrev hostOps5_W : List (Ref sig .tc) := [main_cst_46, main_v216, main_cst_47, main_v217, main_v218, main_v219, main_c_48]
set_option maxHeartbeats 4000000 in
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps5_1_fresh : (hostOps5_1 : List (HloOp τ sig (Elt F))).Forall fun op => op.fresh = ∅ := by
  simp only [List.Forall]; repeat' constructor
abbrev hostOps5_1_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v220]
set_option maxHeartbeats 4000000 in
theorem hostOps5_1_writes : (hostOps5_1 : List (HloOp τ sig (Elt F))).Forall fun op => op.writes ⊆ (hostOps5_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps5_2_fresh : (hostOps5_2 : List (HloOp τ sig (Elt F))).Forall fun op => op.fresh = ∅ := by
  simp only [List.Forall]; repeat' constructor
abbrev hostOps5_2_W : List (Ref sig .tc) := [main_v221, main_v222, main_v223]
set_option maxHeartbeats 4000000 in
theorem hostOps5_2_writes : (hostOps5_2 : List (HloOp τ sig (Elt F))).Forall fun op => op.writes ⊆ (hostOps5_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps6_fresh : (hostOps6 : List (HloOp τ sig (Elt F))).Forall fun op => op.fresh = ∅ := by
  simp only [List.Forall]; repeat' constructor
abbrev hostOps6_W : List (Ref sig .tc) := [main_v225, main_c_49, main_v226, main_v227, main_c_50, main_v228, main_v229, main_v230, main_v231, main_v232, main_v233, main_v234, main_cst_51, main_v235, main_v236, main_v237, main_v238, main_c_52, main_v239, main_v240, main_c_53, main_v241, main_v242, main_v243, main_v244, main_v245, main_v246, main_v247, main_cst_54, main_v248, main_v249, main_v250, main_cst_55, main_v251, main_v252, main_v253, main_v254, main_c_56, main_v255, main_v256, main_c_57, main_v257, main_v258, main_v259, main_v260, main_v261, main_v262, main_v263, main_cst_58, main_v264, main_v265, main_v266, main_cst_59, main_v267, main_v268, main_v269, main_v270, main_v271, main_v272, main_v273, main_v274, main_v275, main_v276, main_v277, main_v278, main_v279]
set_option maxHeartbeats 4000000 in
theorem hostOps6_writes : (hostOps6 : List (HloOp τ sig (Elt F))).Forall fun op => op.writes ⊆ (hostOps6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps7_fresh : (hostOps7 : List (HloOp τ sig (Elt F))).Forall fun op => op.fresh = ∅ := by
  simp only [List.Forall]; repeat' constructor
abbrev hostOps7_W : List (Ref sig .tc) := [main_v281, main_v282]
set_option maxHeartbeats 4000000 in
theorem hostOps7_writes : (hostOps7 : List (HloOp τ sig (Elt F))).Forall fun op => op.writes ⊆ (hostOps7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

variable (m : (ℓ : Loc nD τ sig) → Buf (Elt F) ℓ) (ρ : Dev nD → PrngReg)

/-! ## The contents at each boundary -/

/-- A core's buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h

abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h

/-- The contents region 0 is entered from, read at the TensorCore's references. -/
abbrev V3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h

abbrev W6 : Dev nD → Valuation τ sig (Elt F) := fun c => StableHlo.after hostOps1_1 (W5 m ρ c)
theorem W6_of (c : Dev nD) (r : Ref sig .tc) (h : r ∉ hostOps1_1_W) : W6 m ρ c (Proc.devRef .tc r) = W5 m ρ c (Proc.devRef .tc r) :=
  StableHlo.after_of_writes_sub hostOps1_1 _ hostOps1_1_writes h

abbrev W7 : Dev nD → Valuation τ sig (Elt F) := fun c => StableHlo.after hostOps1_2 (W6 m ρ c)
theorem W7_of (c : Dev nD) (r : Ref sig .tc) (h : r ∉ hostOps1_2_W) : W7 m ρ c (Proc.devRef .tc r) = W6 m ρ c (Proc.devRef .tc r) :=
  StableHlo.after_of_writes_sub hostOps1_2 _ hostOps1_2_writes h

/-- The contents region 1 is entered from, read at the TensorCore's references. -/
abbrev V7 : (c : Dev nD) → (b : Ref sig .tc) → Buf (Elt F) ((c : Thread nD τ).loc b) := fun c b => W7 m ρ c b
/-- At region 1's exit: its arrays at what the pipeline leaves, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h

/-- The contents region 2 is entered from, read at the TensorCore's references. -/
abbrev V9 : (c : Dev nD) → (b : Ref sig .tc) → Buf (Elt F) ((c : Thread nD τ).loc b) := fun c b => W9 m ρ c b
/-- At region 2's exit: its arrays at what the pipeline leaves, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps3 (W10 m ρ c)
theorem W11_of (c : Dev nD) (r : Ref sig .tc) (h : r ∉ hostOps3_W) : W11 m ρ c (Proc.devRef .tc r) = W10 m ρ c (Proc.devRef .tc r) :=
  StableHlo.after_of_writes_sub hostOps3 _ hostOps3_writes h

abbrev W12 : Dev nD → Valuation τ sig (Elt F) := fun c => StableHlo.after hostOps3_1 (W11 m ρ c)
theorem W12_of (c : Dev nD) (r : Ref sig .tc) (h : r ∉ hostOps3_1_W) : W12 m ρ c (Proc.devRef .tc r) = W11 m ρ c (Proc.devRef .tc r) :=
  StableHlo.after_of_writes_sub hostOps3_1 _ hostOps3_1_writes h

abbrev W13 : Dev nD → Valuation τ sig (Elt F) := fun c => StableHlo.after hostOps3_2 (W12 m ρ c)
theorem W13_of (c : Dev nD) (r : Ref sig .tc) (h : r ∉ hostOps3_2_W) : W13 m ρ c (Proc.devRef .tc r) = W12 m ρ c (Proc.devRef .tc r) :=
  StableHlo.after_of_writes_sub hostOps3_2 _ hostOps3_2_writes h

/-- The contents region 3 is entered from, read at the TensorCore's references. -/
abbrev V13 : (c : Dev nD) → (b : Ref sig .tc) → Buf (Elt F) ((c : Thread nD τ).loc b) := fun c b => W13 m ρ c b
/-- At region 3's exit: its arrays at what the pipeline leaves, every other buffer as entered. -/
def W14 (c : Dev nD) : Valuation τ sig (Elt F) :=
  Pipeline.withArrays spec3 c (W13 m ρ c) fun w => (dat3 (V13 m ρ) c).arrAt w cfg3.N
theorem W14_arr (c : Dev nD) (w : Fin cfg3.W) :
    W14 m ρ c (Proc.devRef .tc (Pipeline.arrRef spec3 w)) = (dat3 (V13 m ρ) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m ρ c (Proc.devRef .tc b) = W13 m ρ c (Proc.devRef .tc b) := by
  unfold W14; exact Pipeline.withArrays_of_ne spec3 c _ _ b hb
abbrev V14 : (c : Dev nD) → (b : Ref sig .tc) → Buf (Elt F) ((c : Thread nD τ).loc b) := fun c b => W14 m ρ c b
theorem hF3 (c : Dev nD) (w : Fin cfg3.W) : (dat3 (V13 m ρ) c).arrAt w cfg3.N = V14 m ρ c (Pipeline.arrRef spec3 w) :=
  (W14_arr m ρ c w).symm
theorem hrest3 (c : Dev nD) : ∀ b, b ∉ Finset.univ.image (Pipeline.arrRef spec3) → V14 m ρ c b = V13 m ρ c b :=
  fun b hb => W14_of_ne m ρ c b fun w e => hb (Finset.mem_image.mpr ⟨w, Finset.mem_univ _, e⟩)

abbrev W15 : Dev nD → Valuation τ sig (Elt F) := fun c => StableHlo.after hostOps4 (W14 m ρ c)
theorem W15_of (c : Dev nD) (r : Ref sig .tc) (h : r ∉ hostOps4_W) : W15 m ρ c (Proc.devRef .tc r) = W14 m ρ c (Proc.devRef .tc r) :=
  StableHlo.after_of_writes_sub hostOps4 _ hostOps4_writes h

/-- The contents region 4 is entered from, read at the TensorCore's references. -/
abbrev V15 : (c : Dev nD) → (b : Ref sig .tc) → Buf (Elt F) ((c : Thread nD τ).loc b) := fun c b => W15 m ρ c b
/-- At region 4's exit: its arrays at what the pipeline leaves, every other buffer as entered. -/
def W16 (c : Dev nD) : Valuation τ sig (Elt F) :=
  Pipeline.withArrays spec4 c (W15 m ρ c) fun w => (dat4 (V15 m ρ) c).arrAt w cfg4.N
theorem W16_arr (c : Dev nD) (w : Fin cfg4.W) :
    W16 m ρ c (Proc.devRef .tc (Pipeline.arrRef spec4 w)) = (dat4 (V15 m ρ) c).arrAt w cfg4.N := by
  unfold W16; exact Pipeline.withArrays_arr spec4 launch4.win.arr_inj c _ _ w
theorem W16_of_ne (c : Dev nD) (b : Ref sig .tc) (hb : ∀ w, Pipeline.arrRef spec4 w ≠ b) :
    W16 m ρ c (Proc.devRef .tc b) = W15 m ρ c (Proc.devRef .tc b) := by
  unfold W16; exact Pipeline.withArrays_of_ne spec4 c _ _ b hb
abbrev V16 : (c : Dev nD) → (b : Ref sig .tc) → Buf (Elt F) ((c : Thread nD τ).loc b) := fun c b => W16 m ρ c b
theorem hF4 (c : Dev nD) (w : Fin cfg4.W) : (dat4 (V15 m ρ) c).arrAt w cfg4.N = V16 m ρ c (Pipeline.arrRef spec4 w) :=
  (W16_arr m ρ c w).symm
theorem hrest4 (c : Dev nD) : ∀ b, b ∉ Finset.univ.image (Pipeline.arrRef spec4) → V16 m ρ c b = V15 m ρ c b :=
  fun b hb => W16_of_ne m ρ c b fun w e => hb (Finset.mem_image.mpr ⟨w, Finset.mem_univ _, e⟩)

abbrev W17 : Dev nD → Valuation τ sig (Elt F) := fun c => StableHlo.after hostOps5 (W16 m ρ c)
theorem W17_of (c : Dev nD) (r : Ref sig .tc) (h : r ∉ hostOps5_W) : W17 m ρ c (Proc.devRef .tc r) = W16 m ρ c (Proc.devRef .tc r) :=
  StableHlo.after_of_writes_sub hostOps5 _ hostOps5_writes h

abbrev W18 : Dev nD → Valuation τ sig (Elt F) := fun c => StableHlo.after hostOps5_1 (W17 m ρ c)
theorem W18_of (c : Dev nD) (r : Ref sig .tc) (h : r ∉ hostOps5_1_W) : W18 m ρ c (Proc.devRef .tc r) = W17 m ρ c (Proc.devRef .tc r) :=
  StableHlo.after_of_writes_sub hostOps5_1 _ hostOps5_1_writes h

abbrev W19 : Dev nD → Valuation τ sig (Elt F) := fun c => StableHlo.after hostOps5_2 (W18 m ρ c)
theorem W19_of (c : Dev nD) (r : Ref sig .tc) (h : r ∉ hostOps5_2_W) : W19 m ρ c (Proc.devRef .tc r) = W18 m ρ c (Proc.devRef .tc r) :=
  StableHlo.after_of_writes_sub hostOps5_2 _ hostOps5_2_writes h

/-- The contents region 5 is entered from, read at the TensorCore's references. -/
abbrev V19 : (c : Dev nD) → (b : Ref sig .tc) → Buf (Elt F) ((c : Thread nD τ).loc b) := fun c b => W19 m ρ c b
/-- At region 5's exit: its arrays at what the pipeline leaves, every other buffer as entered. -/
def W20 (c : Dev nD) : Valuation τ sig (Elt F) :=
  Pipeline.withArrays spec5 c (W19 m ρ c) fun w => (dat5 (V19 m ρ) c).arrAt w cfg5.N
theorem W20_arr (c : Dev nD) (w : Fin cfg5.W) :
    W20 m ρ c (Proc.devRef .tc (Pipeline.arrRef spec5 w)) = (dat5 (V19 m ρ) c).arrAt w cfg5.N := by
  unfold W20; exact Pipeline.withArrays_arr spec5 launch5.win.arr_inj c _ _ w
theorem W20_of_ne (c : Dev nD) (b : Ref sig .tc) (hb : ∀ w, Pipeline.arrRef spec5 w ≠ b) :
    W20 m ρ c (Proc.devRef .tc b) = W19 m ρ c (Proc.devRef .tc b) := by
  unfold W20; exact Pipeline.withArrays_of_ne spec5 c _ _ b hb
abbrev V20 : (c : Dev nD) → (b : Ref sig .tc) → Buf (Elt F) ((c : Thread nD τ).loc b) := fun c b => W20 m ρ c b
theorem hF5 (c : Dev nD) (w : Fin cfg5.W) : (dat5 (V19 m ρ) c).arrAt w cfg5.N = V20 m ρ c (Pipeline.arrRef spec5 w) :=
  (W20_arr m ρ c w).symm
theorem hrest5 (c : Dev nD) : ∀ b, b ∉ Finset.univ.image (Pipeline.arrRef spec5) → V20 m ρ c b = V19 m ρ c b :=
  fun b hb => W20_of_ne m ρ c b fun w e => hb (Finset.mem_image.mpr ⟨w, Finset.mem_univ _, e⟩)

abbrev W21 : Dev nD → Valuation τ sig (Elt F) := fun c => StableHlo.after hostOps6 (W20 m ρ c)
theorem W21_of (c : Dev nD) (r : Ref sig .tc) (h : r ∉ hostOps6_W) : W21 m ρ c (Proc.devRef .tc r) = W20 m ρ c (Proc.devRef .tc r) :=
  StableHlo.after_of_writes_sub hostOps6 _ hostOps6_writes h

/-- The contents region 6 is entered from, read at the TensorCore's references. -/
abbrev V21 : (c : Dev nD) → (b : Ref sig .tc) → Buf (Elt F) ((c : Thread nD τ).loc b) := fun c b => W21 m ρ c b
/-- At region 6's exit: its arrays at what the pipeline leaves, every other buffer as entered. -/
def W22 (c : Dev nD) : Valuation τ sig (Elt F) :=
  Pipeline.withArrays spec6 c (W21 m ρ c) fun w => (dat6 (V21 m ρ) c).arrAt w cfg6.N
theorem W22_arr (c : Dev nD) (w : Fin cfg6.W) :
    W22 m ρ c (Proc.devRef .tc (Pipeline.arrRef spec6 w)) = (dat6 (V21 m ρ) c).arrAt w cfg6.N := by
  unfold W22; exact Pipeline.withArrays_arr spec6 launch6.win.arr_inj c _ _ w
theorem W22_of_ne (c : Dev nD) (b : Ref sig .tc) (hb : ∀ w, Pipeline.arrRef spec6 w ≠ b) :
    W22 m ρ c (Proc.devRef .tc b) = W21 m ρ c (Proc.devRef .tc b) := by
  unfold W22; exact Pipeline.withArrays_of_ne spec6 c _ _ b hb
abbrev V22 : (c : Dev nD) → (b : Ref sig .tc) → Buf (Elt F) ((c : Thread nD τ).loc b) := fun c b => W22 m ρ c b
theorem hF6 (c : Dev nD) (w : Fin cfg6.W) : (dat6 (V21 m ρ) c).arrAt w cfg6.N = V22 m ρ c (Pipeline.arrRef spec6 w) :=
  (W22_arr m ρ c w).symm
theorem hrest6 (c : Dev nD) : ∀ b, b ∉ Finset.univ.image (Pipeline.arrRef spec6) → V22 m ρ c b = V21 m ρ c b :=
  fun b hb => W22_of_ne m ρ c b fun w e => hb (Finset.mem_image.mpr ⟨w, Finset.mem_univ _, e⟩)

abbrev W23 : Dev nD → Valuation τ sig (Elt F) := fun c => StableHlo.after hostOps7 (W22 m ρ c)
theorem W23_of (c : Dev nD) (r : Ref sig .tc) (h : r ∉ hostOps7_W) : W23 m ρ c (Proc.devRef .tc r) = W22 m ρ c (Proc.devRef .tc r) :=
  StableHlo.after_of_writes_sub hostOps7 _ hostOps7_writes h

/-- The contents region 7 is entered from, read at the TensorCore's references. -/
abbrev V23 : (c : Dev nD) → (b : Ref sig .tc) → Buf (Elt F) ((c : Thread nD τ).loc b) := fun c b => W23 m ρ c b
/-- At region 7's exit: its arrays at what the pipeline leaves, every other buffer as entered. -/
def W24 (c : Dev nD) : Valuation τ sig (Elt F) :=
  Pipeline.withArrays spec7 c (W23 m ρ c) fun w => (dat7 (V23 m ρ) c).arrAt w cfg7.N
theorem W24_arr (c : Dev nD) (w : Fin cfg7.W) :
    W24 m ρ c (Proc.devRef .tc (Pipeline.arrRef spec7 w)) = (dat7 (V23 m ρ) c).arrAt w cfg7.N := by
  unfold W24; exact Pipeline.withArrays_arr spec7 launch7.win.arr_inj c _ _ w
theorem W24_of_ne (c : Dev nD) (b : Ref sig .tc) (hb : ∀ w, Pipeline.arrRef spec7 w ≠ b) :
    W24 m ρ c (Proc.devRef .tc b) = W23 m ρ c (Proc.devRef .tc b) := by
  unfold W24; exact Pipeline.withArrays_of_ne spec7 c _ _ b hb
abbrev V24 : (c : Dev nD) → (b : Ref sig .tc) → Buf (Elt F) ((c : Thread nD τ).loc b) := fun c b => W24 m ρ c b
theorem hF7 (c : Dev nD) (w : Fin cfg7.W) : (dat7 (V23 m ρ) c).arrAt w cfg7.N = V24 m ρ c (Pipeline.arrRef spec7 w) :=
  (W24_arr m ρ c w).symm
theorem hrest7 (c : Dev nD) : ∀ b, b ∉ Finset.univ.image (Pipeline.arrRef spec7) → V24 m ρ c b = V23 m ρ c b :=
  fun b hb => W24_of_ne m ρ c b fun w e => hb (Finset.mem_image.mpr ⟨w, Finset.mem_univ _, e⟩)

/-! ## The arguments end as launched -/

/-- A reference that no host stretch writes and that is no region's array holds at the last boundary what it held at launch. -/
theorem W24_kept (c : Dev nD) (r : Ref sig .tc)
    (h1 : r ∉ hostOps0_W := by decide) (h2 : r ∉ hostOps0_1_W := by decide) (h3 : r ∉ hostOps0_2_W := by decide)
    (h4 : ∀ w, Pipeline.arrRef spec0 w ≠ r := by decide) (h5 : r ∉ hostOps1_W := by decide) (h6 : r ∉ hostOps1_1_W := by decide)
    (h7 : r ∉ hostOps1_2_W := by decide) (h8 : ∀ w, Pipeline.arrRef spec1 w ≠ r := by decide) (h9 : r ∉ hostOps2_W := by decide)
    (h10 : ∀ w, Pipeline.arrRef spec2 w ≠ r := by decide) (h11 : r ∉ hostOps3_W := by decide) (h12 : r ∉ hostOps3_1_W := by decide)
    (h13 : r ∉ hostOps3_2_W := by decide) (h14 : ∀ w, Pipeline.arrRef spec3 w ≠ r := by decide) (h15 : r ∉ hostOps4_W := by decide)
    (h16 : ∀ w, Pipeline.arrRef spec4 w ≠ r := by decide) (h17 : r ∉ hostOps5_W := by decide) (h18 : r ∉ hostOps5_1_W := by decide)
    (h19 : r ∉ hostOps5_2_W := by decide) (h20 : ∀ w, Pipeline.arrRef spec5 w ≠ r := by decide) (h21 : r ∉ hostOps6_W := by decide)
    (h22 : ∀ w, Pipeline.arrRef spec6 w ≠ r := by decide) (h23 : r ∉ hostOps7_W := by decide) (h24 : ∀ w, Pipeline.arrRef spec7 w ≠ r := by decide)
    : W24 m ρ c (Proc.devRef .tc r) = m ((c : Thread nD τ).loc r) := by
  rw [W24_of_ne m ρ c r h24, W23_of m ρ c r h23, W22_of_ne m ρ c r h22, W21_of m ρ c r h21, W20_of_ne m ρ c r h20, W19_of m ρ c r h19, W18_of m ρ c r h18, W17_of m ρ c r h17, W16_of_ne m ρ c r h16, W15_of m ρ c r h15, W14_of_ne m ρ c r h14, W13_of m ρ c r h13, W12_of m ρ c r h12, W11_of m ρ c r h11, W10_of_ne m ρ c r h10, W9_of m ρ c r h9, W8_of_ne m ρ c r h8, W7_of m ρ c r h7, W6_of m ρ c r h6, W5_of m ρ c r h5, W4_of_ne m ρ c r h4, W3_of m ρ c r h3, W2_of m ρ c r h2, W1_of m ρ c r h1]

/-- The same up to an earlier boundary: a reference no item before boundary j writes holds there what it held at launch. -/
theorem W2_kept (c : Dev nD) (r : Ref sig .tc)
    (h1 : r ∉ hostOps0_W := by decide) (h2 : r ∉ hostOps0_1_W := by decide)
    : W2 m ρ c (Proc.devRef .tc r) = m ((c : Thread nD τ).loc r) := by
  rw [W2_of m ρ c r h2, W1_of m ρ c r h1]

theorem W4_kept (c : Dev nD) (r : Ref sig .tc)
    (h1 : r ∉ hostOps0_W := by decide) (h2 : r ∉ hostOps0_1_W := by decide) (h3 : r ∉ hostOps0_2_W := by decide)
    (h4 : ∀ w, Pipeline.arrRef spec0 w ≠ r := by decide)
    : W4 m ρ c (Proc.devRef .tc r) = m ((c : Thread nD τ).loc r) := by
  rw [W4_of_ne m ρ c r h4, W3_of m ρ c r h3, W2_of m ρ c r h2, W1_of m ρ c r h1]

theorem W8_kept (c : Dev nD) (r : Ref sig .tc)
    (h1 : r ∉ hostOps0_W := by decide) (h2 : r ∉ hostOps0_1_W := by decide) (h3 : r ∉ hostOps0_2_W := by decide)
    (h4 : ∀ w, Pipeline.arrRef spec0 w ≠ r := by decide) (h5 : r ∉ hostOps1_W := by decide) (h6 : r ∉ hostOps1_1_W := by decide)
    (h7 : r ∉ hostOps1_2_W := by decide) (h8 : ∀ w, Pipeline.arrRef spec1 w ≠ r := by decide)
    : W8 m ρ c (Proc.devRef .tc r) = m ((c : Thread nD τ).loc r) := by
  rw [W8_of_ne m ρ c r h8, W7_of m ρ c r h7, W6_of m ρ c r h6, W5_of m ρ c r h5, W4_of_ne m ρ c r h4, W3_of m ρ c r h3, W2_of m ρ c r h2, W1_of m ρ c r h1]

theorem W10_kept (c : Dev nD) (r : Ref sig .tc)
    (h1 : r ∉ hostOps0_W := by decide) (h2 : r ∉ hostOps0_1_W := by decide) (h3 : r ∉ hostOps0_2_W := by decide)
    (h4 : ∀ w, Pipeline.arrRef spec0 w ≠ r := by decide) (h5 : r ∉ hostOps1_W := by decide) (h6 : r ∉ hostOps1_1_W := by decide)
    (h7 : r ∉ hostOps1_2_W := by decide) (h8 : ∀ w, Pipeline.arrRef spec1 w ≠ r := by decide) (h9 : r ∉ hostOps2_W := by decide)
    (h10 : ∀ w, Pipeline.arrRef spec2 w ≠ r := by decide)
    : W10 m ρ c (Proc.devRef .tc r) = m ((c : Thread nD τ).loc r) := by
  rw [W10_of_ne m ρ c r h10, W9_of m ρ c r h9, W8_of_ne m ρ c r h8, W7_of m ρ c r h7, W6_of m ρ c r h6, W5_of m ρ c r h5, W4_of_ne m ρ c r h4, W3_of m ρ c r h3, W2_of m ρ c r h2, W1_of m ρ c r h1]

theorem W14_kept (c : Dev nD) (r : Ref sig .tc)
    (h1 : r ∉ hostOps0_W := by decide) (h2 : r ∉ hostOps0_1_W := by decide) (h3 : r ∉ hostOps0_2_W := by decide)
    (h4 : ∀ w, Pipeline.arrRef spec0 w ≠ r := by decide) (h5 : r ∉ hostOps1_W := by decide) (h6 : r ∉ hostOps1_1_W := by decide)
    (h7 : r ∉ hostOps1_2_W := by decide) (h8 : ∀ w, Pipeline.arrRef spec1 w ≠ r := by decide) (h9 : r ∉ hostOps2_W := by decide)
    (h10 : ∀ w, Pipeline.arrRef spec2 w ≠ r := by decide) (h11 : r ∉ hostOps3_W := by decide) (h12 : r ∉ hostOps3_1_W := by decide)
    (h13 : r ∉ hostOps3_2_W := by decide) (h14 : ∀ w, Pipeline.arrRef spec3 w ≠ r := by decide)
    : W14 m ρ c (Proc.devRef .tc r) = m ((c : Thread nD τ).loc r) := by
  rw [W14_of_ne m ρ c r h14, W13_of m ρ c r h13, W12_of m ρ c r h12, W11_of m ρ c r h11, W10_of_ne m ρ c r h10, W9_of m ρ c r h9, W8_of_ne m ρ c r h8, W7_of m ρ c r h7, W6_of m ρ c r h6, W5_of m ρ c r h5, W4_of_ne m ρ c r h4, W3_of m ρ c r h3, W2_of m ρ c r h2, W1_of m ρ c r h1]

theorem W16_kept (c : Dev nD) (r : Ref sig .tc)
    (h1 : r ∉ hostOps0_W := by decide) (h2 : r ∉ hostOps0_1_W := by decide) (h3 : r ∉ hostOps0_2_W := by decide)
    (h4 : ∀ w, Pipeline.arrRef spec0 w ≠ r := by decide) (h5 : r ∉ hostOps1_W := by decide) (h6 : r ∉ hostOps1_1_W := by decide)
    (h7 : r ∉ hostOps1_2_W := by decide) (h8 : ∀ w, Pipeline.arrRef spec1 w ≠ r := by decide) (h9 : r ∉ hostOps2_W := by decide)
    (h10 : ∀ w, Pipeline.arrRef spec2 w ≠ r := by decide) (h11 : r ∉ hostOps3_W := by decide) (h12 : r ∉ hostOps3_1_W := by decide)
    (h13 : r ∉ hostOps3_2_W := by decide) (h14 : ∀ w, Pipeline.arrRef spec3 w ≠ r := by decide) (h15 : r ∉ hostOps4_W := by decide)
    (h16 : ∀ w, Pipeline.arrRef spec4 w ≠ r := by decide)
    : W16 m ρ c (Proc.devRef .tc r) = m ((c : Thread nD τ).loc r) := by
  rw [W16_of_ne m ρ c r h16, W15_of m ρ c r h15, W14_of_ne m ρ c r h14, W13_of m ρ c r h13, W12_of m ρ c r h12, W11_of m ρ c r h11, W10_of_ne m ρ c r h10, W9_of m ρ c r h9, W8_of_ne m ρ c r h8, W7_of m ρ c r h7, W6_of m ρ c r h6, W5_of m ρ c r h5, W4_of_ne m ρ c r h4, W3_of m ρ c r h3, W2_of m ρ c r h2, W1_of m ρ c r h1]

theorem W20_kept (c : Dev nD) (r : Ref sig .tc)
    (h1 : r ∉ hostOps0_W := by decide) (h2 : r ∉ hostOps0_1_W := by decide) (h3 : r ∉ hostOps0_2_W := by decide)
    (h4 : ∀ w, Pipeline.arrRef spec0 w ≠ r := by decide) (h5 : r ∉ hostOps1_W := by decide) (h6 : r ∉ hostOps1_1_W := by decide)
    (h7 : r ∉ hostOps1_2_W := by decide) (h8 : ∀ w, Pipeline.arrRef spec1 w ≠ r := by decide) (h9 : r ∉ hostOps2_W := by decide)
    (h10 : ∀ w, Pipeline.arrRef spec2 w ≠ r := by decide) (h11 : r ∉ hostOps3_W := by decide) (h12 : r ∉ hostOps3_1_W := by decide)
    (h13 : r ∉ hostOps3_2_W := by decide) (h14 : ∀ w, Pipeline.arrRef spec3 w ≠ r := by decide) (h15 : r ∉ hostOps4_W := by decide)
    (h16 : ∀ w, Pipeline.arrRef spec4 w ≠ r := by decide) (h17 : r ∉ hostOps5_W := by decide) (h18 : r ∉ hostOps5_1_W := by decide)
    (h19 : r ∉ hostOps5_2_W := by decide) (h20 : ∀ w, Pipeline.arrRef spec5 w ≠ r := by decide)
    : W20 m ρ c (Proc.devRef .tc r) = m ((c : Thread nD τ).loc r) := by
  rw [W20_of_ne m ρ c r h20, W19_of m ρ c r h19, W18_of m ρ c r h18, W17_of m ρ c r h17, W16_of_ne m ρ c r h16, W15_of m ρ c r h15, W14_of_ne m ρ c r h14, W13_of m ρ c r h13, W12_of m ρ c r h12, W11_of m ρ c r h11, W10_of_ne m ρ c r h10, W9_of m ρ c r h9, W8_of_ne m ρ c r h8, W7_of m ρ c r h7, W6_of m ρ c r h6, W5_of m ρ c r h5, W4_of_ne m ρ c r h4, W3_of m ρ c r h3, W2_of m ρ c r h2, W1_of m ρ c r h1]

theorem W22_kept (c : Dev nD) (r : Ref sig .tc)
    (h1 : r ∉ hostOps0_W := by decide) (h2 : r ∉ hostOps0_1_W := by decide) (h3 : r ∉ hostOps0_2_W := by decide)
    (h4 : ∀ w, Pipeline.arrRef spec0 w ≠ r := by decide) (h5 : r ∉ hostOps1_W := by decide) (h6 : r ∉ hostOps1_1_W := by decide)
    (h7 : r ∉ hostOps1_2_W := by decide) (h8 : ∀ w, Pipeline.arrRef spec1 w ≠ r := by decide) (h9 : r ∉ hostOps2_W := by decide)
    (h10 : ∀ w, Pipeline.arrRef spec2 w ≠ r := by decide) (h11 : r ∉ hostOps3_W := by decide) (h12 : r ∉ hostOps3_1_W := by decide)
    (h13 : r ∉ hostOps3_2_W := by decide) (h14 : ∀ w, Pipeline.arrRef spec3 w ≠ r := by decide) (h15 : r ∉ hostOps4_W := by decide)
    (h16 : ∀ w, Pipeline.arrRef spec4 w ≠ r := by decide) (h17 : r ∉ hostOps5_W := by decide) (h18 : r ∉ hostOps5_1_W := by decide)
    (h19 : r ∉ hostOps5_2_W := by decide) (h20 : ∀ w, Pipeline.arrRef spec5 w ≠ r := by decide) (h21 : r ∉ hostOps6_W := by decide)
    (h22 : ∀ w, Pipeline.arrRef spec6 w ≠ r := by decide)
    : W22 m ρ c (Proc.devRef .tc r) = m ((c : Thread nD τ).loc r) := by
  rw [W22_of_ne m ρ c r h22, W21_of m ρ c r h21, W20_of_ne m ρ c r h20, W19_of m ρ c r h19, W18_of m ρ c r h18, W17_of m ρ c r h17, W16_of_ne m ρ c r h16, W15_of m ρ c r h15, W14_of_ne m ρ c r h14, W13_of m ρ c r h13, W12_of m ρ c r h12, W11_of m ρ c r h11, W10_of_ne m ρ c r h10, W9_of m ρ c r h9, W8_of_ne m ρ c r h8, W7_of m ρ c r h7, W6_of m ρ c r h6, W5_of m ρ c r h5, W4_of_ne m ρ c r h4, W3_of m ρ c r h3, W2_of m ρ c r h2, W1_of m ρ c r h1]

end Cert.Kernel.Frm

end
-- ==== Proof.KData.lean ====
/-
  The proof data of the kernel program's eight pipelines, each at the contents its region is entered from, and
  the thread state that rides through every item of @main beside the buffers: the core's generator register at
  some state, and nothing owed to any other core (the kernels signal no one).
-/
import proofs.«133509_j41223096107483_1_alg».proof.Proof.KBound

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline prefetches a table. -/
abbrev adm : (p : Fin 8) → (pcfgs (F := F) p).Adm := fun p => (cfgs p).toPCfg_adm

/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
  | ⟨2, _⟩ => fun c => dat2 (V9 m ρ) c
  | ⟨3, _⟩ => fun c => dat3 (V13 m ρ) c
  | ⟨4, _⟩ => fun c => dat4 (V15 m ρ) c
  | ⟨5, _⟩ => fun c => dat5 (V19 m ρ) c
  | ⟨6, _⟩ => fun c => dat6 (V21 m ρ) c
  | ⟨7, _⟩ => fun c => dat7 (V23 m ρ) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state, nothing owed. -/
abbrev R (c : Dev nD) : sProp 𝕄 := iprop((∃ r, prngReg c r) ∗ ∃ W, owes (c : Thread nD τ) (0 : CellTallies nD τ sig Unit) W)

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last boundary's contents, the generator
    register at some state. -/
abbrev Tₙ (c : Dev nD) : sProp 𝕄 := iprop(StableHlo.held (c : Thread nD τ) (Pipeline.ucRefs τ sig) (W24 m ρ c) ∗ ∃ r, prngReg c r)

end Cert.Kernel.Frm

end
-- ==== Proof.KReg0.lean ====
/-
  Region 0 of the kernel program as a segment of @main: entered with every unscoped buffer at the contents of
  boundary 3, left with them at the contents of boundary 4. At the entry the region's arrays are split out of the
  unscoped buffers and at the exit put back at what the pipeline leaves in them; the generator register goes into
  the pipeline's invariant and comes back; nothing is owed; the kernel has no semaphore of its own.
-/
import proofs.«133509_j41223096107483_1_alg».proof.Proof.KData

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KReg1.lean ====
/- Region 1 of the kernel program as a segment of @main: entered with every unscoped buffer at the contents of
  boundary 7, left with them at the contents of boundary 8. At the entry the region's arrays are split out of the
  unscoped buffers and at the exit put back at what the pipeline leaves in them; the generator register goes into
  the pipeline's invariant and comes back; nothing is owed; the kernel has no semaphore of its own.
-/
import proofs.«133509_j41223096107483_1_alg».proof.Proof.KData

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KReg2.lean ====
/- Region 2 of the kernel program as a segment of @main: entered with every unscoped buffer at the contents of
  boundary 9, left with them at the contents of boundary 10. At the entry the region's arrays are split out of the
  unscoped buffers and at the exit put back at what the pipeline leaves in them; the generator register goes into
  the pipeline's invariant and comes back; nothing is owed; the kernel has no semaphore of its own.
-/
import proofs.«133509_j41223096107483_1_alg».proof.Proof.KData

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KReg3.lean ====
/- Region 3 of the kernel program as a segment of @main: entered with every unscoped buffer at the contents of
  boundary 13, left with them at the contents of boundary 14. At the entry the region's arrays are split out of the
  unscoped buffers and at the exit put back at what the pipeline leaves in them; the generator register goes into
  the pipeline's invariant and comes back; nothing is owed; the kernel has no semaphore of its own.
-/
import proofs.«133509_j41223096107483_1_alg».proof.Proof.KData

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V13 m ρ) c).loose
  hwaits := Pipeline.hwaits_of_owed_zero _ _ _ _ L lv 3 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec3 c (V13 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V13 m ρ c) (V14 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KReg4.lean ====
/- Region 4 of the kernel program as a segment of @main: entered with every unscoped buffer at the contents of
  boundary 15, left with them at the contents of boundary 16. At the entry the region's arrays are split out of the
  unscoped buffers and at the exit put back at what the pipeline leaves in them; the generator register goes into
  the pipeline's invariant and comes back; nothing is owed; the kernel has no semaphore of its own.
-/
import proofs.«133509_j41223096107483_1_alg».proof.Proof.KData

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V15 m ρ) c).loose
  hwaits := Pipeline.hwaits_of_owed_zero _ _ _ _ L lv 4 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec4 c (V15 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V15 m ρ c) (V16 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KReg5.lean ====
/- Region 5 of the kernel program as a segment of @main: entered with every unscoped buffer at the contents of
  boundary 19, left with them at the contents of boundary 20. At the entry the region's arrays are split out of the
  unscoped buffers and at the exit put back at what the pipeline leaves in them; the generator register goes into
  the pipeline's invariant and comes back; nothing is owed; the kernel has no semaphore of its own.
-/
import proofs.«133509_j41223096107483_1_alg».proof.Proof.KData

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V19 m ρ) c).loose
  hwaits := Pipeline.hwaits_of_owed_zero _ _ _ _ L lv 5 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec5 c (V19 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V19 m ρ c) (V20 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KReg6.lean ====
/- Region 6 of the kernel program as a segment of @main: entered with every unscoped buffer at the contents of
  boundary 21, left with them at the contents of boundary 22. At the entry the region's arrays are split out of the
  unscoped buffers and at the exit put back at what the pipeline leaves in them; the generator register goes into
  the pipeline's invariant and comes back; nothing is owed; the kernel has no semaphore of its own.
-/
import proofs.«133509_j41223096107483_1_alg».proof.Proof.KData

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V21 m ρ) c).loose
  hwaits := Pipeline.hwaits_of_owed_zero _ _ _ _ L lv 6 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec6 c (V21 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V21 m ρ c) (V22 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KReg7.lean ====
/-
  Region 7 of the kernel program as a segment of @main: entered with every unscoped buffer at the contents of
  boundary 23, left with them at the contents of boundary 24. At the entry the region's arrays are split out of the
  unscoped buffers and at the exit put back at what the pipeline leaves in them; the generator register goes into
  the pipeline's invariant and comes back; nothing is owed; the kernel has no semaphore of its own.
-/
import proofs.«133509_j41223096107483_1_alg».proof.Proof.KData

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V23 m ρ) c).loose
  hwaits := Pipeline.hwaits_of_owed_zero _ _ _ _ L lv 7 fun _ _ => rfl
  pre c := iprop(StableHlo.held (c : Thread nD τ) (Pipeline.ucRefs τ sig) (W23 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V23 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V23 m ρ c) (V24 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Frm

end
-- ==== Proof.KFrame.lean ====
/-
  The kernel program's frame. @main is twenty-four items in order — sixteen stretches of host operations and the
  eight kernel regions — each entered from the thread state the item before it left: every unscoped buffer at that
  boundary's contents, the generator register at some state, nothing owed. The launch theorem for such a list runs
  them all; at the end the last boundary's contents are read against the final memory, and each argument array
  holds there what it held at launch.
-/
import proofs.«133509_j41223096107483_1_alg».proof.Proof.KReg0
import proofs.«133509_j41223096107483_1_alg».proof.Proof.KReg1
import proofs.«133509_j41223096107483_1_alg».proof.Proof.KReg2
import proofs.«133509_j41223096107483_1_alg».proof.Proof.KReg3
import proofs.«133509_j41223096107483_1_alg».proof.Proof.KReg4
import proofs.«133509_j41223096107483_1_alg».proof.Proof.KReg5
import proofs.«133509_j41223096107483_1_alg».proof.Proof.KReg6
import proofs.«133509_j41223096107483_1_alg».proof.Proof.KReg7

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 24 segments in order. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .host (hseg hostOps3_1 hostOps3_1_sub hostOps3_1_fresh (W11 m ρ)),
    .host (hseg hostOps3_2 hostOps3_2_sub hostOps3_2_fresh (W12 m ρ)),
    .region (reg3 m ρ),
    .host (hseg hostOps4 hostOps4_sub hostOps4_fresh (W14 m ρ)),
    .region (reg4 m ρ),
    .host (hseg hostOps5 hostOps5_sub hostOps5_fresh (W16 m ρ)),
    .host (hseg hostOps5_1 hostOps5_1_sub hostOps5_1_fresh (W17 m ρ)),
    .host (hseg hostOps5_2 hostOps5_2_sub hostOps5_2_fresh (W18 m ρ)),
    .region (reg5 m ρ),
    .host (hseg hostOps6 hostOps6_sub hostOps6_fresh (W20 m ρ)),
    .region (reg6 m ρ),
    .host (hseg hostOps7 hostOps7_sub hostOps7_fresh (W22 m ρ)),
    .region (reg7 m ρ) ]

/-- @main is the run of the segments. -/
theorem main_run (c : Dev nD) : main (F := F) c = Pipeline.Seg.run (segs m ρ) := (main_chain c).trans (by chain_rfl)

set_option backward.isDefEq.respectTransparency.types false in
/-- At the compiled mesh, from any memory with zero counters, every weakly fair execution of @main terminates,
    nothing faulting, and every unscoped TensorCore buffer ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W24 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c => h c)

/-- The frame: every argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_arg0 (by decide))).trans (W24_kept m ρ c main_arg0),
      (h c _ (mem_uc main_arg1 (by decide))).trans (W24_kept m ρ c main_arg1),
      (h c _ (mem_uc main_arg2 (by decide))).trans (W24_kept m ρ c main_arg2),
      (h c _ (mem_uc main_arg3 (by decide))).trans (W24_kept m ρ c main_arg3),
      (h c _ (mem_uc main_arg4 (by decide))).trans (W24_kept m ρ c main_arg4),
      (h c _ (mem_uc main_arg5 (by decide))).trans (W24_kept m ρ c main_arg5),
      (h c _ (mem_uc main_arg6 (by decide))).trans (W24_kept m ρ c main_arg6),
      (h c _ (mem_uc main_arg7 (by decide))).trans (W24_kept m ρ c main_arg7),
      (h c _ (mem_uc main_arg8 (by decide))).trans (W24_kept m ρ c main_arg8),
      (h c _ (mem_uc main_arg9 (by decide))).trans (W24_kept m ρ c main_arg9),
      (h c _ (mem_uc main_arg10 (by decide))).trans (W24_kept m ρ c main_arg10),
      (h c _ (mem_uc main_arg11 (by decide))).trans (W24_kept m ρ c main_arg11),
      (h c _ (mem_uc main_arg12 (by decide))).trans (W24_kept m ρ c main_arg12),
      (h c _ (mem_uc main_arg13 (by decide))).trans (W24_kept m ρ c main_arg13),
      (h c _ (mem_uc main_arg14 (by decide))).trans (W24_kept m ρ c main_arg14),
      (h c _ (mem_uc main_arg15 (by decide))).trans (W24_kept m ρ c main_arg15),
      (h c _ (mem_uc main_arg16 (by decide))).trans (W24_kept m ρ c main_arg16),
      (h c _ (mem_uc main_arg17 (by decide))).trans (W24_kept m ρ c main_arg17)⟩)
    (run_main m ρ)

end Cert.Kernel.Frm

end
-- ==== Proof.KIR0.lean ====
/-
  Region 0 of the kernel program: the first layer's dense product. At each of the 25 grid points the body reads a
  2000×12 tile of the stacked Chebyshev features, the whole 12×128 weight and the 1×128 bias, and stores
  leaky_relu(tile · weight + bias) over the whole 2000×128 output tile. Here: what the output tile holds after
  the body as a function of the three input tiles, the body's triple, and the pipeline's proof data at any entry
  contents `V` of the TensorCore's buffers.
-/
import proofs.«133509_j41223096107483_1_alg».proof.Proof.Gen.KernelIdeal.Launch
import proofs.«133509_j41223096107483_1_alg».proof.Proof.Gen.KernelIdeal.Skeleton
import proofs.«133509_j41223096107483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its tile at every point, whether it was fetched there or not (an
    unfetched window's index has not moved; the windows are uncut and never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rX0 : Rect S2000x12 := Rect.unit (s := S2000x12) ![0, 0] S2000x12.size inb_S2000x12_S2000x12_0_0
abbrev rW0 : Rect S12x128 := Rect.unit (s := S12x128) ![0, 0] S12x128.size inb_S12x128_S12x128_0_0
abbrev rB0 : Rect S1x128 := Rect.unit (s := S1x128) ![0, 0] S1x128.size inb_S1x128_S1x128_0_0
abbrev rO0 : Rect S2000x128 := Rect.unit (s := S2000x128) ![0, 0] S2000x128.size inb_S2000x128_S2000x128_0_0

/-- The output tile after the body: its one store, of the activation of tile · weight + bias. -/
def out0 (x : Vec F S2000x12 .bf16) (w : Vec F S12x128 .bf16) (b : Vec F S1x128 .f32) : Vec F S2000x128 .f32 :=
  View.canon [⟨rO0, k0_pay1 (View.ld x rX0) (View.ld w rW0) (View.ld b rB0)⟩]

/-- The store is of the whole tile. -/
theorem cover0 (p : Vec F S2000x128 .f32) (y : S2000x128.Idx) :
    ∃ pc ∈ ([⟨rO0, p⟩] : List (View.Piece (Elt F) S2000x128 .f32)), y ∈ pc.1.set :=
  View.cover_of_tiled [⟨rO0, p⟩] S2000x128.size (by rfl) y

set_option maxHeartbeats 1000000 in
/-- The body on whole staging memrefs: the inputs keep their contents, the output ends at `out0` of them. -/
theorem sound_kernel0 (c : Dev nD) (E : Set ℕ) (i : grid0.Coords)
    (arg1 : Memref sig .tc .vmem S2000x12 .bf16) (harg1 : arg1.IsWhole) (arg2 : Memref sig .tc .vmem S12x128 .bf16) (harg2 : arg2.IsWhole)
    (arg3 : Memref sig .tc .vmem S1x128 .f32) (harg3 : arg3.IsWhole) (arg4 : Memref sig .tc .vmem S2000x128 .f32) (harg4 : arg4.IsWhole)
    (x : Vec F S2000x12 .bf16) (w : Vec F S12x128 .bf16) (b : Vec F S1x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out0 x w b)) -∗ K ⟨⟩))
      ⊢ wp frame (wpE (defs₀ (F := F)) Variants.none c none) E (cc0__matmul_act_kernel i arg1 harg1 arg2 harg2 arg3 harg3 arg4 harg4) K := by
  simp only [cc0__matmul_act_kernel_eq_skeleton]; unfold cc0__matmul_act_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

/-- The proof data of pipeline 0 on core `c`: the arrays as the region finds them; after the body each input's
    buffer at its tile and the output's at `out0` of the input tiles; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KIR1.lean ====
/-
  Region 1 of the kernel program: the first batch normalisation. At each of the 25 grid points the body reads a
  2000×128 tile of the activations and the four 1×128 rows (column mean, column variance, scale, shift) and stores
  (tile − mean) · rsqrt(variance + ε) · scale + shift over the whole 2000×128 output tile. Here: the output tile
  after the body as a function of the five input tiles, the body's triple, and the pipeline's proof data at any
  entry contents `V` of the TensorCore's buffers.
-/
import proofs.«133509_j41223096107483_1_alg».proof.Proof.Gen.KernelIdeal.Launch
import proofs.«133509_j41223096107483_1_alg».proof.Proof.Gen.KernelIdeal.Skeleton
import proofs.«133509_j41223096107483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its tile at every point, whether it was fetched there or not (an
    unfetched window's index has not moved; the windows are uncut and never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rT1 : Rect S2000x128 := Rect.unit (s := S2000x128) ![0, 0] S2000x128.size inb_S2000x128_S2000x128_0_0
abbrev rR1 : Rect S1x128 := Rect.unit (s := S1x128) ![0, 0] S1x128.size inb_S1x128_S1x128_0_0

/-- The output tile after the body: its one store, of the normalised tile. -/
def out1 (y : Vec F S2000x128 .f32) (mu va ga be : Vec F S1x128 .f32) : Vec F S2000x128 .f32 :=
  View.canon [⟨rT1, k1_pay1 (View.ld y rT1) (View.ld mu rR1) (View.ld va rR1) (View.ld ga rR1) (View.ld be rR1)⟩]

/-- The store is of the whole tile. -/
theorem cover1 (p : Vec F S2000x128 .f32) (y : S2000x128.Idx) :
    ∃ pc ∈ ([⟨rT1, p⟩] : List (View.Piece (Elt F) S2000x128 .f32)), y ∈ pc.1.set :=
  View.cover_of_tiled [⟨rT1, p⟩] S2000x128.size (by rfl) y

set_option maxHeartbeats 1000000 in
/-- The body on whole staging memrefs: the inputs keep their contents, the output ends at `out1` of them. -/
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (y : Vec F S2000x128 .f32) (mu va ga be : Vec F S1x128 .f32) (K : PUnit → sProp 𝕄) :
    iprop(owns (c : Thread nD τ) arg1 fullShare y ∗ owns (c : Thread nD τ) arg2 fullShare mu ∗ owns (c : Thread nD τ) arg3 fullShare va
        ∗ owns (c : Thread nD τ) arg4 fullShare ga ∗ owns (c : Thread nD τ) arg5 fullShare be
        ∗ (∃ d, owns (c : Thread nD τ) arg6 fullShare d)
        ∗ (iprop(owns (c : Thread nD τ) arg1 fullShare y ∗ owns (c : Thread nD τ) arg2 fullShare mu ∗ owns (c : Thread nD τ) arg3 fullShare va
            ∗ owns (c : Thread nD τ) arg4 fullShare ga ∗ owns (c : Thread nD τ) arg5 fullShare be
            ∗ owns (c : Thread nD τ) arg6 fullShare (out1 y mu va ga be)) -∗ K ⟨⟩))
      ⊢ wp frame (wpE (defs₀ (F := F)) Variants.none c none) E
          (cc1__bn_normalize_kernel i arg1 harg1 arg2 harg2 arg3 harg3 arg4 harg4 arg5 harg5 arg6 harg6) K := by
  simp only [cc1__bn_normalize_kernel_eq_skeleton]; unfold cc1__bn_normalize_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-- The proof data of pipeline 1 on core `c`: the arrays as the region finds them; after the body each input's
    buffer at its tile and the output's at `out1` of the input tiles; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KIR2.lean ====
/- Region 2 of the kernel program: the second layer's dense product. At each of the 25 grid points the body reads a 2000x512 tile of the stacked Chebyshev features, the whole 512x128 weight and the 1x128 bias, and stores leaky_relu(tile * weight + bias) over the whole 2000x128 output tile. Here: what the output tile holds after the body as a function of the input tiles, the body's triple, and the pipeline's proof data at any entry contents V of the TensorCore's buffers.
-/
import proofs.«133509_j41223096107483_1_alg».proof.Proof.Gen.KernelIdeal.Launch
import proofs.«133509_j41223096107483_1_alg».proof.Proof.Gen.KernelIdeal.Skeleton
import proofs.«133509_j41223096107483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its tile at every point, whether it was fetched there or not (an
    unfetched window's index has not moved; the windows are uncut and never idle). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev rX2 : Rect S2000x512 := Rect.unit (s := S2000x512) ![0, 0] S2000x512.size inb_S2000x512_S2000x512_0_0
abbrev rW2 : Rect S512x128 := Rect.unit (s := S512x128) ![0, 0] S512x128.size inb_S512x128_S512x128_0_0
abbrev rB2 : Rect S1x128 := Rect.unit (s := S1x128) ![0, 0] S1x128.size inb_S1x128_S1x128_0_0
abbrev rO2 : Rect S2000x128 := Rect.unit (s := S2000x128) ![0, 0] S2000x128.size inb_S2000x128_S2000x128_0_0

/-- The output tile after the body: its one store, of the activation of tile · weight + bias. -/
def out2 (x : Vec F S2000x512 .bf16) (w : Vec F S512x128 .bf16) (b : Vec F S1x128 .f32) : Vec F S2000x128 .f32 :=
  View.canon [⟨rO2, k2_pay1 (View.ld x rX2) (View.ld w rW2) (View.ld b rB2)⟩]

/-- The store is of the whole tile. -/
theorem cover2 (p : Vec F S2000x128 .f32) (y : S2000x128.Idx) :
    ∃ pc ∈ ([⟨rO2, p⟩] : List (View.Piece (Elt F) S2000x128 .f32)), y ∈ pc.1.set :=
  View.cover_of_tiled [⟨rO2, p⟩] S2000x128.size (by rfl) y

set_option maxHeartbeats 1000000 in
/-- The body on whole staging memrefs: the inputs keep their contents, the output ends at `out2` of them. -/
theorem sound_kernel2 (c : Dev nD) (E : Set ℕ) (i : grid2.Coords)
    (arg1 : Memref sig .tc .vmem S2000x512 .bf16) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S2000x128 .f32) (harg4 : arg4.IsWhole)
    (x : Vec F S2000x512 .bf16) (w : Vec F S512x128 .bf16) (b : Vec F S1x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out2 x w b)) -∗ K ⟨⟩))
      ⊢ wp frame (wpE (defs₀ (F := F)) Variants.none c none) E (cc2__matmul_act_kernel i arg1 harg1 arg2 harg2 arg3 harg3 arg4 harg4) K := by
  simp only [cc2__matmul_act_kernel_eq_skeleton]; unfold cc2__matmul_act_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-- The proof data of pipeline 2 on core `c`: the arrays as the region finds them; after the body each input's
    buffer at its tile and the output's at `out2` of the input tiles; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KIR3.lean ====
/- Region 3 of the kernel program: the second batch normalisation. At each of the 25 grid points the body reads a 2000x128 tile of the activations and the four 1x128 rows (column mean, column variance, scale, shift) and stores (tile - mean) * rsqrt(variance + eps) * scale + shift over the whole 2000x128 output tile. Here: what the output tile holds after the body as a function of the input tiles, the body's triple, and the pipeline's proof data at any entry contents V of the TensorCore's buffers.
-/
import proofs.«133509_j41223096107483_1_alg».proof.Proof.Gen.KernelIdeal.Launch
import proofs.«133509_j41223096107483_1_alg».proof.Proof.Gen.KernelIdeal.Skeleton
import proofs.«133509_j41223096107483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its tile at every point, whether it was fetched there or not (an
    unfetched window's index has not moved; the windows are uncut and never idle). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev rT3 : Rect S2000x128 := Rect.unit (s := S2000x128) ![0, 0] S2000x128.size inb_S2000x128_S2000x128_0_0
abbrev rR3 : Rect S1x128 := Rect.unit (s := S1x128) ![0, 0] S1x128.size inb_S1x128_S1x128_0_0

/-- The output tile after the body: its one store, of the normalised tile. -/
def out3 (y : Vec F S2000x128 .f32) (mu va ga be : Vec F S1x128 .f32) : Vec F S2000x128 .f32 :=
  View.canon [⟨rT3, k3_pay1 (View.ld y rT3) (View.ld mu rR3) (View.ld va rR3) (View.ld ga rR3) (View.ld be rR3)⟩]

/-- The store is of the whole tile. -/
theorem cover3 (p : Vec F S2000x128 .f32) (y : S2000x128.Idx) :
    ∃ pc ∈ ([⟨rT3, p⟩] : List (View.Piece (Elt F) S2000x128 .f32)), y ∈ pc.1.set :=
  View.cover_of_tiled [⟨rT3, p⟩] S2000x128.size (by rfl) y

set_option maxHeartbeats 1000000 in
/-- The body on whole staging memrefs: the inputs keep their contents, the output ends at `out3` of them. -/
theorem sound_kernel3 (c : Dev nD) (E : Set ℕ) (i : grid3.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (y : Vec F S2000x128 .f32) (mu va ga be : Vec F S1x128 .f32) (K : PUnit → sProp 𝕄) :
    iprop(owns (c : Thread nD τ) arg1 fullShare y ∗ owns (c : Thread nD τ) arg2 fullShare mu ∗ owns (c : Thread nD τ) arg3 fullShare va
        ∗ owns (c : Thread nD τ) arg4 fullShare ga ∗ owns (c : Thread nD τ) arg5 fullShare be
        ∗ (∃ d, owns (c : Thread nD τ) arg6 fullShare d)
        ∗ (iprop(owns (c : Thread nD τ) arg1 fullShare y ∗ owns (c : Thread nD τ) arg2 fullShare mu ∗ owns (c : Thread nD τ) arg3 fullShare va
            ∗ owns (c : Thread nD τ) arg4 fullShare ga ∗ owns (c : Thread nD τ) arg5 fullShare be
            ∗ owns (c : Thread nD τ) arg6 fullShare (out3 y mu va ga be)) -∗ K ⟨⟩))
      ⊢ wp frame (wpE (defs₀ (F := F)) Variants.none c none) E
          (cc3__bn_normalize_kernel i arg1 harg1 arg2 harg2 arg3 harg3 arg4 harg4 arg5 harg5 arg6 harg6) K := by
  simp only [cc3__bn_normalize_kernel_eq_skeleton]; unfold cc3__bn_normalize_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3 _)

/-- The proof data of pipeline 3 on core `c`: the arrays as the region finds them; after the body each input's
    buffer at its tile and the output's at `out3` of the input tiles; the scoped rest and the generator register
    untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.KIR4.lean ====
/- Region 4 of the kernel program: the third layer's dense product. At each of the 25 grid points the body reads a 2000x512 tile of the stacked Chebyshev features, the whole 512x128 weight and the 1x128 bias, and stores max(tile * weight + bias, 0) over the whole 2000x128 output tile. Here: what the output tile holds after the body as a function of the input tiles, the body's triple, and the pipeline's proof data at any entry contents V of the TensorCore's buffers.
-/
import proofs.«133509_j41223096107483_1_alg».proof.Proof.Gen.KernelIdeal.Launch
import proofs.«133509_j41223096107483_1_alg».proof.Proof.Gen.KernelIdeal.Skeleton
import proofs.«133509_j41223096107483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its tile at every point, whether it was fetched there or not (an
    unfetched window's index has not moved; the windows are uncut and never idle). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev rX4 : Rect S2000x512 := Rect.unit (s := S2000x512) ![0, 0] S2000x512.size inb_S2000x512_S2000x512_0_0
abbrev rW4 : Rect S512x128 := Rect.unit (s := S512x128) ![0, 0] S512x128.size inb_S512x128_S512x128_0_0
abbrev rB4 : Rect S1x128 := Rect.unit (s := S1x128) ![0, 0] S1x128.size inb_S1x128_S1x128_0_0
abbrev rO4 : Rect S2000x128 := Rect.unit (s := S2000x128) ![0, 0] S2000x128.size inb_S2000x128_S2000x128_0_0

/-- The output tile after the body: its one store, of the activation of tile · weight + bias. -/
def out4 (x : Vec F S2000x512 .bf16) (w : Vec F S512x128 .bf16) (b : Vec F S1x128 .f32) : Vec F S2000x128 .f32 :=
  View.canon [⟨rO4, k4_pay1 (View.ld x rX4) (View.ld w rW4) (View.ld b rB4)⟩]

/-- The store is of the whole tile. -/
theorem cover4 (p : Vec F S2000x128 .f32) (y : S2000x128.Idx) :
    ∃ pc ∈ ([⟨rO4, p⟩] : List (View.Piece (Elt F) S2000x128 .f32)), y ∈ pc.1.set :=
  View.cover_of_tiled [⟨rO4, p⟩] S2000x128.size (by rfl) y

set_option maxHeartbeats 1000000 in
/-- The body on whole staging memrefs: the inputs keep their contents, the output ends at `out4` of them. -/
theorem sound_kernel4 (c : Dev nD) (E : Set ℕ) (i : grid4.Coords)
    (arg1 : Memref sig .tc .vmem S2000x512 .bf16) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S2000x128 .f32) (harg4 : arg4.IsWhole)
    (x : Vec F S2000x512 .bf16) (w : Vec F S512x128 .bf16) (b : Vec F S1x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out4 x w b)) -∗ K ⟨⟩))
      ⊢ wp frame (wpE (defs₀ (F := F)) Variants.none c none) E (cc4__matmul_act_kernel i arg1 harg1 arg2 harg2 arg3 harg3 arg4 harg4) K := by
  simp only [cc4__matmul_act_kernel_eq_skeleton]; unfold cc4__matmul_act_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-- The proof data of pipeline 4 on core `c`: the arrays as the region finds them; after the body each input's
    buffer at its tile and the output's at `out4` of the input tiles; the scoped rest and the generator register
    untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frm

end
-- ==== Proof.KIR5.lean ====
/- Region 5 of the kernel program: the third batch normalisation. At each of the 25 grid points the body reads a 2000x128 tile of the activations and the four 1x128 rows (column mean, column variance, scale, shift) and stores (tile - mean) * rsqrt(variance + eps) * scale + shift over the whole 2000x128 output tile. Here: what the output tile holds after the body as a function of the input tiles, the body's triple, and the pipeline's proof data at any entry contents V of the TensorCore's buffers.
-/
import proofs.«133509_j41223096107483_1_alg».proof.Proof.Gen.KernelIdeal.Launch
import proofs.«133509_j41223096107483_1_alg».proof.Proof.Gen.KernelIdeal.Skeleton
import proofs.«133509_j41223096107483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its tile at every point, whether it was fetched there or not (an
    unfetched window's index has not moved; the windows are uncut and never idle). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev rT5 : Rect S2000x128 := Rect.unit (s := S2000x128) ![0, 0] S2000x128.size inb_S2000x128_S2000x128_0_0
abbrev rR5 : Rect S1x128 := Rect.unit (s := S1x128) ![0, 0] S1x128.size inb_S1x128_S1x128_0_0

/-- The output tile after the body: its one store, of the normalised tile. -/
def out5 (y : Vec F S2000x128 .f32) (mu va ga be : Vec F S1x128 .f32) : Vec F S2000x128 .f32 :=
  View.canon [⟨rT5, k5_pay1 (View.ld y rT5) (View.ld mu rR5) (View.ld va rR5) (View.ld ga rR5) (View.ld be rR5)⟩]

/-- The store is of the whole tile. -/
theorem cover5 (p : Vec F S2000x128 .f32) (y : S2000x128.Idx) :
    ∃ pc ∈ ([⟨rT5, p⟩] : List (View.Piece (Elt F) S2000x128 .f32)), y ∈ pc.1.set :=
  View.cover_of_tiled [⟨rT5, p⟩] S2000x128.size (by rfl) y

set_option maxHeartbeats 1000000 in
/-- The body on whole staging memrefs: the inputs keep their contents, the output ends at `out5` of them. -/
theorem sound_kernel5 (c : Dev nD) (E : Set ℕ) (i : grid5.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (y : Vec F S2000x128 .f32) (mu va ga be : Vec F S1x128 .f32) (K : PUnit → sProp 𝕄) :
    iprop(owns (c : Thread nD τ) arg1 fullShare y ∗ owns (c : Thread nD τ) arg2 fullShare mu ∗ owns (c : Thread nD τ) arg3 fullShare va
        ∗ owns (c : Thread nD τ) arg4 fullShare ga ∗ owns (c : Thread nD τ) arg5 fullShare be
        ∗ (∃ d, owns (c : Thread nD τ) arg6 fullShare d)
        ∗ (iprop(owns (c : Thread nD τ) arg1 fullShare y ∗ owns (c : Thread nD τ) arg2 fullShare mu ∗ owns (c : Thread nD τ) arg3 fullShare va
            ∗ owns (c : Thread nD τ) arg4 fullShare ga ∗ owns (c : Thread nD τ) arg5 fullShare be
            ∗ owns (c : Thread nD τ) arg6 fullShare (out5 y mu va ga be)) -∗ K ⟨⟩))
      ⊢ wp frame (wpE (defs₀ (F := F)) Variants.none c none) E
          (cc5__bn_normalize_kernel i arg1 harg1 arg2 harg2 arg3 harg3 arg4 harg4 arg5 harg5 arg6 harg6) K := by
  simp only [cc5__bn_normalize_kernel_eq_skeleton]; unfold cc5__bn_normalize_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5 _)

/-- The proof data of pipeline 5 on core `c`: the arrays as the region finds them; after the body each input's
    buffer at its tile and the output's at `out5` of the input tiles; the scoped rest and the generator register
    untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Frm

end
-- ==== Proof.KIR6.lean ====
/- Region 6 of the kernel program: the fourth layer's dense product. At each of the 25 grid points the body reads a 2000x512 tile of the stacked Chebyshev features, the whole 512x128 weight and the 1x128 bias, and stores tile * weight + bias over the whole 2000x128 output tile. Here: what the output tile holds after the body as a function of the input tiles, the body's triple, and the pipeline's proof data at any entry contents V of the TensorCore's buffers.
-/
import proofs.«133509_j41223096107483_1_alg».proof.Proof.Gen.KernelIdeal.Launch
import proofs.«133509_j41223096107483_1_alg».proof.Proof.Gen.KernelIdeal.Skeleton
import proofs.«133509_j41223096107483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current buffer holds its tile at every point, whether it was fetched there or not (an
    unfetched window's index has not moved; the windows are uncut and never idle). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev rX6 : Rect S2000x512 := Rect.unit (s := S2000x512) ![0, 0] S2000x512.size inb_S2000x512_S2000x512_0_0
abbrev rW6 : Rect S512x128 := Rect.unit (s := S512x128) ![0, 0] S512x128.size inb_S512x128_S512x128_0_0
abbrev rB6 : Rect S1x128 := Rect.unit (s := S1x128) ![0, 0] S1x128.size inb_S1x128_S1x128_0_0
abbrev rO6 : Rect S2000x128 := Rect.unit (s := S2000x128) ![0, 0] S2000x128.size inb_S2000x128_S2000x128_0_0

/-- The output tile after the body: its one store, of the activation of tile · weight + bias. -/
def out6 (x : Vec F S2000x512 .bf16) (w : Vec F S512x128 .bf16) (b : Vec F S1x128 .f32) : Vec F S2000x128 .f32 :=
  View.canon [⟨rO6, k6_pay1 (View.ld x rX6) (View.ld w rW6) (View.ld b rB6)⟩]

/-- The store is of the whole tile. -/
theorem cover6 (p : Vec F S2000x128 .f32) (y : S2000x128.Idx) :
    ∃ pc ∈ ([⟨rO6, p⟩] : List (View.Piece (Elt F) S2000x128 .f32)), y ∈ pc.1.set :=
  View.cover_of_tiled [⟨rO6, p⟩] S2000x128.size (by rfl) y

set_option maxHeartbeats 1000000 in
/-- The body on whole staging memrefs: the inputs keep their contents, the output ends at `out6` of them. -/
theorem sound_kernel6 (c : Dev nD) (E : Set ℕ) (i : grid6.Coords)
    (arg1 : Memref sig .tc .vmem S2000x512 .bf16) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S2000x128 .f32) (harg4 : arg4.IsWhole)
    (x : Vec F S2000x512 .bf16) (w : Vec F S512x128 .bf16) (b : Vec F S1x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out6 x w b)) -∗ K ⟨⟩))
      ⊢ wp frame (wpE (defs₀ (F := F)) Variants.none c none) E (cc6__matmul_act_kernel i arg1 harg1 arg2 harg2 arg3 harg3 arg4 harg4) K := by
  simp only [cc6__matmul_act_kernel_eq_skeleton]; unfold cc6__matmul_act_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6 _)

/-- The proof data of pipeline 6 on core `c`: the arrays as the region finds them; after the body each input's
    buffer at its tile and the output's at `out6` of the input tiles; the scoped rest and the generator register
    untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Frm

end
-- ==== Proof.KIR7.lean ====
/- Region 7 of the kernel program: the row normalisation and the linear head. At each of the 25 grid points the body reads a 2000x128 tile of the last layer's activations, the whole 128x3 weight and the 1x3 bias, divides each row by the larger of its Euclidean norm and 1e-12, and stores normalised tile * weight + bias over the whole 2000x3 output tile. Here: what the output tile holds after the body as a function of the input tiles, the body's triple, and the pipeline's proof data at any entry contents V of the TensorCore's buffers.
-/
import proofs.«133509_j41223096107483_1_alg».proof.Proof.Gen.KernelIdeal.Launch
import proofs.«133509_j41223096107483_1_alg».proof.Proof.Gen.KernelIdeal.Skeleton
import proofs.«133509_j41223096107483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current buffer holds its tile at every point, whether it was fetched there or not (an
    unfetched window's index has not moved; the windows are uncut and never idle). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

abbrev rX7 : Rect S2000x128 := Rect.unit (s := S2000x128) ![0, 0] S2000x128.size inb_S2000x128_S2000x128_0_0
abbrev rW7 : Rect S128x3 := Rect.unit (s := S128x3) ![0, 0] S128x3.size inb_S128x3_S128x3_0_0
abbrev rB7 : Rect S1x3 := Rect.unit (s := S1x3) ![0, 0] S1x3.size inb_S1x3_S1x3_0_0
abbrev rO7 : Rect S2000x3 := Rect.unit (s := S2000x3) ![0, 0] S2000x3.size inb_S2000x3_S2000x3_0_0

/-- The output tile after the body: its one store, of the activation of tile · weight + bias. -/
def out7 (x : Vec F S2000x128 .f32) (w : Vec F S128x3 .bf16) (b : Vec F S1x3 .f32) : Vec F S2000x3 .f32 :=
  View.canon [⟨rO7, k7_pay1 (View.ld x rX7) (View.ld w rW7) (View.ld b rB7)⟩]

/-- The store is of the whole tile. -/
theorem cover7 (p : Vec F S2000x3 .f32) (y : S2000x3.Idx) :
    ∃ pc ∈ ([⟨rO7, p⟩] : List (View.Piece (Elt F) S2000x3 .f32)), y ∈ pc.1.set :=
  View.cover_of_tiled [⟨rO7, p⟩] S2000x3.size (by rfl) y

set_option maxHeartbeats 1000000 in
/-- The body on whole staging memrefs: the inputs keep their contents, the output ends at `out7` of them. -/
theorem sound_kernel7 (c : Dev nD) (E : Set ℕ) (i : grid7.Coords)
    (arg1 : Memref sig .tc .vmem S2000x128 .f32) (harg1 : arg1.IsWhole) (arg2 : Memref sig .tc .vmem S128x3 .bf16) (harg2 : arg2.IsWhole)
    (arg3 : Memref sig .tc .vmem S1x3 .f32) (harg3 : arg3.IsWhole) (arg4 : Memref sig .tc .vmem S2000x3 .f32) (harg4 : arg4.IsWhole)
    (x : Vec F S2000x128 .f32) (w : Vec F S128x3 .bf16) (b : Vec F S1x3 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out7 x w b)) -∗ K ⟨⟩))
      ⊢ wp frame (wpE (defs₀ (F := F)) Variants.none c none) E (cc7__rep_head_kernel i arg1 harg1 arg2 harg2 arg3 harg3 arg4 harg4) K := by
  simp only [cc7__rep_head_kernel_eq_skeleton]; unfold cc7__rep_head_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7 _)

/-- The proof data of pipeline 7 on core `c`: the arrays as the region finds them; after the body each input's
    buffer at its tile and the output's at `out7` of the input tiles; the scoped rest and the generator register
    untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Frm

end
-- ==== Proof.KIBound.lean ====
/- The TensorCore's buffer contents at each of the 25 boundaries between the 24 items of the kernel program's @main:
   W0 is the launch memory; across a host stretch the contents are folded through its operations; across a region the
   region's arrays hold what its write-backs leave and every other buffer is as the region found it. Every item writes
   buffers of its own only (single assignment), so an argument array reaches the last boundary as it was launched. -/
import proofs.«133509_j41223096107483_1_alg».proof.Proof.KIR0
import proofs.«133509_j41223096107483_1_alg».proof.Proof.KIR1
import proofs.«133509_j41223096107483_1_alg».proof.Proof.KIR2
import proofs.«133509_j41223096107483_1_alg».proof.Proof.KIR3
import proofs.«133509_j41223096107483_1_alg».proof.Proof.KIR4
import proofs.«133509_j41223096107483_1_alg».proof.Proof.KIR5
import proofs.«133509_j41223096107483_1_alg».proof.Proof.KIR6
import proofs.«133509_j41223096107483_1_alg».proof.Proof.KIR7

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each host stretch writes -/

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_cst, main_v4, main_cst_0, main_v5, main_v6, main_v7, main_cst_1, main_v8, main_v9, main_cst_2, main_v10, main_v11, main_v12, main_cst_3]
set_option maxHeartbeats 4000000 in
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps0_1_fresh : (hostOps0_1 : List (HloOp τ sig (Elt F))).Forall fun op => op.fresh = ∅ := by
  simp only [List.Forall]; repeat' constructor
abbrev hostOps0_1_W : List (Ref sig .tc) := [main_call0_v0, main_call0_v1, main_v13]
set_option maxHeartbeats 4000000 in
theorem hostOps0_1_writes : (hostOps0_1 : List (HloOp τ sig (Elt F))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps0_2_fresh : (hostOps0_2 : List (HloOp τ sig (Elt F))).Forall fun op => op.fresh = ∅ := by
  simp only [List.Forall]; repeat' constructor
abbrev hostOps0_2_W : List (Ref sig .tc) := [main_c, main_v14, main_v15, main_c_4, main_v16, main_v17, main_v18, main_v19, main_v20, main_v21, main_c_5, main_v22, main_v23, main_c_6, main_v24, main_v25, main_v26, main_v27, main_v28, main_v29, main_v30, main_c_7, main_v31, main_v32, main_c_8, main_v33, main_v34, main_v35, main_v36, main_v37, main_v38, main_v39, main_cst_9, main_v40, main_v41, main_v42, main_v43, main_c_10, main_v44, main_v45, main_c_11, main_v46, main_v47, main_v48, main_v49, main_v50, main_v51, main_v52, main_cst_12, main_v53, main_v54, main_v55, main_cst_13, main_v56, main_v57, main_v58, main_v59, main_c_14, main_v60, main_v61, main_c_15, main_v62, main_v63, main_v64, main_v65, main_v66, main_v67, main_v68, main_cst_16, main_v69, main_v70, main_v71, main_cst_17, main_v72, main_v73, main_v74, main_v75, main_v76, main_v77, main_v78, main_v79, main_v80, main_v81, main_v82, main_v83, main_v84]
set_option maxHeartbeats 4000000 in
theorem hostOps0_2_writes : (hostOps0_2 : List (HloOp τ sig (Elt F))).Forall fun op => op.writes ⊆ (hostOps0_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps1_fresh : (hostOps1 : List (HloOp τ sig (Elt F))).Forall fun op => op.fresh = ∅ := by
  simp only [List.Forall]; repeat' constructor
abbrev hostOps1_W : List (Ref sig .tc) := [main_cst_18, main_v86, main_cst_19, main_v87, main_v88, main_v89, main_c_20]
set_option maxHeartbeats 4000000 in
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps1_1_fresh : (hostOps1_1 : List (HloOp τ sig (Elt F))).Forall fun op => op.fresh = ∅ := by
  simp only [List.Forall]; repeat' constructor
abbrev hostOps1_1_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v90]
set_option maxHeartbeats 4000000 in
theorem hostOps1_1_writes : (hostOps1_1 : List (HloOp τ sig (Elt F))).Forall fun op => op.writes ⊆ (hostOps1_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps1_2_fresh : (hostOps1_2 : List (HloOp τ sig (Elt F))).Forall fun op => op.fresh = ∅ := by
  simp only [List.Forall]; repeat' constructor
abbrev hostOps1_2_W : List (Ref sig .tc) := [main_v91, main_v92, main_v93]
set_option maxHeartbeats 4000000 in
theorem hostOps1_2_writes : (hostOps1_2 : List (HloOp τ sig (Elt F))).Forall fun op => op.writes ⊆ (hostOps1_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps2_fresh : (hostOps2 : List (HloOp τ sig (Elt F))).Forall fun op => op.fresh = ∅ := by
  simp only [List.Forall]; repeat' constructor
abbrev hostOps2_W : List (Ref sig .tc) := [main_v95, main_c_21, main_v96, main_v97, main_c_22, main_v98, main_v99, main_v100, main_v101, main_v102, main_v103, main_v104, main_cst_23, main_v105, main_v106, main_v107, main_v108, main_c_24, main_v109, main_v110, main_c_25, main_v111, main_v112, main_v113, main_v114, main_v115, main_v116, main_v117, main_cst_26, main_v118, main_v119, main_v120, main_cst_27, main_v121, main_v122, main_v123, main_v124, main_c_28, main_v125, main_v126, main_c_29, main_v127, main_v128, main_v129, main_v130, main_v131, main_v132, main_v133, main_cst_30, main_v134, main_v135, main_v136, main_cst_31, main_v137, main_v138, main_v139, main_v140, main_v141, main_v142, main_v143, main_v144, main_v145, main_v146, main_v147, main_v148, main_v149]
set_option maxHeartbeats 4000000 in
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps3_fresh : (hostOps3 : List (HloOp τ sig (Elt F))).Forall fun op => op.fresh = ∅ := by
  simp only [List.Forall]; repeat' constructor
abbrev hostOps3_W : List (Ref sig .tc) := [main_cst_32, main_v151, main_cst_33, main_v152, main_v153, main_v154, main_c_34]
set_option maxHeartbeats 4000000 in
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps3_1_fresh : (hostOps3_1 : List (HloOp τ sig (Elt F))).Forall fun op => op.fresh = ∅ := by
  simp only [List.Forall]; repeat' constructor
abbrev hostOps3_1_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v155]
set_option maxHeartbeats 4000000 in
theorem hostOps3_1_writes : (hostOps3_1 : List (HloOp τ sig (Elt F))).Forall fun op => op.writes ⊆ (hostOps3_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps3_2_fresh : (hostOps3_2 : List (HloOp τ sig (Elt F))).Forall fun op => op.fresh = ∅ := by
  simp only [List.Forall]; repeat' constructor
abbrev hostOps3_2_W : List (Ref sig .tc) := [main_v156, main_v157, main_v158]
set_option maxHeartbeats 4000000 in
theorem hostOps3_2_writes : (hostOps3_2 : List (HloOp τ sig (Elt F))).Forall fun op => op.writes ⊆ (hostOps3_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps4_fresh : (hostOps4 : List (HloOp τ sig (Elt F))).Forall fun op => op.fresh = ∅ := by
  simp only [List.Forall]; repeat' constructor
abbrev hostOps4_W : List (Ref sig .tc) := [main_v160, main_c_35, main_v161, main_v162, main_c_36, main_v163, main_v164, main_v165, main_v166, main_v167, main_v168, main_v169, main_cst_37, main_v170, main_v171, main_v172, main_v173, main_c_38, main_v174, main_v175, main_c_39, main_v176, main_v177, main_v178, main_v179, main_v180, main_v181, main_v182, main_cst_40, main_v183, main_v184, main_v185, main_cst_41, main_v186, main_v187, main_v188, main_v189, main_c_42, main_v190, main_v191, main_c_43, main_v192, main_v193, main_v194, main_v195, main_v196, main_v197, main_v198, main_cst_44, main_v199, main_v200, main_v201, main_cst_45, main_v202, main_v203, main_v204, main_v205, main_v206, main_v207, main_v208, main_v209, main_v210, main_v211, main_v212, main_v213, main_v214]
set_option maxHeartbeats 4000000 in
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps5_fresh : (hostOps5 : List (HloOp τ sig (Elt F))).Forall fun op => op.fresh = ∅ := by
  simp only [List.Forall]; repeat' constructor
abbrev hostOps5_W : List (Ref sig .tc) := [main_cst_46, main_v216, main_cst_47, main_v217, main_v218, main_v219, main_c_48]
set_option maxHeartbeats 4000000 in
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps5_1_fresh : (hostOps5_1 : List (HloOp τ sig (Elt F))).Forall fun op => op.fresh = ∅ := by
  simp only [List.Forall]; repeat' constructor
abbrev hostOps5_1_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v220]
set_option maxHeartbeats 4000000 in
theorem hostOps5_1_writes : (hostOps5_1 : List (HloOp τ sig (Elt F))).Forall fun op => op.writes ⊆ (hostOps5_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps5_2_fresh : (hostOps5_2 : List (HloOp τ sig (Elt F))).Forall fun op => op.fresh = ∅ := by
  simp only [List.Forall]; repeat' constructor
abbrev hostOps5_2_W : List (Ref sig .tc) := [main_v221, main_v222, main_v223]
set_option maxHeartbeats 4000000 in
theorem hostOps5_2_writes : (hostOps5_2 : List (HloOp τ sig (Elt F))).Forall fun op => op.writes ⊆ (hostOps5_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps6_fresh : (hostOps6 : List (HloOp τ sig (Elt F))).Forall fun op => op.fresh = ∅ := by
  simp only [List.Forall]; repeat' constructor
abbrev hostOps6_W : List (Ref sig .tc) := [main_v225, main_c_49, main_v226, main_v227, main_c_50, main_v228, main_v229, main_v230, main_v231, main_v232, main_v233, main_v234, main_cst_51, main_v235, main_v236, main_v237, main_v238, main_c_52, main_v239, main_v240, main_c_53, main_v241, main_v242, main_v243, main_v244, main_v245, main_v246, main_v247, main_cst_54, main_v248, main_v249, main_v250, main_cst_55, main_v251, main_v252, main_v253, main_v254, main_c_56, main_v255, main_v256, main_c_57, main_v257, main_v258, main_v259, main_v260, main_v261, main_v262, main_v263, main_cst_58, main_v264, main_v265, main_v266, main_cst_59, main_v267, main_v268, main_v269, main_v270, main_v271, main_v272, main_v273, main_v274, main_v275, main_v276, main_v277, main_v278, main_v279]
set_option maxHeartbeats 4000000 in
theorem hostOps6_writes : (hostOps6 : List (HloOp τ sig (Elt F))).Forall fun op => op.writes ⊆ (hostOps6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

theorem hostOps7_fresh : (hostOps7 : List (HloOp τ sig (Elt F))).Forall fun op => op.fresh = ∅ := by
  simp only [List.Forall]; repeat' constructor
abbrev hostOps7_W : List (Ref sig .tc) := [main_v281, main_v282]
set_option maxHeartbeats 4000000 in
theorem hostOps7_writes : (hostOps7 : List (HloOp τ sig (Elt F))).Forall fun op => op.writes ⊆ (hostOps7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

variable (m : (ℓ : Loc nD τ sig) → Buf (Elt F) ℓ) (ρ : Dev nD → PrngReg)

/-! ## The contents at each boundary -/

/-- A core's buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h

abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h

/-- The contents region 0 is entered from, read at the TensorCore's references. -/
abbrev V3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h

abbrev W6 : Dev nD → Valuation τ sig (Elt F) := fun c => StableHlo.after hostOps1_1 (W5 m ρ c)
theorem W6_of (c : Dev nD) (r : Ref sig .tc) (h : r ∉ hostOps1_1_W) : W6 m ρ c (Proc.devRef .tc r) = W5 m ρ c (Proc.devRef .tc r) :=
  StableHlo.after_of_writes_sub hostOps1_1 _ hostOps1_1_writes h

abbrev W7 : Dev nD → Valuation τ sig (Elt F) := fun c => StableHlo.after hostOps1_2 (W6 m ρ c)
theorem W7_of (c : Dev nD) (r : Ref sig .tc) (h : r ∉ hostOps1_2_W) : W7 m ρ c (Proc.devRef .tc r) = W6 m ρ c (Proc.devRef .tc r) :=
  StableHlo.after_of_writes_sub hostOps1_2 _ hostOps1_2_writes h

/-- The contents region 1 is entered from, read at the TensorCore's references. -/
abbrev V7 : (c : Dev nD) → (b : Ref sig .tc) → Buf (Elt F) ((c : Thread nD τ).loc b) := fun c b => W7 m ρ c b
/-- At region 1's exit: its arrays at what the pipeline leaves, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h

/-- The contents region 2 is entered from, read at the TensorCore's references. -/
abbrev V9 : (c : Dev nD) → (b : Ref sig .tc) → Buf (Elt F) ((c : Thread nD τ).loc b) := fun c b => W9 m ρ c b
/-- At region 2's exit: its arrays at what the pipeline leaves, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps3 (W10 m ρ c)
theorem W11_of (c : Dev nD) (r : Ref sig .tc) (h : r ∉ hostOps3_W) : W11 m ρ c (Proc.devRef .tc r) = W10 m ρ c (Proc.devRef .tc r) :=
  StableHlo.after_of_writes_sub hostOps3 _ hostOps3_writes h

abbrev W12 : Dev nD → Valuation τ sig (Elt F) := fun c => StableHlo.after hostOps3_1 (W11 m ρ c)
theorem W12_of (c : Dev nD) (r : Ref sig .tc) (h : r ∉ hostOps3_1_W) : W12 m ρ c (Proc.devRef .tc r) = W11 m ρ c (Proc.devRef .tc r) :=
  StableHlo.after_of_writes_sub hostOps3_1 _ hostOps3_1_writes h

abbrev W13 : Dev nD → Valuation τ sig (Elt F) := fun c => StableHlo.after hostOps3_2 (W12 m ρ c)
theorem W13_of (c : Dev nD) (r : Ref sig .tc) (h : r ∉ hostOps3_2_W) : W13 m ρ c (Proc.devRef .tc r) = W12 m ρ c (Proc.devRef .tc r) :=
  StableHlo.after_of_writes_sub hostOps3_2 _ hostOps3_2_writes h

/-- The contents region 3 is entered from, read at the TensorCore's references. -/
abbrev V13 : (c : Dev nD) → (b : Ref sig .tc) → Buf (Elt F) ((c : Thread nD τ).loc b) := fun c b => W13 m ρ c b
/-- At region 3's exit: its arrays at what the pipeline leaves, every other buffer as entered. -/
def W14 (c : Dev nD) : Valuation τ sig (Elt F) :=
  Pipeline.withArrays spec3 c (W13 m ρ c) fun w => (dat3 (V13 m ρ) c).arrAt w cfg3.N
theorem W14_arr (c : Dev nD) (w : Fin cfg3.W) :
    W14 m ρ c (Proc.devRef .tc (Pipeline.arrRef spec3 w)) = (dat3 (V13 m ρ) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m ρ c (Proc.devRef .tc b) = W13 m ρ c (Proc.devRef .tc b) := by
  unfold W14; exact Pipeline.withArrays_of_ne spec3 c _ _ b hb
abbrev V14 : (c : Dev nD) → (b : Ref sig .tc) → Buf (Elt F) ((c : Thread nD τ).loc b) := fun c b => W14 m ρ c b
theorem hF3 (c : Dev nD) (w : Fin cfg3.W) : (dat3 (V13 m ρ) c).arrAt w cfg3.N = V14 m ρ c (Pipeline.arrRef spec3 w) :=
  (W14_arr m ρ c w).symm
theorem hrest3 (c : Dev nD) : ∀ b, b ∉ Finset.univ.image (Pipeline.arrRef spec3) → V14 m ρ c b = V13 m ρ c b :=
  fun b hb => W14_of_ne m ρ c b fun w e => hb (Finset.mem_image.mpr ⟨w, Finset.mem_univ _, e⟩)

abbrev W15 : Dev nD → Valuation τ sig (Elt F) := fun c => StableHlo.after hostOps4 (W14 m ρ c)
theorem W15_of (c : Dev nD) (r : Ref sig .tc) (h : r ∉ hostOps4_W) : W15 m ρ c (Proc.devRef .tc r) = W14 m ρ c (Proc.devRef .tc r) :=
  StableHlo.after_of_writes_sub hostOps4 _ hostOps4_writes h

/-- The contents region 4 is entered from, read at the TensorCore's references. -/
abbrev V15 : (c : Dev nD) → (b : Ref sig .tc) → Buf (Elt F) ((c : Thread nD τ).loc b) := fun c b => W15 m ρ c b
/-- At region 4's exit: its arrays at what the pipeline leaves, every other buffer as entered. -/
def W16 (c : Dev nD) : Valuation τ sig (Elt F) :=
  Pipeline.withArrays spec4 c (W15 m ρ c) fun w => (dat4 (V15 m ρ) c).arrAt w cfg4.N
theorem W16_arr (c : Dev nD) (w : Fin cfg4.W) :
    W16 m ρ c (Proc.devRef .tc (Pipeline.arrRef spec4 w)) = (dat4 (V15 m ρ) c).arrAt w cfg4.N := by
  unfold W16; exact Pipeline.withArrays_arr spec4 launch4.win.arr_inj c _ _ w
theorem W16_of_ne (c : Dev nD) (b : Ref sig .tc) (hb : ∀ w, Pipeline.arrRef spec4 w ≠ b) :
    W16 m ρ c (Proc.devRef .tc b) = W15 m ρ c (Proc.devRef .tc b) := by
  unfold W16; exact Pipeline.withArrays_of_ne spec4 c _ _ b hb
abbrev V16 : (c : Dev nD) → (b : Ref sig .tc) → Buf (Elt F) ((c : Thread nD τ).loc b) := fun c b => W16 m ρ c b
theorem hF4 (c : Dev nD) (w : Fin cfg4.W) : (dat4 (V15 m ρ) c).arrAt w cfg4.N = V16 m ρ c (Pipeline.arrRef spec4 w) :=
  (W16_arr m ρ c w).symm
theorem hrest4 (c : Dev nD) : ∀ b, b ∉ Finset.univ.image (Pipeline.arrRef spec4) → V16 m ρ c b = V15 m ρ c b :=
  fun b hb => W16_of_ne m ρ c b fun w e => hb (Finset.mem_image.mpr ⟨w, Finset.mem_univ _, e⟩)

abbrev W17 : Dev nD → Valuation τ sig (Elt F) := fun c => StableHlo.after hostOps5 (W16 m ρ c)
theorem W17_of (c : Dev nD) (r : Ref sig .tc) (h : r ∉ hostOps5_W) : W17 m ρ c (Proc.devRef .tc r) = W16 m ρ c (Proc.devRef .tc r) :=
  StableHlo.after_of_writes_sub hostOps5 _ hostOps5_writes h

abbrev W18 : Dev nD → Valuation τ sig (Elt F) := fun c => StableHlo.after hostOps5_1 (W17 m ρ c)
theorem W18_of (c : Dev nD) (r : Ref sig .tc) (h : r ∉ hostOps5_1_W) : W18 m ρ c (Proc.devRef .tc r) = W17 m ρ c (Proc.devRef .tc r) :=
  StableHlo.after_of_writes_sub hostOps5_1 _ hostOps5_1_writes h

abbrev W19 : Dev nD → Valuation τ sig (Elt F) := fun c => StableHlo.after hostOps5_2 (W18 m ρ c)
theorem W19_of (c : Dev nD) (r : Ref sig .tc) (h : r ∉ hostOps5_2_W) : W19 m ρ c (Proc.devRef .tc r) = W18 m ρ c (Proc.devRef .tc r) :=
  StableHlo.after_of_writes_sub hostOps5_2 _ hostOps5_2_writes h

/-- The contents region 5 is entered from, read at the TensorCore's references. -/
abbrev V19 : (c : Dev nD) → (b : Ref sig .tc) → Buf (Elt F) ((c : Thread nD τ).loc b) := fun c b => W19 m ρ c b
/-- At region 5's exit: its arrays at what the pipeline leaves, every other buffer as entered. -/
def W20 (c : Dev nD) : Valuation τ sig (Elt F) :=
  Pipeline.withArrays spec5 c (W19 m ρ c) fun w => (dat5 (V19 m ρ) c).arrAt w cfg5.N
theorem W20_arr (c : Dev nD) (w : Fin cfg5.W) :
    W20 m ρ c (Proc.devRef .tc (Pipeline.arrRef spec5 w)) = (dat5 (V19 m ρ) c).arrAt w cfg5.N := by
  unfold W20; exact Pipeline.withArrays_arr spec5 launch5.win.arr_inj c _ _ w
theorem W20_of_ne (c : Dev nD) (b : Ref sig .tc) (hb : ∀ w, Pipeline.arrRef spec5 w ≠ b) :
    W20 m ρ c (Proc.devRef .tc b) = W19 m ρ c (Proc.devRef .tc b) := by
  unfold W20; exact Pipeline.withArrays_of_ne spec5 c _ _ b hb
abbrev V20 : (c : Dev nD) → (b : Ref sig .tc) → Buf (Elt F) ((c : Thread nD τ).loc b) := fun c b => W20 m ρ c b
theorem hF5 (c : Dev nD) (w : Fin cfg5.W) : (dat5 (V19 m ρ) c).arrAt w cfg5.N = V20 m ρ c (Pipeline.arrRef spec5 w) :=
  (W20_arr m ρ c w).symm
theorem hrest5 (c : Dev nD) : ∀ b, b ∉ Finset.univ.image (Pipeline.arrRef spec5) → V20 m ρ c b = V19 m ρ c b :=
  fun b hb => W20_of_ne m ρ c b fun w e => hb (Finset.mem_image.mpr ⟨w, Finset.mem_univ _, e⟩)

abbrev W21 : Dev nD → Valuation τ sig (Elt F) := fun c => StableHlo.after hostOps6 (W20 m ρ c)
theorem W21_of (c : Dev nD) (r : Ref sig .tc) (h : r ∉ hostOps6_W) : W21 m ρ c (Proc.devRef .tc r) = W20 m ρ c (Proc.devRef .tc r) :=
  StableHlo.after_of_writes_sub hostOps6 _ hostOps6_writes h

/-- The contents region 6 is entered from, read at the TensorCore's references. -/
abbrev V21 : (c : Dev nD) → (b : Ref sig .tc) → Buf (Elt F) ((c : Thread nD τ).loc b) := fun c b => W21 m ρ c b
/-- At region 6's exit: its arrays at what the pipeline leaves, every other buffer as entered. -/
def W22 (c : Dev nD) : Valuation τ sig (Elt F) :=
  Pipeline.withArrays spec6 c (W21 m ρ c) fun w => (dat6 (V21 m ρ) c).arrAt w cfg6.N
theorem W22_arr (c : Dev nD) (w : Fin cfg6.W) :
    W22 m ρ c (Proc.devRef .tc (Pipeline.arrRef spec6 w)) = (dat6 (V21 m ρ) c).arrAt w cfg6.N := by
  unfold W22; exact Pipeline.withArrays_arr spec6 launch6.win.arr_inj c _ _ w
theorem W22_of_ne (c : Dev nD) (b : Ref sig .tc) (hb : ∀ w, Pipeline.arrRef spec6 w ≠ b) :
    W22 m ρ c (Proc.devRef .tc b) = W21 m ρ c (Proc.devRef .tc b) := by
  unfold W22; exact Pipeline.withArrays_of_ne spec6 c _ _ b hb
abbrev V22 : (c : Dev nD) → (b : Ref sig .tc) → Buf (Elt F) ((c : Thread nD τ).loc b) := fun c b => W22 m ρ c b
theorem hF6 (c : Dev nD) (w : Fin cfg6.W) : (dat6 (V21 m ρ) c).arrAt w cfg6.N = V22 m ρ c (Pipeline.arrRef spec6 w) :=
  (W22_arr m ρ c w).symm
theorem hrest6 (c : Dev nD) : ∀ b, b ∉ Finset.univ.image (Pipeline.arrRef spec6) → V22 m ρ c b = V21 m ρ c b :=
  fun b hb => W22_of_ne m ρ c b fun w e => hb (Finset.mem_image.mpr ⟨w, Finset.mem_univ _, e⟩)

abbrev W23 : Dev nD → Valuation τ sig (Elt F) := fun c => StableHlo.after hostOps7 (W22 m ρ c)
theorem W23_of (c : Dev nD) (r : Ref sig .tc) (h : r ∉ hostOps7_W) : W23 m ρ c (Proc.devRef .tc r) = W22 m ρ c (Proc.devRef .tc r) :=
  StableHlo.after_of_writes_sub hostOps7 _ hostOps7_writes h

/-- The contents region 7 is entered from, read at the TensorCore's references. -/
abbrev V23 : (c : Dev nD) → (b : Ref sig .tc) → Buf (Elt F) ((c : Thread nD τ).loc b) := fun c b => W23 m ρ c b
/-- At region 7's exit: its arrays at what the pipeline leaves, every other buffer as entered. -/
def W24 (c : Dev nD) : Valuation τ sig (Elt F) :=
  Pipeline.withArrays spec7 c (W23 m ρ c) fun w => (dat7 (V23 m ρ) c).arrAt w cfg7.N
theorem W24_arr (c : Dev nD) (w : Fin cfg7.W) :
    W24 m ρ c (Proc.devRef .tc (Pipeline.arrRef spec7 w)) = (dat7 (V23 m ρ) c).arrAt w cfg7.N := by
  unfold W24; exact Pipeline.withArrays_arr spec7 launch7.win.arr_inj c _ _ w
theorem W24_of_ne (c : Dev nD) (b : Ref sig .tc) (hb : ∀ w, Pipeline.arrRef spec7 w ≠ b) :
    W24 m ρ c (Proc.devRef .tc b) = W23 m ρ c (Proc.devRef .tc b) := by
  unfold W24; exact Pipeline.withArrays_of_ne spec7 c _ _ b hb
abbrev V24 : (c : Dev nD) → (b : Ref sig .tc) → Buf (Elt F) ((c : Thread nD τ).loc b) := fun c b => W24 m ρ c b
theorem hF7 (c : Dev nD) (w : Fin cfg7.W) : (dat7 (V23 m ρ) c).arrAt w cfg7.N = V24 m ρ c (Pipeline.arrRef spec7 w) :=
  (W24_arr m ρ c w).symm
theorem hrest7 (c : Dev nD) : ∀ b, b ∉ Finset.univ.image (Pipeline.arrRef spec7) → V24 m ρ c b = V23 m ρ c b :=
  fun b hb => W24_of_ne m ρ c b fun w e => hb (Finset.mem_image.mpr ⟨w, Finset.mem_univ _, e⟩)

/-! ## The arguments end as launched -/

/-- A reference that no host stretch writes and that is no region's array holds at the last boundary what it held at launch. -/
theorem W24_kept (c : Dev nD) (r : Ref sig .tc)
    (h1 : r ∉ hostOps0_W := by decide) (h2 : r ∉ hostOps0_1_W := by decide) (h3 : r ∉ hostOps0_2_W := by decide)
    (h4 : ∀ w, Pipeline.arrRef spec0 w ≠ r := by decide) (h5 : r ∉ hostOps1_W := by decide) (h6 : r ∉ hostOps1_1_W := by decide)
    (h7 : r ∉ hostOps1_2_W := by decide) (h8 : ∀ w, Pipeline.arrRef spec1 w ≠ r := by decide) (h9 : r ∉ hostOps2_W := by decide)
    (h10 : ∀ w, Pipeline.arrRef spec2 w ≠ r := by decide) (h11 : r ∉ hostOps3_W := by decide) (h12 : r ∉ hostOps3_1_W := by decide)
    (h13 : r ∉ hostOps3_2_W := by decide) (h14 : ∀ w, Pipeline.arrRef spec3 w ≠ r := by decide) (h15 : r ∉ hostOps4_W := by decide)
    (h16 : ∀ w, Pipeline.arrRef spec4 w ≠ r := by decide) (h17 : r ∉ hostOps5_W := by decide) (h18 : r ∉ hostOps5_1_W := by decide)
    (h19 : r ∉ hostOps5_2_W := by decide) (h20 : ∀ w, Pipeline.arrRef spec5 w ≠ r := by decide) (h21 : r ∉ hostOps6_W := by decide)
    (h22 : ∀ w, Pipeline.arrRef spec6 w ≠ r := by decide) (h23 : r ∉ hostOps7_W := by decide) (h24 : ∀ w, Pipeline.arrRef spec7 w ≠ r := by decide)
    : W24 m ρ c (Proc.devRef .tc r) = m ((c : Thread nD τ).loc r) := by
  rw [W24_of_ne m ρ c r h24, W23_of m ρ c r h23, W22_of_ne m ρ c r h22, W21_of m ρ c r h21, W20_of_ne m ρ c r h20, W19_of m ρ c r h19, W18_of m ρ c r h18, W17_of m ρ c r h17, W16_of_ne m ρ c r h16, W15_of m ρ c r h15, W14_of_ne m ρ c r h14, W13_of m ρ c r h13, W12_of m ρ c r h12, W11_of m ρ c r h11, W10_of_ne m ρ c r h10, W9_of m ρ c r h9, W8_of_ne m ρ c r h8, W7_of m ρ c r h7, W6_of m ρ c r h6, W5_of m ρ c r h5, W4_of_ne m ρ c r h4, W3_of m ρ c r h3, W2_of m ρ c r h2, W1_of m ρ c r h1]

/-- The same up to an earlier boundary: a reference no item before boundary j writes holds there what it held at launch. -/
theorem W2_kept (c : Dev nD) (r : Ref sig .tc)
    (h1 : r ∉ hostOps0_W := by decide) (h2 : r ∉ hostOps0_1_W := by decide)
    : W2 m ρ c (Proc.devRef .tc r) = m ((c : Thread nD τ).loc r) := by
  rw [W2_of m ρ c r h2, W1_of m ρ c r h1]

theorem W4_kept (c : Dev nD) (r : Ref sig .tc)
    (h1 : r ∉ hostOps0_W := by decide) (h2 : r ∉ hostOps0_1_W := by decide) (h3 : r ∉ hostOps0_2_W := by decide)
    (h4 : ∀ w, Pipeline.arrRef spec0 w ≠ r := by decide)
    : W4 m ρ c (Proc.devRef .tc r) = m ((c : Thread nD τ).loc r) := by
  rw [W4_of_ne m ρ c r h4, W3_of m ρ c r h3, W2_of m ρ c r h2, W1_of m ρ c r h1]

theorem W8_kept (c : Dev nD) (r : Ref sig .tc)
    (h1 : r ∉ hostOps0_W := by decide) (h2 : r ∉ hostOps0_1_W := by decide) (h3 : r ∉ hostOps0_2_W := by decide)
    (h4 : ∀ w, Pipeline.arrRef spec0 w ≠ r := by decide) (h5 : r ∉ hostOps1_W := by decide) (h6 : r ∉ hostOps1_1_W := by decide)
    (h7 : r ∉ hostOps1_2_W := by decide) (h8 : ∀ w, Pipeline.arrRef spec1 w ≠ r := by decide)
    : W8 m ρ c (Proc.devRef .tc r) = m ((c : Thread nD τ).loc r) := by
  rw [W8_of_ne m ρ c r h8, W7_of m ρ c r h7, W6_of m ρ c r h6, W5_of m ρ c r h5, W4_of_ne m ρ c r h4, W3_of m ρ c r h3, W2_of m ρ c r h2, W1_of m ρ c r h1]

theorem W10_kept (c : Dev nD) (r : Ref sig .tc)
    (h1 : r ∉ hostOps0_W := by decide) (h2 : r ∉ hostOps0_1_W := by decide) (h3 : r ∉ hostOps0_2_W := by decide)
    (h4 : ∀ w, Pipeline.arrRef spec0 w ≠ r := by decide) (h5 : r ∉ hostOps1_W := by decide) (h6 : r ∉ hostOps1_1_W := by decide)
    (h7 : r ∉ hostOps1_2_W := by decide) (h8 : ∀ w, Pipeline.arrRef spec1 w ≠ r := by decide) (h9 : r ∉ hostOps2_W := by decide)
    (h10 : ∀ w, Pipeline.arrRef spec2 w ≠ r := by decide)
    : W10 m ρ c (Proc.devRef .tc r) = m ((c : Thread nD τ).loc r) := by
  rw [W10_of_ne m ρ c r h10, W9_of m ρ c r h9, W8_of_ne m ρ c r h8, W7_of m ρ c r h7, W6_of m ρ c r h6, W5_of m ρ c r h5, W4_of_ne m ρ c r h4, W3_of m ρ c r h3, W2_of m ρ c r h2, W1_of m ρ c r h1]

theorem W14_kept (c : Dev nD) (r : Ref sig .tc)
    (h1 : r ∉ hostOps0_W := by decide) (h2 : r ∉ hostOps0_1_W := by decide) (h3 : r ∉ hostOps0_2_W := by decide)
    (h4 : ∀ w, Pipeline.arrRef spec0 w ≠ r := by decide) (h5 : r ∉ hostOps1_W := by decide) (h6 : r ∉ hostOps1_1_W := by decide)
    (h7 : r ∉ hostOps1_2_W := by decide) (h8 : ∀ w, Pipeline.arrRef spec1 w ≠ r := by decide) (h9 : r ∉ hostOps2_W := by decide)
    (h10 : ∀ w, Pipeline.arrRef spec2 w ≠ r := by decide) (h11 : r ∉ hostOps3_W := by decide) (h12 : r ∉ hostOps3_1_W := by decide)
    (h13 : r ∉ hostOps3_2_W := by decide) (h14 : ∀ w, Pipeline.arrRef spec3 w ≠ r := by decide)
    : W14 m ρ c (Proc.devRef .tc r) = m ((c : Thread nD τ).loc r) := by
  rw [W14_of_ne m ρ c r h14, W13_of m ρ c r h13, W12_of m ρ c r h12, W11_of m ρ c r h11, W10_of_ne m ρ c r h10, W9_of m ρ c r h9, W8_of_ne m ρ c r h8, W7_of m ρ c r h7, W6_of m ρ c r h6, W5_of m ρ c r h5, W4_of_ne m ρ c r h4, W3_of m ρ c r h3, W2_of m ρ c r h2, W1_of m ρ c r h1]

theorem W16_kept (c : Dev nD) (r : Ref sig .tc)
    (h1 : r ∉ hostOps0_W := by decide) (h2 : r ∉ hostOps0_1_W := by decide) (h3 : r ∉ hostOps0_2_W := by decide)
    (h4 : ∀ w, Pipeline.arrRef spec0 w ≠ r := by decide) (h5 : r ∉ hostOps1_W := by decide) (h6 : r ∉ hostOps1_1_W := by decide)
    (h7 : r ∉ hostOps1_2_W := by decide) (h8 : ∀ w, Pipeline.arrRef spec1 w ≠ r := by decide) (h9 : r ∉ hostOps2_W := by decide)
    (h10 : ∀ w, Pipeline.arrRef spec2 w ≠ r := by decide) (h11 : r ∉ hostOps3_W := by decide) (h12 : r ∉ hostOps3_1_W := by decide)
    (h13 : r ∉ hostOps3_2_W := by decide) (h14 : ∀ w, Pipeline.arrRef spec3 w ≠ r := by decide) (h15 : r ∉ hostOps4_W := by decide)
    (h16 : ∀ w, Pipeline.arrRef spec4 w ≠ r := by decide)
    : W16 m ρ c (Proc.devRef .tc r) = m ((c : Thread nD τ).loc r) := by
  rw [W16_of_ne m ρ c r h16, W15_of m ρ c r h15, W14_of_ne m ρ c r h14, W13_of m ρ c r h13, W12_of m ρ c r h12, W11_of m ρ c r h11, W10_of_ne m ρ c r h10, W9_of m ρ c r h9, W8_of_ne m ρ c r h8, W7_of m ρ c r h7, W6_of m ρ c r h6, W5_of m ρ c r h5, W4_of_ne m ρ c r h4, W3_of m ρ c r h3, W2_of m ρ c r h2, W1_of m ρ c r h1]

theorem W20_kept (c : Dev nD) (r : Ref sig .tc)
    (h1 : r ∉ hostOps0_W := by decide) (h2 : r ∉ hostOps0_1_W := by decide) (h3 : r ∉ hostOps0_2_W := by decide)
    (h4 : ∀ w, Pipeline.arrRef spec0 w ≠ r := by decide) (h5 : r ∉ hostOps1_W := by decide) (h6 : r ∉ hostOps1_1_W := by decide)
    (h7 : r ∉ hostOps1_2_W := by decide) (h8 : ∀ w, Pipeline.arrRef spec1 w ≠ r := by decide) (h9 : r ∉ hostOps2_W := by decide)
    (h10 : ∀ w, Pipeline.arrRef spec2 w ≠ r := by decide) (h11 : r ∉ hostOps3_W := by decide) (h12 : r ∉ hostOps3_1_W := by decide)
    (h13 : r ∉ hostOps3_2_W := by decide) (h14 : ∀ w, Pipeline.arrRef spec3 w ≠ r := by decide) (h15 : r ∉ hostOps4_W := by decide)
    (h16 : ∀ w, Pipeline.arrRef spec4 w ≠ r := by decide) (h17 : r ∉ hostOps5_W := by decide) (h18 : r ∉ hostOps5_1_W := by decide)
    (h19 : r ∉ hostOps5_2_W := by decide) (h20 : ∀ w, Pipeline.arrRef spec5 w ≠ r := by decide)
    : W20 m ρ c (Proc.devRef .tc r) = m ((c : Thread nD τ).loc r) := by
  rw [W20_of_ne m ρ c r h20, W19_of m ρ c r h19, W18_of m ρ c r h18, W17_of m ρ c r h17, W16_of_ne m ρ c r h16, W15_of m ρ c r h15, W14_of_ne m ρ c r h14, W13_of m ρ c r h13, W12_of m ρ c r h12, W11_of m ρ c r h11, W10_of_ne m ρ c r h10, W9_of m ρ c r h9, W8_of_ne m ρ c r h8, W7_of m ρ c r h7, W6_of m ρ c r h6, W5_of m ρ c r h5, W4_of_ne m ρ c r h4, W3_of m ρ c r h3, W2_of m ρ c r h2, W1_of m ρ c r h1]

theorem W22_kept (c : Dev nD) (r : Ref sig .tc)
    (h1 : r ∉ hostOps0_W := by decide) (h2 : r ∉ hostOps0_1_W := by decide) (h3 : r ∉ hostOps0_2_W := by decide)
    (h4 : ∀ w, Pipeline.arrRef spec0 w ≠ r := by decide) (h5 : r ∉ hostOps1_W := by decide) (h6 : r ∉ hostOps1_1_W := by decide)
    (h7 : r ∉ hostOps1_2_W := by decide) (h8 : ∀ w, Pipeline.arrRef spec1 w ≠ r := by decide) (h9 : r ∉ hostOps2_W := by decide)
    (h10 : ∀ w, Pipeline.arrRef spec2 w ≠ r := by decide) (h11 : r ∉ hostOps3_W := by decide) (h12 : r ∉ hostOps3_1_W := by decide)
    (h13 : r ∉ hostOps3_2_W := by decide) (h14 : ∀ w, Pipeline.arrRef spec3 w ≠ r := by decide) (h15 : r ∉ hostOps4_W := by decide)
    (h16 : ∀ w, Pipeline.arrRef spec4 w ≠ r := by decide) (h17 : r ∉ hostOps5_W := by decide) (h18 : r ∉ hostOps5_1_W := by decide)
    (h19 : r ∉ hostOps5_2_W := by decide) (h20 : ∀ w, Pipeline.arrRef spec5 w ≠ r := by decide) (h21 : r ∉ hostOps6_W := by decide)
    (h22 : ∀ w, Pipeline.arrRef spec6 w ≠ r := by decide)
    : W22 m ρ c (Proc.devRef .tc r) = m ((c : Thread nD τ).loc r) := by
  rw [W22_of_ne m ρ c r h22, W21_of m ρ c r h21, W20_of_ne m ρ c r h20, W19_of m ρ c r h19, W18_of m ρ c r h18, W17_of m ρ c r h17, W16_of_ne m ρ c r h16, W15_of m ρ c r h15, W14_of_ne m ρ c r h14, W13_of m ρ c r h13, W12_of m ρ c r h12, W11_of m ρ c r h11, W10_of_ne m ρ c r h10, W9_of m ρ c r h9, W8_of_ne m ρ c r h8, W7_of m ρ c r h7, W6_of m ρ c r h6, W5_of m ρ c r h5, W4_of_ne m ρ c r h4, W3_of m ρ c r h3, W2_of m ρ c r h2, W1_of m ρ c r h1]

end Cert.KernelIdeal.Frm

end
-- ==== Proof.KIData.lean ====
/-
  The proof data of the kernel program's eight pipelines, each at the contents its region is entered from, and
  the thread state that rides through every item of @main beside the buffers: the core's generator register at
  some state, and nothing owed to any other core (the kernels signal no one).
-/
import proofs.«133509_j41223096107483_1_alg».proof.Proof.KIBound

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline prefetches a table. -/
abbrev adm : (p : Fin 8) → (pcfgs (F := F) p).Adm := fun p => (cfgs p).toPCfg_adm

/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
  | ⟨2, _⟩ => fun c => dat2 (V9 m ρ) c
  | ⟨3, _⟩ => fun c => dat3 (V13 m ρ) c
  | ⟨4, _⟩ => fun c => dat4 (V15 m ρ) c
  | ⟨5, _⟩ => fun c => dat5 (V19 m ρ) c
  | ⟨6, _⟩ => fun c => dat6 (V21 m ρ) c
  | ⟨7, _⟩ => fun c => dat7 (V23 m ρ) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state, nothing owed. -/
abbrev R (c : Dev nD) : sProp 𝕄 := iprop((∃ r, prngReg c r) ∗ ∃ W, owes (c : Thread nD τ) (0 : CellTallies nD τ sig Unit) W)

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last boundary's contents, the generator
    register at some state. -/
abbrev Tₙ (c : Dev nD) : sProp 𝕄 := iprop(StableHlo.held (c : Thread nD τ) (Pipeline.ucRefs τ sig) (W24 m ρ c) ∗ ∃ r, prngReg c r)

end Cert.KernelIdeal.Frm

end
-- ==== Proof.KIReg0.lean ====
/-
  Region 0 of the kernel program as a segment of @main: entered with every unscoped buffer at the contents of
  boundary 3, left with them at the contents of boundary 4. At the entry the region's arrays are split out of the
  unscoped buffers and at the exit put back at what the pipeline leaves in them; the generator register goes into
  the pipeline's invariant and comes back; nothing is owed; the kernel has no semaphore of its own.
-/
import proofs.«133509_j41223096107483_1_alg».proof.Proof.KIData

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.KIReg1.lean ====
/- Region 1 of the kernel program as a segment of @main: entered with every unscoped buffer at the contents of
  boundary 7, left with them at the contents of boundary 8. At the entry the region's arrays are split out of the
  unscoped buffers and at the exit put back at what the pipeline leaves in them; the generator register goes into
  the pipeline's invariant and comes back; nothing is owed; the kernel has no semaphore of its own.
-/
import proofs.«133509_j41223096107483_1_alg».proof.Proof.KIData

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.KIReg2.lean ====
/- Region 2 of the kernel program as a segment of @main: entered with every unscoped buffer at the contents of
  boundary 9, left with them at the contents of boundary 10. At the entry the region's arrays are split out of the
  unscoped buffers and at the exit put back at what the pipeline leaves in them; the generator register goes into
  the pipeline's invariant and comes back; nothing is owed; the kernel has no semaphore of its own.
-/
import proofs.«133509_j41223096107483_1_alg».proof.Proof.KIData

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.KIReg3.lean ====
/- Region 3 of the kernel program as a segment of @main: entered with every unscoped buffer at the contents of
  boundary 13, left with them at the contents of boundary 14. At the entry the region's arrays are split out of the
  unscoped buffers and at the exit put back at what the pipeline leaves in them; the generator register goes into
  the pipeline's invariant and comes back; nothing is owed; the kernel has no semaphore of its own.
-/
import proofs.«133509_j41223096107483_1_alg».proof.Proof.KIData

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V13 m ρ) c).loose
  hwaits := Pipeline.hwaits_of_owed_zero _ _ _ _ L lv 3 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec3 c (V13 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V13 m ρ c) (V14 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.KIReg4.lean ====
/- Region 4 of the kernel program as a segment of @main: entered with every unscoped buffer at the contents of
  boundary 15, left with them at the contents of boundary 16. At the entry the region's arrays are split out of the
  unscoped buffers and at the exit put back at what the pipeline leaves in them; the generator register goes into
  the pipeline's invariant and comes back; nothing is owed; the kernel has no semaphore of its own.
-/
import proofs.«133509_j41223096107483_1_alg».proof.Proof.KIData

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V15 m ρ) c).loose
  hwaits := Pipeline.hwaits_of_owed_zero _ _ _ _ L lv 4 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec4 c (V15 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V15 m ρ c) (V16 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.KIReg5.lean ====
/- Region 5 of the kernel program as a segment of @main: entered with every unscoped buffer at the contents of
  boundary 19, left with them at the contents of boundary 20. At the entry the region's arrays are split out of the
  unscoped buffers and at the exit put back at what the pipeline leaves in them; the generator register goes into
  the pipeline's invariant and comes back; nothing is owed; the kernel has no semaphore of its own.
-/
import proofs.«133509_j41223096107483_1_alg».proof.Proof.KIData

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V19 m ρ) c).loose
  hwaits := Pipeline.hwaits_of_owed_zero _ _ _ _ L lv 5 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec5 c (V19 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V19 m ρ c) (V20 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.KIReg6.lean ====
/- Region 6 of the kernel program as a segment of @main: entered with every unscoped buffer at the contents of
  boundary 21, left with them at the contents of boundary 22. At the entry the region's arrays are split out of the
  unscoped buffers and at the exit put back at what the pipeline leaves in them; the generator register goes into
  the pipeline's invariant and comes back; nothing is owed; the kernel has no semaphore of its own.
-/
import proofs.«133509_j41223096107483_1_alg».proof.Proof.KIData

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V21 m ρ) c).loose
  hwaits := Pipeline.hwaits_of_owed_zero _ _ _ _ L lv 6 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec6 c (V21 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V21 m ρ c) (V22 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.KIReg7.lean ====
/-
  Region 7 of the kernel program as a segment of @main: entered with every unscoped buffer at the contents of
  boundary 23, left with them at the contents of boundary 24. At the entry the region's arrays are split out of the
  unscoped buffers and at the exit put back at what the pipeline leaves in them; the generator register goes into
  the pipeline's invariant and comes back; nothing is owed; the kernel has no semaphore of its own.
-/
import proofs.«133509_j41223096107483_1_alg».proof.Proof.KIData

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V23 m ρ) c).loose
  hwaits := Pipeline.hwaits_of_owed_zero _ _ _ _ L lv 7 fun _ _ => rfl
  pre c := iprop(StableHlo.held (c : Thread nD τ) (Pipeline.ucRefs τ sig) (W23 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V23 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V23 m ρ c) (V24 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Frm

end
-- ==== Proof.KIFrame.lean ====
/-
  The kernel program's frame. @main is twenty-four items in order — sixteen stretches of host operations and the
  eight kernel regions — each entered from the thread state the item before it left: every unscoped buffer at that
  boundary's contents, the generator register at some state, nothing owed. The launch theorem for such a list runs
  them all; at the end the last boundary's contents are read against the final memory, and each argument array
  holds there what it held at launch.
-/
import proofs.«133509_j41223096107483_1_alg».proof.Proof.KIReg0
import proofs.«133509_j41223096107483_1_alg».proof.Proof.KIReg1
import proofs.«133509_j41223096107483_1_alg».proof.Proof.KIReg2
import proofs.«133509_j41223096107483_1_alg».proof.Proof.KIReg3
import proofs.«133509_j41223096107483_1_alg».proof.Proof.KIReg4
import proofs.«133509_j41223096107483_1_alg».proof.Proof.KIReg5
import proofs.«133509_j41223096107483_1_alg».proof.Proof.KIReg6
import proofs.«133509_j41223096107483_1_alg».proof.Proof.KIReg7

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 24 segments in order. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .host (hseg hostOps3_1 hostOps3_1_sub hostOps3_1_fresh (W11 m ρ)),
    .host (hseg hostOps3_2 hostOps3_2_sub hostOps3_2_fresh (W12 m ρ)),
    .region (reg3 m ρ),
    .host (hseg hostOps4 hostOps4_sub hostOps4_fresh (W14 m ρ)),
    .region (reg4 m ρ),
    .host (hseg hostOps5 hostOps5_sub hostOps5_fresh (W16 m ρ)),
    .host (hseg hostOps5_1 hostOps5_1_sub hostOps5_1_fresh (W17 m ρ)),
    .host (hseg hostOps5_2 hostOps5_2_sub hostOps5_2_fresh (W18 m ρ)),
    .region (reg5 m ρ),
    .host (hseg hostOps6 hostOps6_sub hostOps6_fresh (W20 m ρ)),
    .region (reg6 m ρ),
    .host (hseg hostOps7 hostOps7_sub hostOps7_fresh (W22 m ρ)),
    .region (reg7 m ρ) ]

/-- @main is the run of the segments. -/
theorem main_run (c : Dev nD) : main (F := F) c = Pipeline.Seg.run (segs m ρ) := (main_chain c).trans (by chain_rfl)

set_option backward.isDefEq.respectTransparency.types false in
/-- At the compiled mesh, from any memory with zero counters, every weakly fair execution of @main terminates,
    nothing faulting, and every unscoped TensorCore buffer ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W24 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c => h c)

/-- The frame: every argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_arg0 (by decide))).trans (W24_kept m ρ c main_arg0),
      (h c _ (mem_uc main_arg1 (by decide))).trans (W24_kept m ρ c main_arg1),
      (h c _ (mem_uc main_arg2 (by decide))).trans (W24_kept m ρ c main_arg2),
      (h c _ (mem_uc main_arg3 (by decide))).trans (W24_kept m ρ c main_arg3),
      (h c _ (mem_uc main_arg4 (by decide))).trans (W24_kept m ρ c main_arg4),
      (h c _ (mem_uc main_arg5 (by decide))).trans (W24_kept m ρ c main_arg5),
      (h c _ (mem_uc main_arg6 (by decide))).trans (W24_kept m ρ c main_arg6),
      (h c _ (mem_uc main_arg7 (by decide))).trans (W24_kept m ρ c main_arg7),
      (h c _ (mem_uc main_arg8 (by decide))).trans (W24_kept m ρ c main_arg8),
      (h c _ (mem_uc main_arg9 (by decide))).trans (W24_kept m ρ c main_arg9),
      (h c _ (mem_uc main_arg10 (by decide))).trans (W24_kept m ρ c main_arg10),
      (h c _ (mem_uc main_arg11 (by decide))).trans (W24_kept m ρ c main_arg11),
      (h c _ (mem_uc main_arg12 (by decide))).trans (W24_kept m ρ c main_arg12),
      (h c _ (mem_uc main_arg13 (by decide))).trans (W24_kept m ρ c main_arg13),
      (h c _ (mem_uc main_arg14 (by decide))).trans (W24_kept m ρ c main_arg14),
      (h c _ (mem_uc main_arg15 (by decide))).trans (W24_kept m ρ c main_arg15),
      (h c _ (mem_uc main_arg16 (by decide))).trans (W24_kept m ρ c main_arg16),
      (h c _ (mem_uc main_arg17 (by decide))).trans (W24_kept m ρ c main_arg17)⟩)
    (run_main m ρ)

end Cert.KernelIdeal.Frm

end
-- ==== Proof.RefOps.lean ====
/- The reference's @main as the list of its host operations, window by window as it is printed; a call of a
   module-local function stands as the callee's operations over that call's buffer record. Beside the table only what
   enumerates it: that each window of @main is the sequence of its operations, that the operations touch TensorCore
   references only, and which references each window writes (every reference is written once: single assignment). -/
import proofs.«133509_j41223096107483_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0 (62 of them, calls listed inline). -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v1 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.rsqrt : (⟨S50000, .f32⟩ : BufTy).Contents (Elt F) → (⟨S50000, .f32⟩ : BufTy).Contents (Elt F)),
    nullary main_cst_3 (constant S_ .f32 0x00000000#32),
    TRef.unary (.of main_cst_3) main_call0.v0 id,
    TRef.unary main_call0.v0 main_call0.v1 (broadcastInDim S50000 ![] bcast_S_S50000),
    TRef.ternary (.of main_v9) (.of main_v12) main_call0.v1 main_call0.v2 select,
    nullary main_c (constantI S_ 32 0#32),
    unary main_c main_v14 (broadcastInDim S800000 ![] bcast_S_S800000 : (⟨S_, .i32⟩ : BufTy).Contents (Elt F) → (⟨S800000, .i32⟩ : BufTy).Contents (Elt F)),
    binary main_v1 main_v14 main_v15 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v16 (broadcastInDim S800000 ![] bcast_S_S800000 : (⟨S_, .i32⟩ : BufTy).Contents (Elt F) → (⟨S800000, .i32⟩ : BufTy).Contents (Elt F)),
    binary main_v1 main_v16 main_v17 (addi : (⟨S800000, .i32⟩ : BufTy).Contents (Elt F) → (⟨S800000, .i32⟩ : BufTy).Contents (Elt F) → (⟨S800000, .i32⟩ : BufTy).Contents (Elt F)),
    ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v18 main_v19 (broadcastInDim S800000x1 ![0] bcast_S800000_S800000x1_0 : (⟨S800000, .i32⟩ : BufTy).Contents (Elt F) → (⟨S800000x1, .i32⟩ : BufTy).Contents (Elt F)),
    binary main_v13 main_v19 main_v20 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    unary main_v20 main_v21 (Host.negf : (⟨S800000, .f32⟩ : BufTy).Contents (Elt F) → (⟨S800000, .f32⟩ : BufTy).Contents (Elt F)),
    nullary main_c_5 (constantI S_ 32 0#32),
    unary main_c_5 main_v22 (broadcastInDim S800000 ![] bcast_S_S800000 : (⟨S_, .i32⟩ : BufTy).Contents (Elt F) → (⟨S800000, .i32⟩ : BufTy).Contents (Elt F)),
    binary main_v3 main_v22 main_v23 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v24 (broadcastInDim S800000 ![] bcast_S_S800000 : (⟨S_, .i32⟩ : BufTy).Contents (Elt F) → (⟨S800000, .i32⟩ : BufTy).Contents (Elt F)),
    binary main_v3 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_v3 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v13 main_v27 main_v28 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v21 main_v28 main_v29 (mulf : (⟨S800000, .f32⟩ : BufTy).Contents (Elt F) → (⟨S800000, .f32⟩ : BufTy).Contents (Elt F) → (⟨S800000, .f32⟩ : BufTy).Contents (Elt F)),
    unary main_arg2 main_v30 ((extractStridedSlice S1x3x128 ![0, 0, 0] · slices_S4x3x128_S1x3x128_0_0_0) : (⟨S4x3x128, .f32⟩ : BufTy).Contents (Elt F) → (⟨S1x3x128, .f32⟩ : BufTy).Contents (Elt F)),
    reshape main_v30 main_v31 rfl shapeCasts_S1x3x128_S3x128,
    binary main_arg0 main_v31 main_v32 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F)),
    unary main_v29 main_v33 (broadcastInDim S800000x1 ![0] bcast_S800000_S800000x1_0 : (⟨S800000, .f32⟩ : BufTy).Contents (Elt F) → (⟨S800000x1, .f32⟩ : BufTy).Contents (Elt F)),
    nullary main_c_7 (constantI S_ 32 0#32),
    unary main_c_7 main_v34 (broadcastInDim S800000 ![] bcast_S_S800000 : (⟨S_, .i32⟩ : BufTy).Contents (Elt F) → (⟨S800000, .i32⟩ : BufTy).Contents (Elt F)),
    binary main_v1 main_v34 main_v35 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v36 (broadcastInDim S800000 ![] bcast_S_S800000 : (⟨S_, .i32⟩ : BufTy).Contents (Elt F) → (⟨S800000, .i32⟩ : BufTy).Contents (Elt F)),
    binary main_v1 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_v1 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_arg0 main_v39 main_v40 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    unary main_v33 main_v41 (broadcastInDim S800000x3 ![0, 1] bcast_S800000x1_S800000x3_0_1 : (⟨S800000x1, .f32⟩ : BufTy).Contents (Elt F) → (⟨S800000x3, .f32⟩ : BufTy).Contents (Elt F)),
    binary main_v41 main_v40 main_v42 (mulf : (⟨S800000x3, .f32⟩ : BufTy).Contents (Elt F) → (⟨S800000x3, .f32⟩ : BufTy).Contents (Elt F) → (⟨S800000x3, .f32⟩ : BufTy).Contents (Elt F)),
    nullary main_cst_9 (constant S_ .f32 0x00000000#32),
    unary main_cst_9 main_v43 (broadcastInDim S50000x3 ![] bcast_S_S50000x3 : (⟨S_, .f32⟩ : BufTy).Contents (Elt F) → (⟨S50000x3, .f32⟩ : BufTy).Contents (Elt F)),
    unary main_v3 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F)),
    unary main_arg2 main_v46 ((extractStridedSlice S1x3x128 ![1, 0, 0] · slices_S4x3x128_S1x3x128_1_0_0) : (⟨S4x3x128, .f32⟩ : BufTy).Contents (Elt F) → (⟨S1x3x128, .f32⟩ : BufTy).Contents (Elt F)),
    reshape main_v46 main_v47 rfl shapeCasts_S1x3x128_S3x128 ]

set_option maxRecDepth 8192 in
set_option maxHeartbeats 4000000 in
theorem main_part0_eq (c : Dev nD) : main_part0 (F := F) c = seq ops0 := by
  simp only [main_part0, fn_where.body, fn_where_0.body, fn_leaky_relu.body, fn_where_1.body, fn_var.body, fn_relu.body, fn_norm.body, seq, bind_assoc, pure_bind]
  try rfl

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub ..⟩

/-- The references window 0 writes, in order. -/
abbrev ops0_W : List (Ref sig .tc) := [main_v0, main_v1, main_v2, main_v3, main_cst, main_v4, main_cst_0, main_v5, main_v6, main_v7, main_cst_1, main_v8, main_v9, main_cst_2, main_v10, main_v11, main_v12, main_cst_3, main_call0.v0.ref, main_call0.v1.ref, main_call0.v2.ref, main_c, main_v14, main_v15, main_c_4, main_v16, main_v17, main_v18, main_v19, main_v20, main_v21, main_c_5, main_v22, main_v23, main_c_6, main_v24, main_v25, main_v26, main_v27, main_v28, main_v29, main_v30, main_v31, main_v32, main_v33, main_c_7, main_v34, main_v35, main_c_8, main_v36, main_v37, main_v38, main_v39, main_v40, main_v41, main_v42, main_cst_9, main_v43, main_v44, main_v45, main_v46, main_v47]

set_option maxRecDepth 8192 in
set_option maxHeartbeats 4000000 in
theorem ops0_writes : (ops0 : List (HloOp τ sig (Elt F))).Forall fun op =>
    op.writes ⊆ (ops0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- The operations of @main's window 1 (66 of them, calls listed inline). -/
abbrev ops1 : List (HloOp τ sig (Elt F)) :=
  [ binary main_v45 main_v47 main_v48 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F)),
    binary main_v32 main_v48 main_v49 (addf : (⟨S50000x128, .f32⟩ : BufTy).Contents (Elt F) → (⟨S50000x128, .f32⟩ : BufTy).Contents (Elt F) → (⟨S50000x128, .f32⟩ : BufTy).Contents (Elt F)),
    unary main_v29 main_v50 (broadcastInDim S800000x1 ![0] bcast_S800000_S800000x1_0 : (⟨S800000, .f32⟩ : BufTy).Contents (Elt F) → (⟨S800000x1, .f32⟩ : BufTy).Contents (Elt F)),
    nullary main_c_10 (constantI S_ 32 0#32),
    unary main_c_10 main_v51 (broadcastInDim S800000 ![] bcast_S_S800000 : (⟨S_, .i32⟩ : BufTy).Contents (Elt F) → (⟨S800000, .i32⟩ : BufTy).Contents (Elt F)),
    binary main_v1 main_v51 main_v52 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v53 (broadcastInDim S800000 ![] bcast_S_S800000 : (⟨S_, .i32⟩ : BufTy).Contents (Elt F) → (⟨S800000, .i32⟩ : BufTy).Contents (Elt F)),
    binary main_v1 main_v53 main_v54 (addi : (⟨S800000, .i32⟩ : BufTy).Contents (Elt F) → (⟨S800000, .i32⟩ : BufTy).Contents (Elt F) → (⟨S800000, .i32⟩ : BufTy).Contents (Elt F)),
    ternary main_v52 main_v54 main_v1 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v55 main_v56 (broadcastInDim S800000x1 ![0] bcast_S800000_S800000x1_0 : (⟨S800000, .i32⟩ : BufTy).Contents (Elt F) → (⟨S800000x1, .i32⟩ : BufTy).Contents (Elt F)),
    binary main_v45 main_v56 main_v57 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    unary main_v50 main_v58 (broadcastInDim S800000x3 ![0, 1] bcast_S800000x1_S800000x3_0_1 : (⟨S800000x1, .f32⟩ : BufTy).Contents (Elt F) → (⟨S800000x3, .f32⟩ : BufTy).Contents (Elt F)),
    binary main_v58 main_v57 main_v59 (mulf : (⟨S800000x3, .f32⟩ : BufTy).Contents (Elt F) → (⟨S800000x3, .f32⟩ : BufTy).Contents (Elt F) → (⟨S800000x3, .f32⟩ : BufTy).Contents (Elt F)),
    nullary main_cst_12 (constant S_ .f32 0x00000000#32),
    unary main_cst_12 main_v60 (broadcastInDim S50000x3 ![] bcast_S_S50000x3 : (⟨S_, .f32⟩ : BufTy).Contents (Elt F) → (⟨S50000x3, .f32⟩ : BufTy).Contents (Elt F)),
    unary main_v3 main_v61 (broadcastInDim S800000x1 ![0] bcast_S800000_S800000x1_0 : (⟨S800000, .i32⟩ : BufTy).Contents (Elt F) → (⟨S800000x1, .i32⟩ : BufTy).Contents (Elt F)),
    ternary main_v60 main_v61 main_v59 main_v62 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F)),
    nullary main_cst_13 (constant S_ .f32 0x40000000#32),
    unary main_cst_13 main_v63 (broadcastInDim S50000x3 ![] bcast_S_S50000x3 : (⟨S_, .f32⟩ : BufTy).Contents (Elt F) → (⟨S50000x3, .f32⟩ : BufTy).Contents (Elt F)),
    binary main_v63 main_v62 main_v64 (mulf : (⟨S50000x3, .f32⟩ : BufTy).Contents (Elt F) → (⟨S50000x3, .f32⟩ : BufTy).Contents (Elt F) → (⟨S50000x3, .f32⟩ : BufTy).Contents (Elt F)),
    binary main_v64 main_arg0 main_v65 (subf : (⟨S50000x3, .f32⟩ : BufTy).Contents (Elt F) → (⟨S50000x3, .f32⟩ : BufTy).Contents (Elt F) → (⟨S50000x3, .f32⟩ : BufTy).Contents (Elt F)),
    unary main_arg2 main_v66 ((extractStridedSlice S1x3x128 ![2, 0, 0] · slices_S4x3x128_S1x3x128_2_0_0) : (⟨S4x3x128, .f32⟩ : BufTy).Contents (Elt F) → (⟨S1x3x128, .f32⟩ : BufTy).Contents (Elt F)),
    reshape main_v66 main_v67 rfl shapeCasts_S1x3x128_S3x128,
    binary main_v65 main_v67 main_v68 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F)),
    binary main_v49 main_v68 main_v69 (addf : (⟨S50000x128, .f32⟩ : BufTy).Contents (Elt F) → (⟨S50000x128, .f32⟩ : BufTy).Contents (Elt F) → (⟨S50000x128, .f32⟩ : BufTy).Contents (Elt F)),
    unary main_v29 main_v70 (broadcastInDim S800000x1 ![0] bcast_S800000_S800000x1_0 : (⟨S800000, .f32⟩ : BufTy).Contents (Elt F) → (⟨S800000x1, .f32⟩ : BufTy).Contents (Elt F)),
    nullary main_c_14 (constantI S_ 32 0#32),
    unary main_c_14 main_v71 (broadcastInDim S800000 ![] bcast_S_S800000 : (⟨S_, .i32⟩ : BufTy).Contents (Elt F) → (⟨S800000, .i32⟩ : BufTy).Contents (Elt F)),
    binary main_v1 main_v71 main_v72 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v73 (broadcastInDim S800000 ![] bcast_S_S800000 : (⟨S_, .i32⟩ : BufTy).Contents (Elt F) → (⟨S800000, .i32⟩ : BufTy).Contents (Elt F)),
    binary main_v1 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_v1 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)),
    binary main_v65 main_v76 main_v77 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    unary main_v70 main_v78 (broadcastInDim S800000x3 ![0, 1] bcast_S800000x1_S800000x3_0_1 : (⟨S800000x1, .f32⟩ : BufTy).Contents (Elt F) → (⟨S800000x3, .f32⟩ : BufTy).Contents (Elt F)),
    binary main_v78 main_v77 main_v79 (mulf : (⟨S800000x3, .f32⟩ : BufTy).Contents (Elt F) → (⟨S800000x3, .f32⟩ : BufTy).Contents (Elt F) → (⟨S800000x3, .f32⟩ : BufTy).Contents (Elt F)),
    nullary main_cst_16 (constant S_ .f32 0x00000000#32),
    unary main_cst_16 main_v80 (broadcastInDim S50000x3 ![] bcast_S_S50000x3 : (⟨S_, .f32⟩ : BufTy).Contents (Elt F) → (⟨S50000x3, .f32⟩ : BufTy).Contents (Elt F)),
    unary main_v3 main_v81 (broadcastInDim S800000x1 ![0] bcast_S800000_S800000x1_0 : (⟨S800000, .i32⟩ : BufTy).Contents (Elt F) → (⟨S800000x1, .i32⟩ : BufTy).Contents (Elt F)),
    ternary main_v80 main_v81 main_v79 main_v82 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F)),
    nullary main_cst_17 (constant S_ .f32 0x40000000#32),
    unary main_cst_17 main_v83 (broadcastInDim S50000x3 ![] bcast_S_S50000x3 : (⟨S_, .f32⟩ : BufTy).Contents (Elt F) → (⟨S50000x3, .f32⟩ : BufTy).Contents (Elt F)),
    binary main_v83 main_v82 main_v84 (mulf : (⟨S50000x3, .f32⟩ : BufTy).Contents (Elt F) → (⟨S50000x3, .f32⟩ : BufTy).Contents (Elt F) → (⟨S50000x3, .f32⟩ : BufTy).Contents (Elt F)),
    binary main_v84 main_v45 main_v85 (subf : (⟨S50000x3, .f32⟩ : BufTy).Contents (Elt F) → (⟨S50000x3, .f32⟩ : BufTy).Contents (Elt F) → (⟨S50000x3, .f32⟩ : BufTy).Contents (Elt F)),
    unary main_arg2 main_v86 ((extractStridedSlice S1x3x128 ![3, 0, 0] · slices_S4x3x128_S1x3x128_3_0_0) : (⟨S4x3x128, .f32⟩ : BufTy).Contents (Elt F) → (⟨S1x3x128, .f32⟩ : BufTy).Contents (Elt F)),
    reshape main_v86 main_v87 rfl shapeCasts_S1x3x128_S3x128,
    binary main_v85 main_v87 main_v88 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F)),
    binary main_v69 main_v88 main_v89 (addf : (⟨S50000x128, .f32⟩ : BufTy).Contents (Elt F) → (⟨S50000x128, .f32⟩ : BufTy).Contents (Elt F) → (⟨S50000x128, .f32⟩ : BufTy).Contents (Elt F)),
    unary main_arg3 main_v90 (broadcastInDim S1x128 ![1] bcast_S128_S1x128_1 : (⟨S128, .f32⟩ : BufTy).Contents (Elt F) → (⟨S1x128, .f32⟩ : BufTy).Contents (Elt F)),
    unary main_v90 main_v91 (broadcastInDim S50000x128 ![0, 1] bcast_S1x128_S50000x128_0_1 : (⟨S1x128, .f32⟩ : BufTy).Contents (Elt F) → (⟨S50000x128, .f32⟩ : BufTy).Contents (Elt F)),
    binary main_v89 main_v91 main_v92 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v92) main_call1.v0 main_call1.v1 (cmpf .oge),
    TRef.nullary main_call1.cst_0 (constant S_ .f32 0x3C23D70A#32),
    TRef.unary main_call1.cst_0 main_call1.v2 (broadcastInDim S50000x128 ![] bcast_S_S50000x128),
    TRef.binary main_call1.v2 (.of main_v92) main_call1.v3 mulf,
    TRef.ternary main_call1.v1 (.of main_v92) main_call1.v3 main_call1.call0.v0 select,
    nullary main_cst_18 (constant S_ .f32 0x00000000#32),
    binary main_v93 main_cst_18 main_v94 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_19 (constant S_ .f32 0x47435000#32),
    unary main_cst_19 main_v95 (broadcastInDim S128 ![] bcast_S_S128 : (⟨S_, .f32⟩ : BufTy).Contents (Elt F) → (⟨S128, .f32⟩ : BufTy).Contents (Elt F)),
    binary main_v94 main_v95 main_v96 (Host.divf : (⟨S128, .f32⟩ : BufTy).Contents (Elt F) → (⟨S128, .f32⟩ : BufTy).Contents (Elt F) → (⟨S128, .f32⟩ : BufTy).Contents (Elt F)),
    nullary main_c_20 (constantI S_ 32 0#32) ]

set_option maxRecDepth 8192 in
set_option maxHeartbeats 4000000 in
theorem main_part1_eq (c : Dev nD) : main_part1 (F := F) c = seq ops1 := by
  simp only [main_part1, fn_where.body, fn_where_0.body, fn_leaky_relu.body, fn_where_1.body, fn_var.body, fn_relu.body, fn_norm.body, seq, bind_assoc, pure_bind]
  try rfl

theorem ops1_sub : (ops1 : List (HloOp τ sig (Elt F))).Forall fun op => op.bufs ⊆ tcRefs τ sig :=
  ⟨binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., unary_bufs_sub .., binary_bufs_sub .., nullary_bufs_sub ..⟩

/-- The references window 1 writes, in order. -/
abbrev ops1_W : List (Ref sig .tc) := [main_v48, main_v49, main_v50, main_c_10, main_v51, main_v52, main_c_11, main_v53, main_v54, main_v55, main_v56, main_v57, main_v58, main_v59, main_cst_12, main_v60, main_v61, main_v62, main_cst_13, main_v63, main_v64, main_v65, main_v66, main_v67, main_v68, main_v69, main_v70, main_c_14, main_v71, main_v72, main_c_15, main_v73, main_v74, main_v75, main_v76, main_v77, main_v78, main_v79, main_cst_16, main_v80, main_v81, main_v82, main_cst_17, main_v83, main_v84, main_v85, main_v86, main_v87, main_v88, main_v89, main_v90, main_v91, main_v92, main_call1.cst.ref, main_call1.v0.ref, main_call1.v1.ref, main_call1.cst_0.ref, main_call1.v2.ref, main_call1.v3.ref, main_call1.call0.v0.ref, main_cst_18, main_v94, main_cst_19, main_v95, main_v96, main_c_20]

set_option maxRecDepth 8192 in
set_option maxHeartbeats 4000000 in
theorem ops1_writes : (ops1 : List (HloOp τ sig (Elt F))).Forall fun op =>
    op.writes ⊆ (ops1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- The operations of @main's window 2 (81 of them, calls listed inline). -/
abbrev ops2 : List (HloOp τ sig (Elt F)) :=
  [ TRef.nullary main_call2.cst (constant S_ .f32 0x00000000#32),
    TRef.binary (.of main_v93) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v93) main_call2.v4 main_call2.v5 subf,
    TRef.binary main_call2.v5 main_call2.v5 main_call2.v6 mulf,
    TRef.unary (.of main_c_20) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v96 main_v98 (broadcastInDim S1x128 ![1] bcast_S128_S1x128_1 : (⟨S128, .f32⟩ : BufTy).Contents (Elt F) → (⟨S1x128, .f32⟩ : BufTy).Contents (Elt F)),
    unary main_v98 main_v99 (broadcastInDim S50000x128 ![0, 1] bcast_S1x128_S50000x128_0_1 : (⟨S1x128, .f32⟩ : BufTy).Contents (Elt F) → (⟨S50000x128, .f32⟩ : BufTy).Contents (Elt F)),
    binary main_v93 main_v99 main_v100 (subf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v101 (broadcastInDim S128 ![] bcast_S_S128 : (⟨S_, .f32⟩ : BufTy).Contents (Elt F) → (⟨S128, .f32⟩ : BufTy).Contents (Elt F)),
    binary main_v97 main_v101 main_v102 (addf : (⟨S128, .f32⟩ : BufTy).Contents (Elt F) → (⟨S128, .f32⟩ : BufTy).Contents (Elt F) → (⟨S128, .f32⟩ : BufTy).Contents (Elt F)),
    unary main_v102 main_v103 (Host.rsqrt : (⟨S128, .f32⟩ : BufTy).Contents (Elt F) → (⟨S128, .f32⟩ : BufTy).Contents (Elt F)),
    unary main_v103 main_v104 (broadcastInDim S1x128 ![1] bcast_S128_S1x128_1 : (⟨S128, .f32⟩ : BufTy).Contents (Elt F) → (⟨S1x128, .f32⟩ : BufTy).Contents (Elt F)),
    unary main_v104 main_v105 (broadcastInDim S50000x128 ![0, 1] bcast_S1x128_S50000x128_0_1 : (⟨S1x128, .f32⟩ : BufTy).Contents (Elt F) → (⟨S50000x128, .f32⟩ : BufTy).Contents (Elt F)),
    binary main_v100 main_v105 main_v106 (mulf : (⟨S50000x128, .f32⟩ : BufTy).Contents (Elt F) → (⟨S50000x128, .f32⟩ : BufTy).Contents (Elt F) → (⟨S50000x128, .f32⟩ : BufTy).Contents (Elt F)),
    unary main_arg4 main_v107 (broadcastInDim S1x128 ![1] bcast_S128_S1x128_1 : (⟨S128, .f32⟩ : BufTy).Contents (Elt F) → (⟨S1x128, .f32⟩ : BufTy).Contents (Elt F)),
    unary main_v107 main_v108 (broadcastInDim S50000x128 ![0, 1] bcast_S1x128_S50000x128_0_1 : (⟨S1x128, .f32⟩ : BufTy).Contents (Elt F) → (⟨S50000x128, .f32⟩ : BufTy).Contents (Elt F)),
    binary main_v106 main_v108 main_v109 (mulf : (⟨S50000x128, .f32⟩ : BufTy).Contents (Elt F) → (⟨S50000x128, .f32⟩ : BufTy).Contents (Elt F) → (⟨S50000x128, .f32⟩ : BufTy).Contents (Elt F)),
    unary main_arg5 main_v110 (broadcastInDim S1x128 ![1] bcast_S128_S1x128_1 : (⟨S128, .f32⟩ : BufTy).Contents (Elt F) → (⟨S1x128, .f32⟩ : BufTy).Contents (Elt F)),
    unary main_v110 main_v111 (broadcastInDim S50000x128 ![0, 1] bcast_S1x128_S50000x128_0_1 : (⟨S1x128, .f32⟩ : BufTy).Contents (Elt F) → (⟨S50000x128, .f32⟩ : BufTy).Contents (Elt F)),
    binary main_v109 main_v111 main_v112 (addf : (⟨S50000x128, .f32⟩ : BufTy).Contents (Elt F) → (⟨S50000x128, .f32⟩ : BufTy).Contents (Elt F) → (⟨S50000x128, .f32⟩ : BufTy).Contents (Elt F)),
    unary main_arg6 main_v113 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v113 main_v114 rfl shapeCasts_S1x128x128_S128x128,
    binary main_v112 main_v114 main_v115 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v29 main_v116 (broadcastInDim S800000x1 ![0] bcast_S800000_S800000x1_0 : (⟨S800000, .f32⟩ : BufTy).Contents (Elt F) → (⟨S800000x1, .f32⟩ : BufTy).Contents (Elt F)),
    nullary main_c_22 (constantI S_ 32 0#32),
    unary main_c_22 main_v117 (broadcastInDim S800000 ![] bcast_S_S800000 : (⟨S_, .i32⟩ : BufTy).Contents (Elt F) → (⟨S800000, .i32⟩ : BufTy).Contents (Elt F)),
    binary main_v1 main_v117 main_v118 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v119 (broadcastInDim S800000 ![] bcast_S_S800000 : (⟨S_, .i32⟩ : BufTy).Contents (Elt F) → (⟨S800000, .i32⟩ : BufTy).Contents (Elt F)),
    binary main_v1 main_v119 main_v120 (addi : (⟨S800000, .i32⟩ : BufTy).Contents (Elt F) → (⟨S800000, .i32⟩ : BufTy).Contents (Elt F) → (⟨S800000, .i32⟩ : BufTy).Contents (Elt F)),
    ternary main_v118 main_v120 main_v1 main_v121 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v121 main_v122 (broadcastInDim S800000x1 ![0] bcast_S800000_S800000x1_0 : (⟨S800000, .i32⟩ : BufTy).Contents (Elt F) → (⟨S800000x1, .i32⟩ : BufTy).Contents (Elt F)),
    binary main_v112 main_v122 main_v123 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v116 main_v124 (broadcastInDim S800000x128 ![0, 1] bcast_S800000x1_S800000x128_0_1 : (⟨S800000x1, .f32⟩ : BufTy).Contents (Elt F) → (⟨S800000x128, .f32⟩ : BufTy).Contents (Elt F)),
    binary main_v124 main_v123 main_v125 (mulf : (⟨S800000x128, .f32⟩ : BufTy).Contents (Elt F) → (⟨S800000x128, .f32⟩ : BufTy).Contents (Elt F) → (⟨S800000x128, .f32⟩ : BufTy).Contents (Elt F)),
    nullary main_cst_24 (constant S_ .f32 0x00000000#32),
    unary main_cst_24 main_v126 (broadcastInDim S50000x128 ![] bcast_S_S50000x128 : (⟨S_, .f32⟩ : BufTy).Contents (Elt F) → (⟨S50000x128, .f32⟩ : BufTy).Contents (Elt F)),
    unary main_v3 main_v127 (broadcastInDim S800000x1 ![0] bcast_S800000_S800000x1_0 : (⟨S800000, .i32⟩ : BufTy).Contents (Elt F) → (⟨S800000x1, .i32⟩ : BufTy).Contents (Elt F)),
    ternary main_v126 main_v127 main_v125 main_v128 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg6 main_v129 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v129 main_v130 rfl shapeCasts_S1x128x128_S128x128,
    binary main_v128 main_v130 main_v131 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v115 main_v131 main_v132 (addf : (⟨S50000x128, .f32⟩ : BufTy).Contents (Elt F) → (⟨S50000x128, .f32⟩ : BufTy).Contents (Elt F) → (⟨S50000x128, .f32⟩ : BufTy).Contents (Elt F)),
    unary main_v29 main_v133 (broadcastInDim S800000x1 ![0] bcast_S800000_S800000x1_0 : (⟨S800000, .f32⟩ : BufTy).Contents (Elt F) → (⟨S800000x1, .f32⟩ : BufTy).Contents (Elt F)),
    nullary main_c_25 (constantI S_ 32 0#32),
    unary main_c_25 main_v134 (broadcastInDim S800000 ![] bcast_S_S800000 : (⟨S_, .i32⟩ : BufTy).Contents (Elt F) → (⟨S800000, .i32⟩ : BufTy).Contents (Elt F)),
    binary main_v1 main_v134 main_v135 (cmpi .slt : (⟨S800000, .i32⟩ : BufTy).Contents (Elt F) → (⟨S800000, .i32⟩ : BufTy).Contents (Elt F) → (⟨S800000, .i1⟩ : BufTy).Contents (Elt F)),
    nullary main_c_26 (constantI S_ 32 50000#32),
    unary main_c_26 main_v136 (broadcastInDim S800000 ![] bcast_S_S800000 : (⟨S_, .i32⟩ : BufTy).Contents (Elt F) → (⟨S800000, .i32⟩ : BufTy).Contents (Elt F)),
    binary main_v1 main_v136 main_v137 (addi : (⟨S800000, .i32⟩ : BufTy).Contents (Elt F) → (⟨S800000, .i32⟩ : BufTy).Contents (Elt F) → (⟨S800000, .i32⟩ : BufTy).Contents (Elt F)),
    ternary main_v135 main_v137 main_v1 main_v138 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v138 main_v139 (broadcastInDim S800000x1 ![0] bcast_S800000_S800000x1_0 : (⟨S800000, .i32⟩ : BufTy).Contents (Elt F) → (⟨S800000x1, .i32⟩ : BufTy).Contents (Elt F)),
    binary main_v128 main_v139 main_v140 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v133 main_v141 (broadcastInDim S800000x128 ![0, 1] bcast_S800000x1_S800000x128_0_1 : (⟨S800000x1, .f32⟩ : BufTy).Contents (Elt F) → (⟨S800000x128, .f32⟩ : BufTy).Contents (Elt F)),
    binary main_v141 main_v140 main_v142 (mulf : (⟨S800000x128, .f32⟩ : BufTy).Contents (Elt F) → (⟨S800000x128, .f32⟩ : BufTy).Contents (Elt F) → (⟨S800000x128, .f32⟩ : BufTy).Contents (Elt F)),
    nullary main_cst_27 (constant S_ .f32 0x00000000#32),
    unary main_cst_27 main_v143 (broadcastInDim S50000x128 ![] bcast_S_S50000x128 : (⟨S_, .f32⟩ : BufTy).Contents (Elt F) → (⟨S50000x128, .f32⟩ : BufTy).Contents (Elt F)),
    unary main_v3 main_v144 (broadcastInDim S800000x1 ![0] bcast_S800000_S800000x1_0 : (⟨S800000, .i32⟩ : BufTy).Contents (Elt F) → (⟨S800000x1, .i32⟩ : BufTy).Contents (Elt F)),
    ternary main_v143 main_v144 main_v142 main_v145 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_28 (constant S_ .f32 0x40000000#32),
    unary main_cst_28 main_v146 (broadcastInDim S50000x128 ![] bcast_S_S50000x128 : (⟨S_, .f32⟩ : BufTy).Contents (Elt F) → (⟨S50000x128, .f32⟩ : BufTy).Contents (Elt F)),
    binary main_v146 main_v145 main_v147 (mulf : (⟨S50000x128, .f32⟩ : BufTy).Contents (Elt F) → (⟨S50000x128, .f32⟩ : BufTy).Contents (Elt F) → (⟨S50000x128, .f32⟩ : BufTy).Contents (Elt F)),
    binary main_v147 main_v112 main_v148 (subf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
theorem main_part2_eq (c : Dev nD) : main_part2 (F := F) c = seq ops2 := by
  simp only [main_part2, fn_where.body, fn_where_0.body, fn_leaky_relu.body, fn_where_1.body, fn_var.body, fn_relu.body, fn_norm.body, seq, bind_assoc, pure_bind]
  try rfl

theorem ops2_sub : (ops2 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub ..⟩

/-- The references window 2 writes, in order. -/
abbrev ops2_W : List (Ref sig .tc) := [main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v98, main_v99, main_v100, main_cst_21, main_v101, main_v102, main_v103, main_v104, main_v105, main_v106, main_v107, main_v108, main_v109, main_v110, main_v111, main_v112, main_v113, main_v114, main_v115, main_v116, main_c_22, main_v117, main_v118, main_c_23, main_v119, main_v120, main_v121, main_v122, main_v123, main_v124, main_v125, main_cst_24, main_v126, main_v127, main_v128, main_v129, main_v130, main_v131, main_v132, main_v133, main_c_25, main_v134, main_v135, main_c_26, main_v136, main_v137, main_v138, main_v139, main_v140, main_v141, main_v142, main_cst_27, main_v143, main_v144, main_v145, main_cst_28, main_v146, main_v147, main_v148]

set_option maxRecDepth 8192 in
set_option maxHeartbeats 4000000 in
theorem ops2_writes : (ops2 : List (HloOp τ sig (Elt F))).Forall fun op =>
    op.writes ⊆ (ops2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- The operations of @main's window 3 (87 of them, calls listed inline). -/
abbrev ops3 : List (HloOp τ sig (Elt F)) :=
  [ unary main_arg6 main_v149 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v149 main_v150 rfl shapeCasts_S1x128x128_S128x128,
    binary main_v148 main_v150 main_v151 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v132 main_v151 main_v152 (addf : (⟨S50000x128, .f32⟩ : BufTy).Contents (Elt F) → (⟨S50000x128, .f32⟩ : BufTy).Contents (Elt F) → (⟨S50000x128, .f32⟩ : BufTy).Contents (Elt F)),
    unary main_v29 main_v153 (broadcastInDim S800000x1 ![0] bcast_S800000_S800000x1_0 : (⟨S800000, .f32⟩ : BufTy).Contents (Elt F) → (⟨S800000x1, .f32⟩ : BufTy).Contents (Elt F)),
    nullary main_c_29 (constantI S_ 32 0#32),
    unary main_c_29 main_v154 (broadcastInDim S800000 ![] bcast_S_S800000 : (⟨S_, .i32⟩ : BufTy).Contents (Elt F) → (⟨S800000, .i32⟩ : BufTy).Contents (Elt F)),
    binary main_v1 main_v154 main_v155 (cmpi .slt : (⟨S800000, .i32⟩ : BufTy).Contents (Elt F) → (⟨S800000, .i32⟩ : BufTy).Contents (Elt F) → (⟨S800000, .i1⟩ : BufTy).Contents (Elt F)),
    nullary main_c_30 (constantI S_ 32 50000#32),
    unary main_c_30 main_v156 (broadcastInDim S800000 ![] bcast_S_S800000 : (⟨S_, .i32⟩ : BufTy).Contents (Elt F) → (⟨S800000, .i32⟩ : BufTy).Contents (Elt F)),
    binary main_v1 main_v156 main_v157 (addi : (⟨S800000, .i32⟩ : BufTy).Contents (Elt F) → (⟨S800000, .i32⟩ : BufTy).Contents (Elt F) → (⟨S800000, .i32⟩ : BufTy).Contents (Elt F)),
    ternary main_v155 main_v157 main_v1 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v158 main_v159 (broadcastInDim S800000x1 ![0] bcast_S800000_S800000x1_0 : (⟨S800000, .i32⟩ : BufTy).Contents (Elt F) → (⟨S800000x1, .i32⟩ : BufTy).Contents (Elt F)),
    binary main_v148 main_v159 main_v160 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v153 main_v161 (broadcastInDim S800000x128 ![0, 1] bcast_S800000x1_S800000x128_0_1 : (⟨S800000x1, .f32⟩ : BufTy).Contents (Elt F) → (⟨S800000x128, .f32⟩ : BufTy).Contents (Elt F)),
    binary main_v161 main_v160 main_v162 (mulf : (⟨S800000x128, .f32⟩ : BufTy).Contents (Elt F) → (⟨S800000x128, .f32⟩ : BufTy).Contents (Elt F) → (⟨S800000x128, .f32⟩ : BufTy).Contents (Elt F)),
    nullary main_cst_31 (constant S_ .f32 0x00000000#32),
    unary main_cst_31 main_v163 (broadcastInDim S50000x128 ![] bcast_S_S50000x128 : (⟨S_, .f32⟩ : BufTy).Contents (Elt F) → (⟨S50000x128, .f32⟩ : BufTy).Contents (Elt F)),
    unary main_v3 main_v164 (broadcastInDim S800000x1 ![0] bcast_S800000_S800000x1_0 : (⟨S800000, .i32⟩ : BufTy).Contents (Elt F) → (⟨S800000x1, .i32⟩ : BufTy).Contents (Elt F)),
    ternary main_v163 main_v164 main_v162 main_v165 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_32 (constant S_ .f32 0x40000000#32),
    unary main_cst_32 main_v166 (broadcastInDim S50000x128 ![] bcast_S_S50000x128 : (⟨S_, .f32⟩ : BufTy).Contents (Elt F) → (⟨S50000x128, .f32⟩ : BufTy).Contents (Elt F)),
    binary main_v166 main_v165 main_v167 (mulf : (⟨S50000x128, .f32⟩ : BufTy).Contents (Elt F) → (⟨S50000x128, .f32⟩ : BufTy).Contents (Elt F) → (⟨S50000x128, .f32⟩ : BufTy).Contents (Elt F)),
    binary main_v167 main_v128 main_v168 (subf : (⟨S50000x128, .f32⟩ : BufTy).Contents (Elt F) → (⟨S50000x128, .f32⟩ : BufTy).Contents (Elt F) → (⟨S50000x128, .f32⟩ : BufTy).Contents (Elt F)),
    unary main_arg6 main_v169 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v169 main_v170 rfl shapeCasts_S1x128x128_S128x128,
    binary main_v168 main_v170 main_v171 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v152 main_v171 main_v172 (addf : (⟨S50000x128, .f32⟩ : BufTy).Contents (Elt F) → (⟨S50000x128, .f32⟩ : BufTy).Contents (Elt F) → (⟨S50000x128, .f32⟩ : BufTy).Contents (Elt F)),
    unary main_arg7 main_v173 (broadcastInDim S1x128 ![1] bcast_S128_S1x128_1 : (⟨S128, .f32⟩ : BufTy).Contents (Elt F) → (⟨S1x128, .f32⟩ : BufTy).Contents (Elt F)),
    unary main_v173 main_v174 (broadcastInDim S50000x128 ![0, 1] bcast_S1x128_S50000x128_0_1 : (⟨S1x128, .f32⟩ : BufTy).Contents (Elt F) → (⟨S50000x128, .f32⟩ : BufTy).Contents (Elt F)),
    binary main_v172 main_v174 main_v175 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v175) main_call3.v0 main_call3.v1 (cmpf .oge),
    TRef.nullary main_call3.cst_0 (constant S_ .f32 0x3C23D70A#32),
    TRef.unary main_call3.cst_0 main_call3.v2 (broadcastInDim S50000x128 ![] bcast_S_S50000x128),
    TRef.binary main_call3.v2 (.of main_v175) main_call3.v3 mulf,
    TRef.ternary main_call3.v1 (.of main_v175) main_call3.v3 main_call3.call0.v0 select,
    nullary main_cst_33 (constant S_ .f32 0x00000000#32),
    binary main_v176 main_cst_33 main_v177 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_34 (constant S_ .f32 0x47435000#32),
    unary main_cst_34 main_v178 (broadcastInDim S128 ![] bcast_S_S128 : (⟨S_, .f32⟩ : BufTy).Contents (Elt F) → (⟨S128, .f32⟩ : BufTy).Contents (Elt F)),
    binary main_v177 main_v178 main_v179 (Host.divf : (⟨S128, .f32⟩ : BufTy).Contents (Elt F) → (⟨S128, .f32⟩ : BufTy).Contents (Elt F) → (⟨S128, .f32⟩ : BufTy).Contents (Elt F)),
    nullary main_c_35 (constantI S_ 32 0#32),
    TRef.nullary main_call4.cst (constant S_ .f32 0x00000000#32),
    TRef.binary (.of main_v176) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (.of main_v176) main_call4.v4 main_call4.v5 subf,
    TRef.binary main_call4.v5 main_call4.v5 main_call4.v6 mulf,
    TRef.unary (.of main_c_35) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v179 main_v181 (broadcastInDim S1x128 ![1] bcast_S128_S1x128_1 : (⟨S128, .f32⟩ : BufTy).Contents (Elt F) → (⟨S1x128, .f32⟩ : BufTy).Contents (Elt F)),
    unary main_v181 main_v182 (broadcastInDim S50000x128 ![0, 1] bcast_S1x128_S50000x128_0_1 : (⟨S1x128, .f32⟩ : BufTy).Contents (Elt F) → (⟨S50000x128, .f32⟩ : BufTy).Contents (Elt F)),
    binary main_v176 main_v182 main_v183 (subf : (⟨S50000x128, .f32⟩ : BufTy).Contents (Elt F) → (⟨S50000x128, .f32⟩ : BufTy).Contents (Elt F) → (⟨S50000x128, .f32⟩ : BufTy).Contents (Elt F)),
    nullary main_cst_36 (constant S_ .f32 0x3727C5AC#32),
    unary main_cst_36 main_v184 (broadcastInDim S128 ![] bcast_S_S128 : (⟨S_, .f32⟩ : BufTy).Contents (Elt F) → (⟨S128, .f32⟩ : BufTy).Contents (Elt F)),
    binary main_v180 main_v184 main_v185 (addf : (⟨S128, .f32⟩ : BufTy).Contents (Elt F) → (⟨S128, .f32⟩ : BufTy).Contents (Elt F) → (⟨S128, .f32⟩ : BufTy).Contents (Elt F)),
    unary main_v185 main_v186 (Host.rsqrt : (⟨S128, .f32⟩ : BufTy).Contents (Elt F) → (⟨S128, .f32⟩ : BufTy).Contents (Elt F)),
    unary main_v186 main_v187 (broadcastInDim S1x128 ![1] bcast_S128_S1x128_1 : (⟨S128, .f32⟩ : BufTy).Contents (Elt F) → (⟨S1x128, .f32⟩ : BufTy).Contents (Elt F)),
    unary main_v187 main_v188 (broadcastInDim S50000x128 ![0, 1] bcast_S1x128_S50000x128_0_1 : (⟨S1x128, .f32⟩ : BufTy).Contents (Elt F) → (⟨S50000x128, .f32⟩ : BufTy).Contents (Elt F)),
    binary main_v183 main_v188 main_v189 (mulf : (⟨S50000x128, .f32⟩ : BufTy).Contents (Elt F) → (⟨S50000x128, .f32⟩ : BufTy).Contents (Elt F) → (⟨S50000x128, .f32⟩ : BufTy).Contents (Elt F)),
    unary main_arg8 main_v190 (broadcastInDim S1x128 ![1] bcast_S128_S1x128_1 : (⟨S128, .f32⟩ : BufTy).Contents (Elt F) → (⟨S1x128, .f32⟩ : BufTy).Contents (Elt F)),
    unary main_v190 main_v191 (broadcastInDim S50000x128 ![0, 1] bcast_S1x128_S50000x128_0_1 : (⟨S1x128, .f32⟩ : BufTy).Contents (Elt F) → (⟨S50000x128, .f32⟩ : BufTy).Contents (Elt F)),
    binary main_v189 main_v191 main_v192 (mulf : (⟨S50000x128, .f32⟩ : BufTy).Contents (Elt F) → (⟨S50000x128, .f32⟩ : BufTy).Contents (Elt F) → (⟨S50000x128, .f32⟩ : BufTy).Contents (Elt F)),
    unary main_arg9 main_v193 (broadcastInDim S1x128 ![1] bcast_S128_S1x128_1 : (⟨S128, .f32⟩ : BufTy).Contents (Elt F) → (⟨S1x128, .f32⟩ : BufTy).Contents (Elt F)),
    unary main_v193 main_v194 (broadcastInDim S50000x128 ![0, 1] bcast_S1x128_S50000x128_0_1 : (⟨S1x128, .f32⟩ : BufTy).Contents (Elt F) → (⟨S50000x128, .f32⟩ : BufTy).Contents (Elt F)),
    binary main_v192 main_v194 main_v195 (addf : (⟨S50000x128, .f32⟩ : BufTy).Contents (Elt F) → (⟨S50000x128, .f32⟩ : BufTy).Contents (Elt F) → (⟨S50000x128, .f32⟩ : BufTy).Contents (Elt F)),
    unary main_arg10 main_v196 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v196 main_v197 rfl shapeCasts_S1x128x128_S128x128,
    binary main_v195 main_v197 main_v198 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v29 main_v199 (broadcastInDim S800000x1 ![0] bcast_S800000_S800000x1_0 : (⟨S800000, .f32⟩ : BufTy).Contents (Elt F) → (⟨S800000x1, .f32⟩ : BufTy).Contents (Elt F)),
    nullary main_c_37 (constantI S_ 32 0#32) ]

set_option maxRecDepth 8192 in
set_option maxHeartbeats 4000000 in
theorem main_part3_eq (c : Dev nD) : main_part3 (F := F) c = seq ops3 := by
  simp only [main_part3, fn_where.body, fn_where_0.body, fn_leaky_relu.body, fn_where_1.body, fn_var.body, fn_relu.body, fn_norm.body, seq, bind_assoc, pure_bind]
  try rfl

theorem ops3_sub : (ops3 : List (HloOp τ sig (Elt F))).Forall fun op => op.bufs ⊆ tcRefs τ sig :=
  ⟨unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., nullary_bufs_sub ..⟩

/-- The references window 3 writes, in order. -/
abbrev ops3_W : List (Ref sig .tc) := [main_v149, main_v150, main_v151, main_v152, main_v153, main_c_29, main_v154, main_v155, main_c_30, main_v156, main_v157, main_v158, main_v159, main_v160, main_v161, main_v162, main_cst_31, main_v163, main_v164, main_v165, main_cst_32, main_v166, main_v167, main_v168, main_v169, main_v170, main_v171, main_v172, main_v173, main_v174, main_v175, main_call3.cst.ref, main_call3.v0.ref, main_call3.v1.ref, main_call3.cst_0.ref, main_call3.v2.ref, main_call3.v3.ref, main_call3.call0.v0.ref, main_cst_33, main_v177, main_cst_34, main_v178, main_v179, main_c_35, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v181, main_v182, main_v183, main_cst_36, main_v184, main_v185, main_v186, main_v187, main_v188, main_v189, main_v190, main_v191, main_v192, main_v193, main_v194, main_v195, main_v196, main_v197, main_v198, main_v199, main_c_37]

set_option maxRecDepth 8192 in
set_option maxHeartbeats 4000000 in
theorem ops3_writes : (ops3 : List (HloOp τ sig (Elt F))).Forall fun op =>
    op.writes ⊆ (ops3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- The operations of @main's window 4 (60 of them, calls listed inline). -/
abbrev ops4 : List (HloOp τ sig (Elt F)) :=
  [ unary main_c_37 main_v200 (broadcastInDim S800000 ![] bcast_S_S800000 : (⟨S_, .i32⟩ : BufTy).Contents (Elt F) → (⟨S800000, .i32⟩ : BufTy).Contents (Elt F)),
    binary main_v1 main_v200 main_v201 (cmpi .slt : (⟨S800000, .i32⟩ : BufTy).Contents (Elt F) → (⟨S800000, .i32⟩ : BufTy).Contents (Elt F) → (⟨S800000, .i1⟩ : BufTy).Contents (Elt F)),
    nullary main_c_38 (constantI S_ 32 50000#32),
    unary main_c_38 main_v202 (broadcastInDim S800000 ![] bcast_S_S800000 : (⟨S_, .i32⟩ : BufTy).Contents (Elt F) → (⟨S800000, .i32⟩ : BufTy).Contents (Elt F)),
    binary main_v1 main_v202 main_v203 (addi : (⟨S800000, .i32⟩ : BufTy).Contents (Elt F) → (⟨S800000, .i32⟩ : BufTy).Contents (Elt F) → (⟨S800000, .i32⟩ : BufTy).Contents (Elt F)),
    ternary main_v201 main_v203 main_v1 main_v204 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v204 main_v205 (broadcastInDim S800000x1 ![0] bcast_S800000_S800000x1_0 : (⟨S800000, .i32⟩ : BufTy).Contents (Elt F) → (⟨S800000x1, .i32⟩ : BufTy).Contents (Elt F)),
    binary main_v195 main_v205 main_v206 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v199 main_v207 (broadcastInDim S800000x128 ![0, 1] bcast_S800000x1_S800000x128_0_1 : (⟨S800000x1, .f32⟩ : BufTy).Contents (Elt F) → (⟨S800000x128, .f32⟩ : BufTy).Contents (Elt F)),
    binary main_v207 main_v206 main_v208 (mulf : (⟨S800000x128, .f32⟩ : BufTy).Contents (Elt F) → (⟨S800000x128, .f32⟩ : BufTy).Contents (Elt F) → (⟨S800000x128, .f32⟩ : BufTy).Contents (Elt F)),
    nullary main_cst_39 (constant S_ .f32 0x00000000#32),
    unary main_cst_39 main_v209 (broadcastInDim S50000x128 ![] bcast_S_S50000x128 : (⟨S_, .f32⟩ : BufTy).Contents (Elt F) → (⟨S50000x128, .f32⟩ : BufTy).Contents (Elt F)),
    unary main_v3 main_v210 (broadcastInDim S800000x1 ![0] bcast_S800000_S800000x1_0 : (⟨S800000, .i32⟩ : BufTy).Contents (Elt F) → (⟨S800000x1, .i32⟩ : BufTy).Contents (Elt F)),
    ternary main_v209 main_v210 main_v208 main_v211 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg10 main_v212 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v212 main_v213 rfl shapeCasts_S1x128x128_S128x128,
    binary main_v211 main_v213 main_v214 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v198 main_v214 main_v215 (addf : (⟨S50000x128, .f32⟩ : BufTy).Contents (Elt F) → (⟨S50000x128, .f32⟩ : BufTy).Contents (Elt F) → (⟨S50000x128, .f32⟩ : BufTy).Contents (Elt F)),
    unary main_v29 main_v216 (broadcastInDim S800000x1 ![0] bcast_S800000_S800000x1_0 : (⟨S800000, .f32⟩ : BufTy).Contents (Elt F) → (⟨S800000x1, .f32⟩ : BufTy).Contents (Elt F)),
    nullary main_c_40 (constantI S_ 32 0#32),
    unary main_c_40 main_v217 (broadcastInDim S800000 ![] bcast_S_S800000 : (⟨S_, .i32⟩ : BufTy).Contents (Elt F) → (⟨S800000, .i32⟩ : BufTy).Contents (Elt F)),
    binary main_v1 main_v217 main_v218 (cmpi .slt : (⟨S800000, .i32⟩ : BufTy).Contents (Elt F) → (⟨S800000, .i32⟩ : BufTy).Contents (Elt F) → (⟨S800000, .i1⟩ : BufTy).Contents (Elt F)),
    nullary main_c_41 (constantI S_ 32 50000#32),
    unary main_c_41 main_v219 (broadcastInDim S800000 ![] bcast_S_S800000 : (⟨S_, .i32⟩ : BufTy).Contents (Elt F) → (⟨S800000, .i32⟩ : BufTy).Contents (Elt F)),
    binary main_v1 main_v219 main_v220 (addi : (⟨S800000, .i32⟩ : BufTy).Contents (Elt F) → (⟨S800000, .i32⟩ : BufTy).Contents (Elt F) → (⟨S800000, .i32⟩ : BufTy).Contents (Elt F)),
    ternary main_v218 main_v220 main_v1 main_v221 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v221 main_v222 (broadcastInDim S800000x1 ![0] bcast_S800000_S800000x1_0 : (⟨S800000, .i32⟩ : BufTy).Contents (Elt F) → (⟨S800000x1, .i32⟩ : BufTy).Contents (Elt F)),
    binary main_v211 main_v222 main_v223 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v216 main_v224 (broadcastInDim S800000x128 ![0, 1] bcast_S800000x1_S800000x128_0_1 : (⟨S800000x1, .f32⟩ : BufTy).Contents (Elt F) → (⟨S800000x128, .f32⟩ : BufTy).Contents (Elt F)),
    binary main_v224 main_v223 main_v225 (mulf : (⟨S800000x128, .f32⟩ : BufTy).Contents (Elt F) → (⟨S800000x128, .f32⟩ : BufTy).Contents (Elt F) → (⟨S800000x128, .f32⟩ : BufTy).Contents (Elt F)),
    nullary main_cst_42 (constant S_ .f32 0x00000000#32),
    unary main_cst_42 main_v226 (broadcastInDim S50000x128 ![] bcast_S_S50000x128 : (⟨S_, .f32⟩ : BufTy).Contents (Elt F) → (⟨S50000x128, .f32⟩ : BufTy).Contents (Elt F)),
    unary main_v3 main_v227 (broadcastInDim S800000x1 ![0] bcast_S800000_S800000x1_0 : (⟨S800000, .i32⟩ : BufTy).Contents (Elt F) → (⟨S800000x1, .i32⟩ : BufTy).Contents (Elt F)),
    ternary main_v226 main_v227 main_v225 main_v228 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_43 (constant S_ .f32 0x40000000#32),
    unary main_cst_43 main_v229 (broadcastInDim S50000x128 ![] bcast_S_S50000x128 : (⟨S_, .f32⟩ : BufTy).Contents (Elt F) → (⟨S50000x128, .f32⟩ : BufTy).Contents (Elt F)),
    binary main_v229 main_v228 main_v230 (mulf : (⟨S50000x128, .f32⟩ : BufTy).Contents (Elt F) → (⟨S50000x128, .f32⟩ : BufTy).Contents (Elt F) → (⟨S50000x128, .f32⟩ : BufTy).Contents (Elt F)),
    binary main_v230 main_v195 main_v231 (subf : (⟨S50000x128, .f32⟩ : BufTy).Contents (Elt F) → (⟨S50000x128, .f32⟩ : BufTy).Contents (Elt F) → (⟨S50000x128, .f32⟩ : BufTy).Contents (Elt F)),
    unary main_arg10 main_v232 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v232 main_v233 rfl shapeCasts_S1x128x128_S128x128,
    binary main_v231 main_v233 main_v234 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v215 main_v234 main_v235 (addf : (⟨S50000x128, .f32⟩ : BufTy).Contents (Elt F) → (⟨S50000x128, .f32⟩ : BufTy).Contents (Elt F) → (⟨S50000x128, .f32⟩ : BufTy).Contents (Elt F)),
    unary main_v29 main_v236 (broadcastInDim S800000x1 ![0] bcast_S800000_S800000x1_0 : (⟨S800000, .f32⟩ : BufTy).Contents (Elt F) → (⟨S800000x1, .f32⟩ : BufTy).Contents (Elt F)),
    nullary main_c_44 (constantI S_ 32 0#32),
    unary main_c_44 main_v237 (broadcastInDim S800000 ![] bcast_S_S800000 : (⟨S_, .i32⟩ : BufTy).Contents (Elt F) → (⟨S800000, .i32⟩ : BufTy).Contents (Elt F)),
    binary main_v1 main_v237 main_v238 (cmpi .slt : (⟨S800000, .i32⟩ : BufTy).Contents (Elt F) → (⟨S800000, .i32⟩ : BufTy).Contents (Elt F) → (⟨S800000, .i1⟩ : BufTy).Contents (Elt F)),
    nullary main_c_45 (constantI S_ 32 50000#32),
    unary main_c_45 main_v239 (broadcastInDim S800000 ![] bcast_S_S800000 : (⟨S_, .i32⟩ : BufTy).Contents (Elt F) → (⟨S800000, .i32⟩ : BufTy).Contents (Elt F)),
    binary main_v1 main_v239 main_v240 (addi : (⟨S800000, .i32⟩ : BufTy).Contents (Elt F) → (⟨S800000, .i32⟩ : BufTy).Contents (Elt F) → (⟨S800000, .i32⟩ : BufTy).Contents (Elt F)),
    ternary main_v238 main_v240 main_v1 main_v241 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v241 main_v242 (broadcastInDim S800000x1 ![0] bcast_S800000_S800000x1_0 : (⟨S800000, .i32⟩ : BufTy).Contents (Elt F) → (⟨S800000x1, .i32⟩ : BufTy).Contents (Elt F)),
    binary main_v231 main_v242 main_v243 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v236 main_v244 (broadcastInDim S800000x128 ![0, 1] bcast_S800000x1_S800000x128_0_1 : (⟨S800000x1, .f32⟩ : BufTy).Contents (Elt F) → (⟨S800000x128, .f32⟩ : BufTy).Contents (Elt F)),
    binary main_v244 main_v243 main_v245 (mulf : (⟨S800000x128, .f32⟩ : BufTy).Contents (Elt F) → (⟨S800000x128, .f32⟩ : BufTy).Contents (Elt F) → (⟨S800000x128, .f32⟩ : BufTy).Contents (Elt F)),
    nullary main_cst_46 (constant S_ .f32 0x00000000#32),
    unary main_cst_46 main_v246 (broadcastInDim S50000x128 ![] bcast_S_S50000x128 : (⟨S_, .f32⟩ : BufTy).Contents (Elt F) → (⟨S50000x128, .f32⟩ : BufTy).Contents (Elt F)),
    unary main_v3 main_v247 (broadcastInDim S800000x1 ![0] bcast_S800000_S800000x1_0 : (⟨S800000, .i32⟩ : BufTy).Contents (Elt F) → (⟨S800000x1, .i32⟩ : BufTy).Contents (Elt F)),
    ternary main_v246 main_v247 main_v245 main_v248 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_47 (constant S_ .f32 0x40000000#32),
    unary main_cst_47 main_v249 (broadcastInDim S50000x128 ![] bcast_S_S50000x128 : (⟨S_, .f32⟩ : BufTy).Contents (Elt F) → (⟨S50000x128, .f32⟩ : BufTy).Contents (Elt F)) ]

set_option maxRecDepth 8192 in
set_option maxHeartbeats 4000000 in
theorem main_part4_eq (c : Dev nD) : main_part4 (F := F) c = seq ops4 := by
  simp only [main_part4, fn_where.body, fn_where_0.body, fn_leaky_relu.body, fn_where_1.body, fn_var.body, fn_relu.body, fn_norm.body, seq, bind_assoc, pure_bind]
  try rfl

theorem ops4_sub : (ops4 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub ..⟩

/-- The references window 4 writes, in order. -/
abbrev ops4_W : List (Ref sig .tc) := [main_v200, main_v201, main_c_38, main_v202, main_v203, main_v204, main_v205, main_v206, main_v207, main_v208, main_cst_39, main_v209, main_v210, main_v211, main_v212, main_v213, main_v214, main_v215, main_v216, main_c_40, main_v217, main_v218, main_c_41, main_v219, main_v220, main_v221, main_v222, main_v223, main_v224, main_v225, main_cst_42, main_v226, main_v227, main_v228, main_cst_43, main_v229, main_v230, main_v231, main_v232, main_v233, main_v234, main_v235, main_v236, main_c_44, main_v237, main_v238, main_c_45, main_v239, main_v240, main_v241, main_v242, main_v243, main_v244, main_v245, main_cst_46, main_v246, main_v247, main_v248, main_cst_47, main_v249]

set_option maxRecDepth 8192 in
set_option maxHeartbeats 4000000 in
theorem ops4_writes : (ops4 : List (HloOp τ sig (Elt F))).Forall fun op =>
    op.writes ⊆ (ops4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- The operations of @main's window 5 (83 of them, calls listed inline). -/
abbrev ops5 : List (HloOp τ sig (Elt F)) :=
  [ binary main_v249 main_v248 main_v250 (mulf : (⟨S50000x128, .f32⟩ : BufTy).Contents (Elt F) → (⟨S50000x128, .f32⟩ : BufTy).Contents (Elt F) → (⟨S50000x128, .f32⟩ : BufTy).Contents (Elt F)),
    binary main_v250 main_v211 main_v251 (subf : (⟨S50000x128, .f32⟩ : BufTy).Contents (Elt F) → (⟨S50000x128, .f32⟩ : BufTy).Contents (Elt F) → (⟨S50000x128, .f32⟩ : BufTy).Contents (Elt F)),
    unary main_arg10 main_v252 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v252 main_v253 rfl shapeCasts_S1x128x128_S128x128,
    binary main_v251 main_v253 main_v254 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v235 main_v254 main_v255 (addf : (⟨S50000x128, .f32⟩ : BufTy).Contents (Elt F) → (⟨S50000x128, .f32⟩ : BufTy).Contents (Elt F) → (⟨S50000x128, .f32⟩ : BufTy).Contents (Elt F)),
    unary main_arg11 main_v256 (broadcastInDim S1x128 ![1] bcast_S128_S1x128_1 : (⟨S128, .f32⟩ : BufTy).Contents (Elt F) → (⟨S1x128, .f32⟩ : BufTy).Contents (Elt F)),
    unary main_v256 main_v257 (broadcastInDim S50000x128 ![0, 1] bcast_S1x128_S50000x128_0_1 : (⟨S1x128, .f32⟩ : BufTy).Contents (Elt F) → (⟨S50000x128, .f32⟩ : BufTy).Contents (Elt F)),
    binary main_v255 main_v257 main_v258 (addf : (⟨S50000x128, .f32⟩ : BufTy).Contents (Elt F) → (⟨S50000x128, .f32⟩ : BufTy).Contents (Elt F) → (⟨S50000x128, .f32⟩ : BufTy).Contents (Elt F)),
    TRef.nullary main_call5.cst (constant S_ .f32 0x00000000#32),
    TRef.unary main_call5.cst main_call5.v0 (broadcastInDim S50000x128 ![] bcast_S_S50000x128),
    TRef.binary (.of main_v258) main_call5.v0 main_call5.v1 maximumf,
    nullary main_cst_48 (constant S_ .f32 0x00000000#32),
    binary main_v259 main_cst_48 main_v260 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_49 (constant S_ .f32 0x47435000#32),
    unary main_cst_49 main_v261 (broadcastInDim S128 ![] bcast_S_S128 : (⟨S_, .f32⟩ : BufTy).Contents (Elt F) → (⟨S128, .f32⟩ : BufTy).Contents (Elt F)),
    binary main_v260 main_v261 main_v262 (Host.divf : (⟨S128, .f32⟩ : BufTy).Contents (Elt F) → (⟨S128, .f32⟩ : BufTy).Contents (Elt F) → (⟨S128, .f32⟩ : BufTy).Contents (Elt F)),
    nullary main_c_50 (constantI S_ 32 0#32),
    TRef.nullary main_call6.cst (constant S_ .f32 0x00000000#32),
    TRef.binary (.of main_v259) main_call6.cst main_call6.v0 (fun x v => Host.reduceAdd x v reducesTo_S50000x128_S128_d0 h_S_),
    TRef.unary main_call6.v0 main_call6.v1 (broadcastInDim S1x128 ![1] bcast_S128_S1x128_1),
    TRef.nullary main_call6.cst_0 (constant S_ .f32 0x47435000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S50000x128 ![0, 1] bcast_S1x128_S50000x128_0_1),
    TRef.binary (.of main_v259) main_call6.v4 main_call6.v5 subf,
    TRef.binary main_call6.v5 main_call6.v5 main_call6.v6 mulf,
    TRef.unary (.of main_c_50) main_call6.v7 (sitofp .f32),
    TRef.nullary main_call6.cst_1 (constant S_ .f32 0x47435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S50000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S128 ![] bcast_S_S128),
    TRef.ternary main_call6.v12 main_call6.v11 main_call6.call0.v1 main_call6.call0.v2 (fun p a b => select (broadcastInDim S128 ![] bcast_S_S128 p) a b),
    unary main_v262 main_v264 (broadcastInDim S1x128 ![1] bcast_S128_S1x128_1 : (⟨S128, .f32⟩ : BufTy).Contents (Elt F) → (⟨S1x128, .f32⟩ : BufTy).Contents (Elt F)),
    unary main_v264 main_v265 (broadcastInDim S50000x128 ![0, 1] bcast_S1x128_S50000x128_0_1 : (⟨S1x128, .f32⟩ : BufTy).Contents (Elt F) → (⟨S50000x128, .f32⟩ : BufTy).Contents (Elt F)),
    binary main_v259 main_v265 main_v266 (subf : (⟨S50000x128, .f32⟩ : BufTy).Contents (Elt F) → (⟨S50000x128, .f32⟩ : BufTy).Contents (Elt F) → (⟨S50000x128, .f32⟩ : BufTy).Contents (Elt F)),
    nullary main_cst_51 (constant S_ .f32 0x3727C5AC#32),
    unary main_cst_51 main_v267 (broadcastInDim S128 ![] bcast_S_S128 : (⟨S_, .f32⟩ : BufTy).Contents (Elt F) → (⟨S128, .f32⟩ : BufTy).Contents (Elt F)),
    binary main_v263 main_v267 main_v268 (addf : (⟨S128, .f32⟩ : BufTy).Contents (Elt F) → (⟨S128, .f32⟩ : BufTy).Contents (Elt F) → (⟨S128, .f32⟩ : BufTy).Contents (Elt F)),
    unary main_v268 main_v269 (Host.rsqrt : (⟨S128, .f32⟩ : BufTy).Contents (Elt F) → (⟨S128, .f32⟩ : BufTy).Contents (Elt F)),
    unary main_v269 main_v270 (broadcastInDim S1x128 ![1] bcast_S128_S1x128_1 : (⟨S128, .f32⟩ : BufTy).Contents (Elt F) → (⟨S1x128, .f32⟩ : BufTy).Contents (Elt F)),
    unary main_v270 main_v271 (broadcastInDim S50000x128 ![0, 1] bcast_S1x128_S50000x128_0_1 : (⟨S1x128, .f32⟩ : BufTy).Contents (Elt F) → (⟨S50000x128, .f32⟩ : BufTy).Contents (Elt F)),
    binary main_v266 main_v271 main_v272 (mulf : (⟨S50000x128, .f32⟩ : BufTy).Contents (Elt F) → (⟨S50000x128, .f32⟩ : BufTy).Contents (Elt F) → (⟨S50000x128, .f32⟩ : BufTy).Contents (Elt F)),
    unary main_arg12 main_v273 (broadcastInDim S1x128 ![1] bcast_S128_S1x128_1 : (⟨S128, .f32⟩ : BufTy).Contents (Elt F) → (⟨S1x128, .f32⟩ : BufTy).Contents (Elt F)),
    unary main_v273 main_v274 (broadcastInDim S50000x128 ![0, 1] bcast_S1x128_S50000x128_0_1 : (⟨S1x128, .f32⟩ : BufTy).Contents (Elt F) → (⟨S50000x128, .f32⟩ : BufTy).Contents (Elt F)),
    binary main_v272 main_v274 main_v275 (mulf : (⟨S50000x128, .f32⟩ : BufTy).Contents (Elt F) → (⟨S50000x128, .f32⟩ : BufTy).Contents (Elt F) → (⟨S50000x128, .f32⟩ : BufTy).Contents (Elt F)),
    unary main_arg13 main_v276 (broadcastInDim S1x128 ![1] bcast_S128_S1x128_1 : (⟨S128, .f32⟩ : BufTy).Contents (Elt F) → (⟨S1x128, .f32⟩ : BufTy).Contents (Elt F)),
    unary main_v276 main_v277 (broadcastInDim S50000x128 ![0, 1] bcast_S1x128_S50000x128_0_1 : (⟨S1x128, .f32⟩ : BufTy).Contents (Elt F) → (⟨S50000x128, .f32⟩ : BufTy).Contents (Elt F)),
    binary main_v275 main_v277 main_v278 (addf : (⟨S50000x128, .f32⟩ : BufTy).Contents (Elt F) → (⟨S50000x128, .f32⟩ : BufTy).Contents (Elt F) → (⟨S50000x128, .f32⟩ : BufTy).Contents (Elt F)),
    unary main_arg14 main_v279 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v279 main_v280 rfl shapeCasts_S1x128x128_S128x128,
    binary main_v278 main_v280 main_v281 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v29 main_v282 (broadcastInDim S800000x1 ![0] bcast_S800000_S800000x1_0 : (⟨S800000, .f32⟩ : BufTy).Contents (Elt F) → (⟨S800000x1, .f32⟩ : BufTy).Contents (Elt F)),
    nullary main_c_52 (constantI S_ 32 0#32),
    unary main_c_52 main_v283 (broadcastInDim S800000 ![] bcast_S_S800000 : (⟨S_, .i32⟩ : BufTy).Contents (Elt F) → (⟨S800000, .i32⟩ : BufTy).Contents (Elt F)),
    binary main_v1 main_v283 main_v284 (cmpi .slt : (⟨S800000, .i32⟩ : BufTy).Contents (Elt F) → (⟨S800000, .i32⟩ : BufTy).Contents (Elt F) → (⟨S800000, .i1⟩ : BufTy).Contents (Elt F)),
    nullary main_c_53 (constantI S_ 32 50000#32),
    unary main_c_53 main_v285 (broadcastInDim S800000 ![] bcast_S_S800000 : (⟨S_, .i32⟩ : BufTy).Contents (Elt F) → (⟨S800000, .i32⟩ : BufTy).Contents (Elt F)),
    binary main_v1 main_v285 main_v286 (addi : (⟨S800000, .i32⟩ : BufTy).Contents (Elt F) → (⟨S800000, .i32⟩ : BufTy).Contents (Elt F) → (⟨S800000, .i32⟩ : BufTy).Contents (Elt F)),
    ternary main_v284 main_v286 main_v1 main_v287 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v287 main_v288 (broadcastInDim S800000x1 ![0] bcast_S800000_S800000x1_0 : (⟨S800000, .i32⟩ : BufTy).Contents (Elt F) → (⟨S800000x1, .i32⟩ : BufTy).Contents (Elt F)),
    binary main_v278 main_v288 main_v289 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v282 main_v290 (broadcastInDim S800000x128 ![0, 1] bcast_S800000x1_S800000x128_0_1 : (⟨S800000x1, .f32⟩ : BufTy).Contents (Elt F) → (⟨S800000x128, .f32⟩ : BufTy).Contents (Elt F)),
    binary main_v290 main_v289 main_v291 (mulf : (⟨S800000x128, .f32⟩ : BufTy).Contents (Elt F) → (⟨S800000x128, .f32⟩ : BufTy).Contents (Elt F) → (⟨S800000x128, .f32⟩ : BufTy).Contents (Elt F)),
    nullary main_cst_54 (constant S_ .f32 0x00000000#32),
    unary main_cst_54 main_v292 (broadcastInDim S50000x128 ![] bcast_S_S50000x128 : (⟨S_, .f32⟩ : BufTy).Contents (Elt F) → (⟨S50000x128, .f32⟩ : BufTy).Contents (Elt F)),
    unary main_v3 main_v293 (broadcastInDim S800000x1 ![0] bcast_S800000_S800000x1_0 : (⟨S800000, .i32⟩ : BufTy).Contents (Elt F) → (⟨S800000x1, .i32⟩ : BufTy).Contents (Elt F)),
    ternary main_v292 main_v293 main_v291 main_v294 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg14 main_v295 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v295 main_v296 rfl shapeCasts_S1x128x128_S128x128,
    binary main_v294 main_v296 main_v297 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v281 main_v297 main_v298 (addf : (⟨S50000x128, .f32⟩ : BufTy).Contents (Elt F) → (⟨S50000x128, .f32⟩ : BufTy).Contents (Elt F) → (⟨S50000x128, .f32⟩ : BufTy).Contents (Elt F)),
    unary main_v29 main_v299 (broadcastInDim S800000x1 ![0] bcast_S800000_S800000x1_0 : (⟨S800000, .f32⟩ : BufTy).Contents (Elt F) → (⟨S800000x1, .f32⟩ : BufTy).Contents (Elt F)),
    nullary main_c_55 (constantI S_ 32 0#32),
    unary main_c_55 main_v300 (broadcastInDim S800000 ![] bcast_S_S800000 : (⟨S_, .i32⟩ : BufTy).Contents (Elt F) → (⟨S800000, .i32⟩ : BufTy).Contents (Elt F)),
    binary main_v1 main_v300 main_v301 (cmpi .slt : (⟨S800000, .i32⟩ : BufTy).Contents (Elt F) → (⟨S800000, .i32⟩ : BufTy).Contents (Elt F) → (⟨S800000, .i1⟩ : BufTy).Contents (Elt F)) ]

set_option maxRecDepth 8192 in
set_option maxHeartbeats 4000000 in
theorem main_part5_eq (c : Dev nD) : main_part5 (F := F) c = seq ops5 := by
  simp only [main_part5, fn_where.body, fn_where_0.body, fn_leaky_relu.body, fn_where_1.body, fn_var.body, fn_relu.body, fn_norm.body, seq, bind_assoc, pure_bind]
  try rfl

theorem ops5_sub : (ops5 : List (HloOp τ sig (Elt F))).Forall fun op => op.bufs ⊆ tcRefs τ sig :=
  ⟨binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub ..⟩

/-- The references window 5 writes, in order. -/
abbrev ops5_W : List (Ref sig .tc) := [main_v250, main_v251, main_v252, main_v253, main_v254, main_v255, main_v256, main_v257, main_v258, main_call5.cst.ref, main_call5.v0.ref, main_call5.v1.ref, main_cst_48, main_v260, main_cst_49, main_v261, main_v262, main_c_50, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref, main_v264, main_v265, main_v266, main_cst_51, main_v267, main_v268, main_v269, main_v270, main_v271, main_v272, main_v273, main_v274, main_v275, main_v276, main_v277, main_v278, main_v279, main_v280, main_v281, main_v282, main_c_52, main_v283, main_v284, main_c_53, main_v285, main_v286, main_v287, main_v288, main_v289, main_v290, main_v291, main_cst_54, main_v292, main_v293, main_v294, main_v295, main_v296, main_v297, main_v298, main_v299, main_c_55, main_v300, main_v301]

set_option maxRecDepth 8192 in
set_option maxHeartbeats 4000000 in
theorem ops5_writes : (ops5 : List (HloOp τ sig (Elt F))).Forall fun op =>
    op.writes ⊆ (ops5_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- The operations of @main's window 6 (61 of them, calls listed inline). -/
abbrev ops6 : List (HloOp τ sig (Elt F)) :=
  [ nullary main_c_56 (constantI S_ 32 50000#32),
    unary main_c_56 main_v302 (broadcastInDim S800000 ![] bcast_S_S800000 : (⟨S_, .i32⟩ : BufTy).Contents (Elt F) → (⟨S800000, .i32⟩ : BufTy).Contents (Elt F)),
    binary main_v1 main_v302 main_v303 (addi : (⟨S800000, .i32⟩ : BufTy).Contents (Elt F) → (⟨S800000, .i32⟩ : BufTy).Contents (Elt F) → (⟨S800000, .i32⟩ : BufTy).Contents (Elt F)),
    ternary main_v301 main_v303 main_v1 main_v304 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v304 main_v305 (broadcastInDim S800000x1 ![0] bcast_S800000_S800000x1_0 : (⟨S800000, .i32⟩ : BufTy).Contents (Elt F) → (⟨S800000x1, .i32⟩ : BufTy).Contents (Elt F)),
    binary main_v294 main_v305 main_v306 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v299 main_v307 (broadcastInDim S800000x128 ![0, 1] bcast_S800000x1_S800000x128_0_1 : (⟨S800000x1, .f32⟩ : BufTy).Contents (Elt F) → (⟨S800000x128, .f32⟩ : BufTy).Contents (Elt F)),
    binary main_v307 main_v306 main_v308 (mulf : (⟨S800000x128, .f32⟩ : BufTy).Contents (Elt F) → (⟨S800000x128, .f32⟩ : BufTy).Contents (Elt F) → (⟨S800000x128, .f32⟩ : BufTy).Contents (Elt F)),
    nullary main_cst_57 (constant S_ .f32 0x00000000#32),
    unary main_cst_57 main_v309 (broadcastInDim S50000x128 ![] bcast_S_S50000x128 : (⟨S_, .f32⟩ : BufTy).Contents (Elt F) → (⟨S50000x128, .f32⟩ : BufTy).Contents (Elt F)),
    unary main_v3 main_v310 (broadcastInDim S800000x1 ![0] bcast_S800000_S800000x1_0 : (⟨S800000, .i32⟩ : BufTy).Contents (Elt F) → (⟨S800000x1, .i32⟩ : BufTy).Contents (Elt F)),
    ternary main_v309 main_v310 main_v308 main_v311 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_58 (constant S_ .f32 0x40000000#32),
    unary main_cst_58 main_v312 (broadcastInDim S50000x128 ![] bcast_S_S50000x128 : (⟨S_, .f32⟩ : BufTy).Contents (Elt F) → (⟨S50000x128, .f32⟩ : BufTy).Contents (Elt F)),
    binary main_v312 main_v311 main_v313 (mulf : (⟨S50000x128, .f32⟩ : BufTy).Contents (Elt F) → (⟨S50000x128, .f32⟩ : BufTy).Contents (Elt F) → (⟨S50000x128, .f32⟩ : BufTy).Contents (Elt F)),
    binary main_v313 main_v278 main_v314 (subf : (⟨S50000x128, .f32⟩ : BufTy).Contents (Elt F) → (⟨S50000x128, .f32⟩ : BufTy).Contents (Elt F) → (⟨S50000x128, .f32⟩ : BufTy).Contents (Elt F)),
    unary main_arg14 main_v315 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v315 main_v316 rfl shapeCasts_S1x128x128_S128x128,
    binary main_v314 main_v316 main_v317 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v298 main_v317 main_v318 (addf : (⟨S50000x128, .f32⟩ : BufTy).Contents (Elt F) → (⟨S50000x128, .f32⟩ : BufTy).Contents (Elt F) → (⟨S50000x128, .f32⟩ : BufTy).Contents (Elt F)),
    unary main_v29 main_v319 (broadcastInDim S800000x1 ![0] bcast_S800000_S800000x1_0 : (⟨S800000, .f32⟩ : BufTy).Contents (Elt F) → (⟨S800000x1, .f32⟩ : BufTy).Contents (Elt F)),
    nullary main_c_59 (constantI S_ 32 0#32),
    unary main_c_59 main_v320 (broadcastInDim S800000 ![] bcast_S_S800000 : (⟨S_, .i32⟩ : BufTy).Contents (Elt F) → (⟨S800000, .i32⟩ : BufTy).Contents (Elt F)),
    binary main_v1 main_v320 main_v321 (cmpi .slt : (⟨S800000, .i32⟩ : BufTy).Contents (Elt F) → (⟨S800000, .i32⟩ : BufTy).Contents (Elt F) → (⟨S800000, .i1⟩ : BufTy).Contents (Elt F)),
    nullary main_c_60 (constantI S_ 32 50000#32),
    unary main_c_60 main_v322 (broadcastInDim S800000 ![] bcast_S_S800000 : (⟨S_, .i32⟩ : BufTy).Contents (Elt F) → (⟨S800000, .i32⟩ : BufTy).Contents (Elt F)),
    binary main_v1 main_v322 main_v323 (addi : (⟨S800000, .i32⟩ : BufTy).Contents (Elt F) → (⟨S800000, .i32⟩ : BufTy).Contents (Elt F) → (⟨S800000, .i32⟩ : BufTy).Contents (Elt F)),
    ternary main_v321 main_v323 main_v1 main_v324 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v324 main_v325 (broadcastInDim S800000x1 ![0] bcast_S800000_S800000x1_0 : (⟨S800000, .i32⟩ : BufTy).Contents (Elt F) → (⟨S800000x1, .i32⟩ : BufTy).Contents (Elt F)),
    binary main_v314 main_v325 main_v326 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v319 main_v327 (broadcastInDim S800000x128 ![0, 1] bcast_S800000x1_S800000x128_0_1 : (⟨S800000x1, .f32⟩ : BufTy).Contents (Elt F) → (⟨S800000x128, .f32⟩ : BufTy).Contents (Elt F)),
    binary main_v327 main_v326 main_v328 (mulf : (⟨S800000x128, .f32⟩ : BufTy).Contents (Elt F) → (⟨S800000x128, .f32⟩ : BufTy).Contents (Elt F) → (⟨S800000x128, .f32⟩ : BufTy).Contents (Elt F)),
    nullary main_cst_61 (constant S_ .f32 0x00000000#32),
    unary main_cst_61 main_v329 (broadcastInDim S50000x128 ![] bcast_S_S50000x128 : (⟨S_, .f32⟩ : BufTy).Contents (Elt F) → (⟨S50000x128, .f32⟩ : BufTy).Contents (Elt F)),
    unary main_v3 main_v330 (broadcastInDim S800000x1 ![0] bcast_S800000_S800000x1_0 : (⟨S800000, .i32⟩ : BufTy).Contents (Elt F) → (⟨S800000x1, .i32⟩ : BufTy).Contents (Elt F)),
    ternary main_v329 main_v330 main_v328 main_v331 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_62 (constant S_ .f32 0x40000000#32),
    unary main_cst_62 main_v332 (broadcastInDim S50000x128 ![] bcast_S_S50000x128 : (⟨S_, .f32⟩ : BufTy).Contents (Elt F) → (⟨S50000x128, .f32⟩ : BufTy).Contents (Elt F)),
    binary main_v332 main_v331 main_v333 (mulf : (⟨S50000x128, .f32⟩ : BufTy).Contents (Elt F) → (⟨S50000x128, .f32⟩ : BufTy).Contents (Elt F) → (⟨S50000x128, .f32⟩ : BufTy).Contents (Elt F)),
    binary main_v333 main_v294 main_v334 (subf : (⟨S50000x128, .f32⟩ : BufTy).Contents (Elt F) → (⟨S50000x128, .f32⟩ : BufTy).Contents (Elt F) → (⟨S50000x128, .f32⟩ : BufTy).Contents (Elt F)),
    unary main_arg14 main_v335 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v335 main_v336 rfl shapeCasts_S1x128x128_S128x128,
    binary main_v334 main_v336 main_v337 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v318 main_v337 main_v338 (addf : (⟨S50000x128, .f32⟩ : BufTy).Contents (Elt F) → (⟨S50000x128, .f32⟩ : BufTy).Contents (Elt F) → (⟨S50000x128, .f32⟩ : BufTy).Contents (Elt F)),
    unary main_arg15 main_v339 (broadcastInDim S1x128 ![1] bcast_S128_S1x128_1 : (⟨S128, .f32⟩ : BufTy).Contents (Elt F) → (⟨S1x128, .f32⟩ : BufTy).Contents (Elt F)),
    unary main_v339 main_v340 (broadcastInDim S50000x128 ![0, 1] bcast_S1x128_S50000x128_0_1 : (⟨S1x128, .f32⟩ : BufTy).Contents (Elt F) → (⟨S50000x128, .f32⟩ : BufTy).Contents (Elt F)),
    binary main_v338 main_v340 main_v341 (addf : (⟨S50000x128, .f32⟩ : BufTy).Contents (Elt F) → (⟨S50000x128, .f32⟩ : BufTy).Contents (Elt F) → (⟨S50000x128, .f32⟩ : BufTy).Contents (Elt F)),
    TRef.binary (.of main_v341) (.of main_v341) main_call7.v0 mulf,
    TRef.nullary main_call7.cst (constant S_ .f32 0x00000000#32),
    TRef.binary main_call7.v0 main_call7.cst main_call7.v1 (fun x v => Host.reduceAdd x v reducesTo_S50000x128_S50000_d1 h_S_),
    TRef.unary main_call7.v1 main_call7.v2 (broadcastInDim S50000x1 ![0] bcast_S50000_S50000x1_0),
    TRef.unary main_call7.v2 main_call7.v3 Host.sqrt,
    nullary main_cst_63 (constant S_ .f32 0x2B8CBCCC#32),
    unary main_cst_63 main_v343 (broadcastInDim S50000x1 ![] bcast_S_S50000x1 : (⟨S_, .f32⟩ : BufTy).Contents (Elt F) → (⟨S50000x1, .f32⟩ : BufTy).Contents (Elt F)),
    binary main_v342 main_v343 main_v344 (maximumf : (⟨S50000x1, .f32⟩ : BufTy).Contents (Elt F) → (⟨S50000x1, .f32⟩ : BufTy).Contents (Elt F) → (⟨S50000x1, .f32⟩ : BufTy).Contents (Elt F)),
    unary main_v344 main_v345 (broadcastInDim S50000x128 ![0, 1] bcast_S50000x1_S50000x128_0_1 : (⟨S50000x1, .f32⟩ : BufTy).Contents (Elt F) → (⟨S50000x128, .f32⟩ : BufTy).Contents (Elt F)),
    binary main_v341 main_v345 main_v346 (Host.divf : (⟨S50000x128, .f32⟩ : BufTy).Contents (Elt F) → (⟨S50000x128, .f32⟩ : BufTy).Contents (Elt F) → (⟨S50000x128, .f32⟩ : BufTy).Contents (Elt F)),
    binary main_v346 main_arg16 main_v347 ((fun l r => Host.dotGeneral dot_S50000x128_S128x3_S50000x3_1_0_0_1_n_n none l r) : (⟨S50000x128, .f32⟩ : BufTy).Contents (Elt F) → (⟨S128x3, .f32⟩ : BufTy).Contents (Elt F) → (⟨S50000x3, .f32⟩ : BufTy).Contents (Elt F)),
    unary main_arg17 main_v348 (broadcastInDim S1x3 ![1] bcast_S3_S1x3_1 : (⟨S3, .f32⟩ : BufTy).Contents (Elt F) → (⟨S1x3, .f32⟩ : BufTy).Contents (Elt F)),
    unary main_v348 main_v349 (broadcastInDim S50000x3 ![0, 1] bcast_S1x3_S50000x3_0_1 : (⟨S1x3, .f32⟩ : BufTy).Contents (Elt F) → (⟨S50000x3, .f32⟩ : BufTy).Contents (Elt F)),
    binary main_v347 main_v349 main_v350 (addf : (⟨S50000x3, .f32⟩ : BufTy).Contents (Elt F) → (⟨S50000x3, .f32⟩ : BufTy).Contents (Elt F) → (⟨S50000x3, .f32⟩ : BufTy).Contents (Elt F)) ]

set_option maxRecDepth 8192 in
set_option maxHeartbeats 4000000 in
theorem main_part6_eq (c : Dev nD) : main_part6 (F := F) c = seq ops6 := by
  simp only [main_part6, fn_where.body, fn_where_0.body, fn_leaky_relu.body, fn_where_1.body, fn_var.body, fn_relu.body, fn_norm.body, seq, bind_assoc, pure_bind]
  try rfl

theorem ops6_sub : (ops6 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., unary_bufs_sub .., binary_bufs_sub ..⟩

/-- The references window 6 writes, in order. -/
abbrev ops6_W : List (Ref sig .tc) := [main_c_56, main_v302, main_v303, main_v304, main_v305, main_v306, main_v307, main_v308, main_cst_57, main_v309, main_v310, main_v311, main_cst_58, main_v312, main_v313, main_v314, main_v315, main_v316, main_v317, main_v318, main_v319, main_c_59, main_v320, main_v321, main_c_60, main_v322, main_v323, main_v324, main_v325, main_v326, main_v327, main_v328, main_cst_61, main_v329, main_v330, main_v331, main_cst_62, main_v332, main_v333, main_v334, main_v335, main_v336, main_v337, main_v338, main_v339, main_v340, main_v341, main_call7.v0.ref, main_call7.cst.ref, main_call7.v1.ref, main_call7.v2.ref, main_call7.v3.ref, main_cst_63, main_v343, main_v344, main_v345, main_v346, main_v347, main_v348, main_v349, main_v350]

set_option maxRecDepth 8192 in
set_option maxHeartbeats 4000000 in
theorem ops6_writes : (ops6 : List (HloOp τ sig (Elt F))).Forall fun op =>
    op.writes ⊆ (ops6_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- @main's operations: its windows in order. -/
abbrev ops : List (HloOp τ sig (Elt F)) := ops0 ++ (ops1 ++ (ops2 ++ (ops3 ++ (ops4 ++ (ops5 ++ (ops6))))))

theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h]

end Cert.ReferenceIdeal.RefRun

end
-- ==== Proof.RefRun.lean ====
/-
  The reference program's run. Its @main is a straight line of host operations (Proof/RefOps.lean lists them,
  window by window), so every weakly fair execution terminates, faults nowhere, and leaves each TensorCore buffer
  at the fold of the operations over the launch contents. The program is in single-assignment form: each
  operation writes a buffer of its own and none writes an argument, so an argument buffer ends as it was
  launched — the reference's frame.
-/
import proofs.«133509_j41223096107483_1_alg».proof.Defs
import proofs.«133509_j41223096107483_1_alg».proof.Proof.RefOps
import proofs.«133509_j41223096107483_1_alg».proof.Proof.Gen.Pre_finite_inputs
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- Every operation of a literal list determines its result (none only allocates). -/
macro "fresh_list" : tactic =>
  `(tactic| (intro _ h; (repeat (cases h with | head => rfl | tail _ h => ?_)); exact nomatch h))

set_option maxRecDepth 8192 in
set_option maxHeartbeats 4000000 in
theorem ops0_fresh : ∀ op ∈ (ops0 : List (HloOp τ sig (Elt F))), op.fresh = ∅ := by fresh_list
set_option maxRecDepth 8192 in
set_option maxHeartbeats 4000000 in
theorem ops1_fresh : ∀ op ∈ (ops1 : List (HloOp τ sig (Elt F))), op.fresh = ∅ := by fresh_list
set_option maxRecDepth 8192 in
set_option maxHeartbeats 4000000 in
theorem ops2_fresh : ∀ op ∈ (ops2 : List (HloOp τ sig (Elt F))), op.fresh = ∅ := by fresh_list
set_option maxRecDepth 8192 in
set_option maxHeartbeats 4000000 in
theorem ops3_fresh : ∀ op ∈ (ops3 : List (HloOp τ sig (Elt F))), op.fresh = ∅ := by fresh_list
set_option maxRecDepth 8192 in
set_option maxHeartbeats 4000000 in
theorem ops4_fresh : ∀ op ∈ (ops4 : List (HloOp τ sig (Elt F))), op.fresh = ∅ := by fresh_list
set_option maxRecDepth 8192 in
set_option maxHeartbeats 4000000 in
theorem ops5_fresh : ∀ op ∈ (ops5 : List (HloOp τ sig (Elt F))), op.fresh = ∅ := by fresh_list
set_option maxRecDepth 8192 in
set_option maxHeartbeats 4000000 in
theorem ops6_fresh : ∀ op ∈ (ops6 : List (HloOp τ sig (Elt F))), op.fresh = ∅ := by fresh_list

theorem ops_fresh : ∀ op ∈ (ops : List (HloOp τ sig (Elt F))), op.fresh = ∅ := fun op h => by
  simp only [ops, List.mem_append] at h
  rcases h with h | h | h | h | h | h | h
  exacts [ops0_fresh op h, ops1_fresh op h, ops2_fresh op h, ops3_fresh op h, ops4_fresh op h, ops5_fresh op h, ops6_fresh op h]

/-- At the compiled mesh, from any memory with zero counters: every weakly fair execution of @main terminates,
    and each TensorCore buffer ends at the fold of @main's operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- A reference no window writes keeps its contents through the whole line. -/
theorem kept (V : Valuation τ sig (Elt F)) (r : Ref sig .tc)
    (h0 : r ∉ ops0_W := by decide) (h1 : r ∉ ops1_W := by decide) (h2 : r ∉ ops2_W := by decide) (h3 : r ∉ ops3_W := by decide)
    (h4 : r ∉ ops4_W := by decide) (h5 : r ∉ ops5_W := by decide) (h6 : r ∉ ops6_W := by decide) :
    after ops V (Proc.devRef .tc r) = V (Proc.devRef .tc r) := by
  simp only [ops, StableHlo.after_append]
  rw [after_of_writes_sub ops6 _ ops6_writes h6, after_of_writes_sub ops5 _ ops5_writes h5,
    after_of_writes_sub ops4 _ ops4_writes h4, after_of_writes_sub ops3 _ ops3_writes h3,
    after_of_writes_sub ops2 _ ops2_writes h2, after_of_writes_sub ops1 _ ops1_writes h1,
    after_of_writes_sub ops0 _ ops0_writes h0]

end Cert.ReferenceIdeal.RefRun

namespace Cert.Proof.RefClaims

open Idealize.ShloMosaic Idealize.SL.Sem Cert.ReferenceIdeal Cert.ReferenceIdeal.RefRun

set_option maxRecDepth 8192 in
/-- The reference runs to the end, faults nowhere, and its eighteen argument arrays end unchanged. -/
theorem frame_ri : Cert.frame_ReferenceIdeal := fun m ρ _ =>
  (θ_run Cert.ReferenceIdeal.defs _ _).mono
    (fun _ h c => ⟨(h c main_arg0).trans (kept _ main_arg0),
      (h c main_arg1).trans (kept _ main_arg1),
      (h c main_arg2).trans (kept _ main_arg2),
      (h c main_arg3).trans (kept _ main_arg3),
      (h c main_arg4).trans (kept _ main_arg4),
      (h c main_arg5).trans (kept _ main_arg5),
      (h c main_arg6).trans (kept _ main_arg6),
      (h c main_arg7).trans (kept _ main_arg7),
      (h c main_arg8).trans (kept _ main_arg8),
      (h c main_arg9).trans (kept _ main_arg9),
      (h c main_arg10).trans (kept _ main_arg10),
      (h c main_arg11).trans (kept _ main_arg11),
      (h c main_arg12).trans (kept _ main_arg12),
      (h c main_arg13).trans (kept _ main_arg13),
      (h c main_arg14).trans (kept _ main_arg14),
      (h c main_arg15).trans (kept _ main_arg15),
      (h c main_arg16).trans (kept _ main_arg16),
      (h c main_arg17).trans (kept _ main_arg17)⟩)
    (run_main (F := Ideal) m ρ)

end Cert.Proof.RefClaims

end
-- ==== Proof.RefCuts.lean ====
/- The reference's windows of operations cut at the buffers on which the two programs are compared: the edge weights,
   each layer's activations and each layer's normalised output. A window is its pieces in order. -/
import proofs.«133509_j41223096107483_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 41 of window 0. -/
abbrev ops0a : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v1 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.rsqrt : (⟨S50000, .f32⟩ : BufTy).Contents (Elt F) → (⟨S50000, .f32⟩ : BufTy).Contents (Elt F)),
    nullary main_cst_3 (constant S_ .f32 0x00000000#32),
    TRef.unary (.of main_cst_3) main_call0.v0 id,
    TRef.unary main_call0.v0 main_call0.v1 (broadcastInDim S50000 ![] bcast_S_S50000),
    TRef.ternary (.of main_v9) (.of main_v12) main_call0.v1 main_call0.v2 select,
    nullary main_c (constantI S_ 32 0#32),
    unary main_c main_v14 (broadcastInDim S800000 ![] bcast_S_S800000 : (⟨S_, .i32⟩ : BufTy).Contents (Elt F) → (⟨S800000, .i32⟩ : BufTy).Contents (Elt F)),
    binary main_v1 main_v14 main_v15 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v16 (broadcastInDim S800000 ![] bcast_S_S800000 : (⟨S_, .i32⟩ : BufTy).Contents (Elt F) → (⟨S800000, .i32⟩ : BufTy).Contents (Elt F)),
    binary main_v1 main_v16 main_v17 (addi : (⟨S800000, .i32⟩ : BufTy).Contents (Elt F) → (⟨S800000, .i32⟩ : BufTy).Contents (Elt F) → (⟨S800000, .i32⟩ : BufTy).Contents (Elt F)),
    ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v18 main_v19 (broadcastInDim S800000x1 ![0] bcast_S800000_S800000x1_0 : (⟨S800000, .i32⟩ : BufTy).Contents (Elt F) → (⟨S800000x1, .i32⟩ : BufTy).Contents (Elt F)),
    binary main_v13 main_v19 main_v20 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    unary main_v20 main_v21 (Host.negf : (⟨S800000, .f32⟩ : BufTy).Contents (Elt F) → (⟨S800000, .f32⟩ : BufTy).Contents (Elt F)),
    nullary main_c_5 (constantI S_ 32 0#32),
    unary main_c_5 main_v22 (broadcastInDim S800000 ![] bcast_S_S800000 : (⟨S_, .i32⟩ : BufTy).Contents (Elt F) → (⟨S800000, .i32⟩ : BufTy).Contents (Elt F)),
    binary main_v3 main_v22 main_v23 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v24 (broadcastInDim S800000 ![] bcast_S_S800000 : (⟨S_, .i32⟩ : BufTy).Contents (Elt F) → (⟨S800000, .i32⟩ : BufTy).Contents (Elt F)),
    binary main_v3 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_v3 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v13 main_v27 main_v28 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v21 main_v28 main_v29 (mulf : (⟨S800000, .f32⟩ : BufTy).Contents (Elt F) → (⟨S800000, .f32⟩ : BufTy).Contents (Elt F) → (⟨S800000, .f32⟩ : BufTy).Contents (Elt F)) ]

abbrev ops0a_W : List (Ref sig .tc) := [main_v0, main_v1, main_v2, main_v3, main_cst, main_v4, main_cst_0, main_v5, main_v6, main_v7, main_cst_1, main_v8, main_v9, main_cst_2, main_v10, main_v11, main_v12, main_cst_3, main_call0.v0.ref, main_call0.v1.ref, main_call0.v2.ref, main_c, main_v14, main_v15, main_c_4, main_v16, main_v17, main_v18, main_v19, main_v20, main_v21, main_c_5, main_v22, main_v23, main_c_6, main_v24, main_v25, main_v26, main_v27, main_v28, main_v29]
set_option maxRecDepth 8192 in
set_option maxHeartbeats 4000000 in
theorem ops0a_writes : (ops0a : List (HloOp τ sig (Elt F))).Forall fun op => op.writes ⊆ (ops0a_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem ops0a_keep (V : Valuation τ sig (Elt F)) (r : Ref sig .tc) (h : r ∉ ops0a_W := by decide) :
    StableHlo.after ops0a V (Proc.devRef .tc r) = V (Proc.devRef .tc r) := StableHlo.after_of_writes_sub ops0a V ops0a_writes h

/-- Operations 42 … 62 of window 0. -/
abbrev ops0b : List (HloOp τ sig (Elt F)) :=
  [ unary main_arg2 main_v30 ((extractStridedSlice S1x3x128 ![0, 0, 0] · slices_S4x3x128_S1x3x128_0_0_0) : (⟨S4x3x128, .f32⟩ : BufTy).Contents (Elt F) → (⟨S1x3x128, .f32⟩ : BufTy).Contents (Elt F)),
    reshape main_v30 main_v31 rfl shapeCasts_S1x3x128_S3x128,
    binary main_arg0 main_v31 main_v32 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F)),
    unary main_v29 main_v33 (broadcastInDim S800000x1 ![0] bcast_S800000_S800000x1_0 : (⟨S800000, .f32⟩ : BufTy).Contents (Elt F) → (⟨S800000x1, .f32⟩ : BufTy).Contents (Elt F)),
    nullary main_c_7 (constantI S_ 32 0#32),
    unary main_c_7 main_v34 (broadcastInDim S800000 ![] bcast_S_S800000 : (⟨S_, .i32⟩ : BufTy).Contents (Elt F) → (⟨S800000, .i32⟩ : BufTy).Contents (Elt F)),
    binary main_v1 main_v34 main_v35 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v36 (broadcastInDim S800000 ![] bcast_S_S800000 : (⟨S_, .i32⟩ : BufTy).Contents (Elt F) → (⟨S800000, .i32⟩ : BufTy).Contents (Elt F)),
    binary main_v1 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_v1 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_arg0 main_v39 main_v40 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    unary main_v33 main_v41 (broadcastInDim S800000x3 ![0, 1] bcast_S800000x1_S800000x3_0_1 : (⟨S800000x1, .f32⟩ : BufTy).Contents (Elt F) → (⟨S800000x3, .f32⟩ : BufTy).Contents (Elt F)),
    binary main_v41 main_v40 main_v42 (mulf : (⟨S800000x3, .f32⟩ : BufTy).Contents (Elt F) → (⟨S800000x3, .f32⟩ : BufTy).Contents (Elt F) → (⟨S800000x3, .f32⟩ : BufTy).Contents (Elt F)),
    nullary main_cst_9 (constant S_ .f32 0x00000000#32),
    unary main_cst_9 main_v43 (broadcastInDim S50000x3 ![] bcast_S_S50000x3 : (⟨S_, .f32⟩ : BufTy).Contents (Elt F) → (⟨S50000x3, .f32⟩ : BufTy).Contents (Elt F)),
    unary main_v3 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F)),
    unary main_arg2 main_v46 ((extractStridedSlice S1x3x128 ![1, 0, 0] · slices_S4x3x128_S1x3x128_1_0_0) : (⟨S4x3x128, .f32⟩ : BufTy).Contents (Elt F) → (⟨S1x3x128, .f32⟩ : BufTy).Contents (Elt F)),
    reshape main_v46 main_v47 rfl shapeCasts_S1x3x128_S3x128 ]

abbrev ops0b_W : List (Ref sig .tc) := [main_v30, main_v31, main_v32, main_v33, main_c_7, main_v34, main_v35, main_c_8, main_v36, main_v37, main_v38, main_v39, main_v40, main_v41, main_v42, main_cst_9, main_v43, main_v44, main_v45, main_v46, main_v47]
set_option maxRecDepth 8192 in
set_option maxHeartbeats 4000000 in
theorem ops0b_writes : (ops0b : List (HloOp τ sig (Elt F))).Forall fun op => op.writes ⊆ (ops0b_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem ops0b_keep (V : Valuation τ sig (Elt F)) (r : Ref sig .tc) (h : r ∉ ops0b_W := by decide) :
    StableHlo.after ops0b V (Proc.devRef .tc r) = V (Proc.devRef .tc r) := StableHlo.after_of_writes_sub ops0b V ops0b_writes h

set_option maxRecDepth 8192 in
theorem ops0_cut : (ops0 : List (HloOp τ sig (Elt F))) = ops0a ++ (ops0b) := rfl

/-- Operations 1 … 60 of window 1. -/
abbrev ops1a : List (HloOp τ sig (Elt F)) :=
  [ binary main_v45 main_v47 main_v48 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F)),
    binary main_v32 main_v48 main_v49 (addf : (⟨S50000x128, .f32⟩ : BufTy).Contents (Elt F) → (⟨S50000x128, .f32⟩ : BufTy).Contents (Elt F) → (⟨S50000x128, .f32⟩ : BufTy).Contents (Elt F)),
    unary main_v29 main_v50 (broadcastInDim S800000x1 ![0] bcast_S800000_S800000x1_0 : (⟨S800000, .f32⟩ : BufTy).Contents (Elt F) → (⟨S800000x1, .f32⟩ : BufTy).Contents (Elt F)),
    nullary main_c_10 (constantI S_ 32 0#32),
    unary main_c_10 main_v51 (broadcastInDim S800000 ![] bcast_S_S800000 : (⟨S_, .i32⟩ : BufTy).Contents (Elt F) → (⟨S800000, .i32⟩ : BufTy).Contents (Elt F)),
    binary main_v1 main_v51 main_v52 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v53 (broadcastInDim S800000 ![] bcast_S_S800000 : (⟨S_, .i32⟩ : BufTy).Contents (Elt F) → (⟨S800000, .i32⟩ : BufTy).Contents (Elt F)),
    binary main_v1 main_v53 main_v54 (addi : (⟨S800000, .i32⟩ : BufTy).Contents (Elt F) → (⟨S800000, .i32⟩ : BufTy).Contents (Elt F) → (⟨S800000, .i32⟩ : BufTy).Contents (Elt F)),
    ternary main_v52 main_v54 main_v1 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v55 main_v56 (broadcastInDim S800000x1 ![0] bcast_S800000_S800000x1_0 : (⟨S800000, .i32⟩ : BufTy).Contents (Elt F) → (⟨S800000x1, .i32⟩ : BufTy).Contents (Elt F)),
    binary main_v45 main_v56 main_v57 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    unary main_v50 main_v58 (broadcastInDim S800000x3 ![0, 1] bcast_S800000x1_S800000x3_0_1 : (⟨S800000x1, .f32⟩ : BufTy).Contents (Elt F) → (⟨S800000x3, .f32⟩ : BufTy).Contents (Elt F)),
    binary main_v58 main_v57 main_v59 (mulf : (⟨S800000x3, .f32⟩ : BufTy).Contents (Elt F) → (⟨S800000x3, .f32⟩ : BufTy).Contents (Elt F) → (⟨S800000x3, .f32⟩ : BufTy).Contents (Elt F)),
    nullary main_cst_12 (constant S_ .f32 0x00000000#32),
    unary main_cst_12 main_v60 (broadcastInDim S50000x3 ![] bcast_S_S50000x3 : (⟨S_, .f32⟩ : BufTy).Contents (Elt F) → (⟨S50000x3, .f32⟩ : BufTy).Contents (Elt F)),
    unary main_v3 main_v61 (broadcastInDim S800000x1 ![0] bcast_S800000_S800000x1_0 : (⟨S800000, .i32⟩ : BufTy).Contents (Elt F) → (⟨S800000x1, .i32⟩ : BufTy).Contents (Elt F)),
    ternary main_v60 main_v61 main_v59 main_v62 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F)),
    nullary main_cst_13 (constant S_ .f32 0x40000000#32),
    unary main_cst_13 main_v63 (broadcastInDim S50000x3 ![] bcast_S_S50000x3 : (⟨S_, .f32⟩ : BufTy).Contents (Elt F) → (⟨S50000x3, .f32⟩ : BufTy).Contents (Elt F)),
    binary main_v63 main_v62 main_v64 (mulf : (⟨S50000x3, .f32⟩ : BufTy).Contents (Elt F) → (⟨S50000x3, .f32⟩ : BufTy).Contents (Elt F) → (⟨S50000x3, .f32⟩ : BufTy).Contents (Elt F)),
    binary main_v64 main_arg0 main_v65 (subf : (⟨S50000x3, .f32⟩ : BufTy).Contents (Elt F) → (⟨S50000x3, .f32⟩ : BufTy).Contents (Elt F) → (⟨S50000x3, .f32⟩ : BufTy).Contents (Elt F)),
    unary main_arg2 main_v66 ((extractStridedSlice S1x3x128 ![2, 0, 0] · slices_S4x3x128_S1x3x128_2_0_0) : (⟨S4x3x128, .f32⟩ : BufTy).Contents (Elt F) → (⟨S1x3x128, .f32⟩ : BufTy).Contents (Elt F)),
    reshape main_v66 main_v67 rfl shapeCasts_S1x3x128_S3x128,
    binary main_v65 main_v67 main_v68 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F)),
    binary main_v49 main_v68 main_v69 (addf : (⟨S50000x128, .f32⟩ : BufTy).Contents (Elt F) → (⟨S50000x128, .f32⟩ : BufTy).Contents (Elt F) → (⟨S50000x128, .f32⟩ : BufTy).Contents (Elt F)),
    unary main_v29 main_v70 (broadcastInDim S800000x1 ![0] bcast_S800000_S800000x1_0 : (⟨S800000, .f32⟩ : BufTy).Contents (Elt F) → (⟨S800000x1, .f32⟩ : BufTy).Contents (Elt F)),
    nullary main_c_14 (constantI S_ 32 0#32),
    unary main_c_14 main_v71 (broadcastInDim S800000 ![] bcast_S_S800000 : (⟨S_, .i32⟩ : BufTy).Contents (Elt F) → (⟨S800000, .i32⟩ : BufTy).Contents (Elt F)),
    binary main_v1 main_v71 main_v72 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v73 (broadcastInDim S800000 ![] bcast_S_S800000 : (⟨S_, .i32⟩ : BufTy).Contents (Elt F) → (⟨S800000, .i32⟩ : BufTy).Contents (Elt F)),
    binary main_v1 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_v1 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)),
    binary main_v65 main_v76 main_v77 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    unary main_v70 main_v78 (broadcastInDim S800000x3 ![0, 1] bcast_S800000x1_S800000x3_0_1 : (⟨S800000x1, .f32⟩ : BufTy).Contents (Elt F) → (⟨S800000x3, .f32⟩ : BufTy).Contents (Elt F)),
    binary main_v78 main_v77 main_v79 (mulf : (⟨S800000x3, .f32⟩ : BufTy).Contents (Elt F) → (⟨S800000x3, .f32⟩ : BufTy).Contents (Elt F) → (⟨S800000x3, .f32⟩ : BufTy).Contents (Elt F)),
    nullary main_cst_16 (constant S_ .f32 0x00000000#32),
    unary main_cst_16 main_v80 (broadcastInDim S50000x3 ![] bcast_S_S50000x3 : (⟨S_, .f32⟩ : BufTy).Contents (Elt F) → (⟨S50000x3, .f32⟩ : BufTy).Contents (Elt F)),
    unary main_v3 main_v81 (broadcastInDim S800000x1 ![0] bcast_S800000_S800000x1_0 : (⟨S800000, .i32⟩ : BufTy).Contents (Elt F) → (⟨S800000x1, .i32⟩ : BufTy).Contents (Elt F)),
    ternary main_v80 main_v81 main_v79 main_v82 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F)),
    nullary main_cst_17 (constant S_ .f32 0x40000000#32),
    unary main_cst_17 main_v83 (broadcastInDim S50000x3 ![] bcast_S_S50000x3 : (⟨S_, .f32⟩ : BufTy).Contents (Elt F) → (⟨S50000x3, .f32⟩ : BufTy).Contents (Elt F)),
    binary main_v83 main_v82 main_v84 (mulf : (⟨S50000x3, .f32⟩ : BufTy).Contents (Elt F) → (⟨S50000x3, .f32⟩ : BufTy).Contents (Elt F) → (⟨S50000x3, .f32⟩ : BufTy).Contents (Elt F)),
    binary main_v84 main_v45 main_v85 (subf : (⟨S50000x3, .f32⟩ : BufTy).Contents (Elt F) → (⟨S50000x3, .f32⟩ : BufTy).Contents (Elt F) → (⟨S50000x3, .f32⟩ : BufTy).Contents (Elt F)),
    unary main_arg2 main_v86 ((extractStridedSlice S1x3x128 ![3, 0, 0] · slices_S4x3x128_S1x3x128_3_0_0) : (⟨S4x3x128, .f32⟩ : BufTy).Contents (Elt F) → (⟨S1x3x128, .f32⟩ : BufTy).Contents (Elt F)),
    reshape main_v86 main_v87 rfl shapeCasts_S1x3x128_S3x128,
    binary main_v85 main_v87 main_v88 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F)),
    binary main_v69 main_v88 main_v89 (addf : (⟨S50000x128, .f32⟩ : BufTy).Contents (Elt F) → (⟨S50000x128, .f32⟩ : BufTy).Contents (Elt F) → (⟨S50000x128, .f32⟩ : BufTy).Contents (Elt F)),
    unary main_arg3 main_v90 (broadcastInDim S1x128 ![1] bcast_S128_S1x128_1 : (⟨S128, .f32⟩ : BufTy).Contents (Elt F) → (⟨S1x128, .f32⟩ : BufTy).Contents (Elt F)),
    unary main_v90 main_v91 (broadcastInDim S50000x128 ![0, 1] bcast_S1x128_S50000x128_0_1 : (⟨S1x128, .f32⟩ : BufTy).Contents (Elt F) → (⟨S50000x128, .f32⟩ : BufTy).Contents (Elt F)),
    binary main_v89 main_v91 main_v92 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v92) main_call1.v0 main_call1.v1 (cmpf .oge),
    TRef.nullary main_call1.cst_0 (constant S_ .f32 0x3C23D70A#32),
    TRef.unary main_call1.cst_0 main_call1.v2 (broadcastInDim S50000x128 ![] bcast_S_S50000x128),
    TRef.binary main_call1.v2 (.of main_v92) main_call1.v3 mulf,
    TRef.ternary main_call1.v1 (.of main_v92) main_call1.v3 main_call1.call0.v0 select ]

abbrev ops1a_W : List (Ref sig .tc) := [main_v48, main_v49, main_v50, main_c_10, main_v51, main_v52, main_c_11, main_v53, main_v54, main_v55, main_v56, main_v57, main_v58, main_v59, main_cst_12, main_v60, main_v61, main_v62, main_cst_13, main_v63, main_v64, main_v65, main_v66, main_v67, main_v68, main_v69, main_v70, main_c_14, main_v71, main_v72, main_c_15, main_v73, main_v74, main_v75, main_v76, main_v77, main_v78, main_v79, main_cst_16, main_v80, main_v81, main_v82, main_cst_17, main_v83, main_v84, main_v85, main_v86, main_v87, main_v88, main_v89, main_v90, main_v91, main_v92, main_call1.cst.ref, main_call1.v0.ref, main_call1.v1.ref, main_call1.cst_0.ref, main_call1.v2.ref, main_call1.v3.ref, main_call1.call0.v0.ref]
set_option maxRecDepth 8192 in
set_option maxHeartbeats 4000000 in
theorem ops1a_writes : (ops1a : List (HloOp τ sig (Elt F))).Forall fun op => op.writes ⊆ (ops1a_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem ops1a_keep (V : Valuation τ sig (Elt F)) (r : Ref sig .tc) (h : r ∉ ops1a_W := by decide) :
    StableHlo.after ops1a V (Proc.devRef .tc r) = V (Proc.devRef .tc r) := StableHlo.after_of_writes_sub ops1a V ops1a_writes h

/-- Operations 61 … 66 of window 1. -/
abbrev ops1b : List (HloOp τ sig (Elt F)) :=
  [ nullary main_cst_18 (constant S_ .f32 0x00000000#32),
    binary main_v93 main_cst_18 main_v94 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_19 (constant S_ .f32 0x47435000#32),
    unary main_cst_19 main_v95 (broadcastInDim S128 ![] bcast_S_S128 : (⟨S_, .f32⟩ : BufTy).Contents (Elt F) → (⟨S128, .f32⟩ : BufTy).Contents (Elt F)),
    binary main_v94 main_v95 main_v96 (Host.divf : (⟨S128, .f32⟩ : BufTy).Contents (Elt F) → (⟨S128, .f32⟩ : BufTy).Contents (Elt F) → (⟨S128, .f32⟩ : BufTy).Contents (Elt F)),
    nullary main_c_20 (constantI S_ 32 0#32) ]

abbrev ops1b_W : List (Ref sig .tc) := [main_cst_18, main_v94, main_cst_19, main_v95, main_v96, main_c_20]
set_option maxRecDepth 8192 in
set_option maxHeartbeats 4000000 in
theorem ops1b_writes : (ops1b : List (HloOp τ sig (Elt F))).Forall fun op => op.writes ⊆ (ops1b_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem ops1b_keep (V : Valuation τ sig (Elt F)) (r : Ref sig .tc) (h : r ∉ ops1b_W := by decide) :
    StableHlo.after ops1b V (Proc.devRef .tc r) = V (Proc.devRef .tc r) := StableHlo.after_of_writes_sub ops1b V ops1b_writes h

set_option maxRecDepth 8192 in
theorem ops1_cut : (ops1 : List (HloOp τ sig (Elt F))) = ops1a ++ (ops1b) := rfl

/-- Operations 1 … 38 of window 2. -/
abbrev ops2a : List (HloOp τ sig (Elt F)) :=
  [ TRef.nullary main_call2.cst (constant S_ .f32 0x00000000#32),
    TRef.binary (.of main_v93) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v93) main_call2.v4 main_call2.v5 subf,
    TRef.binary main_call2.v5 main_call2.v5 main_call2.v6 mulf,
    TRef.unary (.of main_c_20) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v96 main_v98 (broadcastInDim S1x128 ![1] bcast_S128_S1x128_1 : (⟨S128, .f32⟩ : BufTy).Contents (Elt F) → (⟨S1x128, .f32⟩ : BufTy).Contents (Elt F)),
    unary main_v98 main_v99 (broadcastInDim S50000x128 ![0, 1] bcast_S1x128_S50000x128_0_1 : (⟨S1x128, .f32⟩ : BufTy).Contents (Elt F) → (⟨S50000x128, .f32⟩ : BufTy).Contents (Elt F)),
    binary main_v93 main_v99 main_v100 (subf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v101 (broadcastInDim S128 ![] bcast_S_S128 : (⟨S_, .f32⟩ : BufTy).Contents (Elt F) → (⟨S128, .f32⟩ : BufTy).Contents (Elt F)),
    binary main_v97 main_v101 main_v102 (addf : (⟨S128, .f32⟩ : BufTy).Contents (Elt F) → (⟨S128, .f32⟩ : BufTy).Contents (Elt F) → (⟨S128, .f32⟩ : BufTy).Contents (Elt F)),
    unary main_v102 main_v103 (Host.rsqrt : (⟨S128, .f32⟩ : BufTy).Contents (Elt F) → (⟨S128, .f32⟩ : BufTy).Contents (Elt F)),
    unary main_v103 main_v104 (broadcastInDim S1x128 ![1] bcast_S128_S1x128_1 : (⟨S128, .f32⟩ : BufTy).Contents (Elt F) → (⟨S1x128, .f32⟩ : BufTy).Contents (Elt F)),
    unary main_v104 main_v105 (broadcastInDim S50000x128 ![0, 1] bcast_S1x128_S50000x128_0_1 : (⟨S1x128, .f32⟩ : BufTy).Contents (Elt F) → (⟨S50000x128, .f32⟩ : BufTy).Contents (Elt F)),
    binary main_v100 main_v105 main_v106 (mulf : (⟨S50000x128, .f32⟩ : BufTy).Contents (Elt F) → (⟨S50000x128, .f32⟩ : BufTy).Contents (Elt F) → (⟨S50000x128, .f32⟩ : BufTy).Contents (Elt F)),
    unary main_arg4 main_v107 (broadcastInDim S1x128 ![1] bcast_S128_S1x128_1 : (⟨S128, .f32⟩ : BufTy).Contents (Elt F) → (⟨S1x128, .f32⟩ : BufTy).Contents (Elt F)),
    unary main_v107 main_v108 (broadcastInDim S50000x128 ![0, 1] bcast_S1x128_S50000x128_0_1 : (⟨S1x128, .f32⟩ : BufTy).Contents (Elt F) → (⟨S50000x128, .f32⟩ : BufTy).Contents (Elt F)),
    binary main_v106 main_v108 main_v109 (mulf : (⟨S50000x128, .f32⟩ : BufTy).Contents (Elt F) → (⟨S50000x128, .f32⟩ : BufTy).Contents (Elt F) → (⟨S50000x128, .f32⟩ : BufTy).Contents (Elt F)),
    unary main_arg5 main_v110 (broadcastInDim S1x128 ![1] bcast_S128_S1x128_1 : (⟨S128, .f32⟩ : BufTy).Contents (Elt F) → (⟨S1x128, .f32⟩ : BufTy).Contents (Elt F)),
    unary main_v110 main_v111 (broadcastInDim S50000x128 ![0, 1] bcast_S1x128_S50000x128_0_1 : (⟨S1x128, .f32⟩ : BufTy).Contents (Elt F) → (⟨S50000x128, .f32⟩ : BufTy).Contents (Elt F)),
    binary main_v109 main_v111 main_v112 (addf : (⟨S50000x128, .f32⟩ : BufTy).Contents (Elt F) → (⟨S50000x128, .f32⟩ : BufTy).Contents (Elt F) → (⟨S50000x128, .f32⟩ : BufTy).Contents (Elt F)) ]

abbrev ops2a_W : List (Ref sig .tc) := [main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v98, main_v99, main_v100, main_cst_21, main_v101, main_v102, main_v103, main_v104, main_v105, main_v106, main_v107, main_v108, main_v109, main_v110, main_v111, main_v112]
set_option maxRecDepth 8192 in
set_option maxHeartbeats 4000000 in
theorem ops2a_writes : (ops2a : List (HloOp τ sig (Elt F))).Forall fun op => op.writes ⊆ (ops2a_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem ops2a_keep (V : Valuation τ sig (Elt F)) (r : Ref sig .tc) (h : r ∉ ops2a_W := by decide) :
    StableHlo.after ops2a V (Proc.devRef .tc r) = V (Proc.devRef .tc r) := StableHlo.after_of_writes_sub ops2a V ops2a_writes h

/-- Operations 39 … 81 of window 2. -/
abbrev ops2b : List (HloOp τ sig (Elt F)) :=
  [ unary main_arg6 main_v113 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v113 main_v114 rfl shapeCasts_S1x128x128_S128x128,
    binary main_v112 main_v114 main_v115 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v29 main_v116 (broadcastInDim S800000x1 ![0] bcast_S800000_S800000x1_0 : (⟨S800000, .f32⟩ : BufTy).Contents (Elt F) → (⟨S800000x1, .f32⟩ : BufTy).Contents (Elt F)),
    nullary main_c_22 (constantI S_ 32 0#32),
    unary main_c_22 main_v117 (broadcastInDim S800000 ![] bcast_S_S800000 : (⟨S_, .i32⟩ : BufTy).Contents (Elt F) → (⟨S800000, .i32⟩ : BufTy).Contents (Elt F)),
    binary main_v1 main_v117 main_v118 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v119 (broadcastInDim S800000 ![] bcast_S_S800000 : (⟨S_, .i32⟩ : BufTy).Contents (Elt F) → (⟨S800000, .i32⟩ : BufTy).Contents (Elt F)),
    binary main_v1 main_v119 main_v120 (addi : (⟨S800000, .i32⟩ : BufTy).Contents (Elt F) → (⟨S800000, .i32⟩ : BufTy).Contents (Elt F) → (⟨S800000, .i32⟩ : BufTy).Contents (Elt F)),
    ternary main_v118 main_v120 main_v1 main_v121 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v121 main_v122 (broadcastInDim S800000x1 ![0] bcast_S800000_S800000x1_0 : (⟨S800000, .i32⟩ : BufTy).Contents (Elt F) → (⟨S800000x1, .i32⟩ : BufTy).Contents (Elt F)),
    binary main_v112 main_v122 main_v123 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v116 main_v124 (broadcastInDim S800000x128 ![0, 1] bcast_S800000x1_S800000x128_0_1 : (⟨S800000x1, .f32⟩ : BufTy).Contents (Elt F) → (⟨S800000x128, .f32⟩ : BufTy).Contents (Elt F)),
    binary main_v124 main_v123 main_v125 (mulf : (⟨S800000x128, .f32⟩ : BufTy).Contents (Elt F) → (⟨S800000x128, .f32⟩ : BufTy).Contents (Elt F) → (⟨S800000x128, .f32⟩ : BufTy).Contents (Elt F)),
    nullary main_cst_24 (constant S_ .f32 0x00000000#32),
    unary main_cst_24 main_v126 (broadcastInDim S50000x128 ![] bcast_S_S50000x128 : (⟨S_, .f32⟩ : BufTy).Contents (Elt F) → (⟨S50000x128, .f32⟩ : BufTy).Contents (Elt F)),
    unary main_v3 main_v127 (broadcastInDim S800000x1 ![0] bcast_S800000_S800000x1_0 : (⟨S800000, .i32⟩ : BufTy).Contents (Elt F) → (⟨S800000x1, .i32⟩ : BufTy).Contents (Elt F)),
    ternary main_v126 main_v127 main_v125 main_v128 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg6 main_v129 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v129 main_v130 rfl shapeCasts_S1x128x128_S128x128,
    binary main_v128 main_v130 main_v131 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v115 main_v131 main_v132 (addf : (⟨S50000x128, .f32⟩ : BufTy).Contents (Elt F) → (⟨S50000x128, .f32⟩ : BufTy).Contents (Elt F) → (⟨S50000x128, .f32⟩ : BufTy).Contents (Elt F)),
    unary main_v29 main_v133 (broadcastInDim S800000x1 ![0] bcast_S800000_S800000x1_0 : (⟨S800000, .f32⟩ : BufTy).Contents (Elt F) → (⟨S800000x1, .f32⟩ : BufTy).Contents (Elt F)),
    nullary main_c_25 (constantI S_ 32 0#32),
    unary main_c_25 main_v134 (broadcastInDim S800000 ![] bcast_S_S800000 : (⟨S_, .i32⟩ : BufTy).Contents (Elt F) → (⟨S800000, .i32⟩ : BufTy).Contents (Elt F)),
    binary main_v1 main_v134 main_v135 (cmpi .slt : (⟨S800000, .i32⟩ : BufTy).Contents (Elt F) → (⟨S800000, .i32⟩ : BufTy).Contents (Elt F) → (⟨S800000, .i1⟩ : BufTy).Contents (Elt F)),
    nullary main_c_26 (constantI S_ 32 50000#32),
    unary main_c_26 main_v136 (broadcastInDim S800000 ![] bcast_S_S800000 : (⟨S_, .i32⟩ : BufTy).Contents (Elt F) → (⟨S800000, .i32⟩ : BufTy).Contents (Elt F)),
    binary main_v1 main_v136 main_v137 (addi : (⟨S800000, .i32⟩ : BufTy).Contents (Elt F) → (⟨S800000, .i32⟩ : BufTy).Contents (Elt F) → (⟨S800000, .i32⟩ : BufTy).Contents (Elt F)),
    ternary main_v135 main_v137 main_v1 main_v138 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v138 main_v139 (broadcastInDim S800000x1 ![0] bcast_S800000_S800000x1_0 : (⟨S800000, .i32⟩ : BufTy).Contents (Elt F) → (⟨S800000x1, .i32⟩ : BufTy).Contents (Elt F)),
    binary main_v128 main_v139 main_v140 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v133 main_v141 (broadcastInDim S800000x128 ![0, 1] bcast_S800000x1_S800000x128_0_1 : (⟨S800000x1, .f32⟩ : BufTy).Contents (Elt F) → (⟨S800000x128, .f32⟩ : BufTy).Contents (Elt F)),
    binary main_v141 main_v140 main_v142 (mulf : (⟨S800000x128, .f32⟩ : BufTy).Contents (Elt F) → (⟨S800000x128, .f32⟩ : BufTy).Contents (Elt F) → (⟨S800000x128, .f32⟩ : BufTy).Contents (Elt F)),
    nullary main_cst_27 (constant S_ .f32 0x00000000#32),
    unary main_cst_27 main_v143 (broadcastInDim S50000x128 ![] bcast_S_S50000x128 : (⟨S_, .f32⟩ : BufTy).Contents (Elt F) → (⟨S50000x128, .f32⟩ : BufTy).Contents (Elt F)),
    unary main_v3 main_v144 (broadcastInDim S800000x1 ![0] bcast_S800000_S800000x1_0 : (⟨S800000, .i32⟩ : BufTy).Contents (Elt F) → (⟨S800000x1, .i32⟩ : BufTy).Contents (Elt F)),
    ternary main_v143 main_v144 main_v142 main_v145 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_28 (constant S_ .f32 0x40000000#32),
    unary main_cst_28 main_v146 (broadcastInDim S50000x128 ![] bcast_S_S50000x128 : (⟨S_, .f32⟩ : BufTy).Contents (Elt F) → (⟨S50000x128, .f32⟩ : BufTy).Contents (Elt F)),
    binary main_v146 main_v145 main_v147 (mulf : (⟨S50000x128, .f32⟩ : BufTy).Contents (Elt F) → (⟨S50000x128, .f32⟩ : BufTy).Contents (Elt F) → (⟨S50000x128, .f32⟩ : BufTy).Contents (Elt F)),
    binary main_v147 main_v112 main_v148 (subf : (⟨S50000x128, .f32⟩ : BufTy).Contents (Elt F) → (⟨S50000x128, .f32⟩ : BufTy).Contents (Elt F) → (⟨S50000x128, .f32⟩ : BufTy).Contents (Elt F)) ]

abbrev ops2b_W : List (Ref sig .tc) := [main_v113, main_v114, main_v115, main_v116, main_c_22, main_v117, main_v118, main_c_23, main_v119, main_v120, main_v121, main_v122, main_v123, main_v124, main_v125, main_cst_24, main_v126, main_v127, main_v128, main_v129, main_v130, main_v131, main_v132, main_v133, main_c_25, main_v134, main_v135, main_c_26, main_v136, main_v137, main_v138, main_v139, main_v140, main_v141, main_v142, main_cst_27, main_v143, main_v144, main_v145, main_cst_28, main_v146, main_v147, main_v148]
set_option maxRecDepth 8192 in
set_option maxHeartbeats 4000000 in
theorem ops2b_writes : (ops2b : List (HloOp τ sig (Elt F))).Forall fun op => op.writes ⊆ (ops2b_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem ops2b_keep (V : Valuation τ sig (Elt F)) (r : Ref sig .tc) (h : r ∉ ops2b_W := by decide) :
    StableHlo.after ops2b V (Proc.devRef .tc r) = V (Proc.devRef .tc r) := StableHlo.after_of_writes_sub ops2b V ops2b_writes h

set_option maxRecDepth 8192 in
theorem ops2_cut : (ops2 : List (HloOp τ sig (Elt F))) = ops2a ++ (ops2b) := rfl

/-- Operations 1 … 38 of window 3. -/
abbrev ops3a : List (HloOp τ sig (Elt F)) :=
  [ unary main_arg6 main_v149 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v149 main_v150 rfl shapeCasts_S1x128x128_S128x128,
    binary main_v148 main_v150 main_v151 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v132 main_v151 main_v152 (addf : (⟨S50000x128, .f32⟩ : BufTy).Contents (Elt F) → (⟨S50000x128, .f32⟩ : BufTy).Contents (Elt F) → (⟨S50000x128, .f32⟩ : BufTy).Contents (Elt F)),
    unary main_v29 main_v153 (broadcastInDim S800000x1 ![0] bcast_S800000_S800000x1_0 : (⟨S800000, .f32⟩ : BufTy).Contents (Elt F) → (⟨S800000x1, .f32⟩ : BufTy).Contents (Elt F)),
    nullary main_c_29 (constantI S_ 32 0#32),
    unary main_c_29 main_v154 (broadcastInDim S800000 ![] bcast_S_S800000 : (⟨S_, .i32⟩ : BufTy).Contents (Elt F) → (⟨S800000, .i32⟩ : BufTy).Contents (Elt F)),
    binary main_v1 main_v154 main_v155 (cmpi .slt : (⟨S800000, .i32⟩ : BufTy).Contents (Elt F) → (⟨S800000, .i32⟩ : BufTy).Contents (Elt F) → (⟨S800000, .i1⟩ : BufTy).Contents (Elt F)),
    nullary main_c_30 (constantI S_ 32 50000#32),
    unary main_c_30 main_v156 (broadcastInDim S800000 ![] bcast_S_S800000 : (⟨S_, .i32⟩ : BufTy).Contents (Elt F) → (⟨S800000, .i32⟩ : BufTy).Contents (Elt F)),
    binary main_v1 main_v156 main_v157 (addi : (⟨S800000, .i32⟩ : BufTy).Contents (Elt F) → (⟨S800000, .i32⟩ : BufTy).Contents (Elt F) → (⟨S800000, .i32⟩ : BufTy).Contents (Elt F)),
    ternary main_v155 main_v157 main_v1 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v158 main_v159 (broadcastInDim S800000x1 ![0] bcast_S800000_S800000x1_0 : (⟨S800000, .i32⟩ : BufTy).Contents (Elt F) → (⟨S800000x1, .i32⟩ : BufTy).Contents (Elt F)),
    binary main_v148 main_v159 main_v160 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v153 main_v161 (broadcastInDim S800000x128 ![0, 1] bcast_S800000x1_S800000x128_0_1 : (⟨S800000x1, .f32⟩ : BufTy).Contents (Elt F) → (⟨S800000x128, .f32⟩ : BufTy).Contents (Elt F)),
    binary main_v161 main_v160 main_v162 (mulf : (⟨S800000x128, .f32⟩ : BufTy).Contents (Elt F) → (⟨S800000x128, .f32⟩ : BufTy).Contents (Elt F) → (⟨S800000x128, .f32⟩ : BufTy).Contents (Elt F)),
    nullary main_cst_31 (constant S_ .f32 0x00000000#32),
    unary main_cst_31 main_v163 (broadcastInDim S50000x128 ![] bcast_S_S50000x128 : (⟨S_, .f32⟩ : BufTy).Contents (Elt F) → (⟨S50000x128, .f32⟩ : BufTy).Contents (Elt F)),
    unary main_v3 main_v164 (broadcastInDim S800000x1 ![0] bcast_S800000_S800000x1_0 : (⟨S800000, .i32⟩ : BufTy).Contents (Elt F) → (⟨S800000x1, .i32⟩ : BufTy).Contents (Elt F)),
    ternary main_v163 main_v164 main_v162 main_v165 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_32 (constant S_ .f32 0x40000000#32),
    unary main_cst_32 main_v166 (broadcastInDim S50000x128 ![] bcast_S_S50000x128 : (⟨S_, .f32⟩ : BufTy).Contents (Elt F) → (⟨S50000x128, .f32⟩ : BufTy).Contents (Elt F)),
    binary main_v166 main_v165 main_v167 (mulf : (⟨S50000x128, .f32⟩ : BufTy).Contents (Elt F) → (⟨S50000x128, .f32⟩ : BufTy).Contents (Elt F) → (⟨S50000x128, .f32⟩ : BufTy).Contents (Elt F)),
    binary main_v167 main_v128 main_v168 (subf : (⟨S50000x128, .f32⟩ : BufTy).Contents (Elt F) → (⟨S50000x128, .f32⟩ : BufTy).Contents (Elt F) → (⟨S50000x128, .f32⟩ : BufTy).Contents (Elt F)),
    unary main_arg6 main_v169 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v169 main_v170 rfl shapeCasts_S1x128x128_S128x128,
    binary main_v168 main_v170 main_v171 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v152 main_v171 main_v172 (addf : (⟨S50000x128, .f32⟩ : BufTy).Contents (Elt F) → (⟨S50000x128, .f32⟩ : BufTy).Contents (Elt F) → (⟨S50000x128, .f32⟩ : BufTy).Contents (Elt F)),
    unary main_arg7 main_v173 (broadcastInDim S1x128 ![1] bcast_S128_S1x128_1 : (⟨S128, .f32⟩ : BufTy).Contents (Elt F) → (⟨S1x128, .f32⟩ : BufTy).Contents (Elt F)),
    unary main_v173 main_v174 (broadcastInDim S50000x128 ![0, 1] bcast_S1x128_S50000x128_0_1 : (⟨S1x128, .f32⟩ : BufTy).Contents (Elt F) → (⟨S50000x128, .f32⟩ : BufTy).Contents (Elt F)),
    binary main_v172 main_v174 main_v175 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v175) main_call3.v0 main_call3.v1 (cmpf .oge),
    TRef.nullary main_call3.cst_0 (constant S_ .f32 0x3C23D70A#32),
    TRef.unary main_call3.cst_0 main_call3.v2 (broadcastInDim S50000x128 ![] bcast_S_S50000x128),
    TRef.binary main_call3.v2 (.of main_v175) main_call3.v3 mulf,
    TRef.ternary main_call3.v1 (.of main_v175) main_call3.v3 main_call3.call0.v0 select ]

abbrev ops3a_W : List (Ref sig .tc) := [main_v149, main_v150, main_v151, main_v152, main_v153, main_c_29, main_v154, main_v155, main_c_30, main_v156, main_v157, main_v158, main_v159, main_v160, main_v161, main_v162, main_cst_31, main_v163, main_v164, main_v165, main_cst_32, main_v166, main_v167, main_v168, main_v169, main_v170, main_v171, main_v172, main_v173, main_v174, main_v175, main_call3.cst.ref, main_call3.v0.ref, main_call3.v1.ref, main_call3.cst_0.ref, main_call3.v2.ref, main_call3.v3.ref, main_call3.call0.v0.ref]
set_option maxRecDepth 8192 in
set_option maxHeartbeats 4000000 in
theorem ops3a_writes : (ops3a : List (HloOp τ sig (Elt F))).Forall fun op => op.writes ⊆ (ops3a_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem ops3a_keep (V : Valuation τ sig (Elt F)) (r : Ref sig .tc) (h : r ∉ ops3a_W := by decide) :
    StableHlo.after ops3a V (Proc.devRef .tc r) = V (Proc.devRef .tc r) := StableHlo.after_of_writes_sub ops3a V ops3a_writes h

/-- Operations 39 … 82 of window 3. -/
abbrev ops3b : List (HloOp τ sig (Elt F)) :=
  [ nullary main_cst_33 (constant S_ .f32 0x00000000#32),
    binary main_v176 main_cst_33 main_v177 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_34 (constant S_ .f32 0x47435000#32),
    unary main_cst_34 main_v178 (broadcastInDim S128 ![] bcast_S_S128 : (⟨S_, .f32⟩ : BufTy).Contents (Elt F) → (⟨S128, .f32⟩ : BufTy).Contents (Elt F)),
    binary main_v177 main_v178 main_v179 (Host.divf : (⟨S128, .f32⟩ : BufTy).Contents (Elt F) → (⟨S128, .f32⟩ : BufTy).Contents (Elt F) → (⟨S128, .f32⟩ : BufTy).Contents (Elt F)),
    nullary main_c_35 (constantI S_ 32 0#32),
    TRef.nullary main_call4.cst (constant S_ .f32 0x00000000#32),
    TRef.binary (.of main_v176) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (.of main_v176) main_call4.v4 main_call4.v5 subf,
    TRef.binary main_call4.v5 main_call4.v5 main_call4.v6 mulf,
    TRef.unary (.of main_c_35) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v179 main_v181 (broadcastInDim S1x128 ![1] bcast_S128_S1x128_1 : (⟨S128, .f32⟩ : BufTy).Contents (Elt F) → (⟨S1x128, .f32⟩ : BufTy).Contents (Elt F)),
    unary main_v181 main_v182 (broadcastInDim S50000x128 ![0, 1] bcast_S1x128_S50000x128_0_1 : (⟨S1x128, .f32⟩ : BufTy).Contents (Elt F) → (⟨S50000x128, .f32⟩ : BufTy).Contents (Elt F)),
    binary main_v176 main_v182 main_v183 (subf : (⟨S50000x128, .f32⟩ : BufTy).Contents (Elt F) → (⟨S50000x128, .f32⟩ : BufTy).Contents (Elt F) → (⟨S50000x128, .f32⟩ : BufTy).Contents (Elt F)),
    nullary main_cst_36 (constant S_ .f32 0x3727C5AC#32),
    unary main_cst_36 main_v184 (broadcastInDim S128 ![] bcast_S_S128 : (⟨S_, .f32⟩ : BufTy).Contents (Elt F) → (⟨S128, .f32⟩ : BufTy).Contents (Elt F)),
    binary main_v180 main_v184 main_v185 (addf : (⟨S128, .f32⟩ : BufTy).Contents (Elt F) → (⟨S128, .f32⟩ : BufTy).Contents (Elt F) → (⟨S128, .f32⟩ : BufTy).Contents (Elt F)),
    unary main_v185 main_v186 (Host.rsqrt : (⟨S128, .f32⟩ : BufTy).Contents (Elt F) → (⟨S128, .f32⟩ : BufTy).Contents (Elt F)),
    unary main_v186 main_v187 (broadcastInDim S1x128 ![1] bcast_S128_S1x128_1 : (⟨S128, .f32⟩ : BufTy).Contents (Elt F) → (⟨S1x128, .f32⟩ : BufTy).Contents (Elt F)),
    unary main_v187 main_v188 (broadcastInDim S50000x128 ![0, 1] bcast_S1x128_S50000x128_0_1 : (⟨S1x128, .f32⟩ : BufTy).Contents (Elt F) → (⟨S50000x128, .f32⟩ : BufTy).Contents (Elt F)),
    binary main_v183 main_v188 main_v189 (mulf : (⟨S50000x128, .f32⟩ : BufTy).Contents (Elt F) → (⟨S50000x128, .f32⟩ : BufTy).Contents (Elt F) → (⟨S50000x128, .f32⟩ : BufTy).Contents (Elt F)),
    unary main_arg8 main_v190 (broadcastInDim S1x128 ![1] bcast_S128_S1x128_1 : (⟨S128, .f32⟩ : BufTy).Contents (Elt F) → (⟨S1x128, .f32⟩ : BufTy).Contents (Elt F)),
    unary main_v190 main_v191 (broadcastInDim S50000x128 ![0, 1] bcast_S1x128_S50000x128_0_1 : (⟨S1x128, .f32⟩ : BufTy).Contents (Elt F) → (⟨S50000x128, .f32⟩ : BufTy).Contents (Elt F)),
    binary main_v189 main_v191 main_v192 (mulf : (⟨S50000x128, .f32⟩ : BufTy).Contents (Elt F) → (⟨S50000x128, .f32⟩ : BufTy).Contents (Elt F) → (⟨S50000x128, .f32⟩ : BufTy).Contents (Elt F)),
    unary main_arg9 main_v193 (broadcastInDim S1x128 ![1] bcast_S128_S1x128_1 : (⟨S128, .f32⟩ : BufTy).Contents (Elt F) → (⟨S1x128, .f32⟩ : BufTy).Contents (Elt F)),
    unary main_v193 main_v194 (broadcastInDim S50000x128 ![0, 1] bcast_S1x128_S50000x128_0_1 : (⟨S1x128, .f32⟩ : BufTy).Contents (Elt F) → (⟨S50000x128, .f32⟩ : BufTy).Contents (Elt F)),
    binary main_v192 main_v194 main_v195 (addf : (⟨S50000x128, .f32⟩ : BufTy).Contents (Elt F) → (⟨S50000x128, .f32⟩ : BufTy).Contents (Elt F) → (⟨S50000x128, .f32⟩ : BufTy).Contents (Elt F)) ]

abbrev ops3b_W : List (Ref sig .tc) := [main_cst_33, main_v177, main_cst_34, main_v178, main_v179, main_c_35, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v181, main_v182, main_v183, main_cst_36, main_v184, main_v185, main_v186, main_v187, main_v188, main_v189, main_v190, main_v191, main_v192, main_v193, main_v194, main_v195]
set_option maxRecDepth 8192 in
set_option maxHeartbeats 4000000 in
theorem ops3b_writes : (ops3b : List (HloOp τ sig (Elt F))).Forall fun op => op.writes ⊆ (ops3b_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem ops3b_keep (V : Valuation τ sig (Elt F)) (r : Ref sig .tc) (h : r ∉ ops3b_W := by decide) :
    StableHlo.after ops3b V (Proc.devRef .tc r) = V (Proc.devRef .tc r) := StableHlo.after_of_writes_sub ops3b V ops3b_writes h

/-- Operations 83 … 87 of window 3. -/
abbrev ops3c : List (HloOp τ sig (Elt F)) :=
  [ unary main_arg10 main_v196 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v196 main_v197 rfl shapeCasts_S1x128x128_S128x128,
    binary main_v195 main_v197 main_v198 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v29 main_v199 (broadcastInDim S800000x1 ![0] bcast_S800000_S800000x1_0 : (⟨S800000, .f32⟩ : BufTy).Contents (Elt F) → (⟨S800000x1, .f32⟩ : BufTy).Contents (Elt F)),
    nullary main_c_37 (constantI S_ 32 0#32) ]

abbrev ops3c_W : List (Ref sig .tc) := [main_v196, main_v197, main_v198, main_v199, main_c_37]
set_option maxRecDepth 8192 in
set_option maxHeartbeats 4000000 in
theorem ops3c_writes : (ops3c : List (HloOp τ sig (Elt F))).Forall fun op => op.writes ⊆ (ops3c_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem ops3c_keep (V : Valuation τ sig (Elt F)) (r : Ref sig .tc) (h : r ∉ ops3c_W := by decide) :
    StableHlo.after ops3c V (Proc.devRef .tc r) = V (Proc.devRef .tc r) := StableHlo.after_of_writes_sub ops3c V ops3c_writes h

set_option maxRecDepth 8192 in
theorem ops3_cut : (ops3 : List (HloOp τ sig (Elt F))) = ops3a ++ (ops3b ++ (ops3c)) := rfl

/-- Operations 1 … 12 of window 5. -/
abbrev ops5a : List (HloOp τ sig (Elt F)) :=
  [ binary main_v249 main_v248 main_v250 (mulf : (⟨S50000x128, .f32⟩ : BufTy).Contents (Elt F) → (⟨S50000x128, .f32⟩ : BufTy).Contents (Elt F) → (⟨S50000x128, .f32⟩ : BufTy).Contents (Elt F)),
    binary main_v250 main_v211 main_v251 (subf : (⟨S50000x128, .f32⟩ : BufTy).Contents (Elt F) → (⟨S50000x128, .f32⟩ : BufTy).Contents (Elt F) → (⟨S50000x128, .f32⟩ : BufTy).Contents (Elt F)),
    unary main_arg10 main_v252 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v252 main_v253 rfl shapeCasts_S1x128x128_S128x128,
    binary main_v251 main_v253 main_v254 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v235 main_v254 main_v255 (addf : (⟨S50000x128, .f32⟩ : BufTy).Contents (Elt F) → (⟨S50000x128, .f32⟩ : BufTy).Contents (Elt F) → (⟨S50000x128, .f32⟩ : BufTy).Contents (Elt F)),
    unary main_arg11 main_v256 (broadcastInDim S1x128 ![1] bcast_S128_S1x128_1 : (⟨S128, .f32⟩ : BufTy).Contents (Elt F) → (⟨S1x128, .f32⟩ : BufTy).Contents (Elt F)),
    unary main_v256 main_v257 (broadcastInDim S50000x128 ![0, 1] bcast_S1x128_S50000x128_0_1 : (⟨S1x128, .f32⟩ : BufTy).Contents (Elt F) → (⟨S50000x128, .f32⟩ : BufTy).Contents (Elt F)),
    binary main_v255 main_v257 main_v258 (addf : (⟨S50000x128, .f32⟩ : BufTy).Contents (Elt F) → (⟨S50000x128, .f32⟩ : BufTy).Contents (Elt F) → (⟨S50000x128, .f32⟩ : BufTy).Contents (Elt F)),
    TRef.nullary main_call5.cst (constant S_ .f32 0x00000000#32),
    TRef.unary main_call5.cst main_call5.v0 (broadcastInDim S50000x128 ![] bcast_S_S50000x128),
    TRef.binary (.of main_v258) main_call5.v0 main_call5.v1 maximumf ]

abbrev ops5a_W : List (Ref sig .tc) := [main_v250, main_v251, main_v252, main_v253, main_v254, main_v255, main_v256, main_v257, main_v258, main_call5.cst.ref, main_call5.v0.ref, main_call5.v1.ref]
set_option maxRecDepth 8192 in
set_option maxHeartbeats 4000000 in
theorem ops5a_writes : (ops5a : List (HloOp τ sig (Elt F))).Forall fun op => op.writes ⊆ (ops5a_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem ops5a_keep (V : Valuation τ sig (Elt F)) (r : Ref sig .tc) (h : r ∉ ops5a_W := by decide) :
    StableHlo.after ops5a V (Proc.devRef .tc r) = V (Proc.devRef .tc r) := StableHlo.after_of_writes_sub ops5a V ops5a_writes h

/-- Operations 13 … 56 of window 5. -/
abbrev ops5b : List (HloOp τ sig (Elt F)) :=
  [ nullary main_cst_48 (constant S_ .f32 0x00000000#32),
    binary main_v259 main_cst_48 main_v260 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_49 (constant S_ .f32 0x47435000#32),
    unary main_cst_49 main_v261 (broadcastInDim S128 ![] bcast_S_S128 : (⟨S_, .f32⟩ : BufTy).Contents (Elt F) → (⟨S128, .f32⟩ : BufTy).Contents (Elt F)),
    binary main_v260 main_v261 main_v262 (Host.divf : (⟨S128, .f32⟩ : BufTy).Contents (Elt F) → (⟨S128, .f32⟩ : BufTy).Contents (Elt F) → (⟨S128, .f32⟩ : BufTy).Contents (Elt F)),
    nullary main_c_50 (constantI S_ 32 0#32),
    TRef.nullary main_call6.cst (constant S_ .f32 0x00000000#32),
    TRef.binary (.of main_v259) main_call6.cst main_call6.v0 (fun x v => Host.reduceAdd x v reducesTo_S50000x128_S128_d0 h_S_),
    TRef.unary main_call6.v0 main_call6.v1 (broadcastInDim S1x128 ![1] bcast_S128_S1x128_1),
    TRef.nullary main_call6.cst_0 (constant S_ .f32 0x47435000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S50000x128 ![0, 1] bcast_S1x128_S50000x128_0_1),
    TRef.binary (.of main_v259) main_call6.v4 main_call6.v5 subf,
    TRef.binary main_call6.v5 main_call6.v5 main_call6.v6 mulf,
    TRef.unary (.of main_c_50) main_call6.v7 (sitofp .f32),
    TRef.nullary main_call6.cst_1 (constant S_ .f32 0x47435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S50000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S128 ![] bcast_S_S128),
    TRef.ternary main_call6.v12 main_call6.v11 main_call6.call0.v1 main_call6.call0.v2 (fun p a b => select (broadcastInDim S128 ![] bcast_S_S128 p) a b),
    unary main_v262 main_v264 (broadcastInDim S1x128 ![1] bcast_S128_S1x128_1 : (⟨S128, .f32⟩ : BufTy).Contents (Elt F) → (⟨S1x128, .f32⟩ : BufTy).Contents (Elt F)),
    unary main_v264 main_v265 (broadcastInDim S50000x128 ![0, 1] bcast_S1x128_S50000x128_0_1 : (⟨S1x128, .f32⟩ : BufTy).Contents (Elt F) → (⟨S50000x128, .f32⟩ : BufTy).Contents (Elt F)),
    binary main_v259 main_v265 main_v266 (subf : (⟨S50000x128, .f32⟩ : BufTy).Contents (Elt F) → (⟨S50000x128, .f32⟩ : BufTy).Contents (Elt F) → (⟨S50000x128, .f32⟩ : BufTy).Contents (Elt F)),
    nullary main_cst_51 (constant S_ .f32 0x3727C5AC#32),
    unary main_cst_51 main_v267 (broadcastInDim S128 ![] bcast_S_S128 : (⟨S_, .f32⟩ : BufTy).Contents (Elt F) → (⟨S128, .f32⟩ : BufTy).Contents (Elt F)),
    binary main_v263 main_v267 main_v268 (addf : (⟨S128, .f32⟩ : BufTy).Contents (Elt F) → (⟨S128, .f32⟩ : BufTy).Contents (Elt F) → (⟨S128, .f32⟩ : BufTy).Contents (Elt F)),
    unary main_v268 main_v269 (Host.rsqrt : (⟨S128, .f32⟩ : BufTy).Contents (Elt F) → (⟨S128, .f32⟩ : BufTy).Contents (Elt F)),
    unary main_v269 main_v270 (broadcastInDim S1x128 ![1] bcast_S128_S1x128_1 : (⟨S128, .f32⟩ : BufTy).Contents (Elt F) → (⟨S1x128, .f32⟩ : BufTy).Contents (Elt F)),
    unary main_v270 main_v271 (broadcastInDim S50000x128 ![0, 1] bcast_S1x128_S50000x128_0_1 : (⟨S1x128, .f32⟩ : BufTy).Contents (Elt F) → (⟨S50000x128, .f32⟩ : BufTy).Contents (Elt F)),
    binary main_v266 main_v271 main_v272 (mulf : (⟨S50000x128, .f32⟩ : BufTy).Contents (Elt F) → (⟨S50000x128, .f32⟩ : BufTy).Contents (Elt F) → (⟨S50000x128, .f32⟩ : BufTy).Contents (Elt F)),
    unary main_arg12 main_v273 (broadcastInDim S1x128 ![1] bcast_S128_S1x128_1 : (⟨S128, .f32⟩ : BufTy).Contents (Elt F) → (⟨S1x128, .f32⟩ : BufTy).Contents (Elt F)),
    unary main_v273 main_v274 (broadcastInDim S50000x128 ![0, 1] bcast_S1x128_S50000x128_0_1 : (⟨S1x128, .f32⟩ : BufTy).Contents (Elt F) → (⟨S50000x128, .f32⟩ : BufTy).Contents (Elt F)),
    binary main_v272 main_v274 main_v275 (mulf : (⟨S50000x128, .f32⟩ : BufTy).Contents (Elt F) → (⟨S50000x128, .f32⟩ : BufTy).Contents (Elt F) → (⟨S50000x128, .f32⟩ : BufTy).Contents (Elt F)),
    unary main_arg13 main_v276 (broadcastInDim S1x128 ![1] bcast_S128_S1x128_1 : (⟨S128, .f32⟩ : BufTy).Contents (Elt F) → (⟨S1x128, .f32⟩ : BufTy).Contents (Elt F)),
    unary main_v276 main_v277 (broadcastInDim S50000x128 ![0, 1] bcast_S1x128_S50000x128_0_1 : (⟨S1x128, .f32⟩ : BufTy).Contents (Elt F) → (⟨S50000x128, .f32⟩ : BufTy).Contents (Elt F)),
    binary main_v275 main_v277 main_v278 (addf : (⟨S50000x128, .f32⟩ : BufTy).Contents (Elt F) → (⟨S50000x128, .f32⟩ : BufTy).Contents (Elt F) → (⟨S50000x128, .f32⟩ : BufTy).Contents (Elt F)) ]

abbrev ops5b_W : List (Ref sig .tc) := [main_cst_48, main_v260, main_cst_49, main_v261, main_v262, main_c_50, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref, main_v264, main_v265, main_v266, main_cst_51, main_v267, main_v268, main_v269, main_v270, main_v271, main_v272, main_v273, main_v274, main_v275, main_v276, main_v277, main_v278]
set_option maxRecDepth 8192 in
set_option maxHeartbeats 4000000 in
theorem ops5b_writes : (ops5b : List (HloOp τ sig (Elt F))).Forall fun op => op.writes ⊆ (ops5b_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem ops5b_keep (V : Valuation τ sig (Elt F)) (r : Ref sig .tc) (h : r ∉ ops5b_W := by decide) :
    StableHlo.after ops5b V (Proc.devRef .tc r) = V (Proc.devRef .tc r) := StableHlo.after_of_writes_sub ops5b V ops5b_writes h

/-- Operations 57 … 83 of window 5. -/
abbrev ops5c : List (HloOp τ sig (Elt F)) :=
  [ unary main_arg14 main_v279 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v279 main_v280 rfl shapeCasts_S1x128x128_S128x128,
    binary main_v278 main_v280 main_v281 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v29 main_v282 (broadcastInDim S800000x1 ![0] bcast_S800000_S800000x1_0 : (⟨S800000, .f32⟩ : BufTy).Contents (Elt F) → (⟨S800000x1, .f32⟩ : BufTy).Contents (Elt F)),
    nullary main_c_52 (constantI S_ 32 0#32),
    unary main_c_52 main_v283 (broadcastInDim S800000 ![] bcast_S_S800000 : (⟨S_, .i32⟩ : BufTy).Contents (Elt F) → (⟨S800000, .i32⟩ : BufTy).Contents (Elt F)),
    binary main_v1 main_v283 main_v284 (cmpi .slt : (⟨S800000, .i32⟩ : BufTy).Contents (Elt F) → (⟨S800000, .i32⟩ : BufTy).Contents (Elt F) → (⟨S800000, .i1⟩ : BufTy).Contents (Elt F)),
    nullary main_c_53 (constantI S_ 32 50000#32),
    unary main_c_53 main_v285 (broadcastInDim S800000 ![] bcast_S_S800000 : (⟨S_, .i32⟩ : BufTy).Contents (Elt F) → (⟨S800000, .i32⟩ : BufTy).Contents (Elt F)),
    binary main_v1 main_v285 main_v286 (addi : (⟨S800000, .i32⟩ : BufTy).Contents (Elt F) → (⟨S800000, .i32⟩ : BufTy).Contents (Elt F) → (⟨S800000, .i32⟩ : BufTy).Contents (Elt F)),
    ternary main_v284 main_v286 main_v1 main_v287 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v287 main_v288 (broadcastInDim S800000x1 ![0] bcast_S800000_S800000x1_0 : (⟨S800000, .i32⟩ : BufTy).Contents (Elt F) → (⟨S800000x1, .i32⟩ : BufTy).Contents (Elt F)),
    binary main_v278 main_v288 main_v289 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v282 main_v290 (broadcastInDim S800000x128 ![0, 1] bcast_S800000x1_S800000x128_0_1 : (⟨S800000x1, .f32⟩ : BufTy).Contents (Elt F) → (⟨S800000x128, .f32⟩ : BufTy).Contents (Elt F)),
    binary main_v290 main_v289 main_v291 (mulf : (⟨S800000x128, .f32⟩ : BufTy).Contents (Elt F) → (⟨S800000x128, .f32⟩ : BufTy).Contents (Elt F) → (⟨S800000x128, .f32⟩ : BufTy).Contents (Elt F)),
    nullary main_cst_54 (constant S_ .f32 0x00000000#32),
    unary main_cst_54 main_v292 (broadcastInDim S50000x128 ![] bcast_S_S50000x128 : (⟨S_, .f32⟩ : BufTy).Contents (Elt F) → (⟨S50000x128, .f32⟩ : BufTy).Contents (Elt F)),
    unary main_v3 main_v293 (broadcastInDim S800000x1 ![0] bcast_S800000_S800000x1_0 : (⟨S800000, .i32⟩ : BufTy).Contents (Elt F) → (⟨S800000x1, .i32⟩ : BufTy).Contents (Elt F)),
    ternary main_v292 main_v293 main_v291 main_v294 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg14 main_v295 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v295 main_v296 rfl shapeCasts_S1x128x128_S128x128,
    binary main_v294 main_v296 main_v297 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v281 main_v297 main_v298 (addf : (⟨S50000x128, .f32⟩ : BufTy).Contents (Elt F) → (⟨S50000x128, .f32⟩ : BufTy).Contents (Elt F) → (⟨S50000x128, .f32⟩ : BufTy).Contents (Elt F)),
    unary main_v29 main_v299 (broadcastInDim S800000x1 ![0] bcast_S800000_S800000x1_0 : (⟨S800000, .f32⟩ : BufTy).Contents (Elt F) → (⟨S800000x1, .f32⟩ : BufTy).Contents (Elt F)),
    nullary main_c_55 (constantI S_ 32 0#32),
    unary main_c_55 main_v300 (broadcastInDim S800000 ![] bcast_S_S800000 : (⟨S_, .i32⟩ : BufTy).Contents (Elt F) → (⟨S800000, .i32⟩ : BufTy).Contents (Elt F)),
    binary main_v1 main_v300 main_v301 (cmpi .slt : (⟨S800000, .i32⟩ : BufTy).Contents (Elt F) → (⟨S800000, .i32⟩ : BufTy).Contents (Elt F) → (⟨S800000, .i1⟩ : BufTy).Contents (Elt F)) ]

abbrev ops5c_W : List (Ref sig .tc) := [main_v279, main_v280, main_v281, main_v282, main_c_52, main_v283, main_v284, main_c_53, main_v285, main_v286, main_v287, main_v288, main_v289, main_v290, main_v291, main_cst_54, main_v292, main_v293, main_v294, main_v295, main_v296, main_v297, main_v298, main_v299, main_c_55, main_v300, main_v301]
set_option maxRecDepth 8192 in
set_option maxHeartbeats 4000000 in
theorem ops5c_writes : (ops5c : List (HloOp τ sig (Elt F))).Forall fun op => op.writes ⊆ (ops5c_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem ops5c_keep (V : Valuation τ sig (Elt F)) (r : Ref sig .tc) (h : r ∉ ops5c_W := by decide) :
    StableHlo.after ops5c V (Proc.devRef .tc r) = V (Proc.devRef .tc r) := StableHlo.after_of_writes_sub ops5c V ops5c_writes h

set_option maxRecDepth 8192 in
theorem ops5_cut : (ops5 : List (HloOp τ sig (Elt F))) = ops5a ++ (ops5b ++ (ops5c)) := rfl

/-- Operations 1 … 47 of window 6. -/
abbrev ops6a : List (HloOp τ sig (Elt F)) :=
  [ nullary main_c_56 (constantI S_ 32 50000#32),
    unary main_c_56 main_v302 (broadcastInDim S800000 ![] bcast_S_S800000 : (⟨S_, .i32⟩ : BufTy).Contents (Elt F) → (⟨S800000, .i32⟩ : BufTy).Contents (Elt F)),
    binary main_v1 main_v302 main_v303 (addi : (⟨S800000, .i32⟩ : BufTy).Contents (Elt F) → (⟨S800000, .i32⟩ : BufTy).Contents (Elt F) → (⟨S800000, .i32⟩ : BufTy).Contents (Elt F)),
    ternary main_v301 main_v303 main_v1 main_v304 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v304 main_v305 (broadcastInDim S800000x1 ![0] bcast_S800000_S800000x1_0 : (⟨S800000, .i32⟩ : BufTy).Contents (Elt F) → (⟨S800000x1, .i32⟩ : BufTy).Contents (Elt F)),
    binary main_v294 main_v305 main_v306 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v299 main_v307 (broadcastInDim S800000x128 ![0, 1] bcast_S800000x1_S800000x128_0_1 : (⟨S800000x1, .f32⟩ : BufTy).Contents (Elt F) → (⟨S800000x128, .f32⟩ : BufTy).Contents (Elt F)),
    binary main_v307 main_v306 main_v308 (mulf : (⟨S800000x128, .f32⟩ : BufTy).Contents (Elt F) → (⟨S800000x128, .f32⟩ : BufTy).Contents (Elt F) → (⟨S800000x128, .f32⟩ : BufTy).Contents (Elt F)),
    nullary main_cst_57 (constant S_ .f32 0x00000000#32),
    unary main_cst_57 main_v309 (broadcastInDim S50000x128 ![] bcast_S_S50000x128 : (⟨S_, .f32⟩ : BufTy).Contents (Elt F) → (⟨S50000x128, .f32⟩ : BufTy).Contents (Elt F)),
    unary main_v3 main_v310 (broadcastInDim S800000x1 ![0] bcast_S800000_S800000x1_0 : (⟨S800000, .i32⟩ : BufTy).Contents (Elt F) → (⟨S800000x1, .i32⟩ : BufTy).Contents (Elt F)),
    ternary main_v309 main_v310 main_v308 main_v311 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_58 (constant S_ .f32 0x40000000#32),
    unary main_cst_58 main_v312 (broadcastInDim S50000x128 ![] bcast_S_S50000x128 : (⟨S_, .f32⟩ : BufTy).Contents (Elt F) → (⟨S50000x128, .f32⟩ : BufTy).Contents (Elt F)),
    binary main_v312 main_v311 main_v313 (mulf : (⟨S50000x128, .f32⟩ : BufTy).Contents (Elt F) → (⟨S50000x128, .f32⟩ : BufTy).Contents (Elt F) → (⟨S50000x128, .f32⟩ : BufTy).Contents (Elt F)),
    binary main_v313 main_v278 main_v314 (subf : (⟨S50000x128, .f32⟩ : BufTy).Contents (Elt F) → (⟨S50000x128, .f32⟩ : BufTy).Contents (Elt F) → (⟨S50000x128, .f32⟩ : BufTy).Contents (Elt F)),
    unary main_arg14 main_v315 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v315 main_v316 rfl shapeCasts_S1x128x128_S128x128,
    binary main_v314 main_v316 main_v317 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v298 main_v317 main_v318 (addf : (⟨S50000x128, .f32⟩ : BufTy).Contents (Elt F) → (⟨S50000x128, .f32⟩ : BufTy).Contents (Elt F) → (⟨S50000x128, .f32⟩ : BufTy).Contents (Elt F)),
    unary main_v29 main_v319 (broadcastInDim S800000x1 ![0] bcast_S800000_S800000x1_0 : (⟨S800000, .f32⟩ : BufTy).Contents (Elt F) → (⟨S800000x1, .f32⟩ : BufTy).Contents (Elt F)),
    nullary main_c_59 (constantI S_ 32 0#32),
    unary main_c_59 main_v320 (broadcastInDim S800000 ![] bcast_S_S800000 : (⟨S_, .i32⟩ : BufTy).Contents (Elt F) → (⟨S800000, .i32⟩ : BufTy).Contents (Elt F)),
    binary main_v1 main_v320 main_v321 (cmpi .slt : (⟨S800000, .i32⟩ : BufTy).Contents (Elt F) → (⟨S800000, .i32⟩ : BufTy).Contents (Elt F) → (⟨S800000, .i1⟩ : BufTy).Contents (Elt F)),
    nullary main_c_60 (constantI S_ 32 50000#32),
    unary main_c_60 main_v322 (broadcastInDim S800000 ![] bcast_S_S800000 : (⟨S_, .i32⟩ : BufTy).Contents (Elt F) → (⟨S800000, .i32⟩ : BufTy).Contents (Elt F)),
    binary main_v1 main_v322 main_v323 (addi : (⟨S800000, .i32⟩ : BufTy).Contents (Elt F) → (⟨S800000, .i32⟩ : BufTy).Contents (Elt F) → (⟨S800000, .i32⟩ : BufTy).Contents (Elt F)),
    ternary main_v321 main_v323 main_v1 main_v324 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v324 main_v325 (broadcastInDim S800000x1 ![0] bcast_S800000_S800000x1_0 : (⟨S800000, .i32⟩ : BufTy).Contents (Elt F) → (⟨S800000x1, .i32⟩ : BufTy).Contents (Elt F)),
    binary main_v314 main_v325 main_v326 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v319 main_v327 (broadcastInDim S800000x128 ![0, 1] bcast_S800000x1_S800000x128_0_1 : (⟨S800000x1, .f32⟩ : BufTy).Contents (Elt F) → (⟨S800000x128, .f32⟩ : BufTy).Contents (Elt F)),
    binary main_v327 main_v326 main_v328 (mulf : (⟨S800000x128, .f32⟩ : BufTy).Contents (Elt F) → (⟨S800000x128, .f32⟩ : BufTy).Contents (Elt F) → (⟨S800000x128, .f32⟩ : BufTy).Contents (Elt F)),
    nullary main_cst_61 (constant S_ .f32 0x00000000#32),
    unary main_cst_61 main_v329 (broadcastInDim S50000x128 ![] bcast_S_S50000x128 : (⟨S_, .f32⟩ : BufTy).Contents (Elt F) → (⟨S50000x128, .f32⟩ : BufTy).Contents (Elt F)),
    unary main_v3 main_v330 (broadcastInDim S800000x1 ![0] bcast_S800000_S800000x1_0 : (⟨S800000, .i32⟩ : BufTy).Contents (Elt F) → (⟨S800000x1, .i32⟩ : BufTy).Contents (Elt F)),
    ternary main_v329 main_v330 main_v328 main_v331 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_62 (constant S_ .f32 0x40000000#32),
    unary main_cst_62 main_v332 (broadcastInDim S50000x128 ![] bcast_S_S50000x128 : (⟨S_, .f32⟩ : BufTy).Contents (Elt F) → (⟨S50000x128, .f32⟩ : BufTy).Contents (Elt F)),
    binary main_v332 main_v331 main_v333 (mulf : (⟨S50000x128, .f32⟩ : BufTy).Contents (Elt F) → (⟨S50000x128, .f32⟩ : BufTy).Contents (Elt F) → (⟨S50000x128, .f32⟩ : BufTy).Contents (Elt F)),
    binary main_v333 main_v294 main_v334 (subf : (⟨S50000x128, .f32⟩ : BufTy).Contents (Elt F) → (⟨S50000x128, .f32⟩ : BufTy).Contents (Elt F) → (⟨S50000x128, .f32⟩ : BufTy).Contents (Elt F)),
    unary main_arg14 main_v335 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v335 main_v336 rfl shapeCasts_S1x128x128_S128x128,
    binary main_v334 main_v336 main_v337 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v318 main_v337 main_v338 (addf : (⟨S50000x128, .f32⟩ : BufTy).Contents (Elt F) → (⟨S50000x128, .f32⟩ : BufTy).Contents (Elt F) → (⟨S50000x128, .f32⟩ : BufTy).Contents (Elt F)),
    unary main_arg15 main_v339 (broadcastInDim S1x128 ![1] bcast_S128_S1x128_1 : (⟨S128, .f32⟩ : BufTy).Contents (Elt F) → (⟨S1x128, .f32⟩ : BufTy).Contents (Elt F)),
    unary main_v339 main_v340 (broadcastInDim S50000x128 ![0, 1] bcast_S1x128_S50000x128_0_1 : (⟨S1x128, .f32⟩ : BufTy).Contents (Elt F) → (⟨S50000x128, .f32⟩ : BufTy).Contents (Elt F)),
    binary main_v338 main_v340 main_v341 (addf : (⟨S50000x128, .f32⟩ : BufTy).Contents (Elt F) → (⟨S50000x128, .f32⟩ : BufTy).Contents (Elt F) → (⟨S50000x128, .f32⟩ : BufTy).Contents (Elt F)) ]

abbrev ops6a_W : List (Ref sig .tc) := [main_c_56, main_v302, main_v303, main_v304, main_v305, main_v306, main_v307, main_v308, main_cst_57, main_v309, main_v310, main_v311, main_cst_58, main_v312, main_v313, main_v314, main_v315, main_v316, main_v317, main_v318, main_v319, main_c_59, main_v320, main_v321, main_c_60, main_v322, main_v323, main_v324, main_v325, main_v326, main_v327, main_v328, main_cst_61, main_v329, main_v330, main_v331, main_cst_62, main_v332, main_v333, main_v334, main_v335, main_v336, main_v337, main_v338, main_v339, main_v340, main_v341]
set_option maxRecDepth 8192 in
set_option maxHeartbeats 4000000 in
theorem ops6a_writes : (ops6a : List (HloOp τ sig (Elt F))).Forall fun op => op.writes ⊆ (ops6a_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem ops6a_keep (V : Valuation τ sig (Elt F)) (r : Ref sig .tc) (h : r ∉ ops6a_W := by decide) :
    StableHlo.after ops6a V (Proc.devRef .tc r) = V (Proc.devRef .tc r) := StableHlo.after_of_writes_sub ops6a V ops6a_writes h

/-- Operations 48 … 61 of window 6. -/
abbrev ops6b : List (HloOp τ sig (Elt F)) :=
  [ TRef.binary (.of main_v341) (.of main_v341) main_call7.v0 mulf,
    TRef.nullary main_call7.cst (constant S_ .f32 0x00000000#32),
    TRef.binary main_call7.v0 main_call7.cst main_call7.v1 (fun x v => Host.reduceAdd x v reducesTo_S50000x128_S50000_d1 h_S_),
    TRef.unary main_call7.v1 main_call7.v2 (broadcastInDim S50000x1 ![0] bcast_S50000_S50000x1_0),
    TRef.unary main_call7.v2 main_call7.v3 Host.sqrt,
    nullary main_cst_63 (constant S_ .f32 0x2B8CBCCC#32),
    unary main_cst_63 main_v343 (broadcastInDim S50000x1 ![] bcast_S_S50000x1 : (⟨S_, .f32⟩ : BufTy).Contents (Elt F) → (⟨S50000x1, .f32⟩ : BufTy).Contents (Elt F)),
    binary main_v342 main_v343 main_v344 (maximumf : (⟨S50000x1, .f32⟩ : BufTy).Contents (Elt F) → (⟨S50000x1, .f32⟩ : BufTy).Contents (Elt F) → (⟨S50000x1, .f32⟩ : BufTy).Contents (Elt F)),
    unary main_v344 main_v345 (broadcastInDim S50000x128 ![0, 1] bcast_S50000x1_S50000x128_0_1 : (⟨S50000x1, .f32⟩ : BufTy).Contents (Elt F) → (⟨S50000x128, .f32⟩ : BufTy).Contents (Elt F)),
    binary main_v341 main_v345 main_v346 (Host.divf : (⟨S50000x128, .f32⟩ : BufTy).Contents (Elt F) → (⟨S50000x128, .f32⟩ : BufTy).Contents (Elt F) → (⟨S50000x128, .f32⟩ : BufTy).Contents (Elt F)),
    binary main_v346 main_arg16 main_v347 ((fun l r => Host.dotGeneral dot_S50000x128_S128x3_S50000x3_1_0_0_1_n_n none l r) : (⟨S50000x128, .f32⟩ : BufTy).Contents (Elt F) → (⟨S128x3, .f32⟩ : BufTy).Contents (Elt F) → (⟨S50000x3, .f32⟩ : BufTy).Contents (Elt F)),
    unary main_arg17 main_v348 (broadcastInDim S1x3 ![1] bcast_S3_S1x3_1 : (⟨S3, .f32⟩ : BufTy).Contents (Elt F) → (⟨S1x3, .f32⟩ : BufTy).Contents (Elt F)),
    unary main_v348 main_v349 (broadcastInDim S50000x3 ![0, 1] bcast_S1x3_S50000x3_0_1 : (⟨S1x3, .f32⟩ : BufTy).Contents (Elt F) → (⟨S50000x3, .f32⟩ : BufTy).Contents (Elt F)),
    binary main_v347 main_v349 main_v350 (addf : (⟨S50000x3, .f32⟩ : BufTy).Contents (Elt F) → (⟨S50000x3, .f32⟩ : BufTy).Contents (Elt F) → (⟨S50000x3, .f32⟩ : BufTy).Contents (Elt F)) ]

abbrev ops6b_W : List (Ref sig .tc) := [main_call7.v0.ref, main_call7.cst.ref, main_call7.v1.ref, main_call7.v2.ref, main_call7.v3.ref, main_cst_63, main_v343, main_v344, main_v345, main_v346, main_v347, main_v348, main_v349, main_v350]
set_option maxRecDepth 8192 in
set_option maxHeartbeats 4000000 in
theorem ops6b_writes : (ops6b : List (HloOp τ sig (Elt F))).Forall fun op => op.writes ⊆ (ops6b_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem ops6b_keep (V : Valuation τ sig (Elt F)) (r : Ref sig .tc) (h : r ∉ ops6b_W := by decide) :
    StableHlo.after ops6b V (Proc.devRef .tc r) = V (Proc.devRef .tc r) := StableHlo.after_of_writes_sub ops6b V ops6b_writes h

set_option maxRecDepth 8192 in
theorem ops6_cut : (ops6 : List (HloOp τ sig (Elt F))) = ops6a ++ (ops6b) := rfl

theorem ops4_keep (V : Valuation τ sig (Elt F)) (r : Ref sig .tc) (h : r ∉ ops4_W := by decide) :
    StableHlo.after ops4 V (Proc.devRef .tc r) = V (Proc.devRef .tc r) := StableHlo.after_of_writes_sub ops4 V ops4_writes h

end Cert.ReferenceIdeal.RefRun

end
-- ==== Proof.KICuts.lean ====
/- The kernel program's four long host stretches cut into pieces (after the edge weights; before the features are stacked): a stretch is its pieces in order. -/
import proofs.«133509_j41223096107483_1_alg».proof.Proof.Gen.KernelIdeal.Launch

noncomputable section

namespace Cert.KernelIdeal.Frm

open Cert.KernelIdeal Cert.KernelIdeal.Gen Idealize.ShloMosaic Idealize.ShloMosaic.TcCoe Idealize.SL.Sem

variable {F : FTy → Type} [FloatOps F]

/-- The stretch up to the edge weights. -/
abbrev k02a : List (HloOp τ sig (Elt F)) :=
  [ StableHlo.nullary main_c (constantI S_ 32 0#32),
    StableHlo.unary main_c main_v14 (broadcastInDim S800000 ![] bcast_S_S800000 : (⟨S_, .i32⟩ : BufTy).Contents (Elt F) → (⟨S800000, .i32⟩ : BufTy).Contents (Elt F)),
    StableHlo.binary main_v1 main_v14 main_v15 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v16 (broadcastInDim S800000 ![] bcast_S_S800000 : (⟨S_, .i32⟩ : BufTy).Contents (Elt F) → (⟨S800000, .i32⟩ : BufTy).Contents (Elt F)),
    StableHlo.binary main_v1 main_v16 main_v17 (addi : (⟨S800000, .i32⟩ : BufTy).Contents (Elt F) → (⟨S800000, .i32⟩ : BufTy).Contents (Elt F) → (⟨S800000, .i32⟩ : BufTy).Contents (Elt F)),
    StableHlo.ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v18 main_v19 (broadcastInDim S800000x1 ![0] bcast_S800000_S800000x1_0 : (⟨S800000, .i32⟩ : BufTy).Contents (Elt F) → (⟨S800000x1, .i32⟩ : BufTy).Contents (Elt F)),
    StableHlo.binary main_v13 main_v19 main_v20 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.unary main_v20 main_v21 (Host.negf : (⟨S800000, .f32⟩ : BufTy).Contents (Elt F) → (⟨S800000, .f32⟩ : BufTy).Contents (Elt F)),
    StableHlo.nullary main_c_5 (constantI S_ 32 0#32),
    StableHlo.unary main_c_5 main_v22 (broadcastInDim S800000 ![] bcast_S_S800000 : (⟨S_, .i32⟩ : BufTy).Contents (Elt F) → (⟨S800000, .i32⟩ : BufTy).Contents (Elt F)),
    StableHlo.binary main_v3 main_v22 main_v23 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v24 (broadcastInDim S800000 ![] bcast_S_S800000 : (⟨S_, .i32⟩ : BufTy).Contents (Elt F) → (⟨S800000, .i32⟩ : BufTy).Contents (Elt F)),
    StableHlo.binary main_v3 main_v24 main_v25 (addi : (⟨S800000, .i32⟩ : BufTy).Contents (Elt F) → (⟨S800000, .i32⟩ : BufTy).Contents (Elt F) → (⟨S800000, .i32⟩ : BufTy).Contents (Elt F)),
    StableHlo.ternary main_v23 main_v25 main_v3 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v26 main_v27 (broadcastInDim S800000x1 ![0] bcast_S800000_S800000x1_0 : (⟨S800000, .i32⟩ : BufTy).Contents (Elt F) → (⟨S800000x1, .i32⟩ : BufTy).Contents (Elt F)),
    StableHlo.binary main_v13 main_v27 main_v28 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v21 main_v28 main_v29 (mulf : (⟨S800000, .f32⟩ : BufTy).Contents (Elt F) → (⟨S800000, .f32⟩ : BufTy).Contents (Elt F) → (⟨S800000, .f32⟩ : BufTy).Contents (Elt F)) ]

abbrev k02a_W : List (Ref sig .tc) := [main_c, main_v14, main_v15, main_c_4, main_v16, main_v17, main_v18, main_v19, main_v20, main_v21, main_c_5, main_v22, main_v23, main_c_6, main_v24, main_v25, main_v26, main_v27, main_v28, main_v29]
set_option maxRecDepth 8192 in
set_option maxHeartbeats 4000000 in
theorem k02a_writes : (k02a : List (HloOp τ sig (Elt F))).Forall fun op => op.writes ⊆ (k02a_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem k02a_keep (V : Valuation τ sig (Elt F)) (r : Ref sig .tc) (h : r ∉ k02a_W := by decide) :
    StableHlo.after k02a V (Proc.devRef .tc r) = V (Proc.devRef .tc r) := StableHlo.after_of_writes_sub k02a V k02a_writes h

/-- The first layer's three propagated feature arrays, each with its unit middle axis. -/
abbrev k02b : List (HloOp τ sig (Elt F)) :=
  [ StableHlo.unary main_v29 main_v30 (broadcastInDim S800000x1 ![0] bcast_S800000_S800000x1_0 : (⟨S800000, .f32⟩ : BufTy).Contents (Elt F) → (⟨S800000x1, .f32⟩ : BufTy).Contents (Elt F)),
    StableHlo.nullary main_c_7 (constantI S_ 32 0#32),
    StableHlo.unary main_c_7 main_v31 (broadcastInDim S800000 ![] bcast_S_S800000 : (⟨S_, .i32⟩ : BufTy).Contents (Elt F) → (⟨S800000, .i32⟩ : BufTy).Contents (Elt F)),
    StableHlo.binary main_v1 main_v31 main_v32 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v33 (broadcastInDim S800000 ![] bcast_S_S800000 : (⟨S_, .i32⟩ : BufTy).Contents (Elt F) → (⟨S800000, .i32⟩ : BufTy).Contents (Elt F)),
    StableHlo.binary main_v1 main_v33 main_v34 (addi : (⟨S800000, .i32⟩ : BufTy).Contents (Elt F) → (⟨S800000, .i32⟩ : BufTy).Contents (Elt F) → (⟨S800000, .i32⟩ : BufTy).Contents (Elt F)),
    StableHlo.ternary main_v32 main_v34 main_v1 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v35 main_v36 (broadcastInDim S800000x1 ![0] bcast_S800000_S800000x1_0 : (⟨S800000, .i32⟩ : BufTy).Contents (Elt F) → (⟨S800000x1, .i32⟩ : BufTy).Contents (Elt F)),
    StableHlo.binary main_arg0 main_v36 main_v37 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    StableHlo.unary main_v30 main_v38 (broadcastInDim S800000x3 ![0, 1] bcast_S800000x1_S800000x3_0_1 : (⟨S800000x1, .f32⟩ : BufTy).Contents (Elt F) → (⟨S800000x3, .f32⟩ : BufTy).Contents (Elt F)),
    StableHlo.binary main_v38 main_v37 main_v39 (mulf : (⟨S800000x3, .f32⟩ : BufTy).Contents (Elt F) → (⟨S800000x3, .f32⟩ : BufTy).Contents (Elt F) → (⟨S800000x3, .f32⟩ : BufTy).Contents (Elt F)),
    StableHlo.nullary main_cst_9 (constant S_ .f32 0x00000000#32),
    StableHlo.unary main_cst_9 main_v40 (broadcastInDim S50000x3 ![] bcast_S_S50000x3 : (⟨S_, .f32⟩ : BufTy).Contents (Elt F) → (⟨S50000x3, .f32⟩ : BufTy).Contents (Elt F)),
    StableHlo.unary main_v3 main_v41 (broadcastInDim S800000x1 ![0] bcast_S800000_S800000x1_0 : (⟨S800000, .i32⟩ : BufTy).Contents (Elt F) → (⟨S800000x1, .i32⟩ : BufTy).Contents (Elt F)),
    StableHlo.ternary main_v40 main_v41 main_v39 main_v42 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F)),
    StableHlo.unary main_v29 main_v43 (broadcastInDim S800000x1 ![0] bcast_S800000_S800000x1_0 : (⟨S800000, .f32⟩ : BufTy).Contents (Elt F) → (⟨S800000x1, .f32⟩ : BufTy).Contents (Elt F)),
    StableHlo.nullary main_c_10 (constantI S_ 32 0#32),
    StableHlo.unary main_c_10 main_v44 (broadcastInDim S800000 ![] bcast_S_S800000 : (⟨S_, .i32⟩ : BufTy).Contents (Elt F) → (⟨S800000, .i32⟩ : BufTy).Contents (Elt F)),
    StableHlo.binary main_v1 main_v44 main_v45 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v46 (broadcastInDim S800000 ![] bcast_S_S800000 : (⟨S_, .i32⟩ : BufTy).Contents (Elt F) → (⟨S800000, .i32⟩ : BufTy).Contents (Elt F)),
    StableHlo.binary main_v1 main_v46 main_v47 (addi : (⟨S800000, .i32⟩ : BufTy).Contents (Elt F) → (⟨S800000, .i32⟩ : BufTy).Contents (Elt F) → (⟨S800000, .i32⟩ : BufTy).Contents (Elt F)),
    StableHlo.ternary main_v45 main_v47 main_v1 main_v48 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v48 main_v49 (broadcastInDim S800000x1 ![0] bcast_S800000_S800000x1_0 : (⟨S800000, .i32⟩ : BufTy).Contents (Elt F) → (⟨S800000x1, .i32⟩ : BufTy).Contents (Elt F)),
    StableHlo.binary main_v42 main_v49 main_v50 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    StableHlo.unary main_v43 main_v51 (broadcastInDim S800000x3 ![0, 1] bcast_S800000x1_S800000x3_0_1 : (⟨S800000x1, .f32⟩ : BufTy).Contents (Elt F) → (⟨S800000x3, .f32⟩ : BufTy).Contents (Elt F)),
    StableHlo.binary main_v51 main_v50 main_v52 (mulf : (⟨S800000x3, .f32⟩ : BufTy).Contents (Elt F) → (⟨S800000x3, .f32⟩ : BufTy).Contents (Elt F) → (⟨S800000x3, .f32⟩ : BufTy).Contents (Elt F)),
    StableHlo.nullary main_cst_12 (constant S_ .f32 0x00000000#32),
    StableHlo.unary main_cst_12 main_v53 (broadcastInDim S50000x3 ![] bcast_S_S50000x3 : (⟨S_, .f32⟩ : BufTy).Contents (Elt F) → (⟨S50000x3, .f32⟩ : BufTy).Contents (Elt F)),
    StableHlo.unary main_v3 main_v54 (broadcastInDim S800000x1 ![0] bcast_S800000_S800000x1_0 : (⟨S800000, .i32⟩ : BufTy).Contents (Elt F) → (⟨S800000x1, .i32⟩ : BufTy).Contents (Elt F)),
    StableHlo.ternary main_v53 main_v54 main_v52 main_v55 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F)),
    StableHlo.nullary main_cst_13 (constant S_ .f32 0x40000000#32),
    StableHlo.unary main_cst_13 main_v56 (broadcastInDim S50000x3 ![] bcast_S_S50000x3 : (⟨S_, .f32⟩ : BufTy).Contents (Elt F) → (⟨S50000x3, .f32⟩ : BufTy).Contents (Elt F)),
    StableHlo.binary main_v56 main_v55 main_v57 (mulf : (⟨S50000x3, .f32⟩ : BufTy).Contents (Elt F) → (⟨S50000x3, .f32⟩ : BufTy).Contents (Elt F) → (⟨S50000x3, .f32⟩ : BufTy).Contents (Elt F)),
    StableHlo.binary main_v57 main_arg0 main_v58 (subf : (⟨S50000x3, .f32⟩ : BufTy).Contents (Elt F) → (⟨S50000x3, .f32⟩ : BufTy).Contents (Elt F) → (⟨S50000x3, .f32⟩ : BufTy).Contents (Elt F)),
    StableHlo.unary main_v29 main_v59 (broadcastInDim S800000x1 ![0] bcast_S800000_S800000x1_0 : (⟨S800000, .f32⟩ : BufTy).Contents (Elt F) → (⟨S800000x1, .f32⟩ : BufTy).Contents (Elt F)),
    StableHlo.nullary main_c_14 (constantI S_ 32 0#32),
    StableHlo.unary main_c_14 main_v60 (broadcastInDim S800000 ![] bcast_S_S800000 : (⟨S_, .i32⟩ : BufTy).Contents (Elt F) → (⟨S800000, .i32⟩ : BufTy).Contents (Elt F)),
    StableHlo.binary main_v1 main_v60 main_v61 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v62 (broadcastInDim S800000 ![] bcast_S_S800000 : (⟨S_, .i32⟩ : BufTy).Contents (Elt F) → (⟨S800000, .i32⟩ : BufTy).Contents (Elt F)),
    StableHlo.binary main_v1 main_v62 main_v63 (addi : (⟨S800000, .i32⟩ : BufTy).Contents (Elt F) → (⟨S800000, .i32⟩ : BufTy).Contents (Elt F) → (⟨S800000, .i32⟩ : BufTy).Contents (Elt F)),
    StableHlo.ternary main_v61 main_v63 main_v1 main_v64 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v64 main_v65 (broadcastInDim S800000x1 ![0] bcast_S800000_S800000x1_0 : (⟨S800000, .i32⟩ : BufTy).Contents (Elt F) → (⟨S800000x1, .i32⟩ : BufTy).Contents (Elt F)),
    StableHlo.binary main_v58 main_v65 main_v66 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    StableHlo.unary main_v59 main_v67 (broadcastInDim S800000x3 ![0, 1] bcast_S800000x1_S800000x3_0_1 : (⟨S800000x1, .f32⟩ : BufTy).Contents (Elt F) → (⟨S800000x3, .f32⟩ : BufTy).Contents (Elt F)),
    StableHlo.binary main_v67 main_v66 main_v68 (mulf : (⟨S800000x3, .f32⟩ : BufTy).Contents (Elt F) → (⟨S800000x3, .f32⟩ : BufTy).Contents (Elt F) → (⟨S800000x3, .f32⟩ : BufTy).Contents (Elt F)),
    StableHlo.nullary main_cst_16 (constant S_ .f32 0x00000000#32),
    StableHlo.unary main_cst_16 main_v69 (broadcastInDim S50000x3 ![] bcast_S_S50000x3 : (⟨S_, .f32⟩ : BufTy).Contents (Elt F) → (⟨S50000x3, .f32⟩ : BufTy).Contents (Elt F)),
    StableHlo.unary main_v3 main_v70 (broadcastInDim S800000x1 ![0] bcast_S800000_S800000x1_0 : (⟨S800000, .i32⟩ : BufTy).Contents (Elt F) → (⟨S800000x1, .i32⟩ : BufTy).Contents (Elt F)),
    StableHlo.ternary main_v69 main_v70 main_v68 main_v71 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F)),
    StableHlo.nullary main_cst_17 (constant S_ .f32 0x40000000#32),
    StableHlo.unary main_cst_17 main_v72 (broadcastInDim S50000x3 ![] bcast_S_S50000x3 : (⟨S_, .f32⟩ : BufTy).Contents (Elt F) → (⟨S50000x3, .f32⟩ : BufTy).Contents (Elt F)),
    StableHlo.binary main_v72 main_v71 main_v73 (mulf : (⟨S50000x3, .f32⟩ : BufTy).Contents (Elt F) → (⟨S50000x3, .f32⟩ : BufTy).Contents (Elt F) → (⟨S50000x3, .f32⟩ : BufTy).Contents (Elt F)),
    StableHlo.binary main_v73 main_v42 main_v74 (subf : (⟨S50000x3, .f32⟩ : BufTy).Contents (Elt F) → (⟨S50000x3, .f32⟩ : BufTy).Contents (Elt F) → (⟨S50000x3, .f32⟩ : BufTy).Contents (Elt F)),
    StableHlo.unary main_arg0 main_v75 (broadcastInDim S50000x1x3 ![0, 2] bcast_S50000x3_S50000x1x3_0_2 : (⟨S50000x3, .f32⟩ : BufTy).Contents (Elt F) → (⟨S50000x1x3, .f32⟩ : BufTy).Contents (Elt F)),
    StableHlo.unary main_v42 main_v76 (broadcastInDim S50000x1x3 ![0, 2] bcast_S50000x3_S50000x1x3_0_2 : (⟨S50000x3, .f32⟩ : BufTy).Contents (Elt F) → (⟨S50000x1x3, .f32⟩ : BufTy).Contents (Elt F)),
    StableHlo.unary main_v58 main_v77 (broadcastInDim S50000x1x3 ![0, 2] bcast_S50000x3_S50000x1x3_0_2 : (⟨S50000x3, .f32⟩ : BufTy).Contents (Elt F) → (⟨S50000x1x3, .f32⟩ : BufTy).Contents (Elt F)),
    StableHlo.unary main_v74 main_v78 (broadcastInDim S50000x1x3 ![0, 2] bcast_S50000x3_S50000x1x3_0_2 : (⟨S50000x3, .f32⟩ : BufTy).Contents (Elt F) → (⟨S50000x1x3, .f32⟩ : BufTy).Contents (Elt F)) ]

abbrev k02b_W : List (Ref sig .tc) := [main_v30, main_c_7, main_v31, main_v32, main_c_8, main_v33, main_v34, main_v35, main_v36, main_v37, main_v38, main_v39, main_cst_9, main_v40, main_v41, main_v42, main_v43, main_c_10, main_v44, main_v45, main_c_11, main_v46, main_v47, main_v48, main_v49, main_v50, main_v51, main_v52, main_cst_12, main_v53, main_v54, main_v55, main_cst_13, main_v56, main_v57, main_v58, main_v59, main_c_14, main_v60, main_v61, main_c_15, main_v62, main_v63, main_v64, main_v65, main_v66, main_v67, main_v68, main_cst_16, main_v69, main_v70, main_v71, main_cst_17, main_v72, main_v73, main_v74, main_v75, main_v76, main_v77, main_v78]
set_option maxRecDepth 8192 in
set_option maxHeartbeats 4000000 in
theorem k02b_writes : (k02b : List (HloOp τ sig (Elt F))).Forall fun op => op.writes ⊆ (k02b_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem k02b_keep (V : Valuation τ sig (Elt F)) (r : Ref sig .tc) (h : r ∉ k02b_W := by decide) :
    StableHlo.after k02b V (Proc.devRef .tc r) = V (Proc.devRef .tc r) := StableHlo.after_of_writes_sub k02b V k02b_writes h

/-- The first layer's stacked features, flattened weight and bias row. -/
abbrev k02c : List (HloOp τ sig (Elt F)) :=
  [ StableHlo.nary ![main_v75, main_v76, main_v77, main_v78] main_v79 (fun u => concatenate S50000x4x3 1 [⟨S50000x1x3, u 0⟩, ⟨S50000x1x3, u 1⟩, ⟨S50000x1x3, u 2⟩, ⟨S50000x1x3, u 3⟩] concatenates_S50000x1x3_S50000x1x3_S50000x1x3_S50000x1x3_S50000x4x3_d1),
    StableHlo.reshape main_v79 main_v80 rfl shapeCasts_S50000x4x3_S50000x12,
    StableHlo.unary main_v80 main_v81 ((truncf .bf16 · bitsLt_bf16_f32) : (⟨S50000x12, .f32⟩ : BufTy).Contents (Elt F) → (⟨S50000x12, .bf16⟩ : BufTy).Contents (Elt F)),
    StableHlo.reshape main_arg2 main_v82 rfl shapeCasts_S4x3x128_S12x128,
    StableHlo.unary main_v82 main_v83 ((truncf .bf16 · bitsLt_bf16_f32) : (⟨S12x128, .f32⟩ : BufTy).Contents (Elt F) → (⟨S12x128, .bf16⟩ : BufTy).Contents (Elt F)),
    StableHlo.reshape main_arg3 main_v84 rfl shapeCasts_S128_S1x128 ]

abbrev k02c_W : List (Ref sig .tc) := [main_v79, main_v80, main_v81, main_v82, main_v83, main_v84]
set_option maxRecDepth 8192 in
set_option maxHeartbeats 4000000 in
theorem k02c_writes : (k02c : List (HloOp τ sig (Elt F))).Forall fun op => op.writes ⊆ (k02c_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem k02c_keep (V : Valuation τ sig (Elt F)) (r : Ref sig .tc) (h : r ∉ k02c_W := by decide) :
    StableHlo.after k02c V (Proc.devRef .tc r) = V (Proc.devRef .tc r) := StableHlo.after_of_writes_sub k02c V k02c_writes h

set_option maxRecDepth 8192 in
theorem hostOps0_2_cut : (hostOps0_2 : List (HloOp τ sig (Elt F))) = k02a ++ (k02b ++ k02c) := rfl

/-- The layer's three propagated feature arrays, each with its unit middle axis. -/
abbrev k2a : List (HloOp τ sig (Elt F)) :=
  [ StableHlo.unary main_v29 main_v95 (broadcastInDim S800000x1 ![0] bcast_S800000_S800000x1_0 : (⟨S800000, .f32⟩ : BufTy).Contents (Elt F) → (⟨S800000x1, .f32⟩ : BufTy).Contents (Elt F)),
    StableHlo.nullary main_c_21 (constantI S_ 32 0#32),
    StableHlo.unary main_c_21 main_v96 (broadcastInDim S800000 ![] bcast_S_S800000 : (⟨S_, .i32⟩ : BufTy).Contents (Elt F) → (⟨S800000, .i32⟩ : BufTy).Contents (Elt F)),
    StableHlo.binary main_v1 main_v96 main_v97 (cmpi .slt : (⟨S800000, .i32⟩ : BufTy).Contents (Elt F) → (⟨S800000, .i32⟩ : BufTy).Contents (Elt F) → (⟨S800000, .i1⟩ : BufTy).Contents (Elt F)),
    StableHlo.nullary main_c_22 (constantI S_ 32 50000#32),
    StableHlo.unary main_c_22 main_v98 (broadcastInDim S800000 ![] bcast_S_S800000 : (⟨S_, .i32⟩ : BufTy).Contents (Elt F) → (⟨S800000, .i32⟩ : BufTy).Contents (Elt F)),
    StableHlo.binary main_v1 main_v98 main_v99 (addi : (⟨S800000, .i32⟩ : BufTy).Contents (Elt F) → (⟨S800000, .i32⟩ : BufTy).Contents (Elt F) → (⟨S800000, .i32⟩ : BufTy).Contents (Elt F)),
    StableHlo.ternary main_v97 main_v99 main_v1 main_v100 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v100 main_v101 (broadcastInDim S800000x1 ![0] bcast_S800000_S800000x1_0 : (⟨S800000, .i32⟩ : BufTy).Contents (Elt F) → (⟨S800000x1, .i32⟩ : BufTy).Contents (Elt F)),
    StableHlo.binary main_v94 main_v101 main_v102 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v95 main_v103 (broadcastInDim S800000x128 ![0, 1] bcast_S800000x1_S800000x128_0_1 : (⟨S800000x1, .f32⟩ : BufTy).Contents (Elt F) → (⟨S800000x128, .f32⟩ : BufTy).Contents (Elt F)),
    StableHlo.binary main_v103 main_v102 main_v104 (mulf : (⟨S800000x128, .f32⟩ : BufTy).Contents (Elt F) → (⟨S800000x128, .f32⟩ : BufTy).Contents (Elt F) → (⟨S800000x128, .f32⟩ : BufTy).Contents (Elt F)),
    StableHlo.nullary main_cst_23 (constant S_ .f32 0x00000000#32),
    StableHlo.unary main_cst_23 main_v105 (broadcastInDim S50000x128 ![] bcast_S_S50000x128 : (⟨S_, .f32⟩ : BufTy).Contents (Elt F) → (⟨S50000x128, .f32⟩ : BufTy).Contents (Elt F)),
    StableHlo.unary main_v3 main_v106 (broadcastInDim S800000x1 ![0] bcast_S800000_S800000x1_0 : (⟨S800000, .i32⟩ : BufTy).Contents (Elt F) → (⟨S800000x1, .i32⟩ : BufTy).Contents (Elt F)),
    StableHlo.ternary main_v105 main_v106 main_v104 main_v107 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v29 main_v108 (broadcastInDim S800000x1 ![0] bcast_S800000_S800000x1_0 : (⟨S800000, .f32⟩ : BufTy).Contents (Elt F) → (⟨S800000x1, .f32⟩ : BufTy).Contents (Elt F)),
    StableHlo.nullary main_c_24 (constantI S_ 32 0#32),
    StableHlo.unary main_c_24 main_v109 (broadcastInDim S800000 ![] bcast_S_S800000 : (⟨S_, .i32⟩ : BufTy).Contents (Elt F) → (⟨S800000, .i32⟩ : BufTy).Contents (Elt F)),
    StableHlo.binary main_v1 main_v109 main_v110 (cmpi .slt : (⟨S800000, .i32⟩ : BufTy).Contents (Elt F) → (⟨S800000, .i32⟩ : BufTy).Contents (Elt F) → (⟨S800000, .i1⟩ : BufTy).Contents (Elt F)),
    StableHlo.nullary main_c_25 (constantI S_ 32 50000#32),
    StableHlo.unary main_c_25 main_v111 (broadcastInDim S800000 ![] bcast_S_S800000 : (⟨S_, .i32⟩ : BufTy).Contents (Elt F) → (⟨S800000, .i32⟩ : BufTy).Contents (Elt F)),
    StableHlo.binary main_v1 main_v111 main_v112 (addi : (⟨S800000, .i32⟩ : BufTy).Contents (Elt F) → (⟨S800000, .i32⟩ : BufTy).Contents (Elt F) → (⟨S800000, .i32⟩ : BufTy).Contents (Elt F)),
    StableHlo.ternary main_v110 main_v112 main_v1 main_v113 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v113 main_v114 (broadcastInDim S800000x1 ![0] bcast_S800000_S800000x1_0 : (⟨S800000, .i32⟩ : BufTy).Contents (Elt F) → (⟨S800000x1, .i32⟩ : BufTy).Contents (Elt F)),
    StableHlo.binary main_v107 main_v114 main_v115 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v108 main_v116 (broadcastInDim S800000x128 ![0, 1] bcast_S800000x1_S800000x128_0_1 : (⟨S800000x1, .f32⟩ : BufTy).Contents (Elt F) → (⟨S800000x128, .f32⟩ : BufTy).Contents (Elt F)),
    StableHlo.binary main_v116 main_v115 main_v117 (mulf : (⟨S800000x128, .f32⟩ : BufTy).Contents (Elt F) → (⟨S800000x128, .f32⟩ : BufTy).Contents (Elt F) → (⟨S800000x128, .f32⟩ : BufTy).Contents (Elt F)),
    StableHlo.nullary main_cst_26 (constant S_ .f32 0x00000000#32),
    StableHlo.unary main_cst_26 main_v118 (broadcastInDim S50000x128 ![] bcast_S_S50000x128 : (⟨S_, .f32⟩ : BufTy).Contents (Elt F) → (⟨S50000x128, .f32⟩ : BufTy).Contents (Elt F)),
    StableHlo.unary main_v3 main_v119 (broadcastInDim S800000x1 ![0] bcast_S800000_S800000x1_0 : (⟨S800000, .i32⟩ : BufTy).Contents (Elt F) → (⟨S800000x1, .i32⟩ : BufTy).Contents (Elt F)),
    StableHlo.ternary main_v118 main_v119 main_v117 main_v120 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_27 (constant S_ .f32 0x40000000#32),
    StableHlo.unary main_cst_27 main_v121 (broadcastInDim S50000x128 ![] bcast_S_S50000x128 : (⟨S_, .f32⟩ : BufTy).Contents (Elt F) → (⟨S50000x128, .f32⟩ : BufTy).Contents (Elt F)),
    StableHlo.binary main_v121 main_v120 main_v122 (mulf : (⟨S50000x128, .f32⟩ : BufTy).Contents (Elt F) → (⟨S50000x128, .f32⟩ : BufTy).Contents (Elt F) → (⟨S50000x128, .f32⟩ : BufTy).Contents (Elt F)),
    StableHlo.binary main_v122 main_v94 main_v123 (subf : (⟨S50000x128, .f32⟩ : BufTy).Contents (Elt F) → (⟨S50000x128, .f32⟩ : BufTy).Contents (Elt F) → (⟨S50000x128, .f32⟩ : BufTy).Contents (Elt F)),
    StableHlo.unary main_v29 main_v124 (broadcastInDim S800000x1 ![0] bcast_S800000_S800000x1_0 : (⟨S800000, .f32⟩ : BufTy).Contents (Elt F) → (⟨S800000x1, .f32⟩ : BufTy).Contents (Elt F)),
    StableHlo.nullary main_c_28 (constantI S_ 32 0#32),
    StableHlo.unary main_c_28 main_v125 (broadcastInDim S800000 ![] bcast_S_S800000 : (⟨S_, .i32⟩ : BufTy).Contents (Elt F) → (⟨S800000, .i32⟩ : BufTy).Contents (Elt F)),
    StableHlo.binary main_v1 main_v125 main_v126 (cmpi .slt : (⟨S800000, .i32⟩ : BufTy).Contents (Elt F) → (⟨S800000, .i32⟩ : BufTy).Contents (Elt F) → (⟨S800000, .i1⟩ : BufTy).Contents (Elt F)),
    StableHlo.nullary main_c_29 (constantI S_ 32 50000#32),
    StableHlo.unary main_c_29 main_v127 (broadcastInDim S800000 ![] bcast_S_S800000 : (⟨S_, .i32⟩ : BufTy).Contents (Elt F) → (⟨S800000, .i32⟩ : BufTy).Contents (Elt F)),
    StableHlo.binary main_v1 main_v127 main_v128 (addi : (⟨S800000, .i32⟩ : BufTy).Contents (Elt F) → (⟨S800000, .i32⟩ : BufTy).Contents (Elt F) → (⟨S800000, .i32⟩ : BufTy).Contents (Elt F)),
    StableHlo.ternary main_v126 main_v128 main_v1 main_v129 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v129 main_v130 (broadcastInDim S800000x1 ![0] bcast_S800000_S800000x1_0 : (⟨S800000, .i32⟩ : BufTy).Contents (Elt F) → (⟨S800000x1, .i32⟩ : BufTy).Contents (Elt F)),
    StableHlo.binary main_v123 main_v130 main_v131 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v124 main_v132 (broadcastInDim S800000x128 ![0, 1] bcast_S800000x1_S800000x128_0_1 : (⟨S800000x1, .f32⟩ : BufTy).Contents (Elt F) → (⟨S800000x128, .f32⟩ : BufTy).Contents (Elt F)),
    StableHlo.binary main_v132 main_v131 main_v133 (mulf : (⟨S800000x128, .f32⟩ : BufTy).Contents (Elt F) → (⟨S800000x128, .f32⟩ : BufTy).Contents (Elt F) → (⟨S800000x128, .f32⟩ : BufTy).Contents (Elt F)),
    StableHlo.nullary main_cst_30 (constant S_ .f32 0x00000000#32),
    StableHlo.unary main_cst_30 main_v134 (broadcastInDim S50000x128 ![] bcast_S_S50000x128 : (⟨S_, .f32⟩ : BufTy).Contents (Elt F) → (⟨S50000x128, .f32⟩ : BufTy).Contents (Elt F)),
    StableHlo.unary main_v3 main_v135 (broadcastInDim S800000x1 ![0] bcast_S800000_S800000x1_0 : (⟨S800000, .i32⟩ : BufTy).Contents (Elt F) → (⟨S800000x1, .i32⟩ : BufTy).Contents (Elt F)),
    StableHlo.ternary main_v134 main_v135 main_v133 main_v136 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_31 (constant S_ .f32 0x40000000#32),
    StableHlo.unary main_cst_31 main_v137 (broadcastInDim S50000x128 ![] bcast_S_S50000x128 : (⟨S_, .f32⟩ : BufTy).Contents (Elt F) → (⟨S50000x128, .f32⟩ : BufTy).Contents (Elt F)),
    StableHlo.binary main_v137 main_v136 main_v138 (mulf : (⟨S50000x128, .f32⟩ : BufTy).Contents (Elt F) → (⟨S50000x128, .f32⟩ : BufTy).Contents (Elt F) → (⟨S50000x128, .f32⟩ : BufTy).Contents (Elt F)),
    StableHlo.binary main_v138 main_v107 main_v139 (subf : (⟨S50000x128, .f32⟩ : BufTy).Contents (Elt F) → (⟨S50000x128, .f32⟩ : BufTy).Contents (Elt F) → (⟨S50000x128, .f32⟩ : BufTy).Contents (Elt F)),
    StableHlo.unary main_v94 main_v140 (broadcastInDim S50000x1x128 ![0, 2] bcast_S50000x128_S50000x1x128_0_2 : (⟨S50000x128, .f32⟩ : BufTy).Contents (Elt F) → (⟨S50000x1x128, .f32⟩ : BufTy).Contents (Elt F)),
    StableHlo.unary main_v107 main_v141 (broadcastInDim S50000x1x128 ![0, 2] bcast_S50000x128_S50000x1x128_0_2 : (⟨S50000x128, .f32⟩ : BufTy).Contents (Elt F) → (⟨S50000x1x128, .f32⟩ : BufTy).Contents (Elt F)),
    StableHlo.unary main_v123 main_v142 (broadcastInDim S50000x1x128 ![0, 2] bcast_S50000x128_S50000x1x128_0_2 : (⟨S50000x128, .f32⟩ : BufTy).Contents (Elt F) → (⟨S50000x1x128, .f32⟩ : BufTy).Contents (Elt F)),
    StableHlo.unary main_v139 main_v143 (broadcastInDim S50000x1x128 ![0, 2] bcast_S50000x128_S50000x1x128_0_2 : (⟨S50000x128, .f32⟩ : BufTy).Contents (Elt F) → (⟨S50000x1x128, .f32⟩ : BufTy).Contents (Elt F)) ]

abbrev k2a_W : List (Ref sig .tc) := [main_v95, main_c_21, main_v96, main_v97, main_c_22, main_v98, main_v99, main_v100, main_v101, main_v102, main_v103, main_v104, main_cst_23, main_v105, main_v106, main_v107, main_v108, main_c_24, main_v109, main_v110, main_c_25, main_v111, main_v112, main_v113, main_v114, main_v115, main_v116, main_v117, main_cst_26, main_v118, main_v119, main_v120, main_cst_27, main_v121, main_v122, main_v123, main_v124, main_c_28, main_v125, main_v126, main_c_29, main_v127, main_v128, main_v129, main_v130, main_v131, main_v132, main_v133, main_cst_30, main_v134, main_v135, main_v136, main_cst_31, main_v137, main_v138, main_v139, main_v140, main_v141, main_v142, main_v143]
set_option maxRecDepth 8192 in
set_option maxHeartbeats 4000000 in
theorem k2a_writes : (k2a : List (HloOp τ sig (Elt F))).Forall fun op => op.writes ⊆ (k2a_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem k2a_keep (V : Valuation τ sig (Elt F)) (r : Ref sig .tc) (h : r ∉ k2a_W := by decide) :
    StableHlo.after k2a V (Proc.devRef .tc r) = V (Proc.devRef .tc r) := StableHlo.after_of_writes_sub k2a V k2a_writes h

/-- The layer's stacked features, flattened weight and bias row. -/
abbrev k2b : List (HloOp τ sig (Elt F)) :=
  [ StableHlo.nary ![main_v140, main_v141, main_v142, main_v143] main_v144 (fun u => concatenate S50000x4x128 1 [⟨S50000x1x128, u 0⟩, ⟨S50000x1x128, u 1⟩, ⟨S50000x1x128, u 2⟩, ⟨S50000x1x128, u 3⟩] concatenates_S50000x1x128_S50000x1x128_S50000x1x128_S50000x1x128_S50000x4x128_d1),
    StableHlo.reshape main_v144 main_v145 rfl shapeCasts_S50000x4x128_S50000x512,
    StableHlo.unary main_v145 main_v146 ((truncf .bf16 · bitsLt_bf16_f32) : (⟨S50000x512, .f32⟩ : BufTy).Contents (Elt F) → (⟨S50000x512, .bf16⟩ : BufTy).Contents (Elt F)),
    StableHlo.reshape main_arg6 main_v147 rfl shapeCasts_S4x128x128_S512x128,
    StableHlo.unary main_v147 main_v148 ((truncf .bf16 · bitsLt_bf16_f32) : (⟨S512x128, .f32⟩ : BufTy).Contents (Elt F) → (⟨S512x128, .bf16⟩ : BufTy).Contents (Elt F)),
    StableHlo.reshape main_arg7 main_v149 rfl shapeCasts_S128_S1x128 ]

abbrev k2b_W : List (Ref sig .tc) := [main_v144, main_v145, main_v146, main_v147, main_v148, main_v149]
set_option maxRecDepth 8192 in
set_option maxHeartbeats 4000000 in
theorem k2b_writes : (k2b : List (HloOp τ sig (Elt F))).Forall fun op => op.writes ⊆ (k2b_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem k2b_keep (V : Valuation τ sig (Elt F)) (r : Ref sig .tc) (h : r ∉ k2b_W := by decide) :
    StableHlo.after k2b V (Proc.devRef .tc r) = V (Proc.devRef .tc r) := StableHlo.after_of_writes_sub k2b V k2b_writes h

set_option maxRecDepth 8192 in
theorem hostOps2_cut : (hostOps2 : List (HloOp τ sig (Elt F))) = k2a ++ k2b := rfl

/-- The layer's three propagated feature arrays, each with its unit middle axis. -/
abbrev k4a : List (HloOp τ sig (Elt F)) :=
  [ StableHlo.unary main_v29 main_v160 (broadcastInDim S800000x1 ![0] bcast_S800000_S800000x1_0 : (⟨S800000, .f32⟩ : BufTy).Contents (Elt F) → (⟨S800000x1, .f32⟩ : BufTy).Contents (Elt F)),
    StableHlo.nullary main_c_35 (constantI S_ 32 0#32),
    StableHlo.unary main_c_35 main_v161 (broadcastInDim S800000 ![] bcast_S_S800000 : (⟨S_, .i32⟩ : BufTy).Contents (Elt F) → (⟨S800000, .i32⟩ : BufTy).Contents (Elt F)),
    StableHlo.binary main_v1 main_v161 main_v162 (cmpi .slt : (⟨S800000, .i32⟩ : BufTy).Contents (Elt F) → (⟨S800000, .i32⟩ : BufTy).Contents (Elt F) → (⟨S800000, .i1⟩ : BufTy).Contents (Elt F)),
    StableHlo.nullary main_c_36 (constantI S_ 32 50000#32),
    StableHlo.unary main_c_36 main_v163 (broadcastInDim S800000 ![] bcast_S_S800000 : (⟨S_, .i32⟩ : BufTy).Contents (Elt F) → (⟨S800000, .i32⟩ : BufTy).Contents (Elt F)),
    StableHlo.binary main_v1 main_v163 main_v164 (addi : (⟨S800000, .i32⟩ : BufTy).Contents (Elt F) → (⟨S800000, .i32⟩ : BufTy).Contents (Elt F) → (⟨S800000, .i32⟩ : BufTy).Contents (Elt F)),
    StableHlo.ternary main_v162 main_v164 main_v1 main_v165 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v165 main_v166 (broadcastInDim S800000x1 ![0] bcast_S800000_S800000x1_0 : (⟨S800000, .i32⟩ : BufTy).Contents (Elt F) → (⟨S800000x1, .i32⟩ : BufTy).Contents (Elt F)),
    StableHlo.binary main_v159 main_v166 main_v167 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v160 main_v168 (broadcastInDim S800000x128 ![0, 1] bcast_S800000x1_S800000x128_0_1 : (⟨S800000x1, .f32⟩ : BufTy).Contents (Elt F) → (⟨S800000x128, .f32⟩ : BufTy).Contents (Elt F)),
    StableHlo.binary main_v168 main_v167 main_v169 (mulf : (⟨S800000x128, .f32⟩ : BufTy).Contents (Elt F) → (⟨S800000x128, .f32⟩ : BufTy).Contents (Elt F) → (⟨S800000x128, .f32⟩ : BufTy).Contents (Elt F)),
    StableHlo.nullary main_cst_37 (constant S_ .f32 0x00000000#32),
    StableHlo.unary main_cst_37 main_v170 (broadcastInDim S50000x128 ![] bcast_S_S50000x128 : (⟨S_, .f32⟩ : BufTy).Contents (Elt F) → (⟨S50000x128, .f32⟩ : BufTy).Contents (Elt F)),
    StableHlo.unary main_v3 main_v171 (broadcastInDim S800000x1 ![0] bcast_S800000_S800000x1_0 : (⟨S800000, .i32⟩ : BufTy).Contents (Elt F) → (⟨S800000x1, .i32⟩ : BufTy).Contents (Elt F)),
    StableHlo.ternary main_v170 main_v171 main_v169 main_v172 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v29 main_v173 (broadcastInDim S800000x1 ![0] bcast_S800000_S800000x1_0 : (⟨S800000, .f32⟩ : BufTy).Contents (Elt F) → (⟨S800000x1, .f32⟩ : BufTy).Contents (Elt F)),
    StableHlo.nullary main_c_38 (constantI S_ 32 0#32),
    StableHlo.unary main_c_38 main_v174 (broadcastInDim S800000 ![] bcast_S_S800000 : (⟨S_, .i32⟩ : BufTy).Contents (Elt F) → (⟨S800000, .i32⟩ : BufTy).Contents (Elt F)),
    StableHlo.binary main_v1 main_v174 main_v175 (cmpi .slt : (⟨S800000, .i32⟩ : BufTy).Contents (Elt F) → (⟨S800000, .i32⟩ : BufTy).Contents (Elt F) → (⟨S800000, .i1⟩ : BufTy).Contents (Elt F)),
    StableHlo.nullary main_c_39 (constantI S_ 32 50000#32),
    StableHlo.unary main_c_39 main_v176 (broadcastInDim S800000 ![] bcast_S_S800000 : (⟨S_, .i32⟩ : BufTy).Contents (Elt F) → (⟨S800000, .i32⟩ : BufTy).Contents (Elt F)),
    StableHlo.binary main_v1 main_v176 main_v177 (addi : (⟨S800000, .i32⟩ : BufTy).Contents (Elt F) → (⟨S800000, .i32⟩ : BufTy).Contents (Elt F) → (⟨S800000, .i32⟩ : BufTy).Contents (Elt F)),
    StableHlo.ternary main_v175 main_v177 main_v1 main_v178 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v178 main_v179 (broadcastInDim S800000x1 ![0] bcast_S800000_S800000x1_0 : (⟨S800000, .i32⟩ : BufTy).Contents (Elt F) → (⟨S800000x1, .i32⟩ : BufTy).Contents (Elt F)),
    StableHlo.binary main_v172 main_v179 main_v180 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v173 main_v181 (broadcastInDim S800000x128 ![0, 1] bcast_S800000x1_S800000x128_0_1 : (⟨S800000x1, .f32⟩ : BufTy).Contents (Elt F) → (⟨S800000x128, .f32⟩ : BufTy).Contents (Elt F)),
    StableHlo.binary main_v181 main_v180 main_v182 (mulf : (⟨S800000x128, .f32⟩ : BufTy).Contents (Elt F) → (⟨S800000x128, .f32⟩ : BufTy).Contents (Elt F) → (⟨S800000x128, .f32⟩ : BufTy).Contents (Elt F)),
    StableHlo.nullary main_cst_40 (constant S_ .f32 0x00000000#32),
    StableHlo.unary main_cst_40 main_v183 (broadcastInDim S50000x128 ![] bcast_S_S50000x128 : (⟨S_, .f32⟩ : BufTy).Contents (Elt F) → (⟨S50000x128, .f32⟩ : BufTy).Contents (Elt F)),
    StableHlo.unary main_v3 main_v184 (broadcastInDim S800000x1 ![0] bcast_S800000_S800000x1_0 : (⟨S800000, .i32⟩ : BufTy).Contents (Elt F) → (⟨S800000x1, .i32⟩ : BufTy).Contents (Elt F)),
    StableHlo.ternary main_v183 main_v184 main_v182 main_v185 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_41 (constant S_ .f32 0x40000000#32),
    StableHlo.unary main_cst_41 main_v186 (broadcastInDim S50000x128 ![] bcast_S_S50000x128 : (⟨S_, .f32⟩ : BufTy).Contents (Elt F) → (⟨S50000x128, .f32⟩ : BufTy).Contents (Elt F)),
    StableHlo.binary main_v186 main_v185 main_v187 (mulf : (⟨S50000x128, .f32⟩ : BufTy).Contents (Elt F) → (⟨S50000x128, .f32⟩ : BufTy).Contents (Elt F) → (⟨S50000x128, .f32⟩ : BufTy).Contents (Elt F)),
    StableHlo.binary main_v187 main_v159 main_v188 (subf : (⟨S50000x128, .f32⟩ : BufTy).Contents (Elt F) → (⟨S50000x128, .f32⟩ : BufTy).Contents (Elt F) → (⟨S50000x128, .f32⟩ : BufTy).Contents (Elt F)),
    StableHlo.unary main_v29 main_v189 (broadcastInDim S800000x1 ![0] bcast_S800000_S800000x1_0 : (⟨S800000, .f32⟩ : BufTy).Contents (Elt F) → (⟨S800000x1, .f32⟩ : BufTy).Contents (Elt F)),
    StableHlo.nullary main_c_42 (constantI S_ 32 0#32),
    StableHlo.unary main_c_42 main_v190 (broadcastInDim S800000 ![] bcast_S_S800000 : (⟨S_, .i32⟩ : BufTy).Contents (Elt F) → (⟨S800000, .i32⟩ : BufTy).Contents (Elt F)),
    StableHlo.binary main_v1 main_v190 main_v191 (cmpi .slt : (⟨S800000, .i32⟩ : BufTy).Contents (Elt F) → (⟨S800000, .i32⟩ : BufTy).Contents (Elt F) → (⟨S800000, .i1⟩ : BufTy).Contents (Elt F)),
    StableHlo.nullary main_c_43 (constantI S_ 32 50000#32),
    StableHlo.unary main_c_43 main_v192 (broadcastInDim S800000 ![] bcast_S_S800000 : (⟨S_, .i32⟩ : BufTy).Contents (Elt F) → (⟨S800000, .i32⟩ : BufTy).Contents (Elt F)),
    StableHlo.binary main_v1 main_v192 main_v193 (addi : (⟨S800000, .i32⟩ : BufTy).Contents (Elt F) → (⟨S800000, .i32⟩ : BufTy).Contents (Elt F) → (⟨S800000, .i32⟩ : BufTy).Contents (Elt F)),
    StableHlo.ternary main_v191 main_v193 main_v1 main_v194 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v194 main_v195 (broadcastInDim S800000x1 ![0] bcast_S800000_S800000x1_0 : (⟨S800000, .i32⟩ : BufTy).Contents (Elt F) → (⟨S800000x1, .i32⟩ : BufTy).Contents (Elt F)),
    StableHlo.binary main_v188 main_v195 main_v196 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v189 main_v197 (broadcastInDim S800000x128 ![0, 1] bcast_S800000x1_S800000x128_0_1 : (⟨S800000x1, .f32⟩ : BufTy).Contents (Elt F) → (⟨S800000x128, .f32⟩ : BufTy).Contents (Elt F)),
    StableHlo.binary main_v197 main_v196 main_v198 (mulf : (⟨S800000x128, .f32⟩ : BufTy).Contents (Elt F) → (⟨S800000x128, .f32⟩ : BufTy).Contents (Elt F) → (⟨S800000x128, .f32⟩ : BufTy).Contents (Elt F)),
    StableHlo.nullary main_cst_44 (constant S_ .f32 0x00000000#32),
    StableHlo.unary main_cst_44 main_v199 (broadcastInDim S50000x128 ![] bcast_S_S50000x128 : (⟨S_, .f32⟩ : BufTy).Contents (Elt F) → (⟨S50000x128, .f32⟩ : BufTy).Contents (Elt F)),
    StableHlo.unary main_v3 main_v200 (broadcastInDim S800000x1 ![0] bcast_S800000_S800000x1_0 : (⟨S800000, .i32⟩ : BufTy).Contents (Elt F) → (⟨S800000x1, .i32⟩ : BufTy).Contents (Elt F)),
    StableHlo.ternary main_v199 main_v200 main_v198 main_v201 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_45 (constant S_ .f32 0x40000000#32),
    StableHlo.unary main_cst_45 main_v202 (broadcastInDim S50000x128 ![] bcast_S_S50000x128 : (⟨S_, .f32⟩ : BufTy).Contents (Elt F) → (⟨S50000x128, .f32⟩ : BufTy).Contents (Elt F)),
    StableHlo.binary main_v202 main_v201 main_v203 (mulf : (⟨S50000x128, .f32⟩ : BufTy).Contents (Elt F) → (⟨S50000x128, .f32⟩ : BufTy).Contents (Elt F) → (⟨S50000x128, .f32⟩ : BufTy).Contents (Elt F)),
    StableHlo.binary main_v203 main_v172 main_v204 (subf : (⟨S50000x128, .f32⟩ : BufTy).Contents (Elt F) → (⟨S50000x128, .f32⟩ : BufTy).Contents (Elt F) → (⟨S50000x128, .f32⟩ : BufTy).Contents (Elt F)),
    StableHlo.unary main_v159 main_v205 (broadcastInDim S50000x1x128 ![0, 2] bcast_S50000x128_S50000x1x128_0_2 : (⟨S50000x128, .f32⟩ : BufTy).Contents (Elt F) → (⟨S50000x1x128, .f32⟩ : BufTy).Contents (Elt F)),
    StableHlo.unary main_v172 main_v206 (broadcastInDim S50000x1x128 ![0, 2] bcast_S50000x128_S50000x1x128_0_2 : (⟨S50000x128, .f32⟩ : BufTy).Contents (Elt F) → (⟨S50000x1x128, .f32⟩ : BufTy).Contents (Elt F)),
    StableHlo.unary main_v188 main_v207 (broadcastInDim S50000x1x128 ![0, 2] bcast_S50000x128_S50000x1x128_0_2 : (⟨S50000x128, .f32⟩ : BufTy).Contents (Elt F) → (⟨S50000x1x128, .f32⟩ : BufTy).Contents (Elt F)),
    StableHlo.unary main_v204 main_v208 (broadcastInDim S50000x1x128 ![0, 2] bcast_S50000x128_S50000x1x128_0_2 : (⟨S50000x128, .f32⟩ : BufTy).Contents (Elt F) → (⟨S50000x1x128, .f32⟩ : BufTy).Contents (Elt F)) ]

abbrev k4a_W : List (Ref sig .tc) := [main_v160, main_c_35, main_v161, main_v162, main_c_36, main_v163, main_v164, main_v165, main_v166, main_v167, main_v168, main_v169, main_cst_37, main_v170, main_v171, main_v172, main_v173, main_c_38, main_v174, main_v175, main_c_39, main_v176, main_v177, main_v178, main_v179, main_v180, main_v181, main_v182, main_cst_40, main_v183, main_v184, main_v185, main_cst_41, main_v186, main_v187, main_v188, main_v189, main_c_42, main_v190, main_v191, main_c_43, main_v192, main_v193, main_v194, main_v195, main_v196, main_v197, main_v198, main_cst_44, main_v199, main_v200, main_v201, main_cst_45, main_v202, main_v203, main_v204, main_v205, main_v206, main_v207, main_v208]
set_option maxRecDepth 8192 in
set_option maxHeartbeats 4000000 in
theorem k4a_writes : (k4a : List (HloOp τ sig (Elt F))).Forall fun op => op.writes ⊆ (k4a_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem k4a_keep (V : Valuation τ sig (Elt F)) (r : Ref sig .tc) (h : r ∉ k4a_W := by decide) :
    StableHlo.after k4a V (Proc.devRef .tc r) = V (Proc.devRef .tc r) := StableHlo.after_of_writes_sub k4a V k4a_writes h

/-- The layer's stacked features, flattened weight and bias row. -/
abbrev k4b : List (HloOp τ sig (Elt F)) :=
  [ StableHlo.nary ![main_v205, main_v206, main_v207, main_v208] main_v209 (fun u => concatenate S50000x4x128 1 [⟨S50000x1x128, u 0⟩, ⟨S50000x1x128, u 1⟩, ⟨S50000x1x128, u 2⟩, ⟨S50000x1x128, u 3⟩] concatenates_S50000x1x128_S50000x1x128_S50000x1x128_S50000x1x128_S50000x4x128_d1),
    StableHlo.reshape main_v209 main_v210 rfl shapeCasts_S50000x4x128_S50000x512,
    StableHlo.unary main_v210 main_v211 ((truncf .bf16 · bitsLt_bf16_f32) : (⟨S50000x512, .f32⟩ : BufTy).Contents (Elt F) → (⟨S50000x512, .bf16⟩ : BufTy).Contents (Elt F)),
    StableHlo.reshape main_arg10 main_v212 rfl shapeCasts_S4x128x128_S512x128,
    StableHlo.unary main_v212 main_v213 ((truncf .bf16 · bitsLt_bf16_f32) : (⟨S512x128, .f32⟩ : BufTy).Contents (Elt F) → (⟨S512x128, .bf16⟩ : BufTy).Contents (Elt F)),
    StableHlo.reshape main_arg11 main_v214 rfl shapeCasts_S128_S1x128 ]

abbrev k4b_W : List (Ref sig .tc) := [main_v209, main_v210, main_v211, main_v212, main_v213, main_v214]
set_option maxRecDepth 8192 in
set_option maxHeartbeats 4000000 in
theorem k4b_writes : (k4b : List (HloOp τ sig (Elt F))).Forall fun op => op.writes ⊆ (k4b_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem k4b_keep (V : Valuation τ sig (Elt F)) (r : Ref sig .tc) (h : r ∉ k4b_W := by decide) :
    StableHlo.after k4b V (Proc.devRef .tc r) = V (Proc.devRef .tc r) := StableHlo.after_of_writes_sub k4b V k4b_writes h

set_option maxRecDepth 8192 in
theorem hostOps4_cut : (hostOps4 : List (HloOp τ sig (Elt F))) = k4a ++ k4b := rfl

/-- The layer's three propagated feature arrays, each with its unit middle axis. -/
abbrev k6a : List (HloOp τ sig (Elt F)) :=
  [ StableHlo.unary main_v29 main_v225 (broadcastInDim S800000x1 ![0] bcast_S800000_S800000x1_0 : (⟨S800000, .f32⟩ : BufTy).Contents (Elt F) → (⟨S800000x1, .f32⟩ : BufTy).Contents (Elt F)),
    StableHlo.nullary main_c_49 (constantI S_ 32 0#32),
    StableHlo.unary main_c_49 main_v226 (broadcastInDim S800000 ![] bcast_S_S800000 : (⟨S_, .i32⟩ : BufTy).Contents (Elt F) → (⟨S800000, .i32⟩ : BufTy).Contents (Elt F)),
    StableHlo.binary main_v1 main_v226 main_v227 (cmpi .slt : (⟨S800000, .i32⟩ : BufTy).Contents (Elt F) → (⟨S800000, .i32⟩ : BufTy).Contents (Elt F) → (⟨S800000, .i1⟩ : BufTy).Contents (Elt F)),
    StableHlo.nullary main_c_50 (constantI S_ 32 50000#32),
    StableHlo.unary main_c_50 main_v228 (broadcastInDim S800000 ![] bcast_S_S800000 : (⟨S_, .i32⟩ : BufTy).Contents (Elt F) → (⟨S800000, .i32⟩ : BufTy).Contents (Elt F)),
    StableHlo.binary main_v1 main_v228 main_v229 (addi : (⟨S800000, .i32⟩ : BufTy).Contents (Elt F) → (⟨S800000, .i32⟩ : BufTy).Contents (Elt F) → (⟨S800000, .i32⟩ : BufTy).Contents (Elt F)),
    StableHlo.ternary main_v227 main_v229 main_v1 main_v230 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v230 main_v231 (broadcastInDim S800000x1 ![0] bcast_S800000_S800000x1_0 : (⟨S800000, .i32⟩ : BufTy).Contents (Elt F) → (⟨S800000x1, .i32⟩ : BufTy).Contents (Elt F)),
    StableHlo.binary main_v224 main_v231 main_v232 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v225 main_v233 (broadcastInDim S800000x128 ![0, 1] bcast_S800000x1_S800000x128_0_1 : (⟨S800000x1, .f32⟩ : BufTy).Contents (Elt F) → (⟨S800000x128, .f32⟩ : BufTy).Contents (Elt F)),
    StableHlo.binary main_v233 main_v232 main_v234 (mulf : (⟨S800000x128, .f32⟩ : BufTy).Contents (Elt F) → (⟨S800000x128, .f32⟩ : BufTy).Contents (Elt F) → (⟨S800000x128, .f32⟩ : BufTy).Contents (Elt F)),
    StableHlo.nullary main_cst_51 (constant S_ .f32 0x00000000#32),
    StableHlo.unary main_cst_51 main_v235 (broadcastInDim S50000x128 ![] bcast_S_S50000x128 : (⟨S_, .f32⟩ : BufTy).Contents (Elt F) → (⟨S50000x128, .f32⟩ : BufTy).Contents (Elt F)),
    StableHlo.unary main_v3 main_v236 (broadcastInDim S800000x1 ![0] bcast_S800000_S800000x1_0 : (⟨S800000, .i32⟩ : BufTy).Contents (Elt F) → (⟨S800000x1, .i32⟩ : BufTy).Contents (Elt F)),
    StableHlo.ternary main_v235 main_v236 main_v234 main_v237 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v29 main_v238 (broadcastInDim S800000x1 ![0] bcast_S800000_S800000x1_0 : (⟨S800000, .f32⟩ : BufTy).Contents (Elt F) → (⟨S800000x1, .f32⟩ : BufTy).Contents (Elt F)),
    StableHlo.nullary main_c_52 (constantI S_ 32 0#32),
    StableHlo.unary main_c_52 main_v239 (broadcastInDim S800000 ![] bcast_S_S800000 : (⟨S_, .i32⟩ : BufTy).Contents (Elt F) → (⟨S800000, .i32⟩ : BufTy).Contents (Elt F)),
    StableHlo.binary main_v1 main_v239 main_v240 (cmpi .slt : (⟨S800000, .i32⟩ : BufTy).Contents (Elt F) → (⟨S800000, .i32⟩ : BufTy).Contents (Elt F) → (⟨S800000, .i1⟩ : BufTy).Contents (Elt F)),
    StableHlo.nullary main_c_53 (constantI S_ 32 50000#32),
    StableHlo.unary main_c_53 main_v241 (broadcastInDim S800000 ![] bcast_S_S800000 : (⟨S_, .i32⟩ : BufTy).Contents (Elt F) → (⟨S800000, .i32⟩ : BufTy).Contents (Elt F)),
    StableHlo.binary main_v1 main_v241 main_v242 (addi : (⟨S800000, .i32⟩ : BufTy).Contents (Elt F) → (⟨S800000, .i32⟩ : BufTy).Contents (Elt F) → (⟨S800000, .i32⟩ : BufTy).Contents (Elt F)),
    StableHlo.ternary main_v240 main_v242 main_v1 main_v243 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v243 main_v244 (broadcastInDim S800000x1 ![0] bcast_S800000_S800000x1_0 : (⟨S800000, .i32⟩ : BufTy).Contents (Elt F) → (⟨S800000x1, .i32⟩ : BufTy).Contents (Elt F)),
    StableHlo.binary main_v237 main_v244 main_v245 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v238 main_v246 (broadcastInDim S800000x128 ![0, 1] bcast_S800000x1_S800000x128_0_1 : (⟨S800000x1, .f32⟩ : BufTy).Contents (Elt F) → (⟨S800000x128, .f32⟩ : BufTy).Contents (Elt F)),
    StableHlo.binary main_v246 main_v245 main_v247 (mulf : (⟨S800000x128, .f32⟩ : BufTy).Contents (Elt F) → (⟨S800000x128, .f32⟩ : BufTy).Contents (Elt F) → (⟨S800000x128, .f32⟩ : BufTy).Contents (Elt F)),
    StableHlo.nullary main_cst_54 (constant S_ .f32 0x00000000#32),
    StableHlo.unary main_cst_54 main_v248 (broadcastInDim S50000x128 ![] bcast_S_S50000x128 : (⟨S_, .f32⟩ : BufTy).Contents (Elt F) → (⟨S50000x128, .f32⟩ : BufTy).Contents (Elt F)),
    StableHlo.unary main_v3 main_v249 (broadcastInDim S800000x1 ![0] bcast_S800000_S800000x1_0 : (⟨S800000, .i32⟩ : BufTy).Contents (Elt F) → (⟨S800000x1, .i32⟩ : BufTy).Contents (Elt F)),
    StableHlo.ternary main_v248 main_v249 main_v247 main_v250 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_55 (constant S_ .f32 0x40000000#32),
    StableHlo.unary main_cst_55 main_v251 (broadcastInDim S50000x128 ![] bcast_S_S50000x128 : (⟨S_, .f32⟩ : BufTy).Contents (Elt F) → (⟨S50000x128, .f32⟩ : BufTy).Contents (Elt F)),
    StableHlo.binary main_v251 main_v250 main_v252 (mulf : (⟨S50000x128, .f32⟩ : BufTy).Contents (Elt F) → (⟨S50000x128, .f32⟩ : BufTy).Contents (Elt F) → (⟨S50000x128, .f32⟩ : BufTy).Contents (Elt F)),
    StableHlo.binary main_v252 main_v224 main_v253 (subf : (⟨S50000x128, .f32⟩ : BufTy).Contents (Elt F) → (⟨S50000x128, .f32⟩ : BufTy).Contents (Elt F) → (⟨S50000x128, .f32⟩ : BufTy).Contents (Elt F)),
    StableHlo.unary main_v29 main_v254 (broadcastInDim S800000x1 ![0] bcast_S800000_S800000x1_0 : (⟨S800000, .f32⟩ : BufTy).Contents (Elt F) → (⟨S800000x1, .f32⟩ : BufTy).Contents (Elt F)),
    StableHlo.nullary main_c_56 (constantI S_ 32 0#32),
    StableHlo.unary main_c_56 main_v255 (broadcastInDim S800000 ![] bcast_S_S800000 : (⟨S_, .i32⟩ : BufTy).Contents (Elt F) → (⟨S800000, .i32⟩ : BufTy).Contents (Elt F)),
    StableHlo.binary main_v1 main_v255 main_v256 (cmpi .slt : (⟨S800000, .i32⟩ : BufTy).Contents (Elt F) → (⟨S800000, .i32⟩ : BufTy).Contents (Elt F) → (⟨S800000, .i1⟩ : BufTy).Contents (Elt F)),
    StableHlo.nullary main_c_57 (constantI S_ 32 50000#32),
    StableHlo.unary main_c_57 main_v257 (broadcastInDim S800000 ![] bcast_S_S800000 : (⟨S_, .i32⟩ : BufTy).Contents (Elt F) → (⟨S800000, .i32⟩ : BufTy).Contents (Elt F)),
    StableHlo.binary main_v1 main_v257 main_v258 (addi : (⟨S800000, .i32⟩ : BufTy).Contents (Elt F) → (⟨S800000, .i32⟩ : BufTy).Contents (Elt F) → (⟨S800000, .i32⟩ : BufTy).Contents (Elt F)),
    StableHlo.ternary main_v256 main_v258 main_v1 main_v259 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v259 main_v260 (broadcastInDim S800000x1 ![0] bcast_S800000_S800000x1_0 : (⟨S800000, .i32⟩ : BufTy).Contents (Elt F) → (⟨S800000x1, .i32⟩ : BufTy).Contents (Elt F)),
    StableHlo.binary main_v253 main_v260 main_v261 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v254 main_v262 (broadcastInDim S800000x128 ![0, 1] bcast_S800000x1_S800000x128_0_1 : (⟨S800000x1, .f32⟩ : BufTy).Contents (Elt F) → (⟨S800000x128, .f32⟩ : BufTy).Contents (Elt F)),
    StableHlo.binary main_v262 main_v261 main_v263 (mulf : (⟨S800000x128, .f32⟩ : BufTy).Contents (Elt F) → (⟨S800000x128, .f32⟩ : BufTy).Contents (Elt F) → (⟨S800000x128, .f32⟩ : BufTy).Contents (Elt F)),
    StableHlo.nullary main_cst_58 (constant S_ .f32 0x00000000#32),
    StableHlo.unary main_cst_58 main_v264 (broadcastInDim S50000x128 ![] bcast_S_S50000x128 : (⟨S_, .f32⟩ : BufTy).Contents (Elt F) → (⟨S50000x128, .f32⟩ : BufTy).Contents (Elt F)),
    StableHlo.unary main_v3 main_v265 (broadcastInDim S800000x1 ![0] bcast_S800000_S800000x1_0 : (⟨S800000, .i32⟩ : BufTy).Contents (Elt F) → (⟨S800000x1, .i32⟩ : BufTy).Contents (Elt F)),
    StableHlo.ternary main_v264 main_v265 main_v263 main_v266 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_59 (constant S_ .f32 0x40000000#32),
    StableHlo.unary main_cst_59 main_v267 (broadcastInDim S50000x128 ![] bcast_S_S50000x128 : (⟨S_, .f32⟩ : BufTy).Contents (Elt F) → (⟨S50000x128, .f32⟩ : BufTy).Contents (Elt F)),
    StableHlo.binary main_v267 main_v266 main_v268 (mulf : (⟨S50000x128, .f32⟩ : BufTy).Contents (Elt F) → (⟨S50000x128, .f32⟩ : BufTy).Contents (Elt F) → (⟨S50000x128, .f32⟩ : BufTy).Contents (Elt F)),
    StableHlo.binary main_v268 main_v237 main_v269 (subf : (⟨S50000x128, .f32⟩ : BufTy).Contents (Elt F) → (⟨S50000x128, .f32⟩ : BufTy).Contents (Elt F) → (⟨S50000x128, .f32⟩ : BufTy).Contents (Elt F)),
    StableHlo.unary main_v224 main_v270 (broadcastInDim S50000x1x128 ![0, 2] bcast_S50000x128_S50000x1x128_0_2 : (⟨S50000x128, .f32⟩ : BufTy).Contents (Elt F) → (⟨S50000x1x128, .f32⟩ : BufTy).Contents (Elt F)),
    StableHlo.unary main_v237 main_v271 (broadcastInDim S50000x1x128 ![0, 2] bcast_S50000x128_S50000x1x128_0_2 : (⟨S50000x128, .f32⟩ : BufTy).Contents (Elt F) → (⟨S50000x1x128, .f32⟩ : BufTy).Contents (Elt F)),
    StableHlo.unary main_v253 main_v272 (broadcastInDim S50000x1x128 ![0, 2] bcast_S50000x128_S50000x1x128_0_2 : (⟨S50000x128, .f32⟩ : BufTy).Contents (Elt F) → (⟨S50000x1x128, .f32⟩ : BufTy).Contents (Elt F)),
    StableHlo.unary main_v269 main_v273 (broadcastInDim S50000x1x128 ![0, 2] bcast_S50000x128_S50000x1x128_0_2 : (⟨S50000x128, .f32⟩ : BufTy).Contents (Elt F) → (⟨S50000x1x128, .f32⟩ : BufTy).Contents (Elt F)) ]

abbrev k6a_W : List (Ref sig .tc) := [main_v225, main_c_49, main_v226, main_v227, main_c_50, main_v228, main_v229, main_v230, main_v231, main_v232, main_v233, main_v234, main_cst_51, main_v235, main_v236, main_v237, main_v238, main_c_52, main_v239, main_v240, main_c_53, main_v241, main_v242, main_v243, main_v244, main_v245, main_v246, main_v247, main_cst_54, main_v248, main_v249, main_v250, main_cst_55, main_v251, main_v252, main_v253, main_v254, main_c_56, main_v255, main_v256, main_c_57, main_v257, main_v258, main_v259, main_v260, main_v261, main_v262, main_v263, main_cst_58, main_v264, main_v265, main_v266, main_cst_59, main_v267, main_v268, main_v269, main_v270, main_v271, main_v272, main_v273]
set_option maxRecDepth 8192 in
set_option maxHeartbeats 4000000 in
theorem k6a_writes : (k6a : List (HloOp τ sig (Elt F))).Forall fun op => op.writes ⊆ (k6a_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem k6a_keep (V : Valuation τ sig (Elt F)) (r : Ref sig .tc) (h : r ∉ k6a_W := by decide) :
    StableHlo.after k6a V (Proc.devRef .tc r) = V (Proc.devRef .tc r) := StableHlo.after_of_writes_sub k6a V k6a_writes h

/-- The layer's stacked features, flattened weight and bias row. -/
abbrev k6b : List (HloOp τ sig (Elt F)) :=
  [ StableHlo.nary ![main_v270, main_v271, main_v272, main_v273] main_v274 (fun u => concatenate S50000x4x128 1 [⟨S50000x1x128, u 0⟩, ⟨S50000x1x128, u 1⟩, ⟨S50000x1x128, u 2⟩, ⟨S50000x1x128, u 3⟩] concatenates_S50000x1x128_S50000x1x128_S50000x1x128_S50000x1x128_S50000x4x128_d1),
    StableHlo.reshape main_v274 main_v275 rfl shapeCasts_S50000x4x128_S50000x512,
    StableHlo.unary main_v275 main_v276 ((truncf .bf16 · bitsLt_bf16_f32) : (⟨S50000x512, .f32⟩ : BufTy).Contents (Elt F) → (⟨S50000x512, .bf16⟩ : BufTy).Contents (Elt F)),
    StableHlo.reshape main_arg14 main_v277 rfl shapeCasts_S4x128x128_S512x128,
    StableHlo.unary main_v277 main_v278 ((truncf .bf16 · bitsLt_bf16_f32) : (⟨S512x128, .f32⟩ : BufTy).Contents (Elt F) → (⟨S512x128, .bf16⟩ : BufTy).Contents (Elt F)),
    StableHlo.reshape main_arg15 main_v279 rfl shapeCasts_S128_S1x128 ]

abbrev k6b_W : List (Ref sig .tc) := [main_v274, main_v275, main_v276, main_v277, main_v278, main_v279]
set_option maxRecDepth 8192 in
set_option maxHeartbeats 4000000 in
theorem k6b_writes : (k6b : List (HloOp τ sig (Elt F))).Forall fun op => op.writes ⊆ (k6b_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩
/-- A reference the piece does not write keeps its contents through it. -/
theorem k6b_keep (V : Valuation τ sig (Elt F)) (r : Ref sig .tc) (h : r ∉ k6b_W := by decide) :
    StableHlo.after k6b V (Proc.devRef .tc r) = V (Proc.devRef .tc r) := StableHlo.after_of_writes_sub k6b V k6b_writes h

set_option maxRecDepth 8192 in
theorem hostOps6_cut : (hostOps6 : List (HloOp τ sig (Elt F))) = k6a ++ k6b := rfl

end Cert.KernelIdeal.Frm

end
-- ==== Proof.SimW.lean ====
/-
  The first stage: from contents agreeing on the edge list, both programs compute by the same host operations the
  edges' source nodes, their target nodes, and the edge weights −d(src)^(−1/2) · d(dst)^(−1/2) (d the target-degree
  count, with the inverse square root replaced by 0 where the degree is 0).
-/
import proofs.«133509_j41223096107483_1_alg».proof.Proof.RefCuts
import proofs.«133509_j41223096107483_1_alg».proof.Proof.KICuts
import proofs.«133509_j41223096107483_1_alg».proof.Proof.KIFrame
import Idealize.ShloMosaic.PureOps.Ideal.Laws

set_option maxRecDepth 16384

noncomputable section

namespace Cert.Proof.Sim

open Idealize.ShloMosaic Idealize.ShloMosaic.TcCoe Idealize.SL.Sem Idealize.ShloMosaic.StableHlo

variable (VK : Valuation Cert.KernelIdeal.τ Cert.KernelIdeal.sig (Elt Ideal)) (VR : Valuation Cert.ReferenceIdeal.τ Cert.ReferenceIdeal.sig (Elt Ideal))

attribute [local irreducible] Host.gather Host.scatterAdd in
set_option maxHeartbeats 1000000 in
theorem cp_src (h1 : VK (Proc.devRef .tc Cert.KernelIdeal.main_arg1) = VR (Proc.devRef .tc Cert.ReferenceIdeal.main_arg1)) :
    after (Cert.KernelIdeal.Frm.k02a (F := Ideal)) (after (Cert.KernelIdeal.Gen.hostOps0_1 (F := Ideal)) (after (Cert.KernelIdeal.Gen.hostOps0 (F := Ideal)) VK)) (Proc.devRef .tc Cert.KernelIdeal.main_v1) = after (Cert.ReferenceIdeal.RefRun.ops0a (F := Ideal)) VR (Proc.devRef .tc Cert.ReferenceIdeal.main_v1) := by
  simp only [Cert.KernelIdeal.Gen.hostOps0, Cert.KernelIdeal.Gen.hostOps0_1, Cert.KernelIdeal.Frm.k02a, Cert.ReferenceIdeal.RefRun.ops0a]
  after_results_simp
  simp only [h1]
  try rfl

attribute [local irreducible] Host.gather Host.scatterAdd in
set_option maxHeartbeats 1000000 in
theorem cp_dst (h1 : VK (Proc.devRef .tc Cert.KernelIdeal.main_arg1) = VR (Proc.devRef .tc Cert.ReferenceIdeal.main_arg1)) :
    after (Cert.KernelIdeal.Frm.k02a (F := Ideal)) (after (Cert.KernelIdeal.Gen.hostOps0_1 (F := Ideal)) (after (Cert.KernelIdeal.Gen.hostOps0 (F := Ideal)) VK)) (Proc.devRef .tc Cert.KernelIdeal.main_v3) = after (Cert.ReferenceIdeal.RefRun.ops0a (F := Ideal)) VR (Proc.devRef .tc Cert.ReferenceIdeal.main_v3) := by
  simp only [Cert.KernelIdeal.Gen.hostOps0, Cert.KernelIdeal.Gen.hostOps0_1, Cert.KernelIdeal.Frm.k02a, Cert.ReferenceIdeal.RefRun.ops0a]
  after_results_simp
  simp only [h1]
  try rfl

attribute [local irreducible] Host.gather Host.scatterAdd in
set_option maxHeartbeats 4000000 in
theorem cp_w (h1 : VK (Proc.devRef .tc Cert.KernelIdeal.main_arg1) = VR (Proc.devRef .tc Cert.ReferenceIdeal.main_arg1)) :
    after (Cert.KernelIdeal.Frm.k02a (F := Ideal)) (after (Cert.KernelIdeal.Gen.hostOps0_1 (F := Ideal)) (after (Cert.KernelIdeal.Gen.hostOps0 (F := Ideal)) VK)) (Proc.devRef .tc Cert.KernelIdeal.main_v29) = after (Cert.ReferenceIdeal.RefRun.ops0a (F := Ideal)) VR (Proc.devRef .tc Cert.ReferenceIdeal.main_v29) := by
  simp only [Cert.KernelIdeal.Gen.hostOps0, Cert.KernelIdeal.Gen.hostOps0_1, Cert.KernelIdeal.Frm.k02a, Cert.ReferenceIdeal.RefRun.ops0a]
  after_results_simp
  simp only [h1]
  try rfl

end Cert.Proof.Sim

end
-- ==== Proof.KIVCommon.lean ====
/-
  The one-entry formulas the kernels' bodies apply, at the extended reals: the two activations and the normalisation.
-/
import Idealize.ShloMosaic.Lib.Pipeline.Value
import Idealize.ShloMosaic.Lib.ValueIdx
import Idealize.ShloMosaic.PureOps.Ideal.Laws

noncomputable section

namespace Cert.KernelIdeal.Val

open Idealize.ShloMosaic

theorem hz : (![0, 0] : Fin 2 → Nat) = fun _ => 0 := funext fun a => by fin_cases a <;> rfl

/-- The kernel's leaky_relu on one extended real: y where y > 0, else 0.01 · y (the 0.01 is its binary value). -/
def leakyGt (y : Elt Ideal .f32) : Elt Ideal .f32 :=
  Scalar.select (FloatOps.cmpf (F := Ideal) .ogt y (Scalar.ofBits (F := Ideal) .f32 0x00000000#32)) y
    (FloatOps.mulf (Scalar.ofBits (F := Ideal) .f32 0x3C23D70A#32) y)

/-- relu on one extended real. -/
def reluE (y : Elt Ideal .f32) : Elt Ideal .f32 :=
  FloatOps.maximumf y (Scalar.ofBits (F := Ideal) .f32 0x00000000#32)

/-- One entry of the normalised array from the entry of the activations and the four per-column numbers. -/
def bnEntry (y mu va ga be : Elt Ideal .f32) : Elt Ideal .f32 :=
  FloatOps.addf (FloatOps.mulf (FloatOps.mulf (FloatOps.subf y mu)
    (FloatOps.rsqrt (FloatOps.addf va (Scalar.ofBits (F := Ideal) .f32 0x3727C5AC#32)))) ga) be

end Cert.KernelIdeal.Val

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.KIV0.lean ====
/- What region 0 (the first layer's dense product) leaves in its output array, at the extended reals: entry (r, q) of the 50000x128 result is leaky_relu(sum_k a[r, k] * w[k, q] + b[0, q]) over the 12 joined feature columns; the 25 tiles cover the array.
-/
import proofs.«133509_j41223096107483_1_alg».proof.Proof.KIR0
import proofs.«133509_j41223096107483_1_alg».proof.Proof.KIVCommon
import proofs.«133509_j41223096107483_1_alg».proof.Proof.LibMatmulEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)
open scoped BigOperators

/-- The body's stored value at row p, column q of a tile: the activation of row p of the tile times column q of the
    weight, plus the bias at q. -/
theorem pay0_apply (x : FVec Ideal S2000x12 .bf16) (w : FVec Ideal S12x128 .bf16) (b : FVec Ideal S1x128 .f32)
    (p : Fin 2000) (q : Fin 128) :
    k0_pay1 (F := Ideal) x w b (ix2 p q)
      = leakyGt ((∑ k : Fin 12, x (ix2 p k) * w (ix2 k q)) + b (ix2 0 q)) := by
  unfold k0_pay1 leakyGt
  try dsimp only
  simp only [shapeCast_self]
  have hm : matmul (F := Ideal) dot_S2000x12_S12x128_S2000x128_1_0_0_1_n_n none x w (constant S2000x128 .f32 0x00000000#32) (ix2 p q)
      = ∑ k : Fin 12, x (ix2 p k) * w (ix2 k q) :=
    Ideal.matmul_rows_cols dot_S2000x12_S12x128_S2000x128_1_0_0_1_n_n rfl rfl rfl rfl rfl rfl none x w p q
  rw [select_apply, cmpf_apply, mulf_apply, addf_apply, broadcast_apply, broadcast_apply,
    broadcastTo_1b_ab_apply, hm]
  rfl

/-- The index maps over the 25 grid points: the feature window and the output window sit at tile t, the weight and
    the bias windows at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The whole array's entry: the activation of row r of the features times column q of the weight, plus the bias. -/
def dense0 (a : Vec Ideal S50000x12 .bf16) (w : Vec Ideal S12x128 .bf16) (b : Vec Ideal S1x128 .f32) :
    Vec Ideal S50000x128 .f32 := fun i =>
  leakyGt ((∑ k : Fin 12, a (ix2 (⟨(i 0).val, idx2_lt0 i⟩ : Fin 50000) k) * w (ix2 k (⟨(i 1).val, idx2_lt1 i⟩ : Fin 128)))
    + b (ix2 0 (⟨(i 1).val, idx2_lt1 i⟩ : Fin 128)))

/-- A tile's stored value is the whole array's entry, once the tile's feature rows are the array's rows. -/
theorem tile_eq0 (x : Vec Ideal S2000x12 .bf16) (w : Vec Ideal S12x128 .bf16) (b : Vec Ideal S1x128 .f32)
    (a : Vec Ideal S50000x12 .bf16) (p : Fin 2000) (q : Fin 128) (i : S50000x128.Idx)
    (hq : (i 1).val = q.val)
    (hx : ∀ k : Fin 12, x (ix2 p k) = a (ix2 (⟨(i 0).val, idx2_lt0 i⟩ : Fin 50000) k)) :
    k0_pay1 (F := Ideal) x w b (ix2 p q) = dense0 a w b i := by
  rw [pay0_apply]
  unfold dense0
  have hq' : (⟨(i 1).val, idx2_lt1 i⟩ : Fin 128) = q := Fin.ext hq
  rw [hq']
  simp only [hx]

variable (V : (c : Dev nD) → (b : Ref sig .tc) → Buf (Elt Ideal) ((c : Thread nD τ).loc b))

/-- The weight window's tile is the whole weight, at every point. -/
theorem iblk0_1 (c : Dev nD) (t : Fin cfg0.N) (y : S12x128.Idx) : iblk0 V c 1 t y = V c main_v83 y := by
  obtain ⟨e0, e1, e2, e3, e4, e5, e6, e7⟩ := idx_facts0 t
  show V c (Pipeline.arrRef spec0 1) (((cfg0.win 1).blk t).view.emb y) = V c main_v83 y
  refine congrArg (V c main_v83) (funext fun a => Fin.ext ?_)
  match a with
  | ⟨0, _⟩ => show win0_1.index t (0 : Fin 2) * 12 + 1 * (y 0).val = (y 0).val; omega
  | ⟨1, _⟩ => show win0_1.index t (1 : Fin 2) * 128 + 1 * (y 1).val = (y 1).val; omega

/-- The bias window's tile is the whole bias row, at every point. -/
theorem iblk0_2 (c : Dev nD) (t : Fin cfg0.N) (y : S1x128.Idx) : iblk0 V c 2 t y = V c main_v84 y := by
  obtain ⟨e0, e1, e2, e3, e4, e5, e6, e7⟩ := idx_facts0 t
  show V c (Pipeline.arrRef spec0 2) (((cfg0.win 2).blk t).view.emb y) = V c main_v84 y
  refine congrArg (V c main_v84) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point t writes back is tile t of the whole array's function. -/
theorem flushed0_eq (c : Dev nD) (t : Fin cfg0.N) :
    (dat0 V c).flushed 3 t
      = ((cfg0.win 3).blk t).view.read (Elt Ideal) (dense0 (V c main_v81) (V c main_v83) (V c main_v84)) := by
  obtain ⟨e0, e1, e2, e3, e4, e5, e6, e7⟩ := idx_facts0 t
  show (cfg0.win 3).cut (grid0.coords t) ((dat0 V c).after 3 t) = _
  rw [after0_3]
  unfold out0
  rw [View.canon_unit_zero hz]
  simp only [View.ld_unit_zero (S := S2000x12) hz, View.ld_unit_zero (S := S12x128) hz, View.ld_unit_zero (S := S1x128) hz]
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (ix2 p q)
    = dense0 (V c main_v81) (V c main_v83) (V c main_v84) (((cfg0.win 3).blk t).view.emb (ix2 p q))
  rw [show (iblk0 V c 1 t : Vec Ideal S12x128 .bf16) = V c main_v83 from funext (iblk0_1 V c t),
    show (iblk0 V c 2 t : Vec Ideal S1x128 .f32) = V c main_v84 from funext (iblk0_2 V c t)]
  refine tile_eq0 _ _ _ _ p q _ ?_ ?_
  · show win0_3.index t (1 : Fin 2) * 128 + 1 * q.val = q.val; omega
  · intro k
    show V c (Pipeline.arrRef spec0 0) (((cfg0.win 0).blk t).view.emb (ix2 p k)) = V c main_v81 _
    refine congrArg (V c main_v81) (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 12 + 1 * k.val = k.val; omega

/-- An index of the array is in point t's tile iff each coordinate is in the tile's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v85).slice (win0_3.rect t)).set ↔ _
  rw [View.set_slice_whole, Rect.mem_set_unit]
  exact Iff.rfl

/-- Every row lies in the tile of the grid point row / 2000. -/
theorem cover0 (i : S50000x128.Idx) : ∃ t : Fin cfg0.N, (cfg0.win 3).flush t = true ∧ i ∈ ((cfg0.win 3).blk t).view.set := by
  have hi0 : (i 0).val < 50000 := idx2_lt0 i
  have hi1 : (i 1).val < 128 := idx2_lt1 i
  have hN : cfg0.N = 25 := N_0
  let t : Fin cfg0.N := ⟨(i 0).val / 2000, by rw [hN]; omega⟩
  obtain ⟨e0, e1, e2, e3, e4, e5, e6, e7⟩ := idx_facts0 t
  have ht : t.val = (i 0).val / 2000 := rfl
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE ARRAY after region 2: the dense layer of the features, the weight and the bias the region was entered with. -/
theorem final0 (c : Dev nD) :
    (dat0 V c).arrAt 3 cfg0.N = dense0 (V c main_v81) (V c main_v83) (V c main_v84) :=
  (dat0 V c).arrAt_eq_of_cover 3 _ (fun t _ => flushed0_eq V c t) cover0

end Cert.KernelIdeal.Val

end
-- ==== Proof.KIV2.lean ====
/-
  What region 2 (the second layer's dense product) leaves in its output array, at the extended reals: entry (r, q)
  of the 50000×128 result is leaky_relu(Σ_k a[r, k] · w[k, q] + b[0, q]) over the 512 joined feature columns — the
  row r of the features lies in the tile of grid point r / 2000, whose write-back puts it at row r; the 25 tiles
  cover the array. The leaky_relu is the kernel's own spelling: y where y > 0, else 0.01 · y.
-/
import proofs.«133509_j41223096107483_1_alg».proof.Proof.KIR2
import proofs.«133509_j41223096107483_1_alg».proof.Proof.KIVCommon
import proofs.«133509_j41223096107483_1_alg».proof.Proof.LibMatmulEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)
open scoped BigOperators

/-- The body's stored value at row p, column q of a tile: the activation of row p of the tile times column q of the
    weight, plus the bias at q. -/
theorem pay2_apply (x : FVec Ideal S2000x512 .bf16) (w : FVec Ideal S512x128 .bf16) (b : FVec Ideal S1x128 .f32)
    (p : Fin 2000) (q : Fin 128) :
    k2_pay1 (F := Ideal) x w b (ix2 p q)
      = leakyGt ((∑ k : Fin 512, x (ix2 p k) * w (ix2 k q)) + b (ix2 0 q)) := by
  unfold k2_pay1 leakyGt
  try dsimp only
  simp only [shapeCast_self]
  have hm : matmul (F := Ideal) dot_S2000x512_S512x128_S2000x128_1_0_0_1_n_n none x w (constant S2000x128 .f32 0x00000000#32) (ix2 p q)
      = ∑ k : Fin 512, x (ix2 p k) * w (ix2 k q) :=
    Ideal.matmul_rows_cols dot_S2000x512_S512x128_S2000x128_1_0_0_1_n_n rfl rfl rfl rfl rfl rfl none x w p q
  rw [select_apply, cmpf_apply, mulf_apply, addf_apply, broadcast_apply, broadcast_apply,
    broadcastTo_1b_ab_apply, hm]
  rfl

/-- The index maps over the 25 grid points: the feature window and the output window sit at tile t, the weight and
    the bias windows at the origin. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The whole array's entry: the activation of row r of the features times column q of the weight, plus the bias. -/
def dense2 (a : Vec Ideal S50000x512 .bf16) (w : Vec Ideal S512x128 .bf16) (b : Vec Ideal S1x128 .f32) :
    Vec Ideal S50000x128 .f32 := fun i =>
  leakyGt ((∑ k : Fin 512, a (ix2 (⟨(i 0).val, idx2_lt0 i⟩ : Fin 50000) k) * w (ix2 k (⟨(i 1).val, idx2_lt1 i⟩ : Fin 128)))
    + b (ix2 0 (⟨(i 1).val, idx2_lt1 i⟩ : Fin 128)))

/-- A tile's stored value is the whole array's entry, once the tile's feature rows are the array's rows. -/
theorem tile_eq2 (x : Vec Ideal S2000x512 .bf16) (w : Vec Ideal S512x128 .bf16) (b : Vec Ideal S1x128 .f32)
    (a : Vec Ideal S50000x512 .bf16) (p : Fin 2000) (q : Fin 128) (i : S50000x128.Idx)
    (hq : (i 1).val = q.val)
    (hx : ∀ k : Fin 512, x (ix2 p k) = a (ix2 (⟨(i 0).val, idx2_lt0 i⟩ : Fin 50000) k)) :
    k2_pay1 (F := Ideal) x w b (ix2 p q) = dense2 a w b i := by
  rw [pay2_apply]
  unfold dense2
  have hq' : (⟨(i 1).val, idx2_lt1 i⟩ : Fin 128) = q := Fin.ext hq
  rw [hq']
  simp only [hx]

variable (V : (c : Dev nD) → (b : Ref sig .tc) → Buf (Elt Ideal) ((c : Thread nD τ).loc b))

/-- The weight window's tile is the whole weight, at every point. -/
theorem iblk2_1 (c : Dev nD) (t : Fin cfg2.N) (y : S512x128.Idx) : iblk2 V c 1 t y = V c main_v148 y := by
  obtain ⟨e0, e1, e2, e3, e4, e5, e6, e7⟩ := idx_facts2 t
  show V c (Pipeline.arrRef spec2 1) (((cfg2.win 1).blk t).view.emb y) = V c main_v148 y
  refine congrArg (V c main_v148) (funext fun a => Fin.ext ?_)
  match a with
  | ⟨0, _⟩ => show win2_1.index t (0 : Fin 2) * 512 + 1 * (y 0).val = (y 0).val; omega
  | ⟨1, _⟩ => show win2_1.index t (1 : Fin 2) * 128 + 1 * (y 1).val = (y 1).val; omega

/-- The bias window's tile is the whole bias row, at every point. -/
theorem iblk2_2 (c : Dev nD) (t : Fin cfg2.N) (y : S1x128.Idx) : iblk2 V c 2 t y = V c main_v149 y := by
  obtain ⟨e0, e1, e2, e3, e4, e5, e6, e7⟩ := idx_facts2 t
  show V c (Pipeline.arrRef spec2 2) (((cfg2.win 2).blk t).view.emb y) = V c main_v149 y
  refine congrArg (V c main_v149) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- What point t writes back is tile t of the whole array's function. -/
theorem flushed2_eq (c : Dev nD) (t : Fin cfg2.N) :
    (dat2 V c).flushed 3 t
      = ((cfg2.win 3).blk t).view.read (Elt Ideal) (dense2 (V c main_v146) (V c main_v148) (V c main_v149)) := by
  obtain ⟨e0, e1, e2, e3, e4, e5, e6, e7⟩ := idx_facts2 t
  show (cfg2.win 3).cut (grid2.coords t) ((dat2 V c).after 3 t) = _
  rw [after2_3]
  unfold out2
  rw [View.canon_unit_zero hz]
  simp only [View.ld_unit_zero (S := S2000x512) hz, View.ld_unit_zero (S := S512x128) hz, View.ld_unit_zero (S := S1x128) hz]
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (iblk2 V c 2 t) (ix2 p q)
    = dense2 (V c main_v146) (V c main_v148) (V c main_v149) (((cfg2.win 3).blk t).view.emb (ix2 p q))
  rw [show (iblk2 V c 1 t : Vec Ideal S512x128 .bf16) = V c main_v148 from funext (iblk2_1 V c t),
    show (iblk2 V c 2 t : Vec Ideal S1x128 .f32) = V c main_v149 from funext (iblk2_2 V c t)]
  refine tile_eq2 _ _ _ _ p q _ ?_ ?_
  · show win2_3.index t (1 : Fin 2) * 128 + 1 * q.val = q.val; omega
  · intro k
    show V c (Pipeline.arrRef spec2 0) (((cfg2.win 0).blk t).view.emb (ix2 p k)) = V c main_v146 _
    refine congrArg (V c main_v146) (funext fun a => Fin.ext ?_)
    match a with
    | ⟨0, _⟩ => show win2_0.index t (0 : Fin 2) * 2000 + 1 * p.val = win2_3.index t (0 : Fin 2) * 2000 + 1 * p.val; omega
    | ⟨1, _⟩ => show win2_0.index t (1 : Fin 2) * 512 + 1 * k.val = k.val; omega

/-- An index of the array is in point t's tile iff each coordinate is in the tile's range on its axis. -/
theorem mem_blk2 (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v150).slice (win2_3.rect t)).set ↔ _
  rw [View.set_slice_whole, Rect.mem_set_unit]
  exact Iff.rfl

/-- Every row lies in the tile of the grid point row / 2000. -/
theorem cover2 (i : S50000x128.Idx) : ∃ t : Fin cfg2.N, (cfg2.win 3).flush t = true ∧ i ∈ ((cfg2.win 3).blk t).view.set := by
  have hi0 : (i 0).val < 50000 := idx2_lt0 i
  have hi1 : (i 1).val < 128 := idx2_lt1 i
  have hN : cfg2.N = 25 := N_2
  let t : Fin cfg2.N := ⟨(i 0).val / 2000, by rw [hN]; omega⟩
  obtain ⟨e0, e1, e2, e3, e4, e5, e6, e7⟩ := idx_facts2 t
  have ht : t.val = (i 0).val / 2000 := rfl
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- THE ARRAY after region 2: the dense layer of the features, the weight and the bias the region was entered with. -/
theorem final2 (c : Dev nD) :
    (dat2 V c).arrAt 3 cfg2.N = dense2 (V c main_v146) (V c main_v148) (V c main_v149) :=
  (dat2 V c).arrAt_eq_of_cover 3 _ (fun t _ => flushed2_eq V c t) cover2

end Cert.KernelIdeal.Val

end
-- ==== Proof.KStack.lean ====
/-
  The stacked Chebyshev features of a 128-channel layer, read at an entry, at the extended reals. The kernel program
  places the four hop arrays T0 … T3 (each 50000×128) side by side: each is given a unit middle axis, the four are
  joined along it (50000×4×128), the result is flattened to 50000×512 and its format changed (the identity here).
  Entry (n, 128·k + c) of the result is T_k[n, c]. The weight is flattened the same way: entry (128·k + c, o) of the
  512×128 matrix is W[k, c, o].
-/
import proofs.«133509_j41223096107483_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx

/-- The k-th of four arrays. -/
def pick4 {α : Type} (k : Fin 4) (a0 a1 a2 a3 : α) : α :=
  match k with
  | ⟨0, _⟩ => a0
  | ⟨1, _⟩ => a1
  | ⟨2, _⟩ => a2
  | ⟨3, _⟩ => a3

/-- A hop array with its unit middle axis, at (n, 0, c). -/
theorem mid_apply (T : FVec Ideal S50000x128 .f32) (n : Fin 50000) (z : Fin 1) (c : Fin 128) :
    broadcastInDim S50000x1x128 ![0, 2] bcast_S50000x128_S50000x1x128_0_2 T (ix3 n z c) = T (ix2 n c) := by
  refine broadcastInDim_apply _ _ T _ (ix2 n c) fun a => ?_
  match a with
  | ⟨0, _⟩ => rfl
  | ⟨1, _⟩ => rfl

/-- The four hop arrays with their unit middle axes, as the pieces of the join. -/
abbrev xs4 (T0 T1 T2 T3 : FVec Ideal S50000x128 .f32) : List ((s : Shape) × (s.Idx → Elt Ideal .f32)) :=
  [⟨S50000x1x128, broadcastInDim S50000x1x128 ![0, 2] bcast_S50000x128_S50000x1x128_0_2 T0⟩,
   ⟨S50000x1x128, broadcastInDim S50000x1x128 ![0, 2] bcast_S50000x128_S50000x1x128_0_2 T1⟩,
   ⟨S50000x1x128, broadcastInDim S50000x1x128 ![0, 2] bcast_S50000x128_S50000x1x128_0_2 T2⟩,
   ⟨S50000x1x128, broadcastInDim S50000x1x128 ![0, 2] bcast_S50000x128_S50000x1x128_0_2 T3⟩]

/-- The four hop arrays joined along the middle axis, at (n, k, c): the k-th at (n, c). -/
theorem joined_apply (T0 T1 T2 T3 : FVec Ideal S50000x128 .f32) (n : Fin 50000) (k : Fin 4) (c : Fin 128) :
    concatenate S50000x4x128 1
        [⟨S50000x1x128, broadcastInDim S50000x1x128 ![0, 2] bcast_S50000x128_S50000x1x128_0_2 T0⟩,
         ⟨S50000x1x128, broadcastInDim S50000x1x128 ![0, 2] bcast_S50000x128_S50000x1x128_0_2 T1⟩,
         ⟨S50000x1x128, broadcastInDim S50000x1x128 ![0, 2] bcast_S50000x128_S50000x1x128_0_2 T2⟩,
         ⟨S50000x1x128, broadcastInDim S50000x1x128 ![0, 2] bcast_S50000x128_S50000x1x128_0_2 T3⟩]
        concatenates_S50000x1x128_S50000x1x128_S50000x1x128_S50000x1x128_S50000x4x128_d1 (ix3 n k c)
      = pick4 k T0 T1 T2 T3 (ix2 n c) := by
  match k with
  | ⟨0, _⟩ =>
    refine (concatenate_apply_piece (t := S50000x4x128) (1 : Fin 3) (xs4 T0 T1 T2 T3) concatenates_S50000x1x128_S50000x1x128_S50000x1x128_S50000x1x128_S50000x4x128_d1 (ix3 n (⟨0, by omega⟩ : Fin 4) c) 0 (by show (0 : ℕ) < 4; omega) S50000x1x128 _ rfl rfl 0 rfl (ix3 n 0 c) (fun b hb => ?_) rfl).trans (mid_apply T0 n 0 c)
    match b with
    | ⟨0, _⟩ => rfl
    | ⟨1, _⟩ => exact absurd rfl hb
    | ⟨2, _⟩ => rfl
  | ⟨1, _⟩ =>
    refine (concatenate_apply_piece (t := S50000x4x128) (1 : Fin 3) (xs4 T0 T1 T2 T3) concatenates_S50000x1x128_S50000x1x128_S50000x1x128_S50000x1x128_S50000x4x128_d1 (ix3 n (⟨1, by omega⟩ : Fin 4) c) 1 (by show (1 : ℕ) < 4; omega) S50000x1x128 _ rfl rfl 1 rfl (ix3 n 0 c) (fun b hb => ?_) rfl).trans (mid_apply T1 n 0 c)
    match b with
    | ⟨0, _⟩ => rfl
    | ⟨1, _⟩ => exact absurd rfl hb
    | ⟨2, _⟩ => rfl
  | ⟨2, _⟩ =>
    refine (concatenate_apply_piece (t := S50000x4x128) (1 : Fin 3) (xs4 T0 T1 T2 T3) concatenates_S50000x1x128_S50000x1x128_S50000x1x128_S50000x1x128_S50000x4x128_d1 (ix3 n (⟨2, by omega⟩ : Fin 4) c) 2 (by show (2 : ℕ) < 4; omega) S50000x1x128 _ rfl rfl 2 rfl (ix3 n 0 c) (fun b hb => ?_) rfl).trans (mid_apply T2 n 0 c)
    match b with
    | ⟨0, _⟩ => rfl
    | ⟨1, _⟩ => exact absurd rfl hb
    | ⟨2, _⟩ => rfl
  | ⟨3, _⟩ =>
    refine (concatenate_apply_piece (t := S50000x4x128) (1 : Fin 3) (xs4 T0 T1 T2 T3) concatenates_S50000x1x128_S50000x1x128_S50000x1x128_S50000x1x128_S50000x4x128_d1 (ix3 n (⟨3, by omega⟩ : Fin 4) c) 3 (by show (3 : ℕ) < 4; omega) S50000x1x128 _ rfl rfl 3 rfl (ix3 n 0 c) (fun b hb => ?_) rfl).trans (mid_apply T3 n 0 c)
    match b with
    | ⟨0, _⟩ => rfl
    | ⟨1, _⟩ => exact absurd rfl hb
    | ⟨2, _⟩ => rfl

theorem col_lt (k : Fin 4) (c : Fin 128) : 128 * k.val + c.val < 512 := by
  have := k.isLt; have := c.isLt; omega

/-- The flattened stack at (n, 128·k + c): the k-th hop array at (n, c). -/
theorem flat_apply (X : FVec Ideal S50000x4x128 .f32) (n : Fin 50000) (k : Fin 4) (c : Fin 128) :
    shapeCast S50000x512 X shapeCasts_S50000x4x128_S50000x512 (ix2 n ⟨128 * k.val + c.val, col_lt k c⟩) = X (ix3 n k c) := by
  refine shapeCast_apply X _ _ (ix3 n k c) ?_
  rw [Shape.rowMajor_val_three, Shape.rowMajor_val_two]
  show (n.val * 4 + k.val) * 128 + c.val = n.val * 512 + (128 * k.val + c.val)
  ring

/-- The flattened weight at (128·k + c, o): W[k, c, o]. -/
theorem flatW_apply (W : FVec Ideal S4x128x128 .f32) (k : Fin 4) (c : Fin 128) (o : Fin 128) :
    shapeCast S512x128 W shapeCasts_S4x128x128_S512x128 (ix2 ⟨128 * k.val + c.val, col_lt k c⟩ o) = W (ix3 k c o) := by
  refine shapeCast_apply W _ _ (ix3 k c o) ?_
  rw [Shape.rowMajor_val_three, Shape.rowMajor_val_two]
  show (k.val * 128 + c.val) * 128 + o.val = (128 * k.val + c.val) * 128 + o.val
  ring

/-- The bias as a row, at (0, o). -/
theorem rowB_apply (b : FVec Ideal S128 .f32) (z : Fin 1) (o : Fin 128) :
    shapeCast S1x128 b shapeCasts_S128_S1x128 (ix2 z o) = b (ix1 o) := by
  refine shapeCast_apply b _ _ (ix1 o) ?_
  rw [Shape.rowMajor_val_one, Shape.rowMajor_val_two]
  show o.val = z.val * 128 + o.val
  have := z.isLt; omega

end Cert.KernelIdeal.Val

end
-- ==== Proof.LibRegroup.lean ====
import Mathlib.Data.EReal.Basic
import Mathlib.Algebra.BigOperators.Fin
import Mathlib.Logic.Equiv.Fin.Basic
import Mathlib.Algebra.Group.Fin.Basic
import Mathlib.Tactic.FinCases

/-! # Regrouping finite sums in a commutative additive monoid

Pure algebra, stated for an arbitrary `AddCommMonoid` (the extended reals are one):

* `sum_fin_mul`: a sum over `Fin (m * n)` is the iterated sum over `m` blocks of `n`
  consecutive indices, `i = n * d + c`;
* `sum_fin_4096`: its instance `4096 = 16 * 256`;
* `nest8`: the left-nested sum of eight terms, and `nest8_eq_sum`;
* `sum_rot8`: a sum over `Fin 8` is invariant under the rotation `i ↦ (q + i) % 8`;
* `nest8_halves`: two rotated left-nested sums over the two halves of `Fin 16` add up to the
  whole sum over `Fin 16`.
-/

namespace LibRegroup

open Finset

theorem block_lt {m n : ℕ} (d : Fin m) (c : Fin n) : n * (d : ℕ) + (c : ℕ) < m * n := by
  have hd : (d : ℕ) + 1 ≤ m := d.isLt
  have hc : (c : ℕ) < n := c.isLt
  calc n * (d : ℕ) + (c : ℕ) < n * (d : ℕ) + n := by omega
    _ = n * ((d : ℕ) + 1) := by ring
    _ ≤ n * m := Nat.mul_le_mul_left n hd
    _ = m * n := Nat.mul_comm n m

/-- A sum over `Fin (m * n)` split into `m` consecutive blocks of length `n`. -/
theorem sum_fin_mul {M : Type*} [AddCommMonoid M] (m n : ℕ) (f : Fin (m * n) → M) :
    ∑ i, f i = ∑ d : Fin m, ∑ c : Fin n, f ⟨n * (d : ℕ) + (c : ℕ), block_lt d c⟩ := by
  rw [← Fintype.sum_prod_type (f := fun p : Fin m × Fin n =>
    f ⟨n * (p.1 : ℕ) + (p.2 : ℕ), block_lt p.1 p.2⟩)]
  refine (Fintype.sum_equiv finProdFinEquiv _ _ (fun p => ?_)).symm
  congr 1
  apply Fin.ext
  simp [finProdFinEquiv, Nat.add_comm]

/-- `4096 = 16 * 256`: a sum over 4096 channels is the sum over 16 blocks of 256 channels. -/
theorem sum_fin_4096 {M : Type*} [AddCommMonoid M] (f : Fin 4096 → M) :
    ∑ ch, f ch = ∑ d : Fin 16, ∑ c : Fin 256,
      f ⟨256 * (d : ℕ) + (c : ℕ), block_lt (m := 16) (n := 256) d c⟩ :=
  sum_fin_mul 16 256 f

/-- The left-nested sum of eight terms. -/
def nest8 {M : Type*} [Add M] (g : Fin 8 → M) : M :=
  ((((((g 0 + g 1) + g 2) + g 3) + g 4) + g 5) + g 6) + g 7

theorem nest8_eq_sum {M : Type*} [AddCommMonoid M] (g : Fin 8 → M) :
    nest8 g = ∑ i, g i := (Fin.sum_univ_eight g).symm

theorem rot8_lt (q i : Fin 8) : ((q : ℕ) + (i : ℕ)) % 8 < 8 := Nat.mod_lt _ (by norm_num)

/-- A sum over `Fin 8` is invariant under the rotation `i ↦ (q + i) % 8`. -/
theorem sum_rot8 {M : Type*} [AddCommMonoid M] (q : Fin 8) (g : Fin 8 → M) :
    ∑ i : Fin 8, g ⟨((q : ℕ) + (i : ℕ)) % 8, rot8_lt q i⟩ = ∑ i, g i := by
  refine Fintype.sum_equiv (Equiv.addLeft q) _ _ (fun i => ?_)
  congr 1

theorem half_lt (h : Fin 2) (i : Fin 8) : 8 * (h : ℕ) + (i : ℕ) < 16 := by omega

theorem half_rot_lt (h : ℕ) (hh : h < 2) (q i : Fin 8) :
    8 * h + ((q : ℕ) + (i : ℕ)) % 8 < 16 := by
  have := rot8_lt q i
  omega

/-- The rotated left-nested sum over one half of `Fin 16` is the plain sum over that half. -/
theorem nest8_half {M : Type*} [AddCommMonoid M] (P : Fin 16 → M) (h : ℕ) (hh : h < 2)
    (q : Fin 8) :
    nest8 (fun i => P ⟨8 * h + ((q : ℕ) + (i : ℕ)) % 8, half_rot_lt h hh q i⟩)
      = ∑ i : Fin 8, P ⟨8 * h + (i : ℕ), by have := i.isLt; omega⟩ := by
  rw [nest8_eq_sum]
  exact sum_rot8 q (fun i => P ⟨8 * h + (i : ℕ), by have := i.isLt; omega⟩)

/-- Two rotated left-nested sums, one over each half of `Fin 16`, add up to the whole sum:
the half `h` first, the other half `1 - h` second. -/
theorem nest8_halves {M : Type*} [AddCommMonoid M] (P : Fin 16 → M) (h : Fin 2) (q : Fin 8) :
    nest8 (fun i => P ⟨8 * (h : ℕ) + ((q : ℕ) + (i : ℕ)) % 8, half_rot_lt h h.isLt q i⟩)
      + nest8 (fun i => P ⟨8 * (1 - (h : ℕ)) + ((q : ℕ) + (i : ℕ)) % 8,
          half_rot_lt (1 - (h : ℕ)) (by omega) q i⟩)
      = ∑ d : Fin 16, P d := by
  rw [nest8_half P h h.isLt q, nest8_half P (1 - (h : ℕ)) (by omega) q]
  rw [sum_fin_mul 2 8 P, Fin.sum_univ_two]
  fin_cases h
  · rfl
  · exact add_comm _ _

end LibRegroup
-- ==== Proof.LibLeakyLaw.lean ====
/-
  Two spellings of leaky_relu on the extended reals agree: "y where y > 0, else c · y" and "y where y ≥ 0, else c · y"
  differ only in which branch they take at y = 0, where both branches are 0.
-/
import Idealize.ShloMosaic.PureOps.Ideal.Laws
import Idealize.ShloMosaic.Lib.ValueIdx

noncomputable section

namespace Idealize.ShloMosaic.Ideal

open Idealize.ShloMosaic Idealize.ShloMosaic.ValueIdx

theorem select_ofBool {α : Type} (P : Prop) [Decidable P] (a b : α) :
    Scalar.select (BitVec.ofBool (decide P)) a b = if P then a else b := by
  by_cases h : P
  · simp only [h, decide_true, BitVec.ofBool_true, if_true]; exact select_one a b
  · simp only [h, decide_false, BitVec.ofBool_false, if_false]; exact select_zero a b

/-- The strict and the weak comparison select the same value. -/
theorem leaky_gt_eq_ge (c y : EReal) :
    Scalar.select (Ideal.cmp .ogt y 0) y (c * y) = Scalar.select (Ideal.cmp .oge y 0) y (c * y) := by
  unfold Ideal.cmp
  rw [select_ofBool, select_ofBool]
  by_cases h : (0 : EReal) < y
  · rw [if_pos h, if_pos h.le]
  · rw [if_neg h]
    by_cases h0 : (0 : EReal) ≤ y
    · have : y = 0 := le_antisymm (not_lt.mp h) h0
      rw [if_pos h0, this, mul_zero]
    · rw [if_neg h0]

end Idealize.ShloMosaic.Ideal

end
-- ==== Proof.DenseLaw.lean ====
/-
  THE LAW THAT JOINS THE TWO PROGRAMS, for a 128-channel layer with leaky_relu. The kernel multiplies the row-joined
  features a (50000×512, a[n, 128·k + c] = T_k[n, c]) by the stacked weight w (512×128, w[128·k + c, o] = W[k, c, o]),
  adds the bias row and applies "y where y > 0, else 0.01·y". Regrouping the sum over the 512 joined columns into the
  four sums over 128 channels — only commutativity and associativity of the extended reals' addition, no finiteness —
  gives ((S0 + S1) + S2) + S3 + b[o] with S_k = Σ_c T_k[n, c] · W[k, c, o], the reference's four host products added
  from the left; and the two spellings of leaky_relu (y > 0 against y ≥ 0) agree.
-/
import proofs.«133509_j41223096107483_1_alg».proof.Proof.KIV2
import proofs.«133509_j41223096107483_1_alg».proof.Proof.KStack
import proofs.«133509_j41223096107483_1_alg».proof.Proof.LibRegroup
import proofs.«133509_j41223096107483_1_alg».proof.Proof.LibLeakyLaw

set_option maxRecDepth 16384

noncomputable section

namespace Cert.KernelIdeal.Val

open Cert.KernelIdeal Cert.KernelIdeal.Gen
open Idealize.ShloMosaic Idealize.ShloMosaic.ValueIdx
open scoped BigOperators

/-- The reference's leaky_relu on one extended real: y where y ≥ 0, else 0.01 · y. -/
def leakyGe (y : Elt Ideal .f32) : Elt Ideal .f32 :=
  Scalar.select (FloatOps.cmpf (F := Ideal) .oge y (Scalar.ofBits (F := Ideal) .f32 0x00000000#32)) y
    (FloatOps.mulf (Scalar.ofBits (F := Ideal) .f32 0x3C23D70A#32) y)

theorem leakyGt_eq_leakyGe (y : Elt Ideal .f32) : leakyGt y = leakyGe y := by
  unfold leakyGt leakyGe
  show Scalar.select (Ideal.cmp .ogt y (Ideal.ofBits .f32 0x00000000#32)) y (Ideal.ofBits .f32 0x3C23D70A#32 * y)
    = Scalar.select (Ideal.cmp .oge y (Ideal.ofBits .f32 0x00000000#32)) y (Ideal.ofBits .f32 0x3C23D70A#32 * y)
  rw [Ideal.ofBits_zero_f32]
  exact Ideal.leaky_gt_eq_ge _ y

/-- The k-th of the four host products at (n, o). -/
def hop (T : FVec Ideal S50000x128 .f32) (W : FVec Ideal S4x128x128 .f32) (k : Fin 4) (n : Fin 50000) (o : Fin 128) : Elt Ideal .f32 :=
  ∑ c : Fin 128, T (ix2 n c) * W (ix3 k c o)

/-- The kernel's dense layer on the joined features is the reference's sum of four products, entry by entry. -/
theorem dense2_law (T0 T1 T2 T3 : FVec Ideal S50000x128 .f32) (W : FVec Ideal S4x128x128 .f32) (b : FVec Ideal S128 .f32)
    (a : Vec Ideal S50000x512 .bf16) (w : Vec Ideal S512x128 .bf16) (b' : Vec Ideal S1x128 .f32)
    (ha : ∀ (n : Fin 50000) (k : Fin 4) (c : Fin 128), a (ix2 n ⟨128 * k.val + c.val, col_lt k c⟩) = pick4 k T0 T1 T2 T3 (ix2 n c))
    (hw : ∀ (k : Fin 4) (c o : Fin 128), w (ix2 ⟨128 * k.val + c.val, col_lt k c⟩ o) = W (ix3 k c o))
    (hb : ∀ o : Fin 128, b' (ix2 0 o) = b (ix1 o))
    (n : Fin 50000) (o : Fin 128) :
    dense2 a w b' (ix2 n o)
      = leakyGe ((((hop T0 W 0 n o + hop T1 W 1 n o) + hop T2 W 2 n o) + hop T3 W 3 n o) + b (ix1 o)) := by
  unfold dense2
  rw [leakyGt_eq_leakyGe]
  show leakyGe ((∑ j : Fin 512, a (ix2 n j) * w (ix2 j o)) + b' (ix2 0 o)) = _
  have hs : (∑ j : Fin 512, a (ix2 n j) * w (ix2 j o))
      = ∑ k : Fin 4, ∑ c : Fin 128, pick4 k T0 T1 T2 T3 (ix2 n c) * W (ix3 k c o) := by
    refine (LibRegroup.sum_fin_mul 4 128 (fun j : Fin 512 => a (ix2 n j) * w (ix2 j o))).trans ?_
    refine Finset.sum_congr rfl fun k _ => Finset.sum_congr rfl fun c _ => ?_
    show a (ix2 n ⟨128 * k.val + c.val, _⟩) * w (ix2 ⟨128 * k.val + c.val, _⟩ o) = _
    rw [ha n k c, hw k c o]
  rw [hs, hb, Fin.sum_univ_four]
  rfl

end Cert.KernelIdeal.Val

end
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«133509_j41223096107483_1_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.RDense.lean ====
/-
  The reference's dense product of a 128-channel layer read at an entry, at the extended reals: the reference slices
  the weight W (4×128×128) into its four matrices W[k], multiplies each hop array T_k (50000×128) by W[k] on the host,
  adds the four products from the left, and adds the bias row. Entry (n, o) of the result is
  ((Σ_c T0[n,c]·W[0,c,o] + Σ_c T1[n,c]·W[1,c,o]) + Σ_c T2[n,c]·W[2,c,o]) + Σ_c T3[n,c]·W[3,c,o] + b[o].
-/
import proofs.«133509_j41223096107483_1_alg».proof.Proof.Gen.ReferenceIdeal
import proofs.«133509_j41223096107483_1_alg».proof.Proof.LibDotGeneralEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Val

open Cert.ReferenceIdeal Cert.ReferenceIdeal.Gen
open Idealize.ShloMosaic Idealize.ShloMosaic.ValueIdx
open scoped BigOperators

/-- The weight's k-th matrix at (c, o) is W[k, c, o]. -/
theorem w0_apply (W : FVec Ideal S4x128x128 .f32) (c o : Fin 128) :
    shapeCast S128x128 (extractStridedSlice S1x128x128 ![0, 0, 0] W slices_S4x128x128_S1x128x128_0_0_0) shapeCasts_S1x128x128_S128x128 (ix2 c o)
      = W (ix3 (0 : Fin 4) c o) := by
  rw [shapeCast_1ab_ab_apply]
  refine extractStridedSlice_apply _ W _ _ (ix3 (0 : Fin 4) c o) fun a => ?_
  match a with
  | ⟨0, _⟩ => rfl
  | ⟨1, _⟩ => show c.val = 0 + c.val; omega
  | ⟨2, _⟩ => show o.val = 0 + o.val; omega
theorem w1_apply (W : FVec Ideal S4x128x128 .f32) (c o : Fin 128) :
    shapeCast S128x128 (extractStridedSlice S1x128x128 ![1, 0, 0] W slices_S4x128x128_S1x128x128_1_0_0) shapeCasts_S1x128x128_S128x128 (ix2 c o)
      = W (ix3 (1 : Fin 4) c o) := by
  rw [shapeCast_1ab_ab_apply]
  refine extractStridedSlice_apply _ W _ _ (ix3 (1 : Fin 4) c o) fun a => ?_
  match a with
  | ⟨0, _⟩ => rfl
  | ⟨1, _⟩ => show c.val = 0 + c.val; omega
  | ⟨2, _⟩ => show o.val = 0 + o.val; omega
theorem w2_apply (W : FVec Ideal S4x128x128 .f32) (c o : Fin 128) :
    shapeCast S128x128 (extractStridedSlice S1x128x128 ![2, 0, 0] W slices_S4x128x128_S1x128x128_2_0_0) shapeCasts_S1x128x128_S128x128 (ix2 c o)
      = W (ix3 (2 : Fin 4) c o) := by
  rw [shapeCast_1ab_ab_apply]
  refine extractStridedSlice_apply _ W _ _ (ix3 (2 : Fin 4) c o) fun a => ?_
  match a with
  | ⟨0, _⟩ => rfl
  | ⟨1, _⟩ => show c.val = 0 + c.val; omega
  | ⟨2, _⟩ => show o.val = 0 + o.val; omega
theorem w3_apply (W : FVec Ideal S4x128x128 .f32) (c o : Fin 128) :
    shapeCast S128x128 (extractStridedSlice S1x128x128 ![3, 0, 0] W slices_S4x128x128_S1x128x128_3_0_0) shapeCasts_S1x128x128_S128x128 (ix2 c o)
      = W (ix3 (3 : Fin 4) c o) := by
  rw [shapeCast_1ab_ab_apply]
  refine extractStridedSlice_apply _ W _ _ (ix3 (3 : Fin 4) c o) fun a => ?_
  match a with
  | ⟨0, _⟩ => rfl
  | ⟨1, _⟩ => show c.val = 0 + c.val; omega
  | ⟨2, _⟩ => show o.val = 0 + o.val; omega

/-- The host's product of a hop array with a 128×128 matrix at (n, o). -/
theorem dot_apply (l : FVec Ideal S50000x128 .f32) (r : FVec Ideal S128x128 .f32) (n : Fin 50000) (o : Fin 128) :
    Host.dotGeneral (F := Ideal) dot_S50000x128_S128x128_S50000x128_1_0_0_1_n_n none l r (ix2 n o)
      = ∑ c : Fin 128, l (ix2 n c) * r (ix2 c o) := by
  simp only [Host.dotGeneral]
  exact Ideal.dotGeneral_rows_cols dot_S50000x128_S128x128_S50000x128_1_0_0_1_n_n rfl rfl rfl rfl rfl rfl none _ l r n o

/-- The bias spread over the rows, at (n, o). -/
theorem biasRows_apply (b : FVec Ideal S128 .f32) (n : Fin 50000) (o : Fin 128) :
    broadcastInDim S50000x128 ![0, 1] bcast_S1x128_S50000x128_0_1 (broadcastInDim S1x128 ![1] bcast_S128_S1x128_1 b) (ix2 n o)
      = b (ix1 o) := by
  refine (broadcastInDim_apply _ _ _ _ (ix2 (0 : Fin 1) o) fun a => ?_).trans
    (broadcastInDim_apply _ _ b _ (ix1 o) fun a => ?_)
  · match a with
    | ⟨0, _⟩ => rfl
    | ⟨1, _⟩ => rfl
  · match a with
    | ⟨0, _⟩ => rfl

end Cert.ReferenceIdeal.Val

end
-- ==== Proof.DenseArr2.lean ====
/-
  The second and third layers' dense product as whole arrays, at the extended reals: what the kernel's region computes from the
  stacked features, the flattened weight and the bias row is what the reference computes by four host products, their
  sum, the bias and leaky_relu — for any four feature arrays, weight and bias.
-/
import proofs.«133509_j41223096107483_1_alg».proof.Proof.DenseLaw
import proofs.«133509_j41223096107483_1_alg».proof.Proof.RDense

set_option maxRecDepth 16384

noncomputable section

namespace Cert.Proof.Laws

open Idealize.ShloMosaic Idealize.ShloMosaic.ValueIdx
open scoped BigOperators

/-- The reference's pre-activation: the four host products of the hop arrays with the weight's four matrices, added
    from the left, plus the bias spread over the rows. -/
def refPre (T0 T1 T2 T3 : FVec Ideal Cert.ReferenceIdeal.S50000x128 .f32) (W : FVec Ideal Cert.ReferenceIdeal.S4x128x128 .f32)
    (b : FVec Ideal Cert.ReferenceIdeal.S128 .f32) : FVec Ideal Cert.ReferenceIdeal.S50000x128 .f32 :=
  addf (addf (addf (addf
      (Host.dotGeneral Cert.ReferenceIdeal.dot_S50000x128_S128x128_S50000x128_1_0_0_1_n_n none T0
        (shapeCast Cert.ReferenceIdeal.S128x128 (extractStridedSlice Cert.ReferenceIdeal.S1x128x128 ![0, 0, 0] W Cert.ReferenceIdeal.Gen.slices_S4x128x128_S1x128x128_0_0_0) Cert.ReferenceIdeal.Gen.shapeCasts_S1x128x128_S128x128))
      (Host.dotGeneral Cert.ReferenceIdeal.dot_S50000x128_S128x128_S50000x128_1_0_0_1_n_n none T1
        (shapeCast Cert.ReferenceIdeal.S128x128 (extractStridedSlice Cert.ReferenceIdeal.S1x128x128 ![1, 0, 0] W Cert.ReferenceIdeal.Gen.slices_S4x128x128_S1x128x128_1_0_0) Cert.ReferenceIdeal.Gen.shapeCasts_S1x128x128_S128x128)))
      (Host.dotGeneral Cert.ReferenceIdeal.dot_S50000x128_S128x128_S50000x128_1_0_0_1_n_n none T2
        (shapeCast Cert.ReferenceIdeal.S128x128 (extractStridedSlice Cert.ReferenceIdeal.S1x128x128 ![2, 0, 0] W Cert.ReferenceIdeal.Gen.slices_S4x128x128_S1x128x128_2_0_0) Cert.ReferenceIdeal.Gen.shapeCasts_S1x128x128_S128x128)))
      (Host.dotGeneral Cert.ReferenceIdeal.dot_S50000x128_S128x128_S50000x128_1_0_0_1_n_n none T3
        (shapeCast Cert.ReferenceIdeal.S128x128 (extractStridedSlice Cert.ReferenceIdeal.S1x128x128 ![3, 0, 0] W Cert.ReferenceIdeal.Gen.slices_S4x128x128_S1x128x128_3_0_0) Cert.ReferenceIdeal.Gen.shapeCasts_S1x128x128_S128x128)))
    (broadcastInDim Cert.ReferenceIdeal.S50000x128 ![0, 1] Cert.ReferenceIdeal.Gen.bcast_S1x128_S50000x128_0_1
      (broadcastInDim Cert.ReferenceIdeal.S1x128 ![1] Cert.ReferenceIdeal.Gen.bcast_S128_S1x128_1 b))

/-- The reference's pre-activation at (n, o). -/
theorem refPre_apply (T0 T1 T2 T3 : FVec Ideal Cert.ReferenceIdeal.S50000x128 .f32) (W : FVec Ideal Cert.ReferenceIdeal.S4x128x128 .f32)
    (b : FVec Ideal Cert.ReferenceIdeal.S128 .f32) (n : Fin 50000) (o : Fin 128) :
    refPre T0 T1 T2 T3 W b (ix2 n o)
      = (((Cert.KernelIdeal.Val.hop T0 W 0 n o + Cert.KernelIdeal.Val.hop T1 W 1 n o) + Cert.KernelIdeal.Val.hop T2 W 2 n o)
          + Cert.KernelIdeal.Val.hop T3 W 3 n o) + b (ix1 o) := by
  unfold refPre Cert.KernelIdeal.Val.hop
  rw [addf_apply, addf_apply, addf_apply, addf_apply, Cert.ReferenceIdeal.Val.biasRows_apply,
    Cert.ReferenceIdeal.Val.dot_apply, Cert.ReferenceIdeal.Val.dot_apply, Cert.ReferenceIdeal.Val.dot_apply, Cert.ReferenceIdeal.Val.dot_apply]
  simp only [Cert.ReferenceIdeal.Val.w0_apply, Cert.ReferenceIdeal.Val.w1_apply, Cert.ReferenceIdeal.Val.w2_apply, Cert.ReferenceIdeal.Val.w3_apply]

/-- The reference's leaky_relu of an array: the array where it is ≥ 0, else 0.01 times it. -/
def refLeaky (X : FVec Ideal Cert.ReferenceIdeal.S50000x128 .f32) : FVec Ideal Cert.ReferenceIdeal.S50000x128 .f32 :=
  select (cmpf .oge X (broadcastInDim Cert.ReferenceIdeal.S50000x128 ![] Cert.ReferenceIdeal.Gen.bcast_S_S50000x128 (constant (F := Ideal) Cert.ReferenceIdeal.S_ .f32 0x00000000#32)))
    X (mulf (broadcastInDim Cert.ReferenceIdeal.S50000x128 ![] Cert.ReferenceIdeal.Gen.bcast_S_S50000x128 (constant (F := Ideal) Cert.ReferenceIdeal.S_ .f32 0x3C23D70A#32)) X)

theorem refLeaky_apply (X : FVec Ideal Cert.ReferenceIdeal.S50000x128 .f32) (i : Cert.ReferenceIdeal.S50000x128.Idx) :
    refLeaky X i = Cert.KernelIdeal.Val.leakyGe (X i) := by
  unfold refLeaky Cert.KernelIdeal.Val.leakyGe
  rw [select_apply, cmpf_apply, mulf_apply]
  rfl

/-- THE DENSE LAYER, kernel against reference, as whole arrays. -/
theorem dense2_arrays (T0 T1 T2 T3 : FVec Ideal Cert.KernelIdeal.S50000x128 .f32) (W : FVec Ideal Cert.KernelIdeal.S4x128x128 .f32)
    (b : FVec Ideal Cert.KernelIdeal.S128 .f32) :
    Cert.KernelIdeal.Val.dense2
        (truncf .bf16 (shapeCast Cert.KernelIdeal.S50000x512
          (concatenate Cert.KernelIdeal.S50000x4x128 1 [⟨Cert.KernelIdeal.S50000x1x128, broadcastInDim Cert.KernelIdeal.S50000x1x128 ![0, 2] Cert.KernelIdeal.Gen.bcast_S50000x128_S50000x1x128_0_2 T0⟩,
             ⟨Cert.KernelIdeal.S50000x1x128, broadcastInDim Cert.KernelIdeal.S50000x1x128 ![0, 2] Cert.KernelIdeal.Gen.bcast_S50000x128_S50000x1x128_0_2 T1⟩,
             ⟨Cert.KernelIdeal.S50000x1x128, broadcastInDim Cert.KernelIdeal.S50000x1x128 ![0, 2] Cert.KernelIdeal.Gen.bcast_S50000x128_S50000x1x128_0_2 T2⟩,
             ⟨Cert.KernelIdeal.S50000x1x128, broadcastInDim Cert.KernelIdeal.S50000x1x128 ![0, 2] Cert.KernelIdeal.Gen.bcast_S50000x128_S50000x1x128_0_2 T3⟩]
            Cert.KernelIdeal.Gen.concatenates_S50000x1x128_S50000x1x128_S50000x1x128_S50000x1x128_S50000x4x128_d1)
          Cert.KernelIdeal.Gen.shapeCasts_S50000x4x128_S50000x512) Cert.KernelIdeal.Gen.bitsLt_bf16_f32)
        (truncf .bf16 (shapeCast Cert.KernelIdeal.S512x128 W Cert.KernelIdeal.Gen.shapeCasts_S4x128x128_S512x128) Cert.KernelIdeal.Gen.bitsLt_bf16_f32)
        (shapeCast Cert.KernelIdeal.S1x128 b Cert.KernelIdeal.Gen.shapeCasts_S128_S1x128)
      = refLeaky (refPre T0 T1 T2 T3 W b) := by
  funext i
  obtain ⟨n, o, rfl⟩ : ∃ (n : Fin 50000) (o : Fin 128), i = ix2 n o := ⟨i 0, i 1, eq_ix2 i⟩
  rw [refLeaky_apply, refPre_apply]
  refine Cert.KernelIdeal.Val.dense2_law T0 T1 T2 T3 W b _ _ _ (fun n k c => ?_) (fun k c o => ?_) (fun o => ?_) n o
  · rw [truncf_apply, Cert.KernelIdeal.Val.flat_apply]
    exact Cert.KernelIdeal.Val.joined_apply T0 T1 T2 T3 n k c
  · rw [truncf_apply, Cert.KernelIdeal.Val.flatW_apply]
  · exact Cert.KernelIdeal.Val.rowB_apply b 0 o

end Cert.Proof.Laws

end
-- ==== Proof.SimL1.lean ====
/-
  The first layer's dense product, the two programs side by side over any contents VK, VR of their buffers that
  agree on the layer's inputs (the 3-channel input features, the edge weights and endpoints, the layer's weight and
  bias). The kernel multiplies the row-joined features a (50000×12, a[n, 3·k + c] = T_k[n, c]) by the stacked weight
  w (12×128, w[3·k + c, o] = W[k, c, o]), adds the bias row and applies "y where y > 0, else 0.01·y". Regrouping the
  sum over the 12 joined columns into the four sums over 3 channels — only commutativity and associativity of the
  extended reals' addition — gives ((S0 + S1) + S2) + S3 + b[o] with S_k = Σ_c T_k[n, c] · W[k, c, o], the
  reference's four host products added from the left; the two spellings of leaky_relu agree. The three propagated
  feature arrays are the same host chains in both programs.
-/
import proofs.«133509_j41223096107483_1_alg».proof.Proof.RefCuts
import proofs.«133509_j41223096107483_1_alg».proof.Proof.KICuts
import proofs.«133509_j41223096107483_1_alg».proof.Proof.KIFrame
import proofs.«133509_j41223096107483_1_alg».proof.Proof.KIV0
import proofs.«133509_j41223096107483_1_alg».proof.Proof.DenseArr2

set_option maxRecDepth 16384

noncomputable section

/-! ## The stacked 3-channel features and the flattened weight, read at an entry -/

namespace Cert.KernelIdeal.Val

open Cert.KernelIdeal Cert.KernelIdeal.Gen
open Idealize.ShloMosaic Idealize.ShloMosaic.ValueIdx
open scoped BigOperators

/-- A 3-channel hop array with its unit middle axis, at (n, 0, c). -/
theorem mid1_apply (T : FVec Ideal S50000x3 .f32) (n : Fin 50000) (z : Fin 1) (c : Fin 3) :
    broadcastInDim S50000x1x3 ![0, 2] bcast_S50000x3_S50000x1x3_0_2 T (ix3 n z c) = T (ix2 n c) := by
  refine broadcastInDim_apply _ _ T _ (ix2 n c) fun a => ?_
  match a with
  | ⟨0, _⟩ => rfl
  | ⟨1, _⟩ => rfl

/-- The four 3-channel hop arrays with their unit middle axes, as the pieces of the join. -/
abbrev xs4_1 (T0 T1 T2 T3 : FVec Ideal S50000x3 .f32) : List ((s : Shape) × (s.Idx → Elt Ideal .f32)) :=
  [⟨S50000x1x3, broadcastInDim S50000x1x3 ![0, 2] bcast_S50000x3_S50000x1x3_0_2 T0⟩,
         ⟨S50000x1x3, broadcastInDim S50000x1x3 ![0, 2] bcast_S50000x3_S50000x1x3_0_2 T1⟩,
         ⟨S50000x1x3, broadcastInDim S50000x1x3 ![0, 2] bcast_S50000x3_S50000x1x3_0_2 T2⟩,
         ⟨S50000x1x3, broadcastInDim S50000x1x3 ![0, 2] bcast_S50000x3_S50000x1x3_0_2 T3⟩]

/-- The four hop arrays joined along the middle axis, at (n, k, c): the k-th at (n, c). -/
theorem joined1_apply (T0 T1 T2 T3 : FVec Ideal S50000x3 .f32) (n : Fin 50000) (k : Fin 4) (c : Fin 3) :
    concatenate S50000x4x3 1
        [⟨S50000x1x3, broadcastInDim S50000x1x3 ![0, 2] bcast_S50000x3_S50000x1x3_0_2 T0⟩,
         ⟨S50000x1x3, broadcastInDim S50000x1x3 ![0, 2] bcast_S50000x3_S50000x1x3_0_2 T1⟩,
         ⟨S50000x1x3, broadcastInDim S50000x1x3 ![0, 2] bcast_S50000x3_S50000x1x3_0_2 T2⟩,
         ⟨S50000x1x3, broadcastInDim S50000x1x3 ![0, 2] bcast_S50000x3_S50000x1x3_0_2 T3⟩]
        concatenates_S50000x1x3_S50000x1x3_S50000x1x3_S50000x1x3_S50000x4x3_d1 (ix3 n k c)
      = pick4 k T0 T1 T2 T3 (ix2 n c) := by
  match k with
  | ⟨0, _⟩ =>
    refine (concatenate_apply_piece (t := S50000x4x3) (1 : Fin 3) (xs4_1 T0 T1 T2 T3) concatenates_S50000x1x3_S50000x1x3_S50000x1x3_S50000x1x3_S50000x4x3_d1 (ix3 n (⟨0, by omega⟩ : Fin 4) c) 0 (by show (0 : ℕ) < 4; omega) S50000x1x3 _ rfl rfl 0 rfl (ix3 n 0 c) (fun b hb => ?_) rfl).trans (mid1_apply T0 n 0 c)
    match b with
    | ⟨0, _⟩ => rfl
    | ⟨1, _⟩ => exact absurd rfl hb
    | ⟨2, _⟩ => rfl
  | ⟨1, _⟩ =>
    refine (concatenate_apply_piece (t := S50000x4x3) (1 : Fin 3) (xs4_1 T0 T1 T2 T3) concatenates_S50000x1x3_S50000x1x3_S50000x1x3_S50000x1x3_S50000x4x3_d1 (ix3 n (⟨1, by omega⟩ : Fin 4) c) 1 (by show (1 : ℕ) < 4; omega) S50000x1x3 _ rfl rfl 1 rfl (ix3 n 0 c) (fun b hb => ?_) rfl).trans (mid1_apply T1 n 0 c)
    match b with
    | ⟨0, _⟩ => rfl
    | ⟨1, _⟩ => exact absurd rfl hb
    | ⟨2, _⟩ => rfl
  | ⟨2, _⟩ =>
    refine (concatenate_apply_piece (t := S50000x4x3) (1 : Fin 3) (xs4_1 T0 T1 T2 T3) concatenates_S50000x1x3_S50000x1x3_S50000x1x3_S50000x1x3_S50000x4x3_d1 (ix3 n (⟨2, by omega⟩ : Fin 4) c) 2 (by show (2 : ℕ) < 4; omega) S50000x1x3 _ rfl rfl 2 rfl (ix3 n 0 c) (fun b hb => ?_) rfl).trans (mid1_apply T2 n 0 c)
    match b with
    | ⟨0, _⟩ => rfl
    | ⟨1, _⟩ => exact absurd rfl hb
    | ⟨2, _⟩ => rfl
  | ⟨3, _⟩ =>
    refine (concatenate_apply_piece (t := S50000x4x3) (1 : Fin 3) (xs4_1 T0 T1 T2 T3) concatenates_S50000x1x3_S50000x1x3_S50000x1x3_S50000x1x3_S50000x4x3_d1 (ix3 n (⟨3, by omega⟩ : Fin 4) c) 3 (by show (3 : ℕ) < 4; omega) S50000x1x3 _ rfl rfl 3 rfl (ix3 n 0 c) (fun b hb => ?_) rfl).trans (mid1_apply T3 n 0 c)
    match b with
    | ⟨0, _⟩ => rfl
    | ⟨1, _⟩ => exact absurd rfl hb
    | ⟨2, _⟩ => rfl

theorem col_lt1 (k : Fin 4) (c : Fin 3) : 3 * k.val + c.val < 12 := by
  have := k.isLt; have := c.isLt; omega

/-- The flattened stack at (n, 3·k + c): the k-th hop array at (n, c). -/
theorem flat1_apply (X : FVec Ideal S50000x4x3 .f32) (n : Fin 50000) (k : Fin 4) (c : Fin 3) :
    shapeCast S50000x12 X shapeCasts_S50000x4x3_S50000x12 (ix2 n ⟨3 * k.val + c.val, col_lt1 k c⟩) = X (ix3 n k c) := by
  refine shapeCast_apply X _ _ (ix3 n k c) ?_
  rw [Shape.rowMajor_val_three, Shape.rowMajor_val_two]
  show (n.val * 4 + k.val) * 3 + c.val = n.val * 12 + (3 * k.val + c.val)
  ring

/-- The flattened weight at (3·k + c, o): W[k, c, o]. -/
theorem flatW1_apply (W : FVec Ideal S4x3x128 .f32) (k : Fin 4) (c : Fin 3) (o : Fin 128) :
    shapeCast S12x128 W shapeCasts_S4x3x128_S12x128 (ix2 ⟨3 * k.val + c.val, col_lt1 k c⟩ o) = W (ix3 k c o) := by
  refine shapeCast_apply W _ _ (ix3 k c o) ?_
  rw [Shape.rowMajor_val_three, Shape.rowMajor_val_two]
  show (k.val * 3 + c.val) * 128 + o.val = (3 * k.val + c.val) * 128 + o.val
  ring

/-- The k-th of the four host products of the first layer at (n, o). -/
def hop1 (T : FVec Ideal S50000x3 .f32) (W : FVec Ideal S4x3x128 .f32) (k : Fin 4) (n : Fin 50000) (o : Fin 128) : Elt Ideal .f32 :=
  ∑ c : Fin 3, T (ix2 n c) * W (ix3 k c o)

/-- The kernel's first dense layer on the joined features is the reference's sum of four products, entry by entry. -/
theorem dense0_law (T0 T1 T2 T3 : FVec Ideal S50000x3 .f32) (W : FVec Ideal S4x3x128 .f32) (b : FVec Ideal S128 .f32)
    (a : Vec Ideal S50000x12 .bf16) (w : Vec Ideal S12x128 .bf16) (b' : Vec Ideal S1x128 .f32)
    (ha : ∀ (n : Fin 50000) (k : Fin 4) (c : Fin 3), a (ix2 n ⟨3 * k.val + c.val, col_lt1 k c⟩) = pick4 k T0 T1 T2 T3 (ix2 n c))
    (hw : ∀ (k : Fin 4) (c : Fin 3) (o : Fin 128), w (ix2 ⟨3 * k.val + c.val, col_lt1 k c⟩ o) = W (ix3 k c o))
    (hb : ∀ o : Fin 128, b' (ix2 0 o) = b (ix1 o))
    (n : Fin 50000) (o : Fin 128) :
    dense0 a w b' (ix2 n o)
      = leakyGe ((((hop1 T0 W 0 n o + hop1 T1 W 1 n o) + hop1 T2 W 2 n o) + hop1 T3 W 3 n o) + b (ix1 o)) := by
  unfold dense0
  rw [leakyGt_eq_leakyGe]
  show leakyGe ((∑ j : Fin 12, a (ix2 n j) * w (ix2 j o)) + b' (ix2 0 o)) = _
  have hs : (∑ j : Fin 12, a (ix2 n j) * w (ix2 j o))
      = ∑ k : Fin 4, ∑ c : Fin 3, pick4 k T0 T1 T2 T3 (ix2 n c) * W (ix3 k c o) := by
    refine (LibRegroup.sum_fin_mul 4 3 (fun j : Fin 12 => a (ix2 n j) * w (ix2 j o))).trans ?_
    refine Finset.sum_congr rfl fun k _ => Finset.sum_congr rfl fun c _ => ?_
    show a (ix2 n ⟨3 * k.val + c.val, _⟩) * w (ix2 ⟨3 * k.val + c.val, _⟩ o) = _
    rw [ha n k c, hw k c o]
  rw [hs, hb, Fin.sum_univ_four]
  rfl

end Cert.KernelIdeal.Val

/-! ## The reference's first dense product read at an entry -/

namespace Cert.ReferenceIdeal.Val

open Cert.ReferenceIdeal Cert.ReferenceIdeal.Gen
open Idealize.ShloMosaic Idealize.ShloMosaic.ValueIdx
open scoped BigOperators

/-- The first layer's weight's k-th matrix at (c, o) is W[k, c, o]. -/
theorem w0_apply1 (W : FVec Ideal S4x3x128 .f32) (c : Fin 3) (o : Fin 128) :
    shapeCast S3x128 (extractStridedSlice S1x3x128 ![0, 0, 0] W slices_S4x3x128_S1x3x128_0_0_0) shapeCasts_S1x3x128_S3x128 (ix2 c o)
      = W (ix3 (0 : Fin 4) c o) := by
  rw [shapeCast_1ab_ab_apply]
  refine extractStridedSlice_apply _ W _ _ (ix3 (0 : Fin 4) c o) fun a => ?_
  match a with
  | ⟨0, _⟩ => rfl
  | ⟨1, _⟩ => show c.val = 0 + c.val; omega
  | ⟨2, _⟩ => show o.val = 0 + o.val; omega
theorem w1_apply1 (W : FVec Ideal S4x3x128 .f32) (c : Fin 3) (o : Fin 128) :
    shapeCast S3x128 (extractStridedSlice S1x3x128 ![1, 0, 0] W slices_S4x3x128_S1x3x128_1_0_0) shapeCasts_S1x3x128_S3x128 (ix2 c o)
      = W (ix3 (1 : Fin 4) c o) := by
  rw [shapeCast_1ab_ab_apply]
  refine extractStridedSlice_apply _ W _ _ (ix3 (1 : Fin 4) c o) fun a => ?_
  match a with
  | ⟨0, _⟩ => rfl
  | ⟨1, _⟩ => show c.val = 0 + c.val; omega
  | ⟨2, _⟩ => show o.val = 0 + o.val; omega
theorem w2_apply1 (W : FVec Ideal S4x3x128 .f32) (c : Fin 3) (o : Fin 128) :
    shapeCast S3x128 (extractStridedSlice S1x3x128 ![2, 0, 0] W slices_S4x3x128_S1x3x128_2_0_0) shapeCasts_S1x3x128_S3x128 (ix2 c o)
      = W (ix3 (2 : Fin 4) c o) := by
  rw [shapeCast_1ab_ab_apply]
  refine extractStridedSlice_apply _ W _ _ (ix3 (2 : Fin 4) c o) fun a => ?_
  match a with
  | ⟨0, _⟩ => rfl
  | ⟨1, _⟩ => show c.val = 0 + c.val; omega
  | ⟨2, _⟩ => show o.val = 0 + o.val; omega
theorem w3_apply1 (W : FVec Ideal S4x3x128 .f32) (c : Fin 3) (o : Fin 128) :
    shapeCast S3x128 (extractStridedSlice S1x3x128 ![3, 0, 0] W slices_S4x3x128_S1x3x128_3_0_0) shapeCasts_S1x3x128_S3x128 (ix2 c o)
      = W (ix3 (3 : Fin 4) c o) := by
  rw [shapeCast_1ab_ab_apply]
  refine extractStridedSlice_apply _ W _ _ (ix3 (3 : Fin 4) c o) fun a => ?_
  match a with
  | ⟨0, _⟩ => rfl
  | ⟨1, _⟩ => show c.val = 0 + c.val; omega
  | ⟨2, _⟩ => show o.val = 0 + o.val; omega

/-- The host's product of a 3-channel array with a 3×128 matrix at (n, o). -/
theorem dot1_apply (l : FVec Ideal S50000x3 .f32) (r : FVec Ideal S3x128 .f32) (n : Fin 50000) (o : Fin 128) :
    Host.dotGeneral (F := Ideal) dot_S50000x3_S3x128_S50000x128_1_0_0_1_n_n none l r (ix2 n o)
      = ∑ c : Fin 3, l (ix2 n c) * r (ix2 c o) := by
  simp only [Host.dotGeneral]
  exact Ideal.dotGeneral_rows_cols dot_S50000x3_S3x128_S50000x128_1_0_0_1_n_n rfl rfl rfl rfl rfl rfl none _ l r n o

end Cert.ReferenceIdeal.Val

/-! ## The first layer as whole arrays -/

namespace Cert.Proof.Laws

open Idealize.ShloMosaic Idealize.ShloMosaic.ValueIdx
open scoped BigOperators

/-- The reference's first-layer pre-activation: the four host products of the hop arrays with the weight's four
    matrices, added from the left, plus the bias spread over the rows. -/
def refPre1 (T0 T1 T2 T3 : FVec Ideal Cert.ReferenceIdeal.S50000x3 .f32) (W : FVec Ideal Cert.ReferenceIdeal.S4x3x128 .f32)
    (b : FVec Ideal Cert.ReferenceIdeal.S128 .f32) : FVec Ideal Cert.ReferenceIdeal.S50000x128 .f32 :=
  addf (addf (addf (addf
      (Host.dotGeneral Cert.ReferenceIdeal.dot_S50000x3_S3x128_S50000x128_1_0_0_1_n_n none T0
        (shapeCast Cert.ReferenceIdeal.S3x128 (extractStridedSlice Cert.ReferenceIdeal.S1x3x128 ![0, 0, 0] W Cert.ReferenceIdeal.Gen.slices_S4x3x128_S1x3x128_0_0_0) Cert.ReferenceIdeal.Gen.shapeCasts_S1x3x128_S3x128))
      (Host.dotGeneral Cert.ReferenceIdeal.dot_S50000x3_S3x128_S50000x128_1_0_0_1_n_n none T1
        (shapeCast Cert.ReferenceIdeal.S3x128 (extractStridedSlice Cert.ReferenceIdeal.S1x3x128 ![1, 0, 0] W Cert.ReferenceIdeal.Gen.slices_S4x3x128_S1x3x128_1_0_0) Cert.ReferenceIdeal.Gen.shapeCasts_S1x3x128_S3x128)))
      (Host.dotGeneral Cert.ReferenceIdeal.dot_S50000x3_S3x128_S50000x128_1_0_0_1_n_n none T2
        (shapeCast Cert.ReferenceIdeal.S3x128 (extractStridedSlice Cert.ReferenceIdeal.S1x3x128 ![2, 0, 0] W Cert.ReferenceIdeal.Gen.slices_S4x3x128_S1x3x128_2_0_0) Cert.ReferenceIdeal.Gen.shapeCasts_S1x3x128_S3x128)))
      (Host.dotGeneral Cert.ReferenceIdeal.dot_S50000x3_S3x128_S50000x128_1_0_0_1_n_n none T3
        (shapeCast Cert.ReferenceIdeal.S3x128 (extractStridedSlice Cert.ReferenceIdeal.S1x3x128 ![3, 0, 0] W Cert.ReferenceIdeal.Gen.slices_S4x3x128_S1x3x128_3_0_0) Cert.ReferenceIdeal.Gen.shapeCasts_S1x3x128_S3x128)))
    (broadcastInDim Cert.ReferenceIdeal.S50000x128 ![0, 1] Cert.ReferenceIdeal.Gen.bcast_S1x128_S50000x128_0_1
      (broadcastInDim Cert.ReferenceIdeal.S1x128 ![1] Cert.ReferenceIdeal.Gen.bcast_S128_S1x128_1 b))

/-- The reference's first-layer pre-activation at (n, o). -/
theorem refPre1_apply (T0 T1 T2 T3 : FVec Ideal Cert.ReferenceIdeal.S50000x3 .f32) (W : FVec Ideal Cert.ReferenceIdeal.S4x3x128 .f32)
    (b : FVec Ideal Cert.ReferenceIdeal.S128 .f32) (n : Fin 50000) (o : Fin 128) :
    refPre1 T0 T1 T2 T3 W b (ix2 n o)
      = (((Cert.KernelIdeal.Val.hop1 T0 W 0 n o + Cert.KernelIdeal.Val.hop1 T1 W 1 n o) + Cert.KernelIdeal.Val.hop1 T2 W 2 n o)
          + Cert.KernelIdeal.Val.hop1 T3 W 3 n o) + b (ix1 o) := by
  unfold refPre1 Cert.KernelIdeal.Val.hop1
  rw [addf_apply, addf_apply, addf_apply, addf_apply, Cert.ReferenceIdeal.Val.biasRows_apply,
    Cert.ReferenceIdeal.Val.dot1_apply, Cert.ReferenceIdeal.Val.dot1_apply, Cert.ReferenceIdeal.Val.dot1_apply, Cert.ReferenceIdeal.Val.dot1_apply]
  simp only [Cert.ReferenceIdeal.Val.w0_apply1, Cert.ReferenceIdeal.Val.w1_apply1, Cert.ReferenceIdeal.Val.w2_apply1, Cert.ReferenceIdeal.Val.w3_apply1]

/-- THE FIRST DENSE LAYER, kernel against reference, as whole arrays. -/
theorem dense0_arrays (T0 T1 T2 T3 : FVec Ideal Cert.KernelIdeal.S50000x3 .f32) (W : FVec Ideal Cert.KernelIdeal.S4x3x128 .f32)
    (b : FVec Ideal Cert.KernelIdeal.S128 .f32) :
    Cert.KernelIdeal.Val.dense0
        (truncf .bf16 (shapeCast Cert.KernelIdeal.S50000x12
          (concatenate Cert.KernelIdeal.S50000x4x3 1 [⟨Cert.KernelIdeal.S50000x1x3, broadcastInDim Cert.KernelIdeal.S50000x1x3 ![0, 2] Cert.KernelIdeal.Gen.bcast_S50000x3_S50000x1x3_0_2 T0⟩,
             ⟨Cert.KernelIdeal.S50000x1x3, broadcastInDim Cert.KernelIdeal.S50000x1x3 ![0, 2] Cert.KernelIdeal.Gen.bcast_S50000x3_S50000x1x3_0_2 T1⟩,
             ⟨Cert.KernelIdeal.S50000x1x3, broadcastInDim Cert.KernelIdeal.S50000x1x3 ![0, 2] Cert.KernelIdeal.Gen.bcast_S50000x3_S50000x1x3_0_2 T2⟩,
             ⟨Cert.KernelIdeal.S50000x1x3, broadcastInDim Cert.KernelIdeal.S50000x1x3 ![0, 2] Cert.KernelIdeal.Gen.bcast_S50000x3_S50000x1x3_0_2 T3⟩]
            Cert.KernelIdeal.Gen.concatenates_S50000x1x3_S50000x1x3_S50000x1x3_S50000x1x3_S50000x4x3_d1)
          Cert.KernelIdeal.Gen.shapeCasts_S50000x4x3_S50000x12) Cert.KernelIdeal.Gen.bitsLt_bf16_f32)
        (truncf .bf16 (shapeCast Cert.KernelIdeal.S12x128 W Cert.KernelIdeal.Gen.shapeCasts_S4x3x128_S12x128) Cert.KernelIdeal.Gen.bitsLt_bf16_f32)
        (shapeCast Cert.KernelIdeal.S1x128 b Cert.KernelIdeal.Gen.shapeCasts_S128_S1x128)
      = refLeaky (refPre1 T0 T1 T2 T3 W b) := by
  funext i
  obtain ⟨n, o, rfl⟩ : ∃ (n : Fin 50000) (o : Fin 128), i = ix2 n o := ⟨i 0, i 1, eq_ix2 i⟩
  rw [refLeaky_apply, refPre1_apply]
  refine Cert.KernelIdeal.Val.dense0_law T0 T1 T2 T3 W b _ _ _ (fun n k c => ?_) (fun k c o => ?_) (fun o => ?_) n o
  · rw [truncf_apply, Cert.KernelIdeal.Val.flat1_apply]
    exact Cert.KernelIdeal.Val.joined1_apply T0 T1 T2 T3 n k c
  · rw [truncf_apply, Cert.KernelIdeal.Val.flatW1_apply]
  · exact Cert.KernelIdeal.Val.rowB_apply b 0 o

end Cert.Proof.Laws

/-! ## The two programs side by side -/

namespace Cert.Proof.Sim

open Idealize.ShloMosaic Idealize.ShloMosaic.TcCoe Idealize.SL.Sem Idealize.ShloMosaic.StableHlo

section
variable (VK : Valuation Cert.KernelIdeal.τ Cert.KernelIdeal.sig (Elt Ideal)) (VR : Valuation Cert.ReferenceIdeal.τ Cert.ReferenceIdeal.sig (Elt Ideal))

/-! ### The kernel program's side: the four arrays with their middle axes, the join, the flattened weight and bias -/

theorem op75_1 :
    (after (Cert.KernelIdeal.Frm.k02b (F := Ideal)) VK (Proc.devRef .tc Cert.KernelIdeal.main_v75) : FVec Ideal Cert.KernelIdeal.S50000x1x3 .f32)
      = broadcastInDim Cert.KernelIdeal.S50000x1x3 ![0, 2] Cert.KernelIdeal.Gen.bcast_S50000x3_S50000x1x3_0_2
          (VK (Proc.devRef .tc Cert.KernelIdeal.main_arg0) : FVec Ideal Cert.KernelIdeal.S50000x3 .f32) := by
  simp only [Cert.KernelIdeal.Frm.k02b]
  after_results_simp

set_option maxHeartbeats 1000000 in
theorem op76_1 :
    (after (Cert.KernelIdeal.Frm.k02b (F := Ideal)) VK (Proc.devRef .tc Cert.KernelIdeal.main_v76) : FVec Ideal Cert.KernelIdeal.S50000x1x3 .f32)
      = broadcastInDim Cert.KernelIdeal.S50000x1x3 ![0, 2] Cert.KernelIdeal.Gen.bcast_S50000x3_S50000x1x3_0_2
          (after (Cert.KernelIdeal.Frm.k02b (F := Ideal)) VK (Proc.devRef .tc Cert.KernelIdeal.main_v42) : FVec Ideal Cert.KernelIdeal.S50000x3 .f32) := by
  simp only [Cert.KernelIdeal.Frm.k02b]
  after_results_simp

set_option maxHeartbeats 1000000 in
theorem op77_1 :
    (after (Cert.KernelIdeal.Frm.k02b (F := Ideal)) VK (Proc.devRef .tc Cert.KernelIdeal.main_v77) : FVec Ideal Cert.KernelIdeal.S50000x1x3 .f32)
      = broadcastInDim Cert.KernelIdeal.S50000x1x3 ![0, 2] Cert.KernelIdeal.Gen.bcast_S50000x3_S50000x1x3_0_2
          (after (Cert.KernelIdeal.Frm.k02b (F := Ideal)) VK (Proc.devRef .tc Cert.KernelIdeal.main_v58) : FVec Ideal Cert.KernelIdeal.S50000x3 .f32) := by
  simp only [Cert.KernelIdeal.Frm.k02b]
  after_results_simp

set_option maxHeartbeats 1000000 in
theorem op78_1 :
    (after (Cert.KernelIdeal.Frm.k02b (F := Ideal)) VK (Proc.devRef .tc Cert.KernelIdeal.main_v78) : FVec Ideal Cert.KernelIdeal.S50000x1x3 .f32)
      = broadcastInDim Cert.KernelIdeal.S50000x1x3 ![0, 2] Cert.KernelIdeal.Gen.bcast_S50000x3_S50000x1x3_0_2
          (after (Cert.KernelIdeal.Frm.k02b (F := Ideal)) VK (Proc.devRef .tc Cert.KernelIdeal.main_v74) : FVec Ideal Cert.KernelIdeal.S50000x3 .f32) := by
  simp only [Cert.KernelIdeal.Frm.k02b]
  after_results_simp

/-- The stacked features from the four arrays with their middle axes. -/
theorem tail1_a (V : Valuation Cert.KernelIdeal.τ Cert.KernelIdeal.sig (Elt Ideal)) :
    (after (Cert.KernelIdeal.Frm.k02c (F := Ideal)) V (Proc.devRef .tc Cert.KernelIdeal.main_v81) : FVec Ideal Cert.KernelIdeal.S50000x12 .bf16)
      = truncf (F := Ideal) .bf16 (shapeCast Cert.KernelIdeal.S50000x12
          (concatenate Cert.KernelIdeal.S50000x4x3 1
            [⟨Cert.KernelIdeal.S50000x1x3, (V (Proc.devRef .tc Cert.KernelIdeal.main_v75) : FVec Ideal Cert.KernelIdeal.S50000x1x3 .f32)⟩,
             ⟨Cert.KernelIdeal.S50000x1x3, (V (Proc.devRef .tc Cert.KernelIdeal.main_v76) : FVec Ideal Cert.KernelIdeal.S50000x1x3 .f32)⟩,
             ⟨Cert.KernelIdeal.S50000x1x3, (V (Proc.devRef .tc Cert.KernelIdeal.main_v77) : FVec Ideal Cert.KernelIdeal.S50000x1x3 .f32)⟩,
             ⟨Cert.KernelIdeal.S50000x1x3, (V (Proc.devRef .tc Cert.KernelIdeal.main_v78) : FVec Ideal Cert.KernelIdeal.S50000x1x3 .f32)⟩]
            Cert.KernelIdeal.Gen.concatenates_S50000x1x3_S50000x1x3_S50000x1x3_S50000x1x3_S50000x4x3_d1)
          Cert.KernelIdeal.Gen.shapeCasts_S50000x4x3_S50000x12) Cert.KernelIdeal.Gen.bitsLt_bf16_f32 := by
  simp only [Cert.KernelIdeal.Frm.k02c]
  after_results
  rfl

theorem tail1_w (V : Valuation Cert.KernelIdeal.τ Cert.KernelIdeal.sig (Elt Ideal)) :
    (after (Cert.KernelIdeal.Frm.k02c (F := Ideal)) V (Proc.devRef .tc Cert.KernelIdeal.main_v83) : FVec Ideal Cert.KernelIdeal.S12x128 .bf16)
      = truncf (F := Ideal) .bf16 (shapeCast Cert.KernelIdeal.S12x128 (V (Proc.devRef .tc Cert.KernelIdeal.main_arg2) : FVec Ideal Cert.KernelIdeal.S4x3x128 .f32) Cert.KernelIdeal.Gen.shapeCasts_S4x3x128_S12x128) Cert.KernelIdeal.Gen.bitsLt_bf16_f32 := by
  simp only [Cert.KernelIdeal.Frm.k02c]
  after_results
  rfl

theorem tail1_b (V : Valuation Cert.KernelIdeal.τ Cert.KernelIdeal.sig (Elt Ideal)) :
    (after (Cert.KernelIdeal.Frm.k02c (F := Ideal)) V (Proc.devRef .tc Cert.KernelIdeal.main_v84) : FVec Ideal Cert.KernelIdeal.S1x128 .f32)
      = shapeCast Cert.KernelIdeal.S1x128 (V (Proc.devRef .tc Cert.KernelIdeal.main_arg3) : FVec Ideal Cert.KernelIdeal.S128 .f32) Cert.KernelIdeal.Gen.shapeCasts_S128_S1x128 := by
  simp only [Cert.KernelIdeal.Frm.k02c]
  after_results
  rfl

theorem keep02b_arg2 : after (Cert.KernelIdeal.Frm.k02b (F := Ideal)) VK (Proc.devRef .tc Cert.KernelIdeal.main_arg2) = VK (Proc.devRef .tc Cert.KernelIdeal.main_arg2) := Cert.KernelIdeal.Frm.k02b_keep VK Cert.KernelIdeal.main_arg2
theorem keep02b_arg3 : after (Cert.KernelIdeal.Frm.k02b (F := Ideal)) VK (Proc.devRef .tc Cert.KernelIdeal.main_arg3) = VK (Proc.devRef .tc Cert.KernelIdeal.main_arg3) := Cert.KernelIdeal.Frm.k02b_keep VK Cert.KernelIdeal.main_arg3

/-! ### The three propagated arrays: the same host chains in both programs -/

attribute [local irreducible] Host.gather Host.scatterAdd in
set_option maxHeartbeats 1000000 in
theorem cpT1_1
    (h0 : VK (Proc.devRef .tc Cert.KernelIdeal.main_arg0) = VR (Proc.devRef .tc Cert.ReferenceIdeal.main_arg0))
    (hw : VK (Proc.devRef .tc Cert.KernelIdeal.main_v29) = VR (Proc.devRef .tc Cert.ReferenceIdeal.main_v29))
    (hs : VK (Proc.devRef .tc Cert.KernelIdeal.main_v1) = VR (Proc.devRef .tc Cert.ReferenceIdeal.main_v1))
    (hd : VK (Proc.devRef .tc Cert.KernelIdeal.main_v3) = VR (Proc.devRef .tc Cert.ReferenceIdeal.main_v3)) :
    after (Cert.KernelIdeal.Frm.k02b (F := Ideal)) VK (Proc.devRef .tc Cert.KernelIdeal.main_v42) = after (Cert.ReferenceIdeal.RefRun.ops0b (F := Ideal)) VR (Proc.devRef .tc Cert.ReferenceIdeal.main_v45) := by
  simp only [Cert.KernelIdeal.Frm.k02b, Cert.ReferenceIdeal.RefRun.ops0b]
  after_results_simp
  simp only [h0, hw, hs, hd]
  rfl

attribute [local irreducible] Host.gather Host.scatterAdd in
set_option maxHeartbeats 2000000 in
theorem cpT2_1
    (h0 : VK (Proc.devRef .tc Cert.KernelIdeal.main_arg0) = VR (Proc.devRef .tc Cert.ReferenceIdeal.main_arg0))
    (hw : VK (Proc.devRef .tc Cert.KernelIdeal.main_v29) = VR (Proc.devRef .tc Cert.ReferenceIdeal.main_v29))
    (hs : VK (Proc.devRef .tc Cert.KernelIdeal.main_v1) = VR (Proc.devRef .tc Cert.ReferenceIdeal.main_v1))
    (hd : VK (Proc.devRef .tc Cert.KernelIdeal.main_v3) = VR (Proc.devRef .tc Cert.ReferenceIdeal.main_v3)) :
    after (Cert.KernelIdeal.Frm.k02b (F := Ideal)) VK (Proc.devRef .tc Cert.KernelIdeal.main_v58) = (after (Cert.ReferenceIdeal.RefRun.ops1a (F := Ideal)) (after (Cert.ReferenceIdeal.RefRun.ops0b (F := Ideal)) VR)) (Proc.devRef .tc Cert.ReferenceIdeal.main_v65) := by
  simp only [Cert.KernelIdeal.Frm.k02b, Cert.ReferenceIdeal.RefRun.ops0b, Cert.ReferenceIdeal.RefRun.ops1a]
  after_results_simp
  simp only [h0, hw, hs, hd]
  rfl

attribute [local irreducible] Host.gather Host.scatterAdd in
set_option maxHeartbeats 4000000 in
theorem cpT3_1
    (h0 : VK (Proc.devRef .tc Cert.KernelIdeal.main_arg0) = VR (Proc.devRef .tc Cert.ReferenceIdeal.main_arg0))
    (hw : VK (Proc.devRef .tc Cert.KernelIdeal.main_v29) = VR (Proc.devRef .tc Cert.ReferenceIdeal.main_v29))
    (hs : VK (Proc.devRef .tc Cert.KernelIdeal.main_v1) = VR (Proc.devRef .tc Cert.ReferenceIdeal.main_v1))
    (hd : VK (Proc.devRef .tc Cert.KernelIdeal.main_v3) = VR (Proc.devRef .tc Cert.ReferenceIdeal.main_v3)) :
    after (Cert.KernelIdeal.Frm.k02b (F := Ideal)) VK (Proc.devRef .tc Cert.KernelIdeal.main_v74) = (after (Cert.ReferenceIdeal.RefRun.ops1a (F := Ideal)) (after (Cert.ReferenceIdeal.RefRun.ops0b (F := Ideal)) VR)) (Proc.devRef .tc Cert.ReferenceIdeal.main_v85) := by
  simp only [Cert.KernelIdeal.Frm.k02b, Cert.ReferenceIdeal.RefRun.ops0b, Cert.ReferenceIdeal.RefRun.ops1a]
  after_results_simp
  simp only [h0, hw, hs, hd]
  rfl

/-! ### The reference's side -/

set_option maxHeartbeats 2000000 in
/-- The reference's first-layer activations from its own three propagated arrays. -/
theorem ref_y1 :
    ((after (Cert.ReferenceIdeal.RefRun.ops1a (F := Ideal)) (after (Cert.ReferenceIdeal.RefRun.ops0b (F := Ideal)) VR)) (Proc.devRef .tc Cert.ReferenceIdeal.main_v93) : FVec Ideal Cert.ReferenceIdeal.S50000x128 .f32)
      = Cert.Proof.Laws.refLeaky (Cert.Proof.Laws.refPre1
          (VR (Proc.devRef .tc Cert.ReferenceIdeal.main_arg0)) (after (Cert.ReferenceIdeal.RefRun.ops0b (F := Ideal)) VR (Proc.devRef .tc Cert.ReferenceIdeal.main_v45)) ((after (Cert.ReferenceIdeal.RefRun.ops1a (F := Ideal)) (after (Cert.ReferenceIdeal.RefRun.ops0b (F := Ideal)) VR)) (Proc.devRef .tc Cert.ReferenceIdeal.main_v65)) ((after (Cert.ReferenceIdeal.RefRun.ops1a (F := Ideal)) (after (Cert.ReferenceIdeal.RefRun.ops0b (F := Ideal)) VR)) (Proc.devRef .tc Cert.ReferenceIdeal.main_v85))
          (VR (Proc.devRef .tc Cert.ReferenceIdeal.main_arg2)) (VR (Proc.devRef .tc Cert.ReferenceIdeal.main_arg3))) := by
  unfold Cert.Proof.Laws.refLeaky Cert.Proof.Laws.refPre1
  simp only [Cert.ReferenceIdeal.RefRun.ops0b, Cert.ReferenceIdeal.RefRun.ops1a]
  after_results_simp
  rfl

end

/-! ### The stage -/

/-- What the kernel program's first dense region computes from the contents after its host stretch is what the
    reference's operations leave in its first-layer activations. -/
theorem stage_y1 (VK : Valuation Cert.KernelIdeal.τ Cert.KernelIdeal.sig (Elt Ideal)) (VR : Valuation Cert.ReferenceIdeal.τ Cert.ReferenceIdeal.sig (Elt Ideal))
    (h0 : VK (Proc.devRef .tc Cert.KernelIdeal.main_arg0) = VR (Proc.devRef .tc Cert.ReferenceIdeal.main_arg0))
    (hw : VK (Proc.devRef .tc Cert.KernelIdeal.main_v29) = VR (Proc.devRef .tc Cert.ReferenceIdeal.main_v29))
    (hs : VK (Proc.devRef .tc Cert.KernelIdeal.main_v1) = VR (Proc.devRef .tc Cert.ReferenceIdeal.main_v1))
    (hd : VK (Proc.devRef .tc Cert.KernelIdeal.main_v3) = VR (Proc.devRef .tc Cert.ReferenceIdeal.main_v3))
    (h2 : VK (Proc.devRef .tc Cert.KernelIdeal.main_arg2) = VR (Proc.devRef .tc Cert.ReferenceIdeal.main_arg2))
    (h3 : VK (Proc.devRef .tc Cert.KernelIdeal.main_arg3) = VR (Proc.devRef .tc Cert.ReferenceIdeal.main_arg3)) :
    Cert.KernelIdeal.Val.dense0
        (after (Cert.KernelIdeal.Frm.k02c (F := Ideal)) (after (Cert.KernelIdeal.Frm.k02b (F := Ideal)) VK) (Proc.devRef .tc Cert.KernelIdeal.main_v81))
        (after (Cert.KernelIdeal.Frm.k02c (F := Ideal)) (after (Cert.KernelIdeal.Frm.k02b (F := Ideal)) VK) (Proc.devRef .tc Cert.KernelIdeal.main_v83))
        (after (Cert.KernelIdeal.Frm.k02c (F := Ideal)) (after (Cert.KernelIdeal.Frm.k02b (F := Ideal)) VK) (Proc.devRef .tc Cert.KernelIdeal.main_v84))
      = (after (Cert.ReferenceIdeal.RefRun.ops1a (F := Ideal)) (after (Cert.ReferenceIdeal.RefRun.ops0b (F := Ideal)) VR)) (Proc.devRef .tc Cert.ReferenceIdeal.main_v93) := by
  rw [tail1_a, tail1_w, tail1_b, op75_1, op76_1, op77_1, op78_1, keep02b_arg2, keep02b_arg3, ref_y1,
    ← cpT1_1 VK VR h0 hw hs hd, ← cpT2_1 VK VR h0 hw hs hd, ← cpT3_1 VK VR h0 hw hs hd, ← h0, ← h2, ← h3]
  exact Cert.Proof.Laws.dense0_arrays _ _ _ _ _ _

end Cert.Proof.Sim

end
-- ==== Proof.SimL2.lean ====
/-
  The second layer's dense product, the two programs side by side over any contents VK, VR of their buffers that
  agree on the layer's inputs (the previous layer's output, the edge weights and endpoints, the layer's weight and
  bias): the three propagated feature arrays are the same host chains in both programs; the kernel program joins the
  four arrays and runs its region on them, the reference multiplies each by its own weight matrix and adds; the
  dense law for whole arrays joins the two.
-/
import proofs.«133509_j41223096107483_1_alg».proof.Proof.RefCuts
import proofs.«133509_j41223096107483_1_alg».proof.Proof.KICuts
import proofs.«133509_j41223096107483_1_alg».proof.Proof.KIFrame
import proofs.«133509_j41223096107483_1_alg».proof.Proof.DenseArr2

set_option maxRecDepth 16384

noncomputable section

namespace Cert.Proof.Sim

open Idealize.ShloMosaic Idealize.ShloMosaic.TcCoe Idealize.SL.Sem Idealize.ShloMosaic.StableHlo

variable (VK : Valuation Cert.KernelIdeal.τ Cert.KernelIdeal.sig (Elt Ideal)) (VR : Valuation Cert.ReferenceIdeal.τ Cert.ReferenceIdeal.sig (Elt Ideal))

/-! ## The kernel program's side: the four arrays with their middle axes, the join, the flattened weight and bias -/

theorem op140_2 :
    (after (Cert.KernelIdeal.Frm.k2a (F := Ideal)) VK (Proc.devRef .tc Cert.KernelIdeal.main_v140) : FVec Ideal Cert.KernelIdeal.S50000x1x128 .f32)
      = broadcastInDim Cert.KernelIdeal.S50000x1x128 ![0, 2] Cert.KernelIdeal.Gen.bcast_S50000x128_S50000x1x128_0_2
          (VK (Proc.devRef .tc Cert.KernelIdeal.main_v94) : FVec Ideal Cert.KernelIdeal.S50000x128 .f32) := by
  simp only [Cert.KernelIdeal.Frm.k2a]
  after_results_simp

set_option maxHeartbeats 1000000 in
theorem op141_2 :
    (after (Cert.KernelIdeal.Frm.k2a (F := Ideal)) VK (Proc.devRef .tc Cert.KernelIdeal.main_v141) : FVec Ideal Cert.KernelIdeal.S50000x1x128 .f32)
      = broadcastInDim Cert.KernelIdeal.S50000x1x128 ![0, 2] Cert.KernelIdeal.Gen.bcast_S50000x128_S50000x1x128_0_2
          (after (Cert.KernelIdeal.Frm.k2a (F := Ideal)) VK (Proc.devRef .tc Cert.KernelIdeal.main_v107) : FVec Ideal Cert.KernelIdeal.S50000x128 .f32) := by
  simp only [Cert.KernelIdeal.Frm.k2a]
  after_results_simp

set_option maxHeartbeats 1000000 in
theorem op142_2 :
    (after (Cert.KernelIdeal.Frm.k2a (F := Ideal)) VK (Proc.devRef .tc Cert.KernelIdeal.main_v142) : FVec Ideal Cert.KernelIdeal.S50000x1x128 .f32)
      = broadcastInDim Cert.KernelIdeal.S50000x1x128 ![0, 2] Cert.KernelIdeal.Gen.bcast_S50000x128_S50000x1x128_0_2
          (after (Cert.KernelIdeal.Frm.k2a (F := Ideal)) VK (Proc.devRef .tc Cert.KernelIdeal.main_v123) : FVec Ideal Cert.KernelIdeal.S50000x128 .f32) := by
  simp only [Cert.KernelIdeal.Frm.k2a]
  after_results_simp

set_option maxHeartbeats 1000000 in
theorem op143_2 :
    (after (Cert.KernelIdeal.Frm.k2a (F := Ideal)) VK (Proc.devRef .tc Cert.KernelIdeal.main_v143) : FVec Ideal Cert.KernelIdeal.S50000x1x128 .f32)
      = broadcastInDim Cert.KernelIdeal.S50000x1x128 ![0, 2] Cert.KernelIdeal.Gen.bcast_S50000x128_S50000x1x128_0_2
          (after (Cert.KernelIdeal.Frm.k2a (F := Ideal)) VK (Proc.devRef .tc Cert.KernelIdeal.main_v139) : FVec Ideal Cert.KernelIdeal.S50000x128 .f32) := by
  simp only [Cert.KernelIdeal.Frm.k2a]
  after_results_simp

/-- The stacked features from the four arrays with their middle axes. -/
theorem tail2_a (V : Valuation Cert.KernelIdeal.τ Cert.KernelIdeal.sig (Elt Ideal)) :
    (after (Cert.KernelIdeal.Frm.k2b (F := Ideal)) V (Proc.devRef .tc Cert.KernelIdeal.main_v146) : FVec Ideal Cert.KernelIdeal.S50000x512 .bf16)
      = truncf (F := Ideal) .bf16 (shapeCast Cert.KernelIdeal.S50000x512
          (concatenate Cert.KernelIdeal.S50000x4x128 1
            [⟨Cert.KernelIdeal.S50000x1x128, (V (Proc.devRef .tc Cert.KernelIdeal.main_v140) : FVec Ideal Cert.KernelIdeal.S50000x1x128 .f32)⟩,
             ⟨Cert.KernelIdeal.S50000x1x128, (V (Proc.devRef .tc Cert.KernelIdeal.main_v141) : FVec Ideal Cert.KernelIdeal.S50000x1x128 .f32)⟩,
             ⟨Cert.KernelIdeal.S50000x1x128, (V (Proc.devRef .tc Cert.KernelIdeal.main_v142) : FVec Ideal Cert.KernelIdeal.S50000x1x128 .f32)⟩,
             ⟨Cert.KernelIdeal.S50000x1x128, (V (Proc.devRef .tc Cert.KernelIdeal.main_v143) : FVec Ideal Cert.KernelIdeal.S50000x1x128 .f32)⟩]
            Cert.KernelIdeal.Gen.concatenates_S50000x1x128_S50000x1x128_S50000x1x128_S50000x1x128_S50000x4x128_d1)
          Cert.KernelIdeal.Gen.shapeCasts_S50000x4x128_S50000x512) Cert.KernelIdeal.Gen.bitsLt_bf16_f32 := by
  simp only [Cert.KernelIdeal.Frm.k2b]
  after_results
  rfl

theorem tail2_w (V : Valuation Cert.KernelIdeal.τ Cert.KernelIdeal.sig (Elt Ideal)) :
    (after (Cert.KernelIdeal.Frm.k2b (F := Ideal)) V (Proc.devRef .tc Cert.KernelIdeal.main_v148) : FVec Ideal Cert.KernelIdeal.S512x128 .bf16)
      = truncf (F := Ideal) .bf16 (shapeCast Cert.KernelIdeal.S512x128 (V (Proc.devRef .tc Cert.KernelIdeal.main_arg6) : FVec Ideal Cert.KernelIdeal.S4x128x128 .f32) Cert.KernelIdeal.Gen.shapeCasts_S4x128x128_S512x128) Cert.KernelIdeal.Gen.bitsLt_bf16_f32 := by
  simp only [Cert.KernelIdeal.Frm.k2b]
  after_results
  rfl

theorem tail2_b (V : Valuation Cert.KernelIdeal.τ Cert.KernelIdeal.sig (Elt Ideal)) :
    (after (Cert.KernelIdeal.Frm.k2b (F := Ideal)) V (Proc.devRef .tc Cert.KernelIdeal.main_v149) : FVec Ideal Cert.KernelIdeal.S1x128 .f32)
      = shapeCast Cert.KernelIdeal.S1x128 (V (Proc.devRef .tc Cert.KernelIdeal.main_arg7) : FVec Ideal Cert.KernelIdeal.S128 .f32) Cert.KernelIdeal.Gen.shapeCasts_S128_S1x128 := by
  simp only [Cert.KernelIdeal.Frm.k2b]
  after_results
  rfl

theorem keep2a_arg6 : after (Cert.KernelIdeal.Frm.k2a (F := Ideal)) VK (Proc.devRef .tc Cert.KernelIdeal.main_arg6) = VK (Proc.devRef .tc Cert.KernelIdeal.main_arg6) := Cert.KernelIdeal.Frm.k2a_keep VK Cert.KernelIdeal.main_arg6
theorem keep2a_arg7 : after (Cert.KernelIdeal.Frm.k2a (F := Ideal)) VK (Proc.devRef .tc Cert.KernelIdeal.main_arg7) = VK (Proc.devRef .tc Cert.KernelIdeal.main_arg7) := Cert.KernelIdeal.Frm.k2a_keep VK Cert.KernelIdeal.main_arg7

/-! ## The three propagated arrays: the same host chains in both programs -/

attribute [local irreducible] Host.gather Host.scatterAdd in
set_option maxHeartbeats 1000000 in
theorem cpT1_2
    (hh : VK (Proc.devRef .tc Cert.KernelIdeal.main_v94) = VR (Proc.devRef .tc Cert.ReferenceIdeal.main_v112))
    (hw : VK (Proc.devRef .tc Cert.KernelIdeal.main_v29) = VR (Proc.devRef .tc Cert.ReferenceIdeal.main_v29))
    (hs : VK (Proc.devRef .tc Cert.KernelIdeal.main_v1) = VR (Proc.devRef .tc Cert.ReferenceIdeal.main_v1))
    (hd : VK (Proc.devRef .tc Cert.KernelIdeal.main_v3) = VR (Proc.devRef .tc Cert.ReferenceIdeal.main_v3)) :
    after (Cert.KernelIdeal.Frm.k2a (F := Ideal)) VK (Proc.devRef .tc Cert.KernelIdeal.main_v107) = after (Cert.ReferenceIdeal.RefRun.ops2b (F := Ideal)) VR (Proc.devRef .tc Cert.ReferenceIdeal.main_v128) := by
  simp only [Cert.KernelIdeal.Frm.k2a, Cert.ReferenceIdeal.RefRun.ops2b]
  after_results_simp
  simp only [hh, hw, hs, hd]
  rfl

attribute [local irreducible] Host.gather Host.scatterAdd in
set_option maxHeartbeats 2000000 in
theorem cpT2_2
    (hh : VK (Proc.devRef .tc Cert.KernelIdeal.main_v94) = VR (Proc.devRef .tc Cert.ReferenceIdeal.main_v112))
    (hw : VK (Proc.devRef .tc Cert.KernelIdeal.main_v29) = VR (Proc.devRef .tc Cert.ReferenceIdeal.main_v29))
    (hs : VK (Proc.devRef .tc Cert.KernelIdeal.main_v1) = VR (Proc.devRef .tc Cert.ReferenceIdeal.main_v1))
    (hd : VK (Proc.devRef .tc Cert.KernelIdeal.main_v3) = VR (Proc.devRef .tc Cert.ReferenceIdeal.main_v3)) :
    after (Cert.KernelIdeal.Frm.k2a (F := Ideal)) VK (Proc.devRef .tc Cert.KernelIdeal.main_v123) = after (Cert.ReferenceIdeal.RefRun.ops2b (F := Ideal)) VR (Proc.devRef .tc Cert.ReferenceIdeal.main_v148) := by
  simp only [Cert.KernelIdeal.Frm.k2a, Cert.ReferenceIdeal.RefRun.ops2b]
  after_results_simp
  simp only [hh, hw, hs, hd]
  rfl

attribute [local irreducible] Host.gather Host.scatterAdd in
set_option maxHeartbeats 4000000 in
theorem cpT3_2
    (hh : VK (Proc.devRef .tc Cert.KernelIdeal.main_v94) = VR (Proc.devRef .tc Cert.ReferenceIdeal.main_v112))
    (hw : VK (Proc.devRef .tc Cert.KernelIdeal.main_v29) = VR (Proc.devRef .tc Cert.ReferenceIdeal.main_v29))
    (hs : VK (Proc.devRef .tc Cert.KernelIdeal.main_v1) = VR (Proc.devRef .tc Cert.ReferenceIdeal.main_v1))
    (hd : VK (Proc.devRef .tc Cert.KernelIdeal.main_v3) = VR (Proc.devRef .tc Cert.ReferenceIdeal.main_v3)) :
    after (Cert.KernelIdeal.Frm.k2a (F := Ideal)) VK (Proc.devRef .tc Cert.KernelIdeal.main_v139) = after (Cert.ReferenceIdeal.RefRun.ops3a (F := Ideal)) (after (Cert.ReferenceIdeal.RefRun.ops2b (F := Ideal)) VR) (Proc.devRef .tc Cert.ReferenceIdeal.main_v168) := by
  simp only [Cert.KernelIdeal.Frm.k2a, Cert.ReferenceIdeal.RefRun.ops2b, Cert.ReferenceIdeal.RefRun.ops3a]
  after_results_simp
  simp only [hh, hw, hs, hd]
  rfl

/-! ## The reference's side -/

set_option maxHeartbeats 2000000 in
/-- The reference's second-layer activations from its own three propagated arrays. -/
theorem ref_y2 :
    (after (Cert.ReferenceIdeal.RefRun.ops3a (F := Ideal)) (after (Cert.ReferenceIdeal.RefRun.ops2b (F := Ideal)) VR) (Proc.devRef .tc Cert.ReferenceIdeal.main_v176) : FVec Ideal Cert.ReferenceIdeal.S50000x128 .f32)
      = Cert.Proof.Laws.refLeaky (Cert.Proof.Laws.refPre
          (VR (Proc.devRef .tc Cert.ReferenceIdeal.main_v112)) (after (Cert.ReferenceIdeal.RefRun.ops2b (F := Ideal)) VR (Proc.devRef .tc Cert.ReferenceIdeal.main_v128)) (after (Cert.ReferenceIdeal.RefRun.ops2b (F := Ideal)) VR (Proc.devRef .tc Cert.ReferenceIdeal.main_v148)) (after (Cert.ReferenceIdeal.RefRun.ops3a (F := Ideal)) (after (Cert.ReferenceIdeal.RefRun.ops2b (F := Ideal)) VR) (Proc.devRef .tc Cert.ReferenceIdeal.main_v168))
          (VR (Proc.devRef .tc Cert.ReferenceIdeal.main_arg6)) (VR (Proc.devRef .tc Cert.ReferenceIdeal.main_arg7))) := by
  unfold Cert.Proof.Laws.refLeaky Cert.Proof.Laws.refPre
  simp only [Cert.ReferenceIdeal.RefRun.ops2b, Cert.ReferenceIdeal.RefRun.ops3a]
  after_results_simp
  rfl

/-! ## The stage -/

/-- What the kernel program's second dense region computes from the contents after its host stretch is what the
    reference's operations leave in its second-layer activations. -/
theorem stage_y2
    (hh : VK (Proc.devRef .tc Cert.KernelIdeal.main_v94) = VR (Proc.devRef .tc Cert.ReferenceIdeal.main_v112))
    (hw : VK (Proc.devRef .tc Cert.KernelIdeal.main_v29) = VR (Proc.devRef .tc Cert.ReferenceIdeal.main_v29))
    (hs : VK (Proc.devRef .tc Cert.KernelIdeal.main_v1) = VR (Proc.devRef .tc Cert.ReferenceIdeal.main_v1))
    (hd : VK (Proc.devRef .tc Cert.KernelIdeal.main_v3) = VR (Proc.devRef .tc Cert.ReferenceIdeal.main_v3))
    (h6 : VK (Proc.devRef .tc Cert.KernelIdeal.main_arg6) = VR (Proc.devRef .tc Cert.ReferenceIdeal.main_arg6))
    (h7 : VK (Proc.devRef .tc Cert.KernelIdeal.main_arg7) = VR (Proc.devRef .tc Cert.ReferenceIdeal.main_arg7)) :
    Cert.KernelIdeal.Val.dense2 (after (Cert.KernelIdeal.Frm.k2b (F := Ideal)) (after (Cert.KernelIdeal.Frm.k2a (F := Ideal)) VK) (Proc.devRef .tc Cert.KernelIdeal.main_v146)) (after (Cert.KernelIdeal.Frm.k2b (F := Ideal)) (after (Cert.KernelIdeal.Frm.k2a (F := Ideal)) VK) (Proc.devRef .tc Cert.KernelIdeal.main_v148)) (after (Cert.KernelIdeal.Frm.k2b (F := Ideal)) (after (Cert.KernelIdeal.Frm.k2a (F := Ideal)) VK) (Proc.devRef .tc Cert.KernelIdeal.main_v149))
      = after (Cert.ReferenceIdeal.RefRun.ops3a (F := Ideal)) (after (Cert.ReferenceIdeal.RefRun.ops2b (F := Ideal)) VR) (Proc.devRef .tc Cert.ReferenceIdeal.main_v176) := by
  rw [tail2_a, tail2_w, tail2_b, op140_2, op141_2, op142_2, op143_2, keep2a_arg6, keep2a_arg7, ref_y2,
    ← cpT1_2 VK VR hh hw hs hd, ← cpT2_2 VK VR hh hw hs hd, ← cpT3_2 VK VR hh hw hs hd, ← hh, ← h6, ← h7]
  exact Cert.Proof.Laws.dense2_arrays _ _ _ _ _ _

end Cert.Proof.Sim

end
-- ==== Proof.KIV4.lean ====
/- renamed copy written by: python3 scratch/mk_vals.py proof/Proof/KIV2.lean 2 4 'rw [select_apply, cmpf_apply, mulf_apply, addf_apply, broadcast_apply, broadcast_apply,
    broadcastTo_1b_ab_apply, hm]=rw [maximumf_apply, addf_apply, broadcast_apply, broadcastTo_1b_ab_apply, hm];leakyGt=reluE;main_v146=main_v211;main_v148=main_v213;main_v149=main_v214;main_v150=main_v215' '  What region 4 (the third layer's dense product) leaves in its output array, at the extended reals: entry (r, q) of the 50000x128 result is max(sum_k a[r, k] * w[k, q] + b[0, q], 0) over the 512 joined feature columns; the 25 tiles cover the array.'
  What region 4 (the third layer's dense product) leaves in its output array, at the extended reals: entry (r, q) of the 50000x128 result is max(sum_k a[r, k] * w[k, q] + b[0, q], 0) over the 512 joined feature columns; the 25 tiles cover the array.
-/
import proofs.«133509_j41223096107483_1_alg».proof.Proof.KIR4
import proofs.«133509_j41223096107483_1_alg».proof.Proof.KIVCommon
import proofs.«133509_j41223096107483_1_alg».proof.Proof.LibMatmulEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)
open scoped BigOperators

/-- The body's stored value at row p, column q of a tile: the activation of row p of the tile times column q of the
    weight, plus the bias at q. -/
theorem pay4_apply (x : FVec Ideal S2000x512 .bf16) (w : FVec Ideal S512x128 .bf16) (b : FVec Ideal S1x128 .f32)
    (p : Fin 2000) (q : Fin 128) :
    k4_pay1 (F := Ideal) x w b (ix2 p q)
      = reluE ((∑ k : Fin 512, x (ix2 p k) * w (ix2 k q)) + b (ix2 0 q)) := by
  unfold k4_pay1 reluE
  try dsimp only
  simp only [shapeCast_self]
  have hm : matmul (F := Ideal) dot_S2000x512_S512x128_S2000x128_1_0_0_1_n_n none x w (constant S2000x128 .f32 0x00000000#32) (ix2 p q)
      = ∑ k : Fin 512, x (ix2 p k) * w (ix2 k q) :=
    Ideal.matmul_rows_cols dot_S2000x512_S512x128_S2000x128_1_0_0_1_n_n rfl rfl rfl rfl rfl rfl none x w p q
  rw [maximumf_apply, addf_apply, broadcast_apply, broadcastTo_1b_ab_apply, hm]
  rfl

/-- The index maps over the 25 grid points: the feature window and the output window sit at tile t, the weight and
    the bias windows at the origin. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The whole array's entry: the activation of row r of the features times column q of the weight, plus the bias. -/
def dense4 (a : Vec Ideal S50000x512 .bf16) (w : Vec Ideal S512x128 .bf16) (b : Vec Ideal S1x128 .f32) :
    Vec Ideal S50000x128 .f32 := fun i =>
  reluE ((∑ k : Fin 512, a (ix2 (⟨(i 0).val, idx2_lt0 i⟩ : Fin 50000) k) * w (ix2 k (⟨(i 1).val, idx2_lt1 i⟩ : Fin 128)))
    + b (ix2 0 (⟨(i 1).val, idx2_lt1 i⟩ : Fin 128)))

/-- A tile's stored value is the whole array's entry, once the tile's feature rows are the array's rows. -/
theorem tile_eq4 (x : Vec Ideal S2000x512 .bf16) (w : Vec Ideal S512x128 .bf16) (b : Vec Ideal S1x128 .f32)
    (a : Vec Ideal S50000x512 .bf16) (p : Fin 2000) (q : Fin 128) (i : S50000x128.Idx)
    (hq : (i 1).val = q.val)
    (hx : ∀ k : Fin 512, x (ix2 p k) = a (ix2 (⟨(i 0).val, idx2_lt0 i⟩ : Fin 50000) k)) :
    k4_pay1 (F := Ideal) x w b (ix2 p q) = dense4 a w b i := by
  rw [pay4_apply]
  unfold dense4
  have hq' : (⟨(i 1).val, idx2_lt1 i⟩ : Fin 128) = q := Fin.ext hq
  rw [hq']
  simp only [hx]

variable (V : (c : Dev nD) → (b : Ref sig .tc) → Buf (Elt Ideal) ((c : Thread nD τ).loc b))

/-- The weight window's tile is the whole weight, at every point. -/
theorem iblk4_1 (c : Dev nD) (t : Fin cfg4.N) (y : S512x128.Idx) : iblk4 V c 1 t y = V c main_v213 y := by
  obtain ⟨e0, e1, e2, e3, e4, e5, e6, e7⟩ := idx_facts4 t
  show V c (Pipeline.arrRef spec4 1) (((cfg4.win 1).blk t).view.emb y) = V c main_v213 y
  refine congrArg (V c main_v213) (funext fun a => Fin.ext ?_)
  match a with
  | ⟨0, _⟩ => show win4_1.index t (0 : Fin 2) * 512 + 1 * (y 0).val = (y 0).val; omega
  | ⟨1, _⟩ => show win4_1.index t (1 : Fin 2) * 128 + 1 * (y 1).val = (y 1).val; omega

/-- The bias window's tile is the whole bias row, at every point. -/
theorem iblk4_2 (c : Dev nD) (t : Fin cfg4.N) (y : S1x128.Idx) : iblk4 V c 2 t y = V c main_v214 y := by
  obtain ⟨e0, e1, e2, e3, e4, e5, e6, e7⟩ := idx_facts4 t
  show V c (Pipeline.arrRef spec4 2) (((cfg4.win 2).blk t).view.emb y) = V c main_v214 y
  refine congrArg (V c main_v214) (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- What point t writes back is tile t of the whole array's function. -/
theorem flushed4_eq (c : Dev nD) (t : Fin cfg4.N) :
    (dat4 V c).flushed 3 t
      = ((cfg4.win 3).blk t).view.read (Elt Ideal) (dense4 (V c main_v211) (V c main_v213) (V c main_v214)) := by
  obtain ⟨e0, e1, e2, e3, e4, e5, e6, e7⟩ := idx_facts4 t
  show (cfg4.win 3).cut (grid4.coords t) ((dat4 V c).after 3 t) = _
  rw [after4_3]
  unfold out4
  rw [View.canon_unit_zero hz]
  simp only [View.ld_unit_zero (S := S2000x512) hz, View.ld_unit_zero (S := S512x128) hz, View.ld_unit_zero (S := S1x128) hz]
  funext j
  obtain ⟨p, q, rfl⟩ : ∃ (p : Fin 2000) (q : Fin 128), j = ix2 p q := ⟨j 0, j 1, eq_ix2 j⟩
  show k4_pay1 (F := Ideal) (iblk4 V c 0 t) (iblk4 V c 1 t) (iblk4 V c 2 t) (ix2 p q)
    = dense4 (V c main_v211) (V c main_v213) (V c main_v214) (((cfg4.win 3).blk t).view.emb (ix2 p q))
  rw [show (iblk4 V c 1 t : Vec Ideal S512x128 .bf16) = V c main_v213 from funext (iblk4_1 V c t),
    show (iblk4 V c 2 t : Vec Ideal S1x128 .f32) = V c main_v214 from funext (iblk4_2 V c t)]
  refine tile_eq4 _ _ _ _ p q _ ?_ ?_
  · show win4_3.index t (1 : Fin 2) * 128 + 1 * q.val = q.val; omega
  · intro k
    show V c (Pipeline.arrRef spec4 0) (((cfg4.win 0).blk t).view.emb (ix2 p k)) = V c main_v211 _
    refine congrArg (V c main_v211) (funext fun a => Fin.ext ?_)
    match a with
    | ⟨0, _⟩ => show win4_0.index t (0 : Fin 2) * 2000 + 1 * p.val = win4_3.index t (0 : Fin 2) * 2000 + 1 * p.val; omega
    | ⟨1, _⟩ => show win4_0.index t (1 : Fin 2) * 512 + 1 * k.val = k.val; omega

/-- An index of the array is in point t's tile iff each coordinate is in the tile's range on its axis. -/
theorem mem_blk4 (t : Fin cfg4.N) (i : S50000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v215).slice (win4_3.rect t)).set ↔ _
  rw [View.set_slice_whole, Rect.mem_set_unit]
  exact Iff.rfl

/-- Every row lies in the tile of the grid point row / 2000. -/
theorem cover4 (i : S50000x128.Idx) : ∃ t : Fin cfg4.N, (cfg4.win 3).flush t = true ∧ i ∈ ((cfg4.win 3).blk t).view.set := by
  have hi0 : (i 0).val < 50000 := idx2_lt0 i
  have hi1 : (i 1).val < 128 := idx2_lt1 i
  have hN : cfg4.N = 25 := N_4
  let t : Fin cfg4.N := ⟨(i 0).val / 2000, by rw [hN]; omega⟩
  obtain ⟨e0, e1, e2, e3, e4, e5, e6, e7⟩ := idx_facts4 t
  have ht : t.val = (i 0).val / 2000 := rfl
  refine ⟨t, flush4_3 t, ?_⟩
  rw [mem_blk4]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 128 ≤ (i 1).val ∧ (i 1).val < win4_3.index t (1 : Fin 2) * 128 + 128; omega

/-- THE ARRAY after region 2: the dense layer of the features, the weight and the bias the region was entered with. -/
theorem final4 (c : Dev nD) :
    (dat4 V c).arrAt 3 cfg4.N = dense4 (V c main_v211) (V c main_v213) (V c main_v214) :=
  (dat4 V c).arrAt_eq_of_cover 3 _ (fun t _ => flushed4_eq V c t) cover4

end Cert.KernelIdeal.Val

end
-- ==== Proof.KIV6.lean ====
/- renamed copy written by: python3 scratch/mk_vals.py proof/Proof/KIV2.lean 2 6 'unfold k6_pay1 leakyGt=unfold k6_pay1;rw [select_apply, cmpf_apply, mulf_apply, addf_apply, broadcast_apply, broadcast_apply,
    broadcastTo_1b_ab_apply, hm]
  rfl=rw [addf_apply, broadcastTo_1b_ab_apply, hm];leakyGt (=(;main_v146=main_v276;main_v148=main_v278;main_v149=main_v279;main_v150=main_v280' '  What region 6 (the fourth layer's dense product) leaves in its output array, at the extended reals: entry (r, q) of the 50000x128 result is sum_k a[r, k] * w[k, q] + b[0, q] over the 512 joined feature columns; the 25 tiles cover the array.'
  What region 6 (the fourth layer's dense product) leaves in its output array, at the extended reals: entry (r, q) of the 50000x128 result is sum_k a[r, k] * w[k, q] + b[0, q] over the 512 joined feature columns; the 25 tiles cover the array.
-/
import proofs.«133509_j41223096107483_1_alg».proof.Proof.KIR6
import proofs.«133509_j41223096107483_1_alg».proof.Proof.KIVCommon
import proofs.«133509_j41223096107483_1_alg».proof.Proof.LibMatmulEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)
open scoped BigOperators

/-- The body's stored value at row p, column q of a tile: the activation of row p of the tile times column q of the
    weight, plus the bias at q. -/
theorem pay6_apply (x : FVec Ideal S2000x512 .bf16) (w : FVec Ideal S512x128 .bf16) (b : FVec Ideal S1x128 .f32)
    (p : Fin 2000) (q : Fin 128) :
    k6_pay1 (F := Ideal) x w b (ix2 p q)
      = ((∑ k : Fin 512, x (ix2 p k) * w (ix2 k q)) + b (ix2 0 q)) := by
  unfold k6_pay1
  try dsimp only
  simp only [shapeCast_self]
  have hm : matmul (F := Ideal) dot_S2000x512_S512x128_S2000x128_1_0_0_1_n_n none x w (constant S2000x128 .f32 0x00000000#32) (ix2 p q)
      = ∑ k : Fin 512, x (ix2 p k) * w (ix2 k q) :=
    Ideal.matmul_rows_cols dot_S2000x512_S512x128_S2000x128_1_0_0_1_n_n rfl rfl rfl rfl rfl rfl none x w p q
  rw [addf_apply, broadcastTo_1b_ab_apply, hm]

/-- The index maps over the 25 grid points: the feature window and the output window sit at tile t, the weight and
    the bias windows at the origin. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The whole array's entry: the activation of row r of the features times column q of the weight, plus the bias. -/
def dense6 (a : Vec Ideal S50000x512 .bf16) (w : Vec Ideal S512x128 .bf16) (b : Vec Ideal S1x128 .f32) :
    Vec Ideal S50000x128 .f32 := fun i =>
  ((∑ k : Fin 512, a (ix2 (⟨(i 0).val, idx2_lt0 i⟩ : Fin 50000) k) * w (ix2 k (⟨(i 1).val, idx2_lt1 i⟩ : Fin 128)))
    + b (ix2 0 (⟨(i 1).val, idx2_lt1 i⟩ : Fin 128)))

/-- A tile's stored value is the whole array's entry, once the tile's feature rows are the array's rows. -/
theorem tile_eq6 (x : Vec Ideal S2000x512 .bf16) (w : Vec Ideal S512x128 .bf16) (b : Vec Ideal S1x128 .f32)
    (a : Vec Ideal S50000x512 .bf16) (p : Fin 2000) (q : Fin 128) (i : S50000x128.Idx)
    (hq : (i 1).val = q.val)
    (hx : ∀ k : Fin 512, x (ix2 p k) = a (ix2 (⟨(i 0).val, idx2_lt0 i⟩ : Fin 50000) k)) :
    k6_pay1 (F := Ideal) x w b (ix2 p q) = dense6 a w b i := by
  rw [pay6_apply]
  unfold dense6
  have hq' : (⟨(i 1).val, idx2_lt1 i⟩ : Fin 128) = q := Fin.ext hq
  rw [hq']
  simp only [hx]

variable (V : (c : Dev nD) → (b : Ref sig .tc) → Buf (Elt Ideal) ((c : Thread nD τ).loc b))

/-- The weight window's tile is the whole weight, at every point. -/
theorem iblk6_1 (c : Dev nD) (t : Fin cfg6.N) (y : S512x128.Idx) : iblk6 V c 1 t y = V c main_v278 y := by
  obtain ⟨e0, e1, e2, e3, e4, e5, e6, e7⟩ := idx_facts6 t
  show V c (Pipeline.arrRef spec6 1) (((cfg6.win 1).blk t).view.emb y) = V c main_v278 y
  refine congrArg (V c main_v278) (funext fun a => Fin.ext ?_)
  match a with
  | ⟨0, _⟩ => show win6_1.index t (0 : Fin 2) * 512 + 1 * (y 0).val = (y 0).val; omega
  | ⟨1, _⟩ => show win6_1.index t (1 : Fin 2) * 128 + 1 * (y 1).val = (y 1).val; omega

/-- The bias window's tile is the whole bias row, at every point. -/
theorem iblk6_2 (c : Dev nD) (t : Fin cfg6.N) (y : S1x128.Idx) : iblk6 V c 2 t y = V c main_v279 y := by
  obtain ⟨e0, e1, e2, e3, e4, e5, e6, e7⟩ := idx_facts6 t
  show V c (Pipeline.arrRef spec6 2) (((cfg6.win 2).blk t).view.emb y) = V c main_v279 y
  refine congrArg (V c main_v279) (funext fun a => Fin.ext ?_)
  match a with
  | ⟨0, _⟩ => show win6_2.index t (0 : Fin 2) * 1 + 1 * (y 0).val = (y 0).val; omega
  | ⟨1, _⟩ => show win6_2.index t (1 : Fin 2) * 128 + 1 * (y 1).val = (y 1).val; omega

/-- What point t writes back is tile t of the whole array's function. -/
theorem flushed6_eq (c : Dev nD) (t : Fin cfg6.N) :
    (dat6 V c).flushed 3 t
      = ((cfg6.win 3).blk t).view.read (Elt Ideal) (dense6 (V c main_v276) (V c main_v278) (V c main_v279)) := by
  obtain ⟨e0, e1, e2, e3, e4, e5, e6, e7⟩ := idx_facts6 t
  show (cfg6.win 3).cut (grid6.coords t) ((dat6 V c).after 3 t) = _
  rw [after6_3]
  unfold out6
  rw [View.canon_unit_zero hz]
  simp only [View.ld_unit_zero (S := S2000x512) hz, View.ld_unit_zero (S := S512x128) hz, View.ld_unit_zero (S := S1x128) hz]
  funext j
  obtain ⟨p, q, rfl⟩ : ∃ (p : Fin 2000) (q : Fin 128), j = ix2 p q := ⟨j 0, j 1, eq_ix2 j⟩
  show k6_pay1 (F := Ideal) (iblk6 V c 0 t) (iblk6 V c 1 t) (iblk6 V c 2 t) (ix2 p q)
    = dense6 (V c main_v276) (V c main_v278) (V c main_v279) (((cfg6.win 3).blk t).view.emb (ix2 p q))
  rw [show (iblk6 V c 1 t : Vec Ideal S512x128 .bf16) = V c main_v278 from funext (iblk6_1 V c t),
    show (iblk6 V c 2 t : Vec Ideal S1x128 .f32) = V c main_v279 from funext (iblk6_2 V c t)]
  refine tile_eq6 _ _ _ _ p q _ ?_ ?_
  · show win6_3.index t (1 : Fin 2) * 128 + 1 * q.val = q.val; omega
  · intro k
    show V c (Pipeline.arrRef spec6 0) (((cfg6.win 0).blk t).view.emb (ix2 p k)) = V c main_v276 _
    refine congrArg (V c main_v276) (funext fun a => Fin.ext ?_)
    match a with
    | ⟨0, _⟩ => show win6_0.index t (0 : Fin 2) * 2000 + 1 * p.val = win6_3.index t (0 : Fin 2) * 2000 + 1 * p.val; omega
    | ⟨1, _⟩ => show win6_0.index t (1 : Fin 2) * 512 + 1 * k.val = k.val; omega

/-- An index of the array is in point t's tile iff each coordinate is in the tile's range on its axis. -/
theorem mem_blk6 (t : Fin cfg6.N) (i : S50000x128.Idx) :
    i ∈ ((cfg6.win 3).blk t).view.set ↔ ∀ a : Fin 2, win6_3.index t a * S2000x128.size a ≤ (i a).val ∧ (i a).val < win6_3.index t a * S2000x128.size a + S2000x128.size a := by
  show i ∈ ((View.whole main_v280).slice (win6_3.rect t)).set ↔ _
  rw [View.set_slice_whole, Rect.mem_set_unit]
  exact Iff.rfl

/-- Every row lies in the tile of the grid point row / 2000. -/
theorem cover6 (i : S50000x128.Idx) : ∃ t : Fin cfg6.N, (cfg6.win 3).flush t = true ∧ i ∈ ((cfg6.win 3).blk t).view.set := by
  have hi0 : (i 0).val < 50000 := idx2_lt0 i
  have hi1 : (i 1).val < 128 := idx2_lt1 i
  have hN : cfg6.N = 25 := N_6
  let t : Fin cfg6.N := ⟨(i 0).val / 2000, by rw [hN]; omega⟩
  obtain ⟨e0, e1, e2, e3, e4, e5, e6, e7⟩ := idx_facts6 t
  have ht : t.val = (i 0).val / 2000 := rfl
  refine ⟨t, flush6_3 t, ?_⟩
  rw [mem_blk6]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 128 ≤ (i 1).val ∧ (i 1).val < win6_3.index t (1 : Fin 2) * 128 + 128; omega

/-- THE ARRAY after region 2: the dense layer of the features, the weight and the bias the region was entered with. -/
theorem final6 (c : Dev nD) :
    (dat6 V c).arrAt 3 cfg6.N = dense6 (V c main_v276) (V c main_v278) (V c main_v279) :=
  (dat6 V c).arrAt_eq_of_cover 3 _ (fun t _ => flushed6_eq V c t) cover6

end Cert.KernelIdeal.Val

end
-- ==== Proof.DenseLaw46.lean ====
/-
  The law that joins the two programs for the third layer (relu) and the fourth (no activation): the same regrouping
  of the sum over the 512 joined columns into the four sums over 128 channels as for the second layer.
-/
import proofs.«133509_j41223096107483_1_alg».proof.Proof.DenseLaw
import proofs.«133509_j41223096107483_1_alg».proof.Proof.KIV4
import proofs.«133509_j41223096107483_1_alg».proof.Proof.KIV6

set_option maxRecDepth 16384

noncomputable section

namespace Cert.KernelIdeal.Val

open Cert.KernelIdeal Cert.KernelIdeal.Gen
open Idealize.ShloMosaic Idealize.ShloMosaic.ValueIdx
open scoped BigOperators

/-- The sum over the 512 joined columns is the four hops' sums added from the left. -/
theorem stack_sum (T0 T1 T2 T3 : FVec Ideal S50000x128 .f32) (W : FVec Ideal S4x128x128 .f32)
    (a : Vec Ideal S50000x512 .bf16) (w : Vec Ideal S512x128 .bf16)
    (ha : ∀ (n : Fin 50000) (k : Fin 4) (c : Fin 128), a (ix2 n ⟨128 * k.val + c.val, col_lt k c⟩) = pick4 k T0 T1 T2 T3 (ix2 n c))
    (hw : ∀ (k : Fin 4) (c o : Fin 128), w (ix2 ⟨128 * k.val + c.val, col_lt k c⟩ o) = W (ix3 k c o))
    (n : Fin 50000) (o : Fin 128) :
    (∑ j : Fin 512, a (ix2 n j) * w (ix2 j o))
      = ((hop T0 W 0 n o + hop T1 W 1 n o) + hop T2 W 2 n o) + hop T3 W 3 n o := by
  have hs : (∑ j : Fin 512, a (ix2 n j) * w (ix2 j o))
      = ∑ k : Fin 4, ∑ c : Fin 128, pick4 k T0 T1 T2 T3 (ix2 n c) * W (ix3 k c o) := by
    refine (LibRegroup.sum_fin_mul 4 128 (fun j : Fin 512 => a (ix2 n j) * w (ix2 j o))).trans ?_
    refine Finset.sum_congr rfl fun k _ => Finset.sum_congr rfl fun c _ => ?_
    show a (ix2 n ⟨128 * k.val + c.val, _⟩) * w (ix2 ⟨128 * k.val + c.val, _⟩ o) = _
    rw [ha n k c, hw k c o]
  rw [hs, Fin.sum_univ_four]
  rfl

theorem dense4_law (T0 T1 T2 T3 : FVec Ideal S50000x128 .f32) (W : FVec Ideal S4x128x128 .f32) (b : FVec Ideal S128 .f32)
    (a : Vec Ideal S50000x512 .bf16) (w : Vec Ideal S512x128 .bf16) (b' : Vec Ideal S1x128 .f32)
    (ha : ∀ (n : Fin 50000) (k : Fin 4) (c : Fin 128), a (ix2 n ⟨128 * k.val + c.val, col_lt k c⟩) = pick4 k T0 T1 T2 T3 (ix2 n c))
    (hw : ∀ (k : Fin 4) (c o : Fin 128), w (ix2 ⟨128 * k.val + c.val, col_lt k c⟩ o) = W (ix3 k c o))
    (hb : ∀ o : Fin 128, b' (ix2 0 o) = b (ix1 o)) (n : Fin 50000) (o : Fin 128) :
    dense4 a w b' (ix2 n o)
      = reluE ((((hop T0 W 0 n o + hop T1 W 1 n o) + hop T2 W 2 n o) + hop T3 W 3 n o) + b (ix1 o)) := by
  unfold dense4
  show reluE ((∑ j : Fin 512, a (ix2 n j) * w (ix2 j o)) + b' (ix2 0 o)) = _
  rw [stack_sum T0 T1 T2 T3 W a w ha hw n o, hb]

theorem dense6_law (T0 T1 T2 T3 : FVec Ideal S50000x128 .f32) (W : FVec Ideal S4x128x128 .f32) (b : FVec Ideal S128 .f32)
    (a : Vec Ideal S50000x512 .bf16) (w : Vec Ideal S512x128 .bf16) (b' : Vec Ideal S1x128 .f32)
    (ha : ∀ (n : Fin 50000) (k : Fin 4) (c : Fin 128), a (ix2 n ⟨128 * k.val + c.val, col_lt k c⟩) = pick4 k T0 T1 T2 T3 (ix2 n c))
    (hw : ∀ (k : Fin 4) (c o : Fin 128), w (ix2 ⟨128 * k.val + c.val, col_lt k c⟩ o) = W (ix3 k c o))
    (hb : ∀ o : Fin 128, b' (ix2 0 o) = b (ix1 o)) (n : Fin 50000) (o : Fin 128) :
    dense6 a w b' (ix2 n o)
      = (((hop T0 W 0 n o + hop T1 W 1 n o) + hop T2 W 2 n o) + hop T3 W 3 n o) + b (ix1 o) := by
  unfold dense6
  show ((∑ j : Fin 512, a (ix2 n j) * w (ix2 j o)) + b' (ix2 0 o)) = _
  rw [stack_sum T0 T1 T2 T3 W a w ha hw n o, hb]

end Cert.KernelIdeal.Val

end
-- ==== Proof.DenseArr46.lean ====
/-
  The third layer's dense product (relu) and the fourth's (no activation) as whole arrays, kernel against reference:
  the same law as for the second layer with the activation changed.
-/
import proofs.«133509_j41223096107483_1_alg».proof.Proof.DenseArr2
import proofs.«133509_j41223096107483_1_alg».proof.Proof.DenseLaw46

set_option maxRecDepth 16384

noncomputable section

namespace Cert.Proof.Laws

open Idealize.ShloMosaic Idealize.ShloMosaic.ValueIdx
open scoped BigOperators

/-- The reference's relu of an array: the larger of the array and zero. -/
def refRelu (X : FVec Ideal Cert.ReferenceIdeal.S50000x128 .f32) : FVec Ideal Cert.ReferenceIdeal.S50000x128 .f32 :=
  maximumf X (broadcastInDim Cert.ReferenceIdeal.S50000x128 ![] Cert.ReferenceIdeal.Gen.bcast_S_S50000x128 (constant (F := Ideal) Cert.ReferenceIdeal.S_ .f32 0x00000000#32))

theorem refRelu_apply (X : FVec Ideal Cert.ReferenceIdeal.S50000x128 .f32) (i : Cert.ReferenceIdeal.S50000x128.Idx) :
    refRelu X i = Cert.KernelIdeal.Val.reluE (X i) := by
  unfold refRelu Cert.KernelIdeal.Val.reluE
  rw [maximumf_apply]
  rfl

theorem dense4_arrays (T0 T1 T2 T3 : FVec Ideal Cert.KernelIdeal.S50000x128 .f32) (W : FVec Ideal Cert.KernelIdeal.S4x128x128 .f32)
    (b : FVec Ideal Cert.KernelIdeal.S128 .f32) :
    Cert.KernelIdeal.Val.dense4
        (truncf .bf16 (shapeCast Cert.KernelIdeal.S50000x512
          (concatenate Cert.KernelIdeal.S50000x4x128 1
            [⟨Cert.KernelIdeal.S50000x1x128, broadcastInDim Cert.KernelIdeal.S50000x1x128 ![0, 2] Cert.KernelIdeal.Gen.bcast_S50000x128_S50000x1x128_0_2 T0⟩,
             ⟨Cert.KernelIdeal.S50000x1x128, broadcastInDim Cert.KernelIdeal.S50000x1x128 ![0, 2] Cert.KernelIdeal.Gen.bcast_S50000x128_S50000x1x128_0_2 T1⟩,
             ⟨Cert.KernelIdeal.S50000x1x128, broadcastInDim Cert.KernelIdeal.S50000x1x128 ![0, 2] Cert.KernelIdeal.Gen.bcast_S50000x128_S50000x1x128_0_2 T2⟩,
             ⟨Cert.KernelIdeal.S50000x1x128, broadcastInDim Cert.KernelIdeal.S50000x1x128 ![0, 2] Cert.KernelIdeal.Gen.bcast_S50000x128_S50000x1x128_0_2 T3⟩]
            Cert.KernelIdeal.Gen.concatenates_S50000x1x128_S50000x1x128_S50000x1x128_S50000x1x128_S50000x4x128_d1)
          Cert.KernelIdeal.Gen.shapeCasts_S50000x4x128_S50000x512) Cert.KernelIdeal.Gen.bitsLt_bf16_f32)
        (truncf .bf16 (shapeCast Cert.KernelIdeal.S512x128 W Cert.KernelIdeal.Gen.shapeCasts_S4x128x128_S512x128) Cert.KernelIdeal.Gen.bitsLt_bf16_f32)
        (shapeCast Cert.KernelIdeal.S1x128 b Cert.KernelIdeal.Gen.shapeCasts_S128_S1x128)
      = refRelu (refPre T0 T1 T2 T3 W b) := by
  funext i
  obtain ⟨n, o, rfl⟩ : ∃ (n : Fin 50000) (o : Fin 128), i = ix2 n o := ⟨i 0, i 1, eq_ix2 i⟩
  rw [refRelu_apply, refPre_apply]
  refine Cert.KernelIdeal.Val.dense4_law T0 T1 T2 T3 W b _ _ _ (fun n k c => ?_) (fun k c o => ?_) (fun o => ?_) n o
  · rw [truncf_apply, Cert.KernelIdeal.Val.flat_apply]
    exact Cert.KernelIdeal.Val.joined_apply T0 T1 T2 T3 n k c
  · rw [truncf_apply, Cert.KernelIdeal.Val.flatW_apply]
  · exact Cert.KernelIdeal.Val.rowB_apply b 0 o

theorem dense6_arrays (T0 T1 T2 T3 : FVec Ideal Cert.KernelIdeal.S50000x128 .f32) (W : FVec Ideal Cert.KernelIdeal.S4x128x128 .f32)
    (b : FVec Ideal Cert.KernelIdeal.S128 .f32) :
    Cert.KernelIdeal.Val.dense6
        (truncf .bf16 (shapeCast Cert.KernelIdeal.S50000x512
          (concatenate Cert.KernelIdeal.S50000x4x128 1
            [⟨Cert.KernelIdeal.S50000x1x128, broadcastInDim Cert.KernelIdeal.S50000x1x128 ![0, 2] Cert.KernelIdeal.Gen.bcast_S50000x128_S50000x1x128_0_2 T0⟩,
             ⟨Cert.KernelIdeal.S50000x1x128, broadcastInDim Cert.KernelIdeal.S50000x1x128 ![0, 2] Cert.KernelIdeal.Gen.bcast_S50000x128_S50000x1x128_0_2 T1⟩,
             ⟨Cert.KernelIdeal.S50000x1x128, broadcastInDim Cert.KernelIdeal.S50000x1x128 ![0, 2] Cert.KernelIdeal.Gen.bcast_S50000x128_S50000x1x128_0_2 T2⟩,
             ⟨Cert.KernelIdeal.S50000x1x128, broadcastInDim Cert.KernelIdeal.S50000x1x128 ![0, 2] Cert.KernelIdeal.Gen.bcast_S50000x128_S50000x1x128_0_2 T3⟩]
            Cert.KernelIdeal.Gen.concatenates_S50000x1x128_S50000x1x128_S50000x1x128_S50000x1x128_S50000x4x128_d1)
          Cert.KernelIdeal.Gen.shapeCasts_S50000x4x128_S50000x512) Cert.KernelIdeal.Gen.bitsLt_bf16_f32)
        (truncf .bf16 (shapeCast Cert.KernelIdeal.S512x128 W Cert.KernelIdeal.Gen.shapeCasts_S4x128x128_S512x128) Cert.KernelIdeal.Gen.bitsLt_bf16_f32)
        (shapeCast Cert.KernelIdeal.S1x128 b Cert.KernelIdeal.Gen.shapeCasts_S128_S1x128)
      = refPre T0 T1 T2 T3 W b := by
  funext i
  obtain ⟨n, o, rfl⟩ : ∃ (n : Fin 50000) (o : Fin 128), i = ix2 n o := ⟨i 0, i 1, eq_ix2 i⟩
  rw [refPre_apply]
  refine Cert.KernelIdeal.Val.dense6_law T0 T1 T2 T3 W b _ _ _ (fun n k c => ?_) (fun k c o => ?_) (fun o => ?_) n o
  · rw [truncf_apply, Cert.KernelIdeal.Val.flat_apply]
    exact Cert.KernelIdeal.Val.joined_apply T0 T1 T2 T3 n k c
  · rw [truncf_apply, Cert.KernelIdeal.Val.flatW_apply]
  · exact Cert.KernelIdeal.Val.rowB_apply b 0 o

end Cert.Proof.Laws

end
-- ==== Proof.SimL3.lean ====
/- The third layer's dense product, the two programs side by side over any contents VK, VR of their buffers that
  agree on the layer's inputs (the previous layer's output, the edge weights and endpoints, the layer's weight and
  bias): the three propagated feature arrays are the same host chains in both programs; the kernel program joins the
  four arrays and runs its region on them, the reference multiplies each by its own weight matrix and adds; the
  dense law for whole arrays joins the two.
-/
import proofs.«133509_j41223096107483_1_alg».proof.Proof.RefCuts
import proofs.«133509_j41223096107483_1_alg».proof.Proof.KICuts
import proofs.«133509_j41223096107483_1_alg».proof.Proof.KIFrame
import proofs.«133509_j41223096107483_1_alg».proof.Proof.DenseArr46

set_option maxRecDepth 16384

noncomputable section

namespace Cert.Proof.Sim

open Idealize.ShloMosaic Idealize.ShloMosaic.TcCoe Idealize.SL.Sem Idealize.ShloMosaic.StableHlo

variable (VK : Valuation Cert.KernelIdeal.τ Cert.KernelIdeal.sig (Elt Ideal)) (VR : Valuation Cert.ReferenceIdeal.τ Cert.ReferenceIdeal.sig (Elt Ideal))

/-! ## The kernel program's side: the four arrays with their middle axes, the join, the flattened weight and bias -/

theorem op140_3 :
    (after (Cert.KernelIdeal.Frm.k4a (F := Ideal)) VK (Proc.devRef .tc Cert.KernelIdeal.main_v205) : FVec Ideal Cert.KernelIdeal.S50000x1x128 .f32)
      = broadcastInDim Cert.KernelIdeal.S50000x1x128 ![0, 2] Cert.KernelIdeal.Gen.bcast_S50000x128_S50000x1x128_0_2
          (VK (Proc.devRef .tc Cert.KernelIdeal.main_v159) : FVec Ideal Cert.KernelIdeal.S50000x128 .f32) := by
  simp only [Cert.KernelIdeal.Frm.k4a]
  after_results_simp

set_option maxHeartbeats 1000000 in
theorem op141_3 :
    (after (Cert.KernelIdeal.Frm.k4a (F := Ideal)) VK (Proc.devRef .tc Cert.KernelIdeal.main_v206) : FVec Ideal Cert.KernelIdeal.S50000x1x128 .f32)
      = broadcastInDim Cert.KernelIdeal.S50000x1x128 ![0, 2] Cert.KernelIdeal.Gen.bcast_S50000x128_S50000x1x128_0_2
          (after (Cert.KernelIdeal.Frm.k4a (F := Ideal)) VK (Proc.devRef .tc Cert.KernelIdeal.main_v172) : FVec Ideal Cert.KernelIdeal.S50000x128 .f32) := by
  simp only [Cert.KernelIdeal.Frm.k4a]
  after_results_simp

set_option maxHeartbeats 1000000 in
theorem op142_3 :
    (after (Cert.KernelIdeal.Frm.k4a (F := Ideal)) VK (Proc.devRef .tc Cert.KernelIdeal.main_v207) : FVec Ideal Cert.KernelIdeal.S50000x1x128 .f32)
      = broadcastInDim Cert.KernelIdeal.S50000x1x128 ![0, 2] Cert.KernelIdeal.Gen.bcast_S50000x128_S50000x1x128_0_2
          (after (Cert.KernelIdeal.Frm.k4a (F := Ideal)) VK (Proc.devRef .tc Cert.KernelIdeal.main_v188) : FVec Ideal Cert.KernelIdeal.S50000x128 .f32) := by
  simp only [Cert.KernelIdeal.Frm.k4a]
  after_results_simp

set_option maxHeartbeats 1000000 in
theorem op143_3 :
    (after (Cert.KernelIdeal.Frm.k4a (F := Ideal)) VK (Proc.devRef .tc Cert.KernelIdeal.main_v208) : FVec Ideal Cert.KernelIdeal.S50000x1x128 .f32)
      = broadcastInDim Cert.KernelIdeal.S50000x1x128 ![0, 2] Cert.KernelIdeal.Gen.bcast_S50000x128_S50000x1x128_0_2
          (after (Cert.KernelIdeal.Frm.k4a (F := Ideal)) VK (Proc.devRef .tc Cert.KernelIdeal.main_v204) : FVec Ideal Cert.KernelIdeal.S50000x128 .f32) := by
  simp only [Cert.KernelIdeal.Frm.k4a]
  after_results_simp

/-- The stacked features from the four arrays with their middle axes. -/
theorem tail3_a (V : Valuation Cert.KernelIdeal.τ Cert.KernelIdeal.sig (Elt Ideal)) :
    (after (Cert.KernelIdeal.Frm.k4b (F := Ideal)) V (Proc.devRef .tc Cert.KernelIdeal.main_v211) : FVec Ideal Cert.KernelIdeal.S50000x512 .bf16)
      = truncf (F := Ideal) .bf16 (shapeCast Cert.KernelIdeal.S50000x512
          (concatenate Cert.KernelIdeal.S50000x4x128 1
            [⟨Cert.KernelIdeal.S50000x1x128, (V (Proc.devRef .tc Cert.KernelIdeal.main_v205) : FVec Ideal Cert.KernelIdeal.S50000x1x128 .f32)⟩,
             ⟨Cert.KernelIdeal.S50000x1x128, (V (Proc.devRef .tc Cert.KernelIdeal.main_v206) : FVec Ideal Cert.KernelIdeal.S50000x1x128 .f32)⟩,
             ⟨Cert.KernelIdeal.S50000x1x128, (V (Proc.devRef .tc Cert.KernelIdeal.main_v207) : FVec Ideal Cert.KernelIdeal.S50000x1x128 .f32)⟩,
             ⟨Cert.KernelIdeal.S50000x1x128, (V (Proc.devRef .tc Cert.KernelIdeal.main_v208) : FVec Ideal Cert.KernelIdeal.S50000x1x128 .f32)⟩]
            Cert.KernelIdeal.Gen.concatenates_S50000x1x128_S50000x1x128_S50000x1x128_S50000x1x128_S50000x4x128_d1)
          Cert.KernelIdeal.Gen.shapeCasts_S50000x4x128_S50000x512) Cert.KernelIdeal.Gen.bitsLt_bf16_f32 := by
  simp only [Cert.KernelIdeal.Frm.k4b]
  after_results
  rfl

theorem tail3_w (V : Valuation Cert.KernelIdeal.τ Cert.KernelIdeal.sig (Elt Ideal)) :
    (after (Cert.KernelIdeal.Frm.k4b (F := Ideal)) V (Proc.devRef .tc Cert.KernelIdeal.main_v213) : FVec Ideal Cert.KernelIdeal.S512x128 .bf16)
      = truncf (F := Ideal) .bf16 (shapeCast Cert.KernelIdeal.S512x128 (V (Proc.devRef .tc Cert.KernelIdeal.main_arg10) : FVec Ideal Cert.KernelIdeal.S4x128x128 .f32) Cert.KernelIdeal.Gen.shapeCasts_S4x128x128_S512x128) Cert.KernelIdeal.Gen.bitsLt_bf16_f32 := by
  simp only [Cert.KernelIdeal.Frm.k4b]
  after_results
  rfl

theorem tail3_b (V : Valuation Cert.KernelIdeal.τ Cert.KernelIdeal.sig (Elt Ideal)) :
    (after (Cert.KernelIdeal.Frm.k4b (F := Ideal)) V (Proc.devRef .tc Cert.KernelIdeal.main_v214) : FVec Ideal Cert.KernelIdeal.S1x128 .f32)
      = shapeCast Cert.KernelIdeal.S1x128 (V (Proc.devRef .tc Cert.KernelIdeal.main_arg11) : FVec Ideal Cert.KernelIdeal.S128 .f32) Cert.KernelIdeal.Gen.shapeCasts_S128_S1x128 := by
  simp only [Cert.KernelIdeal.Frm.k4b]
  after_results
  rfl

theorem keep3a_arg6 : after (Cert.KernelIdeal.Frm.k4a (F := Ideal)) VK (Proc.devRef .tc Cert.KernelIdeal.main_arg10) = VK (Proc.devRef .tc Cert.KernelIdeal.main_arg10) := Cert.KernelIdeal.Frm.k4a_keep VK Cert.KernelIdeal.main_arg10
theorem keep3a_arg7 : after (Cert.KernelIdeal.Frm.k4a (F := Ideal)) VK (Proc.devRef .tc Cert.KernelIdeal.main_arg11) = VK (Proc.devRef .tc Cert.KernelIdeal.main_arg11) := Cert.KernelIdeal.Frm.k4a_keep VK Cert.KernelIdeal.main_arg11

/-! ## The three propagated arrays: the same host chains in both programs -/

attribute [local irreducible] Host.gather Host.scatterAdd in
set_option maxHeartbeats 1000000 in
theorem cpT1_3
    (hh : VK (Proc.devRef .tc Cert.KernelIdeal.main_v159) = VR (Proc.devRef .tc Cert.ReferenceIdeal.main_v195))
    (hw : VK (Proc.devRef .tc Cert.KernelIdeal.main_v29) = VR (Proc.devRef .tc Cert.ReferenceIdeal.main_v29))
    (hs : VK (Proc.devRef .tc Cert.KernelIdeal.main_v1) = VR (Proc.devRef .tc Cert.ReferenceIdeal.main_v1))
    (hd : VK (Proc.devRef .tc Cert.KernelIdeal.main_v3) = VR (Proc.devRef .tc Cert.ReferenceIdeal.main_v3)) :
    after (Cert.KernelIdeal.Frm.k4a (F := Ideal)) VK (Proc.devRef .tc Cert.KernelIdeal.main_v172) = after (Cert.ReferenceIdeal.RefRun.ops4 (F := Ideal)) (after (Cert.ReferenceIdeal.RefRun.ops3c (F := Ideal)) VR) (Proc.devRef .tc Cert.ReferenceIdeal.main_v211) := by
  simp only [Cert.KernelIdeal.Frm.k4a, Cert.ReferenceIdeal.RefRun.ops3c, Cert.ReferenceIdeal.RefRun.ops4]
  after_results_simp
  simp only [hh, hw, hs, hd]
  rfl

attribute [local irreducible] Host.gather Host.scatterAdd in
set_option maxHeartbeats 2000000 in
theorem cpT2_3
    (hh : VK (Proc.devRef .tc Cert.KernelIdeal.main_v159) = VR (Proc.devRef .tc Cert.ReferenceIdeal.main_v195))
    (hw : VK (Proc.devRef .tc Cert.KernelIdeal.main_v29) = VR (Proc.devRef .tc Cert.ReferenceIdeal.main_v29))
    (hs : VK (Proc.devRef .tc Cert.KernelIdeal.main_v1) = VR (Proc.devRef .tc Cert.ReferenceIdeal.main_v1))
    (hd : VK (Proc.devRef .tc Cert.KernelIdeal.main_v3) = VR (Proc.devRef .tc Cert.ReferenceIdeal.main_v3)) :
    after (Cert.KernelIdeal.Frm.k4a (F := Ideal)) VK (Proc.devRef .tc Cert.KernelIdeal.main_v188) = after (Cert.ReferenceIdeal.RefRun.ops4 (F := Ideal)) (after (Cert.ReferenceIdeal.RefRun.ops3c (F := Ideal)) VR) (Proc.devRef .tc Cert.ReferenceIdeal.main_v231) := by
  simp only [Cert.KernelIdeal.Frm.k4a, Cert.ReferenceIdeal.RefRun.ops3c, Cert.ReferenceIdeal.RefRun.ops4]
  after_results_simp
  simp only [hh, hw, hs, hd]
  rfl

attribute [local irreducible] Host.gather Host.scatterAdd in
set_option maxHeartbeats 4000000 in
theorem cpT3_3
    (hh : VK (Proc.devRef .tc Cert.KernelIdeal.main_v159) = VR (Proc.devRef .tc Cert.ReferenceIdeal.main_v195))
    (hw : VK (Proc.devRef .tc Cert.KernelIdeal.main_v29) = VR (Proc.devRef .tc Cert.ReferenceIdeal.main_v29))
    (hs : VK (Proc.devRef .tc Cert.KernelIdeal.main_v1) = VR (Proc.devRef .tc Cert.ReferenceIdeal.main_v1))
    (hd : VK (Proc.devRef .tc Cert.KernelIdeal.main_v3) = VR (Proc.devRef .tc Cert.ReferenceIdeal.main_v3)) :
    after (Cert.KernelIdeal.Frm.k4a (F := Ideal)) VK (Proc.devRef .tc Cert.KernelIdeal.main_v204) = after (Cert.ReferenceIdeal.RefRun.ops5a (F := Ideal)) (after (Cert.ReferenceIdeal.RefRun.ops4 (F := Ideal)) (after (Cert.ReferenceIdeal.RefRun.ops3c (F := Ideal)) VR)) (Proc.devRef .tc Cert.ReferenceIdeal.main_v251) := by
  simp only [Cert.KernelIdeal.Frm.k4a, Cert.ReferenceIdeal.RefRun.ops3c, Cert.ReferenceIdeal.RefRun.ops4, Cert.ReferenceIdeal.RefRun.ops5a]
  after_results_simp
  simp only [hh, hw, hs, hd]
  rfl

/-! ## The reference's side -/

set_option maxHeartbeats 2000000 in
/-- The reference's third-layer activations from its own three propagated arrays. -/
theorem ref_y3 :
    (after (Cert.ReferenceIdeal.RefRun.ops5a (F := Ideal)) (after (Cert.ReferenceIdeal.RefRun.ops4 (F := Ideal)) (after (Cert.ReferenceIdeal.RefRun.ops3c (F := Ideal)) VR)) (Proc.devRef .tc Cert.ReferenceIdeal.main_v259) : FVec Ideal Cert.ReferenceIdeal.S50000x128 .f32)
      = Cert.Proof.Laws.refRelu (Cert.Proof.Laws.refPre
          (VR (Proc.devRef .tc Cert.ReferenceIdeal.main_v195)) (after (Cert.ReferenceIdeal.RefRun.ops4 (F := Ideal)) (after (Cert.ReferenceIdeal.RefRun.ops3c (F := Ideal)) VR) (Proc.devRef .tc Cert.ReferenceIdeal.main_v211)) (after (Cert.ReferenceIdeal.RefRun.ops4 (F := Ideal)) (after (Cert.ReferenceIdeal.RefRun.ops3c (F := Ideal)) VR) (Proc.devRef .tc Cert.ReferenceIdeal.main_v231)) (after (Cert.ReferenceIdeal.RefRun.ops5a (F := Ideal)) (after (Cert.ReferenceIdeal.RefRun.ops4 (F := Ideal)) (after (Cert.ReferenceIdeal.RefRun.ops3c (F := Ideal)) VR)) (Proc.devRef .tc Cert.ReferenceIdeal.main_v251))
          (VR (Proc.devRef .tc Cert.ReferenceIdeal.main_arg10)) (VR (Proc.devRef .tc Cert.ReferenceIdeal.main_arg11))) := by
  unfold Cert.Proof.Laws.refRelu Cert.Proof.Laws.refPre
  simp only [Cert.ReferenceIdeal.RefRun.ops3c, Cert.ReferenceIdeal.RefRun.ops4, Cert.ReferenceIdeal.RefRun.ops5a]
  after_results_simp
  rfl

/-! ## The stage -/

/-- What the kernel program's third dense region computes from the contents after its host stretch is what the
    reference's operations leave in its third-layer activations. -/
theorem stage_y3
    (hh : VK (Proc.devRef .tc Cert.KernelIdeal.main_v159) = VR (Proc.devRef .tc Cert.ReferenceIdeal.main_v195))
    (hw : VK (Proc.devRef .tc Cert.KernelIdeal.main_v29) = VR (Proc.devRef .tc Cert.ReferenceIdeal.main_v29))
    (hs : VK (Proc.devRef .tc Cert.KernelIdeal.main_v1) = VR (Proc.devRef .tc Cert.ReferenceIdeal.main_v1))
    (hd : VK (Proc.devRef .tc Cert.KernelIdeal.main_v3) = VR (Proc.devRef .tc Cert.ReferenceIdeal.main_v3))
    (h6 : VK (Proc.devRef .tc Cert.KernelIdeal.main_arg10) = VR (Proc.devRef .tc Cert.ReferenceIdeal.main_arg10))
    (h7 : VK (Proc.devRef .tc Cert.KernelIdeal.main_arg11) = VR (Proc.devRef .tc Cert.ReferenceIdeal.main_arg11)) :
    Cert.KernelIdeal.Val.dense4 (after (Cert.KernelIdeal.Frm.k4b (F := Ideal)) (after (Cert.KernelIdeal.Frm.k4a (F := Ideal)) VK) (Proc.devRef .tc Cert.KernelIdeal.main_v211)) (after (Cert.KernelIdeal.Frm.k4b (F := Ideal)) (after (Cert.KernelIdeal.Frm.k4a (F := Ideal)) VK) (Proc.devRef .tc Cert.KernelIdeal.main_v213)) (after (Cert.KernelIdeal.Frm.k4b (F := Ideal)) (after (Cert.KernelIdeal.Frm.k4a (F := Ideal)) VK) (Proc.devRef .tc Cert.KernelIdeal.main_v214))
      = after (Cert.ReferenceIdeal.RefRun.ops5a (F := Ideal)) (after (Cert.ReferenceIdeal.RefRun.ops4 (F := Ideal)) (after (Cert.ReferenceIdeal.RefRun.ops3c (F := Ideal)) VR)) (Proc.devRef .tc Cert.ReferenceIdeal.main_v259) := by
  rw [tail3_a, tail3_w, tail3_b, op140_3, op141_3, op142_3, op143_3, keep3a_arg6, keep3a_arg7, ref_y3,
    ← cpT1_3 VK VR hh hw hs hd, ← cpT2_3 VK VR hh hw hs hd, ← cpT3_3 VK VR hh hw hs hd, ← hh, ← h6, ← h7]
  exact Cert.Proof.Laws.dense4_arrays _ _ _ _ _ _

end Cert.Proof.Sim

end
-- ==== Proof.SimL4.lean ====
/- The fourth layer's dense product, the two programs side by side over any contents VK, VR of their buffers that
  agree on the layer's inputs (the previous layer's output, the edge weights and endpoints, the layer's weight and
  bias): the three propagated feature arrays are the same host chains in both programs; the kernel program joins the
  four arrays and runs its region on them, the reference multiplies each by its own weight matrix and adds; the
  dense law for whole arrays joins the two.
-/
import proofs.«133509_j41223096107483_1_alg».proof.Proof.RefCuts
import proofs.«133509_j41223096107483_1_alg».proof.Proof.KICuts
import proofs.«133509_j41223096107483_1_alg».proof.Proof.KIFrame
import proofs.«133509_j41223096107483_1_alg».proof.Proof.DenseArr46

set_option maxRecDepth 16384

noncomputable section

namespace Cert.Proof.Sim

open Idealize.ShloMosaic Idealize.ShloMosaic.TcCoe Idealize.SL.Sem Idealize.ShloMosaic.StableHlo

variable (VK : Valuation Cert.KernelIdeal.τ Cert.KernelIdeal.sig (Elt Ideal)) (VR : Valuation Cert.ReferenceIdeal.τ Cert.ReferenceIdeal.sig (Elt Ideal))

/-! ## The kernel program's side: the four arrays with their middle axes, the join, the flattened weight and bias -/

theorem op140_4 :
    (after (Cert.KernelIdeal.Frm.k6a (F := Ideal)) VK (Proc.devRef .tc Cert.KernelIdeal.main_v270) : FVec Ideal Cert.KernelIdeal.S50000x1x128 .f32)
      = broadcastInDim Cert.KernelIdeal.S50000x1x128 ![0, 2] Cert.KernelIdeal.Gen.bcast_S50000x128_S50000x1x128_0_2
          (VK (Proc.devRef .tc Cert.KernelIdeal.main_v224) : FVec Ideal Cert.KernelIdeal.S50000x128 .f32) := by
  simp only [Cert.KernelIdeal.Frm.k6a]
  after_results_simp

set_option maxHeartbeats 1000000 in
theorem op141_4 :
    (after (Cert.KernelIdeal.Frm.k6a (F := Ideal)) VK (Proc.devRef .tc Cert.KernelIdeal.main_v271) : FVec Ideal Cert.KernelIdeal.S50000x1x128 .f32)
      = broadcastInDim Cert.KernelIdeal.S50000x1x128 ![0, 2] Cert.KernelIdeal.Gen.bcast_S50000x128_S50000x1x128_0_2
          (after (Cert.KernelIdeal.Frm.k6a (F := Ideal)) VK (Proc.devRef .tc Cert.KernelIdeal.main_v237) : FVec Ideal Cert.KernelIdeal.S50000x128 .f32) := by
  simp only [Cert.KernelIdeal.Frm.k6a]
  after_results_simp

set_option maxHeartbeats 1000000 in
theorem op142_4 :
    (after (Cert.KernelIdeal.Frm.k6a (F := Ideal)) VK (Proc.devRef .tc Cert.KernelIdeal.main_v272) : FVec Ideal Cert.KernelIdeal.S50000x1x128 .f32)
      = broadcastInDim Cert.KernelIdeal.S50000x1x128 ![0, 2] Cert.KernelIdeal.Gen.bcast_S50000x128_S50000x1x128_0_2
          (after (Cert.KernelIdeal.Frm.k6a (F := Ideal)) VK (Proc.devRef .tc Cert.KernelIdeal.main_v253) : FVec Ideal Cert.KernelIdeal.S50000x128 .f32) := by
  simp only [Cert.KernelIdeal.Frm.k6a]
  after_results_simp

set_option maxHeartbeats 1000000 in
theorem op143_4 :
    (after (Cert.KernelIdeal.Frm.k6a (F := Ideal)) VK (Proc.devRef .tc Cert.KernelIdeal.main_v273) : FVec Ideal Cert.KernelIdeal.S50000x1x128 .f32)
      = broadcastInDim Cert.KernelIdeal.S50000x1x128 ![0, 2] Cert.KernelIdeal.Gen.bcast_S50000x128_S50000x1x128_0_2
          (after (Cert.KernelIdeal.Frm.k6a (F := Ideal)) VK (Proc.devRef .tc Cert.KernelIdeal.main_v269) : FVec Ideal Cert.KernelIdeal.S50000x128 .f32) := by
  simp only [Cert.KernelIdeal.Frm.k6a]
  after_results_simp

/-- The stacked features from the four arrays with their middle axes. -/
theorem tail4_a (V : Valuation Cert.KernelIdeal.τ Cert.KernelIdeal.sig (Elt Ideal)) :
    (after (Cert.KernelIdeal.Frm.k6b (F := Ideal)) V (Proc.devRef .tc Cert.KernelIdeal.main_v276) : FVec Ideal Cert.KernelIdeal.S50000x512 .bf16)
      = truncf (F := Ideal) .bf16 (shapeCast Cert.KernelIdeal.S50000x512
          (concatenate Cert.KernelIdeal.S50000x4x128 1
            [⟨Cert.KernelIdeal.S50000x1x128, (V (Proc.devRef .tc Cert.KernelIdeal.main_v270) : FVec Ideal Cert.KernelIdeal.S50000x1x128 .f32)⟩,
             ⟨Cert.KernelIdeal.S50000x1x128, (V (Proc.devRef .tc Cert.KernelIdeal.main_v271) : FVec Ideal Cert.KernelIdeal.S50000x1x128 .f32)⟩,
             ⟨Cert.KernelIdeal.S50000x1x128, (V (Proc.devRef .tc Cert.KernelIdeal.main_v272) : FVec Ideal Cert.KernelIdeal.S50000x1x128 .f32)⟩,
             ⟨Cert.KernelIdeal.S50000x1x128, (V (Proc.devRef .tc Cert.KernelIdeal.main_v273) : FVec Ideal Cert.KernelIdeal.S50000x1x128 .f32)⟩]
            Cert.KernelIdeal.Gen.concatenates_S50000x1x128_S50000x1x128_S50000x1x128_S50000x1x128_S50000x4x128_d1)
          Cert.KernelIdeal.Gen.shapeCasts_S50000x4x128_S50000x512) Cert.KernelIdeal.Gen.bitsLt_bf16_f32 := by
  simp only [Cert.KernelIdeal.Frm.k6b]
  after_results
  rfl

theorem tail4_w (V : Valuation Cert.KernelIdeal.τ Cert.KernelIdeal.sig (Elt Ideal)) :
    (after (Cert.KernelIdeal.Frm.k6b (F := Ideal)) V (Proc.devRef .tc Cert.KernelIdeal.main_v278) : FVec Ideal Cert.KernelIdeal.S512x128 .bf16)
      = truncf (F := Ideal) .bf16 (shapeCast Cert.KernelIdeal.S512x128 (V (Proc.devRef .tc Cert.KernelIdeal.main_arg14) : FVec Ideal Cert.KernelIdeal.S4x128x128 .f32) Cert.KernelIdeal.Gen.shapeCasts_S4x128x128_S512x128) Cert.KernelIdeal.Gen.bitsLt_bf16_f32 := by
  simp only [Cert.KernelIdeal.Frm.k6b]
  after_results
  rfl

theorem tail4_b (V : Valuation Cert.KernelIdeal.τ Cert.KernelIdeal.sig (Elt Ideal)) :
    (after (Cert.KernelIdeal.Frm.k6b (F := Ideal)) V (Proc.devRef .tc Cert.KernelIdeal.main_v279) : FVec Ideal Cert.KernelIdeal.S1x128 .f32)
      = shapeCast Cert.KernelIdeal.S1x128 (V (Proc.devRef .tc Cert.KernelIdeal.main_arg15) : FVec Ideal Cert.KernelIdeal.S128 .f32) Cert.KernelIdeal.Gen.shapeCasts_S128_S1x128 := by
  simp only [Cert.KernelIdeal.Frm.k6b]
  after_results
  rfl

theorem keep4a_arg6 : after (Cert.KernelIdeal.Frm.k6a (F := Ideal)) VK (Proc.devRef .tc Cert.KernelIdeal.main_arg14) = VK (Proc.devRef .tc Cert.KernelIdeal.main_arg14) := Cert.KernelIdeal.Frm.k6a_keep VK Cert.KernelIdeal.main_arg14
theorem keep4a_arg7 : after (Cert.KernelIdeal.Frm.k6a (F := Ideal)) VK (Proc.devRef .tc Cert.KernelIdeal.main_arg15) = VK (Proc.devRef .tc Cert.KernelIdeal.main_arg15) := Cert.KernelIdeal.Frm.k6a_keep VK Cert.KernelIdeal.main_arg15

/-! ## The three propagated arrays: the same host chains in both programs -/

attribute [local irreducible] Host.gather Host.scatterAdd in
set_option maxHeartbeats 1000000 in
theorem cpT1_4
    (hh : VK (Proc.devRef .tc Cert.KernelIdeal.main_v224) = VR (Proc.devRef .tc Cert.ReferenceIdeal.main_v278))
    (hw : VK (Proc.devRef .tc Cert.KernelIdeal.main_v29) = VR (Proc.devRef .tc Cert.ReferenceIdeal.main_v29))
    (hs : VK (Proc.devRef .tc Cert.KernelIdeal.main_v1) = VR (Proc.devRef .tc Cert.ReferenceIdeal.main_v1))
    (hd : VK (Proc.devRef .tc Cert.KernelIdeal.main_v3) = VR (Proc.devRef .tc Cert.ReferenceIdeal.main_v3)) :
    after (Cert.KernelIdeal.Frm.k6a (F := Ideal)) VK (Proc.devRef .tc Cert.KernelIdeal.main_v237) = after (Cert.ReferenceIdeal.RefRun.ops5c (F := Ideal)) VR (Proc.devRef .tc Cert.ReferenceIdeal.main_v294) := by
  simp only [Cert.KernelIdeal.Frm.k6a, Cert.ReferenceIdeal.RefRun.ops5c, Cert.ReferenceIdeal.RefRun.ops6a]
  after_results_simp
  simp only [hh, hw, hs, hd]
  rfl

attribute [local irreducible] Host.gather Host.scatterAdd in
set_option maxHeartbeats 2000000 in
theorem cpT2_4
    (hh : VK (Proc.devRef .tc Cert.KernelIdeal.main_v224) = VR (Proc.devRef .tc Cert.ReferenceIdeal.main_v278))
    (hw : VK (Proc.devRef .tc Cert.KernelIdeal.main_v29) = VR (Proc.devRef .tc Cert.ReferenceIdeal.main_v29))
    (hs : VK (Proc.devRef .tc Cert.KernelIdeal.main_v1) = VR (Proc.devRef .tc Cert.ReferenceIdeal.main_v1))
    (hd : VK (Proc.devRef .tc Cert.KernelIdeal.main_v3) = VR (Proc.devRef .tc Cert.ReferenceIdeal.main_v3)) :
    after (Cert.KernelIdeal.Frm.k6a (F := Ideal)) VK (Proc.devRef .tc Cert.KernelIdeal.main_v253) = after (Cert.ReferenceIdeal.RefRun.ops6a (F := Ideal)) (after (Cert.ReferenceIdeal.RefRun.ops5c (F := Ideal)) VR) (Proc.devRef .tc Cert.ReferenceIdeal.main_v314) := by
  simp only [Cert.KernelIdeal.Frm.k6a, Cert.ReferenceIdeal.RefRun.ops5c, Cert.ReferenceIdeal.RefRun.ops6a]
  after_results_simp
  simp only [hh, hw, hs, hd]
  rfl

attribute [local irreducible] Host.gather Host.scatterAdd in
set_option maxHeartbeats 4000000 in
theorem cpT3_4
    (hh : VK (Proc.devRef .tc Cert.KernelIdeal.main_v224) = VR (Proc.devRef .tc Cert.ReferenceIdeal.main_v278))
    (hw : VK (Proc.devRef .tc Cert.KernelIdeal.main_v29) = VR (Proc.devRef .tc Cert.ReferenceIdeal.main_v29))
    (hs : VK (Proc.devRef .tc Cert.KernelIdeal.main_v1) = VR (Proc.devRef .tc Cert.ReferenceIdeal.main_v1))
    (hd : VK (Proc.devRef .tc Cert.KernelIdeal.main_v3) = VR (Proc.devRef .tc Cert.ReferenceIdeal.main_v3)) :
    after (Cert.KernelIdeal.Frm.k6a (F := Ideal)) VK (Proc.devRef .tc Cert.KernelIdeal.main_v269) = after (Cert.ReferenceIdeal.RefRun.ops6a (F := Ideal)) (after (Cert.ReferenceIdeal.RefRun.ops5c (F := Ideal)) VR) (Proc.devRef .tc Cert.ReferenceIdeal.main_v334) := by
  simp only [Cert.KernelIdeal.Frm.k6a, Cert.ReferenceIdeal.RefRun.ops5c, Cert.ReferenceIdeal.RefRun.ops6a]
  after_results_simp
  simp only [hh, hw, hs, hd]
  rfl

/-! ## The reference's side -/

set_option maxHeartbeats 2000000 in
/-- The reference's fourth-layer output from its own three propagated arrays. -/
theorem ref_y4 :
    (after (Cert.ReferenceIdeal.RefRun.ops6a (F := Ideal)) (after (Cert.ReferenceIdeal.RefRun.ops5c (F := Ideal)) VR) (Proc.devRef .tc Cert.ReferenceIdeal.main_v341) : FVec Ideal Cert.ReferenceIdeal.S50000x128 .f32)
      = (Cert.Proof.Laws.refPre
          (VR (Proc.devRef .tc Cert.ReferenceIdeal.main_v278)) (after (Cert.ReferenceIdeal.RefRun.ops5c (F := Ideal)) VR (Proc.devRef .tc Cert.ReferenceIdeal.main_v294)) (after (Cert.ReferenceIdeal.RefRun.ops6a (F := Ideal)) (after (Cert.ReferenceIdeal.RefRun.ops5c (F := Ideal)) VR) (Proc.devRef .tc Cert.ReferenceIdeal.main_v314)) (after (Cert.ReferenceIdeal.RefRun.ops6a (F := Ideal)) (after (Cert.ReferenceIdeal.RefRun.ops5c (F := Ideal)) VR) (Proc.devRef .tc Cert.ReferenceIdeal.main_v334))
          (VR (Proc.devRef .tc Cert.ReferenceIdeal.main_arg14)) (VR (Proc.devRef .tc Cert.ReferenceIdeal.main_arg15))) := by
  unfold Cert.Proof.Laws.refPre
  simp only [Cert.ReferenceIdeal.RefRun.ops5c, Cert.ReferenceIdeal.RefRun.ops6a]
  after_results_simp
  rfl

/-! ## The stage -/

/-- What the kernel program's fourth dense region computes from the contents after its host stretch is what the
    reference's operations leave in its fourth-layer output. -/
theorem stage_y4
    (hh : VK (Proc.devRef .tc Cert.KernelIdeal.main_v224) = VR (Proc.devRef .tc Cert.ReferenceIdeal.main_v278))
    (hw : VK (Proc.devRef .tc Cert.KernelIdeal.main_v29) = VR (Proc.devRef .tc Cert.ReferenceIdeal.main_v29))
    (hs : VK (Proc.devRef .tc Cert.KernelIdeal.main_v1) = VR (Proc.devRef .tc Cert.ReferenceIdeal.main_v1))
    (hd : VK (Proc.devRef .tc Cert.KernelIdeal.main_v3) = VR (Proc.devRef .tc Cert.ReferenceIdeal.main_v3))
    (h6 : VK (Proc.devRef .tc Cert.KernelIdeal.main_arg14) = VR (Proc.devRef .tc Cert.ReferenceIdeal.main_arg14))
    (h7 : VK (Proc.devRef .tc Cert.KernelIdeal.main_arg15) = VR (Proc.devRef .tc Cert.ReferenceIdeal.main_arg15)) :
    Cert.KernelIdeal.Val.dense6 (after (Cert.KernelIdeal.Frm.k6b (F := Ideal)) (after (Cert.KernelIdeal.Frm.k6a (F := Ideal)) VK) (Proc.devRef .tc Cert.KernelIdeal.main_v276)) (after (Cert.KernelIdeal.Frm.k6b (F := Ideal)) (after (Cert.KernelIdeal.Frm.k6a (F := Ideal)) VK) (Proc.devRef .tc Cert.KernelIdeal.main_v278)) (after (Cert.KernelIdeal.Frm.k6b (F := Ideal)) (after (Cert.KernelIdeal.Frm.k6a (F := Ideal)) VK) (Proc.devRef .tc Cert.KernelIdeal.main_v279))
      = after (Cert.ReferenceIdeal.RefRun.ops6a (F := Ideal)) (after (Cert.ReferenceIdeal.RefRun.ops5c (F := Ideal)) VR) (Proc.devRef .tc Cert.ReferenceIdeal.main_v341) := by
  rw [tail4_a, tail4_w, tail4_b, op140_4, op141_4, op142_4, op143_4, keep4a_arg6, keep4a_arg7, ref_y4,
    ← cpT1_4 VK VR hh hw hs hd, ← cpT2_4 VK VR hh hw hs hd, ← cpT3_4 VK VR hh hw hs hd, ← hh, ← h6, ← h7]
  exact Cert.Proof.Laws.dense6_arrays _ _ _ _ _ _

end Cert.Proof.Sim

end
-- ==== Proof.KIV3.lean ====
/-
  What region 3 (the second batch normalisation) leaves in its output array, at the extended reals: entry (r, q) of
  the 50000×128 result is (y[r, q] − mean[0, q]) · rsqrt(var[0, q] + ε) · scale[0, q] + shift[0, q] — row r of the
  activations lies in the tile of grid point r / 2000, whose write-back puts it at row r; the 25 tiles cover the array.
-/
import proofs.«133509_j41223096107483_1_alg».proof.Proof.KIR3
import proofs.«133509_j41223096107483_1_alg».proof.Proof.KIVCommon
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)

/-- The body's stored value at row p, column q of a tile. -/
theorem pay3_apply (y : Vec Ideal S2000x128 .f32) (mu va ga be : Vec Ideal S1x128 .f32) (p : Fin 2000) (q : Fin 128) :
    k3_pay1 (F := Ideal) y mu va ga be (ix2 p q)
      = bnEntry (y (ix2 p q)) (mu (ix2 0 q)) (va (ix2 0 q)) (ga (ix2 0 q)) (be (ix2 0 q)) := by
  unfold k3_pay1 bnEntry
  try dsimp only
  simp only [shapeCast_self]
  simp only [addf, mulf, subf, rsqrt, broadcast, broadcastTo_1b_ab_apply]

/-- The index maps over the 25 grid points: the activation window and the output window sit at tile t, the four
    row windows at the origin. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The whole array's entry. -/
def bn3 (y : Vec Ideal S50000x128 .f32) (mu va ga be : Vec Ideal S1x128 .f32) : Vec Ideal S50000x128 .f32 := fun i =>
  bnEntry (y i) (mu (ix2 0 (⟨(i 1).val, idx2_lt1 i⟩ : Fin 128))) (va (ix2 0 (⟨(i 1).val, idx2_lt1 i⟩ : Fin 128)))
    (ga (ix2 0 (⟨(i 1).val, idx2_lt1 i⟩ : Fin 128))) (be (ix2 0 (⟨(i 1).val, idx2_lt1 i⟩ : Fin 128)))

/-- A tile's stored value is the whole array's entry, once the tile's entry is the array's. -/
theorem tile_eq3 (x : Vec Ideal S2000x128 .f32) (mu va ga be : Vec Ideal S1x128 .f32)
    (y : Vec Ideal S50000x128 .f32) (p : Fin 2000) (q : Fin 128) (i : S50000x128.Idx)
    (hq : (i 1).val = q.val) (hx : x (ix2 p q) = y i) :
    k3_pay1 (F := Ideal) x mu va ga be (ix2 p q) = bn3 y mu va ga be i := by
  rw [pay3_apply]
  unfold bn3
  have hq' : (⟨(i 1).val, idx2_lt1 i⟩ : Fin 128) = q := Fin.ext hq
  rw [hq', hx]

variable (V : (c : Dev nD) → (b : Ref sig .tc) → Buf (Elt Ideal) ((c : Thread nD τ).loc b))

/-- A row window's tile is the whole row, at every point. -/
theorem iblk3_1 (c : Dev nD) (t : Fin cfg3.N) (y : S1x128.Idx) : iblk3 V c 1 t y = V c main_v154 y := by
  obtain ⟨e0, e1, e2, e3, e4, e5, e6, e7, e8, e9, e10, e11⟩ := idx_facts3 t
  show V c (Pipeline.arrRef spec3 1) (((cfg3.win 1).blk t).view.emb y) = V c main_v154 y
  refine congrArg (V c main_v154) (funext fun a => Fin.ext ?_)
  match a with
  | ⟨0, _⟩ => show win3_1.index t (0 : Fin 2) * 1 + 1 * (y 0).val = (y 0).val; omega
  | ⟨1, _⟩ => show win3_1.index t (1 : Fin 2) * 128 + 1 * (y 1).val = (y 1).val; omega
theorem iblk3_2 (c : Dev nD) (t : Fin cfg3.N) (y : S1x128.Idx) : iblk3 V c 2 t y = V c main_v156 y := by
  obtain ⟨e0, e1, e2, e3, e4, e5, e6, e7, e8, e9, e10, e11⟩ := idx_facts3 t
  show V c (Pipeline.arrRef spec3 2) (((cfg3.win 2).blk t).view.emb y) = V c main_v156 y
  refine congrArg (V c main_v156) (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega
theorem iblk3_3 (c : Dev nD) (t : Fin cfg3.N) (y : S1x128.Idx) : iblk3 V c 3 t y = V c main_v157 y := by
  obtain ⟨e0, e1, e2, e3, e4, e5, e6, e7, e8, e9, e10, e11⟩ := idx_facts3 t
  show V c (Pipeline.arrRef spec3 3) (((cfg3.win 3).blk t).view.emb y) = V c main_v157 y
  refine congrArg (V c main_v157) (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega
theorem iblk3_4 (c : Dev nD) (t : Fin cfg3.N) (y : S1x128.Idx) : iblk3 V c 4 t y = V c main_v158 y := by
  obtain ⟨e0, e1, e2, e3, e4, e5, e6, e7, e8, e9, e10, e11⟩ := idx_facts3 t
  show V c (Pipeline.arrRef spec3 4) (((cfg3.win 4).blk t).view.emb y) = V c main_v158 y
  refine congrArg (V c main_v158) (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- What point t writes back is tile t of the whole array's function. -/
theorem flushed3_eq (c : Dev nD) (t : Fin cfg3.N) :
    (dat3 V c).flushed 5 t
      = ((cfg3.win 5).blk t).view.read (Elt Ideal) (bn3 (V c main_v150) (V c main_v154)
          (V c main_v156) (V c main_v157) (V c main_v158)) := by
  obtain ⟨e0, e1, e2, e3, e4, e5, e6, e7, e8, e9, e10, e11⟩ := idx_facts3 t
  show (cfg3.win 5).cut (grid3.coords t) ((dat3 V c).after 5 t) = _
  rw [after3_5]
  unfold out3
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  show k3_pay1 (F := Ideal) (iblk3 V c 0 t) (iblk3 V c 1 t) (iblk3 V c 2 t) (iblk3 V c 3 t) (iblk3 V c 4 t) (ix2 p q)
    = bn3 (V c main_v150) (V c main_v154) (V c main_v156)
        (V c main_v157) (V c main_v158) (((cfg3.win 5).blk t).view.emb (ix2 p q))
  rw [show (iblk3 V c 1 t : Vec Ideal S1x128 .f32) = V c main_v154 from funext (iblk3_1 V c t),
    show (iblk3 V c 2 t : Vec Ideal S1x128 .f32) = V c main_v156 from funext (iblk3_2 V c t),
    show (iblk3 V c 3 t : Vec Ideal S1x128 .f32) = V c main_v157 from funext (iblk3_3 V c t),
    show (iblk3 V c 4 t : Vec Ideal S1x128 .f32) = V c main_v158 from funext (iblk3_4 V c t)]
  refine tile_eq3 _ _ _ _ _ _ p q _ ?_ ?_
  · show win3_5.index t (1 : Fin 2) * 128 + 1 * q.val = q.val; omega
  · show V c (Pipeline.arrRef spec3 0) (((cfg3.win 0).blk t).view.emb (ix2 p q)) = V c main_v150 _
    refine congrArg (V c main_v150) (funext fun a => Fin.ext ?_)
    match a with
    | ⟨0, _⟩ => show win3_0.index t (0 : Fin 2) * 2000 + 1 * p.val = win3_5.index t (0 : Fin 2) * 2000 + 1 * p.val; omega
    | ⟨1, _⟩ => show win3_0.index t (1 : Fin 2) * 128 + 1 * q.val = win3_5.index t (1 : Fin 2) * 128 + 1 * q.val; omega

/-- An index of the array is in point t's tile iff each coordinate is in the tile's range on its axis. -/
theorem mem_blk3 (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v159).slice (win3_5.rect t)).set ↔ _
  rw [View.set_slice_whole, Rect.mem_set_unit]
  exact Iff.rfl

/-- Every row lies in the tile of the grid point row / 2000. -/
theorem cover3 (i : S50000x128.Idx) : ∃ t : Fin cfg3.N, (cfg3.win 5).flush t = true ∧ i ∈ ((cfg3.win 5).blk t).view.set := by
  have hi0 : (i 0).val < 50000 := idx2_lt0 i
  have hi1 : (i 1).val < 128 := idx2_lt1 i
  have hN : cfg3.N = 25 := N_3
  let t : Fin cfg3.N := ⟨(i 0).val / 2000, by rw [hN]; omega⟩
  obtain ⟨e0, e1, e2, e3, e4, e5, e6, e7, e8, e9, e10, e11⟩ := idx_facts3 t
  have ht : t.val = (i 0).val / 2000 := rfl
  refine ⟨t, flush3_5 t, ?_⟩
  rw [mem_blk3]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- THE ARRAY after region 3: the normalisation of the activations by the four rows the region was entered with. -/
theorem final3 (c : Dev nD) :
    (dat3 V c).arrAt 5 cfg3.N = bn3 (V c main_v150) (V c main_v154)
      (V c main_v156) (V c main_v157) (V c main_v158) :=
  (dat3 V c).arrAt_eq_of_cover 5 _ (fun t _ => flushed3_eq V c t) cover3

end Cert.KernelIdeal.Val

end
-- ==== Proof.BnArr.lean ====
/-
  The batch normalisation as whole arrays, at the extended reals: what the kernel's region computes from the
  activations and the four rows (column mean, column variance, scale, shift, each a 128-vector laid out as a 1×128
  row) is what the reference computes by host operations on the 128-vectors spread over the rows:
  (y − mean) · rsqrt(variance + ε) · scale + shift, entry by entry — for any activations and any four vectors.
-/
import proofs.«133509_j41223096107483_1_alg».proof.Proof.KIV3
import proofs.«133509_j41223096107483_1_alg».proof.Proof.KStack
import proofs.«133509_j41223096107483_1_alg».proof.Proof.RDense

set_option maxRecDepth 16384

noncomputable section

namespace Cert.Proof.Laws

open Idealize.ShloMosaic Idealize.ShloMosaic.ValueIdx

/-- A 128-vector spread over the rows of a 50000×128 array (the reference's two broadcasts). -/
abbrev rows (v : FVec Ideal Cert.ReferenceIdeal.S128 .f32) : FVec Ideal Cert.ReferenceIdeal.S50000x128 .f32 :=
  broadcastInDim Cert.ReferenceIdeal.S50000x128 ![0, 1] Cert.ReferenceIdeal.Gen.bcast_S1x128_S50000x128_0_1
    (broadcastInDim Cert.ReferenceIdeal.S1x128 ![1] Cert.ReferenceIdeal.Gen.bcast_S128_S1x128_1 v)

/-- The reference's batch normalisation of an array by four vectors. -/
def refBn (y : FVec Ideal Cert.ReferenceIdeal.S50000x128 .f32) (mu va ga be : FVec Ideal Cert.ReferenceIdeal.S128 .f32) :
    FVec Ideal Cert.ReferenceIdeal.S50000x128 .f32 :=
  addf (mulf (mulf (subf y (rows mu))
      (rows (Host.rsqrt (addf va (broadcastInDim Cert.ReferenceIdeal.S128 ![] Cert.ReferenceIdeal.Gen.bcast_S_S128
        (constant (F := Ideal) Cert.ReferenceIdeal.S_ .f32 0x3727C5AC#32))))))
    (rows ga)) (rows be)

/-- THE NORMALISATION, kernel against reference, as whole arrays. -/
theorem bn_arrays (y : FVec Ideal Cert.KernelIdeal.S50000x128 .f32) (mu va ga be : FVec Ideal Cert.KernelIdeal.S128 .f32) :
    Cert.KernelIdeal.Val.bn3 y
        (shapeCast Cert.KernelIdeal.S1x128 mu Cert.KernelIdeal.Gen.shapeCasts_S128_S1x128)
        (shapeCast Cert.KernelIdeal.S1x128 va Cert.KernelIdeal.Gen.shapeCasts_S128_S1x128)
        (shapeCast Cert.KernelIdeal.S1x128 ga Cert.KernelIdeal.Gen.shapeCasts_S128_S1x128)
        (shapeCast Cert.KernelIdeal.S1x128 be Cert.KernelIdeal.Gen.shapeCasts_S128_S1x128)
      = refBn y mu va ga be := by
  funext i
  obtain ⟨n, o, rfl⟩ : ∃ (n : Fin 50000) (o : Fin 128), i = ix2 n o := ⟨i 0, i 1, eq_ix2 i⟩
  unfold Cert.KernelIdeal.Val.bn3 Cert.KernelIdeal.Val.bnEntry refBn
  rw [addf_apply, mulf_apply, mulf_apply, subf_apply]
  dsimp only [rows]
  rw [Cert.ReferenceIdeal.Val.biasRows_apply, Cert.ReferenceIdeal.Val.biasRows_apply, Cert.ReferenceIdeal.Val.biasRows_apply,
    Cert.ReferenceIdeal.Val.biasRows_apply]
  have ho : (⟨((ix2 n o : Cert.KernelIdeal.S50000x128.Idx) 1).val, idx2_lt1 (ix2 n o)⟩ : Fin 128) = o := rfl
  rw [ho, Cert.KernelIdeal.Val.rowB_apply mu 0 o, Cert.KernelIdeal.Val.rowB_apply va 0 o, Cert.KernelIdeal.Val.rowB_apply ga 0 o,
    Cert.KernelIdeal.Val.rowB_apply be 0 o]
  simp only [Host.rsqrt, addf, broadcastInDim, constant, Ideal.rsqrt_def, Ideal.hostUnary_rsqrt_def, Ideal.addf_def, Ideal.mulf_def,
    Ideal.subf_def, Ideal.ofBits_def]

end Cert.Proof.Laws

end
-- ==== Proof.KIV1.lean ====
/- What region 1 (the first batch normalisation) leaves in its output array, at the extended reals: entry (r, q) is (y[r, q] - mean[0, q]) * rsqrt(var[0, q] + eps) * scale[0, q] + shift[0, q]; the 25 tiles cover the array.
-/
import proofs.«133509_j41223096107483_1_alg».proof.Proof.KIR1
import proofs.«133509_j41223096107483_1_alg».proof.Proof.KIVCommon
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)

/-- The body's stored value at row p, column q of a tile. -/
theorem pay1_apply (y : Vec Ideal S2000x128 .f32) (mu va ga be : Vec Ideal S1x128 .f32) (p : Fin 2000) (q : Fin 128) :
    k1_pay1 (F := Ideal) y mu va ga be (ix2 p q)
      = bnEntry (y (ix2 p q)) (mu (ix2 0 q)) (va (ix2 0 q)) (ga (ix2 0 q)) (be (ix2 0 q)) := by
  unfold k1_pay1 bnEntry
  try dsimp only
  simp only [shapeCast_self]
  simp only [addf, mulf, subf, rsqrt, broadcast, broadcastTo_1b_ab_apply]

/-- The index maps over the 25 grid points: the activation window and the output window sit at tile t, the four
    row windows at the origin. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The whole array's entry. -/
def bn1 (y : Vec Ideal S50000x128 .f32) (mu va ga be : Vec Ideal S1x128 .f32) : Vec Ideal S50000x128 .f32 := fun i =>
  bnEntry (y i) (mu (ix2 0 (⟨(i 1).val, idx2_lt1 i⟩ : Fin 128))) (va (ix2 0 (⟨(i 1).val, idx2_lt1 i⟩ : Fin 128)))
    (ga (ix2 0 (⟨(i 1).val, idx2_lt1 i⟩ : Fin 128))) (be (ix2 0 (⟨(i 1).val, idx2_lt1 i⟩ : Fin 128)))

/-- A tile's stored value is the whole array's entry, once the tile's entry is the array's. -/
theorem tile_eq1 (x : Vec Ideal S2000x128 .f32) (mu va ga be : Vec Ideal S1x128 .f32)
    (y : Vec Ideal S50000x128 .f32) (p : Fin 2000) (q : Fin 128) (i : S50000x128.Idx)
    (hq : (i 1).val = q.val) (hx : x (ix2 p q) = y i) :
    k1_pay1 (F := Ideal) x mu va ga be (ix2 p q) = bn1 y mu va ga be i := by
  rw [pay1_apply]
  unfold bn1
  have hq' : (⟨(i 1).val, idx2_lt1 i⟩ : Fin 128) = q := Fin.ext hq
  rw [hq', hx]

variable (V : (c : Dev nD) → (b : Ref sig .tc) → Buf (Elt Ideal) ((c : Thread nD τ).loc b))

/-- A row window's tile is the whole row, at every point. -/
theorem iblk1_1 (c : Dev nD) (t : Fin cfg1.N) (y : S1x128.Idx) : iblk1 V c 1 t y = V c main_v89 y := by
  obtain ⟨e0, e1, e2, e3, e4, e5, e6, e7, e8, e9, e10, e11⟩ := idx_facts1 t
  show V c (Pipeline.arrRef spec1 1) (((cfg1.win 1).blk t).view.emb y) = V c main_v89 y
  refine congrArg (V c main_v89) (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega
theorem iblk1_2 (c : Dev nD) (t : Fin cfg1.N) (y : S1x128.Idx) : iblk1 V c 2 t y = V c main_v91 y := by
  obtain ⟨e0, e1, e2, e3, e4, e5, e6, e7, e8, e9, e10, e11⟩ := idx_facts1 t
  show V c (Pipeline.arrRef spec1 2) (((cfg1.win 2).blk t).view.emb y) = V c main_v91 y
  refine congrArg (V c main_v91) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega
theorem iblk1_3 (c : Dev nD) (t : Fin cfg1.N) (y : S1x128.Idx) : iblk1 V c 3 t y = V c main_v92 y := by
  obtain ⟨e0, e1, e2, e3, e4, e5, e6, e7, e8, e9, e10, e11⟩ := idx_facts1 t
  show V c (Pipeline.arrRef spec1 3) (((cfg1.win 3).blk t).view.emb y) = V c main_v92 y
  refine congrArg (V c main_v92) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega
theorem iblk1_4 (c : Dev nD) (t : Fin cfg1.N) (y : S1x128.Idx) : iblk1 V c 4 t y = V c main_v93 y := by
  obtain ⟨e0, e1, e2, e3, e4, e5, e6, e7, e8, e9, e10, e11⟩ := idx_facts1 t
  show V c (Pipeline.arrRef spec1 4) (((cfg1.win 4).blk t).view.emb y) = V c main_v93 y
  refine congrArg (V c main_v93) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- What point t writes back is tile t of the whole array's function. -/
theorem flushed1_eq (c : Dev nD) (t : Fin cfg1.N) :
    (dat1 V c).flushed 5 t
      = ((cfg1.win 5).blk t).view.read (Elt Ideal) (bn1 (V c main_v85) (V c main_v89)
          (V c main_v91) (V c main_v92) (V c main_v93)) := by
  obtain ⟨e0, e1, e2, e3, e4, e5, e6, e7, e8, e9, e10, e11⟩ := idx_facts1 t
  show (cfg1.win 5).cut (grid1.coords t) ((dat1 V c).after 5 t) = _
  rw [after1_5]
  unfold out1
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = bn1 (V c main_v85) (V c main_v89) (V c main_v91)
        (V c main_v92) (V c main_v93) (((cfg1.win 5).blk t).view.emb (ix2 p q))
  rw [show (iblk1 V c 1 t : Vec Ideal S1x128 .f32) = V c main_v89 from funext (iblk1_1 V c t),
    show (iblk1 V c 2 t : Vec Ideal S1x128 .f32) = V c main_v91 from funext (iblk1_2 V c t),
    show (iblk1 V c 3 t : Vec Ideal S1x128 .f32) = V c main_v92 from funext (iblk1_3 V c t),
    show (iblk1 V c 4 t : Vec Ideal S1x128 .f32) = V c main_v93 from funext (iblk1_4 V c t)]
  refine tile_eq1 _ _ _ _ _ _ p q _ ?_ ?_
  · show win1_5.index t (1 : Fin 2) * 128 + 1 * q.val = q.val; omega
  · show V c (Pipeline.arrRef spec1 0) (((cfg1.win 0).blk t).view.emb (ix2 p q)) = V c main_v85 _
    refine congrArg (V c main_v85) (funext fun a => Fin.ext ?_)
    match a with
    | ⟨0, _⟩ => show win1_0.index t (0 : Fin 2) * 2000 + 1 * p.val = win1_5.index t (0 : Fin 2) * 2000 + 1 * p.val; omega
    | ⟨1, _⟩ => show win1_0.index t (1 : Fin 2) * 128 + 1 * q.val = win1_5.index t (1 : Fin 2) * 128 + 1 * q.val; omega

/-- An index of the array is in point t's tile iff each coordinate is in the tile's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v94).slice (win1_5.rect t)).set ↔ _
  rw [View.set_slice_whole, Rect.mem_set_unit]
  exact Iff.rfl

/-- Every row lies in the tile of the grid point row / 2000. -/
theorem cover1 (i : S50000x128.Idx) : ∃ t : Fin cfg1.N, (cfg1.win 5).flush t = true ∧ i ∈ ((cfg1.win 5).blk t).view.set := by
  have hi0 : (i 0).val < 50000 := idx2_lt0 i
  have hi1 : (i 1).val < 128 := idx2_lt1 i
  have hN : cfg1.N = 25 := N_1
  let t : Fin cfg1.N := ⟨(i 0).val / 2000, by rw [hN]; omega⟩
  obtain ⟨e0, e1, e2, e3, e4, e5, e6, e7, e8, e9, e10, e11⟩ := idx_facts1 t
  have ht : t.val = (i 0).val / 2000 := rfl
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE ARRAY after region 3: the normalisation of the activations by the four rows the region was entered with. -/
theorem final1 (c : Dev nD) :
    (dat1 V c).arrAt 5 cfg1.N = bn1 (V c main_v85) (V c main_v89)
      (V c main_v91) (V c main_v92) (V c main_v93) :=
  (dat1 V c).arrAt_eq_of_cover 5 _ (fun t _ => flushed1_eq V c t) cover1

end Cert.KernelIdeal.Val

end
-- ==== Proof.SimH1.lean ====
/- The first layer's batch normalisation, the two programs side by side over any contents VK, VR of their buffers
  that agree on the layer's activations and on the scale and shift vectors: the column means and variances are the
  same host chains in both programs; the kernel program lays the four vectors out as rows and runs its region, the
  reference spreads them over the rows by host operations; the normalisation law for whole arrays joins the two.
-/
import proofs.«133509_j41223096107483_1_alg».proof.Proof.RefCuts
import proofs.«133509_j41223096107483_1_alg».proof.Proof.KICuts
import proofs.«133509_j41223096107483_1_alg».proof.Proof.KIFrame
import proofs.«133509_j41223096107483_1_alg».proof.Proof.BnArr
import proofs.«133509_j41223096107483_1_alg».proof.Proof.KIV1

set_option maxRecDepth 16384

noncomputable section

namespace Cert.Proof.Sim

open Idealize.ShloMosaic Idealize.ShloMosaic.TcCoe Idealize.SL.Sem Idealize.ShloMosaic.StableHlo

variable (VK : Valuation Cert.KernelIdeal.τ Cert.KernelIdeal.sig (Elt Ideal)) (VR : Valuation Cert.ReferenceIdeal.τ Cert.ReferenceIdeal.sig (Elt Ideal))

/-! ## The kernel program's side: the activations kept, the four vectors laid out as rows -/

theorem k150_1 : after (Cert.KernelIdeal.Gen.hostOps1_2 (F := Ideal)) (after (Cert.KernelIdeal.Gen.hostOps1_1 (F := Ideal)) (after (Cert.KernelIdeal.Gen.hostOps1 (F := Ideal)) VK)) (Proc.devRef .tc Cert.KernelIdeal.main_v85) = VK (Proc.devRef .tc Cert.KernelIdeal.main_v85) := by
  rw [StableHlo.after_of_writes_sub _ _ Cert.KernelIdeal.Frm.hostOps1_2_writes (by decide : (Cert.KernelIdeal.main_v85) ∉ Cert.KernelIdeal.Frm.hostOps1_2_W),
    StableHlo.after_of_writes_sub _ _ Cert.KernelIdeal.Frm.hostOps1_1_writes (by decide : (Cert.KernelIdeal.main_v85) ∉ Cert.KernelIdeal.Frm.hostOps1_1_W),
    StableHlo.after_of_writes_sub _ _ Cert.KernelIdeal.Frm.hostOps1_writes (by decide : (Cert.KernelIdeal.main_v85) ∉ Cert.KernelIdeal.Frm.hostOps1_W)]

set_option maxHeartbeats 1000000 in
theorem k154_1 :
    (after (Cert.KernelIdeal.Gen.hostOps1_2 (F := Ideal)) (after (Cert.KernelIdeal.Gen.hostOps1_1 (F := Ideal)) (after (Cert.KernelIdeal.Gen.hostOps1 (F := Ideal)) VK)) (Proc.devRef .tc Cert.KernelIdeal.main_v89) : FVec Ideal Cert.KernelIdeal.S1x128 .f32)
      = shapeCast Cert.KernelIdeal.S1x128 (after (Cert.KernelIdeal.Gen.hostOps1 (F := Ideal)) VK (Proc.devRef .tc Cert.KernelIdeal.main_v88) : FVec Ideal Cert.KernelIdeal.S128 .f32) Cert.KernelIdeal.Gen.shapeCasts_S128_S1x128 := by
  simp only [Cert.KernelIdeal.Gen.hostOps1, Cert.KernelIdeal.Gen.hostOps1_1, Cert.KernelIdeal.Gen.hostOps1_2]
  after_results_simp
  try rfl

set_option maxHeartbeats 2000000 in
theorem k156_1 :
    (after (Cert.KernelIdeal.Gen.hostOps1_2 (F := Ideal)) (after (Cert.KernelIdeal.Gen.hostOps1_1 (F := Ideal)) (after (Cert.KernelIdeal.Gen.hostOps1 (F := Ideal)) VK)) (Proc.devRef .tc Cert.KernelIdeal.main_v91) : FVec Ideal Cert.KernelIdeal.S1x128 .f32)
      = shapeCast Cert.KernelIdeal.S1x128 (after (Cert.KernelIdeal.Gen.hostOps1_1 (F := Ideal)) (after (Cert.KernelIdeal.Gen.hostOps1 (F := Ideal)) VK) (Proc.devRef .tc Cert.KernelIdeal.main_v90) : FVec Ideal Cert.KernelIdeal.S128 .f32) Cert.KernelIdeal.Gen.shapeCasts_S128_S1x128 := by
  simp only [Cert.KernelIdeal.Gen.hostOps1, Cert.KernelIdeal.Gen.hostOps1_1, Cert.KernelIdeal.Gen.hostOps1_2]
  after_results_simp
  try rfl

set_option maxHeartbeats 1000000 in
theorem k157_1 :
    (after (Cert.KernelIdeal.Gen.hostOps1_2 (F := Ideal)) (after (Cert.KernelIdeal.Gen.hostOps1_1 (F := Ideal)) (after (Cert.KernelIdeal.Gen.hostOps1 (F := Ideal)) VK)) (Proc.devRef .tc Cert.KernelIdeal.main_v92) : FVec Ideal Cert.KernelIdeal.S1x128 .f32)
      = shapeCast Cert.KernelIdeal.S1x128 (VK (Proc.devRef .tc Cert.KernelIdeal.main_arg4) : FVec Ideal Cert.KernelIdeal.S128 .f32) Cert.KernelIdeal.Gen.shapeCasts_S128_S1x128 := by
  simp only [Cert.KernelIdeal.Gen.hostOps1, Cert.KernelIdeal.Gen.hostOps1_1, Cert.KernelIdeal.Gen.hostOps1_2]
  after_results_simp
  try rfl

set_option maxHeartbeats 1000000 in
theorem k158_1 :
    (after (Cert.KernelIdeal.Gen.hostOps1_2 (F := Ideal)) (after (Cert.KernelIdeal.Gen.hostOps1_1 (F := Ideal)) (after (Cert.KernelIdeal.Gen.hostOps1 (F := Ideal)) VK)) (Proc.devRef .tc Cert.KernelIdeal.main_v93) : FVec Ideal Cert.KernelIdeal.S1x128 .f32)
      = shapeCast Cert.KernelIdeal.S1x128 (VK (Proc.devRef .tc Cert.KernelIdeal.main_arg5) : FVec Ideal Cert.KernelIdeal.S128 .f32) Cert.KernelIdeal.Gen.shapeCasts_S128_S1x128 := by
  simp only [Cert.KernelIdeal.Gen.hostOps1, Cert.KernelIdeal.Gen.hostOps1_1, Cert.KernelIdeal.Gen.hostOps1_2]
  after_results_simp
  try rfl

/-! ## The column means and variances: the same host chains in both programs -/

set_option maxHeartbeats 1000000 in
theorem cpMean_1 (hy : VK (Proc.devRef .tc Cert.KernelIdeal.main_v85) = VR (Proc.devRef .tc Cert.ReferenceIdeal.main_v93)) :
    after (Cert.KernelIdeal.Gen.hostOps1 (F := Ideal)) VK (Proc.devRef .tc Cert.KernelIdeal.main_v88) = after (Cert.ReferenceIdeal.RefRun.ops2a (F := Ideal)) (after (Cert.ReferenceIdeal.RefRun.ops1b (F := Ideal)) VR) (Proc.devRef .tc Cert.ReferenceIdeal.main_v96) := by
  simp only [Cert.KernelIdeal.Gen.hostOps1, Cert.ReferenceIdeal.RefRun.ops1b, Cert.ReferenceIdeal.RefRun.ops2a]
  after_results_simp
  simp only [hy]
  try rfl

set_option maxHeartbeats 4000000 in
theorem cpVar_1 (hy : VK (Proc.devRef .tc Cert.KernelIdeal.main_v85) = VR (Proc.devRef .tc Cert.ReferenceIdeal.main_v93)) :
    after (Cert.KernelIdeal.Gen.hostOps1_1 (F := Ideal)) (after (Cert.KernelIdeal.Gen.hostOps1 (F := Ideal)) VK) (Proc.devRef .tc Cert.KernelIdeal.main_v90) = after (Cert.ReferenceIdeal.RefRun.ops2a (F := Ideal)) (after (Cert.ReferenceIdeal.RefRun.ops1b (F := Ideal)) VR) (Proc.devRef .tc Cert.ReferenceIdeal.main_v97) := by
  simp only [Cert.KernelIdeal.Gen.hostOps1, Cert.KernelIdeal.Gen.hostOps1_1, Cert.ReferenceIdeal.RefRun.ops1b, Cert.ReferenceIdeal.RefRun.ops2a]
  after_results_simp
  simp only [hy]
  try rfl

/-! ## The reference's side -/

set_option maxHeartbeats 2000000 in
/-- The reference's normalised array from its own column means and variances. -/
theorem ref_h1 :
    (after (Cert.ReferenceIdeal.RefRun.ops2a (F := Ideal)) (after (Cert.ReferenceIdeal.RefRun.ops1b (F := Ideal)) VR) (Proc.devRef .tc Cert.ReferenceIdeal.main_v112) : FVec Ideal Cert.ReferenceIdeal.S50000x128 .f32)
      = Cert.Proof.Laws.refBn (VR (Proc.devRef .tc Cert.ReferenceIdeal.main_v93)) (after (Cert.ReferenceIdeal.RefRun.ops2a (F := Ideal)) (after (Cert.ReferenceIdeal.RefRun.ops1b (F := Ideal)) VR) (Proc.devRef .tc Cert.ReferenceIdeal.main_v96)) (after (Cert.ReferenceIdeal.RefRun.ops2a (F := Ideal)) (after (Cert.ReferenceIdeal.RefRun.ops1b (F := Ideal)) VR) (Proc.devRef .tc Cert.ReferenceIdeal.main_v97))
          (VR (Proc.devRef .tc Cert.ReferenceIdeal.main_arg4)) (VR (Proc.devRef .tc Cert.ReferenceIdeal.main_arg5)) := by
  unfold Cert.Proof.Laws.refBn
  simp only [Cert.ReferenceIdeal.RefRun.ops1b, Cert.ReferenceIdeal.RefRun.ops2a]
  after_results_simp
  try rfl

/-! ## The stage -/

theorem stage_h1 (hy : VK (Proc.devRef .tc Cert.KernelIdeal.main_v85) = VR (Proc.devRef .tc Cert.ReferenceIdeal.main_v93))
    (h8 : VK (Proc.devRef .tc Cert.KernelIdeal.main_arg4) = VR (Proc.devRef .tc Cert.ReferenceIdeal.main_arg4)) (h9 : VK (Proc.devRef .tc Cert.KernelIdeal.main_arg5) = VR (Proc.devRef .tc Cert.ReferenceIdeal.main_arg5)) :
    Cert.KernelIdeal.Val.bn1 (after (Cert.KernelIdeal.Gen.hostOps1_2 (F := Ideal)) (after (Cert.KernelIdeal.Gen.hostOps1_1 (F := Ideal)) (after (Cert.KernelIdeal.Gen.hostOps1 (F := Ideal)) VK)) (Proc.devRef .tc Cert.KernelIdeal.main_v85)) (after (Cert.KernelIdeal.Gen.hostOps1_2 (F := Ideal)) (after (Cert.KernelIdeal.Gen.hostOps1_1 (F := Ideal)) (after (Cert.KernelIdeal.Gen.hostOps1 (F := Ideal)) VK)) (Proc.devRef .tc Cert.KernelIdeal.main_v89)) (after (Cert.KernelIdeal.Gen.hostOps1_2 (F := Ideal)) (after (Cert.KernelIdeal.Gen.hostOps1_1 (F := Ideal)) (after (Cert.KernelIdeal.Gen.hostOps1 (F := Ideal)) VK)) (Proc.devRef .tc Cert.KernelIdeal.main_v91)) (after (Cert.KernelIdeal.Gen.hostOps1_2 (F := Ideal)) (after (Cert.KernelIdeal.Gen.hostOps1_1 (F := Ideal)) (after (Cert.KernelIdeal.Gen.hostOps1 (F := Ideal)) VK)) (Proc.devRef .tc Cert.KernelIdeal.main_v92)) (after (Cert.KernelIdeal.Gen.hostOps1_2 (F := Ideal)) (after (Cert.KernelIdeal.Gen.hostOps1_1 (F := Ideal)) (after (Cert.KernelIdeal.Gen.hostOps1 (F := Ideal)) VK)) (Proc.devRef .tc Cert.KernelIdeal.main_v93))
      = after (Cert.ReferenceIdeal.RefRun.ops2a (F := Ideal)) (after (Cert.ReferenceIdeal.RefRun.ops1b (F := Ideal)) VR) (Proc.devRef .tc Cert.ReferenceIdeal.main_v112) := by
  rw [k150_1, k154_1, k156_1, k157_1, k158_1, ref_h1, ← cpMean_1 VK VR hy, ← cpVar_1 VK VR hy, ← hy, ← h8, ← h9]
  exact Cert.Proof.Laws.bn_arrays _ _ _ _ _

end Cert.Proof.Sim

end
-- ==== Proof.SimH2.lean ====
/-
  The second layer's batch normalisation, the two programs side by side over any contents VK, VR of their buffers
  that agree on the layer's activations and on the scale and shift vectors: the column means and variances are the
  same host chains in both programs; the kernel program lays the four vectors out as rows and runs its region, the
  reference spreads them over the rows by host operations; the normalisation law for whole arrays joins the two.
-/
import proofs.«133509_j41223096107483_1_alg».proof.Proof.RefCuts
import proofs.«133509_j41223096107483_1_alg».proof.Proof.KICuts
import proofs.«133509_j41223096107483_1_alg».proof.Proof.KIFrame
import proofs.«133509_j41223096107483_1_alg».proof.Proof.BnArr

set_option maxRecDepth 16384

noncomputable section

namespace Cert.Proof.Sim

open Idealize.ShloMosaic Idealize.ShloMosaic.TcCoe Idealize.SL.Sem Idealize.ShloMosaic.StableHlo

variable (VK : Valuation Cert.KernelIdeal.τ Cert.KernelIdeal.sig (Elt Ideal)) (VR : Valuation Cert.ReferenceIdeal.τ Cert.ReferenceIdeal.sig (Elt Ideal))

/-! ## The kernel program's side: the activations kept, the four vectors laid out as rows -/

theorem k150_2 : after (Cert.KernelIdeal.Gen.hostOps3_2 (F := Ideal)) (after (Cert.KernelIdeal.Gen.hostOps3_1 (F := Ideal)) (after (Cert.KernelIdeal.Gen.hostOps3 (F := Ideal)) VK)) (Proc.devRef .tc Cert.KernelIdeal.main_v150) = VK (Proc.devRef .tc Cert.KernelIdeal.main_v150) := by
  rw [StableHlo.after_of_writes_sub _ _ Cert.KernelIdeal.Frm.hostOps3_2_writes (by decide : (Cert.KernelIdeal.main_v150) ∉ Cert.KernelIdeal.Frm.hostOps3_2_W),
    StableHlo.after_of_writes_sub _ _ Cert.KernelIdeal.Frm.hostOps3_1_writes (by decide : (Cert.KernelIdeal.main_v150) ∉ Cert.KernelIdeal.Frm.hostOps3_1_W),
    StableHlo.after_of_writes_sub _ _ Cert.KernelIdeal.Frm.hostOps3_writes (by decide : (Cert.KernelIdeal.main_v150) ∉ Cert.KernelIdeal.Frm.hostOps3_W)]

set_option maxHeartbeats 1000000 in
theorem k154_2 :
    (after (Cert.KernelIdeal.Gen.hostOps3_2 (F := Ideal)) (after (Cert.KernelIdeal.Gen.hostOps3_1 (F := Ideal)) (after (Cert.KernelIdeal.Gen.hostOps3 (F := Ideal)) VK)) (Proc.devRef .tc Cert.KernelIdeal.main_v154) : FVec Ideal Cert.KernelIdeal.S1x128 .f32)
      = shapeCast Cert.KernelIdeal.S1x128 (after (Cert.KernelIdeal.Gen.hostOps3 (F := Ideal)) VK (Proc.devRef .tc Cert.KernelIdeal.main_v153) : FVec Ideal Cert.KernelIdeal.S128 .f32) Cert.KernelIdeal.Gen.shapeCasts_S128_S1x128 := by
  simp only [Cert.KernelIdeal.Gen.hostOps3, Cert.KernelIdeal.Gen.hostOps3_1, Cert.KernelIdeal.Gen.hostOps3_2]
  after_results_simp
  try rfl

set_option maxHeartbeats 2000000 in
theorem k156_2 :
    (after (Cert.KernelIdeal.Gen.hostOps3_2 (F := Ideal)) (after (Cert.KernelIdeal.Gen.hostOps3_1 (F := Ideal)) (after (Cert.KernelIdeal.Gen.hostOps3 (F := Ideal)) VK)) (Proc.devRef .tc Cert.KernelIdeal.main_v156) : FVec Ideal Cert.KernelIdeal.S1x128 .f32)
      = shapeCast Cert.KernelIdeal.S1x128 (after (Cert.KernelIdeal.Gen.hostOps3_1 (F := Ideal)) (after (Cert.KernelIdeal.Gen.hostOps3 (F := Ideal)) VK) (Proc.devRef .tc Cert.KernelIdeal.main_v155) : FVec Ideal Cert.KernelIdeal.S128 .f32) Cert.KernelIdeal.Gen.shapeCasts_S128_S1x128 := by
  simp only [Cert.KernelIdeal.Gen.hostOps3, Cert.KernelIdeal.Gen.hostOps3_1, Cert.KernelIdeal.Gen.hostOps3_2]
  after_results_simp
  try rfl

set_option maxHeartbeats 1000000 in
theorem k157_2 :
    (after (Cert.KernelIdeal.Gen.hostOps3_2 (F := Ideal)) (after (Cert.KernelIdeal.Gen.hostOps3_1 (F := Ideal)) (after (Cert.KernelIdeal.Gen.hostOps3 (F := Ideal)) VK)) (Proc.devRef .tc Cert.KernelIdeal.main_v157) : FVec Ideal Cert.KernelIdeal.S1x128 .f32)
      = shapeCast Cert.KernelIdeal.S1x128 (VK (Proc.devRef .tc Cert.KernelIdeal.main_arg8) : FVec Ideal Cert.KernelIdeal.S128 .f32) Cert.KernelIdeal.Gen.shapeCasts_S128_S1x128 := by
  simp only [Cert.KernelIdeal.Gen.hostOps3, Cert.KernelIdeal.Gen.hostOps3_1, Cert.KernelIdeal.Gen.hostOps3_2]
  after_results_simp
  try rfl

set_option maxHeartbeats 1000000 in
theorem k158_2 :
    (after (Cert.KernelIdeal.Gen.hostOps3_2 (F := Ideal)) (after (Cert.KernelIdeal.Gen.hostOps3_1 (F := Ideal)) (after (Cert.KernelIdeal.Gen.hostOps3 (F := Ideal)) VK)) (Proc.devRef .tc Cert.KernelIdeal.main_v158) : FVec Ideal Cert.KernelIdeal.S1x128 .f32)
      = shapeCast Cert.KernelIdeal.S1x128 (VK (Proc.devRef .tc Cert.KernelIdeal.main_arg9) : FVec Ideal Cert.KernelIdeal.S128 .f32) Cert.KernelIdeal.Gen.shapeCasts_S128_S1x128 := by
  simp only [Cert.KernelIdeal.Gen.hostOps3, Cert.KernelIdeal.Gen.hostOps3_1, Cert.KernelIdeal.Gen.hostOps3_2]
  after_results_simp
  try rfl

/-! ## The column means and variances: the same host chains in both programs -/

set_option maxHeartbeats 1000000 in
theorem cpMean_2 (hy : VK (Proc.devRef .tc Cert.KernelIdeal.main_v150) = VR (Proc.devRef .tc Cert.ReferenceIdeal.main_v176)) :
    after (Cert.KernelIdeal.Gen.hostOps3 (F := Ideal)) VK (Proc.devRef .tc Cert.KernelIdeal.main_v153) = after (Cert.ReferenceIdeal.RefRun.ops3b (F := Ideal)) VR (Proc.devRef .tc Cert.ReferenceIdeal.main_v179) := by
  simp only [Cert.KernelIdeal.Gen.hostOps3, Cert.ReferenceIdeal.RefRun.ops3b]
  after_results_simp
  simp only [hy]
  try rfl

set_option maxHeartbeats 4000000 in
theorem cpVar_2 (hy : VK (Proc.devRef .tc Cert.KernelIdeal.main_v150) = VR (Proc.devRef .tc Cert.ReferenceIdeal.main_v176)) :
    after (Cert.KernelIdeal.Gen.hostOps3_1 (F := Ideal)) (after (Cert.KernelIdeal.Gen.hostOps3 (F := Ideal)) VK) (Proc.devRef .tc Cert.KernelIdeal.main_v155) = after (Cert.ReferenceIdeal.RefRun.ops3b (F := Ideal)) VR (Proc.devRef .tc Cert.ReferenceIdeal.main_v180) := by
  simp only [Cert.KernelIdeal.Gen.hostOps3, Cert.KernelIdeal.Gen.hostOps3_1, Cert.ReferenceIdeal.RefRun.ops3b]
  after_results_simp
  simp only [hy]
  try rfl

/-! ## The reference's side -/

set_option maxHeartbeats 2000000 in
/-- The reference's normalised array from its own column means and variances. -/
theorem ref_h2 :
    (after (Cert.ReferenceIdeal.RefRun.ops3b (F := Ideal)) VR (Proc.devRef .tc Cert.ReferenceIdeal.main_v195) : FVec Ideal Cert.ReferenceIdeal.S50000x128 .f32)
      = Cert.Proof.Laws.refBn (VR (Proc.devRef .tc Cert.ReferenceIdeal.main_v176)) (after (Cert.ReferenceIdeal.RefRun.ops3b (F := Ideal)) VR (Proc.devRef .tc Cert.ReferenceIdeal.main_v179)) (after (Cert.ReferenceIdeal.RefRun.ops3b (F := Ideal)) VR (Proc.devRef .tc Cert.ReferenceIdeal.main_v180))
          (VR (Proc.devRef .tc Cert.ReferenceIdeal.main_arg8)) (VR (Proc.devRef .tc Cert.ReferenceIdeal.main_arg9)) := by
  unfold Cert.Proof.Laws.refBn
  simp only [Cert.ReferenceIdeal.RefRun.ops3b]
  after_results_simp
  try rfl

/-! ## The stage -/

theorem stage_h2 (hy : VK (Proc.devRef .tc Cert.KernelIdeal.main_v150) = VR (Proc.devRef .tc Cert.ReferenceIdeal.main_v176))
    (h8 : VK (Proc.devRef .tc Cert.KernelIdeal.main_arg8) = VR (Proc.devRef .tc Cert.ReferenceIdeal.main_arg8)) (h9 : VK (Proc.devRef .tc Cert.KernelIdeal.main_arg9) = VR (Proc.devRef .tc Cert.ReferenceIdeal.main_arg9)) :
    Cert.KernelIdeal.Val.bn3 (after (Cert.KernelIdeal.Gen.hostOps3_2 (F := Ideal)) (after (Cert.KernelIdeal.Gen.hostOps3_1 (F := Ideal)) (after (Cert.KernelIdeal.Gen.hostOps3 (F := Ideal)) VK)) (Proc.devRef .tc Cert.KernelIdeal.main_v150)) (after (Cert.KernelIdeal.Gen.hostOps3_2 (F := Ideal)) (after (Cert.KernelIdeal.Gen.hostOps3_1 (F := Ideal)) (after (Cert.KernelIdeal.Gen.hostOps3 (F := Ideal)) VK)) (Proc.devRef .tc Cert.KernelIdeal.main_v154)) (after (Cert.KernelIdeal.Gen.hostOps3_2 (F := Ideal)) (after (Cert.KernelIdeal.Gen.hostOps3_1 (F := Ideal)) (after (Cert.KernelIdeal.Gen.hostOps3 (F := Ideal)) VK)) (Proc.devRef .tc Cert.KernelIdeal.main_v156)) (after (Cert.KernelIdeal.Gen.hostOps3_2 (F := Ideal)) (after (Cert.KernelIdeal.Gen.hostOps3_1 (F := Ideal)) (after (Cert.KernelIdeal.Gen.hostOps3 (F := Ideal)) VK)) (Proc.devRef .tc Cert.KernelIdeal.main_v157)) (after (Cert.KernelIdeal.Gen.hostOps3_2 (F := Ideal)) (after (Cert.KernelIdeal.Gen.hostOps3_1 (F := Ideal)) (after (Cert.KernelIdeal.Gen.hostOps3 (F := Ideal)) VK)) (Proc.devRef .tc Cert.KernelIdeal.main_v158))
      = after (Cert.ReferenceIdeal.RefRun.ops3b (F := Ideal)) VR (Proc.devRef .tc Cert.ReferenceIdeal.main_v195) := by
  rw [k150_2, k154_2, k156_2, k157_2, k158_2, ref_h2, ← cpMean_2 VK VR hy, ← cpVar_2 VK VR hy, ← hy, ← h8, ← h9]
  exact Cert.Proof.Laws.bn_arrays _ _ _ _ _

end Cert.Proof.Sim

end
-- ==== Proof.KIV5.lean ====
/- What region 5 (the third batch normalisation) leaves in its output array, at the extended reals: entry (r, q) is (y[r, q] - mean[0, q]) * rsqrt(var[0, q] + eps) * scale[0, q] + shift[0, q]; the 25 tiles cover the array.
-/
import proofs.«133509_j41223096107483_1_alg».proof.Proof.KIR5
import proofs.«133509_j41223096107483_1_alg».proof.Proof.KIVCommon
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)

/-- The body's stored value at row p, column q of a tile. -/
theorem pay5_apply (y : Vec Ideal S2000x128 .f32) (mu va ga be : Vec Ideal S1x128 .f32) (p : Fin 2000) (q : Fin 128) :
    k5_pay1 (F := Ideal) y mu va ga be (ix2 p q)
      = bnEntry (y (ix2 p q)) (mu (ix2 0 q)) (va (ix2 0 q)) (ga (ix2 0 q)) (be (ix2 0 q)) := by
  unfold k5_pay1 bnEntry
  try dsimp only
  simp only [shapeCast_self]
  simp only [addf, mulf, subf, rsqrt, broadcast, broadcastTo_1b_ab_apply]

/-- The index maps over the 25 grid points: the activation window and the output window sit at tile t, the four
    row windows at the origin. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The whole array's entry. -/
def bn5 (y : Vec Ideal S50000x128 .f32) (mu va ga be : Vec Ideal S1x128 .f32) : Vec Ideal S50000x128 .f32 := fun i =>
  bnEntry (y i) (mu (ix2 0 (⟨(i 1).val, idx2_lt1 i⟩ : Fin 128))) (va (ix2 0 (⟨(i 1).val, idx2_lt1 i⟩ : Fin 128)))
    (ga (ix2 0 (⟨(i 1).val, idx2_lt1 i⟩ : Fin 128))) (be (ix2 0 (⟨(i 1).val, idx2_lt1 i⟩ : Fin 128)))

/-- A tile's stored value is the whole array's entry, once the tile's entry is the array's. -/
theorem tile_eq5 (x : Vec Ideal S2000x128 .f32) (mu va ga be : Vec Ideal S1x128 .f32)
    (y : Vec Ideal S50000x128 .f32) (p : Fin 2000) (q : Fin 128) (i : S50000x128.Idx)
    (hq : (i 1).val = q.val) (hx : x (ix2 p q) = y i) :
    k5_pay1 (F := Ideal) x mu va ga be (ix2 p q) = bn5 y mu va ga be i := by
  rw [pay5_apply]
  unfold bn5
  have hq' : (⟨(i 1).val, idx2_lt1 i⟩ : Fin 128) = q := Fin.ext hq
  rw [hq', hx]

variable (V : (c : Dev nD) → (b : Ref sig .tc) → Buf (Elt Ideal) ((c : Thread nD τ).loc b))

/-- A row window's tile is the whole row, at every point. -/
theorem iblk5_1 (c : Dev nD) (t : Fin cfg5.N) (y : S1x128.Idx) : iblk5 V c 1 t y = V c main_v219 y := by
  obtain ⟨e0, e1, e2, e3, e4, e5, e6, e7, e8, e9, e10, e11⟩ := idx_facts5 t
  show V c (Pipeline.arrRef spec5 1) (((cfg5.win 1).blk t).view.emb y) = V c main_v219 y
  refine congrArg (V c main_v219) (funext fun a => Fin.ext ?_)
  match a with
  | ⟨0, _⟩ => show win5_1.index t (0 : Fin 2) * 1 + 1 * (y 0).val = (y 0).val; omega
  | ⟨1, _⟩ => show win5_1.index t (1 : Fin 2) * 128 + 1 * (y 1).val = (y 1).val; omega
theorem iblk5_2 (c : Dev nD) (t : Fin cfg5.N) (y : S1x128.Idx) : iblk5 V c 2 t y = V c main_v221 y := by
  obtain ⟨e0, e1, e2, e3, e4, e5, e6, e7, e8, e9, e10, e11⟩ := idx_facts5 t
  show V c (Pipeline.arrRef spec5 2) (((cfg5.win 2).blk t).view.emb y) = V c main_v221 y
  refine congrArg (V c main_v221) (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega
theorem iblk5_3 (c : Dev nD) (t : Fin cfg5.N) (y : S1x128.Idx) : iblk5 V c 3 t y = V c main_v222 y := by
  obtain ⟨e0, e1, e2, e3, e4, e5, e6, e7, e8, e9, e10, e11⟩ := idx_facts5 t
  show V c (Pipeline.arrRef spec5 3) (((cfg5.win 3).blk t).view.emb y) = V c main_v222 y
  refine congrArg (V c main_v222) (funext fun a => Fin.ext ?_)
  match a with
  | ⟨0, _⟩ => show win5_3.index t (0 : Fin 2) * 1 + 1 * (y 0).val = (y 0).val; omega
  | ⟨1, _⟩ => show win5_3.index t (1 : Fin 2) * 128 + 1 * (y 1).val = (y 1).val; omega
theorem iblk5_4 (c : Dev nD) (t : Fin cfg5.N) (y : S1x128.Idx) : iblk5 V c 4 t y = V c main_v223 y := by
  obtain ⟨e0, e1, e2, e3, e4, e5, e6, e7, e8, e9, e10, e11⟩ := idx_facts5 t
  show V c (Pipeline.arrRef spec5 4) (((cfg5.win 4).blk t).view.emb y) = V c main_v223 y
  refine congrArg (V c main_v223) (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- What point t writes back is tile t of the whole array's function. -/
theorem flushed5_eq (c : Dev nD) (t : Fin cfg5.N) :
    (dat5 V c).flushed 5 t
      = ((cfg5.win 5).blk t).view.read (Elt Ideal) (bn5 (V c main_v215) (V c main_v219)
          (V c main_v221) (V c main_v222) (V c main_v223)) := by
  obtain ⟨e0, e1, e2, e3, e4, e5, e6, e7, e8, e9, e10, e11⟩ := idx_facts5 t
  show (cfg5.win 5).cut (grid5.coords t) ((dat5 V c).after 5 t) = _
  rw [after5_5]
  unfold out5
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  show k5_pay1 (F := Ideal) (iblk5 V c 0 t) (iblk5 V c 1 t) (iblk5 V c 2 t) (iblk5 V c 3 t) (iblk5 V c 4 t) (ix2 p q)
    = bn5 (V c main_v215) (V c main_v219) (V c main_v221)
        (V c main_v222) (V c main_v223) (((cfg5.win 5).blk t).view.emb (ix2 p q))
  rw [show (iblk5 V c 1 t : Vec Ideal S1x128 .f32) = V c main_v219 from funext (iblk5_1 V c t),
    show (iblk5 V c 2 t : Vec Ideal S1x128 .f32) = V c main_v221 from funext (iblk5_2 V c t),
    show (iblk5 V c 3 t : Vec Ideal S1x128 .f32) = V c main_v222 from funext (iblk5_3 V c t),
    show (iblk5 V c 4 t : Vec Ideal S1x128 .f32) = V c main_v223 from funext (iblk5_4 V c t)]
  refine tile_eq5 _ _ _ _ _ _ p q _ ?_ ?_
  · show win5_5.index t (1 : Fin 2) * 128 + 1 * q.val = q.val; omega
  · show V c (Pipeline.arrRef spec5 0) (((cfg5.win 0).blk t).view.emb (ix2 p q)) = V c main_v215 _
    refine congrArg (V c main_v215) (funext fun a => Fin.ext ?_)
    match a with
    | ⟨0, _⟩ => show win5_0.index t (0 : Fin 2) * 2000 + 1 * p.val = win5_5.index t (0 : Fin 2) * 2000 + 1 * p.val; omega
    | ⟨1, _⟩ => show win5_0.index t (1 : Fin 2) * 128 + 1 * q.val = win5_5.index t (1 : Fin 2) * 128 + 1 * q.val; omega

/-- An index of the array is in point t's tile iff each coordinate is in the tile's range on its axis. -/
theorem mem_blk5 (t : Fin cfg5.N) (i : S50000x128.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole main_v224).slice (win5_5.rect t)).set ↔ _
  rw [View.set_slice_whole, Rect.mem_set_unit]
  exact Iff.rfl

/-- Every row lies in the tile of the grid point row / 2000. -/
theorem cover5 (i : S50000x128.Idx) : ∃ t : Fin cfg5.N, (cfg5.win 5).flush t = true ∧ i ∈ ((cfg5.win 5).blk t).view.set := by
  have hi0 : (i 0).val < 50000 := idx2_lt0 i
  have hi1 : (i 1).val < 128 := idx2_lt1 i
  have hN : cfg5.N = 25 := N_5
  let t : Fin cfg5.N := ⟨(i 0).val / 2000, by rw [hN]; omega⟩
  obtain ⟨e0, e1, e2, e3, e4, e5, e6, e7, e8, e9, e10, e11⟩ := idx_facts5 t
  have ht : t.val = (i 0).val / 2000 := rfl
  refine ⟨t, flush5_5 t, ?_⟩
  rw [mem_blk5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 128 ≤ (i 1).val ∧ (i 1).val < win5_5.index t (1 : Fin 2) * 128 + 128; omega

/-- THE ARRAY after region 3: the normalisation of the activations by the four rows the region was entered with. -/
theorem final5 (c : Dev nD) :
    (dat5 V c).arrAt 5 cfg5.N = bn5 (V c main_v215) (V c main_v219)
      (V c main_v221) (V c main_v222) (V c main_v223) :=
  (dat5 V c).arrAt_eq_of_cover 5 _ (fun t _ => flushed5_eq V c t) cover5

end Cert.KernelIdeal.Val

end
-- ==== Proof.SimH3.lean ====
/- The third layer's batch normalisation, the two programs side by side over any contents VK, VR of their buffers
  that agree on the layer's activations and on the scale and shift vectors: the column means and variances are the
  same host chains in both programs; the kernel program lays the four vectors out as rows and runs its region, the
  reference spreads them over the rows by host operations; the normalisation law for whole arrays joins the two.
-/
import proofs.«133509_j41223096107483_1_alg».proof.Proof.RefCuts
import proofs.«133509_j41223096107483_1_alg».proof.Proof.KICuts
import proofs.«133509_j41223096107483_1_alg».proof.Proof.KIFrame
import proofs.«133509_j41223096107483_1_alg».proof.Proof.BnArr
import proofs.«133509_j41223096107483_1_alg».proof.Proof.KIV5

set_option maxRecDepth 16384

noncomputable section

namespace Cert.Proof.Sim

open Idealize.ShloMosaic Idealize.ShloMosaic.TcCoe Idealize.SL.Sem Idealize.ShloMosaic.StableHlo

variable (VK : Valuation Cert.KernelIdeal.τ Cert.KernelIdeal.sig (Elt Ideal)) (VR : Valuation Cert.ReferenceIdeal.τ Cert.ReferenceIdeal.sig (Elt Ideal))

/-! ## The kernel program's side: the activations kept, the four vectors laid out as rows -/

theorem k150_3 : after (Cert.KernelIdeal.Gen.hostOps5_2 (F := Ideal)) (after (Cert.KernelIdeal.Gen.hostOps5_1 (F := Ideal)) (after (Cert.KernelIdeal.Gen.hostOps5 (F := Ideal)) VK)) (Proc.devRef .tc Cert.KernelIdeal.main_v215) = VK (Proc.devRef .tc Cert.KernelIdeal.main_v215) := by
  rw [StableHlo.after_of_writes_sub _ _ Cert.KernelIdeal.Frm.hostOps5_2_writes (by decide : (Cert.KernelIdeal.main_v215) ∉ Cert.KernelIdeal.Frm.hostOps5_2_W),
    StableHlo.after_of_writes_sub _ _ Cert.KernelIdeal.Frm.hostOps5_1_writes (by decide : (Cert.KernelIdeal.main_v215) ∉ Cert.KernelIdeal.Frm.hostOps5_1_W),
    StableHlo.after_of_writes_sub _ _ Cert.KernelIdeal.Frm.hostOps5_writes (by decide : (Cert.KernelIdeal.main_v215) ∉ Cert.KernelIdeal.Frm.hostOps5_W)]

set_option maxHeartbeats 1000000 in
theorem k154_3 :
    (after (Cert.KernelIdeal.Gen.hostOps5_2 (F := Ideal)) (after (Cert.KernelIdeal.Gen.hostOps5_1 (F := Ideal)) (after (Cert.KernelIdeal.Gen.hostOps5 (F := Ideal)) VK)) (Proc.devRef .tc Cert.KernelIdeal.main_v219) : FVec Ideal Cert.KernelIdeal.S1x128 .f32)
      = shapeCast Cert.KernelIdeal.S1x128 (after (Cert.KernelIdeal.Gen.hostOps5 (F := Ideal)) VK (Proc.devRef .tc Cert.KernelIdeal.main_v218) : FVec Ideal Cert.KernelIdeal.S128 .f32) Cert.KernelIdeal.Gen.shapeCasts_S128_S1x128 := by
  simp only [Cert.KernelIdeal.Gen.hostOps5, Cert.KernelIdeal.Gen.hostOps5_1, Cert.KernelIdeal.Gen.hostOps5_2]
  after_results_simp
  try rfl

set_option maxHeartbeats 2000000 in
theorem k156_3 :
    (after (Cert.KernelIdeal.Gen.hostOps5_2 (F := Ideal)) (after (Cert.KernelIdeal.Gen.hostOps5_1 (F := Ideal)) (after (Cert.KernelIdeal.Gen.hostOps5 (F := Ideal)) VK)) (Proc.devRef .tc Cert.KernelIdeal.main_v221) : FVec Ideal Cert.KernelIdeal.S1x128 .f32)
      = shapeCast Cert.KernelIdeal.S1x128 (after (Cert.KernelIdeal.Gen.hostOps5_1 (F := Ideal)) (after (Cert.KernelIdeal.Gen.hostOps5 (F := Ideal)) VK) (Proc.devRef .tc Cert.KernelIdeal.main_v220) : FVec Ideal Cert.KernelIdeal.S128 .f32) Cert.KernelIdeal.Gen.shapeCasts_S128_S1x128 := by
  simp only [Cert.KernelIdeal.Gen.hostOps5, Cert.KernelIdeal.Gen.hostOps5_1, Cert.KernelIdeal.Gen.hostOps5_2]
  after_results_simp
  try rfl

set_option maxHeartbeats 1000000 in
theorem k157_3 :
    (after (Cert.KernelIdeal.Gen.hostOps5_2 (F := Ideal)) (after (Cert.KernelIdeal.Gen.hostOps5_1 (F := Ideal)) (after (Cert.KernelIdeal.Gen.hostOps5 (F := Ideal)) VK)) (Proc.devRef .tc Cert.KernelIdeal.main_v222) : FVec Ideal Cert.KernelIdeal.S1x128 .f32)
      = shapeCast Cert.KernelIdeal.S1x128 (VK (Proc.devRef .tc Cert.KernelIdeal.main_arg12) : FVec Ideal Cert.KernelIdeal.S128 .f32) Cert.KernelIdeal.Gen.shapeCasts_S128_S1x128 := by
  simp only [Cert.KernelIdeal.Gen.hostOps5, Cert.KernelIdeal.Gen.hostOps5_1, Cert.KernelIdeal.Gen.hostOps5_2]
  after_results_simp
  try rfl

set_option maxHeartbeats 1000000 in
theorem k158_3 :
    (after (Cert.KernelIdeal.Gen.hostOps5_2 (F := Ideal)) (after (Cert.KernelIdeal.Gen.hostOps5_1 (F := Ideal)) (after (Cert.KernelIdeal.Gen.hostOps5 (F := Ideal)) VK)) (Proc.devRef .tc Cert.KernelIdeal.main_v223) : FVec Ideal Cert.KernelIdeal.S1x128 .f32)
      = shapeCast Cert.KernelIdeal.S1x128 (VK (Proc.devRef .tc Cert.KernelIdeal.main_arg13) : FVec Ideal Cert.KernelIdeal.S128 .f32) Cert.KernelIdeal.Gen.shapeCasts_S128_S1x128 := by
  simp only [Cert.KernelIdeal.Gen.hostOps5, Cert.KernelIdeal.Gen.hostOps5_1, Cert.KernelIdeal.Gen.hostOps5_2]
  after_results_simp
  try rfl

/-! ## The column means and variances: the same host chains in both programs -/

set_option maxHeartbeats 1000000 in
theorem cpMean_3 (hy : VK (Proc.devRef .tc Cert.KernelIdeal.main_v215) = VR (Proc.devRef .tc Cert.ReferenceIdeal.main_v259)) :
    after (Cert.KernelIdeal.Gen.hostOps5 (F := Ideal)) VK (Proc.devRef .tc Cert.KernelIdeal.main_v218) = after (Cert.ReferenceIdeal.RefRun.ops5b (F := Ideal)) VR (Proc.devRef .tc Cert.ReferenceIdeal.main_v262) := by
  simp only [Cert.KernelIdeal.Gen.hostOps5, Cert.ReferenceIdeal.RefRun.ops5b]
  after_results_simp
  simp only [hy]
  try rfl

set_option maxHeartbeats 4000000 in
theorem cpVar_3 (hy : VK (Proc.devRef .tc Cert.KernelIdeal.main_v215) = VR (Proc.devRef .tc Cert.ReferenceIdeal.main_v259)) :
    after (Cert.KernelIdeal.Gen.hostOps5_1 (F := Ideal)) (after (Cert.KernelIdeal.Gen.hostOps5 (F := Ideal)) VK) (Proc.devRef .tc Cert.KernelIdeal.main_v220) = after (Cert.ReferenceIdeal.RefRun.ops5b (F := Ideal)) VR (Proc.devRef .tc Cert.ReferenceIdeal.main_v263) := by
  simp only [Cert.KernelIdeal.Gen.hostOps5, Cert.KernelIdeal.Gen.hostOps5_1, Cert.ReferenceIdeal.RefRun.ops5b]
  after_results_simp
  simp only [hy]
  try rfl

/-! ## The reference's side -/

set_option maxHeartbeats 2000000 in
/-- The reference's normalised array from its own column means and variances. -/
theorem ref_h3 :
    (after (Cert.ReferenceIdeal.RefRun.ops5b (F := Ideal)) VR (Proc.devRef .tc Cert.ReferenceIdeal.main_v278) : FVec Ideal Cert.ReferenceIdeal.S50000x128 .f32)
      = Cert.Proof.Laws.refBn (VR (Proc.devRef .tc Cert.ReferenceIdeal.main_v259)) (after (Cert.ReferenceIdeal.RefRun.ops5b (F := Ideal)) VR (Proc.devRef .tc Cert.ReferenceIdeal.main_v262)) (after (Cert.ReferenceIdeal.RefRun.ops5b (F := Ideal)) VR (Proc.devRef .tc Cert.ReferenceIdeal.main_v263))
          (VR (Proc.devRef .tc Cert.ReferenceIdeal.main_arg12)) (VR (Proc.devRef .tc Cert.ReferenceIdeal.main_arg13)) := by
  unfold Cert.Proof.Laws.refBn
  simp only [Cert.ReferenceIdeal.RefRun.ops5b]
  after_results_simp
  try rfl

/-! ## The stage -/

theorem stage_h3 (hy : VK (Proc.devRef .tc Cert.KernelIdeal.main_v215) = VR (Proc.devRef .tc Cert.ReferenceIdeal.main_v259))
    (h8 : VK (Proc.devRef .tc Cert.KernelIdeal.main_arg12) = VR (Proc.devRef .tc Cert.ReferenceIdeal.main_arg12)) (h9 : VK (Proc.devRef .tc Cert.KernelIdeal.main_arg13) = VR (Proc.devRef .tc Cert.ReferenceIdeal.main_arg13)) :
    Cert.KernelIdeal.Val.bn5 (after (Cert.KernelIdeal.Gen.hostOps5_2 (F := Ideal)) (after (Cert.KernelIdeal.Gen.hostOps5_1 (F := Ideal)) (after (Cert.KernelIdeal.Gen.hostOps5 (F := Ideal)) VK)) (Proc.devRef .tc Cert.KernelIdeal.main_v215)) (after (Cert.KernelIdeal.Gen.hostOps5_2 (F := Ideal)) (after (Cert.KernelIdeal.Gen.hostOps5_1 (F := Ideal)) (after (Cert.KernelIdeal.Gen.hostOps5 (F := Ideal)) VK)) (Proc.devRef .tc Cert.KernelIdeal.main_v219)) (after (Cert.KernelIdeal.Gen.hostOps5_2 (F := Ideal)) (after (Cert.KernelIdeal.Gen.hostOps5_1 (F := Ideal)) (after (Cert.KernelIdeal.Gen.hostOps5 (F := Ideal)) VK)) (Proc.devRef .tc Cert.KernelIdeal.main_v221)) (after (Cert.KernelIdeal.Gen.hostOps5_2 (F := Ideal)) (after (Cert.KernelIdeal.Gen.hostOps5_1 (F := Ideal)) (after (Cert.KernelIdeal.Gen.hostOps5 (F := Ideal)) VK)) (Proc.devRef .tc Cert.KernelIdeal.main_v222)) (after (Cert.KernelIdeal.Gen.hostOps5_2 (F := Ideal)) (after (Cert.KernelIdeal.Gen.hostOps5_1 (F := Ideal)) (after (Cert.KernelIdeal.Gen.hostOps5 (F := Ideal)) VK)) (Proc.devRef .tc Cert.KernelIdeal.main_v223))
      = after (Cert.ReferenceIdeal.RefRun.ops5b (F := Ideal)) VR (Proc.devRef .tc Cert.ReferenceIdeal.main_v278) := by
  rw [k150_3, k154_3, k156_3, k157_3, k158_3, ref_h3, ← cpMean_3 VK VR hy, ← cpVar_3 VK VR hy, ← hy, ← h8, ← h9]
  exact Cert.Proof.Laws.bn_arrays _ _ _ _ _

end Cert.Proof.Sim

end
-- ==== Proof.SimOut.lean ====
/-
  The head (the last region of the kernel program), the two programs side by side at the extended reals. Each row of
  the 50000×128 activations is divided by the larger of its Euclidean norm and 1e-12; the normalised rows are multiplied
  by the 128×3 weight and the bias row is added. First what the region leaves in its output array, in closed form
  (entry (n, q) = Σ_k (h[n,k] / max(sqrt(Σ_j h[n,j]·h[n,j]), ε)) · w[k,q] + b[0,q]: row n lies in the tile of grid
  point n / 2000, and the 25 tiles cover the array); then the same entry read off the reference's host operations;
  then the stage: over any contents of the two programs' buffers that agree on the activations, the weight and the
  bias, the region's array is the reference's result.
-/
import proofs.«133509_j41223096107483_1_alg».proof.Proof.RefCuts
import proofs.«133509_j41223096107483_1_alg».proof.Proof.KICuts
import proofs.«133509_j41223096107483_1_alg».proof.Proof.KIFrame
import proofs.«133509_j41223096107483_1_alg».proof.Proof.KIR7
import proofs.«133509_j41223096107483_1_alg».proof.Proof.KIVCommon
import proofs.«133509_j41223096107483_1_alg».proof.Proof.LibMatmulEntry
import proofs.«133509_j41223096107483_1_alg».proof.Proof.LibDotGeneralEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)
open scoped BigOperators

/-- The index over (n) whose coordinate on the summed axis is k, for a sum over the columns of an N×C array: (n, k). -/
theorem lift_row {N C : Nat} (h : Shape.Reduces (⟨2, ![N, C]⟩ : Shape) [(1 : Fin 2)] (⟨1, ![N]⟩ : Shape))
    (j : (⟨1, ![N]⟩ : Shape).Idx) (k : Fin C) : h.lift j k = ix2 (j 0) k := by
  funext c
  refine Fin.ext ?_
  match c with
  | ⟨0, _⟩ => rfl
  | ⟨1, _⟩ => rfl

/-- The divisor of a row: the larger of the square root of the row's sum of squares and 1e-12 (its binary value). -/
def rowDen {N : Nat} (h : (⟨2, ![N, 128]⟩ : Shape).Idx → Elt Ideal .f32) (n : Fin N) : Elt Ideal .f32 :=
  max (Ideal.sqrt (∑ j : Fin 128, h (ix2 n j) * h (ix2 n j))) (Ideal.ofBits .f32 0x2B8CBCCC#32)

/-- The sum of squares of row p of a tile. -/
theorem rowsum7 (x : FVec Ideal S2000x128 .f32) (p : Fin 2000) :
    multiReduction .add [1] S2000 (mulf x x) 0x00000000#32 reduces_S2000x128_S2000 (.inl rfl) rfl (ix1 p)
      = ∑ j : Fin 128, x (ix2 p j) * x (ix2 p j) := by
  refine (Ideal.multiReduction_add_single (mulf x x) _ reduces_S2000x128_S2000 _ _ (ix1 p)).trans ?_
  refine Finset.sum_congr rfl fun k _ => ?_
  exact congrArg (mulf x x) (lift_row (N := 2000) (C := 128) reduces_S2000x128_S2000 (ix1 p) k)

/-- The kernel's product of a tile with the weight into zero, at (p, q). -/
theorem mm7 (a : FVec Ideal S2000x128 .bf16) (w : FVec Ideal S128x3 .bf16) (p : Fin 2000) (q : Fin 3) :
    matmul (F := Ideal) dot_S2000x128_S128x3_S2000x3_1_0_0_1_n_n none a w (constant S2000x3 .f32 0x00000000#32) (ix2 p q)
      = ∑ k : Fin 128, a (ix2 p k) * w (ix2 k q) :=
  Ideal.matmul_rows_cols dot_S2000x128_S128x3_S2000x3_1_0_0_1_n_n rfl rfl rfl rfl rfl rfl none a w p q

/-- The tile's row sums of squares, as a column, under the square root, against the 1e-12 column, spread over the
    tile's columns: at (p, k) it is the divisor of row p. -/
theorem den7_apply (x : FVec Ideal S2000x128 .f32) (p : Fin 2000) (k : Fin 128) :
    broadcastTo S2000x128 (maximumf (sqrt (shapeCast S2000x1
        (multiReduction .add [1] S2000 (mulf x x) 0x00000000#32 reduces_S2000x128_S2000 (.inl rfl) rfl) shapeCasts_S2000_S2000x1))
      (broadcast S2000x1 (Scalar.ofBits (F := Ideal) .f32 0x2B8CBCCC#32))) broadcasts_S2000x1_S2000x128 (ix2 p k)
      = rowDen (N := 2000) x p := by
  refine (broadcastTo_apply _ _ _ (ix2 p (0 : Fin 1)) fun a => ?_).trans ?_
  · match a with
    | ⟨0, _⟩ => rfl
    | ⟨1, _⟩ => rfl
  rw [maximumf_apply, broadcast_apply]
  show max (Ideal.sqrt (shapeCast S2000x1 _ shapeCasts_S2000_S2000x1 (ix2 p (0 : Fin 1)))) _ = _
  rw [shapeCast_apply _ shapeCasts_S2000_S2000x1 (ix2 p (0 : Fin 1)) (ix1 p)
      (by rw [Shape.rowMajor_val_one, Shape.rowMajor_val_two]; show p.val = p.val * 1 + 0; omega)]
  exact congrArg (fun s => max (Ideal.sqrt s) (Ideal.ofBits .f32 0x2B8CBCCC#32)) (rowsum7 x p)

/-- The body's stored value at row p, column q of a tile: the row p of the tile over its divisor, times column q of
    the weight, plus the bias at q. -/
theorem pay7_apply (x : FVec Ideal S2000x128 .f32) (w : FVec Ideal S128x3 .bf16) (b : FVec Ideal S1x3 .f32)
    (p : Fin 2000) (q : Fin 3) :
    k7_pay1 (F := Ideal) x w b (ix2 p q)
      = (∑ k : Fin 128, Ideal.div (x (ix2 p k)) (rowDen (N := 2000) x p) * w (ix2 k q)) + b (ix2 0 q) := by
  unfold k7_pay1
  try dsimp only
  simp only [shapeCast_self]
  rw [addf_apply, broadcastTo_1b_ab_apply, mm7]
  refine congrArg (· + b (ix2 0 q)) (Finset.sum_congr rfl fun k _ => ?_)
  exact congrArg (fun d => Ideal.div (x (ix2 p k)) d * w (ix2 k q)) (den7_apply x p k)

/-- The index maps over the 25 grid points: the activations' window and the output window sit at tile t, the weight
    and the bias windows at the origin. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The whole array's entry (n, q): row n of the activations over its divisor, times column q of the weight, plus
    the bias at q. -/
def head7 (h : Vec Ideal S50000x128 .f32) (w : Vec Ideal S128x3 .bf16) (b : Vec Ideal S1x3 .f32) :
    Vec Ideal S50000x3 .f32 := fun i =>
  (∑ k : Fin 128, Ideal.div (h (ix2 (⟨(i 0).val, idx2_lt0 i⟩ : Fin 50000) k)) (rowDen (N := 50000) h (⟨(i 0).val, idx2_lt0 i⟩ : Fin 50000))
      * w (ix2 k (⟨(i 1).val, idx2_lt1 i⟩ : Fin 3)))
    + b (ix2 0 (⟨(i 1).val, idx2_lt1 i⟩ : Fin 3))

/-- A tile's stored value is the whole array's entry, once the tile's rows are the array's rows. -/
theorem tile_eq7 (x : Vec Ideal S2000x128 .f32) (w : Vec Ideal S128x3 .bf16) (b : Vec Ideal S1x3 .f32)
    (a : Vec Ideal S50000x128 .f32) (p : Fin 2000) (q : Fin 3) (i : S50000x3.Idx)
    (hq : (i 1).val = q.val)
    (hx : ∀ k : Fin 128, x (ix2 p k) = a (ix2 (⟨(i 0).val, idx2_lt0 i⟩ : Fin 50000) k)) :
    k7_pay1 (F := Ideal) x w b (ix2 p q) = head7 a w b i := by
  rw [pay7_apply]
  unfold head7 rowDen
  have hq' : (⟨(i 1).val, idx2_lt1 i⟩ : Fin 3) = q := Fin.ext hq
  rw [hq']
  simp only [hx]

variable (V : (c : Dev nD) → (b : Ref sig .tc) → Buf (Elt Ideal) ((c : Thread nD τ).loc b))

/-- The weight window's tile is the whole weight, at every point. -/
theorem iblk7_1 (c : Dev nD) (t : Fin cfg7.N) (y : S128x3.Idx) : iblk7 V c 1 t y = V c main_v281 y := by
  obtain ⟨e0, e1, e2, e3, e4, e5, e6, e7⟩ := idx_facts7 t
  show V c (Pipeline.arrRef spec7 1) (((cfg7.win 1).blk t).view.emb y) = V c main_v281 y
  refine congrArg (V c main_v281) (funext fun a => Fin.ext ?_)
  match a with
  | ⟨0, _⟩ => show win7_1.index t (0 : Fin 2) * 128 + 1 * (y 0).val = (y 0).val; omega
  | ⟨1, _⟩ => show win7_1.index t (1 : Fin 2) * 3 + 1 * (y 1).val = (y 1).val; omega

/-- The bias window's tile is the whole bias row, at every point. -/
theorem iblk7_2 (c : Dev nD) (t : Fin cfg7.N) (y : S1x3.Idx) : iblk7 V c 2 t y = V c main_v282 y := by
  obtain ⟨e0, e1, e2, e3, e4, e5, e6, e7⟩ := idx_facts7 t
  show V c (Pipeline.arrRef spec7 2) (((cfg7.win 2).blk t).view.emb y) = V c main_v282 y
  refine congrArg (V c main_v282) (funext fun a => Fin.ext ?_)
  match a with
  | ⟨0, _⟩ => show win7_2.index t (0 : Fin 2) * 1 + 1 * (y 0).val = (y 0).val; omega
  | ⟨1, _⟩ => show win7_2.index t (1 : Fin 2) * 3 + 1 * (y 1).val = (y 1).val; omega

/-- What point t writes back is tile t of the whole array's function. -/
theorem flushed7_eq (c : Dev nD) (t : Fin cfg7.N) :
    (dat7 V c).flushed 3 t
      = ((cfg7.win 3).blk t).view.read (Elt Ideal) (head7 (V c main_v280) (V c main_v281) (V c main_v282)) := by
  obtain ⟨e0, e1, e2, e3, e4, e5, e6, e7⟩ := idx_facts7 t
  show (cfg7.win 3).cut (grid7.coords t) ((dat7 V c).after 3 t) = _
  rw [after7_3]
  unfold out7
  rw [View.canon_unit_zero hz]
  simp only [View.ld_unit_zero (S := S2000x128) hz, View.ld_unit_zero (S := S128x3) hz, View.ld_unit_zero (S := S1x3) hz]
  funext j
  obtain ⟨p, q, rfl⟩ : ∃ (p : Fin 2000) (q : Fin 3), j = ix2 p q := ⟨j 0, j 1, eq_ix2 j⟩
  show k7_pay1 (F := Ideal) (iblk7 V c 0 t) (iblk7 V c 1 t) (iblk7 V c 2 t) (ix2 p q)
    = head7 (V c main_v280) (V c main_v281) (V c main_v282) (((cfg7.win 3).blk t).view.emb (ix2 p q))
  rw [show (iblk7 V c 1 t : Vec Ideal S128x3 .bf16) = V c main_v281 from funext (iblk7_1 V c t),
    show (iblk7 V c 2 t : Vec Ideal S1x3 .f32) = V c main_v282 from funext (iblk7_2 V c t)]
  refine tile_eq7 _ _ _ _ p q _ ?_ ?_
  · show win7_3.index t (1 : Fin 2) * 3 + 1 * q.val = q.val; omega
  · intro k
    show V c (Pipeline.arrRef spec7 0) (((cfg7.win 0).blk t).view.emb (ix2 p k)) = V c main_v280 _
    refine congrArg (V c main_v280) (funext fun a => Fin.ext ?_)
    match a with
    | ⟨0, _⟩ => show win7_0.index t (0 : Fin 2) * 2000 + 1 * p.val = win7_3.index t (0 : Fin 2) * 2000 + 1 * p.val; omega
    | ⟨1, _⟩ => show win7_0.index t (1 : Fin 2) * 128 + 1 * k.val = k.val; omega

/-- An index of the array is in point t's tile iff each coordinate is in the tile's range on its axis. -/
theorem mem_blk7 (t : Fin cfg7.N) (i : S50000x3.Idx) :
    i ∈ ((cfg7.win 3).blk t).view.set ↔ ∀ a : Fin 2, win7_3.index t a * S2000x3.size a ≤ (i a).val ∧ (i a).val < win7_3.index t a * S2000x3.size a + S2000x3.size a := by
  show i ∈ ((View.whole (Pipeline.arrRef spec7 3)).slice (win7_3.rect t)).set ↔ _
  rw [View.set_slice_whole, Rect.mem_set_unit]
  exact Iff.rfl

/-- Every row lies in the tile of the grid point row / 2000. -/
theorem cover_out7 (i : S50000x3.Idx) : ∃ t : Fin cfg7.N, (cfg7.win 3).flush t = true ∧ i ∈ ((cfg7.win 3).blk t).view.set := by
  have hi0 : (i 0).val < 50000 := idx2_lt0 i
  have hi1 : (i 1).val < 3 := idx2_lt1 i
  have hN : cfg7.N = 25 := N_7
  let t : Fin cfg7.N := ⟨(i 0).val / 2000, by rw [hN]; omega⟩
  obtain ⟨e0, e1, e2, e3, e4, e5, e6, e7⟩ := idx_facts7 t
  have ht : t.val = (i 0).val / 2000 := rfl
  refine ⟨t, flush7_3 t, ?_⟩
  rw [mem_blk7]
  intro a
  match a with
  | ⟨0, _⟩ => show win7_3.index t (0 : Fin 2) * 2000 ≤ (i 0).val ∧ (i 0).val < win7_3.index t (0 : Fin 2) * 2000 + 2000; omega
  | ⟨1, _⟩ => show win7_3.index t (1 : Fin 2) * 3 ≤ (i 1).val ∧ (i 1).val < win7_3.index t (1 : Fin 2) * 3 + 3; omega

/-- THE ARRAY after region 7: the head of the activations, the weight and the bias the region was entered with. -/
theorem final7 (c : Dev nD) :
    (dat7 V c).arrAt 3 cfg7.N = head7 (V c main_v280) (V c main_v281) (V c main_v282) :=
  (dat7 V c).arrAt_eq_of_cover 3 _ (fun t _ => flushed7_eq V c t) cover_out7

end Cert.KernelIdeal.Val

namespace Cert.Proof.Sim

open Idealize.ShloMosaic Idealize.ShloMosaic.TcCoe Idealize.SL.Sem Idealize.ShloMosaic.StableHlo Idealize.ShloMosaic.ValueIdx
open scoped BigOperators

variable (VK : Valuation Cert.KernelIdeal.τ Cert.KernelIdeal.sig (Elt Ideal)) (VR : Valuation Cert.ReferenceIdeal.τ Cert.ReferenceIdeal.sig (Elt Ideal))

/-! ## The kernel program's side: the activations untouched, the weight narrowed, the bias as a row -/

theorem out_h :
    after (Cert.KernelIdeal.Gen.hostOps7 (F := Ideal)) VK (Proc.devRef .tc Cert.KernelIdeal.main_v280) = VK (Proc.devRef .tc Cert.KernelIdeal.main_v280) := by
  after_results_simp

theorem out_w :
    (after (Cert.KernelIdeal.Gen.hostOps7 (F := Ideal)) VK (Proc.devRef .tc Cert.KernelIdeal.main_v281) : FVec Ideal Cert.KernelIdeal.S128x3 .bf16)
      = truncf (F := Ideal) .bf16 (VK (Proc.devRef .tc Cert.KernelIdeal.main_arg16) : FVec Ideal Cert.KernelIdeal.S128x3 .f32) Cert.KernelIdeal.Gen.bitsLt_bf16_f32 := by
  after_results_simp

theorem out_b :
    (after (Cert.KernelIdeal.Gen.hostOps7 (F := Ideal)) VK (Proc.devRef .tc Cert.KernelIdeal.main_v282) : FVec Ideal Cert.KernelIdeal.S1x3 .f32)
      = shapeCast Cert.KernelIdeal.S1x3 (VK (Proc.devRef .tc Cert.KernelIdeal.main_arg17) : FVec Ideal Cert.KernelIdeal.S3 .f32) Cert.KernelIdeal.Gen.shapeCasts_S3_S1x3 := by
  after_results
  rfl

/-! ## The reference's side -/

/-- The reference's head of an array: the rows over their divisors (the host's sum of squares over the columns from
    zero, as a column, under the host's square root, against the 1e-12 column, spread over the columns), the host's
    product with the weight, plus the bias spread over the rows. -/
def refHead (h : FVec Ideal Cert.ReferenceIdeal.S50000x128 .f32) (W : FVec Ideal Cert.ReferenceIdeal.S128x3 .f32)
    (b : FVec Ideal Cert.ReferenceIdeal.S3 .f32) : FVec Ideal Cert.ReferenceIdeal.S50000x3 .f32 :=
  addf (Host.dotGeneral Cert.ReferenceIdeal.dot_S50000x128_S128x3_S50000x3_1_0_0_1_n_n none
      (Host.divf h (broadcastInDim Cert.ReferenceIdeal.S50000x128 ![0, 1] Cert.ReferenceIdeal.Gen.bcast_S50000x1_S50000x128_0_1
        (maximumf (Host.sqrt (broadcastInDim Cert.ReferenceIdeal.S50000x1 ![0] Cert.ReferenceIdeal.Gen.bcast_S50000_S50000x1_0
            (Host.reduceAdd (mulf h h) (constant (F := Ideal) Cert.ReferenceIdeal.S_ .f32 0x00000000#32)
              Cert.ReferenceIdeal.Gen.reducesTo_S50000x128_S50000_d1 Cert.ReferenceIdeal.Gen.h_S_)))
          (broadcastInDim Cert.ReferenceIdeal.S50000x1 ![] Cert.ReferenceIdeal.Gen.bcast_S_S50000x1
            (constant (F := Ideal) Cert.ReferenceIdeal.S_ .f32 0x2B8CBCCC#32))))) W)
    (broadcastInDim Cert.ReferenceIdeal.S50000x3 ![0, 1] Cert.ReferenceIdeal.Gen.bcast_S1x3_S50000x3_0_1
      (broadcastInDim Cert.ReferenceIdeal.S1x3 ![1] Cert.ReferenceIdeal.Gen.bcast_S3_S1x3_1 b))

set_option maxHeartbeats 2000000 in
/-- The reference's result from its activations, weight and bias. -/
theorem ref_out :
    (after (Cert.ReferenceIdeal.RefRun.ops6b (F := Ideal)) VR (Proc.devRef .tc Cert.ReferenceIdeal.main_v350) : FVec Ideal Cert.ReferenceIdeal.S50000x3 .f32)
      = refHead (VR (Proc.devRef .tc Cert.ReferenceIdeal.main_v341)) (VR (Proc.devRef .tc Cert.ReferenceIdeal.main_arg16))
          (VR (Proc.devRef .tc Cert.ReferenceIdeal.main_arg17)) := by
  unfold refHead
  simp only [Cert.ReferenceIdeal.RefRun.ops6b]
  after_results_simp
  rfl

/-! ## The reference's result at an entry -/

/-- The host's product of the rows with the 128×3 weight, at (n, q). -/
theorem dot3_apply (l : FVec Ideal Cert.ReferenceIdeal.S50000x128 .f32) (r : FVec Ideal Cert.ReferenceIdeal.S128x3 .f32)
    (n : Fin 50000) (q : Fin 3) :
    Host.dotGeneral (F := Ideal) Cert.ReferenceIdeal.dot_S50000x128_S128x3_S50000x3_1_0_0_1_n_n none l r (ix2 n q)
      = ∑ c : Fin 128, l (ix2 n c) * r (ix2 c q) := by
  simp only [Host.dotGeneral]
  exact Ideal.dotGeneral_rows_cols Cert.ReferenceIdeal.dot_S50000x128_S128x3_S50000x3_1_0_0_1_n_n rfl rfl rfl rfl rfl rfl none _ l r n q

/-- The bias spread over the rows, at (n, q). -/
theorem biasRows3_apply (b : FVec Ideal Cert.ReferenceIdeal.S3 .f32) (n : Fin 50000) (q : Fin 3) :
    broadcastInDim Cert.ReferenceIdeal.S50000x3 ![0, 1] Cert.ReferenceIdeal.Gen.bcast_S1x3_S50000x3_0_1
        (broadcastInDim Cert.ReferenceIdeal.S1x3 ![1] Cert.ReferenceIdeal.Gen.bcast_S3_S1x3_1 b) (ix2 n q)
      = b (ix1 q) := by
  refine (broadcastInDim_apply _ _ _ _ (ix2 (0 : Fin 1) q) fun a => ?_).trans
    (broadcastInDim_apply _ _ b _ (ix1 q) fun a => ?_)
  · match a with
    | ⟨0, _⟩ => rfl
    | ⟨1, _⟩ => rfl
  · match a with
    | ⟨0, _⟩ => rfl

/-- The host's square root and quotient of arrays, at an index. -/
theorem hostSqrt_apply {s : Shape} (x : FVec Ideal s .f32) (i : s.Idx) : Host.sqrt x i = Ideal.sqrt (x i) := rfl
theorem hostDivf_apply {s : Shape} (x y : FVec Ideal s .f32) (i : s.Idx) : Host.divf x y i = Ideal.div (x i) (y i) := rfl

/-- The host's sum of squares of row n, from zero. -/
theorem rowsumR (h : FVec Ideal Cert.ReferenceIdeal.S50000x128 .f32) (n : Fin 50000) :
    Host.reduceAdd (mulf h h) (constant (F := Ideal) Cert.ReferenceIdeal.S_ .f32 0x00000000#32)
        Cert.ReferenceIdeal.Gen.reducesTo_S50000x128_S50000_d1 Cert.ReferenceIdeal.Gen.h_S_ (ix1 n)
      = ∑ j : Fin 128, h (ix2 n j) * h (ix2 n j) := by
  have hR : Cert.ReferenceIdeal.S50000x128.Reduces [1] Cert.ReferenceIdeal.S50000 := by decide
  show Ideal.hostReduceAdd Cert.ReferenceIdeal.Gen.reducesTo_S50000x128_S50000_d1 (mulf h h) (Ideal.ofBits .f32 0x00000000#32) (ix1 n) = _
  refine (Ideal.hostReduceAdd_single Cert.ReferenceIdeal.Gen.reducesTo_S50000x128_S50000_d1 hR (mulf h h) _ (ix1 n)).trans ?_
  rw [Ideal.ofBits_zero_f32, zero_add]
  refine Finset.sum_congr rfl fun k _ => ?_
  exact congrArg (mulf h h) (Cert.KernelIdeal.Val.lift_row (N := 50000) (C := 128) hR (ix1 n) k)

/-- The reference's divisor array at (n, k): the divisor of row n. -/
theorem denR_apply (h : FVec Ideal Cert.ReferenceIdeal.S50000x128 .f32) (n : Fin 50000) (k : Fin 128) :
    broadcastInDim Cert.ReferenceIdeal.S50000x128 ![0, 1] Cert.ReferenceIdeal.Gen.bcast_S50000x1_S50000x128_0_1
        (maximumf (Host.sqrt (broadcastInDim Cert.ReferenceIdeal.S50000x1 ![0] Cert.ReferenceIdeal.Gen.bcast_S50000_S50000x1_0
            (Host.reduceAdd (mulf h h) (constant (F := Ideal) Cert.ReferenceIdeal.S_ .f32 0x00000000#32)
              Cert.ReferenceIdeal.Gen.reducesTo_S50000x128_S50000_d1 Cert.ReferenceIdeal.Gen.h_S_)))
          (broadcastInDim Cert.ReferenceIdeal.S50000x1 ![] Cert.ReferenceIdeal.Gen.bcast_S_S50000x1
            (constant (F := Ideal) Cert.ReferenceIdeal.S_ .f32 0x2B8CBCCC#32))) (ix2 n k)
      = Cert.KernelIdeal.Val.rowDen (N := 50000) h n := by
  refine (broadcastInDim_apply _ _ _ _ (ix2 n (0 : Fin 1)) fun a => ?_).trans ?_
  · match a with
    | ⟨0, _⟩ => rfl
    | ⟨1, _⟩ => rfl
  have e1 : broadcastInDim Cert.ReferenceIdeal.S50000x1 ![] Cert.ReferenceIdeal.Gen.bcast_S_S50000x1
        (constant (F := Ideal) Cert.ReferenceIdeal.S_ .f32 0x2B8CBCCC#32) (ix2 n (0 : Fin 1)) = Ideal.ofBits .f32 0x2B8CBCCC#32 :=
    broadcastInDim_apply _ _ _ _ ix0 fun a => a.elim0
  have e2 : Host.sqrt (broadcastInDim Cert.ReferenceIdeal.S50000x1 ![0] Cert.ReferenceIdeal.Gen.bcast_S50000_S50000x1_0
        (Host.reduceAdd (mulf h h) (constant (F := Ideal) Cert.ReferenceIdeal.S_ .f32 0x00000000#32)
          Cert.ReferenceIdeal.Gen.reducesTo_S50000x128_S50000_d1 Cert.ReferenceIdeal.Gen.h_S_)) (ix2 n (0 : Fin 1))
      = Ideal.sqrt (∑ j : Fin 128, h (ix2 n j) * h (ix2 n j)) := by
    rw [hostSqrt_apply, broadcastInDim_apply _ Cert.ReferenceIdeal.Gen.bcast_S50000_S50000x1_0 _ (ix2 n (0 : Fin 1)) (ix1 n)
      (fun a => by match a with | ⟨0, _⟩ => rfl), rowsumR]
  unfold Cert.KernelIdeal.Val.rowDen
  rw [maximumf_apply, e2, e1]

/-- The reference's result at (n, q): row n over its divisor, times column q of the weight, plus the bias at q. -/
theorem refHead_apply (h : FVec Ideal Cert.ReferenceIdeal.S50000x128 .f32) (W : FVec Ideal Cert.ReferenceIdeal.S128x3 .f32)
    (b : FVec Ideal Cert.ReferenceIdeal.S3 .f32) (n : Fin 50000) (q : Fin 3) :
    refHead h W b (ix2 n q)
      = (∑ k : Fin 128, Ideal.div (h (ix2 n k)) (Cert.KernelIdeal.Val.rowDen (N := 50000) h n) * W (ix2 k q)) + b (ix1 q) := by
  unfold refHead
  rw [addf_apply, biasRows3_apply, dot3_apply]
  refine congrArg (· + b (ix1 q)) (Finset.sum_congr rfl fun k _ => ?_)
  rw [hostDivf_apply, denR_apply]

/-- The bias as a row, at (0, q). -/
theorem rowB3_apply (b : FVec Ideal Cert.KernelIdeal.S3 .f32) (z : Fin 1) (q : Fin 3) :
    shapeCast Cert.KernelIdeal.S1x3 b Cert.KernelIdeal.Gen.shapeCasts_S3_S1x3 (ix2 z q) = b (ix1 q) := by
  refine shapeCast_apply b _ _ (ix1 q) ?_
  rw [Shape.rowMajor_val_one, Shape.rowMajor_val_two]
  show q.val = z.val * 3 + q.val
  have := z.isLt; omega

/-- THE HEAD, kernel against reference, as whole arrays. -/
theorem head_arrays (h : FVec Ideal Cert.KernelIdeal.S50000x128 .f32) (Wm : FVec Ideal Cert.KernelIdeal.S128x3 .f32)
    (bm : FVec Ideal Cert.KernelIdeal.S3 .f32) :
    Cert.KernelIdeal.Val.head7 h (truncf .bf16 Wm Cert.KernelIdeal.Gen.bitsLt_bf16_f32)
        (shapeCast Cert.KernelIdeal.S1x3 bm Cert.KernelIdeal.Gen.shapeCasts_S3_S1x3)
      = refHead h Wm bm := by
  funext i
  obtain ⟨n, q, rfl⟩ : ∃ (n : Fin 50000) (q : Fin 3), i = ix2 n q := ⟨i 0, i 1, eq_ix2 i⟩
  rw [refHead_apply]
  exact congrArg (fun t => (∑ k : Fin 128, Ideal.div (h (ix2 n k)) (Cert.KernelIdeal.Val.rowDen (N := 50000) h n) * Wm (ix2 k q)) + t)
    (rowB3_apply bm 0 q)

/-! ## The stage -/

/-- What the kernel program's last region computes from the contents after its host stretch is what the reference's
    operations leave in its result. -/
theorem stage_out (VK : Valuation Cert.KernelIdeal.τ Cert.KernelIdeal.sig (Elt Ideal)) (VR : Valuation Cert.ReferenceIdeal.τ Cert.ReferenceIdeal.sig (Elt Ideal))
    (hh : VK (Proc.devRef .tc Cert.KernelIdeal.main_v280) = VR (Proc.devRef .tc Cert.ReferenceIdeal.main_v341))
    (h16 : VK (Proc.devRef .tc Cert.KernelIdeal.main_arg16) = VR (Proc.devRef .tc Cert.ReferenceIdeal.main_arg16))
    (h17 : VK (Proc.devRef .tc Cert.KernelIdeal.main_arg17) = VR (Proc.devRef .tc Cert.ReferenceIdeal.main_arg17)) :
    Cert.KernelIdeal.Val.head7
        (after (Cert.KernelIdeal.Gen.hostOps7 (F := Ideal)) VK (Proc.devRef .tc Cert.KernelIdeal.main_v280))
        (after (Cert.KernelIdeal.Gen.hostOps7 (F := Ideal)) VK (Proc.devRef .tc Cert.KernelIdeal.main_v281))
        (after (Cert.KernelIdeal.Gen.hostOps7 (F := Ideal)) VK (Proc.devRef .tc Cert.KernelIdeal.main_v282))
      = after (Cert.ReferenceIdeal.RefRun.ops6b (F := Ideal)) VR (Proc.devRef .tc Cert.ReferenceIdeal.main_v350) := by
  rw [out_h, out_w, out_b, ref_out, ← hh, ← h16, ← h17]
  exact head_arrays _ _ _

end Cert.Proof.Sim

end
-- ==== Proof.SimChain.lean ====
/-
  THE VALUE EQUATION, assembled. From memories agreeing on the arguments the two programs are walked side by side
  through nine stages — the edge weights; each layer's activations and normalised output; the head — and at each
  stage the buffer the kernel program has just produced equals the reference's: the stage lemmas (SimW, SimL1 … SimL4,
  SimH1 … SimH3, SimOut) compare one stage over any contents agreeing on its inputs, the kernel regions' closed forms
  (KIV0 … KIV6, SimOut) say what a region leaves, and what a stage does not write it keeps.
-/
import proofs.«133509_j41223096107483_1_alg».proof.Proof.SimW
import proofs.«133509_j41223096107483_1_alg».proof.Proof.SimL1
import proofs.«133509_j41223096107483_1_alg».proof.Proof.SimL2
import proofs.«133509_j41223096107483_1_alg».proof.Proof.SimL3
import proofs.«133509_j41223096107483_1_alg».proof.Proof.SimL4
import proofs.«133509_j41223096107483_1_alg».proof.Proof.SimH1
import proofs.«133509_j41223096107483_1_alg».proof.Proof.SimH2
import proofs.«133509_j41223096107483_1_alg».proof.Proof.SimH3
import proofs.«133509_j41223096107483_1_alg».proof.Proof.SimOut
import proofs.«133509_j41223096107483_1_alg».proof.Proof.KIV1
import proofs.«133509_j41223096107483_1_alg».proof.Proof.KIV5

set_option maxRecDepth 16384

noncomputable section

namespace Cert.Proof.Sim

open Idealize.ShloMosaic Idealize.ShloMosaic.TcCoe Idealize.SL.Sem Idealize.ShloMosaic.StableHlo
open Cert.KernelIdeal.Frm

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The reference's contents stage by stage -/

abbrev R0 : Valuation Cert.ReferenceIdeal.τ Cert.ReferenceIdeal.sig (Elt Ideal) := StableHlo.launchContents m' c
abbrev Rw := after (Cert.ReferenceIdeal.RefRun.ops0a (F := Ideal)) ((R0 m' c))
abbrev Ry1 := after (Cert.ReferenceIdeal.RefRun.ops1a (F := Ideal)) (after (Cert.ReferenceIdeal.RefRun.ops0b (F := Ideal)) ((Rw m' c)))
abbrev Rh1 := after (Cert.ReferenceIdeal.RefRun.ops2a (F := Ideal)) (after (Cert.ReferenceIdeal.RefRun.ops1b (F := Ideal)) ((Ry1 m' c)))
abbrev Ry2 := after (Cert.ReferenceIdeal.RefRun.ops3a (F := Ideal)) (after (Cert.ReferenceIdeal.RefRun.ops2b (F := Ideal)) ((Rh1 m' c)))
abbrev Rh2 := after (Cert.ReferenceIdeal.RefRun.ops3b (F := Ideal)) ((Ry2 m' c))
abbrev Ry3 := after (Cert.ReferenceIdeal.RefRun.ops5a (F := Ideal)) (after (Cert.ReferenceIdeal.RefRun.ops4 (F := Ideal)) (after (Cert.ReferenceIdeal.RefRun.ops3c (F := Ideal)) ((Rh2 m' c))))
abbrev Rh3 := after (Cert.ReferenceIdeal.RefRun.ops5b (F := Ideal)) ((Ry3 m' c))
abbrev Rh4 := after (Cert.ReferenceIdeal.RefRun.ops6a (F := Ideal)) (after (Cert.ReferenceIdeal.RefRun.ops5c (F := Ideal)) ((Rh3 m' c)))
abbrev Rout := after (Cert.ReferenceIdeal.RefRun.ops6b (F := Ideal)) ((Rh4 m' c))

theorem after_ops_eq : after (Cert.ReferenceIdeal.RefRun.ops (F := Ideal)) (StableHlo.launchContents m' c) = Rout m' c := by
  simp only [Cert.ReferenceIdeal.RefRun.ops, Cert.ReferenceIdeal.RefRun.ops0_cut, Cert.ReferenceIdeal.RefRun.ops1_cut, Cert.ReferenceIdeal.RefRun.ops2_cut, Cert.ReferenceIdeal.RefRun.ops3_cut, Cert.ReferenceIdeal.RefRun.ops5_cut, Cert.ReferenceIdeal.RefRun.ops6_cut, StableHlo.after_append]

/-! ## What the stages keep, the reference's side -/

variable (r : Ref Cert.ReferenceIdeal.sig .tc)
theorem Rw_keep (h0 : r ∉ Cert.ReferenceIdeal.RefRun.ops0a_W := by decide) : Rw m' c (Proc.devRef .tc r) = R0 m' c (Proc.devRef .tc r) := Cert.ReferenceIdeal.RefRun.ops0a_keep _ r h0
theorem Ry1_keep (h0 : r ∉ Cert.ReferenceIdeal.RefRun.ops0b_W := by decide) (h1 : r ∉ Cert.ReferenceIdeal.RefRun.ops1a_W := by decide) :
    Ry1 m' c (Proc.devRef .tc r) = Rw m' c (Proc.devRef .tc r) := by unfold Ry1; rw [Cert.ReferenceIdeal.RefRun.ops1a_keep _ r h1, Cert.ReferenceIdeal.RefRun.ops0b_keep _ r h0]
theorem Rh1_keep (h0 : r ∉ Cert.ReferenceIdeal.RefRun.ops1b_W := by decide) (h1 : r ∉ Cert.ReferenceIdeal.RefRun.ops2a_W := by decide) :
    Rh1 m' c (Proc.devRef .tc r) = Ry1 m' c (Proc.devRef .tc r) := by unfold Rh1; rw [Cert.ReferenceIdeal.RefRun.ops2a_keep _ r h1, Cert.ReferenceIdeal.RefRun.ops1b_keep _ r h0]
theorem Ry2_keep (h0 : r ∉ Cert.ReferenceIdeal.RefRun.ops2b_W := by decide) (h1 : r ∉ Cert.ReferenceIdeal.RefRun.ops3a_W := by decide) :
    Ry2 m' c (Proc.devRef .tc r) = Rh1 m' c (Proc.devRef .tc r) := by unfold Ry2; rw [Cert.ReferenceIdeal.RefRun.ops3a_keep _ r h1, Cert.ReferenceIdeal.RefRun.ops2b_keep _ r h0]
theorem Rh2_keep (h0 : r ∉ Cert.ReferenceIdeal.RefRun.ops3b_W := by decide) : Rh2 m' c (Proc.devRef .tc r) = Ry2 m' c (Proc.devRef .tc r) := Cert.ReferenceIdeal.RefRun.ops3b_keep _ r h0
theorem Ry3_keep (h0 : r ∉ Cert.ReferenceIdeal.RefRun.ops3c_W := by decide) (h1 : r ∉ Cert.ReferenceIdeal.RefRun.ops4_W := by decide) (h2 : r ∉ Cert.ReferenceIdeal.RefRun.ops5a_W := by decide) :
    Ry3 m' c (Proc.devRef .tc r) = Rh2 m' c (Proc.devRef .tc r) := by unfold Ry3; rw [Cert.ReferenceIdeal.RefRun.ops5a_keep _ r h2, Cert.ReferenceIdeal.RefRun.ops4_keep _ r h1, Cert.ReferenceIdeal.RefRun.ops3c_keep _ r h0]
theorem Rh3_keep (h0 : r ∉ Cert.ReferenceIdeal.RefRun.ops5b_W := by decide) : Rh3 m' c (Proc.devRef .tc r) = Ry3 m' c (Proc.devRef .tc r) := Cert.ReferenceIdeal.RefRun.ops5b_keep _ r h0
theorem Rh4_keep (h0 : r ∉ Cert.ReferenceIdeal.RefRun.ops5c_W := by decide) (h1 : r ∉ Cert.ReferenceIdeal.RefRun.ops6a_W := by decide) :
    Rh4 m' c (Proc.devRef .tc r) = Rh3 m' c (Proc.devRef .tc r) := by unfold Rh4; rw [Cert.ReferenceIdeal.RefRun.ops6a_keep _ r h1, Cert.ReferenceIdeal.RefRun.ops5c_keep _ r h0]

/-! ## What the items keep, the kernel program's side -/

variable (s : Ref Cert.KernelIdeal.sig .tc)

/-- The contents after the piece of the first long stretch that ends with the edge weights. -/
abbrev Kw : Valuation Cert.KernelIdeal.τ Cert.KernelIdeal.sig (Elt Ideal) := after (k02a (F := Ideal)) (W2 m ρ c)

theorem W3_cut : W3 m ρ c = after (k02c (F := Ideal)) (after (k02b (F := Ideal)) (Kw m ρ c)) := by
  show after (Cert.KernelIdeal.Gen.hostOps0_2 (F := Ideal)) (W2 m ρ c) = _
  rw [hostOps0_2_cut, StableHlo.after_append, StableHlo.after_append]
theorem W9_cut : W9 m ρ c = after (k2b (F := Ideal)) (after (k2a (F := Ideal)) (W8 m ρ c)) := by
  show after (Cert.KernelIdeal.Gen.hostOps2 (F := Ideal)) (W8 m ρ c) = _
  rw [hostOps2_cut, StableHlo.after_append]
theorem W15_cut : W15 m ρ c = after (k4b (F := Ideal)) (after (k4a (F := Ideal)) (W14 m ρ c)) := by
  show after (Cert.KernelIdeal.Gen.hostOps4 (F := Ideal)) (W14 m ρ c) = _
  rw [hostOps4_cut, StableHlo.after_append]
theorem W21_cut : W21 m ρ c = after (k6b (F := Ideal)) (after (k6a (F := Ideal)) (W20 m ρ c)) := by
  show after (Cert.KernelIdeal.Gen.hostOps6 (F := Ideal)) (W20 m ρ c) = _
  rw [hostOps6_cut, StableHlo.after_append]

theorem W8_keep (h4 : ∀ w, Pipeline.arrRef Cert.KernelIdeal.spec0 w ≠ s := by decide) (h5 : s ∉ hostOps1_W := by decide) (h6 : s ∉ hostOps1_1_W := by decide)
    (h7 : s ∉ hostOps1_2_W := by decide) (h8 : ∀ w, Pipeline.arrRef Cert.KernelIdeal.spec1 w ≠ s := by decide)
    (hb : s ∉ k02b_W := by decide) (hc : s ∉ k02c_W := by decide) :
    W8 m ρ c (Proc.devRef .tc s) = Kw m ρ c (Proc.devRef .tc s) := by
  rw [W8_of_ne m ρ c s h8, W7_of m ρ c s h7, W6_of m ρ c s h6, W5_of m ρ c s h5, W4_of_ne m ρ c s h4, W3_cut, k02c_keep _ s hc, k02b_keep _ s hb]
theorem W14_keep (h9 : s ∉ hostOps2_W := by decide) (h10 : ∀ w, Pipeline.arrRef Cert.KernelIdeal.spec2 w ≠ s := by decide) (h11 : s ∉ hostOps3_W := by decide)
    (h12 : s ∉ hostOps3_1_W := by decide) (h13 : s ∉ hostOps3_2_W := by decide) (h14 : ∀ w, Pipeline.arrRef Cert.KernelIdeal.spec3 w ≠ s := by decide) :
    W14 m ρ c (Proc.devRef .tc s) = W8 m ρ c (Proc.devRef .tc s) := by
  rw [W14_of_ne m ρ c s h14, W13_of m ρ c s h13, W12_of m ρ c s h12, W11_of m ρ c s h11, W10_of_ne m ρ c s h10, W9_of m ρ c s h9]
theorem W20_keep (h15 : s ∉ hostOps4_W := by decide) (h16 : ∀ w, Pipeline.arrRef Cert.KernelIdeal.spec4 w ≠ s := by decide) (h17 : s ∉ hostOps5_W := by decide)
    (h18 : s ∉ hostOps5_1_W := by decide) (h19 : s ∉ hostOps5_2_W := by decide) (h20 : ∀ w, Pipeline.arrRef Cert.KernelIdeal.spec5 w ≠ s := by decide) :
    W20 m ρ c (Proc.devRef .tc s) = W14 m ρ c (Proc.devRef .tc s) := by
  rw [W20_of_ne m ρ c s h20, W19_of m ρ c s h19, W18_of m ρ c s h18, W17_of m ρ c s h17, W16_of_ne m ρ c s h16, W15_of m ρ c s h15]

/-! ## The arguments at every stage -/

/-- The memories agree on the eighteen arguments. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)

/-! ## The nine stages in order -/

set_option maxHeartbeats 4000000 in
/-- From memories agreeing on the arguments, the kernel program's result buffer at its last boundary holds what the
    reference's operations leave in its result buffer. -/
theorem result_eq (hag : Agree m m' c) :
    W24 m ρ c (Proc.devRef .tc Cert.KernelIdeal.main_v283) = Rout m' c (Proc.devRef .tc Cert.ReferenceIdeal.main_v350) := by
  obtain ⟨a0, a1, a2, a3, a4, a5, a6, a7, a8, a9, a10, a11, a12, a13, a14, a15, a16, a17⟩ := hag
  -- the edge endpoints and weights
  have hs : Kw m ρ c (Proc.devRef .tc Cert.KernelIdeal.main_v1) = Rw m' c (Proc.devRef .tc Cert.ReferenceIdeal.main_v1) := cp_src (W0 m ρ c) (R0 m' c) a1.symm
  have hd : Kw m ρ c (Proc.devRef .tc Cert.KernelIdeal.main_v3) = Rw m' c (Proc.devRef .tc Cert.ReferenceIdeal.main_v3) := cp_dst (W0 m ρ c) (R0 m' c) a1.symm
  have hw : Kw m ρ c (Proc.devRef .tc Cert.KernelIdeal.main_v29) = Rw m' c (Proc.devRef .tc Cert.ReferenceIdeal.main_v29) := cp_w (W0 m ρ c) (R0 m' c) a1.symm
  -- the first layer
  have e0 : Kw m ρ c (Proc.devRef .tc Cert.KernelIdeal.main_arg0) = Rw m' c (Proc.devRef .tc Cert.ReferenceIdeal.main_arg0) := by
    unfold Kw
    rw [k02a_keep _ Cert.KernelIdeal.main_arg0, W2_kept m ρ c Cert.KernelIdeal.main_arg0, Rw_keep m' c Cert.ReferenceIdeal.main_arg0]
    exact a0.symm
  have e2 : Kw m ρ c (Proc.devRef .tc Cert.KernelIdeal.main_arg2) = Rw m' c (Proc.devRef .tc Cert.ReferenceIdeal.main_arg2) := by
    unfold Kw
    rw [k02a_keep _ Cert.KernelIdeal.main_arg2, W2_kept m ρ c Cert.KernelIdeal.main_arg2, Rw_keep m' c Cert.ReferenceIdeal.main_arg2]
    exact a2.symm
  have e3 : Kw m ρ c (Proc.devRef .tc Cert.KernelIdeal.main_arg3) = Rw m' c (Proc.devRef .tc Cert.ReferenceIdeal.main_arg3) := by
    unfold Kw
    rw [k02a_keep _ Cert.KernelIdeal.main_arg3, W2_kept m ρ c Cert.KernelIdeal.main_arg3, Rw_keep m' c Cert.ReferenceIdeal.main_arg3]
    exact a3.symm
  have y1 : W4 m ρ c (Proc.devRef .tc Cert.KernelIdeal.main_v85) = Ry1 m' c (Proc.devRef .tc Cert.ReferenceIdeal.main_v93) := by
    rw [show W4 m ρ c (Proc.devRef .tc Cert.KernelIdeal.main_v85) = (Cert.KernelIdeal.Frm.dat0 (V3 m ρ) c).arrAt 3 Cert.KernelIdeal.cfg0.N from W4_arr m ρ c 3, Cert.KernelIdeal.Val.final0 (V3 m ρ) c]
    show Cert.KernelIdeal.Val.dense0 (W3 m ρ c (Proc.devRef .tc Cert.KernelIdeal.main_v81)) (W3 m ρ c (Proc.devRef .tc Cert.KernelIdeal.main_v83)) (W3 m ρ c (Proc.devRef .tc Cert.KernelIdeal.main_v84)) = _
    rw [W3_cut]
    exact stage_y1 (Kw m ρ c) (Rw m' c) e0 hw hs hd e2 e3
  have e4 : W4 m ρ c (Proc.devRef .tc Cert.KernelIdeal.main_arg4) = Ry1 m' c (Proc.devRef .tc Cert.ReferenceIdeal.main_arg4) := by
    rw [W4_kept m ρ c Cert.KernelIdeal.main_arg4, Ry1_keep m' c Cert.ReferenceIdeal.main_arg4, Rw_keep m' c Cert.ReferenceIdeal.main_arg4]
    exact a4.symm
  have e5 : W4 m ρ c (Proc.devRef .tc Cert.KernelIdeal.main_arg5) = Ry1 m' c (Proc.devRef .tc Cert.ReferenceIdeal.main_arg5) := by
    rw [W4_kept m ρ c Cert.KernelIdeal.main_arg5, Ry1_keep m' c Cert.ReferenceIdeal.main_arg5, Rw_keep m' c Cert.ReferenceIdeal.main_arg5]
    exact a5.symm
  have h1 : W8 m ρ c (Proc.devRef .tc Cert.KernelIdeal.main_v94) = Rh1 m' c (Proc.devRef .tc Cert.ReferenceIdeal.main_v112) := by
    rw [show W8 m ρ c (Proc.devRef .tc Cert.KernelIdeal.main_v94) = (Cert.KernelIdeal.Frm.dat1 (V7 m ρ) c).arrAt 5 Cert.KernelIdeal.cfg1.N from W8_arr m ρ c 5, Cert.KernelIdeal.Val.final1 (V7 m ρ) c]
    exact stage_h1 (W4 m ρ c) (Ry1 m' c) y1 e4 e5
  -- the second layer
  have hs8 : W8 m ρ c (Proc.devRef .tc Cert.KernelIdeal.main_v1) = Rh1 m' c (Proc.devRef .tc Cert.ReferenceIdeal.main_v1) := by
    rw [W8_keep m ρ c Cert.KernelIdeal.main_v1, Rh1_keep m' c Cert.ReferenceIdeal.main_v1, Ry1_keep m' c Cert.ReferenceIdeal.main_v1]
    exact hs
  have hd8 : W8 m ρ c (Proc.devRef .tc Cert.KernelIdeal.main_v3) = Rh1 m' c (Proc.devRef .tc Cert.ReferenceIdeal.main_v3) := by
    rw [W8_keep m ρ c Cert.KernelIdeal.main_v3, Rh1_keep m' c Cert.ReferenceIdeal.main_v3, Ry1_keep m' c Cert.ReferenceIdeal.main_v3]
    exact hd
  have hw8 : W8 m ρ c (Proc.devRef .tc Cert.KernelIdeal.main_v29) = Rh1 m' c (Proc.devRef .tc Cert.ReferenceIdeal.main_v29) := by
    rw [W8_keep m ρ c Cert.KernelIdeal.main_v29, Rh1_keep m' c Cert.ReferenceIdeal.main_v29, Ry1_keep m' c Cert.ReferenceIdeal.main_v29]
    exact hw
  have e6 : W8 m ρ c (Proc.devRef .tc Cert.KernelIdeal.main_arg6) = Rh1 m' c (Proc.devRef .tc Cert.ReferenceIdeal.main_arg6) := by
    rw [W8_kept m ρ c Cert.KernelIdeal.main_arg6, Rh1_keep m' c Cert.ReferenceIdeal.main_arg6, Ry1_keep m' c Cert.ReferenceIdeal.main_arg6, Rw_keep m' c Cert.ReferenceIdeal.main_arg6]
    exact a6.symm
  have e7 : W8 m ρ c (Proc.devRef .tc Cert.KernelIdeal.main_arg7) = Rh1 m' c (Proc.devRef .tc Cert.ReferenceIdeal.main_arg7) := by
    rw [W8_kept m ρ c Cert.KernelIdeal.main_arg7, Rh1_keep m' c Cert.ReferenceIdeal.main_arg7, Ry1_keep m' c Cert.ReferenceIdeal.main_arg7, Rw_keep m' c Cert.ReferenceIdeal.main_arg7]
    exact a7.symm
  have y2 : W10 m ρ c (Proc.devRef .tc Cert.KernelIdeal.main_v150) = Ry2 m' c (Proc.devRef .tc Cert.ReferenceIdeal.main_v176) := by
    rw [show W10 m ρ c (Proc.devRef .tc Cert.KernelIdeal.main_v150) = (Cert.KernelIdeal.Frm.dat2 (V9 m ρ) c).arrAt 3 Cert.KernelIdeal.cfg2.N from W10_arr m ρ c 3, Cert.KernelIdeal.Val.final2 (V9 m ρ) c]
    show Cert.KernelIdeal.Val.dense2 (W9 m ρ c (Proc.devRef .tc Cert.KernelIdeal.main_v146)) (W9 m ρ c (Proc.devRef .tc Cert.KernelIdeal.main_v148)) (W9 m ρ c (Proc.devRef .tc Cert.KernelIdeal.main_v149)) = _
    rw [W9_cut]
    exact stage_y2 (W8 m ρ c) (Rh1 m' c) h1 hw8 hs8 hd8 e6 e7
  have e8 : W10 m ρ c (Proc.devRef .tc Cert.KernelIdeal.main_arg8) = Ry2 m' c (Proc.devRef .tc Cert.ReferenceIdeal.main_arg8) := by
    rw [W10_kept m ρ c Cert.KernelIdeal.main_arg8, Ry2_keep m' c Cert.ReferenceIdeal.main_arg8, Rh1_keep m' c Cert.ReferenceIdeal.main_arg8, Ry1_keep m' c Cert.ReferenceIdeal.main_arg8, Rw_keep m' c Cert.ReferenceIdeal.main_arg8]
    exact a8.symm
  have e9 : W10 m ρ c (Proc.devRef .tc Cert.KernelIdeal.main_arg9) = Ry2 m' c (Proc.devRef .tc Cert.ReferenceIdeal.main_arg9) := by
    rw [W10_kept m ρ c Cert.KernelIdeal.main_arg9, Ry2_keep m' c Cert.ReferenceIdeal.main_arg9, Rh1_keep m' c Cert.ReferenceIdeal.main_arg9, Ry1_keep m' c Cert.ReferenceIdeal.main_arg9, Rw_keep m' c Cert.ReferenceIdeal.main_arg9]
    exact a9.symm
  have h2 : W14 m ρ c (Proc.devRef .tc Cert.KernelIdeal.main_v159) = Rh2 m' c (Proc.devRef .tc Cert.ReferenceIdeal.main_v195) := by
    rw [show W14 m ρ c (Proc.devRef .tc Cert.KernelIdeal.main_v159) = (Cert.KernelIdeal.Frm.dat3 (V13 m ρ) c).arrAt 5 Cert.KernelIdeal.cfg3.N from W14_arr m ρ c 5, Cert.KernelIdeal.Val.final3 (V13 m ρ) c]
    exact stage_h2 (W10 m ρ c) (Ry2 m' c) y2 e8 e9
  -- the third layer
  have hs14 : W14 m ρ c (Proc.devRef .tc Cert.KernelIdeal.main_v1) = Rh2 m' c (Proc.devRef .tc Cert.ReferenceIdeal.main_v1) := by
    rw [W14_keep m ρ c Cert.KernelIdeal.main_v1, Rh2_keep m' c Cert.ReferenceIdeal.main_v1, Ry2_keep m' c Cert.ReferenceIdeal.main_v1]
    exact hs8
  have hd14 : W14 m ρ c (Proc.devRef .tc Cert.KernelIdeal.main_v3) = Rh2 m' c (Proc.devRef .tc Cert.ReferenceIdeal.main_v3) := by
    rw [W14_keep m ρ c Cert.KernelIdeal.main_v3, Rh2_keep m' c Cert.ReferenceIdeal.main_v3, Ry2_keep m' c Cert.ReferenceIdeal.main_v3]
    exact hd8
  have hw14 : W14 m ρ c (Proc.devRef .tc Cert.KernelIdeal.main_v29) = Rh2 m' c (Proc.devRef .tc Cert.ReferenceIdeal.main_v29) := by
    rw [W14_keep m ρ c Cert.KernelIdeal.main_v29, Rh2_keep m' c Cert.ReferenceIdeal.main_v29, Ry2_keep m' c Cert.ReferenceIdeal.main_v29]
    exact hw8
  have e10 : W14 m ρ c (Proc.devRef .tc Cert.KernelIdeal.main_arg10) = Rh2 m' c (Proc.devRef .tc Cert.ReferenceIdeal.main_arg10) := by
    rw [W14_kept m ρ c Cert.KernelIdeal.main_arg10, Rh2_keep m' c Cert.ReferenceIdeal.main_arg10, Ry2_keep m' c Cert.ReferenceIdeal.main_arg10, Rh1_keep m' c Cert.ReferenceIdeal.main_arg10, Ry1_keep m' c Cert.ReferenceIdeal.main_arg10, Rw_keep m' c Cert.ReferenceIdeal.main_arg10]
    exact a10.symm
  have e11 : W14 m ρ c (Proc.devRef .tc Cert.KernelIdeal.main_arg11) = Rh2 m' c (Proc.devRef .tc Cert.ReferenceIdeal.main_arg11) := by
    rw [W14_kept m ρ c Cert.KernelIdeal.main_arg11, Rh2_keep m' c Cert.ReferenceIdeal.main_arg11, Ry2_keep m' c Cert.ReferenceIdeal.main_arg11, Rh1_keep m' c Cert.ReferenceIdeal.main_arg11, Ry1_keep m' c Cert.ReferenceIdeal.main_arg11, Rw_keep m' c Cert.ReferenceIdeal.main_arg11]
    exact a11.symm
  have y3 : W16 m ρ c (Proc.devRef .tc Cert.KernelIdeal.main_v215) = Ry3 m' c (Proc.devRef .tc Cert.ReferenceIdeal.main_v259) := by
    rw [show W16 m ρ c (Proc.devRef .tc Cert.KernelIdeal.main_v215) = (Cert.KernelIdeal.Frm.dat4 (V15 m ρ) c).arrAt 3 Cert.KernelIdeal.cfg4.N from W16_arr m ρ c 3, Cert.KernelIdeal.Val.final4 (V15 m ρ) c]
    show Cert.KernelIdeal.Val.dense4 (W15 m ρ c (Proc.devRef .tc Cert.KernelIdeal.main_v211)) (W15 m ρ c (Proc.devRef .tc Cert.KernelIdeal.main_v213)) (W15 m ρ c (Proc.devRef .tc Cert.KernelIdeal.main_v214)) = _
    rw [W15_cut]
    exact stage_y3 (W14 m ρ c) (Rh2 m' c) h2 hw14 hs14 hd14 e10 e11
  have e12 : W16 m ρ c (Proc.devRef .tc Cert.KernelIdeal.main_arg12) = Ry3 m' c (Proc.devRef .tc Cert.ReferenceIdeal.main_arg12) := by
    rw [W16_kept m ρ c Cert.KernelIdeal.main_arg12, Ry3_keep m' c Cert.ReferenceIdeal.main_arg12, Rh2_keep m' c Cert.ReferenceIdeal.main_arg12, Ry2_keep m' c Cert.ReferenceIdeal.main_arg12, Rh1_keep m' c Cert.ReferenceIdeal.main_arg12, Ry1_keep m' c Cert.ReferenceIdeal.main_arg12, Rw_keep m' c Cert.ReferenceIdeal.main_arg12]
    exact a12.symm
  have e13 : W16 m ρ c (Proc.devRef .tc Cert.KernelIdeal.main_arg13) = Ry3 m' c (Proc.devRef .tc Cert.ReferenceIdeal.main_arg13) := by
    rw [W16_kept m ρ c Cert.KernelIdeal.main_arg13, Ry3_keep m' c Cert.ReferenceIdeal.main_arg13, Rh2_keep m' c Cert.ReferenceIdeal.main_arg13, Ry2_keep m' c Cert.ReferenceIdeal.main_arg13, Rh1_keep m' c Cert.ReferenceIdeal.main_arg13, Ry1_keep m' c Cert.ReferenceIdeal.main_arg13, Rw_keep m' c Cert.ReferenceIdeal.main_arg13]
    exact a13.symm
  have h3 : W20 m ρ c (Proc.devRef .tc Cert.KernelIdeal.main_v224) = Rh3 m' c (Proc.devRef .tc Cert.ReferenceIdeal.main_v278) := by
    rw [show W20 m ρ c (Proc.devRef .tc Cert.KernelIdeal.main_v224) = (Cert.KernelIdeal.Frm.dat5 (V19 m ρ) c).arrAt 5 Cert.KernelIdeal.cfg5.N from W20_arr m ρ c 5, Cert.KernelIdeal.Val.final5 (V19 m ρ) c]
    exact stage_h3 (W16 m ρ c) (Ry3 m' c) y3 e12 e13
  -- the fourth layer
  have hs20 : W20 m ρ c (Proc.devRef .tc Cert.KernelIdeal.main_v1) = Rh3 m' c (Proc.devRef .tc Cert.ReferenceIdeal.main_v1) := by
    rw [W20_keep m ρ c Cert.KernelIdeal.main_v1, Rh3_keep m' c Cert.ReferenceIdeal.main_v1, Ry3_keep m' c Cert.ReferenceIdeal.main_v1]
    exact hs14
  have hd20 : W20 m ρ c (Proc.devRef .tc Cert.KernelIdeal.main_v3) = Rh3 m' c (Proc.devRef .tc Cert.ReferenceIdeal.main_v3) := by
    rw [W20_keep m ρ c Cert.KernelIdeal.main_v3, Rh3_keep m' c Cert.ReferenceIdeal.main_v3, Ry3_keep m' c Cert.ReferenceIdeal.main_v3]
    exact hd14
  have hw20 : W20 m ρ c (Proc.devRef .tc Cert.KernelIdeal.main_v29) = Rh3 m' c (Proc.devRef .tc Cert.ReferenceIdeal.main_v29) := by
    rw [W20_keep m ρ c Cert.KernelIdeal.main_v29, Rh3_keep m' c Cert.ReferenceIdeal.main_v29, Ry3_keep m' c Cert.ReferenceIdeal.main_v29]
    exact hw14
  have e14 : W20 m ρ c (Proc.devRef .tc Cert.KernelIdeal.main_arg14) = Rh3 m' c (Proc.devRef .tc Cert.ReferenceIdeal.main_arg14) := by
    rw [W20_kept m ρ c Cert.KernelIdeal.main_arg14, Rh3_keep m' c Cert.ReferenceIdeal.main_arg14, Ry3_keep m' c Cert.ReferenceIdeal.main_arg14, Rh2_keep m' c Cert.ReferenceIdeal.main_arg14, Ry2_keep m' c Cert.ReferenceIdeal.main_arg14, Rh1_keep m' c Cert.ReferenceIdeal.main_arg14, Ry1_keep m' c Cert.ReferenceIdeal.main_arg14, Rw_keep m' c Cert.ReferenceIdeal.main_arg14]
    exact a14.symm
  have e15 : W20 m ρ c (Proc.devRef .tc Cert.KernelIdeal.main_arg15) = Rh3 m' c (Proc.devRef .tc Cert.ReferenceIdeal.main_arg15) := by
    rw [W20_kept m ρ c Cert.KernelIdeal.main_arg15, Rh3_keep m' c Cert.ReferenceIdeal.main_arg15, Ry3_keep m' c Cert.ReferenceIdeal.main_arg15, Rh2_keep m' c Cert.ReferenceIdeal.main_arg15, Ry2_keep m' c Cert.ReferenceIdeal.main_arg15, Rh1_keep m' c Cert.ReferenceIdeal.main_arg15, Ry1_keep m' c Cert.ReferenceIdeal.main_arg15, Rw_keep m' c Cert.ReferenceIdeal.main_arg15]
    exact a15.symm
  have h4 : W22 m ρ c (Proc.devRef .tc Cert.KernelIdeal.main_v280) = Rh4 m' c (Proc.devRef .tc Cert.ReferenceIdeal.main_v341) := by
    rw [show W22 m ρ c (Proc.devRef .tc Cert.KernelIdeal.main_v280) = (Cert.KernelIdeal.Frm.dat6 (V21 m ρ) c).arrAt 3 Cert.KernelIdeal.cfg6.N from W22_arr m ρ c 3, Cert.KernelIdeal.Val.final6 (V21 m ρ) c]
    show Cert.KernelIdeal.Val.dense6 (W21 m ρ c (Proc.devRef .tc Cert.KernelIdeal.main_v276)) (W21 m ρ c (Proc.devRef .tc Cert.KernelIdeal.main_v278)) (W21 m ρ c (Proc.devRef .tc Cert.KernelIdeal.main_v279)) = _
    rw [W21_cut]
    exact stage_y4 (W20 m ρ c) (Rh3 m' c) h3 hw20 hs20 hd20 e14 e15
  -- the head
  have e16 : W22 m ρ c (Proc.devRef .tc Cert.KernelIdeal.main_arg16) = Rh4 m' c (Proc.devRef .tc Cert.ReferenceIdeal.main_arg16) := by
    rw [W22_kept m ρ c Cert.KernelIdeal.main_arg16, Rh4_keep m' c Cert.ReferenceIdeal.main_arg16, Rh3_keep m' c Cert.ReferenceIdeal.main_arg16, Ry3_keep m' c Cert.ReferenceIdeal.main_arg16, Rh2_keep m' c Cert.ReferenceIdeal.main_arg16, Ry2_keep m' c Cert.ReferenceIdeal.main_arg16, Rh1_keep m' c Cert.ReferenceIdeal.main_arg16, Ry1_keep m' c Cert.ReferenceIdeal.main_arg16, Rw_keep m' c Cert.ReferenceIdeal.main_arg16]
    exact a16.symm
  have e17 : W22 m ρ c (Proc.devRef .tc Cert.KernelIdeal.main_arg17) = Rh4 m' c (Proc.devRef .tc Cert.ReferenceIdeal.main_arg17) := by
    rw [W22_kept m ρ c Cert.KernelIdeal.main_arg17, Rh4_keep m' c Cert.ReferenceIdeal.main_arg17, Rh3_keep m' c Cert.ReferenceIdeal.main_arg17, Ry3_keep m' c Cert.ReferenceIdeal.main_arg17, Rh2_keep m' c Cert.ReferenceIdeal.main_arg17, Ry2_keep m' c Cert.ReferenceIdeal.main_arg17, Rh1_keep m' c Cert.ReferenceIdeal.main_arg17, Ry1_keep m' c Cert.ReferenceIdeal.main_arg17, Rw_keep m' c Cert.ReferenceIdeal.main_arg17]
    exact a17.symm
  rw [show W24 m ρ c (Proc.devRef .tc Cert.KernelIdeal.main_v283) = (Cert.KernelIdeal.Frm.dat7 (V23 m ρ) c).arrAt 3 Cert.KernelIdeal.cfg7.N from W24_arr m ρ c 3, Cert.KernelIdeal.Val.final7 (V23 m ρ) c]
  exact stage_out (W22 m ρ c) (Rh4 m' c) h4 e16 e17

end Cert.Proof.Sim

end
-- ==== Proof.Alg.lean ====
/-
  The last claim: at the extended reals the kernel program and the reference, run from memories that agree on the
  eighteen arguments, end with equal results. Both runs are known: the kernel program's (Proof/KIFrame.lean) ends
  with every unscoped buffer at the last boundary's contents, the reference's (Proof/RefRun.lean) with every buffer
  at the fold of its 500 host operations. What joins them is the VALUE EQUATION below: the reference's fold read at
  its result buffer is the kernel program's last boundary read at its result buffer. Mathematically the two sides
  are the same four-layer network: per layer the kernel multiplies the row-joined features [T0 | T1 | T2 | T3]
  (N × 4C) by the weight stacked as (4C × H), the reference adds the four products Tk · W[k]; the sum over the 4C
  joined columns regroups into the four sums over C (addition of extended reals is commutative and associative, no
  finiteness is needed); the activations agree (a select on y > 0 and one on y ≥ 0 differ only at y = 0, where both
  branches are 0); the batch normalisation and the head are the same formulas computed in a kernel on one side and
  by host operations on the other.
-/
import proofs.«133509_j41223096107483_1_alg».proof.Defs
import proofs.«133509_j41223096107483_1_alg».proof.Proof.RefRun
import proofs.«133509_j41223096107483_1_alg».proof.Proof.KIFrame
import proofs.«133509_j41223096107483_1_alg».proof.Proof.SimChain
import proofs.«133509_j41223096107483_1_alg».proof.Proof.Gen.Pre_finite_inputs

set_option maxRecDepth 16384

noncomputable section

namespace Cert.Proof.AlgClaims

open Idealize.ShloMosaic Idealize.ShloMosaic.TcCoe Idealize.SL.Sem

/-- THE VALUE EQUATION. From memories agreeing on the arguments, the reference's operations folded over its launch
    contents leave in its result buffer what the kernel program's last boundary holds in its result buffer. -/
theorem value_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (c : Dev Cert.KernelIdeal.nD) :
    StableHlo.after (Cert.ReferenceIdeal.RefRun.ops (F := Ideal)) (StableHlo.launchContents m' c) (Proc.devRef .tc Cert.ReferenceIdeal.main_v350)
      = Cert.KernelIdeal.Frm.W24 (F := Ideal) m ρ c (Proc.devRef .tc Cert.KernelIdeal.main_v283) := by
  rw [Cert.Proof.Sim.after_ops_eq]
  exact (Cert.Proof.Sim.result_eq m ρ m' c (hagree c)).symm

set_option backward.isDefEq.respectTransparency.types false in
theorem algebraic : Cert.algebraic_KernelIdeal_ReferenceIdeal := by
  intro m ρ m' ρ' _ hagree
  refine ⟨fun c => Cert.KernelIdeal.Frm.W24 (F := Ideal) m ρ c (Proc.devRef .tc Cert.KernelIdeal.main_v283), ?_, ?_⟩
  · exact (θ_run Cert.KernelIdeal.defs _ _).mono (fun r h c =>
      ⟨h c _ (Cert.KernelIdeal.Frm.mem_uc Cert.KernelIdeal.main_v283 (by decide)),
       (h c _ (Cert.KernelIdeal.Frm.mem_uc Cert.KernelIdeal.main_arg0 (by decide))).trans (Cert.KernelIdeal.Frm.W24_kept m ρ c Cert.KernelIdeal.main_arg0),
       (h c _ (Cert.KernelIdeal.Frm.mem_uc Cert.KernelIdeal.main_arg1 (by decide))).trans (Cert.KernelIdeal.Frm.W24_kept m ρ c Cert.KernelIdeal.main_arg1),
       (h c _ (Cert.KernelIdeal.Frm.mem_uc Cert.KernelIdeal.main_arg2 (by decide))).trans (Cert.KernelIdeal.Frm.W24_kept m ρ c Cert.KernelIdeal.main_arg2),
       (h c _ (Cert.KernelIdeal.Frm.mem_uc Cert.KernelIdeal.main_arg3 (by decide))).trans (Cert.KernelIdeal.Frm.W24_kept m ρ c Cert.KernelIdeal.main_arg3),
       (h c _ (Cert.KernelIdeal.Frm.mem_uc Cert.KernelIdeal.main_arg4 (by decide))).trans (Cert.KernelIdeal.Frm.W24_kept m ρ c Cert.KernelIdeal.main_arg4),
       (h c _ (Cert.KernelIdeal.Frm.mem_uc Cert.KernelIdeal.main_arg5 (by decide))).trans (Cert.KernelIdeal.Frm.W24_kept m ρ c Cert.KernelIdeal.main_arg5),
       (h c _ (Cert.KernelIdeal.Frm.mem_uc Cert.KernelIdeal.main_arg6 (by decide))).trans (Cert.KernelIdeal.Frm.W24_kept m ρ c Cert.KernelIdeal.main_arg6),
       (h c _ (Cert.KernelIdeal.Frm.mem_uc Cert.KernelIdeal.main_arg7 (by decide))).trans (Cert.KernelIdeal.Frm.W24_kept m ρ c Cert.KernelIdeal.main_arg7),
       (h c _ (Cert.KernelIdeal.Frm.mem_uc Cert.KernelIdeal.main_arg8 (by decide))).trans (Cert.KernelIdeal.Frm.W24_kept m ρ c Cert.KernelIdeal.main_arg8),
       (h c _ (Cert.KernelIdeal.Frm.mem_uc Cert.KernelIdeal.main_arg9 (by decide))).trans (Cert.KernelIdeal.Frm.W24_kept m ρ c Cert.KernelIdeal.main_arg9),
       (h c _ (Cert.KernelIdeal.Frm.mem_uc Cert.KernelIdeal.main_arg10 (by decide))).trans (Cert.KernelIdeal.Frm.W24_kept m ρ c Cert.KernelIdeal.main_arg10),
       (h c _ (Cert.KernelIdeal.Frm.mem_uc Cert.KernelIdeal.main_arg11 (by decide))).trans (Cert.KernelIdeal.Frm.W24_kept m ρ c Cert.KernelIdeal.main_arg11),
       (h c _ (Cert.KernelIdeal.Frm.mem_uc Cert.KernelIdeal.main_arg12 (by decide))).trans (Cert.KernelIdeal.Frm.W24_kept m ρ c Cert.KernelIdeal.main_arg12),
       (h c _ (Cert.KernelIdeal.Frm.mem_uc Cert.KernelIdeal.main_arg13 (by decide))).trans (Cert.KernelIdeal.Frm.W24_kept m ρ c Cert.KernelIdeal.main_arg13),
       (h c _ (Cert.KernelIdeal.Frm.mem_uc Cert.KernelIdeal.main_arg14 (by decide))).trans (Cert.KernelIdeal.Frm.W24_kept m ρ c Cert.KernelIdeal.main_arg14),
       (h c _ (Cert.KernelIdeal.Frm.mem_uc Cert.KernelIdeal.main_arg15 (by decide))).trans (Cert.KernelIdeal.Frm.W24_kept m ρ c Cert.KernelIdeal.main_arg15),
       (h c _ (Cert.KernelIdeal.Frm.mem_uc Cert.KernelIdeal.main_arg16 (by decide))).trans (Cert.KernelIdeal.Frm.W24_kept m ρ c Cert.KernelIdeal.main_arg16),
       (h c _ (Cert.KernelIdeal.Frm.mem_uc Cert.KernelIdeal.main_arg17 (by decide))).trans (Cert.KernelIdeal.Frm.W24_kept m ρ c Cert.KernelIdeal.main_arg17)⟩)
      (Cert.KernelIdeal.Frm.run_main (F := Ideal) m ρ)
  · exact (θ_run Cert.ReferenceIdeal.defs _ _).mono (fun r h c =>
      ⟨(h c Cert.ReferenceIdeal.main_v350).trans (value_eq m ρ m' hagree c),
       (h c Cert.ReferenceIdeal.main_arg0).trans (Cert.ReferenceIdeal.RefRun.kept _ Cert.ReferenceIdeal.main_arg0),
       (h c Cert.ReferenceIdeal.main_arg1).trans (Cert.ReferenceIdeal.RefRun.kept _ Cert.ReferenceIdeal.main_arg1),
       (h c Cert.ReferenceIdeal.main_arg2).trans (Cert.ReferenceIdeal.RefRun.kept _ Cert.ReferenceIdeal.main_arg2),
       (h c Cert.ReferenceIdeal.main_arg3).trans (Cert.ReferenceIdeal.RefRun.kept _ Cert.ReferenceIdeal.main_arg3),
       (h c Cert.ReferenceIdeal.main_arg4).trans (Cert.ReferenceIdeal.RefRun.kept _ Cert.ReferenceIdeal.main_arg4),
       (h c Cert.ReferenceIdeal.main_arg5).trans (Cert.ReferenceIdeal.RefRun.kept _ Cert.ReferenceIdeal.main_arg5),
       (h c Cert.ReferenceIdeal.main_arg6).trans (Cert.ReferenceIdeal.RefRun.kept _ Cert.ReferenceIdeal.main_arg6),
       (h c Cert.ReferenceIdeal.main_arg7).trans (Cert.ReferenceIdeal.RefRun.kept _ Cert.ReferenceIdeal.main_arg7),
       (h c Cert.ReferenceIdeal.main_arg8).trans (Cert.ReferenceIdeal.RefRun.kept _ Cert.ReferenceIdeal.main_arg8),
       (h c Cert.ReferenceIdeal.main_arg9).trans (Cert.ReferenceIdeal.RefRun.kept _ Cert.ReferenceIdeal.main_arg9),
       (h c Cert.ReferenceIdeal.main_arg10).trans (Cert.ReferenceIdeal.RefRun.kept _ Cert.ReferenceIdeal.main_arg10),
       (h c Cert.ReferenceIdeal.main_arg11).trans (Cert.ReferenceIdeal.RefRun.kept _ Cert.ReferenceIdeal.main_arg11),
       (h c Cert.ReferenceIdeal.main_arg12).trans (Cert.ReferenceIdeal.RefRun.kept _ Cert.ReferenceIdeal.main_arg12),
       (h c Cert.ReferenceIdeal.main_arg13).trans (Cert.ReferenceIdeal.RefRun.kept _ Cert.ReferenceIdeal.main_arg13),
       (h c Cert.ReferenceIdeal.main_arg14).trans (Cert.ReferenceIdeal.RefRun.kept _ Cert.ReferenceIdeal.main_arg14),
       (h c Cert.ReferenceIdeal.main_arg15).trans (Cert.ReferenceIdeal.RefRun.kept _ Cert.ReferenceIdeal.main_arg15),
       (h c Cert.ReferenceIdeal.main_arg16).trans (Cert.ReferenceIdeal.RefRun.kept _ Cert.ReferenceIdeal.main_arg16),
       (h c Cert.ReferenceIdeal.main_arg17).trans (Cert.ReferenceIdeal.RefRun.kept _ Cert.ReferenceIdeal.main_arg17)⟩)
      (Cert.ReferenceIdeal.RefRun.run_main (F := Ideal) m' ρ')

end Cert.Proof.AlgClaims

end
-- ==== Proof.lean ====
/- The proof of `Cert.Claim`. The three frames: each program runs to the end, faults nowhere and leaves its
   eighteen argument arrays unchanged — the kernel program (as printed and idealized) because its @main is sixteen
   stretches of host operations and eight kernel regions, each of which writes buffers of its own only
   (Proof/KFrame.lean, Proof/KIFrame.lean over the regions' bodies Proof/KR*.lean, Proof/KIR*.lean); the reference
   because it is a straight line of host operations in single-assignment form (Proof/RefRun.lean). The idealization
   rewrote nothing, so `preserves` is trivial. The equality of the two results at the extended reals is
   Proof/Alg.lean. -/
import proofs.«133509_j41223096107483_1_alg».proof.Defs
import proofs.«133509_j41223096107483_1_alg».proof.Proof.Gen.Kernel
import proofs.«133509_j41223096107483_1_alg».proof.Proof.Gen.KernelIdeal
import proofs.«133509_j41223096107483_1_alg».proof.Proof.Gen.ReferenceIdeal
import proofs.«133509_j41223096107483_1_alg».proof.Proof.Gen.Pre_finite_inputs
import proofs.«133509_j41223096107483_1_alg».proof.Proof.KFrame
import proofs.«133509_j41223096107483_1_alg».proof.Proof.KIFrame
import proofs.«133509_j41223096107483_1_alg».proof.Proof.RefRun
import proofs.«133509_j41223096107483_1_alg».proof.Proof.Alg
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Frm.frame (F := Bits) m ρ,
    fun m ρ _ => Cert.KernelIdeal.Frm.frame (F := Ideal) m ρ,
    RefClaims.frame_ri,
    trivial,
    AlgClaims.algebraic⟩

end Cert.Proof

end
